-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v595)) (v1 : (c : Dev Cert.KernelIdeal.nD) → Buf (Elt Ideal) ((c.tc : Thread Cert.KernelIdeal.nD Cert.KernelIdeal.τ).loc Cert.KernelIdeal.main_v610)) (v2 : (c : Dev Cert.KernelIdeal.nD) → Buf (Elt Ideal) ((c.tc : Thread Cert.KernelIdeal.nD Cert.KernelIdeal.τ).loc Cert.KernelIdeal.main_v632)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v595) = v0 c
          ∧ r.2.mem ((c.tc : Thread Cert.KernelIdeal.nD Cert.KernelIdeal.τ).loc Cert.KernelIdeal.main_v610) = v1 c
          ∧ r.2.mem ((c.tc : Thread Cert.KernelIdeal.nD Cert.KernelIdeal.τ).loc Cert.KernelIdeal.main_v632) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v970) = v0 c
          ∧ r.2.mem ((c.tc : Thread Cert.ReferenceIdeal.nD Cert.ReferenceIdeal.τ).loc Cert.ReferenceIdeal.main_v978) = v1 c
          ∧ r.2.mem ((c.tc : Thread Cert.ReferenceIdeal.nD Cert.ReferenceIdeal.τ).loc Cert.ReferenceIdeal.main_v986) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S20000x128 : Shape := ⟨2, ![20000, 128]⟩
abbrev S5000x128 : Shape := ⟨2, ![5000, 128]⟩
abbrev S3x8x128x128 : Shape := ⟨4, ![3, 8, 128, 128]⟩
abbrev S3x8x128 : Shape := ⟨3, ![3, 8, 128]⟩
abbrev S2x500000 : Shape := ⟨2, ![2, 500000]⟩
abbrev S2x250000 : Shape := ⟨2, ![2, 250000]⟩
abbrev S2x100000 : Shape := ⟨2, ![2, 100000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S5000x128 : S_.BroadcastsInDim S5000x128 (![] : Fin 0 → Fin S5000x128.rank)
  reducesTo_S5000x128_S_d0_1 : S5000x128.ReducesTo [0, 1] S_
  bcast_S_S3x8x128x128 : S_.BroadcastsInDim S3x8x128x128 (![] : Fin 0 → Fin S3x8x128x128.rank)
  reducesTo_S3x8x128x128_S_d0_1_2_3 : S3x8x128x128.ReducesTo [0, 1, 2, 3] S_
  bcast_S_S3x8x128 : S_.BroadcastsInDim S3x8x128 (![] : Fin 0 → Fin S3x8x128.rank)
  reducesTo_S3x8x128_S_d0_1_2 : S3x8x128.ReducesTo [0, 1, 2] S_

variable [Facts]

def fn_part1 {F : FTy → Type} [FloatOps F] (main_arg4 : FVec F S3x8x128 .f32) (main_arg5 : FVec F S3x8x128x128 .f32) (main_v13 : IVec S_ 1) (main_v16 : IVec S3x8x128x128 1) : IVec S_ 1 :=
  let main_c_5 : IVec S_ 1 := constantI S_ 1 1#1
  let main_v17 : IVec S_ 1 := (fun x v => Host.reduce IntOp.andi x v reducesTo_S3x8x128x128_S_d0_1_2_3 h_S_) main_v16 main_c_5
  let main_v18 : IVec S_ 1 := andi main_v13 main_v17
  let main_v19 : FVec F S3x8x128 .f32 := Host.absf main_arg4
  let main_cst_6 : FVec F S_ .f32 := constant S_ .f32 0x7F800000#32
  let main_v20 : FVec F S3x8x128 .f32 := broadcastInDim S3x8x128 ![] bcast_S_S3x8x128 main_cst_6
  let main_v21 : IVec S3x8x128 1 := cmpf .olt main_v19 main_v20
  let main_c_7 : IVec S_ 1 := constantI S_ 1 1#1
  let main_v22 : IVec S_ 1 := (fun x v => Host.reduce IntOp.andi x v reducesTo_S3x8x128_S_d0_1_2 h_S_) main_v21 main_c_7
  let main_v23 : IVec S_ 1 := andi main_v18 main_v22
  let main_v24 : FVec F S3x8x128x128 .f32 := Host.absf main_arg5
  let main_cst_8 : FVec F S_ .f32 := constant S_ .f32 0x7F800000#32
  let main_v25 : FVec F S3x8x128x128 .f32 := broadcastInDim S3x8x128x128 ![] bcast_S_S3x8x128x128 main_cst_8
  let main_v26 : IVec S3x8x128x128 1 := cmpf .olt main_v24 main_v25
  let main_c_9 : IVec S_ 1 := constantI S_ 1 1#1
  let main_v27 : IVec S_ 1 := (fun x v => Host.reduce IntOp.andi x v reducesTo_S3x8x128x128_S_d0_1_2_3 h_S_) main_v26 main_c_9
  let main_v28 : IVec S_ 1 := andi main_v23 main_v27
  main_v28

def fn {F : FTy → Type} [FloatOps F] (main_arg0 : FVec F S50000x128 .f32) (main_arg1 : FVec F S20000x128 .f32) (main_arg2 : FVec F S5000x128 .f32) (main_arg3 : FVec F S3x8x128x128 .f32) (main_arg4 : FVec F S3x8x128 .f32) (main_arg5 : FVec F S3x8x128x128 .f32) (main_arg6 : IVec S2x500000 32) (main_arg7 : IVec S2x250000 32) (main_arg8 : IVec S2x250000 32) (main_arg9 : IVec S2x500000 32) (main_arg10 : IVec S2x250000 32) (main_arg11 : IVec S2x250000 32) (main_arg12 : IVec S2x500000 32) (main_arg13 : IVec S2x100000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S5000x128 .f32 := Host.absf main_arg2
  let main_cst_2 : FVec F S_ .f32 := constant S_ .f32 0x7F800000#32
  let main_v10 : FVec F S5000x128 .f32 := broadcastInDim S5000x128 ![] bcast_S_S5000x128 main_cst_2
  let main_v11 : IVec S5000x128 1 := cmpf .olt main_v9 main_v10
  let main_c_3 : IVec S_ 1 := constantI S_ 1 1#1
  let main_v12 : IVec S_ 1 := (fun x v => Host.reduce IntOp.andi x v reducesTo_S5000x128_S_d0_1 h_S_) main_v11 main_c_3
  let main_v13 : IVec S_ 1 := andi main_v8 main_v12
  let main_v14 : FVec F S3x8x128x128 .f32 := Host.absf main_arg3
  let main_cst_4 : FVec F S_ .f32 := constant S_ .f32 0x7F800000#32
  let main_v15 : FVec F S3x8x128x128 .f32 := broadcastInDim S3x8x128x128 ![] bcast_S_S3x8x128x128 main_cst_4
  let main_v16 : IVec S3x8x128x128 1 := cmpf .olt main_v14 main_v15
  fn_part1 (F := F) main_arg4 main_arg5 main_v13 main_v16
-- ==== Kernel.lean ====
abbrev S50000x128 : Shape := ⟨2, ![50000, 128]⟩
abbrev S20000x128 : Shape := ⟨2, ![20000, 128]⟩
abbrev S5000x128 : Shape := ⟨2, ![5000, 128]⟩
abbrev S3x8x128x128 : Shape := ⟨4, ![3, 8, 128, 128]⟩
abbrev S3x8x128 : Shape := ⟨3, ![3, 8, 128]⟩
abbrev S2x500000 : Shape := ⟨2, ![2, 500000]⟩
abbrev S2x250000 : Shape := ⟨2, ![2, 250000]⟩
abbrev S2x100000 : Shape := ⟨2, ![2, 100000]⟩
abbrev S1x500000 : Shape := ⟨2, ![1, 500000]⟩
abbrev S500000 : Shape := ⟨1, ![500000]⟩
abbrev S_ : Shape := ⟨0, ![]⟩
abbrev S20000 : Shape := ⟨1, ![20000]⟩
abbrev S500000x1 : Shape := ⟨2, ![500000, 1]⟩
abbrev S20000x1 : Shape := ⟨2, ![20000, 1]⟩
abbrev S1x250000 : Shape := ⟨2, ![1, 250000]⟩
abbrev S250000 : Shape := ⟨1, ![250000]⟩
abbrev S5000 : Shape := ⟨1, ![5000]⟩
abbrev S250000x1 : Shape := ⟨2, ![250000, 1]⟩
abbrev S5000x1 : Shape := ⟨2, ![5000, 1]⟩
abbrev S50000 : Shape := ⟨1, ![50000]⟩
abbrev S50000x1 : Shape := ⟨2, ![50000, 1]⟩
abbrev S1x100000 : Shape := ⟨2, ![1, 100000]⟩
abbrev S100000 : Shape := ⟨1, ![100000]⟩
abbrev S100000x1 : Shape := ⟨2, ![100000, 1]⟩
abbrev S500000x128 : Shape := ⟨2, ![500000, 128]⟩
abbrev S250000x128 : Shape := ⟨2, ![250000, 128]⟩
abbrev S100000x128 : Shape := ⟨2, ![100000, 128]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S1x128 : Shape := ⟨2, ![1, 128]⟩
abbrev S2000x128 : Shape := ⟨2, ![2000, 128]⟩
abbrev S1000x128 : Shape := ⟨2, ![1000, 128]⟩
abbrev S2000 : Shape := ⟨1, ![2000]⟩
abbrev S2000x1 : Shape := ⟨2, ![2000, 1]⟩
abbrev S1000 : Shape := ⟨1, ![1000]⟩
abbrev S1000x1 : Shape := ⟨2, ![1000, 1]⟩

abbrev nBuf : Space → Nat
  | .hbm => 743
  | .vmem => 156
  | .smem => 0
  | _ => 0

abbrev hbmTy0_0 (i : Nat) : BufTy := match i % 128 with
  | 0 => ⟨S50000x128, .f32⟩
  | 1 => ⟨S20000x128, .f32⟩
  | 2 => ⟨S5000x128, .f32⟩
  | 3 => ⟨S3x8x128x128, .f32⟩
  | 4 => ⟨S3x8x128, .f32⟩
  | 5 => ⟨S3x8x128x128, .f32⟩
  | 6 => ⟨S2x500000, .i32⟩
  | 7 => ⟨S2x250000, .i32⟩
  | 8 => ⟨S2x250000, .i32⟩
  | 9 => ⟨S2x500000, .i32⟩
  | 10 => ⟨S2x250000, .i32⟩
  | 11 => ⟨S2x250000, .i32⟩
  | 12 => ⟨S2x500000, .i32⟩
  | 13 => ⟨S2x100000, .i32⟩
  | 14 => ⟨S1x500000, .i32⟩
  | 15 => ⟨S500000, .i32⟩
  | 16 => ⟨S_, .f32⟩
  | 17 => ⟨S500000, .f32⟩
  | 18 => ⟨S_, .f32⟩
  | 19 => ⟨S20000, .f32⟩
  | 20 => ⟨S500000x1, .i32⟩
  | 21 => ⟨S20000, .f32⟩
  | 22 => ⟨S_, .f32⟩
  | 23 => ⟨S20000, .f32⟩
  | 24 => ⟨S20000, .f32⟩
  | 25 => ⟨S20000x1, .f32⟩
  | 26 => ⟨S1x250000, .i32⟩
  | 27 => ⟨S250000, .i32⟩
  | 28 => ⟨S_, .f32⟩
  | 29 => ⟨S250000, .f32⟩
  | 30 => ⟨S_, .f32⟩
  | 31 => ⟨S5000, .f32⟩
  | 32 => ⟨S250000x1, .i32⟩
  | 33 => ⟨S5000, .f32⟩
  | 34 => ⟨S_, .f32⟩
  | 35 => ⟨S5000, .f32⟩
  | 36 => ⟨S5000, .f32⟩
  | 37 => ⟨S5000x1, .f32⟩
  | 38 => ⟨S1x250000, .i32⟩
  | 39 => ⟨S250000, .i32⟩
  | 40 => ⟨S_, .f32⟩
  | 41 => ⟨S250000, .f32⟩
  | 42 => ⟨S_, .f32⟩
  | 43 => ⟨S5000, .f32⟩
  | 44 => ⟨S250000x1, .i32⟩
  | 45 => ⟨S5000, .f32⟩
  | 46 => ⟨S_, .f32⟩
  | 47 => ⟨S5000, .f32⟩
  | 48 => ⟨S5000, .f32⟩
  | 49 => ⟨S5000x1, .f32⟩
  | 50 => ⟨S1x500000, .i32⟩
  | 51 => ⟨S500000, .i32⟩
  | 52 => ⟨S_, .f32⟩
  | 53 => ⟨S500000, .f32⟩
  | 54 => ⟨S_, .f32⟩
  | 55 => ⟨S50000, .f32⟩
  | 56 => ⟨S500000x1, .i32⟩
  | 57 => ⟨S50000, .f32⟩
  | 58 => ⟨S_, .f32⟩
  | 59 => ⟨S50000, .f32⟩
  | 60 => ⟨S50000, .f32⟩
  | 61 => ⟨S50000x1, .f32⟩
  | 62 => ⟨S1x250000, .i32⟩
  | 63 => ⟨S250000, .i32⟩
  | 64 => ⟨S_, .f32⟩
  | 65 => ⟨S250000, .f32⟩
  | 66 => ⟨S_, .f32⟩
  | 67 => ⟨S20000, .f32⟩
  | 68 => ⟨S250000x1, .i32⟩
  | 69 => ⟨S20000, .f32⟩
  | 70 => ⟨S_, .f32⟩
  | 71 => ⟨S20000, .f32⟩
  | 72 => ⟨S20000, .f32⟩
  | 73 => ⟨S20000x1, .f32⟩
  | 74 => ⟨S1x250000, .i32⟩
  | 75 => ⟨S250000, .i32⟩
  | 76 => ⟨S_, .f32⟩
  | 77 => ⟨S250000, .f32⟩
  | 78 => ⟨S_, .f32⟩
  | 79 => ⟨S50000, .f32⟩
  | 80 => ⟨S250000x1, .i32⟩
  | 81 => ⟨S50000, .f32⟩
  | 82 => ⟨S_, .f32⟩
  | 83 => ⟨S50000, .f32⟩
  | 84 => ⟨S50000, .f32⟩
  | 85 => ⟨S50000x1, .f32⟩
  | 86 => ⟨S1x500000, .i32⟩
  | 87 => ⟨S500000, .i32⟩
  | 88 => ⟨S_, .f32⟩
  | 89 => ⟨S500000, .f32⟩
  | 90 => ⟨S_, .f32⟩
  | 91 => ⟨S50000, .f32⟩
  | 92 => ⟨S500000x1, .i32⟩
  | 93 => ⟨S50000, .f32⟩
  | 94 => ⟨S_, .f32⟩
  | 95 => ⟨S50000, .f32⟩
  | 96 => ⟨S50000, .f32⟩
  | 97 => ⟨S50000x1, .f32⟩
  | 98 => ⟨S1x100000, .i32⟩
  | 99 => ⟨S100000, .i32⟩
  | 100 => ⟨S_, .f32⟩
  | 101 => ⟨S100000, .f32⟩
  | 102 => ⟨S_, .f32⟩
  | 103 => ⟨S5000, .f32⟩
  | 104 => ⟨S100000x1, .i32⟩
  | 105 => ⟨S5000, .f32⟩
  | 106 => ⟨S_, .f32⟩
  | 107 => ⟨S5000, .f32⟩
  | 108 => ⟨S5000, .f32⟩
  | 109 => ⟨S5000x1, .f32⟩
  | 110 => ⟨S1x500000, .i32⟩
  | 111 => ⟨S500000, .i32⟩
  | 112 => ⟨S1x500000, .i32⟩
  | 113 => ⟨S500000, .i32⟩
  | 114 => ⟨S_, .i32⟩
  | 115 => ⟨S500000, .i32⟩
  | 116 => ⟨S500000, .i1⟩
  | 117 => ⟨S_, .i32⟩
  | 118 => ⟨S500000, .i32⟩
  | 119 => ⟨S500000, .i32⟩
  | 120 => ⟨S500000, .i32⟩
  | 121 => ⟨S500000x1, .i32⟩
  | 122 => ⟨S500000x128, .f32⟩
  | 123 => ⟨S_, .f32⟩
  | 124 => ⟨S20000x128, .f32⟩
  | 125 => ⟨S500000x1, .i32⟩
  | 126 => ⟨S20000x128, .f32⟩
  | 127 => ⟨S20000x128, .f32⟩
  | _ => ⟨S50000x128, .f32⟩

abbrev hbmTy0_1 (i : Nat) : BufTy := match i % 128 with
  | 0 => ⟨S20000x128, .f32⟩
  | 1 => ⟨S1x250000, .i32⟩
  | 2 => ⟨S250000, .i32⟩
  | 3 => ⟨S1x250000, .i32⟩
  | 4 => ⟨S250000, .i32⟩
  | 5 => ⟨S_, .i32⟩
  | 6 => ⟨S250000, .i32⟩
  | 7 => ⟨S250000, .i1⟩
  | 8 => ⟨S_, .i32⟩
  | 9 => ⟨S250000, .i32⟩
  | 10 => ⟨S250000, .i32⟩
  | 11 => ⟨S250000, .i32⟩
  | 12 => ⟨S250000x1, .i32⟩
  | 13 => ⟨S250000x128, .f32⟩
  | 14 => ⟨S_, .f32⟩
  | 15 => ⟨S5000x128, .f32⟩
  | 16 => ⟨S250000x1, .i32⟩
  | 17 => ⟨S5000x128, .f32⟩
  | 18 => ⟨S5000x128, .f32⟩
  | 19 => ⟨S5000x128, .f32⟩
  | 20 => ⟨S1x250000, .i32⟩
  | 21 => ⟨S250000, .i32⟩
  | 22 => ⟨S1x250000, .i32⟩
  | 23 => ⟨S250000, .i32⟩
  | 24 => ⟨S_, .i32⟩
  | 25 => ⟨S250000, .i32⟩
  | 26 => ⟨S250000, .i1⟩
  | 27 => ⟨S_, .i32⟩
  | 28 => ⟨S250000, .i32⟩
  | 29 => ⟨S250000, .i32⟩
  | 30 => ⟨S250000, .i32⟩
  | 31 => ⟨S250000x1, .i32⟩
  | 32 => ⟨S250000x128, .f32⟩
  | 33 => ⟨S_, .f32⟩
  | 34 => ⟨S5000x128, .f32⟩
  | 35 => ⟨S250000x1, .i32⟩
  | 36 => ⟨S5000x128, .f32⟩
  | 37 => ⟨S5000x128, .f32⟩
  | 38 => ⟨S5000x128, .f32⟩
  | 39 => ⟨S1x500000, .i32⟩
  | 40 => ⟨S500000, .i32⟩
  | 41 => ⟨S1x500000, .i32⟩
  | 42 => ⟨S500000, .i32⟩
  | 43 => ⟨S_, .i32⟩
  | 44 => ⟨S500000, .i32⟩
  | 45 => ⟨S500000, .i1⟩
  | 46 => ⟨S_, .i32⟩
  | 47 => ⟨S500000, .i32⟩
  | 48 => ⟨S500000, .i32⟩
  | 49 => ⟨S500000, .i32⟩
  | 50 => ⟨S500000x1, .i32⟩
  | 51 => ⟨S500000x128, .f32⟩
  | 52 => ⟨S_, .f32⟩
  | 53 => ⟨S50000x128, .f32⟩
  | 54 => ⟨S500000x1, .i32⟩
  | 55 => ⟨S50000x128, .f32⟩
  | 56 => ⟨S50000x128, .f32⟩
  | 57 => ⟨S50000x128, .f32⟩
  | 58 => ⟨S1x250000, .i32⟩
  | 59 => ⟨S250000, .i32⟩
  | 60 => ⟨S1x250000, .i32⟩
  | 61 => ⟨S250000, .i32⟩
  | 62 => ⟨S_, .i32⟩
  | 63 => ⟨S250000, .i32⟩
  | 64 => ⟨S250000, .i1⟩
  | 65 => ⟨S_, .i32⟩
  | 66 => ⟨S250000, .i32⟩
  | 67 => ⟨S250000, .i32⟩
  | 68 => ⟨S250000, .i32⟩
  | 69 => ⟨S250000x1, .i32⟩
  | 70 => ⟨S250000x128, .f32⟩
  | 71 => ⟨S_, .f32⟩
  | 72 => ⟨S20000x128, .f32⟩
  | 73 => ⟨S250000x1, .i32⟩
  | 74 => ⟨S20000x128, .f32⟩
  | 75 => ⟨S20000x128, .f32⟩
  | 76 => ⟨S20000x128, .f32⟩
  | 77 => ⟨S1x250000, .i32⟩
  | 78 => ⟨S250000, .i32⟩
  | 79 => ⟨S1x250000, .i32⟩
  | 80 => ⟨S250000, .i32⟩
  | 81 => ⟨S_, .i32⟩
  | 82 => ⟨S250000, .i32⟩
  | 83 => ⟨S250000, .i1⟩
  | 84 => ⟨S_, .i32⟩
  | 85 => ⟨S250000, .i32⟩
  | 86 => ⟨S250000, .i32⟩
  | 87 => ⟨S250000, .i32⟩
  | 88 => ⟨S250000x1, .i32⟩
  | 89 => ⟨S250000x128, .f32⟩
  | 90 => ⟨S_, .f32⟩
  | 91 => ⟨S50000x128, .f32⟩
  | 92 => ⟨S250000x1, .i32⟩
  | 93 => ⟨S50000x128, .f32⟩
  | 94 => ⟨S50000x128, .f32⟩
  | 95 => ⟨S50000x128, .f32⟩
  | 96 => ⟨S1x500000, .i32⟩
  | 97 => ⟨S500000, .i32⟩
  | 98 => ⟨S1x500000, .i32⟩
  | 99 => ⟨S500000, .i32⟩
  | 100 => ⟨S_, .i32⟩
  | 101 => ⟨S500000, .i32⟩
  | 102 => ⟨S500000, .i1⟩
  | 103 => ⟨S_, .i32⟩
  | 104 => ⟨S500000, .i32⟩
  | 105 => ⟨S500000, .i32⟩
  | 106 => ⟨S500000, .i32⟩
  | 107 => ⟨S500000x1, .i32⟩
  | 108 => ⟨S500000x128, .f32⟩
  | 109 => ⟨S_, .f32⟩
  | 110 => ⟨S50000x128, .f32⟩
  | 111 => ⟨S500000x1, .i32⟩
  | 112 => ⟨S50000x128, .f32⟩
  | 113 => ⟨S50000x128, .f32⟩
  | 114 => ⟨S50000x128, .f32⟩
  | 115 => ⟨S1x100000, .i32⟩
  | 116 => ⟨S100000, .i32⟩
  | 117 => ⟨S1x100000, .i32⟩
  | 118 => ⟨S100000, .i32⟩
  | 119 => ⟨S_, .i32⟩
  | 120 => ⟨S100000, .i32⟩
  | 121 => ⟨S100000, .i1⟩
  | 122 => ⟨S_, .i32⟩
  | 123 => ⟨S100000, .i32⟩
  | 124 => ⟨S100000, .i32⟩
  | 125 => ⟨S100000, .i32⟩
  | 126 => ⟨S100000x1, .i32⟩
  | 127 => ⟨S100000x128, .f32⟩
  | _ => ⟨S50000x128, .f32⟩

abbrev hbmTy0_2 (i : Nat) : BufTy := match i % 128 with
  | 0 => ⟨S_, .f32⟩
  | 1 => ⟨S5000x128, .f32⟩
  | 2 => ⟨S100000x1, .i32⟩
  | 3 => ⟨S5000x128, .f32⟩
  | 4 => ⟨S5000x128, .f32⟩
  | 5 => ⟨S5000x128, .f32⟩
  | 6 => ⟨S1x1x128x128, .f32⟩
  | 7 => ⟨S128x128, .f32⟩
  | 8 => ⟨S1x1x128x128, .f32⟩
  | 9 => ⟨S128x128, .f32⟩
  | 10 => ⟨S1x1x128x128, .f32⟩
  | 11 => ⟨S128x128, .f32⟩
  | 12 => ⟨S1x1x128, .f32⟩
  | 13 => ⟨S128, .f32⟩
  | 14 => ⟨S1x128, .f32⟩
  | 15 => ⟨S1x1x128, .f32⟩
  | 16 => ⟨S128, .f32⟩
  | 17 => ⟨S1x128, .f32⟩
  | 18 => ⟨S1x1x128, .f32⟩
  | 19 => ⟨S128, .f32⟩
  | 20 => ⟨S1x128, .f32⟩
  | 21 => ⟨S1x1x128x128, .f32⟩
  | 22 => ⟨S128x128, .f32⟩
  | 23 => ⟨S1x1x128x128, .f32⟩
  | 24 => ⟨S128x128, .f32⟩
  | 25 => ⟨S1x1x128x128, .f32⟩
  | 26 => ⟨S128x128, .f32⟩
  | 27 => ⟨S50000x128, .f32⟩
  | 28 => ⟨S1x1x128x128, .f32⟩
  | 29 => ⟨S128x128, .f32⟩
  | 30 => ⟨S1x1x128x128, .f32⟩
  | 31 => ⟨S128x128, .f32⟩
  | 32 => ⟨S1x1x128, .f32⟩
  | 33 => ⟨S128, .f32⟩
  | 34 => ⟨S1x128, .f32⟩
  | 35 => ⟨S1x1x128, .f32⟩
  | 36 => ⟨S128, .f32⟩
  | 37 => ⟨S1x128, .f32⟩
  | 38 => ⟨S1x1x128x128, .f32⟩
  | 39 => ⟨S128x128, .f32⟩
  | 40 => ⟨S1x1x128x128, .f32⟩
  | 41 => ⟨S128x128, .f32⟩
  | 42 => ⟨S20000x128, .f32⟩
  | 43 => ⟨S1x1x128x128, .f32⟩
  | 44 => ⟨S128x128, .f32⟩
  | 45 => ⟨S1x1x128x128, .f32⟩
  | 46 => ⟨S128x128, .f32⟩
  | 47 => ⟨S1x1x128x128, .f32⟩
  | 48 => ⟨S128x128, .f32⟩
  | 49 => ⟨S1x1x128, .f32⟩
  | 50 => ⟨S128, .f32⟩
  | 51 => ⟨S1x128, .f32⟩
  | 52 => ⟨S1x1x128, .f32⟩
  | 53 => ⟨S128, .f32⟩
  | 54 => ⟨S1x128, .f32⟩
  | 55 => ⟨S1x1x128, .f32⟩
  | 56 => ⟨S128, .f32⟩
  | 57 => ⟨S1x128, .f32⟩
  | 58 => ⟨S1x1x128x128, .f32⟩
  | 59 => ⟨S128x128, .f32⟩
  | 60 => ⟨S1x1x128x128, .f32⟩
  | 61 => ⟨S128x128, .f32⟩
  | 62 => ⟨S1x1x128x128, .f32⟩
  | 63 => ⟨S128x128, .f32⟩
  | 64 => ⟨S5000x128, .f32⟩
  | 65 => ⟨S1x500000, .i32⟩
  | 66 => ⟨S500000, .i32⟩
  | 67 => ⟨S1x500000, .i32⟩
  | 68 => ⟨S500000, .i32⟩
  | 69 => ⟨S_, .i32⟩
  | 70 => ⟨S500000, .i32⟩
  | 71 => ⟨S500000, .i1⟩
  | 72 => ⟨S_, .i32⟩
  | 73 => ⟨S500000, .i32⟩
  | 74 => ⟨S500000, .i32⟩
  | 75 => ⟨S500000, .i32⟩
  | 76 => ⟨S500000x1, .i32⟩
  | 77 => ⟨S500000x128, .f32⟩
  | 78 => ⟨S_, .f32⟩
  | 79 => ⟨S20000x128, .f32⟩
  | 80 => ⟨S500000x1, .i32⟩
  | 81 => ⟨S20000x128, .f32⟩
  | 82 => ⟨S20000x128, .f32⟩
  | 83 => ⟨S20000x128, .f32⟩
  | 84 => ⟨S1x250000, .i32⟩
  | 85 => ⟨S250000, .i32⟩
  | 86 => ⟨S1x250000, .i32⟩
  | 87 => ⟨S250000, .i32⟩
  | 88 => ⟨S_, .i32⟩
  | 89 => ⟨S250000, .i32⟩
  | 90 => ⟨S250000, .i1⟩
  | 91 => ⟨S_, .i32⟩
  | 92 => ⟨S250000, .i32⟩
  | 93 => ⟨S250000, .i32⟩
  | 94 => ⟨S250000, .i32⟩
  | 95 => ⟨S250000x1, .i32⟩
  | 96 => ⟨S250000x128, .f32⟩
  | 97 => ⟨S_, .f32⟩
  | 98 => ⟨S5000x128, .f32⟩
  | 99 => ⟨S250000x1, .i32⟩
  | 100 => ⟨S5000x128, .f32⟩
  | 101 => ⟨S5000x128, .f32⟩
  | 102 => ⟨S5000x128, .f32⟩
  | 103 => ⟨S1x250000, .i32⟩
  | 104 => ⟨S250000, .i32⟩
  | 105 => ⟨S1x250000, .i32⟩
  | 106 => ⟨S250000, .i32⟩
  | 107 => ⟨S_, .i32⟩
  | 108 => ⟨S250000, .i32⟩
  | 109 => ⟨S250000, .i1⟩
  | 110 => ⟨S_, .i32⟩
  | 111 => ⟨S250000, .i32⟩
  | 112 => ⟨S250000, .i32⟩
  | 113 => ⟨S250000, .i32⟩
  | 114 => ⟨S250000x1, .i32⟩
  | 115 => ⟨S250000x128, .f32⟩
  | 116 => ⟨S_, .f32⟩
  | 117 => ⟨S5000x128, .f32⟩
  | 118 => ⟨S250000x1, .i32⟩
  | 119 => ⟨S5000x128, .f32⟩
  | 120 => ⟨S5000x128, .f32⟩
  | 121 => ⟨S5000x128, .f32⟩
  | 122 => ⟨S1x500000, .i32⟩
  | 123 => ⟨S500000, .i32⟩
  | 124 => ⟨S1x500000, .i32⟩
  | 125 => ⟨S500000, .i32⟩
  | 126 => ⟨S_, .i32⟩
  | 127 => ⟨S500000, .i32⟩
  | _ => ⟨S50000x128, .f32⟩

abbrev hbmTy0_3 (i : Nat) : BufTy := match i % 128 with
  | 0 => ⟨S500000, .i1⟩
  | 1 => ⟨S_, .i32⟩
  | 2 => ⟨S500000, .i32⟩
  | 3 => ⟨S500000, .i32⟩
  | 4 => ⟨S500000, .i32⟩
  | 5 => ⟨S500000x1, .i32⟩
  | 6 => ⟨S500000x128, .f32⟩
  | 7 => ⟨S_, .f32⟩
  | 8 => ⟨S50000x128, .f32⟩
  | 9 => ⟨S500000x1, .i32⟩
  | 10 => ⟨S50000x128, .f32⟩
  | 11 => ⟨S50000x128, .f32⟩
  | 12 => ⟨S50000x128, .f32⟩
  | 13 => ⟨S1x250000, .i32⟩
  | 14 => ⟨S250000, .i32⟩
  | 15 => ⟨S1x250000, .i32⟩
  | 16 => ⟨S250000, .i32⟩
  | 17 => ⟨S_, .i32⟩
  | 18 => ⟨S250000, .i32⟩
  | 19 => ⟨S250000, .i1⟩
  | 20 => ⟨S_, .i32⟩
  | 21 => ⟨S250000, .i32⟩
  | 22 => ⟨S250000, .i32⟩
  | 23 => ⟨S250000, .i32⟩
  | 24 => ⟨S250000x1, .i32⟩
  | 25 => ⟨S250000x128, .f32⟩
  | 26 => ⟨S_, .f32⟩
  | 27 => ⟨S20000x128, .f32⟩
  | 28 => ⟨S250000x1, .i32⟩
  | 29 => ⟨S20000x128, .f32⟩
  | 30 => ⟨S20000x128, .f32⟩
  | 31 => ⟨S20000x128, .f32⟩
  | 32 => ⟨S1x250000, .i32⟩
  | 33 => ⟨S250000, .i32⟩
  | 34 => ⟨S1x250000, .i32⟩
  | 35 => ⟨S250000, .i32⟩
  | 36 => ⟨S_, .i32⟩
  | 37 => ⟨S250000, .i32⟩
  | 38 => ⟨S250000, .i1⟩
  | 39 => ⟨S_, .i32⟩
  | 40 => ⟨S250000, .i32⟩
  | 41 => ⟨S250000, .i32⟩
  | 42 => ⟨S250000, .i32⟩
  | 43 => ⟨S250000x1, .i32⟩
  | 44 => ⟨S250000x128, .f32⟩
  | 45 => ⟨S_, .f32⟩
  | 46 => ⟨S50000x128, .f32⟩
  | 47 => ⟨S250000x1, .i32⟩
  | 48 => ⟨S50000x128, .f32⟩
  | 49 => ⟨S50000x128, .f32⟩
  | 50 => ⟨S50000x128, .f32⟩
  | 51 => ⟨S1x500000, .i32⟩
  | 52 => ⟨S500000, .i32⟩
  | 53 => ⟨S1x500000, .i32⟩
  | 54 => ⟨S500000, .i32⟩
  | 55 => ⟨S_, .i32⟩
  | 56 => ⟨S500000, .i32⟩
  | 57 => ⟨S500000, .i1⟩
  | 58 => ⟨S_, .i32⟩
  | 59 => ⟨S500000, .i32⟩
  | 60 => ⟨S500000, .i32⟩
  | 61 => ⟨S500000, .i32⟩
  | 62 => ⟨S500000x1, .i32⟩
  | 63 => ⟨S500000x128, .f32⟩
  | 64 => ⟨S_, .f32⟩
  | 65 => ⟨S50000x128, .f32⟩
  | 66 => ⟨S500000x1, .i32⟩
  | 67 => ⟨S50000x128, .f32⟩
  | 68 => ⟨S50000x128, .f32⟩
  | 69 => ⟨S50000x128, .f32⟩
  | 70 => ⟨S1x100000, .i32⟩
  | 71 => ⟨S100000, .i32⟩
  | 72 => ⟨S1x100000, .i32⟩
  | 73 => ⟨S100000, .i32⟩
  | 74 => ⟨S_, .i32⟩
  | 75 => ⟨S100000, .i32⟩
  | 76 => ⟨S100000, .i1⟩
  | 77 => ⟨S_, .i32⟩
  | 78 => ⟨S100000, .i32⟩
  | 79 => ⟨S100000, .i32⟩
  | 80 => ⟨S100000, .i32⟩
  | 81 => ⟨S100000x1, .i32⟩
  | 82 => ⟨S100000x128, .f32⟩
  | 83 => ⟨S_, .f32⟩
  | 84 => ⟨S5000x128, .f32⟩
  | 85 => ⟨S100000x1, .i32⟩
  | 86 => ⟨S5000x128, .f32⟩
  | 87 => ⟨S5000x128, .f32⟩
  | 88 => ⟨S5000x128, .f32⟩
  | 89 => ⟨S1x1x128x128, .f32⟩
  | 90 => ⟨S128x128, .f32⟩
  | 91 => ⟨S1x1x128x128, .f32⟩
  | 92 => ⟨S128x128, .f32⟩
  | 93 => ⟨S1x1x128x128, .f32⟩
  | 94 => ⟨S128x128, .f32⟩
  | 95 => ⟨S1x1x128, .f32⟩
  | 96 => ⟨S128, .f32⟩
  | 97 => ⟨S1x128, .f32⟩
  | 98 => ⟨S1x1x128, .f32⟩
  | 99 => ⟨S128, .f32⟩
  | 100 => ⟨S1x128, .f32⟩
  | 101 => ⟨S1x1x128, .f32⟩
  | 102 => ⟨S128, .f32⟩
  | 103 => ⟨S1x128, .f32⟩
  | 104 => ⟨S1x1x128x128, .f32⟩
  | 105 => ⟨S128x128, .f32⟩
  | 106 => ⟨S1x1x128x128, .f32⟩
  | 107 => ⟨S128x128, .f32⟩
  | 108 => ⟨S1x1x128x128, .f32⟩
  | 109 => ⟨S128x128, .f32⟩
  | 110 => ⟨S50000x128, .f32⟩
  | 111 => ⟨S1x1x128x128, .f32⟩
  | 112 => ⟨S128x128, .f32⟩
  | 113 => ⟨S1x1x128x128, .f32⟩
  | 114 => ⟨S128x128, .f32⟩
  | 115 => ⟨S1x1x128, .f32⟩
  | 116 => ⟨S128, .f32⟩
  | 117 => ⟨S1x128, .f32⟩
  | 118 => ⟨S1x1x128, .f32⟩
  | 119 => ⟨S128, .f32⟩
  | 120 => ⟨S1x128, .f32⟩
  | 121 => ⟨S1x1x128x128, .f32⟩
  | 122 => ⟨S128x128, .f32⟩
  | 123 => ⟨S1x1x128x128, .f32⟩
  | 124 => ⟨S128x128, .f32⟩
  | 125 => ⟨S20000x128, .f32⟩
  | 126 => ⟨S1x1x128x128, .f32⟩
  | 127 => ⟨S128x128, .f32⟩
  | _ => ⟨S50000x128, .f32⟩

abbrev hbmTy0_4 (i : Nat) : BufTy := match i % 128 with
  | 0 => ⟨S1x1x128x128, .f32⟩
  | 1 => ⟨S128x128, .f32⟩
  | 2 => ⟨S1x1x128x128, .f32⟩
  | 3 => ⟨S128x128, .f32⟩
  | 4 => ⟨S1x1x128, .f32⟩
  | 5 => ⟨S128, .f32⟩
  | 6 => ⟨S1x128, .f32⟩
  | 7 => ⟨S1x1x128, .f32⟩
  | 8 => ⟨S128, .f32⟩
  | 9 => ⟨S1x128, .f32⟩
  | 10 => ⟨S1x1x128, .f32⟩
  | 11 => ⟨S128, .f32⟩
  | 12 => ⟨S1x128, .f32⟩
  | 13 => ⟨S1x1x128x128, .f32⟩
  | 14 => ⟨S128x128, .f32⟩
  | 15 => ⟨S1x1x128x128, .f32⟩
  | 16 => ⟨S128x128, .f32⟩
  | 17 => ⟨S1x1x128x128, .f32⟩
  | 18 => ⟨S128x128, .f32⟩
  | 19 => ⟨S5000x128, .f32⟩
  | 20 => ⟨S1x500000, .i32⟩
  | 21 => ⟨S500000, .i32⟩
  | 22 => ⟨S1x500000, .i32⟩
  | 23 => ⟨S500000, .i32⟩
  | 24 => ⟨S_, .i32⟩
  | 25 => ⟨S500000, .i32⟩
  | 26 => ⟨S500000, .i1⟩
  | 27 => ⟨S_, .i32⟩
  | 28 => ⟨S500000, .i32⟩
  | 29 => ⟨S500000, .i32⟩
  | 30 => ⟨S500000, .i32⟩
  | 31 => ⟨S500000x1, .i32⟩
  | 32 => ⟨S500000x128, .f32⟩
  | 33 => ⟨S_, .f32⟩
  | 34 => ⟨S20000x128, .f32⟩
  | 35 => ⟨S500000x1, .i32⟩
  | 36 => ⟨S20000x128, .f32⟩
  | 37 => ⟨S20000x128, .f32⟩
  | 38 => ⟨S20000x128, .f32⟩
  | 39 => ⟨S1x250000, .i32⟩
  | 40 => ⟨S250000, .i32⟩
  | 41 => ⟨S1x250000, .i32⟩
  | 42 => ⟨S250000, .i32⟩
  | 43 => ⟨S_, .i32⟩
  | 44 => ⟨S250000, .i32⟩
  | 45 => ⟨S250000, .i1⟩
  | 46 => ⟨S_, .i32⟩
  | 47 => ⟨S250000, .i32⟩
  | 48 => ⟨S250000, .i32⟩
  | 49 => ⟨S250000, .i32⟩
  | 50 => ⟨S250000x1, .i32⟩
  | 51 => ⟨S250000x128, .f32⟩
  | 52 => ⟨S_, .f32⟩
  | 53 => ⟨S5000x128, .f32⟩
  | 54 => ⟨S250000x1, .i32⟩
  | 55 => ⟨S5000x128, .f32⟩
  | 56 => ⟨S5000x128, .f32⟩
  | 57 => ⟨S5000x128, .f32⟩
  | 58 => ⟨S1x250000, .i32⟩
  | 59 => ⟨S250000, .i32⟩
  | 60 => ⟨S1x250000, .i32⟩
  | 61 => ⟨S250000, .i32⟩
  | 62 => ⟨S_, .i32⟩
  | 63 => ⟨S250000, .i32⟩
  | 64 => ⟨S250000, .i1⟩
  | 65 => ⟨S_, .i32⟩
  | 66 => ⟨S250000, .i32⟩
  | 67 => ⟨S250000, .i32⟩
  | 68 => ⟨S250000, .i32⟩
  | 69 => ⟨S250000x1, .i32⟩
  | 70 => ⟨S250000x128, .f32⟩
  | 71 => ⟨S_, .f32⟩
  | 72 => ⟨S5000x128, .f32⟩
  | 73 => ⟨S250000x1, .i32⟩
  | 74 => ⟨S5000x128, .f32⟩
  | 75 => ⟨S5000x128, .f32⟩
  | 76 => ⟨S5000x128, .f32⟩
  | 77 => ⟨S1x500000, .i32⟩
  | 78 => ⟨S500000, .i32⟩
  | 79 => ⟨S1x500000, .i32⟩
  | 80 => ⟨S500000, .i32⟩
  | 81 => ⟨S_, .i32⟩
  | 82 => ⟨S500000, .i32⟩
  | 83 => ⟨S500000, .i1⟩
  | 84 => ⟨S_, .i32⟩
  | 85 => ⟨S500000, .i32⟩
  | 86 => ⟨S500000, .i32⟩
  | 87 => ⟨S500000, .i32⟩
  | 88 => ⟨S500000x1, .i32⟩
  | 89 => ⟨S500000x128, .f32⟩
  | 90 => ⟨S_, .f32⟩
  | 91 => ⟨S50000x128, .f32⟩
  | 92 => ⟨S500000x1, .i32⟩
  | 93 => ⟨S50000x128, .f32⟩
  | 94 => ⟨S50000x128, .f32⟩
  | 95 => ⟨S50000x128, .f32⟩
  | 96 => ⟨S1x250000, .i32⟩
  | 97 => ⟨S250000, .i32⟩
  | 98 => ⟨S1x250000, .i32⟩
  | 99 => ⟨S250000, .i32⟩
  | 100 => ⟨S_, .i32⟩
  | 101 => ⟨S250000, .i32⟩
  | 102 => ⟨S250000, .i1⟩
  | 103 => ⟨S_, .i32⟩
  | 104 => ⟨S250000, .i32⟩
  | 105 => ⟨S250000, .i32⟩
  | 106 => ⟨S250000, .i32⟩
  | 107 => ⟨S250000x1, .i32⟩
  | 108 => ⟨S250000x128, .f32⟩
  | 109 => ⟨S_, .f32⟩
  | 110 => ⟨S20000x128, .f32⟩
  | 111 => ⟨S250000x1, .i32⟩
  | 112 => ⟨S20000x128, .f32⟩
  | 113 => ⟨S20000x128, .f32⟩
  | 114 => ⟨S20000x128, .f32⟩
  | 115 => ⟨S1x250000, .i32⟩
  | 116 => ⟨S250000, .i32⟩
  | 117 => ⟨S1x250000, .i32⟩
  | 118 => ⟨S250000, .i32⟩
  | 119 => ⟨S_, .i32⟩
  | 120 => ⟨S250000, .i32⟩
  | 121 => ⟨S250000, .i1⟩
  | 122 => ⟨S_, .i32⟩
  | 123 => ⟨S250000, .i32⟩
  | 124 => ⟨S250000, .i32⟩
  | 125 => ⟨S250000, .i32⟩
  | 126 => ⟨S250000x1, .i32⟩
  | 127 => ⟨S250000x128, .f32⟩
  | _ => ⟨S50000x128, .f32⟩

abbrev hbmTy0_5 (i : Nat) : BufTy := match i % 128 with
  | 0 => ⟨S_, .f32⟩
  | 1 => ⟨S50000x128, .f32⟩
  | 2 => ⟨S250000x1, .i32⟩
  | 3 => ⟨S50000x128, .f32⟩
  | 4 => ⟨S50000x128, .f32⟩
  | 5 => ⟨S50000x128, .f32⟩
  | 6 => ⟨S1x500000, .i32⟩
  | 7 => ⟨S500000, .i32⟩
  | 8 => ⟨S1x500000, .i32⟩
  | 9 => ⟨S500000, .i32⟩
  | 10 => ⟨S_, .i32⟩
  | 11 => ⟨S500000, .i32⟩
  | 12 => ⟨S500000, .i1⟩
  | 13 => ⟨S_, .i32⟩
  | 14 => ⟨S500000, .i32⟩
  | 15 => ⟨S500000, .i32⟩
  | 16 => ⟨S500000, .i32⟩
  | 17 => ⟨S500000x1, .i32⟩
  | 18 => ⟨S500000x128, .f32⟩
  | 19 => ⟨S_, .f32⟩
  | 20 => ⟨S50000x128, .f32⟩
  | 21 => ⟨S500000x1, .i32⟩
  | 22 => ⟨S50000x128, .f32⟩
  | 23 => ⟨S50000x128, .f32⟩
  | 24 => ⟨S50000x128, .f32⟩
  | 25 => ⟨S1x100000, .i32⟩
  | 26 => ⟨S100000, .i32⟩
  | 27 => ⟨S1x100000, .i32⟩
  | 28 => ⟨S100000, .i32⟩
  | 29 => ⟨S_, .i32⟩
  | 30 => ⟨S100000, .i32⟩
  | 31 => ⟨S100000, .i1⟩
  | 32 => ⟨S_, .i32⟩
  | 33 => ⟨S100000, .i32⟩
  | 34 => ⟨S100000, .i32⟩
  | 35 => ⟨S100000, .i32⟩
  | 36 => ⟨S100000x1, .i32⟩
  | 37 => ⟨S100000x128, .f32⟩
  | 38 => ⟨S_, .f32⟩
  | 39 => ⟨S5000x128, .f32⟩
  | 40 => ⟨S100000x1, .i32⟩
  | 41 => ⟨S5000x128, .f32⟩
  | 42 => ⟨S5000x128, .f32⟩
  | 43 => ⟨S5000x128, .f32⟩
  | 44 => ⟨S1x1x128x128, .f32⟩
  | 45 => ⟨S128x128, .f32⟩
  | 46 => ⟨S1x1x128x128, .f32⟩
  | 47 => ⟨S128x128, .f32⟩
  | 48 => ⟨S1x1x128x128, .f32⟩
  | 49 => ⟨S128x128, .f32⟩
  | 50 => ⟨S1x1x128, .f32⟩
  | 51 => ⟨S128, .f32⟩
  | 52 => ⟨S1x128, .f32⟩
  | 53 => ⟨S1x1x128, .f32⟩
  | 54 => ⟨S128, .f32⟩
  | 55 => ⟨S1x128, .f32⟩
  | 56 => ⟨S1x1x128, .f32⟩
  | 57 => ⟨S128, .f32⟩
  | 58 => ⟨S1x128, .f32⟩
  | 59 => ⟨S1x1x128x128, .f32⟩
  | 60 => ⟨S128x128, .f32⟩
  | 61 => ⟨S1x1x128x128, .f32⟩
  | 62 => ⟨S128x128, .f32⟩
  | 63 => ⟨S1x1x128x128, .f32⟩
  | 64 => ⟨S128x128, .f32⟩
  | 65 => ⟨S50000x128, .f32⟩
  | 66 => ⟨S1x1x128x128, .f32⟩
  | 67 => ⟨S128x128, .f32⟩
  | 68 => ⟨S1x1x128x128, .f32⟩
  | 69 => ⟨S128x128, .f32⟩
  | 70 => ⟨S1x1x128, .f32⟩
  | 71 => ⟨S128, .f32⟩
  | 72 => ⟨S1x128, .f32⟩
  | 73 => ⟨S1x1x128, .f32⟩
  | 74 => ⟨S128, .f32⟩
  | 75 => ⟨S1x128, .f32⟩
  | 76 => ⟨S1x1x128x128, .f32⟩
  | 77 => ⟨S128x128, .f32⟩
  | 78 => ⟨S1x1x128x128, .f32⟩
  | 79 => ⟨S128x128, .f32⟩
  | 80 => ⟨S20000x128, .f32⟩
  | 81 => ⟨S1x1x128x128, .f32⟩
  | 82 => ⟨S128x128, .f32⟩
  | 83 => ⟨S1x1x128x128, .f32⟩
  | 84 => ⟨S128x128, .f32⟩
  | 85 => ⟨S1x1x128x128, .f32⟩
  | 86 => ⟨S128x128, .f32⟩
  | 87 => ⟨S1x1x128, .f32⟩
  | 88 => ⟨S128, .f32⟩
  | 89 => ⟨S1x128, .f32⟩
  | 90 => ⟨S1x1x128, .f32⟩
  | 91 => ⟨S128, .f32⟩
  | 92 => ⟨S1x128, .f32⟩
  | 93 => ⟨S1x1x128, .f32⟩
  | 94 => ⟨S128, .f32⟩
  | 95 => ⟨S1x128, .f32⟩
  | 96 => ⟨S1x1x128x128, .f32⟩
  | 97 => ⟨S128x128, .f32⟩
  | 98 => ⟨S1x1x128x128, .f32⟩
  | 99 => ⟨S128x128, .f32⟩
  | 100 => ⟨S1x1x128x128, .f32⟩
  | 101 => ⟨S128x128, .f32⟩
  | 102 => ⟨S5000x128, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S50000x128, .f32⟩

abbrev vmemTy0_0 (i : Nat) : BufTy := match i % 128 with
  | 0 => ⟨S2000x128, .f32⟩
  | 1 => ⟨S2000x128, .f32⟩
  | 2 => ⟨S2000x128, .f32⟩
  | 3 => ⟨S2000x128, .f32⟩
  | 4 => ⟨S2000x128, .f32⟩
  | 5 => ⟨S2000x128, .f32⟩
  | 6 => ⟨S2000x128, .f32⟩
  | 7 => ⟨S2000x128, .f32⟩
  | 8 => ⟨S128x128, .f32⟩
  | 9 => ⟨S128x128, .f32⟩
  | 10 => ⟨S128x128, .f32⟩
  | 11 => ⟨S1x128, .f32⟩
  | 12 => ⟨S1x128, .f32⟩
  | 13 => ⟨S1x128, .f32⟩
  | 14 => ⟨S128x128, .f32⟩
  | 15 => ⟨S128x128, .f32⟩
  | 16 => ⟨S128x128, .f32⟩
  | 17 => ⟨S2000x128, .f32⟩
  | 18 => ⟨S2000x128, .f32⟩
  | 19 => ⟨S2000x128, .f32⟩
  | 20 => ⟨S2000x128, .f32⟩
  | 21 => ⟨S2000x128, .f32⟩
  | 22 => ⟨S2000x128, .f32⟩
  | 23 => ⟨S2000x128, .f32⟩
  | 24 => ⟨S2000x128, .f32⟩
  | 25 => ⟨S128x128, .f32⟩
  | 26 => ⟨S128x128, .f32⟩
  | 27 => ⟨S1x128, .f32⟩
  | 28 => ⟨S1x128, .f32⟩
  | 29 => ⟨S128x128, .f32⟩
  | 30 => ⟨S128x128, .f32⟩
  | 31 => ⟨S2000x128, .f32⟩
  | 32 => ⟨S2000x128, .f32⟩
  | 33 => ⟨S1000x128, .f32⟩
  | 34 => ⟨S1000x128, .f32⟩
  | 35 => ⟨S1000x128, .f32⟩
  | 36 => ⟨S1000x128, .f32⟩
  | 37 => ⟨S1000x128, .f32⟩
  | 38 => ⟨S1000x128, .f32⟩
  | 39 => ⟨S1000x128, .f32⟩
  | 40 => ⟨S1000x128, .f32⟩
  | 41 => ⟨S128x128, .f32⟩
  | 42 => ⟨S128x128, .f32⟩
  | 43 => ⟨S128x128, .f32⟩
  | 44 => ⟨S1x128, .f32⟩
  | 45 => ⟨S1x128, .f32⟩
  | 46 => ⟨S1x128, .f32⟩
  | 47 => ⟨S128x128, .f32⟩
  | 48 => ⟨S128x128, .f32⟩
  | 49 => ⟨S128x128, .f32⟩
  | 50 => ⟨S1000x128, .f32⟩
  | 51 => ⟨S1000x128, .f32⟩
  | 52 => ⟨S2000x128, .f32⟩
  | 53 => ⟨S2000x128, .f32⟩
  | 54 => ⟨S2000x128, .f32⟩
  | 55 => ⟨S2000x128, .f32⟩
  | 56 => ⟨S2000x128, .f32⟩
  | 57 => ⟨S2000x128, .f32⟩
  | 58 => ⟨S2000x128, .f32⟩
  | 59 => ⟨S2000x128, .f32⟩
  | 60 => ⟨S128x128, .f32⟩
  | 61 => ⟨S128x128, .f32⟩
  | 62 => ⟨S128x128, .f32⟩
  | 63 => ⟨S1x128, .f32⟩
  | 64 => ⟨S1x128, .f32⟩
  | 65 => ⟨S1x128, .f32⟩
  | 66 => ⟨S128x128, .f32⟩
  | 67 => ⟨S128x128, .f32⟩
  | 68 => ⟨S128x128, .f32⟩
  | 69 => ⟨S2000x128, .f32⟩
  | 70 => ⟨S2000x128, .f32⟩
  | 71 => ⟨S2000x128, .f32⟩
  | 72 => ⟨S2000x128, .f32⟩
  | 73 => ⟨S2000x128, .f32⟩
  | 74 => ⟨S2000x128, .f32⟩
  | 75 => ⟨S2000x128, .f32⟩
  | 76 => ⟨S2000x128, .f32⟩
  | 77 => ⟨S128x128, .f32⟩
  | 78 => ⟨S128x128, .f32⟩
  | 79 => ⟨S1x128, .f32⟩
  | 80 => ⟨S1x128, .f32⟩
  | 81 => ⟨S128x128, .f32⟩
  | 82 => ⟨S128x128, .f32⟩
  | 83 => ⟨S2000x128, .f32⟩
  | 84 => ⟨S2000x128, .f32⟩
  | 85 => ⟨S1000x128, .f32⟩
  | 86 => ⟨S1000x128, .f32⟩
  | 87 => ⟨S1000x128, .f32⟩
  | 88 => ⟨S1000x128, .f32⟩
  | 89 => ⟨S1000x128, .f32⟩
  | 90 => ⟨S1000x128, .f32⟩
  | 91 => ⟨S1000x128, .f32⟩
  | 92 => ⟨S1000x128, .f32⟩
  | 93 => ⟨S128x128, .f32⟩
  | 94 => ⟨S128x128, .f32⟩
  | 95 => ⟨S128x128, .f32⟩
  | 96 => ⟨S1x128, .f32⟩
  | 97 => ⟨S1x128, .f32⟩
  | 98 => ⟨S1x128, .f32⟩
  | 99 => ⟨S128x128, .f32⟩
  | 100 => ⟨S128x128, .f32⟩
  | 101 => ⟨S128x128, .f32⟩
  | 102 => ⟨S1000x128, .f32⟩
  | 103 => ⟨S1000x128, .f32⟩
  | 104 => ⟨S2000x128, .f32⟩
  | 105 => ⟨S2000x128, .f32⟩
  | 106 => ⟨S2000x128, .f32⟩
  | 107 => ⟨S2000x128, .f32⟩
  | 108 => ⟨S2000x128, .f32⟩
  | 109 => ⟨S2000x128, .f32⟩
  | 110 => ⟨S2000x128, .f32⟩
  | 111 => ⟨S2000x128, .f32⟩
  | 112 => ⟨S128x128, .f32⟩
  | 113 => ⟨S128x128, .f32⟩
  | 114 => ⟨S128x128, .f32⟩
  | 115 => ⟨S1x128, .f32⟩
  | 116 => ⟨S1x128, .f32⟩
  | 117 => ⟨S1x128, .f32⟩
  | 118 => ⟨S128x128, .f32⟩
  | 119 => ⟨S128x128, .f32⟩
  | 120 => ⟨S128x128, .f32⟩
  | 121 => ⟨S2000x128, .f32⟩
  | 122 => ⟨S2000x128, .f32⟩
  | 123 => ⟨S2000x128, .f32⟩
  | 124 => ⟨S2000x128, .f32⟩
  | 125 => ⟨S2000x128, .f32⟩
  | 126 => ⟨S2000x128, .f32⟩
  | 127 => ⟨S2000x128, .f32⟩
  | _ => ⟨S50000x128, .f32⟩

abbrev vmemTy0_1 (i : Nat) : BufTy := match i % 128 with
  | 0 => ⟨S2000x128, .f32⟩
  | 1 => ⟨S128x128, .f32⟩
  | 2 => ⟨S128x128, .f32⟩
  | 3 => ⟨S1x128, .f32⟩
  | 4 => ⟨S1x128, .f32⟩
  | 5 => ⟨S128x128, .f32⟩
  | 6 => ⟨S128x128, .f32⟩
  | 7 => ⟨S2000x128, .f32⟩
  | 8 => ⟨S2000x128, .f32⟩
  | 9 => ⟨S1000x128, .f32⟩
  | 10 => ⟨S1000x128, .f32⟩
  | 11 => ⟨S1000x128, .f32⟩
  | 12 => ⟨S1000x128, .f32⟩
  | 13 => ⟨S1000x128, .f32⟩
  | 14 => ⟨S1000x128, .f32⟩
  | 15 => ⟨S1000x128, .f32⟩
  | 16 => ⟨S1000x128, .f32⟩
  | 17 => ⟨S128x128, .f32⟩
  | 18 => ⟨S128x128, .f32⟩
  | 19 => ⟨S128x128, .f32⟩
  | 20 => ⟨S1x128, .f32⟩
  | 21 => ⟨S1x128, .f32⟩
  | 22 => ⟨S1x128, .f32⟩
  | 23 => ⟨S128x128, .f32⟩
  | 24 => ⟨S128x128, .f32⟩
  | 25 => ⟨S128x128, .f32⟩
  | 26 => ⟨S1000x128, .f32⟩
  | 27 => ⟨S1000x128, .f32⟩
  | _ => ⟨S50000x128, .f32⟩

abbrev vmemTy (i : Nat) : BufTy := match i / 128 with
  | 0 => vmemTy0_0 i
  | 1 => vmemTy0_1 i
  | _ => ⟨S50000x128, .f32⟩

abbrev bufTy : (tb : Table) → Fin (tcTables nBuf tb) → BufTy
  | .hbm, ⟨i, _⟩ => hbmTy i
  | .local _ .vmem, ⟨i, _⟩ => vmemTy i
  | _, _ => ⟨S50000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 156 → Bool
  | ⟨i, _⟩ => dmaSemScopedAt i

abbrev sig : RefSig :=
  ofTc nBuf bufTy 0 156 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_cst_3 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_4 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_5 : Ref sig .tc := ⟨.hbm, 40, rfl⟩
abbrev main_v20 : Ref sig .tc := ⟨.hbm, 41, rfl⟩
abbrev main_cst_6 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_7 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_8 : Ref sig .tc := ⟨.hbm, 52, rfl⟩
abbrev main_v29 : Ref sig .tc := ⟨.hbm, 53, rfl⟩
abbrev main_cst_9 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_10 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_11 : Ref sig .tc := ⟨.hbm, 64, rfl⟩
abbrev main_v38 : Ref sig .tc := ⟨.hbm, 65, rfl⟩
abbrev main_cst_12 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_13 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_14 : Ref sig .tc := ⟨.hbm, 76, rfl⟩
abbrev main_v47 : Ref sig .tc := ⟨.hbm, 77, rfl⟩
abbrev main_cst_15 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_16 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_17 : Ref sig .tc := ⟨.hbm, 88, rfl⟩
abbrev main_v56 : Ref sig .tc := ⟨.hbm, 89, rfl⟩
abbrev main_cst_18 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_19 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_20 : Ref sig .tc := ⟨.hbm, 100, rfl⟩
abbrev main_v65 : Ref sig .tc := ⟨.hbm, 101, rfl⟩
abbrev main_cst_21 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_22 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_c : Ref sig .tc := ⟨.hbm, 114, rfl⟩
abbrev main_v76 : Ref sig .tc := ⟨.hbm, 115, rfl⟩
abbrev main_v77 : Ref sig .tc := ⟨.hbm, 116, rfl⟩
abbrev main_c_23 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_24 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_c_25 : Ref sig .tc := ⟨.hbm, 133, rfl⟩
abbrev main_v92 : Ref sig .tc := ⟨.hbm, 134, rfl⟩
abbrev main_v93 : Ref sig .tc := ⟨.hbm, 135, rfl⟩
abbrev main_c_26 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_cst_27 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_c_28 : Ref sig .tc := ⟨.hbm, 152, rfl⟩
abbrev main_v108 : Ref sig .tc := ⟨.hbm, 153, rfl⟩
abbrev main_v109 : Ref sig .tc := ⟨.hbm, 154, rfl⟩
abbrev main_c_29 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_cst_30 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_c_31 : Ref sig .tc := ⟨.hbm, 171, rfl⟩
abbrev main_v124 : Ref sig .tc := ⟨.hbm, 172, rfl⟩
abbrev main_v125 : Ref sig .tc := ⟨.hbm, 173, rfl⟩
abbrev main_c_32 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_cst_33 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_c_34 : Ref sig .tc := ⟨.hbm, 190, rfl⟩
abbrev main_v140 : Ref sig .tc := ⟨.hbm, 191, rfl⟩
abbrev main_v141 : Ref sig .tc := ⟨.hbm, 192, rfl⟩
abbrev main_c_35 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_cst_36 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_c_37 : Ref sig .tc := ⟨.hbm, 209, rfl⟩
abbrev main_v156 : Ref sig .tc := ⟨.hbm, 210, rfl⟩
abbrev main_v157 : Ref sig .tc := ⟨.hbm, 211, rfl⟩
abbrev main_c_38 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_cst_39 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_c_40 : Ref sig .tc := ⟨.hbm, 228, rfl⟩
abbrev main_v172 : Ref sig .tc := ⟨.hbm, 229, rfl⟩
abbrev main_v173 : Ref sig .tc := ⟨.hbm, 230, rfl⟩
abbrev main_c_41 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_cst_42 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_c_43 : Ref sig .tc := ⟨.hbm, 247, rfl⟩
abbrev main_v188 : Ref sig .tc := ⟨.hbm, 248, rfl⟩
abbrev main_v189 : Ref sig .tc := ⟨.hbm, 249, rfl⟩
abbrev main_c_44 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_cst_45 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_v209 : Ref sig .tc := ⟨.hbm, 271, rfl⟩
abbrev main_v210 : Ref sig .tc := ⟨.hbm, 272, rfl⟩
abbrev main_v211 : Ref sig .tc := ⟨.hbm, 273, rfl⟩
abbrev main_v212 : Ref sig .tc := ⟨.hbm, 274, rfl⟩
abbrev main_v213 : Ref sig .tc := ⟨.hbm, 275, rfl⟩
abbrev main_v214 : Ref sig .tc := ⟨.hbm, 276, rfl⟩
abbrev main_v215 : Ref sig .tc := ⟨.hbm, 277, rfl⟩
abbrev main_v216 : Ref sig .tc := ⟨.hbm, 278, rfl⟩
abbrev main_v217 : Ref sig .tc := ⟨.hbm, 279, rfl⟩
abbrev main_v218 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩
abbrev main_v230 : Ref sig .tc := ⟨.hbm, 292, rfl⟩
abbrev main_v231 : Ref sig .tc := ⟨.hbm, 293, rfl⟩
abbrev main_v232 : Ref sig .tc := ⟨.hbm, 294, rfl⟩
abbrev main_v233 : Ref sig .tc := ⟨.hbm, 295, rfl⟩
abbrev main_v234 : Ref sig .tc := ⟨.hbm, 296, rfl⟩
abbrev main_v235 : Ref sig .tc := ⟨.hbm, 297, rfl⟩
abbrev main_v236 : Ref sig .tc := ⟨.hbm, 298, rfl⟩
abbrev main_v237 : Ref sig .tc := ⟨.hbm, 299, rfl⟩
abbrev main_v238 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_v242 : Ref sig .tc := ⟨.hbm, 304, rfl⟩
abbrev main_v243 : Ref sig .tc := ⟨.hbm, 305, rfl⟩
abbrev main_v244 : Ref sig .tc := ⟨.hbm, 306, rfl⟩
abbrev main_v245 : Ref sig .tc := ⟨.hbm, 307, rfl⟩
abbrev main_v246 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_v255 : Ref sig .tc := ⟨.hbm, 317, rfl⟩
abbrev main_v256 : Ref sig .tc := ⟨.hbm, 318, rfl⟩
abbrev main_v257 : Ref sig .tc := ⟨.hbm, 319, rfl⟩
abbrev main_v258 : Ref sig .tc := ⟨.hbm, 320, rfl⟩
abbrev main_v259 : Ref sig .tc := ⟨.hbm, 321, rfl⟩
abbrev main_v260 : Ref sig .tc := ⟨.hbm, 322, rfl⟩
abbrev main_v261 : Ref sig .tc := ⟨.hbm, 323, rfl⟩
abbrev main_v262 : Ref sig .tc := ⟨.hbm, 324, rfl⟩
abbrev main_c_46 : Ref sig .tc := ⟨.hbm, 325, rfl⟩
abbrev main_v263 : Ref sig .tc := ⟨.hbm, 326, rfl⟩
abbrev main_v264 : Ref sig .tc := ⟨.hbm, 327, rfl⟩
abbrev main_c_47 : Ref sig .tc := ⟨.hbm, 328, rfl⟩
abbrev main_v265 : Ref sig .tc := ⟨.hbm, 329, rfl⟩
abbrev main_v266 : Ref sig .tc := ⟨.hbm, 330, rfl⟩
abbrev main_v267 : Ref sig .tc := ⟨.hbm, 331, rfl⟩
abbrev main_v268 : Ref sig .tc := ⟨.hbm, 332, rfl⟩
abbrev main_v269 : Ref sig .tc := ⟨.hbm, 333, rfl⟩
abbrev main_cst_48 : Ref sig .tc := ⟨.hbm, 334, rfl⟩
abbrev main_v270 : Ref sig .tc := ⟨.hbm, 335, rfl⟩
abbrev main_v271 : Ref sig .tc := ⟨.hbm, 336, rfl⟩
abbrev main_v272 : Ref sig .tc := ⟨.hbm, 337, rfl⟩
abbrev main_v273 : Ref sig .tc := ⟨.hbm, 338, rfl⟩
abbrev main_v274 : Ref sig .tc := ⟨.hbm, 339, rfl⟩
abbrev main_v275 : Ref sig .tc := ⟨.hbm, 340, rfl⟩
abbrev main_v276 : Ref sig .tc := ⟨.hbm, 341, rfl⟩
abbrev main_v277 : Ref sig .tc := ⟨.hbm, 342, rfl⟩
abbrev main_v278 : Ref sig .tc := ⟨.hbm, 343, rfl⟩
abbrev main_c_49 : Ref sig .tc := ⟨.hbm, 344, rfl⟩
abbrev main_v279 : Ref sig .tc := ⟨.hbm, 345, rfl⟩
abbrev main_v280 : Ref sig .tc := ⟨.hbm, 346, rfl⟩
abbrev main_c_50 : Ref sig .tc := ⟨.hbm, 347, rfl⟩
abbrev main_v281 : Ref sig .tc := ⟨.hbm, 348, rfl⟩
abbrev main_v282 : Ref sig .tc := ⟨.hbm, 349, rfl⟩
abbrev main_v283 : Ref sig .tc := ⟨.hbm, 350, rfl⟩
abbrev main_v284 : Ref sig .tc := ⟨.hbm, 351, rfl⟩
abbrev main_v285 : Ref sig .tc := ⟨.hbm, 352, rfl⟩
abbrev main_cst_51 : Ref sig .tc := ⟨.hbm, 353, rfl⟩
abbrev main_v286 : Ref sig .tc := ⟨.hbm, 354, rfl⟩
abbrev main_v287 : Ref sig .tc := ⟨.hbm, 355, rfl⟩
abbrev main_v288 : Ref sig .tc := ⟨.hbm, 356, rfl⟩
abbrev main_v289 : Ref sig .tc := ⟨.hbm, 357, rfl⟩
abbrev main_v290 : Ref sig .tc := ⟨.hbm, 358, rfl⟩
abbrev main_v291 : Ref sig .tc := ⟨.hbm, 359, rfl⟩
abbrev main_v292 : Ref sig .tc := ⟨.hbm, 360, rfl⟩
abbrev main_v293 : Ref sig .tc := ⟨.hbm, 361, rfl⟩
abbrev main_v294 : Ref sig .tc := ⟨.hbm, 362, rfl⟩
abbrev main_c_52 : Ref sig .tc := ⟨.hbm, 363, rfl⟩
abbrev main_v295 : Ref sig .tc := ⟨.hbm, 364, rfl⟩
abbrev main_v296 : Ref sig .tc := ⟨.hbm, 365, rfl⟩
abbrev main_c_53 : Ref sig .tc := ⟨.hbm, 366, rfl⟩
abbrev main_v297 : Ref sig .tc := ⟨.hbm, 367, rfl⟩
abbrev main_v298 : Ref sig .tc := ⟨.hbm, 368, rfl⟩
abbrev main_v299 : Ref sig .tc := ⟨.hbm, 369, rfl⟩
abbrev main_v300 : Ref sig .tc := ⟨.hbm, 370, rfl⟩
abbrev main_v301 : Ref sig .tc := ⟨.hbm, 371, rfl⟩
abbrev main_cst_54 : Ref sig .tc := ⟨.hbm, 372, rfl⟩
abbrev main_v302 : Ref sig .tc := ⟨.hbm, 373, rfl⟩
abbrev main_v303 : Ref sig .tc := ⟨.hbm, 374, rfl⟩
abbrev main_v304 : Ref sig .tc := ⟨.hbm, 375, rfl⟩
abbrev main_v305 : Ref sig .tc := ⟨.hbm, 376, rfl⟩
abbrev main_v306 : Ref sig .tc := ⟨.hbm, 377, rfl⟩
abbrev main_v307 : Ref sig .tc := ⟨.hbm, 378, rfl⟩
abbrev main_v308 : Ref sig .tc := ⟨.hbm, 379, rfl⟩
abbrev main_v309 : Ref sig .tc := ⟨.hbm, 380, rfl⟩
abbrev main_v310 : Ref sig .tc := ⟨.hbm, 381, rfl⟩
abbrev main_c_55 : Ref sig .tc := ⟨.hbm, 382, rfl⟩
abbrev main_v311 : Ref sig .tc := ⟨.hbm, 383, rfl⟩
abbrev main_v312 : Ref sig .tc := ⟨.hbm, 384, rfl⟩
abbrev main_c_56 : Ref sig .tc := ⟨.hbm, 385, rfl⟩
abbrev main_v313 : Ref sig .tc := ⟨.hbm, 386, rfl⟩
abbrev main_v314 : Ref sig .tc := ⟨.hbm, 387, rfl⟩
abbrev main_v315 : Ref sig .tc := ⟨.hbm, 388, rfl⟩
abbrev main_v316 : Ref sig .tc := ⟨.hbm, 389, rfl⟩
abbrev main_v317 : Ref sig .tc := ⟨.hbm, 390, rfl⟩
abbrev main_cst_57 : Ref sig .tc := ⟨.hbm, 391, rfl⟩
abbrev main_v318 : Ref sig .tc := ⟨.hbm, 392, rfl⟩
abbrev main_v319 : Ref sig .tc := ⟨.hbm, 393, rfl⟩
abbrev main_v320 : Ref sig .tc := ⟨.hbm, 394, rfl⟩
abbrev main_v321 : Ref sig .tc := ⟨.hbm, 395, rfl⟩
abbrev main_v322 : Ref sig .tc := ⟨.hbm, 396, rfl⟩
abbrev main_v323 : Ref sig .tc := ⟨.hbm, 397, rfl⟩
abbrev main_v324 : Ref sig .tc := ⟨.hbm, 398, rfl⟩
abbrev main_v325 : Ref sig .tc := ⟨.hbm, 399, rfl⟩
abbrev main_v326 : Ref sig .tc := ⟨.hbm, 400, rfl⟩
abbrev main_c_58 : Ref sig .tc := ⟨.hbm, 401, rfl⟩
abbrev main_v327 : Ref sig .tc := ⟨.hbm, 402, rfl⟩
abbrev main_v328 : Ref sig .tc := ⟨.hbm, 403, rfl⟩
abbrev main_c_59 : Ref sig .tc := ⟨.hbm, 404, rfl⟩
abbrev main_v329 : Ref sig .tc := ⟨.hbm, 405, rfl⟩
abbrev main_v330 : Ref sig .tc := ⟨.hbm, 406, rfl⟩
abbrev main_v331 : Ref sig .tc := ⟨.hbm, 407, rfl⟩
abbrev main_v332 : Ref sig .tc := ⟨.hbm, 408, rfl⟩
abbrev main_v333 : Ref sig .tc := ⟨.hbm, 409, rfl⟩
abbrev main_cst_60 : Ref sig .tc := ⟨.hbm, 410, rfl⟩
abbrev main_v334 : Ref sig .tc := ⟨.hbm, 411, rfl⟩
abbrev main_v335 : Ref sig .tc := ⟨.hbm, 412, rfl⟩
abbrev main_v336 : Ref sig .tc := ⟨.hbm, 413, rfl⟩
abbrev main_v337 : Ref sig .tc := ⟨.hbm, 414, rfl⟩
abbrev main_v338 : Ref sig .tc := ⟨.hbm, 415, rfl⟩
abbrev main_v339 : Ref sig .tc := ⟨.hbm, 416, rfl⟩
abbrev main_v340 : Ref sig .tc := ⟨.hbm, 417, rfl⟩
abbrev main_v341 : Ref sig .tc := ⟨.hbm, 418, rfl⟩
abbrev main_v342 : Ref sig .tc := ⟨.hbm, 419, rfl⟩
abbrev main_c_61 : Ref sig .tc := ⟨.hbm, 420, rfl⟩
abbrev main_v343 : Ref sig .tc := ⟨.hbm, 421, rfl⟩
abbrev main_v344 : Ref sig .tc := ⟨.hbm, 422, rfl⟩
abbrev main_c_62 : Ref sig .tc := ⟨.hbm, 423, rfl⟩
abbrev main_v345 : Ref sig .tc := ⟨.hbm, 424, rfl⟩
abbrev main_v346 : Ref sig .tc := ⟨.hbm, 425, rfl⟩
abbrev main_v347 : Ref sig .tc := ⟨.hbm, 426, rfl⟩
abbrev main_v348 : Ref sig .tc := ⟨.hbm, 427, rfl⟩
abbrev main_v349 : Ref sig .tc := ⟨.hbm, 428, rfl⟩
abbrev main_cst_63 : Ref sig .tc := ⟨.hbm, 429, rfl⟩
abbrev main_v350 : Ref sig .tc := ⟨.hbm, 430, rfl⟩
abbrev main_v351 : Ref sig .tc := ⟨.hbm, 431, rfl⟩
abbrev main_v352 : Ref sig .tc := ⟨.hbm, 432, rfl⟩
abbrev main_v353 : Ref sig .tc := ⟨.hbm, 433, rfl⟩
abbrev main_v354 : Ref sig .tc := ⟨.hbm, 434, rfl⟩
abbrev main_v355 : Ref sig .tc := ⟨.hbm, 435, rfl⟩
abbrev main_v356 : Ref sig .tc := ⟨.hbm, 436, rfl⟩
abbrev main_v357 : Ref sig .tc := ⟨.hbm, 437, rfl⟩
abbrev main_v358 : Ref sig .tc := ⟨.hbm, 438, rfl⟩
abbrev main_c_64 : Ref sig .tc := ⟨.hbm, 439, rfl⟩
abbrev main_v359 : Ref sig .tc := ⟨.hbm, 440, rfl⟩
abbrev main_v360 : Ref sig .tc := ⟨.hbm, 441, rfl⟩
abbrev main_c_65 : Ref sig .tc := ⟨.hbm, 442, rfl⟩
abbrev main_v361 : Ref sig .tc := ⟨.hbm, 443, rfl⟩
abbrev main_v362 : Ref sig .tc := ⟨.hbm, 444, rfl⟩
abbrev main_v363 : Ref sig .tc := ⟨.hbm, 445, rfl⟩
abbrev main_v364 : Ref sig .tc := ⟨.hbm, 446, rfl⟩
abbrev main_v365 : Ref sig .tc := ⟨.hbm, 447, rfl⟩
abbrev main_cst_66 : Ref sig .tc := ⟨.hbm, 448, rfl⟩
abbrev main_v366 : Ref sig .tc := ⟨.hbm, 449, rfl⟩
abbrev main_v367 : Ref sig .tc := ⟨.hbm, 450, rfl⟩
abbrev main_v368 : Ref sig .tc := ⟨.hbm, 451, rfl⟩
abbrev main_v369 : Ref sig .tc := ⟨.hbm, 452, rfl⟩
abbrev main_v370 : Ref sig .tc := ⟨.hbm, 453, rfl⟩
abbrev main_v371 : Ref sig .tc := ⟨.hbm, 454, rfl⟩
abbrev main_v372 : Ref sig .tc := ⟨.hbm, 455, rfl⟩
abbrev main_v373 : Ref sig .tc := ⟨.hbm, 456, rfl⟩
abbrev main_v374 : Ref sig .tc := ⟨.hbm, 457, rfl⟩
abbrev main_c_67 : Ref sig .tc := ⟨.hbm, 458, rfl⟩
abbrev main_v375 : Ref sig .tc := ⟨.hbm, 459, rfl⟩
abbrev main_v376 : Ref sig .tc := ⟨.hbm, 460, rfl⟩
abbrev main_c_68 : Ref sig .tc := ⟨.hbm, 461, rfl⟩
abbrev main_v377 : Ref sig .tc := ⟨.hbm, 462, rfl⟩
abbrev main_v378 : Ref sig .tc := ⟨.hbm, 463, rfl⟩
abbrev main_v379 : Ref sig .tc := ⟨.hbm, 464, rfl⟩
abbrev main_v380 : Ref sig .tc := ⟨.hbm, 465, rfl⟩
abbrev main_v381 : Ref sig .tc := ⟨.hbm, 466, rfl⟩
abbrev main_cst_69 : Ref sig .tc := ⟨.hbm, 467, rfl⟩
abbrev main_v382 : Ref sig .tc := ⟨.hbm, 468, rfl⟩
abbrev main_v383 : Ref sig .tc := ⟨.hbm, 469, rfl⟩
abbrev main_v384 : Ref sig .tc := ⟨.hbm, 470, rfl⟩
abbrev main_v385 : Ref sig .tc := ⟨.hbm, 471, rfl⟩
abbrev main_v386 : Ref sig .tc := ⟨.hbm, 472, rfl⟩
abbrev main_v387 : Ref sig .tc := ⟨.hbm, 473, rfl⟩
abbrev main_v388 : Ref sig .tc := ⟨.hbm, 474, rfl⟩
abbrev main_v389 : Ref sig .tc := ⟨.hbm, 475, rfl⟩
abbrev main_v390 : Ref sig .tc := ⟨.hbm, 476, rfl⟩
abbrev main_v391 : Ref sig .tc := ⟨.hbm, 477, rfl⟩
abbrev main_v392 : Ref sig .tc := ⟨.hbm, 478, rfl⟩
abbrev main_v393 : Ref sig .tc := ⟨.hbm, 479, rfl⟩
abbrev main_v394 : Ref sig .tc := ⟨.hbm, 480, rfl⟩
abbrev main_v395 : Ref sig .tc := ⟨.hbm, 481, rfl⟩
abbrev main_v396 : Ref sig .tc := ⟨.hbm, 482, rfl⟩
abbrev main_v397 : Ref sig .tc := ⟨.hbm, 483, rfl⟩
abbrev main_v398 : Ref sig .tc := ⟨.hbm, 484, rfl⟩
abbrev main_v399 : Ref sig .tc := ⟨.hbm, 485, rfl⟩
abbrev main_v400 : Ref sig .tc := ⟨.hbm, 486, rfl⟩
abbrev main_v401 : Ref sig .tc := ⟨.hbm, 487, rfl⟩
abbrev main_v402 : Ref sig .tc := ⟨.hbm, 488, rfl⟩
abbrev main_v403 : Ref sig .tc := ⟨.hbm, 489, rfl⟩
abbrev main_v404 : Ref sig .tc := ⟨.hbm, 490, rfl⟩
abbrev main_v405 : Ref sig .tc := ⟨.hbm, 491, rfl⟩
abbrev main_v406 : Ref sig .tc := ⟨.hbm, 492, rfl⟩
abbrev main_v407 : Ref sig .tc := ⟨.hbm, 493, rfl⟩
abbrev main_v408 : Ref sig .tc := ⟨.hbm, 494, rfl⟩
abbrev main_v409 : Ref sig .tc := ⟨.hbm, 495, rfl⟩
abbrev main_v410 : Ref sig .tc := ⟨.hbm, 496, rfl⟩
abbrev main_v411 : Ref sig .tc := ⟨.hbm, 497, rfl⟩
abbrev main_v412 : Ref sig .tc := ⟨.hbm, 498, rfl⟩
abbrev main_v413 : Ref sig .tc := ⟨.hbm, 499, rfl⟩
abbrev main_v414 : Ref sig .tc := ⟨.hbm, 500, rfl⟩
abbrev main_v415 : Ref sig .tc := ⟨.hbm, 501, rfl⟩
abbrev main_v416 : Ref sig .tc := ⟨.hbm, 502, rfl⟩
abbrev main_v417 : Ref sig .tc := ⟨.hbm, 503, rfl⟩
abbrev main_v418 : Ref sig .tc := ⟨.hbm, 504, rfl⟩
abbrev main_v419 : Ref sig .tc := ⟨.hbm, 505, rfl⟩
abbrev main_v420 : Ref sig .tc := ⟨.hbm, 506, rfl⟩
abbrev main_v421 : Ref sig .tc := ⟨.hbm, 507, rfl⟩
abbrev main_v422 : Ref sig .tc := ⟨.hbm, 508, rfl⟩
abbrev main_v423 : Ref sig .tc := ⟨.hbm, 509, rfl⟩
abbrev main_v424 : Ref sig .tc := ⟨.hbm, 510, rfl⟩
abbrev main_v425 : Ref sig .tc := ⟨.hbm, 511, rfl⟩
abbrev main_v426 : Ref sig .tc := ⟨.hbm, 512, rfl⟩
abbrev main_v427 : Ref sig .tc := ⟨.hbm, 513, rfl⟩
abbrev main_v428 : Ref sig .tc := ⟨.hbm, 514, rfl⟩
abbrev main_v429 : Ref sig .tc := ⟨.hbm, 515, rfl⟩
abbrev main_v430 : Ref sig .tc := ⟨.hbm, 516, rfl⟩
abbrev main_v431 : Ref sig .tc := ⟨.hbm, 517, rfl⟩
abbrev main_v432 : Ref sig .tc := ⟨.hbm, 518, rfl⟩
abbrev main_v433 : Ref sig .tc := ⟨.hbm, 519, rfl⟩
abbrev main_v434 : Ref sig .tc := ⟨.hbm, 520, rfl⟩
abbrev main_v435 : Ref sig .tc := ⟨.hbm, 521, rfl⟩
abbrev main_v436 : Ref sig .tc := ⟨.hbm, 522, rfl⟩
abbrev main_v437 : Ref sig .tc := ⟨.hbm, 523, rfl⟩
abbrev main_v438 : Ref sig .tc := ⟨.hbm, 524, rfl⟩
abbrev main_v439 : Ref sig .tc := ⟨.hbm, 525, rfl⟩
abbrev main_v440 : Ref sig .tc := ⟨.hbm, 526, rfl⟩
abbrev main_v441 : Ref sig .tc := ⟨.hbm, 527, rfl⟩
abbrev main_v442 : Ref sig .tc := ⟨.hbm, 528, rfl⟩
abbrev main_v443 : Ref sig .tc := ⟨.hbm, 529, rfl⟩
abbrev main_v444 : Ref sig .tc := ⟨.hbm, 530, rfl⟩
abbrev main_v445 : Ref sig .tc := ⟨.hbm, 531, rfl⟩
abbrev main_v446 : Ref sig .tc := ⟨.hbm, 532, rfl⟩
abbrev main_v447 : Ref sig .tc := ⟨.hbm, 533, rfl⟩
abbrev main_v448 : Ref sig .tc := ⟨.hbm, 534, rfl⟩
abbrev main_v449 : Ref sig .tc := ⟨.hbm, 535, rfl⟩
abbrev main_c_70 : Ref sig .tc := ⟨.hbm, 536, rfl⟩
abbrev main_v450 : Ref sig .tc := ⟨.hbm, 537, rfl⟩
abbrev main_v451 : Ref sig .tc := ⟨.hbm, 538, rfl⟩
abbrev main_c_71 : Ref sig .tc := ⟨.hbm, 539, rfl⟩
abbrev main_v452 : Ref sig .tc := ⟨.hbm, 540, rfl⟩
abbrev main_v453 : Ref sig .tc := ⟨.hbm, 541, rfl⟩
abbrev main_v454 : Ref sig .tc := ⟨.hbm, 542, rfl⟩
abbrev main_v455 : Ref sig .tc := ⟨.hbm, 543, rfl⟩
abbrev main_v456 : Ref sig .tc := ⟨.hbm, 544, rfl⟩
abbrev main_cst_72 : Ref sig .tc := ⟨.hbm, 545, rfl⟩
abbrev main_v457 : Ref sig .tc := ⟨.hbm, 546, rfl⟩
abbrev main_v458 : Ref sig .tc := ⟨.hbm, 547, rfl⟩
abbrev main_v459 : Ref sig .tc := ⟨.hbm, 548, rfl⟩
abbrev main_v460 : Ref sig .tc := ⟨.hbm, 549, rfl⟩
abbrev main_v461 : Ref sig .tc := ⟨.hbm, 550, rfl⟩
abbrev main_v462 : Ref sig .tc := ⟨.hbm, 551, rfl⟩
abbrev main_v463 : Ref sig .tc := ⟨.hbm, 552, rfl⟩
abbrev main_v464 : Ref sig .tc := ⟨.hbm, 553, rfl⟩
abbrev main_v465 : Ref sig .tc := ⟨.hbm, 554, rfl⟩
abbrev main_c_73 : Ref sig .tc := ⟨.hbm, 555, rfl⟩
abbrev main_v466 : Ref sig .tc := ⟨.hbm, 556, rfl⟩
abbrev main_v467 : Ref sig .tc := ⟨.hbm, 557, rfl⟩
abbrev main_c_74 : Ref sig .tc := ⟨.hbm, 558, rfl⟩
abbrev main_v468 : Ref sig .tc := ⟨.hbm, 559, rfl⟩
abbrev main_v469 : Ref sig .tc := ⟨.hbm, 560, rfl⟩
abbrev main_v470 : Ref sig .tc := ⟨.hbm, 561, rfl⟩
abbrev main_v471 : Ref sig .tc := ⟨.hbm, 562, rfl⟩
abbrev main_v472 : Ref sig .tc := ⟨.hbm, 563, rfl⟩
abbrev main_cst_75 : Ref sig .tc := ⟨.hbm, 564, rfl⟩
abbrev main_v473 : Ref sig .tc := ⟨.hbm, 565, rfl⟩
abbrev main_v474 : Ref sig .tc := ⟨.hbm, 566, rfl⟩
abbrev main_v475 : Ref sig .tc := ⟨.hbm, 567, rfl⟩
abbrev main_v476 : Ref sig .tc := ⟨.hbm, 568, rfl⟩
abbrev main_v477 : Ref sig .tc := ⟨.hbm, 569, rfl⟩
abbrev main_v478 : Ref sig .tc := ⟨.hbm, 570, rfl⟩
abbrev main_v479 : Ref sig .tc := ⟨.hbm, 571, rfl⟩
abbrev main_v480 : Ref sig .tc := ⟨.hbm, 572, rfl⟩
abbrev main_v481 : Ref sig .tc := ⟨.hbm, 573, rfl⟩
abbrev main_c_76 : Ref sig .tc := ⟨.hbm, 574, rfl⟩
abbrev main_v482 : Ref sig .tc := ⟨.hbm, 575, rfl⟩
abbrev main_v483 : Ref sig .tc := ⟨.hbm, 576, rfl⟩
abbrev main_c_77 : Ref sig .tc := ⟨.hbm, 577, rfl⟩
abbrev main_v484 : Ref sig .tc := ⟨.hbm, 578, rfl⟩
abbrev main_v485 : Ref sig .tc := ⟨.hbm, 579, rfl⟩
abbrev main_v486 : Ref sig .tc := ⟨.hbm, 580, rfl⟩
abbrev main_v487 : Ref sig .tc := ⟨.hbm, 581, rfl⟩
abbrev main_v488 : Ref sig .tc := ⟨.hbm, 582, rfl⟩
abbrev main_cst_78 : Ref sig .tc := ⟨.hbm, 583, rfl⟩
abbrev main_v489 : Ref sig .tc := ⟨.hbm, 584, rfl⟩
abbrev main_v490 : Ref sig .tc := ⟨.hbm, 585, rfl⟩
abbrev main_v491 : Ref sig .tc := ⟨.hbm, 586, rfl⟩
abbrev main_v492 : Ref sig .tc := ⟨.hbm, 587, rfl⟩
abbrev main_v493 : Ref sig .tc := ⟨.hbm, 588, rfl⟩
abbrev main_v494 : Ref sig .tc := ⟨.hbm, 589, rfl⟩
abbrev main_v495 : Ref sig .tc := ⟨.hbm, 590, rfl⟩
abbrev main_v496 : Ref sig .tc := ⟨.hbm, 591, rfl⟩
abbrev main_v497 : Ref sig .tc := ⟨.hbm, 592, rfl⟩
abbrev main_c_79 : Ref sig .tc := ⟨.hbm, 593, rfl⟩
abbrev main_v498 : Ref sig .tc := ⟨.hbm, 594, rfl⟩
abbrev main_v499 : Ref sig .tc := ⟨.hbm, 595, rfl⟩
abbrev main_c_80 : Ref sig .tc := ⟨.hbm, 596, rfl⟩
abbrev main_v500 : Ref sig .tc := ⟨.hbm, 597, rfl⟩
abbrev main_v501 : Ref sig .tc := ⟨.hbm, 598, rfl⟩
abbrev main_v502 : Ref sig .tc := ⟨.hbm, 599, rfl⟩
abbrev main_v503 : Ref sig .tc := ⟨.hbm, 600, rfl⟩
abbrev main_v504 : Ref sig .tc := ⟨.hbm, 601, rfl⟩
abbrev main_cst_81 : Ref sig .tc := ⟨.hbm, 602, rfl⟩
abbrev main_v505 : Ref sig .tc := ⟨.hbm, 603, rfl⟩
abbrev main_v506 : Ref sig .tc := ⟨.hbm, 604, rfl⟩
abbrev main_v507 : Ref sig .tc := ⟨.hbm, 605, rfl⟩
abbrev main_v508 : Ref sig .tc := ⟨.hbm, 606, rfl⟩
abbrev main_v509 : Ref sig .tc := ⟨.hbm, 607, rfl⟩
abbrev main_v510 : Ref sig .tc := ⟨.hbm, 608, rfl⟩
abbrev main_v511 : Ref sig .tc := ⟨.hbm, 609, rfl⟩
abbrev main_v512 : Ref sig .tc := ⟨.hbm, 610, rfl⟩
abbrev main_v513 : Ref sig .tc := ⟨.hbm, 611, rfl⟩
abbrev main_c_82 : Ref sig .tc := ⟨.hbm, 612, rfl⟩
abbrev main_v514 : Ref sig .tc := ⟨.hbm, 613, rfl⟩
abbrev main_v515 : Ref sig .tc := ⟨.hbm, 614, rfl⟩
abbrev main_c_83 : Ref sig .tc := ⟨.hbm, 615, rfl⟩
abbrev main_v516 : Ref sig .tc := ⟨.hbm, 616, rfl⟩
abbrev main_v517 : Ref sig .tc := ⟨.hbm, 617, rfl⟩
abbrev main_v518 : Ref sig .tc := ⟨.hbm, 618, rfl⟩
abbrev main_v519 : Ref sig .tc := ⟨.hbm, 619, rfl⟩
abbrev main_v520 : Ref sig .tc := ⟨.hbm, 620, rfl⟩
abbrev main_cst_84 : Ref sig .tc := ⟨.hbm, 621, rfl⟩
abbrev main_v521 : Ref sig .tc := ⟨.hbm, 622, rfl⟩
abbrev main_v522 : Ref sig .tc := ⟨.hbm, 623, rfl⟩
abbrev main_v523 : Ref sig .tc := ⟨.hbm, 624, rfl⟩
abbrev main_v524 : Ref sig .tc := ⟨.hbm, 625, rfl⟩
abbrev main_v525 : Ref sig .tc := ⟨.hbm, 626, rfl⟩
abbrev main_v526 : Ref sig .tc := ⟨.hbm, 627, rfl⟩
abbrev main_v527 : Ref sig .tc := ⟨.hbm, 628, rfl⟩
abbrev main_v528 : Ref sig .tc := ⟨.hbm, 629, rfl⟩
abbrev main_v529 : Ref sig .tc := ⟨.hbm, 630, rfl⟩
abbrev main_c_85 : Ref sig .tc := ⟨.hbm, 631, rfl⟩
abbrev main_v530 : Ref sig .tc := ⟨.hbm, 632, rfl⟩
abbrev main_v531 : Ref sig .tc := ⟨.hbm, 633, rfl⟩
abbrev main_c_86 : Ref sig .tc := ⟨.hbm, 634, rfl⟩
abbrev main_v532 : Ref sig .tc := ⟨.hbm, 635, rfl⟩
abbrev main_v533 : Ref sig .tc := ⟨.hbm, 636, rfl⟩
abbrev main_v534 : Ref sig .tc := ⟨.hbm, 637, rfl⟩
abbrev main_v535 : Ref sig .tc := ⟨.hbm, 638, rfl⟩
abbrev main_v536 : Ref sig .tc := ⟨.hbm, 639, rfl⟩
abbrev main_cst_87 : Ref sig .tc := ⟨.hbm, 640, rfl⟩
abbrev main_v537 : Ref sig .tc := ⟨.hbm, 641, rfl⟩
abbrev main_v538 : Ref sig .tc := ⟨.hbm, 642, rfl⟩
abbrev main_v539 : Ref sig .tc := ⟨.hbm, 643, rfl⟩
abbrev main_v540 : Ref sig .tc := ⟨.hbm, 644, rfl⟩
abbrev main_v541 : Ref sig .tc := ⟨.hbm, 645, rfl⟩
abbrev main_v542 : Ref sig .tc := ⟨.hbm, 646, rfl⟩
abbrev main_v543 : Ref sig .tc := ⟨.hbm, 647, rfl⟩
abbrev main_v544 : Ref sig .tc := ⟨.hbm, 648, rfl⟩
abbrev main_v545 : Ref sig .tc := ⟨.hbm, 649, rfl⟩
abbrev main_c_88 : Ref sig .tc := ⟨.hbm, 650, rfl⟩
abbrev main_v546 : Ref sig .tc := ⟨.hbm, 651, rfl⟩
abbrev main_v547 : Ref sig .tc := ⟨.hbm, 652, rfl⟩
abbrev main_c_89 : Ref sig .tc := ⟨.hbm, 653, rfl⟩
abbrev main_v548 : Ref sig .tc := ⟨.hbm, 654, rfl⟩
abbrev main_v549 : Ref sig .tc := ⟨.hbm, 655, rfl⟩
abbrev main_v550 : Ref sig .tc := ⟨.hbm, 656, rfl⟩
abbrev main_v551 : Ref sig .tc := ⟨.hbm, 657, rfl⟩
abbrev main_v552 : Ref sig .tc := ⟨.hbm, 658, rfl⟩
abbrev main_cst_90 : Ref sig .tc := ⟨.hbm, 659, rfl⟩
abbrev main_v553 : Ref sig .tc := ⟨.hbm, 660, rfl⟩
abbrev main_v554 : Ref sig .tc := ⟨.hbm, 661, rfl⟩
abbrev main_v555 : Ref sig .tc := ⟨.hbm, 662, rfl⟩
abbrev main_v556 : Ref sig .tc := ⟨.hbm, 663, rfl⟩
abbrev main_v557 : Ref sig .tc := ⟨.hbm, 664, rfl⟩
abbrev main_v558 : Ref sig .tc := ⟨.hbm, 665, rfl⟩
abbrev main_v559 : Ref sig .tc := ⟨.hbm, 666, rfl⟩
abbrev main_v560 : Ref sig .tc := ⟨.hbm, 667, rfl⟩
abbrev main_v561 : Ref sig .tc := ⟨.hbm, 668, rfl⟩
abbrev main_c_91 : Ref sig .tc := ⟨.hbm, 669, rfl⟩
abbrev main_v562 : Ref sig .tc := ⟨.hbm, 670, rfl⟩
abbrev main_v563 : Ref sig .tc := ⟨.hbm, 671, rfl⟩
abbrev main_c_92 : Ref sig .tc := ⟨.hbm, 672, rfl⟩
abbrev main_v564 : Ref sig .tc := ⟨.hbm, 673, rfl⟩
abbrev main_v565 : Ref sig .tc := ⟨.hbm, 674, rfl⟩
abbrev main_v566 : Ref sig .tc := ⟨.hbm, 675, rfl⟩
abbrev main_v567 : Ref sig .tc := ⟨.hbm, 676, rfl⟩
abbrev main_v568 : Ref sig .tc := ⟨.hbm, 677, rfl⟩
abbrev main_cst_93 : Ref sig .tc := ⟨.hbm, 678, rfl⟩
abbrev main_v569 : Ref sig .tc := ⟨.hbm, 679, rfl⟩
abbrev main_v570 : Ref sig .tc := ⟨.hbm, 680, rfl⟩
abbrev main_v571 : Ref sig .tc := ⟨.hbm, 681, rfl⟩
abbrev main_v572 : Ref sig .tc := ⟨.hbm, 682, rfl⟩
abbrev main_v573 : Ref sig .tc := ⟨.hbm, 683, rfl⟩
abbrev main_v574 : Ref sig .tc := ⟨.hbm, 684, rfl⟩
abbrev main_v575 : Ref sig .tc := ⟨.hbm, 685, rfl⟩
abbrev main_v576 : Ref sig .tc := ⟨.hbm, 686, rfl⟩
abbrev main_v577 : Ref sig .tc := ⟨.hbm, 687, rfl⟩
abbrev main_v578 : Ref sig .tc := ⟨.hbm, 688, rfl⟩
abbrev main_v579 : Ref sig .tc := ⟨.hbm, 689, rfl⟩
abbrev main_v580 : Ref sig .tc := ⟨.hbm, 690, rfl⟩
abbrev main_v581 : Ref sig .tc := ⟨.hbm, 691, rfl⟩
abbrev main_v582 : Ref sig .tc := ⟨.hbm, 692, rfl⟩
abbrev main_v583 : Ref sig .tc := ⟨.hbm, 693, rfl⟩
abbrev main_v584 : Ref sig .tc := ⟨.hbm, 694, rfl⟩
abbrev main_v585 : Ref sig .tc := ⟨.hbm, 695, rfl⟩
abbrev main_v586 : Ref sig .tc := ⟨.hbm, 696, rfl⟩
abbrev main_v587 : Ref sig .tc := ⟨.hbm, 697, rfl⟩
abbrev main_v588 : Ref sig .tc := ⟨.hbm, 698, rfl⟩
abbrev main_v589 : Ref sig .tc := ⟨.hbm, 699, rfl⟩
abbrev main_v590 : Ref sig .tc := ⟨.hbm, 700, rfl⟩
abbrev main_v591 : Ref sig .tc := ⟨.hbm, 701, rfl⟩
abbrev main_v592 : Ref sig .tc := ⟨.hbm, 702, rfl⟩
abbrev main_v593 : Ref sig .tc := ⟨.hbm, 703, rfl⟩
abbrev main_v594 : Ref sig .tc := ⟨.hbm, 704, rfl⟩
abbrev main_v595 : Ref sig .tc := ⟨.hbm, 705, rfl⟩
abbrev main_v596 : Ref sig .tc := ⟨.hbm, 706, rfl⟩
abbrev main_v597 : Ref sig .tc := ⟨.hbm, 707, rfl⟩
abbrev main_v598 : Ref sig .tc := ⟨.hbm, 708, rfl⟩
abbrev main_v599 : Ref sig .tc := ⟨.hbm, 709, rfl⟩
abbrev main_v600 : Ref sig .tc := ⟨.hbm, 710, rfl⟩
abbrev main_v601 : Ref sig .tc := ⟨.hbm, 711, rfl⟩
abbrev main_v602 : Ref sig .tc := ⟨.hbm, 712, rfl⟩
abbrev main_v603 : Ref sig .tc := ⟨.hbm, 713, rfl⟩
abbrev main_v604 : Ref sig .tc := ⟨.hbm, 714, rfl⟩
abbrev main_v605 : Ref sig .tc := ⟨.hbm, 715, rfl⟩
abbrev main_v606 : Ref sig .tc := ⟨.hbm, 716, rfl⟩
abbrev main_v607 : Ref sig .tc := ⟨.hbm, 717, rfl⟩
abbrev main_v608 : Ref sig .tc := ⟨.hbm, 718, rfl⟩
abbrev main_v609 : Ref sig .tc := ⟨.hbm, 719, rfl⟩
abbrev main_v610 : Ref sig .tc := ⟨.hbm, 720, rfl⟩
abbrev main_v611 : Ref sig .tc := ⟨.hbm, 721, rfl⟩
abbrev main_v612 : Ref sig .tc := ⟨.hbm, 722, rfl⟩
abbrev main_v613 : Ref sig .tc := ⟨.hbm, 723, rfl⟩
abbrev main_v614 : Ref sig .tc := ⟨.hbm, 724, rfl⟩
abbrev main_v615 : Ref sig .tc := ⟨.hbm, 725, rfl⟩
abbrev main_v616 : Ref sig .tc := ⟨.hbm, 726, rfl⟩
abbrev main_v617 : Ref sig .tc := ⟨.hbm, 727, rfl⟩
abbrev main_v618 : Ref sig .tc := ⟨.hbm, 728, rfl⟩
abbrev main_v619 : Ref sig .tc := ⟨.hbm, 729, rfl⟩
abbrev main_v620 : Ref sig .tc := ⟨.hbm, 730, rfl⟩
abbrev main_v621 : Ref sig .tc := ⟨.hbm, 731, rfl⟩
abbrev main_v622 : Ref sig .tc := ⟨.hbm, 732, rfl⟩
abbrev main_v623 : Ref sig .tc := ⟨.hbm, 733, rfl⟩
abbrev main_v624 : Ref sig .tc := ⟨.hbm, 734, rfl⟩
abbrev main_v625 : Ref sig .tc := ⟨.hbm, 735, rfl⟩
abbrev main_v626 : Ref sig .tc := ⟨.hbm, 736, rfl⟩
abbrev main_v627 : Ref sig .tc := ⟨.hbm, 737, rfl⟩
abbrev main_v628 : Ref sig .tc := ⟨.hbm, 738, rfl⟩
abbrev main_v629 : Ref sig .tc := ⟨.hbm, 739, rfl⟩
abbrev main_v630 : Ref sig .tc := ⟨.hbm, 740, rfl⟩
abbrev main_v631 : Ref sig .tc := ⟨.hbm, 741, rfl⟩
abbrev main_v632 : Ref sig .tc := ⟨.hbm, 742, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg9_0 : Ref sig .tc := ⟨.vmem, 31, rfl⟩
abbrev cc1_stg9_1 : Ref sig .tc := ⟨.vmem, 32, rfl⟩
abbrev cc2_stg0_0 : Ref sig .tc := ⟨.vmem, 33, rfl⟩
abbrev cc2_stg0_1 : Ref sig .tc := ⟨.vmem, 34, rfl⟩
abbrev cc2_stg1_0 : Ref sig .tc := ⟨.vmem, 35, rfl⟩
abbrev cc2_stg1_1 : Ref sig .tc := ⟨.vmem, 36, rfl⟩
abbrev cc2_stg2_0 : Ref sig .tc := ⟨.vmem, 37, rfl⟩
abbrev cc2_stg2_1 : Ref sig .tc := ⟨.vmem, 38, rfl⟩
abbrev cc2_stg3_0 : Ref sig .tc := ⟨.vmem, 39, rfl⟩
abbrev cc2_stg3_1 : Ref sig .tc := ⟨.vmem, 40, rfl⟩
abbrev cc2_stg4_0 : Ref sig .tc := ⟨.vmem, 41, rfl⟩
abbrev cc2_stg5_0 : Ref sig .tc := ⟨.vmem, 42, rfl⟩
abbrev cc2_stg6_0 : Ref sig .tc := ⟨.vmem, 43, rfl⟩
abbrev cc2_stg7_0 : Ref sig .tc := ⟨.vmem, 44, rfl⟩
abbrev cc2_stg8_0 : Ref sig .tc := ⟨.vmem, 45, rfl⟩
abbrev cc2_stg9_0 : Ref sig .tc := ⟨.vmem, 46, rfl⟩
abbrev cc2_stg10_0 : Ref sig .tc := ⟨.vmem, 47, rfl⟩
abbrev cc2_stg11_0 : Ref sig .tc := ⟨.vmem, 48, rfl⟩
abbrev cc2_stg12_0 : Ref sig .tc := ⟨.vmem, 49, rfl⟩
abbrev cc2_stg13_0 : Ref sig .tc := ⟨.vmem, 50, rfl⟩
abbrev cc2_stg13_1 : Ref sig .tc := ⟨.vmem, 51, rfl⟩
abbrev cc3_stg0_0 : Ref sig .tc := ⟨.vmem, 52, rfl⟩
abbrev cc3_stg0_1 : Ref sig .tc := ⟨.vmem, 53, rfl⟩
abbrev cc3_stg1_0 : Ref sig .tc := ⟨.vmem, 54, rfl⟩
abbrev cc3_stg1_1 : Ref sig .tc := ⟨.vmem, 55, rfl⟩
abbrev cc3_stg2_0 : Ref sig .tc := ⟨.vmem, 56, rfl⟩
abbrev cc3_stg2_1 : Ref sig .tc := ⟨.vmem, 57, rfl⟩
abbrev cc3_stg3_0 : Ref sig .tc := ⟨.vmem, 58, rfl⟩
abbrev cc3_stg3_1 : Ref sig .tc := ⟨.vmem, 59, rfl⟩
abbrev cc3_stg4_0 : Ref sig .tc := ⟨.vmem, 60, rfl⟩
abbrev cc3_stg5_0 : Ref sig .tc := ⟨.vmem, 61, rfl⟩
abbrev cc3_stg6_0 : Ref sig .tc := ⟨.vmem, 62, rfl⟩
abbrev cc3_stg7_0 : Ref sig .tc := ⟨.vmem, 63, rfl⟩
abbrev cc3_stg8_0 : Ref sig .tc := ⟨.vmem, 64, rfl⟩
abbrev cc3_stg9_0 : Ref sig .tc := ⟨.vmem, 65, rfl⟩
abbrev cc3_stg10_0 : Ref sig .tc := ⟨.vmem, 66, rfl⟩
abbrev cc3_stg11_0 : Ref sig .tc := ⟨.vmem, 67, rfl⟩
abbrev cc3_stg12_0 : Ref sig .tc := ⟨.vmem, 68, rfl⟩
abbrev cc3_stg13_0 : Ref sig .tc := ⟨.vmem, 69, rfl⟩
abbrev cc3_stg13_1 : Ref sig .tc := ⟨.vmem, 70, rfl⟩
abbrev cc4_stg0_0 : Ref sig .tc := ⟨.vmem, 71, rfl⟩
abbrev cc4_stg0_1 : Ref sig .tc := ⟨.vmem, 72, rfl⟩
abbrev cc4_stg1_0 : Ref sig .tc := ⟨.vmem, 73, rfl⟩
abbrev cc4_stg1_1 : Ref sig .tc := ⟨.vmem, 74, rfl⟩
abbrev cc4_stg2_0 : Ref sig .tc := ⟨.vmem, 75, rfl⟩
abbrev cc4_stg2_1 : Ref sig .tc := ⟨.vmem, 76, rfl⟩
abbrev cc4_stg3_0 : Ref sig .tc := ⟨.vmem, 77, rfl⟩
abbrev cc4_stg4_0 : Ref sig .tc := ⟨.vmem, 78, rfl⟩
abbrev cc4_stg5_0 : Ref sig .tc := ⟨.vmem, 79, rfl⟩
abbrev cc4_stg6_0 : Ref sig .tc := ⟨.vmem, 80, rfl⟩
abbrev cc4_stg7_0 : Ref sig .tc := ⟨.vmem, 81, rfl⟩
abbrev cc4_stg8_0 : Ref sig .tc := ⟨.vmem, 82, rfl⟩
abbrev cc4_stg9_0 : Ref sig .tc := ⟨.vmem, 83, rfl⟩
abbrev cc4_stg9_1 : Ref sig .tc := ⟨.vmem, 84, rfl⟩
abbrev cc5_stg0_0 : Ref sig .tc := ⟨.vmem, 85, rfl⟩
abbrev cc5_stg0_1 : Ref sig .tc := ⟨.vmem, 86, rfl⟩
abbrev cc5_stg1_0 : Ref sig .tc := ⟨.vmem, 87, rfl⟩
abbrev cc5_stg1_1 : Ref sig .tc := ⟨.vmem, 88, rfl⟩
abbrev cc5_stg2_0 : Ref sig .tc := ⟨.vmem, 89, rfl⟩
abbrev cc5_stg2_1 : Ref sig .tc := ⟨.vmem, 90, rfl⟩
abbrev cc5_stg3_0 : Ref sig .tc := ⟨.vmem, 91, rfl⟩
abbrev cc5_stg3_1 : Ref sig .tc := ⟨.vmem, 92, rfl⟩
abbrev cc5_stg4_0 : Ref sig .tc := ⟨.vmem, 93, rfl⟩
abbrev cc5_stg5_0 : Ref sig .tc := ⟨.vmem, 94, rfl⟩
abbrev cc5_stg6_0 : Ref sig .tc := ⟨.vmem, 95, rfl⟩
abbrev cc5_stg7_0 : Ref sig .tc := ⟨.vmem, 96, rfl⟩
abbrev cc5_stg8_0 : Ref sig .tc := ⟨.vmem, 97, rfl⟩
abbrev cc5_stg9_0 : Ref sig .tc := ⟨.vmem, 98, rfl⟩
abbrev cc5_stg10_0 : Ref sig .tc := ⟨.vmem, 99, rfl⟩
abbrev cc5_stg11_0 : Ref sig .tc := ⟨.vmem, 100, rfl⟩
abbrev cc5_stg12_0 : Ref sig .tc := ⟨.vmem, 101, rfl⟩
abbrev cc5_stg13_0 : Ref sig .tc := ⟨.vmem, 102, rfl⟩
abbrev cc5_stg13_1 : Ref sig .tc := ⟨.vmem, 103, rfl⟩
abbrev cc6_stg0_0 : Ref sig .tc := ⟨.vmem, 104, rfl⟩
abbrev cc6_stg0_1 : Ref sig .tc := ⟨.vmem, 105, rfl⟩
abbrev cc6_stg1_0 : Ref sig .tc := ⟨.vmem, 106, rfl⟩
abbrev cc6_stg1_1 : Ref sig .tc := ⟨.vmem, 107, rfl⟩
abbrev cc6_stg2_0 : Ref sig .tc := ⟨.vmem, 108, rfl⟩
abbrev cc6_stg2_1 : Ref sig .tc := ⟨.vmem, 109, rfl⟩
abbrev cc6_stg3_0 : Ref sig .tc := ⟨.vmem, 110, rfl⟩
abbrev cc6_stg3_1 : Ref sig .tc := ⟨.vmem, 111, rfl⟩
abbrev cc6_stg4_0 : Ref sig .tc := ⟨.vmem, 112, rfl⟩
abbrev cc6_stg5_0 : Ref sig .tc := ⟨.vmem, 113, rfl⟩
abbrev cc6_stg6_0 : Ref sig .tc := ⟨.vmem, 114, rfl⟩
abbrev cc6_stg7_0 : Ref sig .tc := ⟨.vmem, 115, rfl⟩
abbrev cc6_stg8_0 : Ref sig .tc := ⟨.vmem, 116, rfl⟩
abbrev cc6_stg9_0 : Ref sig .tc := ⟨.vmem, 117, rfl⟩
abbrev cc6_stg10_0 : Ref sig .tc := ⟨.vmem, 118, rfl⟩
abbrev cc6_stg11_0 : Ref sig .tc := ⟨.vmem, 119, rfl⟩
abbrev cc6_stg12_0 : Ref sig .tc := ⟨.vmem, 120, rfl⟩
abbrev cc6_stg13_0 : Ref sig .tc := ⟨.vmem, 121, rfl⟩
abbrev cc6_stg13_1 : Ref sig .tc := ⟨.vmem, 122, rfl⟩
abbrev cc7_stg0_0 : Ref sig .tc := ⟨.vmem, 123, rfl⟩
abbrev cc7_stg0_1 : Ref sig .tc := ⟨.vmem, 124, rfl⟩
abbrev cc7_stg1_0 : Ref sig .tc := ⟨.vmem, 125, rfl⟩
abbrev cc7_stg1_1 : Ref sig .tc := ⟨.vmem, 126, rfl⟩
abbrev cc7_stg2_0 : Ref sig .tc := ⟨.vmem, 127, rfl⟩
abbrev cc7_stg2_1 : Ref sig .tc := ⟨.vmem, 128, rfl⟩
abbrev cc7_stg3_0 : Ref sig .tc := ⟨.vmem, 129, rfl⟩
abbrev cc7_stg4_0 : Ref sig .tc := ⟨.vmem, 130, rfl⟩
abbrev cc7_stg5_0 : Ref sig .tc := ⟨.vmem, 131, rfl⟩
abbrev cc7_stg6_0 : Ref sig .tc := ⟨.vmem, 132, rfl⟩
abbrev cc7_stg7_0 : Ref sig .tc := ⟨.vmem, 133, rfl⟩
abbrev cc7_stg8_0 : Ref sig .tc := ⟨.vmem, 134, rfl⟩
abbrev cc7_stg9_0 : Ref sig .tc := ⟨.vmem, 135, rfl⟩
abbrev cc7_stg9_1 : Ref sig .tc := ⟨.vmem, 136, rfl⟩
abbrev cc8_stg0_0 : Ref sig .tc := ⟨.vmem, 137, rfl⟩
abbrev cc8_stg0_1 : Ref sig .tc := ⟨.vmem, 138, rfl⟩
abbrev cc8_stg1_0 : Ref sig .tc := ⟨.vmem, 139, rfl⟩
abbrev cc8_stg1_1 : Ref sig .tc := ⟨.vmem, 140, rfl⟩
abbrev cc8_stg2_0 : Ref sig .tc := ⟨.vmem, 141, rfl⟩
abbrev cc8_stg2_1 : Ref sig .tc := ⟨.vmem, 142, rfl⟩
abbrev cc8_stg3_0 : Ref sig .tc := ⟨.vmem, 143, rfl⟩
abbrev cc8_stg3_1 : Ref sig .tc := ⟨.vmem, 144, rfl⟩
abbrev cc8_stg4_0 : Ref sig .tc := ⟨.vmem, 145, rfl⟩
abbrev cc8_stg5_0 : Ref sig .tc := ⟨.vmem, 146, rfl⟩
abbrev cc8_stg6_0 : Ref sig .tc := ⟨.vmem, 147, rfl⟩
abbrev cc8_stg7_0 : Ref sig .tc := ⟨.vmem, 148, rfl⟩
abbrev cc8_stg8_0 : Ref sig .tc := ⟨.vmem, 149, rfl⟩
abbrev cc8_stg9_0 : Ref sig .tc := ⟨.vmem, 150, rfl⟩
abbrev cc8_stg10_0 : Ref sig .tc := ⟨.vmem, 151, rfl⟩
abbrev cc8_stg11_0 : Ref sig .tc := ⟨.vmem, 152, rfl⟩
abbrev cc8_stg12_0 : Ref sig .tc := ⟨.vmem, 153, rfl⟩
abbrev cc8_stg13_0 : Ref sig .tc := ⟨.vmem, 154, rfl⟩
abbrev cc8_stg13_1 : Ref sig .tc := ⟨.vmem, 155, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem8_0 : DmaSem sig := 30
abbrev cc1_sem9_0 : DmaSem sig := 31
abbrev cc1_sem9_1 : DmaSem sig := 32
abbrev cc2_sem0_0 : DmaSem sig := 33
abbrev cc2_sem0_1 : DmaSem sig := 34
abbrev cc2_sem1_0 : DmaSem sig := 35
abbrev cc2_sem1_1 : DmaSem sig := 36
abbrev cc2_sem2_0 : DmaSem sig := 37
abbrev cc2_sem2_1 : DmaSem sig := 38
abbrev cc2_sem3_0 : DmaSem sig := 39
abbrev cc2_sem3_1 : DmaSem sig := 40
abbrev cc2_sem4_0 : DmaSem sig := 41
abbrev cc2_sem5_0 : DmaSem sig := 42
abbrev cc2_sem6_0 : DmaSem sig := 43
abbrev cc2_sem7_0 : DmaSem sig := 44
abbrev cc2_sem8_0 : DmaSem sig := 45
abbrev cc2_sem9_0 : DmaSem sig := 46
abbrev cc2_sem10_0 : DmaSem sig := 47
abbrev cc2_sem11_0 : DmaSem sig := 48
abbrev cc2_sem12_0 : DmaSem sig := 49
abbrev cc2_sem13_0 : DmaSem sig := 50
abbrev cc2_sem13_1 : DmaSem sig := 51
abbrev cc3_sem0_0 : DmaSem sig := 52
abbrev cc3_sem0_1 : DmaSem sig := 53
abbrev cc3_sem1_0 : DmaSem sig := 54
abbrev cc3_sem1_1 : DmaSem sig := 55
abbrev cc3_sem2_0 : DmaSem sig := 56
abbrev cc3_sem2_1 : DmaSem sig := 57
abbrev cc3_sem3_0 : DmaSem sig := 58
abbrev cc3_sem3_1 : DmaSem sig := 59
abbrev cc3_sem4_0 : DmaSem sig := 60
abbrev cc3_sem5_0 : DmaSem sig := 61
abbrev cc3_sem6_0 : DmaSem sig := 62
abbrev cc3_sem7_0 : DmaSem sig := 63
abbrev cc3_sem8_0 : DmaSem sig := 64
abbrev cc3_sem9_0 : DmaSem sig := 65
abbrev cc3_sem10_0 : DmaSem sig := 66
abbrev cc3_sem11_0 : DmaSem sig := 67
abbrev cc3_sem12_0 : DmaSem sig := 68
abbrev cc3_sem13_0 : DmaSem sig := 69
abbrev cc3_sem13_1 : DmaSem sig := 70
abbrev cc4_sem0_0 : DmaSem sig := 71
abbrev cc4_sem0_1 : DmaSem sig := 72
abbrev cc4_sem1_0 : DmaSem sig := 73
abbrev cc4_sem1_1 : DmaSem sig := 74
abbrev cc4_sem2_0 : DmaSem sig := 75
abbrev cc4_sem2_1 : DmaSem sig := 76
abbrev cc4_sem3_0 : DmaSem sig := 77
abbrev cc4_sem4_0 : DmaSem sig := 78
abbrev cc4_sem5_0 : DmaSem sig := 79
abbrev cc4_sem6_0 : DmaSem sig := 80
abbrev cc4_sem7_0 : DmaSem sig := 81
abbrev cc4_sem8_0 : DmaSem sig := 82
abbrev cc4_sem9_0 : DmaSem sig := 83
abbrev cc4_sem9_1 : DmaSem sig := 84
abbrev cc5_sem0_0 : DmaSem sig := 85
abbrev cc5_sem0_1 : DmaSem sig := 86
abbrev cc5_sem1_0 : DmaSem sig := 87
abbrev cc5_sem1_1 : DmaSem sig := 88
abbrev cc5_sem2_0 : DmaSem sig := 89
abbrev cc5_sem2_1 : DmaSem sig := 90
abbrev cc5_sem3_0 : DmaSem sig := 91
abbrev cc5_sem3_1 : DmaSem sig := 92
abbrev cc5_sem4_0 : DmaSem sig := 93
abbrev cc5_sem5_0 : DmaSem sig := 94
abbrev cc5_sem6_0 : DmaSem sig := 95
abbrev cc5_sem7_0 : DmaSem sig := 96
abbrev cc5_sem8_0 : DmaSem sig := 97
abbrev cc5_sem9_0 : DmaSem sig := 98
abbrev cc5_sem10_0 : DmaSem sig := 99
abbrev cc5_sem11_0 : DmaSem sig := 100
abbrev cc5_sem12_0 : DmaSem sig := 101
abbrev cc5_sem13_0 : DmaSem sig := 102
abbrev cc5_sem13_1 : DmaSem sig := 103
abbrev cc6_sem0_0 : DmaSem sig := 104
abbrev cc6_sem0_1 : DmaSem sig := 105
abbrev cc6_sem1_0 : DmaSem sig := 106
abbrev cc6_sem1_1 : DmaSem sig := 107
abbrev cc6_sem2_0 : DmaSem sig := 108
abbrev cc6_sem2_1 : DmaSem sig := 109
abbrev cc6_sem3_0 : DmaSem sig := 110
abbrev cc6_sem3_1 : DmaSem sig := 111
abbrev cc6_sem4_0 : DmaSem sig := 112
abbrev cc6_sem5_0 : DmaSem sig := 113
abbrev cc6_sem6_0 : DmaSem sig := 114
abbrev cc6_sem7_0 : DmaSem sig := 115
abbrev cc6_sem8_0 : DmaSem sig := 116
abbrev cc6_sem9_0 : DmaSem sig := 117
abbrev cc6_sem10_0 : DmaSem sig := 118
abbrev cc6_sem11_0 : DmaSem sig := 119
abbrev cc6_sem12_0 : DmaSem sig := 120
abbrev cc6_sem13_0 : DmaSem sig := 121
abbrev cc6_sem13_1 : DmaSem sig := 122
abbrev cc7_sem0_0 : DmaSem sig := 123
abbrev cc7_sem0_1 : DmaSem sig := 124
abbrev cc7_sem1_0 : DmaSem sig := 125
abbrev cc7_sem1_1 : DmaSem sig := 126
abbrev cc7_sem2_0 : DmaSem sig := 127
abbrev cc7_sem2_1 : DmaSem sig := 128
abbrev cc7_sem3_0 : DmaSem sig := 129
abbrev cc7_sem4_0 : DmaSem sig := 130
abbrev cc7_sem5_0 : DmaSem sig := 131
abbrev cc7_sem6_0 : DmaSem sig := 132
abbrev cc7_sem7_0 : DmaSem sig := 133
abbrev cc7_sem8_0 : DmaSem sig := 134
abbrev cc7_sem9_0 : DmaSem sig := 135
abbrev cc7_sem9_1 : DmaSem sig := 136
abbrev cc8_sem0_0 : DmaSem sig := 137
abbrev cc8_sem0_1 : DmaSem sig := 138
abbrev cc8_sem1_0 : DmaSem sig := 139
abbrev cc8_sem1_1 : DmaSem sig := 140
abbrev cc8_sem2_0 : DmaSem sig := 141
abbrev cc8_sem2_1 : DmaSem sig := 142
abbrev cc8_sem3_0 : DmaSem sig := 143
abbrev cc8_sem3_1 : DmaSem sig := 144
abbrev cc8_sem4_0 : DmaSem sig := 145
abbrev cc8_sem5_0 : DmaSem sig := 146
abbrev cc8_sem6_0 : DmaSem sig := 147
abbrev cc8_sem7_0 : DmaSem sig := 148
abbrev cc8_sem8_0 : DmaSem sig := 149
abbrev cc8_sem9_0 : DmaSem sig := 150
abbrev cc8_sem10_0 : DmaSem sig := 151
abbrev cc8_sem11_0 : DmaSem sig := 152
abbrev cc8_sem12_0 : DmaSem sig := 153
abbrev cc8_sem13_0 : DmaSem sig := 154
abbrev cc8_sem13_1 : DmaSem sig := 155

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S128x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S1000x128 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S128x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S128x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S128x128 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 2 → Memref sig .tc .vmem S2000x128 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S128x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S2000x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_12 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_13 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S1000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S128x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1x128 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S128x128 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 1 → Memref sig .tc .vmem S128x128 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false]

abbrev stage5_12 : Fin 1 → Memref sig .tc .vmem S128x128 .f32 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))
abbrev reads5_12 : Fin grid5.rank → Bool := ![false]

abbrev stage5_13 : Fin 2 → Memref sig .tc .vmem S1000x128 .f32 := fun | 0 => Memref.whole cc5_stg13_0 | 1 => Memref.whole cc5_stg13_1 | ⟨_ + 2, h⟩ => absurd h (Nat.not_lt.2 (Nat.le_add_left _ _))
abbrev sem5_13 : Fin 2 → DmaSem sig := fun | 0 => cc5_sem13_0 | 1 => cc5_sem13_1 | ⟨_ + 2, h⟩ => absurd h (Nat.not_lt.2 (Nat.le_add_left _ _))
abbrev reads5_13 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_12 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_13 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S2000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S128x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S1x128 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S128x128 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 1 → Memref sig .tc .vmem S128x128 .f32 := fun | 0 => Memref.whole cc6_stg11_0 | ⟨_ + 1, h⟩ => absurd h (Nat.not_lt.2 (Nat.le_add_left _ _))
abbrev sem6_11 : Fin 1 → DmaSem sig := fun | 0 => cc6_sem11_0 | ⟨_ + 1, h⟩ => absurd h (Nat.not_lt.2 (Nat.le_add_left _ _))
abbrev reads6_11 : Fin grid6.rank → Bool := ![false]

abbrev stage6_12 : Fin 1 → Memref sig .tc .vmem S128x128 .f32 := fun | 0 => Memref.whole cc6_stg12_0 | ⟨_ + 1, h⟩ => absurd h (Nat.not_lt.2 (Nat.le_add_left _ _))
abbrev sem6_12 : Fin 1 → DmaSem sig := fun | 0 => cc6_sem12_0 | ⟨_ + 1, h⟩ => absurd h (Nat.not_lt.2 (Nat.le_add_left _ _))
abbrev reads6_12 : Fin grid6.rank → Bool := ![false]

abbrev stage6_13 : Fin 2 → Memref sig .tc .vmem S2000x128 .f32 := fun | 0 => Memref.whole cc6_stg13_0 | 1 => Memref.whole cc6_stg13_1 | ⟨_ + 2, h⟩ => absurd h (Nat.not_lt.2 (Nat.le_add_left _ _))
abbrev sem6_13 : Fin 2 → DmaSem sig := fun | 0 => cc6_sem13_0 | 1 => cc6_sem13_1 | ⟨_ + 2, h⟩ => absurd h (Nat.not_lt.2 (Nat.le_add_left _ _))
abbrev reads6_13 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S128x128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S128x128 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 2 → Memref sig .tc .vmem S2000x128 .f32 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_10 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_11 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_12 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_13 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S1000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S1000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 1 → Memref sig .tc .vmem S128x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S128x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S128x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1x128 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S1x128 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 1 → Memref sig .tc .vmem S1x128 .f32 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))
abbrev reads8_9 : Fin grid8.rank → Bool := ![false]

abbrev stage8_10 : Fin 1 → Memref sig .tc .vmem S128x128 .f32 := fun | 0 => Memref.whole cc8_stg10_0 | ⟨_ + 1, h⟩ => absurd h (Nat.not_lt.2 (Nat.le_add_left _ _))
abbrev sem8_10 : Fin 1 → DmaSem sig := fun | 0 => cc8_sem10_0 | ⟨_ + 1, h⟩ => absurd h (Nat.not_lt.2 (Nat.le_add_left _ _))
abbrev reads8_10 : Fin grid8.rank → Bool := ![false]

abbrev stage8_11 : Fin 1 → Memref sig .tc .vmem S128x128 .f32 := fun | 0 => Memref.whole cc8_stg11_0 | ⟨_ + 1, h⟩ => absurd h (Nat.not_lt.2 (Nat.le_add_left _ _))
abbrev sem8_11 : Fin 1 → DmaSem sig := fun | 0 => cc8_sem11_0 | ⟨_ + 1, h⟩ => absurd h (Nat.not_lt.2 (Nat.le_add_left _ _))
abbrev reads8_11 : Fin grid8.rank → Bool := ![false]

abbrev stage8_12 : Fin 1 → Memref sig .tc .vmem S128x128 .f32 := fun | 0 => Memref.whole cc8_stg12_0 | ⟨_ + 1, h⟩ => absurd h (Nat.not_lt.2 (Nat.le_add_left _ _))
abbrev sem8_12 : Fin 1 → DmaSem sig := fun | 0 => cc8_sem12_0 | ⟨_ + 1, h⟩ => absurd h (Nat.not_lt.2 (Nat.le_add_left _ _))
abbrev reads8_12 : Fin grid8.rank → Bool := ![false]

abbrev stage8_13 : Fin 2 → Memref sig .tc .vmem S1000x128 .f32 := fun | 0 => Memref.whole cc8_stg13_0 | 1 => Memref.whole cc8_stg13_1 | ⟨_ + 2, h⟩ => absurd h (Nat.not_lt.2 (Nat.le_add_left _ _))
abbrev sem8_13 : Fin 2 → DmaSem sig := fun | 0 => cc8_sem13_0 | 1 => cc8_sem13_1 | ⟨_ + 2, h⟩ => absurd h (Nat.not_lt.2 (Nat.le_add_left _ _))
abbrev reads8_13 : Fin grid8.rank → Bool := ![true]

class Facts₀ : Prop where
  slices_S2x500000_S1x500000_1_0 : S2x500000.Slices ![1, 0] S1x500000
  shapeCasts_S1x500000_S500000 : S1x500000.ShapeCasts S500000
  bcast_S_S500000 : S_.BroadcastsInDim S500000 (![] : Fin 0 → Fin S500000.rank)
  bcast_S_S20000 : S_.BroadcastsInDim S20000 (![] : Fin 0 → Fin S20000.rank)
  bcast_S500000_S500000x1_0 : S500000.BroadcastsInDim S500000x1 (![0] : Fin 1 → Fin S500000x1.rank)
  bcast_S20000_S20000x1_0 : S20000.BroadcastsInDim S20000x1 (![0] : Fin 1 → Fin S20000x1.rank)
  slices_S2x250000_S1x250000_1_0 : S2x250000.Slices ![1, 0] S1x250000
  shapeCasts_S1x250000_S250000 : S1x250000.ShapeCasts S250000
  bcast_S_S250000 : S_.BroadcastsInDim S250000 (![] : Fin 0 → Fin S250000.rank)
  bcast_S_S5000 : S_.BroadcastsInDim S5000 (![] : Fin 0 → Fin S5000.rank)
  bcast_S250000_S250000x1_0 : S250000.BroadcastsInDim S250000x1 (![0] : Fin 1 → Fin S250000x1.rank)
  bcast_S5000_S5000x1_0 : S5000.BroadcastsInDim S5000x1 (![0] : Fin 1 → Fin S5000x1.rank)
  bcast_S_S50000 : S_.BroadcastsInDim S50000 (![] : Fin 0 → Fin S50000.rank)
  bcast_S50000_S50000x1_0 : S50000.BroadcastsInDim S50000x1 (![0] : Fin 1 → Fin S50000x1.rank)
  slices_S2x100000_S1x100000_1_0 : S2x100000.Slices ![1, 0] S1x100000
  shapeCasts_S1x100000_S100000 : S1x100000.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S2x500000_S1x500000_0_0 : S2x500000.Slices ![0, 0] S1x500000
  bcast_S_S20000x128 : S_.BroadcastsInDim S20000x128 (![] : Fin 0 → Fin S20000x128.rank)
  bcast_S20000x1_S20000x128_0_1 : S20000x1.BroadcastsInDim S20000x128 (![0, 1] : Fin 2 → Fin S20000x128.rank)
  slices_S2x250000_S1x250000_0_0 : S2x250000.Slices ![0, 0] S1x250000
  bcast_S_S5000x128 : S_.BroadcastsInDim S5000x128 (![] : Fin 0 → Fin S5000x128.rank)
  bcast_S5000x1_S5000x128_0_1 : S5000x1.BroadcastsInDim S5000x128 (![0, 1] : Fin 2 → Fin S5000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S2x100000_S1x100000_0_0 : S2x100000.Slices ![0, 0] S1x100000
  slices_S3x8x128x128_S1x1x128x128_0_3_0_0 : S3x8x128x128.Slices ![0, 3, 0, 0] S1x1x128x128
  shapeCasts_S1x1x128x128_S128x128 : S1x1x128x128.ShapeCasts S128x128
  slices_S3x8x128x128_S1x1x128x128_0_5_0_0 : S3x8x128x128.Slices ![0, 5, 0, 0] S1x1x128x128
  slices_S3x8x128x128_S1x1x128x128_0_6_0_0 : S3x8x128x128.Slices ![0, 6, 0, 0] S1x1x128x128
  slices_S3x8x128_S1x1x128_0_3_0 : S3x8x128.Slices ![0, 3, 0] S1x1x128
  shapeCasts_S1x1x128_S128 : S1x1x128.ShapeCasts S128
  shapeCasts_S128_S1x128 : S128.ShapeCasts S1x128
  slices_S3x8x128_S1x1x128_0_5_0 : S3x8x128.Slices ![0, 5, 0] S1x1x128
  slices_S3x8x128_S1x1x128_0_6_0 : S3x8x128.Slices ![0, 6, 0] S1x1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  transposes_S128x128_p1_0_S128x128 : S128x128.Transposes [1, 0] S128x128
  broadcasts_S1x128_S2000x128 : S1x128.Broadcasts S2000x128
  slices_S3x8x128x128_S1x1x128x128_0_0_0_0 : S3x8x128x128.Slices ![0, 0, 0, 0] S1x1x128x128
  slices_S3x8x128x128_S1x1x128x128_0_4_0_0 : S3x8x128x128.Slices ![0, 4, 0, 0] S1x1x128x128
  slices_S3x8x128_S1x1x128_0_0_0 : S3x8x128.Slices ![0, 0, 0] S1x1x128
  slices_S3x8x128_S1x1x128_0_4_0 : S3x8x128.Slices ![0, 4, 0] S1x1x128
  slices_S3x8x128x128_S1x1x128x128_0_1_0_0 : S3x8x128x128.Slices ![0, 1, 0, 0] S1x1x128x128
  slices_S3x8x128x128_S1x1x128x128_0_2_0_0 : S3x8x128x128.Slices ![0, 2, 0, 0] S1x1x128x128
  slices_S3x8x128x128_S1x1x128x128_0_7_0_0 : S3x8x128x128.Slices ![0, 7, 0, 0] S1x1x128x128
  slices_S3x8x128_S1x1x128_0_1_0 : S3x8x128.Slices ![0, 1, 0] S1x1x128
  slices_S3x8x128_S1x1x128_0_2_0 : S3x8x128.Slices ![0, 2, 0] S1x1x128
  slices_S3x8x128_S1x1x128_0_7_0 : S3x8x128.Slices ![0, 7, 0] S1x1x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  broadcasts_S1x128_S1000x128 : S1x128.Broadcasts S1000x128
  slices_S3x8x128x128_S1x1x128x128_1_3_0_0 : S3x8x128x128.Slices ![1, 3, 0, 0] S1x1x128x128
  slices_S3x8x128x128_S1x1x128x128_1_5_0_0 : S3x8x128x128.Slices ![1, 5, 0, 0] S1x1x128x128
  slices_S3x8x128x128_S1x1x128x128_1_6_0_0 : S3x8x128x128.Slices ![1, 6, 0, 0] S1x1x128x128
  slices_S3x8x128_S1x1x128_1_3_0 : S3x8x128.Slices ![1, 3, 0] S1x1x128
  slices_S3x8x128_S1x1x128_1_5_0 : S3x8x128.Slices ![1, 5, 0] S1x1x128
  slices_S3x8x128_S1x1x128_1_6_0 : S3x8x128.Slices ![1, 6, 0] S1x1x128
  slices_S3x8x128x128_S1x1x128x128_1_0_0_0 : S3x8x128x128.Slices ![1, 0, 0, 0] S1x1x128x128
  slices_S3x8x128x128_S1x1x128x128_1_4_0_0 : S3x8x128x128.Slices ![1, 4, 0, 0] S1x1x128x128
  slices_S3x8x128_S1x1x128_1_0_0 : S3x8x128.Slices ![1, 0, 0] S1x1x128
  slices_S3x8x128_S1x1x128_1_4_0 : S3x8x128.Slices ![1, 4, 0] S1x1x128
  slices_S3x8x128x128_S1x1x128x128_1_1_0_0 : S3x8x128x128.Slices ![1, 1, 0, 0] S1x1x128x128
  slices_S3x8x128x128_S1x1x128x128_1_2_0_0 : S3x8x128x128.Slices ![1, 2, 0, 0] S1x1x128x128
  slices_S3x8x128x128_S1x1x128x128_1_7_0_0 : S3x8x128x128.Slices ![1, 7, 0, 0] S1x1x128x128
  slices_S3x8x128_S1x1x128_1_1_0 : S3x8x128.Slices ![1, 1, 0] S1x1x128
  slices_S3x8x128_S1x1x128_1_2_0 : S3x8x128.Slices ![1, 2, 0] S1x1x128
  slices_S3x8x128_S1x1x128_1_7_0 : S3x8x128.Slices ![1, 7, 0] S1x1x128
  slices_S3x8x128x128_S1x1x128x128_2_3_0_0 : S3x8x128x128.Slices ![2, 3, 0, 0] S1x1x128x128
  slices_S3x8x128x128_S1x1x128x128_2_5_0_0 : S3x8x128x128.Slices ![2, 5, 0, 0] S1x1x128x128
  slices_S3x8x128x128_S1x1x128x128_2_6_0_0 : S3x8x128x128.Slices ![2, 6, 0, 0] S1x1x128x128
  slices_S3x8x128_S1x1x128_2_3_0 : S3x8x128.Slices ![2, 3, 0] S1x1x128
  slices_S3x8x128_S1x1x128_2_5_0 : S3x8x128.Slices ![2, 5, 0] S1x1x128
  slices_S3x8x128_S1x1x128_2_6_0 : S3x8x128.Slices ![2, 6, 0] S1x1x128
  reduces_S2000x128_S2000 : S2000x128.Reduces [1] S2000
  shapeCasts_S2000_S2000x1 : S2000.ShapeCasts S2000x1
  broadcasts_S2000x1_S2000x128 : S2000x1.Broadcasts S2000x128
  slices_S3x8x128x128_S1x1x128x128_2_0_0_0 : S3x8x128x128.Slices ![2, 0, 0, 0] S1x1x128x128
  slices_S3x8x128x128_S1x1x128x128_2_4_0_0 : S3x8x128x128.Slices ![2, 4, 0, 0] S1x1x128x128
  slices_S3x8x128_S1x1x128_2_0_0 : S3x8x128.Slices ![2, 0, 0] S1x1x128
  slices_S3x8x128_S1x1x128_2_4_0 : S3x8x128.Slices ![2, 4, 0] S1x1x128
  slices_S3x8x128x128_S1x1x128x128_2_1_0_0 : S3x8x128x128.Slices ![2, 1, 0, 0] S1x1x128x128
  slices_S3x8x128x128_S1x1x128x128_2_2_0_0 : S3x8x128x128.Slices ![2, 2, 0, 0] S1x1x128x128
  slices_S3x8x128x128_S1x1x128x128_2_7_0_0 : S3x8x128x128.Slices ![2, 7, 0, 0] S1x1x128x128
  slices_S3x8x128_S1x1x128_2_1_0 : S3x8x128.Slices ![2, 1, 0] S1x1x128
  slices_S3x8x128_S1x1x128_2_2_0 : S3x8x128.Slices ![2, 2, 0] S1x1x128
  slices_S3x8x128_S1x1x128_2_7_0 : S3x8x128.Slices ![2, 7, 0] S1x1x128
  reduces_S1000x128_S1000 : S1000x128.Reduces [1] S1000
  shapeCasts_S1000_S1000x1 : S1000.ShapeCasts S1000x1
  broadcasts_S1000x1_S1000x128 : S1000x1.Broadcasts S1000x128
  scatter_S20000_S500000x1_S500000_n_0_0_1_wf : ScatterDims.WF S20000 S500000x1 S500000 [] [0] [0] 1
  scatter_S5000_S250000x1_S250000_n_0_0_1_wf : ScatterDims.WF S5000 S250000x1 S250000 [] [0] [0] 1
  scatter_S50000_S500000x1_S500000_n_0_0_1_wf : ScatterDims.WF S50000 S500000x1 S500000 [] [0] [0] 1
  scatter_S20000_S250000x1_S250000_n_0_0_1_wf : ScatterDims.WF S20000 S250000x1 S250000 [] [0] [0] 1
  scatter_S50000_S250000x1_S250000_n_0_0_1_wf : ScatterDims.WF S50000 S250000x1 S250000 [] [0] [0] 1
  scatter_S5000_S100000x1_S100000_n_0_0_1_wf : ScatterDims.WF S5000 S100000x1 S100000 [] [0] [0] 1
  gather_S50000x128_S500000x1_S500000x128_1_0_n_n_0_1_1128_wf : GatherDims.WF S50000x128 S500000x1 S500000x128 [1] [0] [] [0] [] 1 ![1, 128]
  scatter_S20000x128_S500000x1_S500000x128_1_0_0_1_wf : ScatterDims.WF S20000x128 S500000x1 S500000x128 [1] [0] [0] 1
  gather_S20000x128_S250000x1_S250000x128_1_0_n_n_0_1_1128_wf : GatherDims.WF S20000x128 S250000x1 S250000x128 [1] [0] [] [0] [] 1 ![1, 128]
  scatter_S5000x128_S250000x1_S250000x128_1_0_0_1_wf : ScatterDims.WF S5000x128 S250000x1 S250000x128 [1] [0] [0] 1
  gather_S50000x128_S250000x1_S250000x128_1_0_n_n_0_1_1128_wf : GatherDims.WF S50000x128 S250000x1 S250000x128 [1] [0] [] [0] [] 1 ![1, 128]
  gather_S20000x128_S500000x1_S500000x128_1_0_n_n_0_1_1128_wf : GatherDims.WF S20000x128 S500000x1 S500000x128 [1] [0] [] [0] [] 1 ![1, 128]
  scatter_S50000x128_S500000x1_S500000x128_1_0_0_1_wf : ScatterDims.WF S50000x128 S500000x1 S500000x128 [1] [0] [0] 1
  gather_S5000x128_S250000x1_S250000x128_1_0_n_n_0_1_1128_wf : GatherDims.WF S5000x128 S250000x1 S250000x128 [1] [0] [] [0] [] 1 ![1, 128]
  scatter_S20000x128_S250000x1_S250000x128_1_0_0_1_wf : ScatterDims.WF S20000x128 S250000x1 S250000x128 [1] [0] [0] 1
  scatter_S50000x128_S250000x1_S250000x128_1_0_0_1_wf : ScatterDims.WF S50000x128 S250000x1 S250000x128 [1] [0] [0] 1
  gather_S5000x128_S100000x1_S100000x128_1_0_n_n_0_1_1128_wf : GatherDims.WF S5000x128 S100000x1 S100000x128 [1] [0] [] [0] [] 1 ![1, 128]
  scatter_S5000x128_S100000x1_S100000x128_1_0_0_1_wf : ScatterDims.WF S5000x128 S100000x1 S100000x128 [1] [0] [0] 1
  dot_S2000x128_S128x128_S2000x128_1_0_0_1_n_n_wf : DotDims.WF S2000x128 S128x128 S2000x128 [1] [0] [0] [1] [] []
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .f32 = 32 ∨ (Rect.block (s := S128x128) S128x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x128.size a ≤ S50000x128.size a
  hwx0_13 : ∀ i : grid0.Coords, EltTy.bits .f32 = 32 ∨ (Rect.block (s := S50000x128) S2000x128.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S20000x128.size a
  hwx1_1 : ∀ i : grid1.Coords, EltTy.bits .f32 = 32 ∨ (Rect.block (s := S20000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S20000x128.size a
  hwx1_2 : ∀ i : grid1.Coords, EltTy.bits .f32 = 32 ∨ (Rect.block (s := S20000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S20000x128.size a
  hwx1_9 : ∀ i : grid1.Coords, EltTy.bits .f32 = 32 ∨ (Rect.block (s := S20000x128) S2000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S5000x128.size a
  hwx2_0 : ∀ i : grid2.Coords, EltTy.bits .f32 = 32 ∨ (Rect.block (s := S5000x128) S1000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x128.size a ≤ S5000x128.size a
  hwx2_1 : ∀ i : grid2.Coords, EltTy.bits .f32 = 32 ∨ (Rect.block (s := S5000x128) S1000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x128.size a ≤ S5000x128.size a
  hwx2_2 : ∀ i : grid2.Coords, EltTy.bits .f32 = 32 ∨ (Rect.block (s := S5000x128) S1000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x128.size a ≤ S5000x128.size a
  hwx2_3 : ∀ i : grid2.Coords, EltTy.bits .f32 = 32 ∨ (Rect.block (s := S5000x128) S1000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128x128.size a ≤ S128x128.size a
  hwx2_10 : ∀ i : grid2.Coords, EltTy.bits .f32 = 32 ∨ (Rect.block (s := S128x128) S128x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128x128.size a ≤ S128x128.size a
  hwx2_11 : ∀ i : grid2.Coords, EltTy.bits .f32 = 32 ∨ (Rect.block (s := S128x128) S128x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S128x128.size a ≤ S128x128.size a
  hwx2_12 : ∀ i : grid2.Coords, EltTy.bits .f32 = 32 ∨ (Rect.block (s := S128x128) S128x128.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S1000x128.size a ≤ S5000x128.size a
  hwx2_13 : ∀ i : grid2.Coords, EltTy.bits .f32 = 32 ∨ (Rect.block (s := S5000x128) S1000x128.size (cc2_transform_13 i) (hinb2_13 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S128x128.size a ≤ S128x128.size a
  hwx3_10 : ∀ i : grid3.Coords, EltTy.bits .f32 = 32 ∨ (Rect.block (s := S128x128) S128x128.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S128x128.size a ≤ S128x128.size a
  hwx3_11 : ∀ i : grid3.Coords, EltTy.bits .f32 = 32 ∨ (Rect.block (s := S128x128) S128x128.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S128x128.size a ≤ S128x128.size a
  hwx3_12 : ∀ i : grid3.Coords, EltTy.bits .f32 = 32 ∨ (Rect.block (s := S128x128) S128x128.size (cc3_transform_12 i) (hinb3_12 i)).WholeWords (EltTy.packing .f32)
  hstage3_13 : ∀ j, (stage3_13 j).IsWhole
  nbuf3_13 : grid3.bufCount reads3_13 false = 2
  hreads3_13 : ∀ i i' : grid3.Coords, (∀ a, reads3_13 a = true → i a = i' a) → cc3_transform_13 i = cc3_transform_13 i'
  hinb3_13 : ∀ (i : grid3.Coords) a, (cc3_transform_13 i a + 1) * S2000x128.size a ≤ S50000x128.size a
  hwx3_13 : ∀ i : grid3.Coords, EltTy.bits .f32 = 32 ∨ (Rect.block (s := S50000x128) S2000x128.size (cc3_transform_13 i) (hinb3_13 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S20000x128.size a
  hwx4_0 : ∀ i : grid4.Coords, EltTy.bits .f32 = 32 ∨ (Rect.block (s := S20000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S20000x128.size a
  hwx4_1 : ∀ i : grid4.Coords, EltTy.bits .f32 = 32 ∨ (Rect.block (s := S20000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S20000x128.size a
  hwx4_2 : ∀ i : grid4.Coords, EltTy.bits .f32 = 32 ∨ (Rect.block (s := S20000x128) S2000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128x128.size a ≤ S128x128.size a
  hwx4_7 : ∀ i : grid4.Coords, EltTy.bits .f32 = 32 ∨ (Rect.block (s := S128x128) S128x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S128x128.size a ≤ S128x128.size a
  hwx4_8 : ∀ i : grid4.Coords, EltTy.bits .f32 = 32 ∨ (Rect.block (s := S128x128) S128x128.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S2000x128.size a ≤ S20000x128.size a
  hwx4_9 : ∀ i : grid4.Coords, EltTy.bits .f32 = 32 ∨ (Rect.block (s := S20000x128) S2000x128.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x128.size a ≤ S5000x128.size a
  hwx5_0 : ∀ i : grid5.Coords, EltTy.bits .f32 = 32 ∨ (Rect.block (s := S5000x128) S1000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1000x128.size a ≤ S5000x128.size a
  hwx5_1 : ∀ i : grid5.Coords, EltTy.bits .f32 = 32 ∨ (Rect.block (s := S5000x128) S1000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1000x128.size a ≤ S5000x128.size a
  hwx5_2 : ∀ i : grid5.Coords, EltTy.bits .f32 = 32 ∨ (Rect.block (s := S5000x128) S1000x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1000x128.size a ≤ S5000x128.size a
  hwx5_3 : ∀ i : grid5.Coords, EltTy.bits .f32 = 32 ∨ (Rect.block (s := S5000x128) S1000x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S128x128.size a ≤ S128x128.size a
  hwx5_6 : ∀ i : grid5.Coords, EltTy.bits .f32 = 32 ∨ (Rect.block (s := S128x128) S128x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x128.size a ≤ S1x128.size a
  hwx5_8 : ∀ i : grid5.Coords, EltTy.bits .f32 = 32 ∨ (Rect.block (s := S1x128) S1x128.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1x128.size a ≤ S1x128.size a
  hwx5_9 : ∀ i : grid5.Coords, EltTy.bits .f32 = 32 ∨ (Rect.block (s := S1x128) S1x128.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S128x128.size a ≤ S128x128.size a
  hwx5_10 : ∀ i : grid5.Coords, EltTy.bits .f32 = 32 ∨ (Rect.block (s := S128x128) S128x128.size (cc5_transform_10 i) (hinb5_10 i)).WholeWords (EltTy.packing .f32)
  hstage5_11 : ∀ j, (stage5_11 j).IsWhole
  nbuf5_11 : grid5.bufCount reads5_11 true = 1
  hreads5_11 : ∀ i i' : grid5.Coords, (∀ a, reads5_11 a = true → i a = i' a) → cc5_transform_11 i = cc5_transform_11 i'
  hinb5_11 : ∀ (i : grid5.Coords) a, (cc5_transform_11 i a + 1) * S128x128.size a ≤ S128x128.size a
  hwx5_11 : ∀ i : grid5.Coords, EltTy.bits .f32 = 32 ∨ (Rect.block (s := S128x128) S128x128.size (cc5_transform_11 i) (hinb5_11 i)).WholeWords (EltTy.packing .f32)
  hstage5_12 : ∀ j, (stage5_12 j).IsWhole
  nbuf5_12 : grid5.bufCount reads5_12 true = 1
  hreads5_12 : ∀ i i' : grid5.Coords, (∀ a, reads5_12 a = true → i a = i' a) → cc5_transform_12 i = cc5_transform_12 i'
  hinb5_12 : ∀ (i : grid5.Coords) a, (cc5_transform_12 i a + 1) * S128x128.size a ≤ S128x128.size a
  hwx5_12 : ∀ i : grid5.Coords, EltTy.bits .f32 = 32 ∨ (Rect.block (s := S128x128) S128x128.size (cc5_transform_12 i) (hinb5_12 i)).WholeWords (EltTy.packing .f32)
  hstage5_13 : ∀ j, (stage5_13 j).IsWhole
  nbuf5_13 : grid5.bufCount reads5_13 false = 2
  hreads5_13 : ∀ i i' : grid5.Coords, (∀ a, reads5_13 a = true → i a = i' a) → cc5_transform_13 i = cc5_transform_13 i'
  hinb5_13 : ∀ (i : grid5.Coords) a, (cc5_transform_13 i a + 1) * S1000x128.size a ≤ S5000x128.size a
  hwx5_13 : ∀ i : grid5.Coords, EltTy.bits .f32 = 32 ∨ (Rect.block (s := S5000x128) S1000x128.size (cc5_transform_13 i) (hinb5_13 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S50000x128.size a
  hwx6_1 : ∀ i : grid6.Coords, EltTy.bits .f32 = 32 ∨ (Rect.block (s := S50000x128) S2000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S50000x128.size a
  hwx6_2 : ∀ i : grid6.Coords, EltTy.bits .f32 = 32 ∨ (Rect.block (s := S50000x128) S2000x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x128.size a ≤ S50000x128.size a
  hwx6_3 : ∀ i : grid6.Coords, EltTy.bits .f32 = 32 ∨ (Rect.block (s := S50000x128) S2000x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x128.size a ≤ S128x128.size a
  hwx6_5 : ∀ i : grid6.Coords, EltTy.bits .f32 = 32 ∨ (Rect.block (s := S128x128) S128x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S128x128.size a ≤ S128x128.size a
  hwx6_6 : ∀ i : grid6.Coords, EltTy.bits .f32 = 32 ∨ (Rect.block (s := S128x128) S128x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x128.size a ≤ S1x128.size a
  hwx6_7 : ∀ i : grid6.Coords, EltTy.bits .f32 = 32 ∨ (Rect.block (s := S1x128) S1x128.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x128.size a ≤ S1x128.size a
  hwx6_8 : ∀ i : grid6.Coords, EltTy.bits .f32 = 32 ∨ (Rect.block (s := S1x128) S1x128.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S1x128.size a ≤ S1x128.size a
  hwx6_9 : ∀ i : grid6.Coords, EltTy.bits .f32 = 32 ∨ (Rect.block (s := S1x128) S1x128.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S128x128.size a ≤ S128x128.size a
  hwx6_10 : ∀ i : grid6.Coords, EltTy.bits .f32 = 32 ∨ (Rect.block (s := S128x128) S128x128.size (cc6_transform_10 i) (hinb6_10 i)).WholeWords (EltTy.packing .f32)
  hstage6_11 : ∀ j, (stage6_11 j).IsWhole
  nbuf6_11 : grid6.bufCount reads6_11 true = 1
  hreads6_11 : ∀ i i' : grid6.Coords, (∀ a, reads6_11 a = true → i a = i' a) → cc6_transform_11 i = cc6_transform_11 i'
  hinb6_11 : ∀ (i : grid6.Coords) a, (cc6_transform_11 i a + 1) * S128x128.size a ≤ S128x128.size a
  hwx6_11 : ∀ i : grid6.Coords, EltTy.bits .f32 = 32 ∨ (Rect.block (s := S128x128) S128x128.size (cc6_transform_11 i) (hinb6_11 i)).WholeWords (EltTy.packing .f32)
  hstage6_12 : ∀ j, (stage6_12 j).IsWhole
  nbuf6_12 : grid6.bufCount reads6_12 true = 1
  hreads6_12 : ∀ i i' : grid6.Coords, (∀ a, reads6_12 a = true → i a = i' a) → cc6_transform_12 i = cc6_transform_12 i'
  hinb6_12 : ∀ (i : grid6.Coords) a, (cc6_transform_12 i a + 1) * S128x128.size a ≤ S128x128.size a
  hwx6_12 : ∀ i : grid6.Coords, EltTy.bits .f32 = 32 ∨ (Rect.block (s := S128x128) S128x128.size (cc6_transform_12 i) (hinb6_12 i)).WholeWords (EltTy.packing .f32)
  hstage6_13 : ∀ j, (stage6_13 j).IsWhole
  nbuf6_13 : grid6.bufCount reads6_13 false = 2
  hreads6_13 : ∀ i i' : grid6.Coords, (∀ a, reads6_13 a = true → i a = i' a) → cc6_transform_13 i = cc6_transform_13 i'
  hinb6_13 : ∀ (i : grid6.Coords) a, (cc6_transform_13 i a + 1) * S2000x128.size a ≤ S50000x128.size a
  hwx6_13 : ∀ i : grid6.Coords, EltTy.bits .f32 = 32 ∨ (Rect.block (s := S50000x128) S2000x128.size (cc6_transform_13 i) (hinb6_13 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S20000x128.size a
  hwx7_0 : ∀ i : grid7.Coords, EltTy.bits .f32 = 32 ∨ (Rect.block (s := S20000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x128.size a ≤ S20000x128.size a
  hwx7_1 : ∀ i : grid7.Coords, EltTy.bits .f32 = 32 ∨ (Rect.block (s := S20000x128) S2000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x128.size a ≤ S20000x128.size a
  hwx7_2 : ∀ i : grid7.Coords, EltTy.bits .f32 = 32 ∨ (Rect.block (s := S20000x128) S2000x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x128.size a ≤ S128x128.size a
  hwx7_4 : ∀ i : grid7.Coords, EltTy.bits .f32 = 32 ∨ (Rect.block (s := S128x128) S128x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S128x128.size a ≤ S128x128.size a
  hwx7_7 : ∀ i : grid7.Coords, EltTy.bits .f32 = 32 ∨ (Rect.block (s := S128x128) S128x128.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S128x128.size a ≤ S128x128.size a
  hwx7_8 : ∀ i : grid7.Coords, EltTy.bits .f32 = 32 ∨ (Rect.block (s := S128x128) S128x128.size (cc7_transform_8 i) (hinb7_8 i)).WholeWords (EltTy.packing .f32)
  hstage7_9 : ∀ j, (stage7_9 j).IsWhole
  nbuf7_9 : grid7.bufCount reads7_9 false = 2
  hreads7_9 : ∀ i i' : grid7.Coords, (∀ a, reads7_9 a = true → i a = i' a) → cc7_transform_9 i = cc7_transform_9 i'
  hinb7_9 : ∀ (i : grid7.Coords) a, (cc7_transform_9 i a + 1) * S2000x128.size a ≤ S20000x128.size a
  hwx7_9 : ∀ i : grid7.Coords, EltTy.bits .f32 = 32 ∨ (Rect.block (s := S20000x128) S2000x128.size (cc7_transform_9 i) (hinb7_9 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1000x128.size a ≤ S5000x128.size a
  hwx8_0 : ∀ i : grid8.Coords, EltTy.bits .f32 = 32 ∨ (Rect.block (s := S5000x128) S1000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1000x128.size a ≤ S5000x128.size a
  hwx8_1 : ∀ i : grid8.Coords, EltTy.bits .f32 = 32 ∨ (Rect.block (s := S5000x128) S1000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1000x128.size a ≤ S5000x128.size a
  hwx8_2 : ∀ i : grid8.Coords, EltTy.bits .f32 = 32 ∨ (Rect.block (s := S5000x128) S1000x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S1000x128.size a ≤ S5000x128.size a
  hwx8_3 : ∀ i : grid8.Coords, EltTy.bits .f32 = 32 ∨ (Rect.block (s := S5000x128) S1000x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S128x128.size a ≤ S128x128.size a
  hwx8_4 : ∀ i : grid8.Coords, EltTy.bits .f32 = 32 ∨ (Rect.block (s := S128x128) S128x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S128x128.size a ≤ S128x128.size a
  hwx8_5 : ∀ i : grid8.Coords, EltTy.bits .f32 = 32 ∨ (Rect.block (s := S128x128) S128x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S128x128.size a ≤ S128x128.size a
  hwx8_6 : ∀ i : grid8.Coords, EltTy.bits .f32 = 32 ∨ (Rect.block (s := S128x128) S128x128.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x128.size a ≤ S1x128.size a
  hwx8_7 : ∀ i : grid8.Coords, EltTy.bits .f32 = 32 ∨ (Rect.block (s := S1x128) S1x128.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1x128.size a ≤ S1x128.size a
  hwx8_8 : ∀ i : grid8.Coords, EltTy.bits .f32 = 32 ∨ (Rect.block (s := S1x128) S1x128.size (cc8_transform_8 i) (hinb8_8 i)).WholeWords (EltTy.packing .f32)
  hstage8_9 : ∀ j, (stage8_9 j).IsWhole
  nbuf8_9 : grid8.bufCount reads8_9 true = 1
  hreads8_9 : ∀ i i' : grid8.Coords, (∀ a, reads8_9 a = true → i a = i' a) → cc8_transform_9 i = cc8_transform_9 i'
  hinb8_9 : ∀ (i : grid8.Coords) a, (cc8_transform_9 i a + 1) * S1x128.size a ≤ S1x128.size a
  hwx8_9 : ∀ i : grid8.Coords, EltTy.bits .f32 = 32 ∨ (Rect.block (s := S1x128) S1x128.size (cc8_transform_9 i) (hinb8_9 i)).WholeWords (EltTy.packing .f32)
  hstage8_10 : ∀ j, (stage8_10 j).IsWhole
  nbuf8_10 : grid8.bufCount reads8_10 true = 1
  hreads8_10 : ∀ i i' : grid8.Coords, (∀ a, reads8_10 a = true → i a = i' a) → cc8_transform_10 i = cc8_transform_10 i'
  hinb8_10 : ∀ (i : grid8.Coords) a, (cc8_transform_10 i a + 1) * S128x128.size a ≤ S128x128.size a
  hwx8_10 : ∀ i : grid8.Coords, EltTy.bits .f32 = 32 ∨ (Rect.block (s := S128x128) S128x128.size (cc8_transform_10 i) (hinb8_10 i)).WholeWords (EltTy.packing .f32)
  hstage8_11 : ∀ j, (stage8_11 j).IsWhole
  nbuf8_11 : grid8.bufCount reads8_11 true = 1
  hreads8_11 : ∀ i i' : grid8.Coords, (∀ a, reads8_11 a = true → i a = i' a) → cc8_transform_11 i = cc8_transform_11 i'
  hinb8_11 : ∀ (i : grid8.Coords) a, (cc8_transform_11 i a + 1) * S128x128.size a ≤ S128x128.size a
  hwx8_11 : ∀ i : grid8.Coords, EltTy.bits .f32 = 32 ∨ (Rect.block (s := S128x128) S128x128.size (cc8_transform_11 i) (hinb8_11 i)).WholeWords (EltTy.packing .f32)
  hstage8_12 : ∀ j, (stage8_12 j).IsWhole
  nbuf8_12 : grid8.bufCount reads8_12 true = 1
  hreads8_12 : ∀ i i' : grid8.Coords, (∀ a, reads8_12 a = true → i a = i' a) → cc8_transform_12 i = cc8_transform_12 i'
  hinb8_12 : ∀ (i : grid8.Coords) a, (cc8_transform_12 i a + 1) * S128x128.size a ≤ S128x128.size a
  hwx8_12 : ∀ i : grid8.Coords, EltTy.bits .f32 = 32 ∨ (Rect.block (s := S128x128) S128x128.size (cc8_transform_12 i) (hinb8_12 i)).WholeWords (EltTy.packing .f32)
  hstage8_13 : ∀ j, (stage8_13 j).IsWhole
  nbuf8_13 : grid8.bufCount reads8_13 false = 2
  hreads8_13 : ∀ i i' : grid8.Coords, (∀ a, reads8_13 a = true → i a = i' a) → cc8_transform_13 i = cc8_transform_13 i'
  hinb8_13 : ∀ (i : grid8.Coords) a, (cc8_transform_13 i a + 1) * S1000x128.size a ≤ S5000x128.size a
  hwx8_13 : ∀ i : grid8.Coords, EltTy.bits .f32 = 32 ∨ (Rect.block (s := S5000x128) S1000x128.size (cc8_transform_13 i) (hinb8_13 i)).WholeWords (EltTy.packing .f32)

variable [Facts₀]

def scatter_S20000_S500000x1_S500000_n_0_0_1 : ScatterDims S20000 S500000x1 S500000 where
  updateWindowDims := []
  insertedWindowDims := [0]
  scatterDimsToOperandDims := [0]
  indexVectorDim := 1
  wf := scatter_S20000_S500000x1_S500000_n_0_0_1_wf
def scatter_S5000_S250000x1_S250000_n_0_0_1 : ScatterDims S5000 S250000x1 S250000 where
  updateWindowDims := []
  insertedWindowDims := [0]
  scatterDimsToOperandDims := [0]
  indexVectorDim := 1
  wf := scatter_S5000_S250000x1_S250000_n_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def scatter_S20000_S250000x1_S250000_n_0_0_1 : ScatterDims S20000 S250000x1 S250000 where
  updateWindowDims := []
  insertedWindowDims := [0]
  scatterDimsToOperandDims := [0]
  indexVectorDim := 1
  wf := scatter_S20000_S250000x1_S250000_n_0_0_1_wf
def scatter_S50000_S250000x1_S250000_n_0_0_1 : ScatterDims S50000 S250000x1 S250000 where
  updateWindowDims := []
  insertedWindowDims := [0]
  scatterDimsToOperandDims := [0]
  indexVectorDim := 1
  wf := scatter_S50000_S250000x1_S250000_n_0_0_1_wf
def scatter_S5000_S100000x1_S100000_n_0_0_1 : ScatterDims S5000 S100000x1 S100000 where
  updateWindowDims := []
  insertedWindowDims := [0]
  scatterDimsToOperandDims := [0]
  indexVectorDim := 1
  wf := scatter_S5000_S100000x1_S100000_n_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S20000x128_S500000x1_S500000x128_1_0_0_1 : ScatterDims S20000x128 S500000x1 S500000x128 where
  updateWindowDims := [1]
  insertedWindowDims := [0]
  scatterDimsToOperandDims := [0]
  indexVectorDim := 1
  wf := scatter_S20000x128_S500000x1_S500000x128_1_0_0_1_wf
def gather_S20000x128_S250000x1_S250000x128_1_0_n_n_0_1_1128 : GatherDims S20000x128 S250000x1 S250000x128 where
  offsetDims := [1]
  collapsedSliceDims := [0]
  operandBatchingDims := []
  startIndicesBatchingDims := []
  startIndexMap := [0]
  indexVectorDim := 1
  sliceSizes := ![1, 128]
  wf := gather_S20000x128_S250000x1_S250000x128_1_0_n_n_0_1_1128_wf
def scatter_S5000x128_S250000x1_S250000x128_1_0_0_1 : ScatterDims S5000x128 S250000x1 S250000x128 where
  updateWindowDims := [1]
  insertedWindowDims := [0]
  scatterDimsToOperandDims := [0]
  indexVectorDim := 1
  wf := scatter_S5000x128_S250000x1_S250000x128_1_0_0_1_wf
def gather_S50000x128_S250000x1_S250000x128_1_0_n_n_0_1_1128 : GatherDims S50000x128 S250000x1 S250000x128 where
  offsetDims := [1]
  collapsedSliceDims := [0]
  operandBatchingDims := []
  startIndicesBatchingDims := []
  startIndexMap := [0]
  indexVectorDim := 1
  sliceSizes := ![1, 128]
  wf := gather_S50000x128_S250000x1_S250000x128_1_0_n_n_0_1_1128_wf
def gather_S20000x128_S500000x1_S500000x128_1_0_n_n_0_1_1128 : GatherDims S20000x128 S500000x1 S500000x128 where
  offsetDims := [1]
  collapsedSliceDims := [0]
  operandBatchingDims := []
  startIndicesBatchingDims := []
  startIndexMap := [0]
  indexVectorDim := 1
  sliceSizes := ![1, 128]
  wf := gather_S20000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def gather_S5000x128_S250000x1_S250000x128_1_0_n_n_0_1_1128 : GatherDims S5000x128 S250000x1 S250000x128 where
  offsetDims := [1]
  collapsedSliceDims := [0]
  operandBatchingDims := []
  startIndicesBatchingDims := []
  startIndexMap := [0]
  indexVectorDim := 1
  sliceSizes := ![1, 128]
  wf := gather_S5000x128_S250000x1_S250000x128_1_0_n_n_0_1_1128_wf
def scatter_S20000x128_S250000x1_S250000x128_1_0_0_1 : ScatterDims S20000x128 S250000x1 S250000x128 where
  updateWindowDims := [1]
  insertedWindowDims := [0]
  scatterDimsToOperandDims := [0]
  indexVectorDim := 1
  wf := scatter_S20000x128_S250000x1_S250000x128_1_0_0_1_wf
def scatter_S50000x128_S250000x1_S250000x128_1_0_0_1 : ScatterDims S50000x128 S250000x1 S250000x128 where
  updateWindowDims := [1]
  insertedWindowDims := [0]
  scatterDimsToOperandDims := [0]
  indexVectorDim := 1
  wf := scatter_S50000x128_S250000x1_S250000x128_1_0_0_1_wf
def gather_S5000x128_S100000x1_S100000x128_1_0_n_n_0_1_1128 : GatherDims S5000x128 S100000x1 S100000x128 where
  offsetDims := [1]
  collapsedSliceDims := [0]
  operandBatchingDims := []
  startIndicesBatchingDims := []
  startIndexMap := [0]
  indexVectorDim := 1
  sliceSizes := ![1, 128]
  wf := gather_S5000x128_S100000x1_S100000x128_1_0_n_n_0_1_1128_wf
def scatter_S5000x128_S100000x1_S100000x128_1_0_0_1 : ScatterDims S5000x128 S100000x1 S100000x128 where
  updateWindowDims := [1]
  insertedWindowDims := [0]
  scatterDimsToOperandDims := [0]
  indexVectorDim := 1
  wf := scatter_S5000x128_S100000x1_S100000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v135) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v167) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v183) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v201) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v203) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v205) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v208) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v211) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v214) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v216) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v218) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v220) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v221) S2000x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_arg1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v87) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v151) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v223) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v225) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v228) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v231) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v233) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v235) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v236) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_arg2) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v103) S1000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v119) S1000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v199) S1000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v238) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v240) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v242) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v245) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v248) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v251) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v253) S128x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v255) S128x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v257) S128x128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v258) S1000x128.size cc2_transform_13 reads2_13 true false 2 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

abbrev win3_0 : Pipeline.Window sig grid3 :=
  Pipeline.Window.ofSpec (Memref.whole main_v221) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v322) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v354) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v370) S2000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v388) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v390) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v392) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v395) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v398) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v401) S1x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v403) S128x128.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v405) S128x128.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v407) S128x128.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v408) S2000x128.size cc3_transform_13 reads3_13 true false 2 stage3_13 sem3_13
    hrank3 hreads3_13 hinb3_13 nbuf3_13 (Memref.isWhole_whole _) hwx3_13 hstage3_13

abbrev win3 : Fin 14 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | ⟨_ + 14, h⟩ => absurd h (Nat.not_lt.2 (Nat.le_add_left _ _))
abbrev spec3 : Fin 14 → Pipeline.WinSpec sig grid3.rank := fun w => (win3 w).toWinSpec

abbrev win4_0 : Pipeline.Window sig grid4 :=
  Pipeline.Window.ofSpec (Memref.whole main_v236) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v274) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v338) S2000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v410) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v412) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v415) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v418) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v420) S128x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v422) S128x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v423) S2000x128.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v258) S1000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v290) S1000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v306) S1000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v386) S1000x128.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v425) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v427) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v429) S128x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v432) S1x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v435) S1x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v438) S1x128.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v440) S128x128.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_v442) S128x128.size cc5_transform_11 reads5_11 false true 1 stage5_11 sem5_11
    hrank5 hreads5_11 hinb5_11 nbuf5_11 (Memref.isWhole_whole _) hwx5_11 hstage5_11

abbrev win5_12 : Pipeline.Window sig grid5 :=
  Pipeline.Window.ofSpec (Memref.whole main_v444) S128x128.size cc5_transform_12 reads5_12 false true 1 stage5_12 sem5_12
    hrank5 hreads5_12 hinb5_12 nbuf5_12 (Memref.isWhole_whole _) hwx5_12 hstage5_12

abbrev win5_13 : Pipeline.Window sig grid5 :=
  Pipeline.Window.ofSpec (Memref.whole main_v445) S1000x128.size cc5_transform_13 reads5_13 true false 2 stage5_13 sem5_13
    hrank5 hreads5_13 hinb5_13 nbuf5_13 (Memref.isWhole_whole _) hwx5_13 hstage5_13

abbrev win5 : Fin 14 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | 12 => win5_12 | 13 => win5_13 | ⟨_ + 14, h⟩ => absurd h (Nat.not_lt.2 (Nat.le_add_left _ _))
abbrev spec5 : Fin 14 → Pipeline.WinSpec sig grid5.rank := fun w => (win5 w).toWinSpec

abbrev win6_0 : Pipeline.Window sig grid6 :=
  Pipeline.Window.ofSpec (Memref.whole main_v408) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v509) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v541) S2000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v557) S2000x128.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v575) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v577) S128x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v579) S128x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v582) S1x128.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v585) S1x128.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v588) S1x128.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v590) S128x128.size cc6_transform_10 reads6_10 false true 1 stage6_10 sem6_10
    hrank6 hreads6_10 hinb6_10 nbuf6_10 (Memref.isWhole_whole _) hwx6_10 hstage6_10

abbrev win6_11 : Pipeline.Window sig grid6 :=
  Pipeline.Window.ofSpec (Memref.whole main_v592) S128x128.size cc6_transform_11 reads6_11 false true 1 stage6_11 sem6_11
    hrank6 hreads6_11 hinb6_11 nbuf6_11 (Memref.isWhole_whole _) hwx6_11 hstage6_11

abbrev win6_12 : Pipeline.Window sig grid6 :=
  Pipeline.Window.ofSpec (Memref.whole main_v594) S128x128.size cc6_transform_12 reads6_12 false true 1 stage6_12 sem6_12
    hrank6 hreads6_12 hinb6_12 nbuf6_12 (Memref.isWhole_whole _) hwx6_12 hstage6_12

abbrev win6_13 : Pipeline.Window sig grid6 :=
  Pipeline.Window.ofSpec (Memref.whole main_v595) S2000x128.size cc6_transform_13 reads6_13 true false 2 stage6_13 sem6_13
    hrank6 hreads6_13 hinb6_13 nbuf6_13 (Memref.isWhole_whole _) hwx6_13 hstage6_13

abbrev win6 : Fin 14 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | 12 => win6_12 | 13 => win6_13 | ⟨_ + 14, h⟩ => absurd h (Nat.not_lt.2 (Nat.le_add_left _ _))
abbrev spec6 : Fin 14 → Pipeline.WinSpec sig grid6.rank := fun w => (win6 w).toWinSpec

abbrev win7_0 : Pipeline.Window sig grid7 :=
  Pipeline.Window.ofSpec (Memref.whole main_v423) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v461) S2000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v525) S2000x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v597) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v599) S128x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v602) S1x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v605) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v607) S128x128.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v609) S128x128.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v610) S2000x128.size cc7_transform_9 reads7_9 true false 2 stage7_9 sem7_9
    hrank7 hreads7_9 hinb7_9 nbuf7_9 (Memref.isWhole_whole _) hwx7_9 hstage7_9

abbrev win7 : Fin 10 → Pipeline.Window sig grid7 := fun | 0 => win7_0 | 1 => win7_1 | 2 => win7_2 | 3 => win7_3 | 4 => win7_4 | 5 => win7_5 | 6 => win7_6 | 7 => win7_7 | 8 => win7_8 | 9 => win7_9 | ⟨_ + 10, h⟩ => absurd h (Nat.not_lt.2 (Nat.le_add_left _ _))
abbrev spec7 : Fin 10 → Pipeline.WinSpec sig grid7.rank := fun w => (win7 w).toWinSpec

abbrev win8_0 : Pipeline.Window sig grid8 :=
  Pipeline.Window.ofSpec (Memref.whole main_v445) S1000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v477) S1000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v493) S1000x128.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v573) S1000x128.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v612) S128x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v614) S128x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v616) S128x128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v619) S1x128.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v622) S1x128.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v625) S1x128.size cc8_transform_9 reads8_9 false true 1 stage8_9 sem8_9
    hrank8 hreads8_9 hinb8_9 nbuf8_9 (Memref.isWhole_whole _) hwx8_9 hstage8_9

abbrev win8_10 : Pipeline.Window sig grid8 :=
  Pipeline.Window.ofSpec (Memref.whole main_v627) S128x128.size cc8_transform_10 reads8_10 false true 1 stage8_10 sem8_10
    hrank8 hreads8_10 hinb8_10 nbuf8_10 (Memref.isWhole_whole _) hwx8_10 hstage8_10

abbrev win8_11 : Pipeline.Window sig grid8 :=
  Pipeline.Window.ofSpec (Memref.whole main_v629) S128x128.size cc8_transform_11 reads8_11 false true 1 stage8_11 sem8_11
    hrank8 hreads8_11 hinb8_11 nbuf8_11 (Memref.isWhole_whole _) hwx8_11 hstage8_11

abbrev win8_12 : Pipeline.Window sig grid8 :=
  Pipeline.Window.ofSpec (Memref.whole main_v631) S128x128.size cc8_transform_12 reads8_12 false true 1 stage8_12 sem8_12
    hrank8 hreads8_12 hinb8_12 nbuf8_12 (Memref.isWhole_whole _) hwx8_12 hstage8_12

abbrev win8_13 : Pipeline.Window sig grid8 :=
  Pipeline.Window.ofSpec (Memref.whole main_v632) S1000x128.size cc8_transform_13 reads8_13 true false 2 stage8_13 sem8_13
    hrank8 hreads8_13 hinb8_13 nbuf8_13 (Memref.isWhole_whole _) hwx8_13 hstage8_13

abbrev win8 : Fin 14 → Pipeline.Window sig grid8 := fun | 0 => win8_0 | 1 => win8_1 | 2 => win8_2 | 3 => win8_3 | 4 => win8_4 | 5 => win8_5 | 6 => win8_6 | 7 => win8_7 | 8 => win8_8 | 9 => win8_9 | 10 => win8_10 | 11 => win8_11 | 12 => win8_12 | 13 => win8_13 | ⟨_ + 14, h⟩ => absurd h (Nat.not_lt.2 (Nat.le_add_left _ _))
abbrev spec8 : Fin 14 → Pipeline.WinSpec sig grid8.rank := fun w => (win8 w).toWinSpec

class Facts : Prop extends Facts₀ where

variable [Facts]
-- ==== ReferenceIdeal.lean ====
abbrev S50000x128 : Shape := ⟨2, ![50000, 128]⟩
abbrev S20000x128 : Shape := ⟨2, ![20000, 128]⟩
abbrev S5000x128 : Shape := ⟨2, ![5000, 128]⟩
abbrev S3x8x128x128 : Shape := ⟨4, ![3, 8, 128, 128]⟩
abbrev S3x8x128 : Shape := ⟨3, ![3, 8, 128]⟩
abbrev S2x500000 : Shape := ⟨2, ![2, 500000]⟩
abbrev S2x250000 : Shape := ⟨2, ![2, 250000]⟩
abbrev S2x100000 : Shape := ⟨2, ![2, 100000]⟩
abbrev S1x8x128x128 : Shape := ⟨4, ![1, 8, 128, 128]⟩
abbrev S8x128x128 : Shape := ⟨3, ![8, 128, 128]⟩
abbrev S1x8x128 : Shape := ⟨3, ![1, 8, 128]⟩
abbrev S8x128 : Shape := ⟨2, ![8, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S20000 : Shape := ⟨1, ![20000]⟩
abbrev S20000x1 : Shape := ⟨2, ![20000, 1]⟩
abbrev S1x250000 : Shape := ⟨2, ![1, 250000]⟩
abbrev S250000 : Shape := ⟨1, ![250000]⟩
abbrev S250000x1 : Shape := ⟨2, ![250000, 1]⟩
abbrev S250000x128 : Shape := ⟨2, ![250000, 128]⟩
abbrev S5000 : Shape := ⟨1, ![5000]⟩
abbrev S5000x1 : Shape := ⟨2, ![5000, 1]⟩
abbrev S50000 : Shape := ⟨1, ![50000]⟩
abbrev S50000x1 : Shape := ⟨2, ![50000, 1]⟩
abbrev S1x100000 : Shape := ⟨2, ![1, 100000]⟩
abbrev S100000 : Shape := ⟨1, ![100000]⟩
abbrev S100000x1 : Shape := ⟨2, ![100000, 1]⟩
abbrev S100000x128 : Shape := ⟨2, ![100000, 128]⟩

abbrev nBuf : Space → Nat
  | .hbm => 1181
  | .vmem => 0
  | .smem => 0
  | _ => 0

abbrev hbmTy0_0 (i : Nat) : BufTy := match i % 128 with
  | 0 => ⟨S50000x128, .f32⟩
  | 1 => ⟨S20000x128, .f32⟩
  | 2 => ⟨S5000x128, .f32⟩
  | 3 => ⟨S3x8x128x128, .f32⟩
  | 4 => ⟨S3x8x128, .f32⟩
  | 5 => ⟨S3x8x128x128, .f32⟩
  | 6 => ⟨S2x500000, .i32⟩
  | 7 => ⟨S2x250000, .i32⟩
  | 8 => ⟨S2x250000, .i32⟩
  | 9 => ⟨S2x500000, .i32⟩
  | 10 => ⟨S2x250000, .i32⟩
  | 11 => ⟨S2x250000, .i32⟩
  | 12 => ⟨S2x500000, .i32⟩
  | 13 => ⟨S2x100000, .i32⟩
  | 14 => ⟨S1x8x128x128, .f32⟩
  | 15 => ⟨S8x128x128, .f32⟩
  | 16 => ⟨S1x8x128, .f32⟩
  | 17 => ⟨S8x128, .f32⟩
  | 18 => ⟨S1x8x128x128, .f32⟩
  | 19 => ⟨S8x128x128, .f32⟩
  | 20 => ⟨S1x128x128, .f32⟩
  | 21 => ⟨S128x128, .f32⟩
  | 22 => ⟨S1x128, .f32⟩
  | 23 => ⟨S128, .f32⟩
  | 24 => ⟨S1x128x128, .f32⟩
  | 25 => ⟨S128x128, .f32⟩
  | 26 => ⟨S1x500000, .i32⟩
  | 27 => ⟨S500000, .i32⟩
  | 28 => ⟨S1x500000, .i32⟩
  | 29 => ⟨S500000, .i32⟩
  | 30 => ⟨S_, .i32⟩
  | 31 => ⟨S500000, .i32⟩
  | 32 => ⟨S500000, .i1⟩
  | 33 => ⟨S_, .i32⟩
  | 34 => ⟨S500000, .i32⟩
  | 35 => ⟨S500000, .i32⟩
  | 36 => ⟨S500000, .i32⟩
  | 37 => ⟨S500000x1, .i32⟩
  | 38 => ⟨S500000x128, .f32⟩
  | 39 => ⟨S_, .f32⟩
  | 40 => ⟨S20000x128, .f32⟩
  | 41 => ⟨S500000x1, .i32⟩
  | 42 => ⟨S20000x128, .f32⟩
  | 43 => ⟨S_, .f32⟩
  | 44 => ⟨S500000, .f32⟩
  | 45 => ⟨S_, .f32⟩
  | 46 => ⟨S20000, .f32⟩
  | 47 => ⟨S500000x1, .i32⟩
  | 48 => ⟨S20000, .f32⟩
  | 49 => ⟨S_, .f32⟩
  | 50 => ⟨S20000, .f32⟩
  | 51 => ⟨S20000, .f32⟩
  | 52 => ⟨S20000x1, .f32⟩
  | 53 => ⟨S20000x128, .f32⟩
  | 54 => ⟨S20000x128, .f32⟩
  | 55 => ⟨S128x128, .f32⟩
  | 56 => ⟨S20000x128, .f32⟩
  | 57 => ⟨S1x128, .f32⟩
  | 58 => ⟨S20000x128, .f32⟩
  | 59 => ⟨S20000x128, .f32⟩
  | 60 => ⟨S128x128, .f32⟩
  | 61 => ⟨S20000x128, .f32⟩
  | 62 => ⟨S20000x128, .f32⟩
  | 63 => ⟨S1x128x128, .f32⟩
  | 64 => ⟨S128x128, .f32⟩
  | 65 => ⟨S1x128, .f32⟩
  | 66 => ⟨S128, .f32⟩
  | 67 => ⟨S1x128x128, .f32⟩
  | 68 => ⟨S128x128, .f32⟩
  | 69 => ⟨S1x250000, .i32⟩
  | 70 => ⟨S250000, .i32⟩
  | 71 => ⟨S1x250000, .i32⟩
  | 72 => ⟨S250000, .i32⟩
  | 73 => ⟨S_, .i32⟩
  | 74 => ⟨S250000, .i32⟩
  | 75 => ⟨S250000, .i1⟩
  | 76 => ⟨S_, .i32⟩
  | 77 => ⟨S250000, .i32⟩
  | 78 => ⟨S250000, .i32⟩
  | 79 => ⟨S250000, .i32⟩
  | 80 => ⟨S250000x1, .i32⟩
  | 81 => ⟨S250000x128, .f32⟩
  | 82 => ⟨S_, .f32⟩
  | 83 => ⟨S5000x128, .f32⟩
  | 84 => ⟨S250000x1, .i32⟩
  | 85 => ⟨S5000x128, .f32⟩
  | 86 => ⟨S_, .f32⟩
  | 87 => ⟨S250000, .f32⟩
  | 88 => ⟨S_, .f32⟩
  | 89 => ⟨S5000, .f32⟩
  | 90 => ⟨S250000x1, .i32⟩
  | 91 => ⟨S5000, .f32⟩
  | 92 => ⟨S_, .f32⟩
  | 93 => ⟨S5000, .f32⟩
  | 94 => ⟨S5000, .f32⟩
  | 95 => ⟨S5000x1, .f32⟩
  | 96 => ⟨S5000x128, .f32⟩
  | 97 => ⟨S5000x128, .f32⟩
  | 98 => ⟨S128x128, .f32⟩
  | 99 => ⟨S5000x128, .f32⟩
  | 100 => ⟨S1x128, .f32⟩
  | 101 => ⟨S5000x128, .f32⟩
  | 102 => ⟨S5000x128, .f32⟩
  | 103 => ⟨S128x128, .f32⟩
  | 104 => ⟨S5000x128, .f32⟩
  | 105 => ⟨S5000x128, .f32⟩
  | 106 => ⟨S1x128x128, .f32⟩
  | 107 => ⟨S128x128, .f32⟩
  | 108 => ⟨S1x128, .f32⟩
  | 109 => ⟨S128, .f32⟩
  | 110 => ⟨S1x128x128, .f32⟩
  | 111 => ⟨S128x128, .f32⟩
  | 112 => ⟨S1x250000, .i32⟩
  | 113 => ⟨S250000, .i32⟩
  | 114 => ⟨S1x250000, .i32⟩
  | 115 => ⟨S250000, .i32⟩
  | 116 => ⟨S_, .i32⟩
  | 117 => ⟨S250000, .i32⟩
  | 118 => ⟨S250000, .i1⟩
  | 119 => ⟨S_, .i32⟩
  | 120 => ⟨S250000, .i32⟩
  | 121 => ⟨S250000, .i32⟩
  | 122 => ⟨S250000, .i32⟩
  | 123 => ⟨S250000x1, .i32⟩
  | 124 => ⟨S250000x128, .f32⟩
  | 125 => ⟨S_, .f32⟩
  | 126 => ⟨S5000x128, .f32⟩
  | 127 => ⟨S250000x1, .i32⟩
  | _ => ⟨S50000x128, .f32⟩

abbrev hbmTy0_1 (i : Nat) : BufTy := match i % 128 with
  | 0 => ⟨S5000x128, .f32⟩
  | 1 => ⟨S_, .f32⟩
  | 2 => ⟨S250000, .f32⟩
  | 3 => ⟨S_, .f32⟩
  | 4 => ⟨S5000, .f32⟩
  | 5 => ⟨S250000x1, .i32⟩
  | 6 => ⟨S5000, .f32⟩
  | 7 => ⟨S_, .f32⟩
  | 8 => ⟨S5000, .f32⟩
  | 9 => ⟨S5000, .f32⟩
  | 10 => ⟨S5000x1, .f32⟩
  | 11 => ⟨S5000x128, .f32⟩
  | 12 => ⟨S5000x128, .f32⟩
  | 13 => ⟨S128x128, .f32⟩
  | 14 => ⟨S5000x128, .f32⟩
  | 15 => ⟨S1x128, .f32⟩
  | 16 => ⟨S5000x128, .f32⟩
  | 17 => ⟨S5000x128, .f32⟩
  | 18 => ⟨S128x128, .f32⟩
  | 19 => ⟨S5000x128, .f32⟩
  | 20 => ⟨S5000x128, .f32⟩
  | 21 => ⟨S1x128x128, .f32⟩
  | 22 => ⟨S128x128, .f32⟩
  | 23 => ⟨S1x128, .f32⟩
  | 24 => ⟨S128, .f32⟩
  | 25 => ⟨S1x128x128, .f32⟩
  | 26 => ⟨S128x128, .f32⟩
  | 27 => ⟨S1x500000, .i32⟩
  | 28 => ⟨S500000, .i32⟩
  | 29 => ⟨S1x500000, .i32⟩
  | 30 => ⟨S500000, .i32⟩
  | 31 => ⟨S_, .i32⟩
  | 32 => ⟨S500000, .i32⟩
  | 33 => ⟨S500000, .i1⟩
  | 34 => ⟨S_, .i32⟩
  | 35 => ⟨S500000, .i32⟩
  | 36 => ⟨S500000, .i32⟩
  | 37 => ⟨S500000, .i32⟩
  | 38 => ⟨S500000x1, .i32⟩
  | 39 => ⟨S500000x128, .f32⟩
  | 40 => ⟨S_, .f32⟩
  | 41 => ⟨S50000x128, .f32⟩
  | 42 => ⟨S500000x1, .i32⟩
  | 43 => ⟨S50000x128, .f32⟩
  | 44 => ⟨S_, .f32⟩
  | 45 => ⟨S500000, .f32⟩
  | 46 => ⟨S_, .f32⟩
  | 47 => ⟨S50000, .f32⟩
  | 48 => ⟨S500000x1, .i32⟩
  | 49 => ⟨S50000, .f32⟩
  | 50 => ⟨S_, .f32⟩
  | 51 => ⟨S50000, .f32⟩
  | 52 => ⟨S50000, .f32⟩
  | 53 => ⟨S50000x1, .f32⟩
  | 54 => ⟨S50000x128, .f32⟩
  | 55 => ⟨S50000x128, .f32⟩
  | 56 => ⟨S128x128, .f32⟩
  | 57 => ⟨S50000x128, .f32⟩
  | 58 => ⟨S1x128, .f32⟩
  | 59 => ⟨S50000x128, .f32⟩
  | 60 => ⟨S50000x128, .f32⟩
  | 61 => ⟨S128x128, .f32⟩
  | 62 => ⟨S50000x128, .f32⟩
  | 63 => ⟨S50000x128, .f32⟩
  | 64 => ⟨S1x128x128, .f32⟩
  | 65 => ⟨S128x128, .f32⟩
  | 66 => ⟨S1x128, .f32⟩
  | 67 => ⟨S128, .f32⟩
  | 68 => ⟨S1x128x128, .f32⟩
  | 69 => ⟨S128x128, .f32⟩
  | 70 => ⟨S1x250000, .i32⟩
  | 71 => ⟨S250000, .i32⟩
  | 72 => ⟨S1x250000, .i32⟩
  | 73 => ⟨S250000, .i32⟩
  | 74 => ⟨S_, .i32⟩
  | 75 => ⟨S250000, .i32⟩
  | 76 => ⟨S250000, .i1⟩
  | 77 => ⟨S_, .i32⟩
  | 78 => ⟨S250000, .i32⟩
  | 79 => ⟨S250000, .i32⟩
  | 80 => ⟨S250000, .i32⟩
  | 81 => ⟨S250000x1, .i32⟩
  | 82 => ⟨S250000x128, .f32⟩
  | 83 => ⟨S_, .f32⟩
  | 84 => ⟨S20000x128, .f32⟩
  | 85 => ⟨S250000x1, .i32⟩
  | 86 => ⟨S20000x128, .f32⟩
  | 87 => ⟨S_, .f32⟩
  | 88 => ⟨S250000, .f32⟩
  | 89 => ⟨S_, .f32⟩
  | 90 => ⟨S20000, .f32⟩
  | 91 => ⟨S250000x1, .i32⟩
  | 92 => ⟨S20000, .f32⟩
  | 93 => ⟨S_, .f32⟩
  | 94 => ⟨S20000, .f32⟩
  | 95 => ⟨S20000, .f32⟩
  | 96 => ⟨S20000x1, .f32⟩
  | 97 => ⟨S20000x128, .f32⟩
  | 98 => ⟨S20000x128, .f32⟩
  | 99 => ⟨S128x128, .f32⟩
  | 100 => ⟨S20000x128, .f32⟩
  | 101 => ⟨S1x128, .f32⟩
  | 102 => ⟨S20000x128, .f32⟩
  | 103 => ⟨S20000x128, .f32⟩
  | 104 => ⟨S128x128, .f32⟩
  | 105 => ⟨S20000x128, .f32⟩
  | 106 => ⟨S20000x128, .f32⟩
  | 107 => ⟨S1x128x128, .f32⟩
  | 108 => ⟨S128x128, .f32⟩
  | 109 => ⟨S1x128, .f32⟩
  | 110 => ⟨S128, .f32⟩
  | 111 => ⟨S1x128x128, .f32⟩
  | 112 => ⟨S128x128, .f32⟩
  | 113 => ⟨S1x250000, .i32⟩
  | 114 => ⟨S250000, .i32⟩
  | 115 => ⟨S1x250000, .i32⟩
  | 116 => ⟨S250000, .i32⟩
  | 117 => ⟨S_, .i32⟩
  | 118 => ⟨S250000, .i32⟩
  | 119 => ⟨S250000, .i1⟩
  | 120 => ⟨S_, .i32⟩
  | 121 => ⟨S250000, .i32⟩
  | 122 => ⟨S250000, .i32⟩
  | 123 => ⟨S250000, .i32⟩
  | 124 => ⟨S250000x1, .i32⟩
  | 125 => ⟨S250000x128, .f32⟩
  | 126 => ⟨S_, .f32⟩
  | 127 => ⟨S50000x128, .f32⟩
  | _ => ⟨S50000x128, .f32⟩

abbrev hbmTy0_2 (i : Nat) : BufTy := match i % 128 with
  | 0 => ⟨S250000x1, .i32⟩
  | 1 => ⟨S50000x128, .f32⟩
  | 2 => ⟨S_, .f32⟩
  | 3 => ⟨S250000, .f32⟩
  | 4 => ⟨S_, .f32⟩
  | 5 => ⟨S50000, .f32⟩
  | 6 => ⟨S250000x1, .i32⟩
  | 7 => ⟨S50000, .f32⟩
  | 8 => ⟨S_, .f32⟩
  | 9 => ⟨S50000, .f32⟩
  | 10 => ⟨S50000, .f32⟩
  | 11 => ⟨S50000x1, .f32⟩
  | 12 => ⟨S50000x128, .f32⟩
  | 13 => ⟨S50000x128, .f32⟩
  | 14 => ⟨S128x128, .f32⟩
  | 15 => ⟨S50000x128, .f32⟩
  | 16 => ⟨S1x128, .f32⟩
  | 17 => ⟨S50000x128, .f32⟩
  | 18 => ⟨S50000x128, .f32⟩
  | 19 => ⟨S128x128, .f32⟩
  | 20 => ⟨S50000x128, .f32⟩
  | 21 => ⟨S50000x128, .f32⟩
  | 22 => ⟨S1x128x128, .f32⟩
  | 23 => ⟨S128x128, .f32⟩
  | 24 => ⟨S1x128, .f32⟩
  | 25 => ⟨S128, .f32⟩
  | 26 => ⟨S1x128x128, .f32⟩
  | 27 => ⟨S128x128, .f32⟩
  | 28 => ⟨S1x500000, .i32⟩
  | 29 => ⟨S500000, .i32⟩
  | 30 => ⟨S1x500000, .i32⟩
  | 31 => ⟨S500000, .i32⟩
  | 32 => ⟨S_, .i32⟩
  | 33 => ⟨S500000, .i32⟩
  | 34 => ⟨S500000, .i1⟩
  | 35 => ⟨S_, .i32⟩
  | 36 => ⟨S500000, .i32⟩
  | 37 => ⟨S500000, .i32⟩
  | 38 => ⟨S500000, .i32⟩
  | 39 => ⟨S500000x1, .i32⟩
  | 40 => ⟨S500000x128, .f32⟩
  | 41 => ⟨S_, .f32⟩
  | 42 => ⟨S50000x128, .f32⟩
  | 43 => ⟨S500000x1, .i32⟩
  | 44 => ⟨S50000x128, .f32⟩
  | 45 => ⟨S_, .f32⟩
  | 46 => ⟨S500000, .f32⟩
  | 47 => ⟨S_, .f32⟩
  | 48 => ⟨S50000, .f32⟩
  | 49 => ⟨S500000x1, .i32⟩
  | 50 => ⟨S50000, .f32⟩
  | 51 => ⟨S_, .f32⟩
  | 52 => ⟨S50000, .f32⟩
  | 53 => ⟨S50000, .f32⟩
  | 54 => ⟨S50000x1, .f32⟩
  | 55 => ⟨S50000x128, .f32⟩
  | 56 => ⟨S50000x128, .f32⟩
  | 57 => ⟨S128x128, .f32⟩
  | 58 => ⟨S50000x128, .f32⟩
  | 59 => ⟨S1x128, .f32⟩
  | 60 => ⟨S50000x128, .f32⟩
  | 61 => ⟨S50000x128, .f32⟩
  | 62 => ⟨S128x128, .f32⟩
  | 63 => ⟨S50000x128, .f32⟩
  | 64 => ⟨S50000x128, .f32⟩
  | 65 => ⟨S1x128x128, .f32⟩
  | 66 => ⟨S128x128, .f32⟩
  | 67 => ⟨S1x128, .f32⟩
  | 68 => ⟨S128, .f32⟩
  | 69 => ⟨S1x128x128, .f32⟩
  | 70 => ⟨S128x128, .f32⟩
  | 71 => ⟨S1x100000, .i32⟩
  | 72 => ⟨S100000, .i32⟩
  | 73 => ⟨S1x100000, .i32⟩
  | 74 => ⟨S100000, .i32⟩
  | 75 => ⟨S_, .i32⟩
  | 76 => ⟨S100000, .i32⟩
  | 77 => ⟨S100000, .i1⟩
  | 78 => ⟨S_, .i32⟩
  | 79 => ⟨S100000, .i32⟩
  | 80 => ⟨S100000, .i32⟩
  | 81 => ⟨S100000, .i32⟩
  | 82 => ⟨S100000x1, .i32⟩
  | 83 => ⟨S100000x128, .f32⟩
  | 84 => ⟨S_, .f32⟩
  | 85 => ⟨S5000x128, .f32⟩
  | 86 => ⟨S100000x1, .i32⟩
  | 87 => ⟨S5000x128, .f32⟩
  | 88 => ⟨S_, .f32⟩
  | 89 => ⟨S100000, .f32⟩
  | 90 => ⟨S_, .f32⟩
  | 91 => ⟨S5000, .f32⟩
  | 92 => ⟨S100000x1, .i32⟩
  | 93 => ⟨S5000, .f32⟩
  | 94 => ⟨S_, .f32⟩
  | 95 => ⟨S5000, .f32⟩
  | 96 => ⟨S5000, .f32⟩
  | 97 => ⟨S5000x1, .f32⟩
  | 98 => ⟨S5000x128, .f32⟩
  | 99 => ⟨S5000x128, .f32⟩
  | 100 => ⟨S128x128, .f32⟩
  | 101 => ⟨S5000x128, .f32⟩
  | 102 => ⟨S1x128, .f32⟩
  | 103 => ⟨S5000x128, .f32⟩
  | 104 => ⟨S5000x128, .f32⟩
  | 105 => ⟨S128x128, .f32⟩
  | 106 => ⟨S5000x128, .f32⟩
  | 107 => ⟨S5000x128, .f32⟩
  | 108 => ⟨S_, .f32⟩
  | 109 => ⟨S50000x128, .f32⟩
  | 110 => ⟨S50000x128, .f32⟩
  | 111 => ⟨S50000x128, .f32⟩
  | 112 => ⟨S50000x128, .f32⟩
  | 113 => ⟨S_, .f32⟩
  | 114 => ⟨S50000x128, .f32⟩
  | 115 => ⟨S50000x128, .f32⟩
  | 116 => ⟨S_, .f32⟩
  | 117 => ⟨S20000x128, .f32⟩
  | 118 => ⟨S20000x128, .f32⟩
  | 119 => ⟨S20000x128, .f32⟩
  | 120 => ⟨S_, .f32⟩
  | 121 => ⟨S20000x128, .f32⟩
  | 122 => ⟨S20000x128, .f32⟩
  | 123 => ⟨S_, .f32⟩
  | 124 => ⟨S5000x128, .f32⟩
  | 125 => ⟨S5000x128, .f32⟩
  | 126 => ⟨S5000x128, .f32⟩
  | 127 => ⟨S5000x128, .f32⟩
  | _ => ⟨S50000x128, .f32⟩

abbrev hbmTy0_3 (i : Nat) : BufTy := match i % 128 with
  | 0 => ⟨S_, .f32⟩
  | 1 => ⟨S5000x128, .f32⟩
  | 2 => ⟨S5000x128, .f32⟩
  | 3 => ⟨S_, .f32⟩
  | 4 => ⟨S50000x128, .f32⟩
  | 5 => ⟨S50000x128, .f32⟩
  | 6 => ⟨S_, .f32⟩
  | 7 => ⟨S20000x128, .f32⟩
  | 8 => ⟨S20000x128, .f32⟩
  | 9 => ⟨S_, .f32⟩
  | 10 => ⟨S5000x128, .f32⟩
  | 11 => ⟨S5000x128, .f32⟩
  | 12 => ⟨S1x8x128x128, .f32⟩
  | 13 => ⟨S8x128x128, .f32⟩
  | 14 => ⟨S1x8x128, .f32⟩
  | 15 => ⟨S8x128, .f32⟩
  | 16 => ⟨S1x8x128x128, .f32⟩
  | 17 => ⟨S8x128x128, .f32⟩
  | 18 => ⟨S1x128x128, .f32⟩
  | 19 => ⟨S128x128, .f32⟩
  | 20 => ⟨S1x128, .f32⟩
  | 21 => ⟨S128, .f32⟩
  | 22 => ⟨S1x128x128, .f32⟩
  | 23 => ⟨S128x128, .f32⟩
  | 24 => ⟨S1x500000, .i32⟩
  | 25 => ⟨S500000, .i32⟩
  | 26 => ⟨S1x500000, .i32⟩
  | 27 => ⟨S500000, .i32⟩
  | 28 => ⟨S_, .i32⟩
  | 29 => ⟨S500000, .i32⟩
  | 30 => ⟨S500000, .i1⟩
  | 31 => ⟨S_, .i32⟩
  | 32 => ⟨S500000, .i32⟩
  | 33 => ⟨S500000, .i32⟩
  | 34 => ⟨S500000, .i32⟩
  | 35 => ⟨S500000x1, .i32⟩
  | 36 => ⟨S500000x128, .f32⟩
  | 37 => ⟨S_, .f32⟩
  | 38 => ⟨S20000x128, .f32⟩
  | 39 => ⟨S500000x1, .i32⟩
  | 40 => ⟨S20000x128, .f32⟩
  | 41 => ⟨S_, .f32⟩
  | 42 => ⟨S500000, .f32⟩
  | 43 => ⟨S_, .f32⟩
  | 44 => ⟨S20000, .f32⟩
  | 45 => ⟨S500000x1, .i32⟩
  | 46 => ⟨S20000, .f32⟩
  | 47 => ⟨S_, .f32⟩
  | 48 => ⟨S20000, .f32⟩
  | 49 => ⟨S20000, .f32⟩
  | 50 => ⟨S20000x1, .f32⟩
  | 51 => ⟨S20000x128, .f32⟩
  | 52 => ⟨S20000x128, .f32⟩
  | 53 => ⟨S128x128, .f32⟩
  | 54 => ⟨S20000x128, .f32⟩
  | 55 => ⟨S1x128, .f32⟩
  | 56 => ⟨S20000x128, .f32⟩
  | 57 => ⟨S20000x128, .f32⟩
  | 58 => ⟨S128x128, .f32⟩
  | 59 => ⟨S20000x128, .f32⟩
  | 60 => ⟨S20000x128, .f32⟩
  | 61 => ⟨S1x128x128, .f32⟩
  | 62 => ⟨S128x128, .f32⟩
  | 63 => ⟨S1x128, .f32⟩
  | 64 => ⟨S128, .f32⟩
  | 65 => ⟨S1x128x128, .f32⟩
  | 66 => ⟨S128x128, .f32⟩
  | 67 => ⟨S1x250000, .i32⟩
  | 68 => ⟨S250000, .i32⟩
  | 69 => ⟨S1x250000, .i32⟩
  | 70 => ⟨S250000, .i32⟩
  | 71 => ⟨S_, .i32⟩
  | 72 => ⟨S250000, .i32⟩
  | 73 => ⟨S250000, .i1⟩
  | 74 => ⟨S_, .i32⟩
  | 75 => ⟨S250000, .i32⟩
  | 76 => ⟨S250000, .i32⟩
  | 77 => ⟨S250000, .i32⟩
  | 78 => ⟨S250000x1, .i32⟩
  | 79 => ⟨S250000x128, .f32⟩
  | 80 => ⟨S_, .f32⟩
  | 81 => ⟨S5000x128, .f32⟩
  | 82 => ⟨S250000x1, .i32⟩
  | 83 => ⟨S5000x128, .f32⟩
  | 84 => ⟨S_, .f32⟩
  | 85 => ⟨S250000, .f32⟩
  | 86 => ⟨S_, .f32⟩
  | 87 => ⟨S5000, .f32⟩
  | 88 => ⟨S250000x1, .i32⟩
  | 89 => ⟨S5000, .f32⟩
  | 90 => ⟨S_, .f32⟩
  | 91 => ⟨S5000, .f32⟩
  | 92 => ⟨S5000, .f32⟩
  | 93 => ⟨S5000x1, .f32⟩
  | 94 => ⟨S5000x128, .f32⟩
  | 95 => ⟨S5000x128, .f32⟩
  | 96 => ⟨S128x128, .f32⟩
  | 97 => ⟨S5000x128, .f32⟩
  | 98 => ⟨S1x128, .f32⟩
  | 99 => ⟨S5000x128, .f32⟩
  | 100 => ⟨S5000x128, .f32⟩
  | 101 => ⟨S128x128, .f32⟩
  | 102 => ⟨S5000x128, .f32⟩
  | 103 => ⟨S5000x128, .f32⟩
  | 104 => ⟨S1x128x128, .f32⟩
  | 105 => ⟨S128x128, .f32⟩
  | 106 => ⟨S1x128, .f32⟩
  | 107 => ⟨S128, .f32⟩
  | 108 => ⟨S1x128x128, .f32⟩
  | 109 => ⟨S128x128, .f32⟩
  | 110 => ⟨S1x250000, .i32⟩
  | 111 => ⟨S250000, .i32⟩
  | 112 => ⟨S1x250000, .i32⟩
  | 113 => ⟨S250000, .i32⟩
  | 114 => ⟨S_, .i32⟩
  | 115 => ⟨S250000, .i32⟩
  | 116 => ⟨S250000, .i1⟩
  | 117 => ⟨S_, .i32⟩
  | 118 => ⟨S250000, .i32⟩
  | 119 => ⟨S250000, .i32⟩
  | 120 => ⟨S250000, .i32⟩
  | 121 => ⟨S250000x1, .i32⟩
  | 122 => ⟨S250000x128, .f32⟩
  | 123 => ⟨S_, .f32⟩
  | 124 => ⟨S5000x128, .f32⟩
  | 125 => ⟨S250000x1, .i32⟩
  | 126 => ⟨S5000x128, .f32⟩
  | 127 => ⟨S_, .f32⟩
  | _ => ⟨S50000x128, .f32⟩

abbrev hbmTy0_4 (i : Nat) : BufTy := match i % 128 with
  | 0 => ⟨S250000, .f32⟩
  | 1 => ⟨S_, .f32⟩
  | 2 => ⟨S5000, .f32⟩
  | 3 => ⟨S250000x1, .i32⟩
  | 4 => ⟨S5000, .f32⟩
  | 5 => ⟨S_, .f32⟩
  | 6 => ⟨S5000, .f32⟩
  | 7 => ⟨S5000, .f32⟩
  | 8 => ⟨S5000x1, .f32⟩
  | 9 => ⟨S5000x128, .f32⟩
  | 10 => ⟨S5000x128, .f32⟩
  | 11 => ⟨S128x128, .f32⟩
  | 12 => ⟨S5000x128, .f32⟩
  | 13 => ⟨S1x128, .f32⟩
  | 14 => ⟨S5000x128, .f32⟩
  | 15 => ⟨S5000x128, .f32⟩
  | 16 => ⟨S128x128, .f32⟩
  | 17 => ⟨S5000x128, .f32⟩
  | 18 => ⟨S5000x128, .f32⟩
  | 19 => ⟨S1x128x128, .f32⟩
  | 20 => ⟨S128x128, .f32⟩
  | 21 => ⟨S1x128, .f32⟩
  | 22 => ⟨S128, .f32⟩
  | 23 => ⟨S1x128x128, .f32⟩
  | 24 => ⟨S128x128, .f32⟩
  | 25 => ⟨S1x500000, .i32⟩
  | 26 => ⟨S500000, .i32⟩
  | 27 => ⟨S1x500000, .i32⟩
  | 28 => ⟨S500000, .i32⟩
  | 29 => ⟨S_, .i32⟩
  | 30 => ⟨S500000, .i32⟩
  | 31 => ⟨S500000, .i1⟩
  | 32 => ⟨S_, .i32⟩
  | 33 => ⟨S500000, .i32⟩
  | 34 => ⟨S500000, .i32⟩
  | 35 => ⟨S500000, .i32⟩
  | 36 => ⟨S500000x1, .i32⟩
  | 37 => ⟨S500000x128, .f32⟩
  | 38 => ⟨S_, .f32⟩
  | 39 => ⟨S50000x128, .f32⟩
  | 40 => ⟨S500000x1, .i32⟩
  | 41 => ⟨S50000x128, .f32⟩
  | 42 => ⟨S_, .f32⟩
  | 43 => ⟨S500000, .f32⟩
  | 44 => ⟨S_, .f32⟩
  | 45 => ⟨S50000, .f32⟩
  | 46 => ⟨S500000x1, .i32⟩
  | 47 => ⟨S50000, .f32⟩
  | 48 => ⟨S_, .f32⟩
  | 49 => ⟨S50000, .f32⟩
  | 50 => ⟨S50000, .f32⟩
  | 51 => ⟨S50000x1, .f32⟩
  | 52 => ⟨S50000x128, .f32⟩
  | 53 => ⟨S50000x128, .f32⟩
  | 54 => ⟨S128x128, .f32⟩
  | 55 => ⟨S50000x128, .f32⟩
  | 56 => ⟨S1x128, .f32⟩
  | 57 => ⟨S50000x128, .f32⟩
  | 58 => ⟨S50000x128, .f32⟩
  | 59 => ⟨S128x128, .f32⟩
  | 60 => ⟨S50000x128, .f32⟩
  | 61 => ⟨S50000x128, .f32⟩
  | 62 => ⟨S1x128x128, .f32⟩
  | 63 => ⟨S128x128, .f32⟩
  | 64 => ⟨S1x128, .f32⟩
  | 65 => ⟨S128, .f32⟩
  | 66 => ⟨S1x128x128, .f32⟩
  | 67 => ⟨S128x128, .f32⟩
  | 68 => ⟨S1x250000, .i32⟩
  | 69 => ⟨S250000, .i32⟩
  | 70 => ⟨S1x250000, .i32⟩
  | 71 => ⟨S250000, .i32⟩
  | 72 => ⟨S_, .i32⟩
  | 73 => ⟨S250000, .i32⟩
  | 74 => ⟨S250000, .i1⟩
  | 75 => ⟨S_, .i32⟩
  | 76 => ⟨S250000, .i32⟩
  | 77 => ⟨S250000, .i32⟩
  | 78 => ⟨S250000, .i32⟩
  | 79 => ⟨S250000x1, .i32⟩
  | 80 => ⟨S250000x128, .f32⟩
  | 81 => ⟨S_, .f32⟩
  | 82 => ⟨S20000x128, .f32⟩
  | 83 => ⟨S250000x1, .i32⟩
  | 84 => ⟨S20000x128, .f32⟩
  | 85 => ⟨S_, .f32⟩
  | 86 => ⟨S250000, .f32⟩
  | 87 => ⟨S_, .f32⟩
  | 88 => ⟨S20000, .f32⟩
  | 89 => ⟨S250000x1, .i32⟩
  | 90 => ⟨S20000, .f32⟩
  | 91 => ⟨S_, .f32⟩
  | 92 => ⟨S20000, .f32⟩
  | 93 => ⟨S20000, .f32⟩
  | 94 => ⟨S20000x1, .f32⟩
  | 95 => ⟨S20000x128, .f32⟩
  | 96 => ⟨S20000x128, .f32⟩
  | 97 => ⟨S128x128, .f32⟩
  | 98 => ⟨S20000x128, .f32⟩
  | 99 => ⟨S1x128, .f32⟩
  | 100 => ⟨S20000x128, .f32⟩
  | 101 => ⟨S20000x128, .f32⟩
  | 102 => ⟨S128x128, .f32⟩
  | 103 => ⟨S20000x128, .f32⟩
  | 104 => ⟨S20000x128, .f32⟩
  | 105 => ⟨S1x128x128, .f32⟩
  | 106 => ⟨S128x128, .f32⟩
  | 107 => ⟨S1x128, .f32⟩
  | 108 => ⟨S128, .f32⟩
  | 109 => ⟨S1x128x128, .f32⟩
  | 110 => ⟨S128x128, .f32⟩
  | 111 => ⟨S1x250000, .i32⟩
  | 112 => ⟨S250000, .i32⟩
  | 113 => ⟨S1x250000, .i32⟩
  | 114 => ⟨S250000, .i32⟩
  | 115 => ⟨S_, .i32⟩
  | 116 => ⟨S250000, .i32⟩
  | 117 => ⟨S250000, .i1⟩
  | 118 => ⟨S_, .i32⟩
  | 119 => ⟨S250000, .i32⟩
  | 120 => ⟨S250000, .i32⟩
  | 121 => ⟨S250000, .i32⟩
  | 122 => ⟨S250000x1, .i32⟩
  | 123 => ⟨S250000x128, .f32⟩
  | 124 => ⟨S_, .f32⟩
  | 125 => ⟨S50000x128, .f32⟩
  | 126 => ⟨S250000x1, .i32⟩
  | 127 => ⟨S50000x128, .f32⟩
  | _ => ⟨S50000x128, .f32⟩

abbrev hbmTy0_5 (i : Nat) : BufTy := match i % 128 with
  | 0 => ⟨S_, .f32⟩
  | 1 => ⟨S250000, .f32⟩
  | 2 => ⟨S_, .f32⟩
  | 3 => ⟨S50000, .f32⟩
  | 4 => ⟨S250000x1, .i32⟩
  | 5 => ⟨S50000, .f32⟩
  | 6 => ⟨S_, .f32⟩
  | 7 => ⟨S50000, .f32⟩
  | 8 => ⟨S50000, .f32⟩
  | 9 => ⟨S50000x1, .f32⟩
  | 10 => ⟨S50000x128, .f32⟩
  | 11 => ⟨S50000x128, .f32⟩
  | 12 => ⟨S128x128, .f32⟩
  | 13 => ⟨S50000x128, .f32⟩
  | 14 => ⟨S1x128, .f32⟩
  | 15 => ⟨S50000x128, .f32⟩
  | 16 => ⟨S50000x128, .f32⟩
  | 17 => ⟨S128x128, .f32⟩
  | 18 => ⟨S50000x128, .f32⟩
  | 19 => ⟨S50000x128, .f32⟩
  | 20 => ⟨S1x128x128, .f32⟩
  | 21 => ⟨S128x128, .f32⟩
  | 22 => ⟨S1x128, .f32⟩
  | 23 => ⟨S128, .f32⟩
  | 24 => ⟨S1x128x128, .f32⟩
  | 25 => ⟨S128x128, .f32⟩
  | 26 => ⟨S1x500000, .i32⟩
  | 27 => ⟨S500000, .i32⟩
  | 28 => ⟨S1x500000, .i32⟩
  | 29 => ⟨S500000, .i32⟩
  | 30 => ⟨S_, .i32⟩
  | 31 => ⟨S500000, .i32⟩
  | 32 => ⟨S500000, .i1⟩
  | 33 => ⟨S_, .i32⟩
  | 34 => ⟨S500000, .i32⟩
  | 35 => ⟨S500000, .i32⟩
  | 36 => ⟨S500000, .i32⟩
  | 37 => ⟨S500000x1, .i32⟩
  | 38 => ⟨S500000x128, .f32⟩
  | 39 => ⟨S_, .f32⟩
  | 40 => ⟨S50000x128, .f32⟩
  | 41 => ⟨S500000x1, .i32⟩
  | 42 => ⟨S50000x128, .f32⟩
  | 43 => ⟨S_, .f32⟩
  | 44 => ⟨S500000, .f32⟩
  | 45 => ⟨S_, .f32⟩
  | 46 => ⟨S50000, .f32⟩
  | 47 => ⟨S500000x1, .i32⟩
  | 48 => ⟨S50000, .f32⟩
  | 49 => ⟨S_, .f32⟩
  | 50 => ⟨S50000, .f32⟩
  | 51 => ⟨S50000, .f32⟩
  | 52 => ⟨S50000x1, .f32⟩
  | 53 => ⟨S50000x128, .f32⟩
  | 54 => ⟨S50000x128, .f32⟩
  | 55 => ⟨S128x128, .f32⟩
  | 56 => ⟨S50000x128, .f32⟩
  | 57 => ⟨S1x128, .f32⟩
  | 58 => ⟨S50000x128, .f32⟩
  | 59 => ⟨S50000x128, .f32⟩
  | 60 => ⟨S128x128, .f32⟩
  | 61 => ⟨S50000x128, .f32⟩
  | 62 => ⟨S50000x128, .f32⟩
  | 63 => ⟨S1x128x128, .f32⟩
  | 64 => ⟨S128x128, .f32⟩
  | 65 => ⟨S1x128, .f32⟩
  | 66 => ⟨S128, .f32⟩
  | 67 => ⟨S1x128x128, .f32⟩
  | 68 => ⟨S128x128, .f32⟩
  | 69 => ⟨S1x100000, .i32⟩
  | 70 => ⟨S100000, .i32⟩
  | 71 => ⟨S1x100000, .i32⟩
  | 72 => ⟨S100000, .i32⟩
  | 73 => ⟨S_, .i32⟩
  | 74 => ⟨S100000, .i32⟩
  | 75 => ⟨S100000, .i1⟩
  | 76 => ⟨S_, .i32⟩
  | 77 => ⟨S100000, .i32⟩
  | 78 => ⟨S100000, .i32⟩
  | 79 => ⟨S100000, .i32⟩
  | 80 => ⟨S100000x1, .i32⟩
  | 81 => ⟨S100000x128, .f32⟩
  | 82 => ⟨S_, .f32⟩
  | 83 => ⟨S5000x128, .f32⟩
  | 84 => ⟨S100000x1, .i32⟩
  | 85 => ⟨S5000x128, .f32⟩
  | 86 => ⟨S_, .f32⟩
  | 87 => ⟨S100000, .f32⟩
  | 88 => ⟨S_, .f32⟩
  | 89 => ⟨S5000, .f32⟩
  | 90 => ⟨S100000x1, .i32⟩
  | 91 => ⟨S5000, .f32⟩
  | 92 => ⟨S_, .f32⟩
  | 93 => ⟨S5000, .f32⟩
  | 94 => ⟨S5000, .f32⟩
  | 95 => ⟨S5000x1, .f32⟩
  | 96 => ⟨S5000x128, .f32⟩
  | 97 => ⟨S5000x128, .f32⟩
  | 98 => ⟨S128x128, .f32⟩
  | 99 => ⟨S5000x128, .f32⟩
  | 100 => ⟨S1x128, .f32⟩
  | 101 => ⟨S5000x128, .f32⟩
  | 102 => ⟨S5000x128, .f32⟩
  | 103 => ⟨S128x128, .f32⟩
  | 104 => ⟨S5000x128, .f32⟩
  | 105 => ⟨S5000x128, .f32⟩
  | 106 => ⟨S_, .f32⟩
  | 107 => ⟨S50000x128, .f32⟩
  | 108 => ⟨S50000x128, .f32⟩
  | 109 => ⟨S50000x128, .f32⟩
  | 110 => ⟨S50000x128, .f32⟩
  | 111 => ⟨S_, .f32⟩
  | 112 => ⟨S50000x128, .f32⟩
  | 113 => ⟨S50000x128, .f32⟩
  | 114 => ⟨S_, .f32⟩
  | 115 => ⟨S20000x128, .f32⟩
  | 116 => ⟨S20000x128, .f32⟩
  | 117 => ⟨S20000x128, .f32⟩
  | 118 => ⟨S_, .f32⟩
  | 119 => ⟨S20000x128, .f32⟩
  | 120 => ⟨S20000x128, .f32⟩
  | 121 => ⟨S_, .f32⟩
  | 122 => ⟨S5000x128, .f32⟩
  | 123 => ⟨S5000x128, .f32⟩
  | 124 => ⟨S5000x128, .f32⟩
  | 125 => ⟨S5000x128, .f32⟩
  | 126 => ⟨S_, .f32⟩
  | 127 => ⟨S5000x128, .f32⟩
  | _ => ⟨S50000x128, .f32⟩

abbrev hbmTy0_6 (i : Nat) : BufTy := match i % 128 with
  | 0 => ⟨S5000x128, .f32⟩
  | 1 => ⟨S_, .f32⟩
  | 2 => ⟨S50000x128, .f32⟩
  | 3 => ⟨S50000x128, .f32⟩
  | 4 => ⟨S_, .f32⟩
  | 5 => ⟨S20000x128, .f32⟩
  | 6 => ⟨S20000x128, .f32⟩
  | 7 => ⟨S_, .f32⟩
  | 8 => ⟨S5000x128, .f32⟩
  | 9 => ⟨S5000x128, .f32⟩
  | 10 => ⟨S1x8x128x128, .f32⟩
  | 11 => ⟨S8x128x128, .f32⟩
  | 12 => ⟨S1x8x128, .f32⟩
  | 13 => ⟨S8x128, .f32⟩
  | 14 => ⟨S1x8x128x128, .f32⟩
  | 15 => ⟨S8x128x128, .f32⟩
  | 16 => ⟨S1x128x128, .f32⟩
  | 17 => ⟨S128x128, .f32⟩
  | 18 => ⟨S1x128, .f32⟩
  | 19 => ⟨S128, .f32⟩
  | 20 => ⟨S1x128x128, .f32⟩
  | 21 => ⟨S128x128, .f32⟩
  | 22 => ⟨S1x500000, .i32⟩
  | 23 => ⟨S500000, .i32⟩
  | 24 => ⟨S1x500000, .i32⟩
  | 25 => ⟨S500000, .i32⟩
  | 26 => ⟨S_, .i32⟩
  | 27 => ⟨S500000, .i32⟩
  | 28 => ⟨S500000, .i1⟩
  | 29 => ⟨S_, .i32⟩
  | 30 => ⟨S500000, .i32⟩
  | 31 => ⟨S500000, .i32⟩
  | 32 => ⟨S500000, .i32⟩
  | 33 => ⟨S500000x1, .i32⟩
  | 34 => ⟨S500000x128, .f32⟩
  | 35 => ⟨S_, .f32⟩
  | 36 => ⟨S20000x128, .f32⟩
  | 37 => ⟨S500000x1, .i32⟩
  | 38 => ⟨S20000x128, .f32⟩
  | 39 => ⟨S_, .f32⟩
  | 40 => ⟨S500000, .f32⟩
  | 41 => ⟨S_, .f32⟩
  | 42 => ⟨S20000, .f32⟩
  | 43 => ⟨S500000x1, .i32⟩
  | 44 => ⟨S20000, .f32⟩
  | 45 => ⟨S_, .f32⟩
  | 46 => ⟨S20000, .f32⟩
  | 47 => ⟨S20000, .f32⟩
  | 48 => ⟨S20000x1, .f32⟩
  | 49 => ⟨S20000x128, .f32⟩
  | 50 => ⟨S20000x128, .f32⟩
  | 51 => ⟨S128x128, .f32⟩
  | 52 => ⟨S20000x128, .f32⟩
  | 53 => ⟨S1x128, .f32⟩
  | 54 => ⟨S20000x128, .f32⟩
  | 55 => ⟨S20000x128, .f32⟩
  | 56 => ⟨S128x128, .f32⟩
  | 57 => ⟨S20000x128, .f32⟩
  | 58 => ⟨S20000x128, .f32⟩
  | 59 => ⟨S1x128x128, .f32⟩
  | 60 => ⟨S128x128, .f32⟩
  | 61 => ⟨S1x128, .f32⟩
  | 62 => ⟨S128, .f32⟩
  | 63 => ⟨S1x128x128, .f32⟩
  | 64 => ⟨S128x128, .f32⟩
  | 65 => ⟨S1x250000, .i32⟩
  | 66 => ⟨S250000, .i32⟩
  | 67 => ⟨S1x250000, .i32⟩
  | 68 => ⟨S250000, .i32⟩
  | 69 => ⟨S_, .i32⟩
  | 70 => ⟨S250000, .i32⟩
  | 71 => ⟨S250000, .i1⟩
  | 72 => ⟨S_, .i32⟩
  | 73 => ⟨S250000, .i32⟩
  | 74 => ⟨S250000, .i32⟩
  | 75 => ⟨S250000, .i32⟩
  | 76 => ⟨S250000x1, .i32⟩
  | 77 => ⟨S250000x128, .f32⟩
  | 78 => ⟨S_, .f32⟩
  | 79 => ⟨S5000x128, .f32⟩
  | 80 => ⟨S250000x1, .i32⟩
  | 81 => ⟨S5000x128, .f32⟩
  | 82 => ⟨S_, .f32⟩
  | 83 => ⟨S250000, .f32⟩
  | 84 => ⟨S_, .f32⟩
  | 85 => ⟨S5000, .f32⟩
  | 86 => ⟨S250000x1, .i32⟩
  | 87 => ⟨S5000, .f32⟩
  | 88 => ⟨S_, .f32⟩
  | 89 => ⟨S5000, .f32⟩
  | 90 => ⟨S5000, .f32⟩
  | 91 => ⟨S5000x1, .f32⟩
  | 92 => ⟨S5000x128, .f32⟩
  | 93 => ⟨S5000x128, .f32⟩
  | 94 => ⟨S128x128, .f32⟩
  | 95 => ⟨S5000x128, .f32⟩
  | 96 => ⟨S1x128, .f32⟩
  | 97 => ⟨S5000x128, .f32⟩
  | 98 => ⟨S5000x128, .f32⟩
  | 99 => ⟨S128x128, .f32⟩
  | 100 => ⟨S5000x128, .f32⟩
  | 101 => ⟨S5000x128, .f32⟩
  | 102 => ⟨S1x128x128, .f32⟩
  | 103 => ⟨S128x128, .f32⟩
  | 104 => ⟨S1x128, .f32⟩
  | 105 => ⟨S128, .f32⟩
  | 106 => ⟨S1x128x128, .f32⟩
  | 107 => ⟨S128x128, .f32⟩
  | 108 => ⟨S1x250000, .i32⟩
  | 109 => ⟨S250000, .i32⟩
  | 110 => ⟨S1x250000, .i32⟩
  | 111 => ⟨S250000, .i32⟩
  | 112 => ⟨S_, .i32⟩
  | 113 => ⟨S250000, .i32⟩
  | 114 => ⟨S250000, .i1⟩
  | 115 => ⟨S_, .i32⟩
  | 116 => ⟨S250000, .i32⟩
  | 117 => ⟨S250000, .i32⟩
  | 118 => ⟨S250000, .i32⟩
  | 119 => ⟨S250000x1, .i32⟩
  | 120 => ⟨S250000x128, .f32⟩
  | 121 => ⟨S_, .f32⟩
  | 122 => ⟨S5000x128, .f32⟩
  | 123 => ⟨S250000x1, .i32⟩
  | 124 => ⟨S5000x128, .f32⟩
  | 125 => ⟨S_, .f32⟩
  | 126 => ⟨S250000, .f32⟩
  | 127 => ⟨S_, .f32⟩
  | _ => ⟨S50000x128, .f32⟩

abbrev hbmTy0_7 (i : Nat) : BufTy := match i % 128 with
  | 0 => ⟨S5000, .f32⟩
  | 1 => ⟨S250000x1, .i32⟩
  | 2 => ⟨S5000, .f32⟩
  | 3 => ⟨S_, .f32⟩
  | 4 => ⟨S5000, .f32⟩
  | 5 => ⟨S5000, .f32⟩
  | 6 => ⟨S5000x1, .f32⟩
  | 7 => ⟨S5000x128, .f32⟩
  | 8 => ⟨S5000x128, .f32⟩
  | 9 => ⟨S128x128, .f32⟩
  | 10 => ⟨S5000x128, .f32⟩
  | 11 => ⟨S1x128, .f32⟩
  | 12 => ⟨S5000x128, .f32⟩
  | 13 => ⟨S5000x128, .f32⟩
  | 14 => ⟨S128x128, .f32⟩
  | 15 => ⟨S5000x128, .f32⟩
  | 16 => ⟨S5000x128, .f32⟩
  | 17 => ⟨S1x128x128, .f32⟩
  | 18 => ⟨S128x128, .f32⟩
  | 19 => ⟨S1x128, .f32⟩
  | 20 => ⟨S128, .f32⟩
  | 21 => ⟨S1x128x128, .f32⟩
  | 22 => ⟨S128x128, .f32⟩
  | 23 => ⟨S1x500000, .i32⟩
  | 24 => ⟨S500000, .i32⟩
  | 25 => ⟨S1x500000, .i32⟩
  | 26 => ⟨S500000, .i32⟩
  | 27 => ⟨S_, .i32⟩
  | 28 => ⟨S500000, .i32⟩
  | 29 => ⟨S500000, .i1⟩
  | 30 => ⟨S_, .i32⟩
  | 31 => ⟨S500000, .i32⟩
  | 32 => ⟨S500000, .i32⟩
  | 33 => ⟨S500000, .i32⟩
  | 34 => ⟨S500000x1, .i32⟩
  | 35 => ⟨S500000x128, .f32⟩
  | 36 => ⟨S_, .f32⟩
  | 37 => ⟨S50000x128, .f32⟩
  | 38 => ⟨S500000x1, .i32⟩
  | 39 => ⟨S50000x128, .f32⟩
  | 40 => ⟨S_, .f32⟩
  | 41 => ⟨S500000, .f32⟩
  | 42 => ⟨S_, .f32⟩
  | 43 => ⟨S50000, .f32⟩
  | 44 => ⟨S500000x1, .i32⟩
  | 45 => ⟨S50000, .f32⟩
  | 46 => ⟨S_, .f32⟩
  | 47 => ⟨S50000, .f32⟩
  | 48 => ⟨S50000, .f32⟩
  | 49 => ⟨S50000x1, .f32⟩
  | 50 => ⟨S50000x128, .f32⟩
  | 51 => ⟨S50000x128, .f32⟩
  | 52 => ⟨S128x128, .f32⟩
  | 53 => ⟨S50000x128, .f32⟩
  | 54 => ⟨S1x128, .f32⟩
  | 55 => ⟨S50000x128, .f32⟩
  | 56 => ⟨S50000x128, .f32⟩
  | 57 => ⟨S128x128, .f32⟩
  | 58 => ⟨S50000x128, .f32⟩
  | 59 => ⟨S50000x128, .f32⟩
  | 60 => ⟨S1x128x128, .f32⟩
  | 61 => ⟨S128x128, .f32⟩
  | 62 => ⟨S1x128, .f32⟩
  | 63 => ⟨S128, .f32⟩
  | 64 => ⟨S1x128x128, .f32⟩
  | 65 => ⟨S128x128, .f32⟩
  | 66 => ⟨S1x250000, .i32⟩
  | 67 => ⟨S250000, .i32⟩
  | 68 => ⟨S1x250000, .i32⟩
  | 69 => ⟨S250000, .i32⟩
  | 70 => ⟨S_, .i32⟩
  | 71 => ⟨S250000, .i32⟩
  | 72 => ⟨S250000, .i1⟩
  | 73 => ⟨S_, .i32⟩
  | 74 => ⟨S250000, .i32⟩
  | 75 => ⟨S250000, .i32⟩
  | 76 => ⟨S250000, .i32⟩
  | 77 => ⟨S250000x1, .i32⟩
  | 78 => ⟨S250000x128, .f32⟩
  | 79 => ⟨S_, .f32⟩
  | 80 => ⟨S20000x128, .f32⟩
  | 81 => ⟨S250000x1, .i32⟩
  | 82 => ⟨S20000x128, .f32⟩
  | 83 => ⟨S_, .f32⟩
  | 84 => ⟨S250000, .f32⟩
  | 85 => ⟨S_, .f32⟩
  | 86 => ⟨S20000, .f32⟩
  | 87 => ⟨S250000x1, .i32⟩
  | 88 => ⟨S20000, .f32⟩
  | 89 => ⟨S_, .f32⟩
  | 90 => ⟨S20000, .f32⟩
  | 91 => ⟨S20000, .f32⟩
  | 92 => ⟨S20000x1, .f32⟩
  | 93 => ⟨S20000x128, .f32⟩
  | 94 => ⟨S20000x128, .f32⟩
  | 95 => ⟨S128x128, .f32⟩
  | 96 => ⟨S20000x128, .f32⟩
  | 97 => ⟨S1x128, .f32⟩
  | 98 => ⟨S20000x128, .f32⟩
  | 99 => ⟨S20000x128, .f32⟩
  | 100 => ⟨S128x128, .f32⟩
  | 101 => ⟨S20000x128, .f32⟩
  | 102 => ⟨S20000x128, .f32⟩
  | 103 => ⟨S1x128x128, .f32⟩
  | 104 => ⟨S128x128, .f32⟩
  | 105 => ⟨S1x128, .f32⟩
  | 106 => ⟨S128, .f32⟩
  | 107 => ⟨S1x128x128, .f32⟩
  | 108 => ⟨S128x128, .f32⟩
  | 109 => ⟨S1x250000, .i32⟩
  | 110 => ⟨S250000, .i32⟩
  | 111 => ⟨S1x250000, .i32⟩
  | 112 => ⟨S250000, .i32⟩
  | 113 => ⟨S_, .i32⟩
  | 114 => ⟨S250000, .i32⟩
  | 115 => ⟨S250000, .i1⟩
  | 116 => ⟨S_, .i32⟩
  | 117 => ⟨S250000, .i32⟩
  | 118 => ⟨S250000, .i32⟩
  | 119 => ⟨S250000, .i32⟩
  | 120 => ⟨S250000x1, .i32⟩
  | 121 => ⟨S250000x128, .f32⟩
  | 122 => ⟨S_, .f32⟩
  | 123 => ⟨S50000x128, .f32⟩
  | 124 => ⟨S250000x1, .i32⟩
  | 125 => ⟨S50000x128, .f32⟩
  | 126 => ⟨S_, .f32⟩
  | 127 => ⟨S250000, .f32⟩
  | _ => ⟨S50000x128, .f32⟩

abbrev hbmTy0_8 (i : Nat) : BufTy := match i % 128 with
  | 0 => ⟨S_, .f32⟩
  | 1 => ⟨S50000, .f32⟩
  | 2 => ⟨S250000x1, .i32⟩
  | 3 => ⟨S50000, .f32⟩
  | 4 => ⟨S_, .f32⟩
  | 5 => ⟨S50000, .f32⟩
  | 6 => ⟨S50000, .f32⟩
  | 7 => ⟨S50000x1, .f32⟩
  | 8 => ⟨S50000x128, .f32⟩
  | 9 => ⟨S50000x128, .f32⟩
  | 10 => ⟨S128x128, .f32⟩
  | 11 => ⟨S50000x128, .f32⟩
  | 12 => ⟨S1x128, .f32⟩
  | 13 => ⟨S50000x128, .f32⟩
  | 14 => ⟨S50000x128, .f32⟩
  | 15 => ⟨S128x128, .f32⟩
  | 16 => ⟨S50000x128, .f32⟩
  | 17 => ⟨S50000x128, .f32⟩
  | 18 => ⟨S1x128x128, .f32⟩
  | 19 => ⟨S128x128, .f32⟩
  | 20 => ⟨S1x128, .f32⟩
  | 21 => ⟨S128, .f32⟩
  | 22 => ⟨S1x128x128, .f32⟩
  | 23 => ⟨S128x128, .f32⟩
  | 24 => ⟨S1x500000, .i32⟩
  | 25 => ⟨S500000, .i32⟩
  | 26 => ⟨S1x500000, .i32⟩
  | 27 => ⟨S500000, .i32⟩
  | 28 => ⟨S_, .i32⟩
  | 29 => ⟨S500000, .i32⟩
  | 30 => ⟨S500000, .i1⟩
  | 31 => ⟨S_, .i32⟩
  | 32 => ⟨S500000, .i32⟩
  | 33 => ⟨S500000, .i32⟩
  | 34 => ⟨S500000, .i32⟩
  | 35 => ⟨S500000x1, .i32⟩
  | 36 => ⟨S500000x128, .f32⟩
  | 37 => ⟨S_, .f32⟩
  | 38 => ⟨S50000x128, .f32⟩
  | 39 => ⟨S500000x1, .i32⟩
  | 40 => ⟨S50000x128, .f32⟩
  | 41 => ⟨S_, .f32⟩
  | 42 => ⟨S500000, .f32⟩
  | 43 => ⟨S_, .f32⟩
  | 44 => ⟨S50000, .f32⟩
  | 45 => ⟨S500000x1, .i32⟩
  | 46 => ⟨S50000, .f32⟩
  | 47 => ⟨S_, .f32⟩
  | 48 => ⟨S50000, .f32⟩
  | 49 => ⟨S50000, .f32⟩
  | 50 => ⟨S50000x1, .f32⟩
  | 51 => ⟨S50000x128, .f32⟩
  | 52 => ⟨S50000x128, .f32⟩
  | 53 => ⟨S128x128, .f32⟩
  | 54 => ⟨S50000x128, .f32⟩
  | 55 => ⟨S1x128, .f32⟩
  | 56 => ⟨S50000x128, .f32⟩
  | 57 => ⟨S50000x128, .f32⟩
  | 58 => ⟨S128x128, .f32⟩
  | 59 => ⟨S50000x128, .f32⟩
  | 60 => ⟨S50000x128, .f32⟩
  | 61 => ⟨S1x128x128, .f32⟩
  | 62 => ⟨S128x128, .f32⟩
  | 63 => ⟨S1x128, .f32⟩
  | 64 => ⟨S128, .f32⟩
  | 65 => ⟨S1x128x128, .f32⟩
  | 66 => ⟨S128x128, .f32⟩
  | 67 => ⟨S1x100000, .i32⟩
  | 68 => ⟨S100000, .i32⟩
  | 69 => ⟨S1x100000, .i32⟩
  | 70 => ⟨S100000, .i32⟩
  | 71 => ⟨S_, .i32⟩
  | 72 => ⟨S100000, .i32⟩
  | 73 => ⟨S100000, .i1⟩
  | 74 => ⟨S_, .i32⟩
  | 75 => ⟨S100000, .i32⟩
  | 76 => ⟨S100000, .i32⟩
  | 77 => ⟨S100000, .i32⟩
  | 78 => ⟨S100000x1, .i32⟩
  | 79 => ⟨S100000x128, .f32⟩
  | 80 => ⟨S_, .f32⟩
  | 81 => ⟨S5000x128, .f32⟩
  | 82 => ⟨S100000x1, .i32⟩
  | 83 => ⟨S5000x128, .f32⟩
  | 84 => ⟨S_, .f32⟩
  | 85 => ⟨S100000, .f32⟩
  | 86 => ⟨S_, .f32⟩
  | 87 => ⟨S5000, .f32⟩
  | 88 => ⟨S100000x1, .i32⟩
  | 89 => ⟨S5000, .f32⟩
  | 90 => ⟨S_, .f32⟩
  | 91 => ⟨S5000, .f32⟩
  | 92 => ⟨S5000, .f32⟩
  | 93 => ⟨S5000x1, .f32⟩
  | 94 => ⟨S5000x128, .f32⟩
  | 95 => ⟨S5000x128, .f32⟩
  | 96 => ⟨S128x128, .f32⟩
  | 97 => ⟨S5000x128, .f32⟩
  | 98 => ⟨S1x128, .f32⟩
  | 99 => ⟨S5000x128, .f32⟩
  | 100 => ⟨S5000x128, .f32⟩
  | 101 => ⟨S128x128, .f32⟩
  | 102 => ⟨S5000x128, .f32⟩
  | 103 => ⟨S5000x128, .f32⟩
  | 104 => ⟨S_, .f32⟩
  | 105 => ⟨S50000x128, .f32⟩
  | 106 => ⟨S50000x128, .f32⟩
  | 107 => ⟨S50000x128, .f32⟩
  | 108 => ⟨S50000x128, .f32⟩
  | 109 => ⟨S_, .f32⟩
  | 110 => ⟨S50000x128, .f32⟩
  | 111 => ⟨S50000x128, .f32⟩
  | 112 => ⟨S_, .f32⟩
  | 113 => ⟨S20000x128, .f32⟩
  | 114 => ⟨S20000x128, .f32⟩
  | 115 => ⟨S20000x128, .f32⟩
  | 116 => ⟨S_, .f32⟩
  | 117 => ⟨S20000x128, .f32⟩
  | 118 => ⟨S20000x128, .f32⟩
  | 119 => ⟨S_, .f32⟩
  | 120 => ⟨S5000x128, .f32⟩
  | 121 => ⟨S5000x128, .f32⟩
  | 122 => ⟨S5000x128, .f32⟩
  | 123 => ⟨S5000x128, .f32⟩
  | 124 => ⟨S_, .f32⟩
  | 125 => ⟨S5000x128, .f32⟩
  | 126 => ⟨S5000x128, .f32⟩
  | 127 => ⟨S50000x128, .f32⟩
  | _ => ⟨S50000x128, .f32⟩

abbrev hbmTy0_9 (i : Nat) : BufTy := match i % 128 with
  | 0 => ⟨S_, .f32⟩
  | 1 => ⟨S50000, .f32⟩
  | 2 => ⟨S50000x1, .f32⟩
  | 3 => ⟨S50000x1, .f32⟩
  | 4 => ⟨S_, .f32⟩
  | 5 => ⟨S50000x1, .f32⟩
  | 6 => ⟨S50000x1, .f32⟩
  | 7 => ⟨S50000x128, .f32⟩
  | 8 => ⟨S50000x128, .f32⟩
  | 9 => ⟨S20000x128, .f32⟩
  | 10 => ⟨S_, .f32⟩
  | 11 => ⟨S20000, .f32⟩
  | 12 => ⟨S20000x1, .f32⟩
  | 13 => ⟨S20000x1, .f32⟩
  | 14 => ⟨S_, .f32⟩
  | 15 => ⟨S20000x1, .f32⟩
  | 16 => ⟨S20000x1, .f32⟩
  | 17 => ⟨S20000x128, .f32⟩
  | 18 => ⟨S20000x128, .f32⟩
  | 19 => ⟨S5000x128, .f32⟩
  | 20 => ⟨S_, .f32⟩
  | 21 => ⟨S5000, .f32⟩
  | 22 => ⟨S5000x1, .f32⟩
  | 23 => ⟨S5000x1, .f32⟩
  | 24 => ⟨S_, .f32⟩
  | 25 => ⟨S5000x1, .f32⟩
  | 26 => ⟨S5000x1, .f32⟩
  | 27 => ⟨S5000x128, .f32⟩
  | 28 => ⟨S5000x128, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_1 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_4 : Ref sig .tc := ⟨.hbm, 73, rfl⟩
abbrev main_v53 : Ref sig .tc := ⟨.hbm, 74, rfl⟩
abbrev main_v54 : Ref sig .tc := ⟨.hbm, 75, rfl⟩
abbrev main_c_5 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_6 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_7 : Ref sig .tc := ⟨.hbm, 86, rfl⟩
abbrev main_v63 : Ref sig .tc := ⟨.hbm, 87, rfl⟩
abbrev main_cst_8 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_9 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_c_10 : Ref sig .tc := ⟨.hbm, 116, rfl⟩
abbrev main_v90 : Ref sig .tc := ⟨.hbm, 117, rfl⟩
abbrev main_v91 : Ref sig .tc := ⟨.hbm, 118, rfl⟩
abbrev main_c_11 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_cst_12 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_13 : Ref sig .tc := ⟨.hbm, 129, rfl⟩
abbrev main_v100 : Ref sig .tc := ⟨.hbm, 130, rfl⟩
abbrev main_cst_14 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_15 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_c_16 : Ref sig .tc := ⟨.hbm, 159, rfl⟩
abbrev main_v127 : Ref sig .tc := ⟨.hbm, 160, rfl⟩
abbrev main_v128 : Ref sig .tc := ⟨.hbm, 161, rfl⟩
abbrev main_c_17 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_cst_18 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_cst_19 : Ref sig .tc := ⟨.hbm, 172, rfl⟩
abbrev main_v137 : Ref sig .tc := ⟨.hbm, 173, rfl⟩
abbrev main_cst_20 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_cst_21 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_c_22 : Ref sig .tc := ⟨.hbm, 202, rfl⟩
abbrev main_v164 : Ref sig .tc := ⟨.hbm, 203, rfl⟩
abbrev main_v165 : Ref sig .tc := ⟨.hbm, 204, rfl⟩
abbrev main_c_23 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_cst_24 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_cst_25 : Ref sig .tc := ⟨.hbm, 215, rfl⟩
abbrev main_v174 : Ref sig .tc := ⟨.hbm, 216, rfl⟩
abbrev main_cst_26 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_cst_27 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_c_28 : Ref sig .tc := ⟨.hbm, 245, rfl⟩
abbrev main_v201 : Ref sig .tc := ⟨.hbm, 246, rfl⟩
abbrev main_v202 : Ref sig .tc := ⟨.hbm, 247, rfl⟩
abbrev main_c_29 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_cst_30 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩
abbrev main_cst_31 : Ref sig .tc := ⟨.hbm, 258, rfl⟩
abbrev main_v211 : Ref sig .tc := ⟨.hbm, 259, rfl⟩
abbrev main_cst_32 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_cst_33 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_v220 : Ref sig .tc := ⟨.hbm, 270, rfl⟩
abbrev main_v221 : Ref sig .tc := ⟨.hbm, 271, rfl⟩
abbrev main_v222 : Ref sig .tc := ⟨.hbm, 272, rfl⟩
abbrev main_v223 : Ref sig .tc := ⟨.hbm, 273, rfl⟩
abbrev main_v224 : Ref sig .tc := ⟨.hbm, 274, rfl⟩
abbrev main_v225 : Ref sig .tc := ⟨.hbm, 275, rfl⟩
abbrev main_v226 : Ref sig .tc := ⟨.hbm, 276, rfl⟩
abbrev main_v227 : Ref sig .tc := ⟨.hbm, 277, rfl⟩
abbrev main_v228 : Ref sig .tc := ⟨.hbm, 278, rfl⟩
abbrev main_v229 : Ref sig .tc := ⟨.hbm, 279, rfl⟩
abbrev main_v230 : Ref sig .tc := ⟨.hbm, 280, rfl⟩
abbrev main_v231 : Ref sig .tc := ⟨.hbm, 281, rfl⟩
abbrev main_v232 : Ref sig .tc := ⟨.hbm, 282, rfl⟩
abbrev main_v233 : Ref sig .tc := ⟨.hbm, 283, rfl⟩
abbrev main_v234 : Ref sig .tc := ⟨.hbm, 284, rfl⟩
abbrev main_v235 : Ref sig .tc := ⟨.hbm, 285, rfl⟩
abbrev main_v236 : Ref sig .tc := ⟨.hbm, 286, rfl⟩
abbrev main_v237 : Ref sig .tc := ⟨.hbm, 287, rfl⟩
abbrev main_c_34 : Ref sig .tc := ⟨.hbm, 288, rfl⟩
abbrev main_v238 : Ref sig .tc := ⟨.hbm, 289, rfl⟩
abbrev main_v239 : Ref sig .tc := ⟨.hbm, 290, rfl⟩
abbrev main_c_35 : Ref sig .tc := ⟨.hbm, 291, rfl⟩
abbrev main_v240 : Ref sig .tc := ⟨.hbm, 292, rfl⟩
abbrev main_v241 : Ref sig .tc := ⟨.hbm, 293, rfl⟩
abbrev main_v242 : Ref sig .tc := ⟨.hbm, 294, rfl⟩
abbrev main_v243 : Ref sig .tc := ⟨.hbm, 295, rfl⟩
abbrev main_v244 : Ref sig .tc := ⟨.hbm, 296, rfl⟩
abbrev main_cst_36 : Ref sig .tc := ⟨.hbm, 297, rfl⟩
abbrev main_v245 : Ref sig .tc := ⟨.hbm, 298, rfl⟩
abbrev main_v246 : Ref sig .tc := ⟨.hbm, 299, rfl⟩
abbrev main_v247 : Ref sig .tc := ⟨.hbm, 300, rfl⟩
abbrev main_cst_37 : Ref sig .tc := ⟨.hbm, 301, rfl⟩
abbrev main_v248 : Ref sig .tc := ⟨.hbm, 302, rfl⟩
abbrev main_cst_38 : Ref sig .tc := ⟨.hbm, 303, rfl⟩
abbrev main_v249 : Ref sig .tc := ⟨.hbm, 304, rfl⟩
abbrev main_v250 : Ref sig .tc := ⟨.hbm, 305, rfl⟩
abbrev main_v251 : Ref sig .tc := ⟨.hbm, 306, rfl⟩
abbrev main_cst_39 : Ref sig .tc := ⟨.hbm, 307, rfl⟩
abbrev main_v252 : Ref sig .tc := ⟨.hbm, 308, rfl⟩
abbrev main_v253 : Ref sig .tc := ⟨.hbm, 309, rfl⟩
abbrev main_v254 : Ref sig .tc := ⟨.hbm, 310, rfl⟩
abbrev main_v255 : Ref sig .tc := ⟨.hbm, 311, rfl⟩
abbrev main_v256 : Ref sig .tc := ⟨.hbm, 312, rfl⟩
abbrev main_v257 : Ref sig .tc := ⟨.hbm, 313, rfl⟩
abbrev main_v258 : Ref sig .tc := ⟨.hbm, 314, rfl⟩
abbrev main_v259 : Ref sig .tc := ⟨.hbm, 315, rfl⟩
abbrev main_v260 : Ref sig .tc := ⟨.hbm, 316, rfl⟩
abbrev main_v261 : Ref sig .tc := ⟨.hbm, 317, rfl⟩
abbrev main_v262 : Ref sig .tc := ⟨.hbm, 318, rfl⟩
abbrev main_v263 : Ref sig .tc := ⟨.hbm, 319, rfl⟩
abbrev main_v264 : Ref sig .tc := ⟨.hbm, 320, rfl⟩
abbrev main_v265 : Ref sig .tc := ⟨.hbm, 321, rfl⟩
abbrev main_v266 : Ref sig .tc := ⟨.hbm, 322, rfl⟩
abbrev main_v267 : Ref sig .tc := ⟨.hbm, 323, rfl⟩
abbrev main_v268 : Ref sig .tc := ⟨.hbm, 324, rfl⟩
abbrev main_v269 : Ref sig .tc := ⟨.hbm, 325, rfl⟩
abbrev main_v270 : Ref sig .tc := ⟨.hbm, 326, rfl⟩
abbrev main_v271 : Ref sig .tc := ⟨.hbm, 327, rfl⟩
abbrev main_v272 : Ref sig .tc := ⟨.hbm, 328, rfl⟩
abbrev main_v273 : Ref sig .tc := ⟨.hbm, 329, rfl⟩
abbrev main_v274 : Ref sig .tc := ⟨.hbm, 330, rfl⟩
abbrev main_c_40 : Ref sig .tc := ⟨.hbm, 331, rfl⟩
abbrev main_v275 : Ref sig .tc := ⟨.hbm, 332, rfl⟩
abbrev main_v276 : Ref sig .tc := ⟨.hbm, 333, rfl⟩
abbrev main_c_41 : Ref sig .tc := ⟨.hbm, 334, rfl⟩
abbrev main_v277 : Ref sig .tc := ⟨.hbm, 335, rfl⟩
abbrev main_v278 : Ref sig .tc := ⟨.hbm, 336, rfl⟩
abbrev main_v279 : Ref sig .tc := ⟨.hbm, 337, rfl⟩
abbrev main_v280 : Ref sig .tc := ⟨.hbm, 338, rfl⟩
abbrev main_v281 : Ref sig .tc := ⟨.hbm, 339, rfl⟩
abbrev main_cst_42 : Ref sig .tc := ⟨.hbm, 340, rfl⟩
abbrev main_v282 : Ref sig .tc := ⟨.hbm, 341, rfl⟩
abbrev main_v283 : Ref sig .tc := ⟨.hbm, 342, rfl⟩
abbrev main_v284 : Ref sig .tc := ⟨.hbm, 343, rfl⟩
abbrev main_cst_43 : Ref sig .tc := ⟨.hbm, 344, rfl⟩
abbrev main_v285 : Ref sig .tc := ⟨.hbm, 345, rfl⟩
abbrev main_cst_44 : Ref sig .tc := ⟨.hbm, 346, rfl⟩
abbrev main_v286 : Ref sig .tc := ⟨.hbm, 347, rfl⟩
abbrev main_v287 : Ref sig .tc := ⟨.hbm, 348, rfl⟩
abbrev main_v288 : Ref sig .tc := ⟨.hbm, 349, rfl⟩
abbrev main_cst_45 : Ref sig .tc := ⟨.hbm, 350, rfl⟩
abbrev main_v289 : Ref sig .tc := ⟨.hbm, 351, rfl⟩
abbrev main_v290 : Ref sig .tc := ⟨.hbm, 352, rfl⟩
abbrev main_v291 : Ref sig .tc := ⟨.hbm, 353, rfl⟩
abbrev main_v292 : Ref sig .tc := ⟨.hbm, 354, rfl⟩
abbrev main_v293 : Ref sig .tc := ⟨.hbm, 355, rfl⟩
abbrev main_v294 : Ref sig .tc := ⟨.hbm, 356, rfl⟩
abbrev main_v295 : Ref sig .tc := ⟨.hbm, 357, rfl⟩
abbrev main_v296 : Ref sig .tc := ⟨.hbm, 358, rfl⟩
abbrev main_v297 : Ref sig .tc := ⟨.hbm, 359, rfl⟩
abbrev main_v298 : Ref sig .tc := ⟨.hbm, 360, rfl⟩
abbrev main_v299 : Ref sig .tc := ⟨.hbm, 361, rfl⟩
abbrev main_v300 : Ref sig .tc := ⟨.hbm, 362, rfl⟩
abbrev main_v301 : Ref sig .tc := ⟨.hbm, 363, rfl⟩
abbrev main_cst_46 : Ref sig .tc := ⟨.hbm, 364, rfl⟩
abbrev main_v302 : Ref sig .tc := ⟨.hbm, 365, rfl⟩
abbrev main_v303 : Ref sig .tc := ⟨.hbm, 366, rfl⟩
abbrev main_v304 : Ref sig .tc := ⟨.hbm, 367, rfl⟩
abbrev main_v305 : Ref sig .tc := ⟨.hbm, 368, rfl⟩
abbrev main_cst_47 : Ref sig .tc := ⟨.hbm, 369, rfl⟩
abbrev main_v306 : Ref sig .tc := ⟨.hbm, 370, rfl⟩
abbrev main_v307 : Ref sig .tc := ⟨.hbm, 371, rfl⟩
abbrev main_cst_48 : Ref sig .tc := ⟨.hbm, 372, rfl⟩
abbrev main_v308 : Ref sig .tc := ⟨.hbm, 373, rfl⟩
abbrev main_v309 : Ref sig .tc := ⟨.hbm, 374, rfl⟩
abbrev main_v310 : Ref sig .tc := ⟨.hbm, 375, rfl⟩
abbrev main_cst_49 : Ref sig .tc := ⟨.hbm, 376, rfl⟩
abbrev main_v311 : Ref sig .tc := ⟨.hbm, 377, rfl⟩
abbrev main_v312 : Ref sig .tc := ⟨.hbm, 378, rfl⟩
abbrev main_cst_50 : Ref sig .tc := ⟨.hbm, 379, rfl⟩
abbrev main_v313 : Ref sig .tc := ⟨.hbm, 380, rfl⟩
abbrev main_v314 : Ref sig .tc := ⟨.hbm, 381, rfl⟩
abbrev main_v315 : Ref sig .tc := ⟨.hbm, 382, rfl⟩
abbrev main_v316 : Ref sig .tc := ⟨.hbm, 383, rfl⟩
abbrev main_cst_51 : Ref sig .tc := ⟨.hbm, 384, rfl⟩
abbrev main_v317 : Ref sig .tc := ⟨.hbm, 385, rfl⟩
abbrev main_v318 : Ref sig .tc := ⟨.hbm, 386, rfl⟩
abbrev main_call0_cst : Ref sig .tc := ⟨.hbm, 387, rfl⟩
abbrev main_call0_v0 : Ref sig .tc := ⟨.hbm, 388, rfl⟩
abbrev main_v319 : Ref sig .tc := ⟨.hbm, 389, rfl⟩
abbrev main_call1_cst : Ref sig .tc := ⟨.hbm, 390, rfl⟩
abbrev main_call1_v0 : Ref sig .tc := ⟨.hbm, 391, rfl⟩
abbrev main_v320 : Ref sig .tc := ⟨.hbm, 392, rfl⟩
abbrev main_call2_cst : Ref sig .tc := ⟨.hbm, 393, rfl⟩
abbrev main_call2_v0 : Ref sig .tc := ⟨.hbm, 394, rfl⟩
abbrev main_v321 : Ref sig .tc := ⟨.hbm, 395, rfl⟩
abbrev main_v322 : Ref sig .tc := ⟨.hbm, 396, rfl⟩
abbrev main_v323 : Ref sig .tc := ⟨.hbm, 397, rfl⟩
abbrev main_v324 : Ref sig .tc := ⟨.hbm, 398, rfl⟩
abbrev main_v325 : Ref sig .tc := ⟨.hbm, 399, rfl⟩
abbrev main_v326 : Ref sig .tc := ⟨.hbm, 400, rfl⟩
abbrev main_v327 : Ref sig .tc := ⟨.hbm, 401, rfl⟩
abbrev main_v328 : Ref sig .tc := ⟨.hbm, 402, rfl⟩
abbrev main_v329 : Ref sig .tc := ⟨.hbm, 403, rfl⟩
abbrev main_v330 : Ref sig .tc := ⟨.hbm, 404, rfl⟩
abbrev main_v331 : Ref sig .tc := ⟨.hbm, 405, rfl⟩
abbrev main_v332 : Ref sig .tc := ⟨.hbm, 406, rfl⟩
abbrev main_v333 : Ref sig .tc := ⟨.hbm, 407, rfl⟩
abbrev main_v334 : Ref sig .tc := ⟨.hbm, 408, rfl⟩
abbrev main_v335 : Ref sig .tc := ⟨.hbm, 409, rfl⟩
abbrev main_v336 : Ref sig .tc := ⟨.hbm, 410, rfl⟩
abbrev main_v337 : Ref sig .tc := ⟨.hbm, 411, rfl⟩
abbrev main_c_52 : Ref sig .tc := ⟨.hbm, 412, rfl⟩
abbrev main_v338 : Ref sig .tc := ⟨.hbm, 413, rfl⟩
abbrev main_v339 : Ref sig .tc := ⟨.hbm, 414, rfl⟩
abbrev main_c_53 : Ref sig .tc := ⟨.hbm, 415, rfl⟩
abbrev main_v340 : Ref sig .tc := ⟨.hbm, 416, rfl⟩
abbrev main_v341 : Ref sig .tc := ⟨.hbm, 417, rfl⟩
abbrev main_v342 : Ref sig .tc := ⟨.hbm, 418, rfl⟩
abbrev main_v343 : Ref sig .tc := ⟨.hbm, 419, rfl⟩
abbrev main_v344 : Ref sig .tc := ⟨.hbm, 420, rfl⟩
abbrev main_cst_54 : Ref sig .tc := ⟨.hbm, 421, rfl⟩
abbrev main_v345 : Ref sig .tc := ⟨.hbm, 422, rfl⟩
abbrev main_v346 : Ref sig .tc := ⟨.hbm, 423, rfl⟩
abbrev main_v347 : Ref sig .tc := ⟨.hbm, 424, rfl⟩
abbrev main_cst_55 : Ref sig .tc := ⟨.hbm, 425, rfl⟩
abbrev main_v348 : Ref sig .tc := ⟨.hbm, 426, rfl⟩
abbrev main_cst_56 : Ref sig .tc := ⟨.hbm, 427, rfl⟩
abbrev main_v349 : Ref sig .tc := ⟨.hbm, 428, rfl⟩
abbrev main_v350 : Ref sig .tc := ⟨.hbm, 429, rfl⟩
abbrev main_v351 : Ref sig .tc := ⟨.hbm, 430, rfl⟩
abbrev main_cst_57 : Ref sig .tc := ⟨.hbm, 431, rfl⟩
abbrev main_v352 : Ref sig .tc := ⟨.hbm, 432, rfl⟩
abbrev main_v353 : Ref sig .tc := ⟨.hbm, 433, rfl⟩
abbrev main_v354 : Ref sig .tc := ⟨.hbm, 434, rfl⟩
abbrev main_v355 : Ref sig .tc := ⟨.hbm, 435, rfl⟩
abbrev main_v356 : Ref sig .tc := ⟨.hbm, 436, rfl⟩
abbrev main_v357 : Ref sig .tc := ⟨.hbm, 437, rfl⟩
abbrev main_v358 : Ref sig .tc := ⟨.hbm, 438, rfl⟩
abbrev main_v359 : Ref sig .tc := ⟨.hbm, 439, rfl⟩
abbrev main_v360 : Ref sig .tc := ⟨.hbm, 440, rfl⟩
abbrev main_v361 : Ref sig .tc := ⟨.hbm, 441, rfl⟩
abbrev main_v362 : Ref sig .tc := ⟨.hbm, 442, rfl⟩
abbrev main_v363 : Ref sig .tc := ⟨.hbm, 443, rfl⟩
abbrev main_v364 : Ref sig .tc := ⟨.hbm, 444, rfl⟩
abbrev main_v365 : Ref sig .tc := ⟨.hbm, 445, rfl⟩
abbrev main_v366 : Ref sig .tc := ⟨.hbm, 446, rfl⟩
abbrev main_v367 : Ref sig .tc := ⟨.hbm, 447, rfl⟩
abbrev main_v368 : Ref sig .tc := ⟨.hbm, 448, rfl⟩
abbrev main_v369 : Ref sig .tc := ⟨.hbm, 449, rfl⟩
abbrev main_v370 : Ref sig .tc := ⟨.hbm, 450, rfl⟩
abbrev main_v371 : Ref sig .tc := ⟨.hbm, 451, rfl⟩
abbrev main_v372 : Ref sig .tc := ⟨.hbm, 452, rfl⟩
abbrev main_v373 : Ref sig .tc := ⟨.hbm, 453, rfl⟩
abbrev main_v374 : Ref sig .tc := ⟨.hbm, 454, rfl⟩
abbrev main_c_58 : Ref sig .tc := ⟨.hbm, 455, rfl⟩
abbrev main_v375 : Ref sig .tc := ⟨.hbm, 456, rfl⟩
abbrev main_v376 : Ref sig .tc := ⟨.hbm, 457, rfl⟩
abbrev main_c_59 : Ref sig .tc := ⟨.hbm, 458, rfl⟩
abbrev main_v377 : Ref sig .tc := ⟨.hbm, 459, rfl⟩
abbrev main_v378 : Ref sig .tc := ⟨.hbm, 460, rfl⟩
abbrev main_v379 : Ref sig .tc := ⟨.hbm, 461, rfl⟩
abbrev main_v380 : Ref sig .tc := ⟨.hbm, 462, rfl⟩
abbrev main_v381 : Ref sig .tc := ⟨.hbm, 463, rfl⟩
abbrev main_cst_60 : Ref sig .tc := ⟨.hbm, 464, rfl⟩
abbrev main_v382 : Ref sig .tc := ⟨.hbm, 465, rfl⟩
abbrev main_v383 : Ref sig .tc := ⟨.hbm, 466, rfl⟩
abbrev main_v384 : Ref sig .tc := ⟨.hbm, 467, rfl⟩
abbrev main_cst_61 : Ref sig .tc := ⟨.hbm, 468, rfl⟩
abbrev main_v385 : Ref sig .tc := ⟨.hbm, 469, rfl⟩
abbrev main_cst_62 : Ref sig .tc := ⟨.hbm, 470, rfl⟩
abbrev main_v386 : Ref sig .tc := ⟨.hbm, 471, rfl⟩
abbrev main_v387 : Ref sig .tc := ⟨.hbm, 472, rfl⟩
abbrev main_v388 : Ref sig .tc := ⟨.hbm, 473, rfl⟩
abbrev main_cst_63 : Ref sig .tc := ⟨.hbm, 474, rfl⟩
abbrev main_v389 : Ref sig .tc := ⟨.hbm, 475, rfl⟩
abbrev main_v390 : Ref sig .tc := ⟨.hbm, 476, rfl⟩
abbrev main_v391 : Ref sig .tc := ⟨.hbm, 477, rfl⟩
abbrev main_v392 : Ref sig .tc := ⟨.hbm, 478, rfl⟩
abbrev main_v393 : Ref sig .tc := ⟨.hbm, 479, rfl⟩
abbrev main_v394 : Ref sig .tc := ⟨.hbm, 480, rfl⟩
abbrev main_v395 : Ref sig .tc := ⟨.hbm, 481, rfl⟩
abbrev main_v396 : Ref sig .tc := ⟨.hbm, 482, rfl⟩
abbrev main_v397 : Ref sig .tc := ⟨.hbm, 483, rfl⟩
abbrev main_v398 : Ref sig .tc := ⟨.hbm, 484, rfl⟩
abbrev main_v399 : Ref sig .tc := ⟨.hbm, 485, rfl⟩
abbrev main_v400 : Ref sig .tc := ⟨.hbm, 486, rfl⟩
abbrev main_v401 : Ref sig .tc := ⟨.hbm, 487, rfl⟩
abbrev main_v402 : Ref sig .tc := ⟨.hbm, 488, rfl⟩
abbrev main_v403 : Ref sig .tc := ⟨.hbm, 489, rfl⟩
abbrev main_v404 : Ref sig .tc := ⟨.hbm, 490, rfl⟩
abbrev main_v405 : Ref sig .tc := ⟨.hbm, 491, rfl⟩
abbrev main_v406 : Ref sig .tc := ⟨.hbm, 492, rfl⟩
abbrev main_v407 : Ref sig .tc := ⟨.hbm, 493, rfl⟩
abbrev main_v408 : Ref sig .tc := ⟨.hbm, 494, rfl⟩
abbrev main_v409 : Ref sig .tc := ⟨.hbm, 495, rfl⟩
abbrev main_v410 : Ref sig .tc := ⟨.hbm, 496, rfl⟩
abbrev main_v411 : Ref sig .tc := ⟨.hbm, 497, rfl⟩
abbrev main_c_64 : Ref sig .tc := ⟨.hbm, 498, rfl⟩
abbrev main_v412 : Ref sig .tc := ⟨.hbm, 499, rfl⟩
abbrev main_v413 : Ref sig .tc := ⟨.hbm, 500, rfl⟩
abbrev main_c_65 : Ref sig .tc := ⟨.hbm, 501, rfl⟩
abbrev main_v414 : Ref sig .tc := ⟨.hbm, 502, rfl⟩
abbrev main_v415 : Ref sig .tc := ⟨.hbm, 503, rfl⟩
abbrev main_v416 : Ref sig .tc := ⟨.hbm, 504, rfl⟩
abbrev main_v417 : Ref sig .tc := ⟨.hbm, 505, rfl⟩
abbrev main_v418 : Ref sig .tc := ⟨.hbm, 506, rfl⟩
abbrev main_cst_66 : Ref sig .tc := ⟨.hbm, 507, rfl⟩
abbrev main_v419 : Ref sig .tc := ⟨.hbm, 508, rfl⟩
abbrev main_v420 : Ref sig .tc := ⟨.hbm, 509, rfl⟩
abbrev main_v421 : Ref sig .tc := ⟨.hbm, 510, rfl⟩
abbrev main_cst_67 : Ref sig .tc := ⟨.hbm, 511, rfl⟩
abbrev main_v422 : Ref sig .tc := ⟨.hbm, 512, rfl⟩
abbrev main_cst_68 : Ref sig .tc := ⟨.hbm, 513, rfl⟩
abbrev main_v423 : Ref sig .tc := ⟨.hbm, 514, rfl⟩
abbrev main_v424 : Ref sig .tc := ⟨.hbm, 515, rfl⟩
abbrev main_v425 : Ref sig .tc := ⟨.hbm, 516, rfl⟩
abbrev main_cst_69 : Ref sig .tc := ⟨.hbm, 517, rfl⟩
abbrev main_v426 : Ref sig .tc := ⟨.hbm, 518, rfl⟩
abbrev main_v427 : Ref sig .tc := ⟨.hbm, 519, rfl⟩
abbrev main_v428 : Ref sig .tc := ⟨.hbm, 520, rfl⟩
abbrev main_v429 : Ref sig .tc := ⟨.hbm, 521, rfl⟩
abbrev main_v430 : Ref sig .tc := ⟨.hbm, 522, rfl⟩
abbrev main_v431 : Ref sig .tc := ⟨.hbm, 523, rfl⟩
abbrev main_v432 : Ref sig .tc := ⟨.hbm, 524, rfl⟩
abbrev main_v433 : Ref sig .tc := ⟨.hbm, 525, rfl⟩
abbrev main_v434 : Ref sig .tc := ⟨.hbm, 526, rfl⟩
abbrev main_v435 : Ref sig .tc := ⟨.hbm, 527, rfl⟩
abbrev main_v436 : Ref sig .tc := ⟨.hbm, 528, rfl⟩
abbrev main_v437 : Ref sig .tc := ⟨.hbm, 529, rfl⟩
abbrev main_v438 : Ref sig .tc := ⟨.hbm, 530, rfl⟩
abbrev main_v439 : Ref sig .tc := ⟨.hbm, 531, rfl⟩
abbrev main_v440 : Ref sig .tc := ⟨.hbm, 532, rfl⟩
abbrev main_v441 : Ref sig .tc := ⟨.hbm, 533, rfl⟩
abbrev main_v442 : Ref sig .tc := ⟨.hbm, 534, rfl⟩
abbrev main_v443 : Ref sig .tc := ⟨.hbm, 535, rfl⟩
abbrev main_v444 : Ref sig .tc := ⟨.hbm, 536, rfl⟩
abbrev main_v445 : Ref sig .tc := ⟨.hbm, 537, rfl⟩
abbrev main_v446 : Ref sig .tc := ⟨.hbm, 538, rfl⟩
abbrev main_v447 : Ref sig .tc := ⟨.hbm, 539, rfl⟩
abbrev main_v448 : Ref sig .tc := ⟨.hbm, 540, rfl⟩
abbrev main_c_70 : Ref sig .tc := ⟨.hbm, 541, rfl⟩
abbrev main_v449 : Ref sig .tc := ⟨.hbm, 542, rfl⟩
abbrev main_v450 : Ref sig .tc := ⟨.hbm, 543, rfl⟩
abbrev main_c_71 : Ref sig .tc := ⟨.hbm, 544, rfl⟩
abbrev main_v451 : Ref sig .tc := ⟨.hbm, 545, rfl⟩
abbrev main_v452 : Ref sig .tc := ⟨.hbm, 546, rfl⟩
abbrev main_v453 : Ref sig .tc := ⟨.hbm, 547, rfl⟩
abbrev main_v454 : Ref sig .tc := ⟨.hbm, 548, rfl⟩
abbrev main_v455 : Ref sig .tc := ⟨.hbm, 549, rfl⟩
abbrev main_cst_72 : Ref sig .tc := ⟨.hbm, 550, rfl⟩
abbrev main_v456 : Ref sig .tc := ⟨.hbm, 551, rfl⟩
abbrev main_v457 : Ref sig .tc := ⟨.hbm, 552, rfl⟩
abbrev main_v458 : Ref sig .tc := ⟨.hbm, 553, rfl⟩
abbrev main_cst_73 : Ref sig .tc := ⟨.hbm, 554, rfl⟩
abbrev main_v459 : Ref sig .tc := ⟨.hbm, 555, rfl⟩
abbrev main_cst_74 : Ref sig .tc := ⟨.hbm, 556, rfl⟩
abbrev main_v460 : Ref sig .tc := ⟨.hbm, 557, rfl⟩
abbrev main_v461 : Ref sig .tc := ⟨.hbm, 558, rfl⟩
abbrev main_v462 : Ref sig .tc := ⟨.hbm, 559, rfl⟩
abbrev main_cst_75 : Ref sig .tc := ⟨.hbm, 560, rfl⟩
abbrev main_v463 : Ref sig .tc := ⟨.hbm, 561, rfl⟩
abbrev main_v464 : Ref sig .tc := ⟨.hbm, 562, rfl⟩
abbrev main_v465 : Ref sig .tc := ⟨.hbm, 563, rfl⟩
abbrev main_v466 : Ref sig .tc := ⟨.hbm, 564, rfl⟩
abbrev main_v467 : Ref sig .tc := ⟨.hbm, 565, rfl⟩
abbrev main_v468 : Ref sig .tc := ⟨.hbm, 566, rfl⟩
abbrev main_v469 : Ref sig .tc := ⟨.hbm, 567, rfl⟩
abbrev main_v470 : Ref sig .tc := ⟨.hbm, 568, rfl⟩
abbrev main_v471 : Ref sig .tc := ⟨.hbm, 569, rfl⟩
abbrev main_v472 : Ref sig .tc := ⟨.hbm, 570, rfl⟩
abbrev main_v473 : Ref sig .tc := ⟨.hbm, 571, rfl⟩
abbrev main_v474 : Ref sig .tc := ⟨.hbm, 572, rfl⟩
abbrev main_v475 : Ref sig .tc := ⟨.hbm, 573, rfl⟩
abbrev main_v476 : Ref sig .tc := ⟨.hbm, 574, rfl⟩
abbrev main_v477 : Ref sig .tc := ⟨.hbm, 575, rfl⟩
abbrev main_v478 : Ref sig .tc := ⟨.hbm, 576, rfl⟩
abbrev main_v479 : Ref sig .tc := ⟨.hbm, 577, rfl⟩
abbrev main_v480 : Ref sig .tc := ⟨.hbm, 578, rfl⟩
abbrev main_v481 : Ref sig .tc := ⟨.hbm, 579, rfl⟩
abbrev main_v482 : Ref sig .tc := ⟨.hbm, 580, rfl⟩
abbrev main_v483 : Ref sig .tc := ⟨.hbm, 581, rfl⟩
abbrev main_v484 : Ref sig .tc := ⟨.hbm, 582, rfl⟩
abbrev main_v485 : Ref sig .tc := ⟨.hbm, 583, rfl⟩
abbrev main_c_76 : Ref sig .tc := ⟨.hbm, 584, rfl⟩
abbrev main_v486 : Ref sig .tc := ⟨.hbm, 585, rfl⟩
abbrev main_v487 : Ref sig .tc := ⟨.hbm, 586, rfl⟩
abbrev main_c_77 : Ref sig .tc := ⟨.hbm, 587, rfl⟩
abbrev main_v488 : Ref sig .tc := ⟨.hbm, 588, rfl⟩
abbrev main_v489 : Ref sig .tc := ⟨.hbm, 589, rfl⟩
abbrev main_v490 : Ref sig .tc := ⟨.hbm, 590, rfl⟩
abbrev main_v491 : Ref sig .tc := ⟨.hbm, 591, rfl⟩
abbrev main_v492 : Ref sig .tc := ⟨.hbm, 592, rfl⟩
abbrev main_cst_78 : Ref sig .tc := ⟨.hbm, 593, rfl⟩
abbrev main_v493 : Ref sig .tc := ⟨.hbm, 594, rfl⟩
abbrev main_v494 : Ref sig .tc := ⟨.hbm, 595, rfl⟩
abbrev main_v495 : Ref sig .tc := ⟨.hbm, 596, rfl⟩
abbrev main_cst_79 : Ref sig .tc := ⟨.hbm, 597, rfl⟩
abbrev main_v496 : Ref sig .tc := ⟨.hbm, 598, rfl⟩
abbrev main_cst_80 : Ref sig .tc := ⟨.hbm, 599, rfl⟩
abbrev main_v497 : Ref sig .tc := ⟨.hbm, 600, rfl⟩
abbrev main_v498 : Ref sig .tc := ⟨.hbm, 601, rfl⟩
abbrev main_v499 : Ref sig .tc := ⟨.hbm, 602, rfl⟩
abbrev main_cst_81 : Ref sig .tc := ⟨.hbm, 603, rfl⟩
abbrev main_v500 : Ref sig .tc := ⟨.hbm, 604, rfl⟩
abbrev main_v501 : Ref sig .tc := ⟨.hbm, 605, rfl⟩
abbrev main_v502 : Ref sig .tc := ⟨.hbm, 606, rfl⟩
abbrev main_v503 : Ref sig .tc := ⟨.hbm, 607, rfl⟩
abbrev main_v504 : Ref sig .tc := ⟨.hbm, 608, rfl⟩
abbrev main_v505 : Ref sig .tc := ⟨.hbm, 609, rfl⟩
abbrev main_v506 : Ref sig .tc := ⟨.hbm, 610, rfl⟩
abbrev main_v507 : Ref sig .tc := ⟨.hbm, 611, rfl⟩
abbrev main_v508 : Ref sig .tc := ⟨.hbm, 612, rfl⟩
abbrev main_v509 : Ref sig .tc := ⟨.hbm, 613, rfl⟩
abbrev main_v510 : Ref sig .tc := ⟨.hbm, 614, rfl⟩
abbrev main_v511 : Ref sig .tc := ⟨.hbm, 615, rfl⟩
abbrev main_v512 : Ref sig .tc := ⟨.hbm, 616, rfl⟩
abbrev main_v513 : Ref sig .tc := ⟨.hbm, 617, rfl⟩
abbrev main_v514 : Ref sig .tc := ⟨.hbm, 618, rfl⟩
abbrev main_v515 : Ref sig .tc := ⟨.hbm, 619, rfl⟩
abbrev main_v516 : Ref sig .tc := ⟨.hbm, 620, rfl⟩
abbrev main_v517 : Ref sig .tc := ⟨.hbm, 621, rfl⟩
abbrev main_v518 : Ref sig .tc := ⟨.hbm, 622, rfl⟩
abbrev main_v519 : Ref sig .tc := ⟨.hbm, 623, rfl⟩
abbrev main_v520 : Ref sig .tc := ⟨.hbm, 624, rfl⟩
abbrev main_v521 : Ref sig .tc := ⟨.hbm, 625, rfl⟩
abbrev main_v522 : Ref sig .tc := ⟨.hbm, 626, rfl⟩
abbrev main_c_82 : Ref sig .tc := ⟨.hbm, 627, rfl⟩
abbrev main_v523 : Ref sig .tc := ⟨.hbm, 628, rfl⟩
abbrev main_v524 : Ref sig .tc := ⟨.hbm, 629, rfl⟩
abbrev main_c_83 : Ref sig .tc := ⟨.hbm, 630, rfl⟩
abbrev main_v525 : Ref sig .tc := ⟨.hbm, 631, rfl⟩
abbrev main_v526 : Ref sig .tc := ⟨.hbm, 632, rfl⟩
abbrev main_v527 : Ref sig .tc := ⟨.hbm, 633, rfl⟩
abbrev main_v528 : Ref sig .tc := ⟨.hbm, 634, rfl⟩
abbrev main_v529 : Ref sig .tc := ⟨.hbm, 635, rfl⟩
abbrev main_cst_84 : Ref sig .tc := ⟨.hbm, 636, rfl⟩
abbrev main_v530 : Ref sig .tc := ⟨.hbm, 637, rfl⟩
abbrev main_v531 : Ref sig .tc := ⟨.hbm, 638, rfl⟩
abbrev main_v532 : Ref sig .tc := ⟨.hbm, 639, rfl⟩
abbrev main_cst_85 : Ref sig .tc := ⟨.hbm, 640, rfl⟩
abbrev main_v533 : Ref sig .tc := ⟨.hbm, 641, rfl⟩
abbrev main_cst_86 : Ref sig .tc := ⟨.hbm, 642, rfl⟩
abbrev main_v534 : Ref sig .tc := ⟨.hbm, 643, rfl⟩
abbrev main_v535 : Ref sig .tc := ⟨.hbm, 644, rfl⟩
abbrev main_v536 : Ref sig .tc := ⟨.hbm, 645, rfl⟩
abbrev main_cst_87 : Ref sig .tc := ⟨.hbm, 646, rfl⟩
abbrev main_v537 : Ref sig .tc := ⟨.hbm, 647, rfl⟩
abbrev main_v538 : Ref sig .tc := ⟨.hbm, 648, rfl⟩
abbrev main_v539 : Ref sig .tc := ⟨.hbm, 649, rfl⟩
abbrev main_v540 : Ref sig .tc := ⟨.hbm, 650, rfl⟩
abbrev main_v541 : Ref sig .tc := ⟨.hbm, 651, rfl⟩
abbrev main_v542 : Ref sig .tc := ⟨.hbm, 652, rfl⟩
abbrev main_v543 : Ref sig .tc := ⟨.hbm, 653, rfl⟩
abbrev main_v544 : Ref sig .tc := ⟨.hbm, 654, rfl⟩
abbrev main_v545 : Ref sig .tc := ⟨.hbm, 655, rfl⟩
abbrev main_v546 : Ref sig .tc := ⟨.hbm, 656, rfl⟩
abbrev main_v547 : Ref sig .tc := ⟨.hbm, 657, rfl⟩
abbrev main_v548 : Ref sig .tc := ⟨.hbm, 658, rfl⟩
abbrev main_v549 : Ref sig .tc := ⟨.hbm, 659, rfl⟩
abbrev main_v550 : Ref sig .tc := ⟨.hbm, 660, rfl⟩
abbrev main_v551 : Ref sig .tc := ⟨.hbm, 661, rfl⟩
abbrev main_v552 : Ref sig .tc := ⟨.hbm, 662, rfl⟩
abbrev main_v553 : Ref sig .tc := ⟨.hbm, 663, rfl⟩
abbrev main_v554 : Ref sig .tc := ⟨.hbm, 664, rfl⟩
abbrev main_v555 : Ref sig .tc := ⟨.hbm, 665, rfl⟩
abbrev main_v556 : Ref sig .tc := ⟨.hbm, 666, rfl⟩
abbrev main_v557 : Ref sig .tc := ⟨.hbm, 667, rfl⟩
abbrev main_v558 : Ref sig .tc := ⟨.hbm, 668, rfl⟩
abbrev main_v559 : Ref sig .tc := ⟨.hbm, 669, rfl⟩
abbrev main_c_88 : Ref sig .tc := ⟨.hbm, 670, rfl⟩
abbrev main_v560 : Ref sig .tc := ⟨.hbm, 671, rfl⟩
abbrev main_v561 : Ref sig .tc := ⟨.hbm, 672, rfl⟩
abbrev main_c_89 : Ref sig .tc := ⟨.hbm, 673, rfl⟩
abbrev main_v562 : Ref sig .tc := ⟨.hbm, 674, rfl⟩
abbrev main_v563 : Ref sig .tc := ⟨.hbm, 675, rfl⟩
abbrev main_v564 : Ref sig .tc := ⟨.hbm, 676, rfl⟩
abbrev main_v565 : Ref sig .tc := ⟨.hbm, 677, rfl⟩
abbrev main_v566 : Ref sig .tc := ⟨.hbm, 678, rfl⟩
abbrev main_cst_90 : Ref sig .tc := ⟨.hbm, 679, rfl⟩
abbrev main_v567 : Ref sig .tc := ⟨.hbm, 680, rfl⟩
abbrev main_v568 : Ref sig .tc := ⟨.hbm, 681, rfl⟩
abbrev main_v569 : Ref sig .tc := ⟨.hbm, 682, rfl⟩
abbrev main_cst_91 : Ref sig .tc := ⟨.hbm, 683, rfl⟩
abbrev main_v570 : Ref sig .tc := ⟨.hbm, 684, rfl⟩
abbrev main_cst_92 : Ref sig .tc := ⟨.hbm, 685, rfl⟩
abbrev main_v571 : Ref sig .tc := ⟨.hbm, 686, rfl⟩
abbrev main_v572 : Ref sig .tc := ⟨.hbm, 687, rfl⟩
abbrev main_v573 : Ref sig .tc := ⟨.hbm, 688, rfl⟩
abbrev main_cst_93 : Ref sig .tc := ⟨.hbm, 689, rfl⟩
abbrev main_v574 : Ref sig .tc := ⟨.hbm, 690, rfl⟩
abbrev main_v575 : Ref sig .tc := ⟨.hbm, 691, rfl⟩
abbrev main_v576 : Ref sig .tc := ⟨.hbm, 692, rfl⟩
abbrev main_v577 : Ref sig .tc := ⟨.hbm, 693, rfl⟩
abbrev main_v578 : Ref sig .tc := ⟨.hbm, 694, rfl⟩
abbrev main_v579 : Ref sig .tc := ⟨.hbm, 695, rfl⟩
abbrev main_v580 : Ref sig .tc := ⟨.hbm, 696, rfl⟩
abbrev main_v581 : Ref sig .tc := ⟨.hbm, 697, rfl⟩
abbrev main_v582 : Ref sig .tc := ⟨.hbm, 698, rfl⟩
abbrev main_v583 : Ref sig .tc := ⟨.hbm, 699, rfl⟩
abbrev main_v584 : Ref sig .tc := ⟨.hbm, 700, rfl⟩
abbrev main_v585 : Ref sig .tc := ⟨.hbm, 701, rfl⟩
abbrev main_v586 : Ref sig .tc := ⟨.hbm, 702, rfl⟩
abbrev main_v587 : Ref sig .tc := ⟨.hbm, 703, rfl⟩
abbrev main_v588 : Ref sig .tc := ⟨.hbm, 704, rfl⟩
abbrev main_v589 : Ref sig .tc := ⟨.hbm, 705, rfl⟩
abbrev main_v590 : Ref sig .tc := ⟨.hbm, 706, rfl⟩
abbrev main_v591 : Ref sig .tc := ⟨.hbm, 707, rfl⟩
abbrev main_v592 : Ref sig .tc := ⟨.hbm, 708, rfl⟩
abbrev main_v593 : Ref sig .tc := ⟨.hbm, 709, rfl⟩
abbrev main_v594 : Ref sig .tc := ⟨.hbm, 710, rfl⟩
abbrev main_v595 : Ref sig .tc := ⟨.hbm, 711, rfl⟩
abbrev main_v596 : Ref sig .tc := ⟨.hbm, 712, rfl⟩
abbrev main_c_94 : Ref sig .tc := ⟨.hbm, 713, rfl⟩
abbrev main_v597 : Ref sig .tc := ⟨.hbm, 714, rfl⟩
abbrev main_v598 : Ref sig .tc := ⟨.hbm, 715, rfl⟩
abbrev main_c_95 : Ref sig .tc := ⟨.hbm, 716, rfl⟩
abbrev main_v599 : Ref sig .tc := ⟨.hbm, 717, rfl⟩
abbrev main_v600 : Ref sig .tc := ⟨.hbm, 718, rfl⟩
abbrev main_v601 : Ref sig .tc := ⟨.hbm, 719, rfl⟩
abbrev main_v602 : Ref sig .tc := ⟨.hbm, 720, rfl⟩
abbrev main_v603 : Ref sig .tc := ⟨.hbm, 721, rfl⟩
abbrev main_cst_96 : Ref sig .tc := ⟨.hbm, 722, rfl⟩
abbrev main_v604 : Ref sig .tc := ⟨.hbm, 723, rfl⟩
abbrev main_v605 : Ref sig .tc := ⟨.hbm, 724, rfl⟩
abbrev main_v606 : Ref sig .tc := ⟨.hbm, 725, rfl⟩
abbrev main_cst_97 : Ref sig .tc := ⟨.hbm, 726, rfl⟩
abbrev main_v607 : Ref sig .tc := ⟨.hbm, 727, rfl⟩
abbrev main_cst_98 : Ref sig .tc := ⟨.hbm, 728, rfl⟩
abbrev main_v608 : Ref sig .tc := ⟨.hbm, 729, rfl⟩
abbrev main_v609 : Ref sig .tc := ⟨.hbm, 730, rfl⟩
abbrev main_v610 : Ref sig .tc := ⟨.hbm, 731, rfl⟩
abbrev main_cst_99 : Ref sig .tc := ⟨.hbm, 732, rfl⟩
abbrev main_v611 : Ref sig .tc := ⟨.hbm, 733, rfl⟩
abbrev main_v612 : Ref sig .tc := ⟨.hbm, 734, rfl⟩
abbrev main_v613 : Ref sig .tc := ⟨.hbm, 735, rfl⟩
abbrev main_v614 : Ref sig .tc := ⟨.hbm, 736, rfl⟩
abbrev main_v615 : Ref sig .tc := ⟨.hbm, 737, rfl⟩
abbrev main_v616 : Ref sig .tc := ⟨.hbm, 738, rfl⟩
abbrev main_v617 : Ref sig .tc := ⟨.hbm, 739, rfl⟩
abbrev main_v618 : Ref sig .tc := ⟨.hbm, 740, rfl⟩
abbrev main_v619 : Ref sig .tc := ⟨.hbm, 741, rfl⟩
abbrev main_v620 : Ref sig .tc := ⟨.hbm, 742, rfl⟩
abbrev main_v621 : Ref sig .tc := ⟨.hbm, 743, rfl⟩
abbrev main_v622 : Ref sig .tc := ⟨.hbm, 744, rfl⟩
abbrev main_v623 : Ref sig .tc := ⟨.hbm, 745, rfl⟩
abbrev main_cst_100 : Ref sig .tc := ⟨.hbm, 746, rfl⟩
abbrev main_v624 : Ref sig .tc := ⟨.hbm, 747, rfl⟩
abbrev main_v625 : Ref sig .tc := ⟨.hbm, 748, rfl⟩
abbrev main_v626 : Ref sig .tc := ⟨.hbm, 749, rfl⟩
abbrev main_v627 : Ref sig .tc := ⟨.hbm, 750, rfl⟩
abbrev main_cst_101 : Ref sig .tc := ⟨.hbm, 751, rfl⟩
abbrev main_v628 : Ref sig .tc := ⟨.hbm, 752, rfl⟩
abbrev main_v629 : Ref sig .tc := ⟨.hbm, 753, rfl⟩
abbrev main_cst_102 : Ref sig .tc := ⟨.hbm, 754, rfl⟩
abbrev main_v630 : Ref sig .tc := ⟨.hbm, 755, rfl⟩
abbrev main_v631 : Ref sig .tc := ⟨.hbm, 756, rfl⟩
abbrev main_v632 : Ref sig .tc := ⟨.hbm, 757, rfl⟩
abbrev main_cst_103 : Ref sig .tc := ⟨.hbm, 758, rfl⟩
abbrev main_v633 : Ref sig .tc := ⟨.hbm, 759, rfl⟩
abbrev main_v634 : Ref sig .tc := ⟨.hbm, 760, rfl⟩
abbrev main_cst_104 : Ref sig .tc := ⟨.hbm, 761, rfl⟩
abbrev main_v635 : Ref sig .tc := ⟨.hbm, 762, rfl⟩
abbrev main_v636 : Ref sig .tc := ⟨.hbm, 763, rfl⟩
abbrev main_v637 : Ref sig .tc := ⟨.hbm, 764, rfl⟩
abbrev main_v638 : Ref sig .tc := ⟨.hbm, 765, rfl⟩
abbrev main_cst_105 : Ref sig .tc := ⟨.hbm, 766, rfl⟩
abbrev main_v639 : Ref sig .tc := ⟨.hbm, 767, rfl⟩
abbrev main_v640 : Ref sig .tc := ⟨.hbm, 768, rfl⟩
abbrev main_call3_cst : Ref sig .tc := ⟨.hbm, 769, rfl⟩
abbrev main_call3_v0 : Ref sig .tc := ⟨.hbm, 770, rfl⟩
abbrev main_v641 : Ref sig .tc := ⟨.hbm, 771, rfl⟩
abbrev main_call4_cst : Ref sig .tc := ⟨.hbm, 772, rfl⟩
abbrev main_call4_v0 : Ref sig .tc := ⟨.hbm, 773, rfl⟩
abbrev main_v642 : Ref sig .tc := ⟨.hbm, 774, rfl⟩
abbrev main_call5_cst : Ref sig .tc := ⟨.hbm, 775, rfl⟩
abbrev main_call5_v0 : Ref sig .tc := ⟨.hbm, 776, rfl⟩
abbrev main_v643 : Ref sig .tc := ⟨.hbm, 777, rfl⟩
abbrev main_v644 : Ref sig .tc := ⟨.hbm, 778, rfl⟩
abbrev main_v645 : Ref sig .tc := ⟨.hbm, 779, rfl⟩
abbrev main_v646 : Ref sig .tc := ⟨.hbm, 780, rfl⟩
abbrev main_v647 : Ref sig .tc := ⟨.hbm, 781, rfl⟩
abbrev main_v648 : Ref sig .tc := ⟨.hbm, 782, rfl⟩
abbrev main_v649 : Ref sig .tc := ⟨.hbm, 783, rfl⟩
abbrev main_v650 : Ref sig .tc := ⟨.hbm, 784, rfl⟩
abbrev main_v651 : Ref sig .tc := ⟨.hbm, 785, rfl⟩
abbrev main_v652 : Ref sig .tc := ⟨.hbm, 786, rfl⟩
abbrev main_v653 : Ref sig .tc := ⟨.hbm, 787, rfl⟩
abbrev main_v654 : Ref sig .tc := ⟨.hbm, 788, rfl⟩
abbrev main_v655 : Ref sig .tc := ⟨.hbm, 789, rfl⟩
abbrev main_v656 : Ref sig .tc := ⟨.hbm, 790, rfl⟩
abbrev main_v657 : Ref sig .tc := ⟨.hbm, 791, rfl⟩
abbrev main_v658 : Ref sig .tc := ⟨.hbm, 792, rfl⟩
abbrev main_v659 : Ref sig .tc := ⟨.hbm, 793, rfl⟩
abbrev main_c_106 : Ref sig .tc := ⟨.hbm, 794, rfl⟩
abbrev main_v660 : Ref sig .tc := ⟨.hbm, 795, rfl⟩
abbrev main_v661 : Ref sig .tc := ⟨.hbm, 796, rfl⟩
abbrev main_c_107 : Ref sig .tc := ⟨.hbm, 797, rfl⟩
abbrev main_v662 : Ref sig .tc := ⟨.hbm, 798, rfl⟩
abbrev main_v663 : Ref sig .tc := ⟨.hbm, 799, rfl⟩
abbrev main_v664 : Ref sig .tc := ⟨.hbm, 800, rfl⟩
abbrev main_v665 : Ref sig .tc := ⟨.hbm, 801, rfl⟩
abbrev main_v666 : Ref sig .tc := ⟨.hbm, 802, rfl⟩
abbrev main_cst_108 : Ref sig .tc := ⟨.hbm, 803, rfl⟩
abbrev main_v667 : Ref sig .tc := ⟨.hbm, 804, rfl⟩
abbrev main_v668 : Ref sig .tc := ⟨.hbm, 805, rfl⟩
abbrev main_v669 : Ref sig .tc := ⟨.hbm, 806, rfl⟩
abbrev main_cst_109 : Ref sig .tc := ⟨.hbm, 807, rfl⟩
abbrev main_v670 : Ref sig .tc := ⟨.hbm, 808, rfl⟩
abbrev main_cst_110 : Ref sig .tc := ⟨.hbm, 809, rfl⟩
abbrev main_v671 : Ref sig .tc := ⟨.hbm, 810, rfl⟩
abbrev main_v672 : Ref sig .tc := ⟨.hbm, 811, rfl⟩
abbrev main_v673 : Ref sig .tc := ⟨.hbm, 812, rfl⟩
abbrev main_cst_111 : Ref sig .tc := ⟨.hbm, 813, rfl⟩
abbrev main_v674 : Ref sig .tc := ⟨.hbm, 814, rfl⟩
abbrev main_v675 : Ref sig .tc := ⟨.hbm, 815, rfl⟩
abbrev main_v676 : Ref sig .tc := ⟨.hbm, 816, rfl⟩
abbrev main_v677 : Ref sig .tc := ⟨.hbm, 817, rfl⟩
abbrev main_v678 : Ref sig .tc := ⟨.hbm, 818, rfl⟩
abbrev main_v679 : Ref sig .tc := ⟨.hbm, 819, rfl⟩
abbrev main_v680 : Ref sig .tc := ⟨.hbm, 820, rfl⟩
abbrev main_v681 : Ref sig .tc := ⟨.hbm, 821, rfl⟩
abbrev main_v682 : Ref sig .tc := ⟨.hbm, 822, rfl⟩
abbrev main_v683 : Ref sig .tc := ⟨.hbm, 823, rfl⟩
abbrev main_v684 : Ref sig .tc := ⟨.hbm, 824, rfl⟩
abbrev main_v685 : Ref sig .tc := ⟨.hbm, 825, rfl⟩
abbrev main_v686 : Ref sig .tc := ⟨.hbm, 826, rfl⟩
abbrev main_v687 : Ref sig .tc := ⟨.hbm, 827, rfl⟩
abbrev main_v688 : Ref sig .tc := ⟨.hbm, 828, rfl⟩
abbrev main_v689 : Ref sig .tc := ⟨.hbm, 829, rfl⟩
abbrev main_v690 : Ref sig .tc := ⟨.hbm, 830, rfl⟩
abbrev main_v691 : Ref sig .tc := ⟨.hbm, 831, rfl⟩
abbrev main_v692 : Ref sig .tc := ⟨.hbm, 832, rfl⟩
abbrev main_v693 : Ref sig .tc := ⟨.hbm, 833, rfl⟩
abbrev main_v694 : Ref sig .tc := ⟨.hbm, 834, rfl⟩
abbrev main_v695 : Ref sig .tc := ⟨.hbm, 835, rfl⟩
abbrev main_v696 : Ref sig .tc := ⟨.hbm, 836, rfl⟩
abbrev main_c_112 : Ref sig .tc := ⟨.hbm, 837, rfl⟩
abbrev main_v697 : Ref sig .tc := ⟨.hbm, 838, rfl⟩
abbrev main_v698 : Ref sig .tc := ⟨.hbm, 839, rfl⟩
abbrev main_c_113 : Ref sig .tc := ⟨.hbm, 840, rfl⟩
abbrev main_v699 : Ref sig .tc := ⟨.hbm, 841, rfl⟩
abbrev main_v700 : Ref sig .tc := ⟨.hbm, 842, rfl⟩
abbrev main_v701 : Ref sig .tc := ⟨.hbm, 843, rfl⟩
abbrev main_v702 : Ref sig .tc := ⟨.hbm, 844, rfl⟩
abbrev main_v703 : Ref sig .tc := ⟨.hbm, 845, rfl⟩
abbrev main_cst_114 : Ref sig .tc := ⟨.hbm, 846, rfl⟩
abbrev main_v704 : Ref sig .tc := ⟨.hbm, 847, rfl⟩
abbrev main_v705 : Ref sig .tc := ⟨.hbm, 848, rfl⟩
abbrev main_v706 : Ref sig .tc := ⟨.hbm, 849, rfl⟩
abbrev main_cst_115 : Ref sig .tc := ⟨.hbm, 850, rfl⟩
abbrev main_v707 : Ref sig .tc := ⟨.hbm, 851, rfl⟩
abbrev main_cst_116 : Ref sig .tc := ⟨.hbm, 852, rfl⟩
abbrev main_v708 : Ref sig .tc := ⟨.hbm, 853, rfl⟩
abbrev main_v709 : Ref sig .tc := ⟨.hbm, 854, rfl⟩
abbrev main_v710 : Ref sig .tc := ⟨.hbm, 855, rfl⟩
abbrev main_cst_117 : Ref sig .tc := ⟨.hbm, 856, rfl⟩
abbrev main_v711 : Ref sig .tc := ⟨.hbm, 857, rfl⟩
abbrev main_v712 : Ref sig .tc := ⟨.hbm, 858, rfl⟩
abbrev main_v713 : Ref sig .tc := ⟨.hbm, 859, rfl⟩
abbrev main_v714 : Ref sig .tc := ⟨.hbm, 860, rfl⟩
abbrev main_v715 : Ref sig .tc := ⟨.hbm, 861, rfl⟩
abbrev main_v716 : Ref sig .tc := ⟨.hbm, 862, rfl⟩
abbrev main_v717 : Ref sig .tc := ⟨.hbm, 863, rfl⟩
abbrev main_v718 : Ref sig .tc := ⟨.hbm, 864, rfl⟩
abbrev main_v719 : Ref sig .tc := ⟨.hbm, 865, rfl⟩
abbrev main_v720 : Ref sig .tc := ⟨.hbm, 866, rfl⟩
abbrev main_v721 : Ref sig .tc := ⟨.hbm, 867, rfl⟩
abbrev main_v722 : Ref sig .tc := ⟨.hbm, 868, rfl⟩
abbrev main_v723 : Ref sig .tc := ⟨.hbm, 869, rfl⟩
abbrev main_v724 : Ref sig .tc := ⟨.hbm, 870, rfl⟩
abbrev main_v725 : Ref sig .tc := ⟨.hbm, 871, rfl⟩
abbrev main_v726 : Ref sig .tc := ⟨.hbm, 872, rfl⟩
abbrev main_v727 : Ref sig .tc := ⟨.hbm, 873, rfl⟩
abbrev main_v728 : Ref sig .tc := ⟨.hbm, 874, rfl⟩
abbrev main_v729 : Ref sig .tc := ⟨.hbm, 875, rfl⟩
abbrev main_v730 : Ref sig .tc := ⟨.hbm, 876, rfl⟩
abbrev main_v731 : Ref sig .tc := ⟨.hbm, 877, rfl⟩
abbrev main_v732 : Ref sig .tc := ⟨.hbm, 878, rfl⟩
abbrev main_v733 : Ref sig .tc := ⟨.hbm, 879, rfl⟩
abbrev main_c_118 : Ref sig .tc := ⟨.hbm, 880, rfl⟩
abbrev main_v734 : Ref sig .tc := ⟨.hbm, 881, rfl⟩
abbrev main_v735 : Ref sig .tc := ⟨.hbm, 882, rfl⟩
abbrev main_c_119 : Ref sig .tc := ⟨.hbm, 883, rfl⟩
abbrev main_v736 : Ref sig .tc := ⟨.hbm, 884, rfl⟩
abbrev main_v737 : Ref sig .tc := ⟨.hbm, 885, rfl⟩
abbrev main_v738 : Ref sig .tc := ⟨.hbm, 886, rfl⟩
abbrev main_v739 : Ref sig .tc := ⟨.hbm, 887, rfl⟩
abbrev main_v740 : Ref sig .tc := ⟨.hbm, 888, rfl⟩
abbrev main_cst_120 : Ref sig .tc := ⟨.hbm, 889, rfl⟩
abbrev main_v741 : Ref sig .tc := ⟨.hbm, 890, rfl⟩
abbrev main_v742 : Ref sig .tc := ⟨.hbm, 891, rfl⟩
abbrev main_v743 : Ref sig .tc := ⟨.hbm, 892, rfl⟩
abbrev main_cst_121 : Ref sig .tc := ⟨.hbm, 893, rfl⟩
abbrev main_v744 : Ref sig .tc := ⟨.hbm, 894, rfl⟩
abbrev main_cst_122 : Ref sig .tc := ⟨.hbm, 895, rfl⟩
abbrev main_v745 : Ref sig .tc := ⟨.hbm, 896, rfl⟩
abbrev main_v746 : Ref sig .tc := ⟨.hbm, 897, rfl⟩
abbrev main_v747 : Ref sig .tc := ⟨.hbm, 898, rfl⟩
abbrev main_cst_123 : Ref sig .tc := ⟨.hbm, 899, rfl⟩
abbrev main_v748 : Ref sig .tc := ⟨.hbm, 900, rfl⟩
abbrev main_v749 : Ref sig .tc := ⟨.hbm, 901, rfl⟩
abbrev main_v750 : Ref sig .tc := ⟨.hbm, 902, rfl⟩
abbrev main_v751 : Ref sig .tc := ⟨.hbm, 903, rfl⟩
abbrev main_v752 : Ref sig .tc := ⟨.hbm, 904, rfl⟩
abbrev main_v753 : Ref sig .tc := ⟨.hbm, 905, rfl⟩
abbrev main_v754 : Ref sig .tc := ⟨.hbm, 906, rfl⟩
abbrev main_v755 : Ref sig .tc := ⟨.hbm, 907, rfl⟩
abbrev main_v756 : Ref sig .tc := ⟨.hbm, 908, rfl⟩
abbrev main_v757 : Ref sig .tc := ⟨.hbm, 909, rfl⟩
abbrev main_v758 : Ref sig .tc := ⟨.hbm, 910, rfl⟩
abbrev main_v759 : Ref sig .tc := ⟨.hbm, 911, rfl⟩
abbrev main_v760 : Ref sig .tc := ⟨.hbm, 912, rfl⟩
abbrev main_v761 : Ref sig .tc := ⟨.hbm, 913, rfl⟩
abbrev main_v762 : Ref sig .tc := ⟨.hbm, 914, rfl⟩
abbrev main_v763 : Ref sig .tc := ⟨.hbm, 915, rfl⟩
abbrev main_v764 : Ref sig .tc := ⟨.hbm, 916, rfl⟩
abbrev main_v765 : Ref sig .tc := ⟨.hbm, 917, rfl⟩
abbrev main_v766 : Ref sig .tc := ⟨.hbm, 918, rfl⟩
abbrev main_v767 : Ref sig .tc := ⟨.hbm, 919, rfl⟩
abbrev main_v768 : Ref sig .tc := ⟨.hbm, 920, rfl⟩
abbrev main_v769 : Ref sig .tc := ⟨.hbm, 921, rfl⟩
abbrev main_v770 : Ref sig .tc := ⟨.hbm, 922, rfl⟩
abbrev main_c_124 : Ref sig .tc := ⟨.hbm, 923, rfl⟩
abbrev main_v771 : Ref sig .tc := ⟨.hbm, 924, rfl⟩
abbrev main_v772 : Ref sig .tc := ⟨.hbm, 925, rfl⟩
abbrev main_c_125 : Ref sig .tc := ⟨.hbm, 926, rfl⟩
abbrev main_v773 : Ref sig .tc := ⟨.hbm, 927, rfl⟩
abbrev main_v774 : Ref sig .tc := ⟨.hbm, 928, rfl⟩
abbrev main_v775 : Ref sig .tc := ⟨.hbm, 929, rfl⟩
abbrev main_v776 : Ref sig .tc := ⟨.hbm, 930, rfl⟩
abbrev main_v777 : Ref sig .tc := ⟨.hbm, 931, rfl⟩
abbrev main_cst_126 : Ref sig .tc := ⟨.hbm, 932, rfl⟩
abbrev main_v778 : Ref sig .tc := ⟨.hbm, 933, rfl⟩
abbrev main_v779 : Ref sig .tc := ⟨.hbm, 934, rfl⟩
abbrev main_v780 : Ref sig .tc := ⟨.hbm, 935, rfl⟩
abbrev main_cst_127 : Ref sig .tc := ⟨.hbm, 936, rfl⟩
abbrev main_v781 : Ref sig .tc := ⟨.hbm, 937, rfl⟩
abbrev main_cst_128 : Ref sig .tc := ⟨.hbm, 938, rfl⟩
abbrev main_v782 : Ref sig .tc := ⟨.hbm, 939, rfl⟩
abbrev main_v783 : Ref sig .tc := ⟨.hbm, 940, rfl⟩
abbrev main_v784 : Ref sig .tc := ⟨.hbm, 941, rfl⟩
abbrev main_cst_129 : Ref sig .tc := ⟨.hbm, 942, rfl⟩
abbrev main_v785 : Ref sig .tc := ⟨.hbm, 943, rfl⟩
abbrev main_v786 : Ref sig .tc := ⟨.hbm, 944, rfl⟩
abbrev main_v787 : Ref sig .tc := ⟨.hbm, 945, rfl⟩
abbrev main_v788 : Ref sig .tc := ⟨.hbm, 946, rfl⟩
abbrev main_v789 : Ref sig .tc := ⟨.hbm, 947, rfl⟩
abbrev main_v790 : Ref sig .tc := ⟨.hbm, 948, rfl⟩
abbrev main_v791 : Ref sig .tc := ⟨.hbm, 949, rfl⟩
abbrev main_v792 : Ref sig .tc := ⟨.hbm, 950, rfl⟩
abbrev main_v793 : Ref sig .tc := ⟨.hbm, 951, rfl⟩
abbrev main_v794 : Ref sig .tc := ⟨.hbm, 952, rfl⟩
abbrev main_v795 : Ref sig .tc := ⟨.hbm, 953, rfl⟩
abbrev main_v796 : Ref sig .tc := ⟨.hbm, 954, rfl⟩
abbrev main_v797 : Ref sig .tc := ⟨.hbm, 955, rfl⟩
abbrev main_v798 : Ref sig .tc := ⟨.hbm, 956, rfl⟩
abbrev main_v799 : Ref sig .tc := ⟨.hbm, 957, rfl⟩
abbrev main_v800 : Ref sig .tc := ⟨.hbm, 958, rfl⟩
abbrev main_v801 : Ref sig .tc := ⟨.hbm, 959, rfl⟩
abbrev main_v802 : Ref sig .tc := ⟨.hbm, 960, rfl⟩
abbrev main_v803 : Ref sig .tc := ⟨.hbm, 961, rfl⟩
abbrev main_v804 : Ref sig .tc := ⟨.hbm, 962, rfl⟩
abbrev main_v805 : Ref sig .tc := ⟨.hbm, 963, rfl⟩
abbrev main_v806 : Ref sig .tc := ⟨.hbm, 964, rfl⟩
abbrev main_v807 : Ref sig .tc := ⟨.hbm, 965, rfl⟩
abbrev main_c_130 : Ref sig .tc := ⟨.hbm, 966, rfl⟩
abbrev main_v808 : Ref sig .tc := ⟨.hbm, 967, rfl⟩
abbrev main_v809 : Ref sig .tc := ⟨.hbm, 968, rfl⟩
abbrev main_c_131 : Ref sig .tc := ⟨.hbm, 969, rfl⟩
abbrev main_v810 : Ref sig .tc := ⟨.hbm, 970, rfl⟩
abbrev main_v811 : Ref sig .tc := ⟨.hbm, 971, rfl⟩
abbrev main_v812 : Ref sig .tc := ⟨.hbm, 972, rfl⟩
abbrev main_v813 : Ref sig .tc := ⟨.hbm, 973, rfl⟩
abbrev main_v814 : Ref sig .tc := ⟨.hbm, 974, rfl⟩
abbrev main_cst_132 : Ref sig .tc := ⟨.hbm, 975, rfl⟩
abbrev main_v815 : Ref sig .tc := ⟨.hbm, 976, rfl⟩
abbrev main_v816 : Ref sig .tc := ⟨.hbm, 977, rfl⟩
abbrev main_v817 : Ref sig .tc := ⟨.hbm, 978, rfl⟩
abbrev main_cst_133 : Ref sig .tc := ⟨.hbm, 979, rfl⟩
abbrev main_v818 : Ref sig .tc := ⟨.hbm, 980, rfl⟩
abbrev main_cst_134 : Ref sig .tc := ⟨.hbm, 981, rfl⟩
abbrev main_v819 : Ref sig .tc := ⟨.hbm, 982, rfl⟩
abbrev main_v820 : Ref sig .tc := ⟨.hbm, 983, rfl⟩
abbrev main_v821 : Ref sig .tc := ⟨.hbm, 984, rfl⟩
abbrev main_cst_135 : Ref sig .tc := ⟨.hbm, 985, rfl⟩
abbrev main_v822 : Ref sig .tc := ⟨.hbm, 986, rfl⟩
abbrev main_v823 : Ref sig .tc := ⟨.hbm, 987, rfl⟩
abbrev main_v824 : Ref sig .tc := ⟨.hbm, 988, rfl⟩
abbrev main_v825 : Ref sig .tc := ⟨.hbm, 989, rfl⟩
abbrev main_v826 : Ref sig .tc := ⟨.hbm, 990, rfl⟩
abbrev main_v827 : Ref sig .tc := ⟨.hbm, 991, rfl⟩
abbrev main_v828 : Ref sig .tc := ⟨.hbm, 992, rfl⟩
abbrev main_v829 : Ref sig .tc := ⟨.hbm, 993, rfl⟩
abbrev main_v830 : Ref sig .tc := ⟨.hbm, 994, rfl⟩
abbrev main_v831 : Ref sig .tc := ⟨.hbm, 995, rfl⟩
abbrev main_v832 : Ref sig .tc := ⟨.hbm, 996, rfl⟩
abbrev main_v833 : Ref sig .tc := ⟨.hbm, 997, rfl⟩
abbrev main_v834 : Ref sig .tc := ⟨.hbm, 998, rfl⟩
abbrev main_v835 : Ref sig .tc := ⟨.hbm, 999, rfl⟩
abbrev main_v836 : Ref sig .tc := ⟨.hbm, 1000, rfl⟩
abbrev main_v837 : Ref sig .tc := ⟨.hbm, 1001, rfl⟩
abbrev main_v838 : Ref sig .tc := ⟨.hbm, 1002, rfl⟩
abbrev main_v839 : Ref sig .tc := ⟨.hbm, 1003, rfl⟩
abbrev main_v840 : Ref sig .tc := ⟨.hbm, 1004, rfl⟩
abbrev main_v841 : Ref sig .tc := ⟨.hbm, 1005, rfl⟩
abbrev main_v842 : Ref sig .tc := ⟨.hbm, 1006, rfl⟩
abbrev main_v843 : Ref sig .tc := ⟨.hbm, 1007, rfl⟩
abbrev main_v844 : Ref sig .tc := ⟨.hbm, 1008, rfl⟩
abbrev main_c_136 : Ref sig .tc := ⟨.hbm, 1009, rfl⟩
abbrev main_v845 : Ref sig .tc := ⟨.hbm, 1010, rfl⟩
abbrev main_v846 : Ref sig .tc := ⟨.hbm, 1011, rfl⟩
abbrev main_c_137 : Ref sig .tc := ⟨.hbm, 1012, rfl⟩
abbrev main_v847 : Ref sig .tc := ⟨.hbm, 1013, rfl⟩
abbrev main_v848 : Ref sig .tc := ⟨.hbm, 1014, rfl⟩
abbrev main_v849 : Ref sig .tc := ⟨.hbm, 1015, rfl⟩
abbrev main_v850 : Ref sig .tc := ⟨.hbm, 1016, rfl⟩
abbrev main_v851 : Ref sig .tc := ⟨.hbm, 1017, rfl⟩
abbrev main_cst_138 : Ref sig .tc := ⟨.hbm, 1018, rfl⟩
abbrev main_v852 : Ref sig .tc := ⟨.hbm, 1019, rfl⟩
abbrev main_v853 : Ref sig .tc := ⟨.hbm, 1020, rfl⟩
abbrev main_v854 : Ref sig .tc := ⟨.hbm, 1021, rfl⟩
abbrev main_cst_139 : Ref sig .tc := ⟨.hbm, 1022, rfl⟩
abbrev main_v855 : Ref sig .tc := ⟨.hbm, 1023, rfl⟩
abbrev main_cst_140 : Ref sig .tc := ⟨.hbm, 1024, rfl⟩
abbrev main_v856 : Ref sig .tc := ⟨.hbm, 1025, rfl⟩
abbrev main_v857 : Ref sig .tc := ⟨.hbm, 1026, rfl⟩
abbrev main_v858 : Ref sig .tc := ⟨.hbm, 1027, rfl⟩
abbrev main_cst_141 : Ref sig .tc := ⟨.hbm, 1028, rfl⟩
abbrev main_v859 : Ref sig .tc := ⟨.hbm, 1029, rfl⟩
abbrev main_v860 : Ref sig .tc := ⟨.hbm, 1030, rfl⟩
abbrev main_v861 : Ref sig .tc := ⟨.hbm, 1031, rfl⟩
abbrev main_v862 : Ref sig .tc := ⟨.hbm, 1032, rfl⟩
abbrev main_v863 : Ref sig .tc := ⟨.hbm, 1033, rfl⟩
abbrev main_v864 : Ref sig .tc := ⟨.hbm, 1034, rfl⟩
abbrev main_v865 : Ref sig .tc := ⟨.hbm, 1035, rfl⟩
abbrev main_v866 : Ref sig .tc := ⟨.hbm, 1036, rfl⟩
abbrev main_v867 : Ref sig .tc := ⟨.hbm, 1037, rfl⟩
abbrev main_v868 : Ref sig .tc := ⟨.hbm, 1038, rfl⟩
abbrev main_v869 : Ref sig .tc := ⟨.hbm, 1039, rfl⟩
abbrev main_v870 : Ref sig .tc := ⟨.hbm, 1040, rfl⟩
abbrev main_v871 : Ref sig .tc := ⟨.hbm, 1041, rfl⟩
abbrev main_v872 : Ref sig .tc := ⟨.hbm, 1042, rfl⟩
abbrev main_v873 : Ref sig .tc := ⟨.hbm, 1043, rfl⟩
abbrev main_v874 : Ref sig .tc := ⟨.hbm, 1044, rfl⟩
abbrev main_v875 : Ref sig .tc := ⟨.hbm, 1045, rfl⟩
abbrev main_v876 : Ref sig .tc := ⟨.hbm, 1046, rfl⟩
abbrev main_v877 : Ref sig .tc := ⟨.hbm, 1047, rfl⟩
abbrev main_v878 : Ref sig .tc := ⟨.hbm, 1048, rfl⟩
abbrev main_v879 : Ref sig .tc := ⟨.hbm, 1049, rfl⟩
abbrev main_v880 : Ref sig .tc := ⟨.hbm, 1050, rfl⟩
abbrev main_v881 : Ref sig .tc := ⟨.hbm, 1051, rfl⟩
abbrev main_c_142 : Ref sig .tc := ⟨.hbm, 1052, rfl⟩
abbrev main_v882 : Ref sig .tc := ⟨.hbm, 1053, rfl⟩
abbrev main_v883 : Ref sig .tc := ⟨.hbm, 1054, rfl⟩
abbrev main_c_143 : Ref sig .tc := ⟨.hbm, 1055, rfl⟩
abbrev main_v884 : Ref sig .tc := ⟨.hbm, 1056, rfl⟩
abbrev main_v885 : Ref sig .tc := ⟨.hbm, 1057, rfl⟩
abbrev main_v886 : Ref sig .tc := ⟨.hbm, 1058, rfl⟩
abbrev main_v887 : Ref sig .tc := ⟨.hbm, 1059, rfl⟩
abbrev main_v888 : Ref sig .tc := ⟨.hbm, 1060, rfl⟩
abbrev main_cst_144 : Ref sig .tc := ⟨.hbm, 1061, rfl⟩
abbrev main_v889 : Ref sig .tc := ⟨.hbm, 1062, rfl⟩
abbrev main_v890 : Ref sig .tc := ⟨.hbm, 1063, rfl⟩
abbrev main_v891 : Ref sig .tc := ⟨.hbm, 1064, rfl⟩
abbrev main_cst_145 : Ref sig .tc := ⟨.hbm, 1065, rfl⟩
abbrev main_v892 : Ref sig .tc := ⟨.hbm, 1066, rfl⟩
abbrev main_cst_146 : Ref sig .tc := ⟨.hbm, 1067, rfl⟩
abbrev main_v893 : Ref sig .tc := ⟨.hbm, 1068, rfl⟩
abbrev main_v894 : Ref sig .tc := ⟨.hbm, 1069, rfl⟩
abbrev main_v895 : Ref sig .tc := ⟨.hbm, 1070, rfl⟩
abbrev main_cst_147 : Ref sig .tc := ⟨.hbm, 1071, rfl⟩
abbrev main_v896 : Ref sig .tc := ⟨.hbm, 1072, rfl⟩
abbrev main_v897 : Ref sig .tc := ⟨.hbm, 1073, rfl⟩
abbrev main_v898 : Ref sig .tc := ⟨.hbm, 1074, rfl⟩
abbrev main_v899 : Ref sig .tc := ⟨.hbm, 1075, rfl⟩
abbrev main_v900 : Ref sig .tc := ⟨.hbm, 1076, rfl⟩
abbrev main_v901 : Ref sig .tc := ⟨.hbm, 1077, rfl⟩
abbrev main_v902 : Ref sig .tc := ⟨.hbm, 1078, rfl⟩
abbrev main_v903 : Ref sig .tc := ⟨.hbm, 1079, rfl⟩
abbrev main_v904 : Ref sig .tc := ⟨.hbm, 1080, rfl⟩
abbrev main_v905 : Ref sig .tc := ⟨.hbm, 1081, rfl⟩
abbrev main_v906 : Ref sig .tc := ⟨.hbm, 1082, rfl⟩
abbrev main_v907 : Ref sig .tc := ⟨.hbm, 1083, rfl⟩
abbrev main_v908 : Ref sig .tc := ⟨.hbm, 1084, rfl⟩
abbrev main_v909 : Ref sig .tc := ⟨.hbm, 1085, rfl⟩
abbrev main_v910 : Ref sig .tc := ⟨.hbm, 1086, rfl⟩
abbrev main_v911 : Ref sig .tc := ⟨.hbm, 1087, rfl⟩
abbrev main_v912 : Ref sig .tc := ⟨.hbm, 1088, rfl⟩
abbrev main_v913 : Ref sig .tc := ⟨.hbm, 1089, rfl⟩
abbrev main_v914 : Ref sig .tc := ⟨.hbm, 1090, rfl⟩
abbrev main_v915 : Ref sig .tc := ⟨.hbm, 1091, rfl⟩
abbrev main_v916 : Ref sig .tc := ⟨.hbm, 1092, rfl⟩
abbrev main_v917 : Ref sig .tc := ⟨.hbm, 1093, rfl⟩
abbrev main_v918 : Ref sig .tc := ⟨.hbm, 1094, rfl⟩
abbrev main_c_148 : Ref sig .tc := ⟨.hbm, 1095, rfl⟩
abbrev main_v919 : Ref sig .tc := ⟨.hbm, 1096, rfl⟩
abbrev main_v920 : Ref sig .tc := ⟨.hbm, 1097, rfl⟩
abbrev main_c_149 : Ref sig .tc := ⟨.hbm, 1098, rfl⟩
abbrev main_v921 : Ref sig .tc := ⟨.hbm, 1099, rfl⟩
abbrev main_v922 : Ref sig .tc := ⟨.hbm, 1100, rfl⟩
abbrev main_v923 : Ref sig .tc := ⟨.hbm, 1101, rfl⟩
abbrev main_v924 : Ref sig .tc := ⟨.hbm, 1102, rfl⟩
abbrev main_v925 : Ref sig .tc := ⟨.hbm, 1103, rfl⟩
abbrev main_cst_150 : Ref sig .tc := ⟨.hbm, 1104, rfl⟩
abbrev main_v926 : Ref sig .tc := ⟨.hbm, 1105, rfl⟩
abbrev main_v927 : Ref sig .tc := ⟨.hbm, 1106, rfl⟩
abbrev main_v928 : Ref sig .tc := ⟨.hbm, 1107, rfl⟩
abbrev main_cst_151 : Ref sig .tc := ⟨.hbm, 1108, rfl⟩
abbrev main_v929 : Ref sig .tc := ⟨.hbm, 1109, rfl⟩
abbrev main_cst_152 : Ref sig .tc := ⟨.hbm, 1110, rfl⟩
abbrev main_v930 : Ref sig .tc := ⟨.hbm, 1111, rfl⟩
abbrev main_v931 : Ref sig .tc := ⟨.hbm, 1112, rfl⟩
abbrev main_v932 : Ref sig .tc := ⟨.hbm, 1113, rfl⟩
abbrev main_cst_153 : Ref sig .tc := ⟨.hbm, 1114, rfl⟩
abbrev main_v933 : Ref sig .tc := ⟨.hbm, 1115, rfl⟩
abbrev main_v934 : Ref sig .tc := ⟨.hbm, 1116, rfl⟩
abbrev main_v935 : Ref sig .tc := ⟨.hbm, 1117, rfl⟩
abbrev main_v936 : Ref sig .tc := ⟨.hbm, 1118, rfl⟩
abbrev main_v937 : Ref sig .tc := ⟨.hbm, 1119, rfl⟩
abbrev main_v938 : Ref sig .tc := ⟨.hbm, 1120, rfl⟩
abbrev main_v939 : Ref sig .tc := ⟨.hbm, 1121, rfl⟩
abbrev main_v940 : Ref sig .tc := ⟨.hbm, 1122, rfl⟩
abbrev main_v941 : Ref sig .tc := ⟨.hbm, 1123, rfl⟩
abbrev main_v942 : Ref sig .tc := ⟨.hbm, 1124, rfl⟩
abbrev main_v943 : Ref sig .tc := ⟨.hbm, 1125, rfl⟩
abbrev main_v944 : Ref sig .tc := ⟨.hbm, 1126, rfl⟩
abbrev main_v945 : Ref sig .tc := ⟨.hbm, 1127, rfl⟩
abbrev main_cst_154 : Ref sig .tc := ⟨.hbm, 1128, rfl⟩
abbrev main_v946 : Ref sig .tc := ⟨.hbm, 1129, rfl⟩
abbrev main_v947 : Ref sig .tc := ⟨.hbm, 1130, rfl⟩
abbrev main_v948 : Ref sig .tc := ⟨.hbm, 1131, rfl⟩
abbrev main_v949 : Ref sig .tc := ⟨.hbm, 1132, rfl⟩
abbrev main_cst_155 : Ref sig .tc := ⟨.hbm, 1133, rfl⟩
abbrev main_v950 : Ref sig .tc := ⟨.hbm, 1134, rfl⟩
abbrev main_v951 : Ref sig .tc := ⟨.hbm, 1135, rfl⟩
abbrev main_cst_156 : Ref sig .tc := ⟨.hbm, 1136, rfl⟩
abbrev main_v952 : Ref sig .tc := ⟨.hbm, 1137, rfl⟩
abbrev main_v953 : Ref sig .tc := ⟨.hbm, 1138, rfl⟩
abbrev main_v954 : Ref sig .tc := ⟨.hbm, 1139, rfl⟩
abbrev main_cst_157 : Ref sig .tc := ⟨.hbm, 1140, rfl⟩
abbrev main_v955 : Ref sig .tc := ⟨.hbm, 1141, rfl⟩
abbrev main_v956 : Ref sig .tc := ⟨.hbm, 1142, rfl⟩
abbrev main_cst_158 : Ref sig .tc := ⟨.hbm, 1143, rfl⟩
abbrev main_v957 : Ref sig .tc := ⟨.hbm, 1144, rfl⟩
abbrev main_v958 : Ref sig .tc := ⟨.hbm, 1145, rfl⟩
abbrev main_v959 : Ref sig .tc := ⟨.hbm, 1146, rfl⟩
abbrev main_v960 : Ref sig .tc := ⟨.hbm, 1147, rfl⟩
abbrev main_cst_159 : Ref sig .tc := ⟨.hbm, 1148, rfl⟩
abbrev main_v961 : Ref sig .tc := ⟨.hbm, 1149, rfl⟩
abbrev main_v962 : Ref sig .tc := ⟨.hbm, 1150, rfl⟩
abbrev main_v963 : Ref sig .tc := ⟨.hbm, 1151, rfl⟩
abbrev main_cst_160 : Ref sig .tc := ⟨.hbm, 1152, rfl⟩
abbrev main_v964 : Ref sig .tc := ⟨.hbm, 1153, rfl⟩
abbrev main_v965 : Ref sig .tc := ⟨.hbm, 1154, rfl⟩
abbrev main_v966 : Ref sig .tc := ⟨.hbm, 1155, rfl⟩
abbrev main_cst_161 : Ref sig .tc := ⟨.hbm, 1156, rfl⟩
abbrev main_v967 : Ref sig .tc := ⟨.hbm, 1157, rfl⟩
abbrev main_v968 : Ref sig .tc := ⟨.hbm, 1158, rfl⟩
abbrev main_v969 : Ref sig .tc := ⟨.hbm, 1159, rfl⟩
abbrev main_v970 : Ref sig .tc := ⟨.hbm, 1160, rfl⟩
abbrev main_v971 : Ref sig .tc := ⟨.hbm, 1161, rfl⟩
abbrev main_cst_162 : Ref sig .tc := ⟨.hbm, 1162, rfl⟩
abbrev main_v972 : Ref sig .tc := ⟨.hbm, 1163, rfl⟩
abbrev main_v973 : Ref sig .tc := ⟨.hbm, 1164, rfl⟩
abbrev main_v974 : Ref sig .tc := ⟨.hbm, 1165, rfl⟩
abbrev main_cst_163 : Ref sig .tc := ⟨.hbm, 1166, rfl⟩
abbrev main_v975 : Ref sig .tc := ⟨.hbm, 1167, rfl⟩
abbrev main_v976 : Ref sig .tc := ⟨.hbm, 1168, rfl⟩
abbrev main_v977 : Ref sig .tc := ⟨.hbm, 1169, rfl⟩
abbrev main_v978 : Ref sig .tc := ⟨.hbm, 1170, rfl⟩
abbrev main_v979 : Ref sig .tc := ⟨.hbm, 1171, rfl⟩
abbrev main_cst_164 : Ref sig .tc := ⟨.hbm, 1172, rfl⟩
abbrev main_v980 : Ref sig .tc := ⟨.hbm, 1173, rfl⟩
abbrev main_v981 : Ref sig .tc := ⟨.hbm, 1174, rfl⟩
abbrev main_v982 : Ref sig .tc := ⟨.hbm, 1175, rfl⟩
abbrev main_cst_165 : Ref sig .tc := ⟨.hbm, 1176, rfl⟩
abbrev main_v983 : Ref sig .tc := ⟨.hbm, 1177, rfl⟩
abbrev main_v984 : Ref sig .tc := ⟨.hbm, 1178, rfl⟩
abbrev main_v985 : Ref sig .tc := ⟨.hbm, 1179, rfl⟩
abbrev main_v986 : Ref sig .tc := ⟨.hbm, 1180, rfl⟩

abbrev nD : Nat := 1
abbrev τ : Topo := Topo.v7x

variable {F : FTy → Type} [FloatOps F]

class Facts₀ : Prop where
  slices_S3x8x128x128_S1x8x128x128_0_0_0_0 : S3x8x128x128.Slices ![0, 0, 0, 0] S1x8x128x128
  shapeCasts_S1x8x128x128_S8x128x128 : S1x8x128x128.ShapeCasts S8x128x128
  slices_S3x8x128_S1x8x128_0_0_0 : S3x8x128.Slices ![0, 0, 0] S1x8x128
  shapeCasts_S1x8x128_S8x128 : S1x8x128.ShapeCasts S8x128
  slices_S8x128x128_S1x128x128_0_0_0 : S8x128x128.Slices ![0, 0, 0] S1x128x128
  shapeCasts_S1x128x128_S128x128 : S1x128x128.ShapeCasts S128x128
  slices_S8x128_S1x128_0_0 : S8x128.Slices ![0, 0] S1x128
  shapeCasts_S1x128_S128 : S1x128.ShapeCasts S128
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  transposes_S128x128_S128x128_1_0 : S128x128.Transposes [1, 0] S128x128
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  slices_S8x128x128_S1x128x128_1_0_0 : S8x128x128.Slices ![1, 0, 0] S1x128x128
  slices_S8x128_S1x128_1_0 : S8x128.Slices ![1, 0] S1x128
  slices_S2x250000_S1x250000_0_0 : S2x250000.Slices ![0, 0] S1x250000
  shapeCasts_S1x250000_S250000 : S1x250000.ShapeCasts S250000
  slices_S2x250000_S1x250000_1_0 : S2x250000.Slices ![1, 0] S1x250000
  bcast_S_S250000 : S_.BroadcastsInDim S250000 (![] : Fin 0 → Fin S250000.rank)
  bcast_S250000_S250000x1_0 : S250000.BroadcastsInDim S250000x1 (![0] : Fin 1 → Fin S250000x1.rank)
  bcast_S_S5000x128 : S_.BroadcastsInDim S5000x128 (![] : Fin 0 → Fin S5000x128.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x128_0_1 : S5000x1.BroadcastsInDim S5000x128 (![0, 1] : Fin 2 → Fin S5000x128.rank)
  bcast_S1x128_S5000x128_0_1 : S1x128.BroadcastsInDim S5000x128 (![0, 1] : Fin 2 → Fin S5000x128.rank)
  slices_S8x128x128_S1x128x128_2_0_0 : S8x128x128.Slices ![2, 0, 0] S1x128x128
  slices_S8x128_S1x128_2_0 : S8x128.Slices ![2, 0] S1x128
  slices_S8x128x128_S1x128x128_3_0_0 : S8x128x128.Slices ![3, 0, 0] S1x128x128
  slices_S8x128_S1x128_3_0 : S8x128.Slices ![3, 0] S1x128
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  slices_S8x128x128_S1x128x128_4_0_0 : S8x128x128.Slices ![4, 0, 0] S1x128x128
  slices_S8x128_S1x128_4_0 : S8x128.Slices ![4, 0] S1x128
  slices_S8x128x128_S1x128x128_5_0_0 : S8x128x128.Slices ![5, 0, 0] S1x128x128
  slices_S8x128_S1x128_5_0 : S8x128.Slices ![5, 0] S1x128
  slices_S8x128x128_S1x128x128_6_0_0 : S8x128x128.Slices ![6, 0, 0] S1x128x128
  slices_S8x128_S1x128_6_0 : S8x128.Slices ![6, 0] S1x128
  slices_S8x128x128_S1x128x128_7_0_0 : S8x128x128.Slices ![7, 0, 0] S1x128x128
  slices_S8x128_S1x128_7_0 : S8x128.Slices ![7, 0] S1x128
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S_S100000 : S_.BroadcastsInDim S100000 (![] : Fin 0 → Fin S100000.rank)
  bcast_S100000_S100000x1_0 : S100000.BroadcastsInDim S100000x1 (![0] : Fin 1 → Fin S100000x1.rank)
  slices_S3x8x128x128_S1x8x128x128_1_0_0_0 : S3x8x128x128.Slices ![1, 0, 0, 0] S1x8x128x128
  slices_S3x8x128_S1x8x128_1_0_0 : S3x8x128.Slices ![1, 0, 0] S1x8x128
  slices_S3x8x128x128_S1x8x128x128_2_0_0_0 : S3x8x128x128.Slices ![2, 0, 0, 0] S1x8x128x128
  slices_S3x8x128_S1x8x128_2_0_0 : S3x8x128.Slices ![2, 0, 0] S1x8x128
  reducesTo_S50000x128_S50000_d1 : S50000x128.ReducesTo [1] S50000
  h_S_ : 0 < S_.numel
  bcast_S_S50000x1 : S_.BroadcastsInDim S50000x1 (![] : Fin 0 → Fin S50000x1.rank)
  reducesTo_S20000x128_S20000_d1 : S20000x128.ReducesTo [1] S20000
  bcast_S_S20000x1 : S_.BroadcastsInDim S20000x1 (![] : Fin 0 → Fin S20000x1.rank)
  reducesTo_S5000x128_S5000_d1 : S5000x128.ReducesTo [1] S5000
  bcast_S_S5000x1 : S_.BroadcastsInDim S5000x1 (![] : Fin 0 → Fin S5000x1.rank)
  gather_S50000x128_S500000x1_S500000x128_1_0_n_n_0_1_1128_wf : GatherDims.WF S50000x128 S500000x1 S500000x128 [1] [0] [] [0] [] 1 ![1, 128]
  scatter_S20000x128_S500000x1_S500000x128_1_0_0_1_wf : ScatterDims.WF S20000x128 S500000x1 S500000x128 [1] [0] [0] 1
  scatter_S20000_S500000x1_S500000_n_0_0_1_wf : ScatterDims.WF S20000 S500000x1 S500000 [] [0] [0] 1
  dot_S20000x128_S128x128_S20000x128_1_0_0_1_n_n_wf : DotDims.WF S20000x128 S128x128 S20000x128 [1] [0] [0] [1] [] []
  gather_S20000x128_S250000x1_S250000x128_1_0_n_n_0_1_1128_wf : GatherDims.WF S20000x128 S250000x1 S250000x128 [1] [0] [] [0] [] 1 ![1, 128]
  scatter_S5000x128_S250000x1_S250000x128_1_0_0_1_wf : ScatterDims.WF S5000x128 S250000x1 S250000x128 [1] [0] [0] 1
  scatter_S5000_S250000x1_S250000_n_0_0_1_wf : ScatterDims.WF S5000 S250000x1 S250000 [] [0] [0] 1
  dot_S5000x128_S128x128_S5000x128_1_0_0_1_n_n_wf : DotDims.WF S5000x128 S128x128 S5000x128 [1] [0] [0] [1] [] []
  gather_S50000x128_S250000x1_S250000x128_1_0_n_n_0_1_1128_wf : GatherDims.WF S50000x128 S250000x1 S250000x128 [1] [0] [] [0] [] 1 ![1, 128]
  gather_S20000x128_S500000x1_S500000x128_1_0_n_n_0_1_1128_wf : GatherDims.WF S20000x128 S500000x1 S500000x128 [1] [0] [] [0] [] 1 ![1, 128]
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  dot_S50000x128_S128x128_S50000x128_1_0_0_1_n_n_wf : DotDims.WF S50000x128 S128x128 S50000x128 [1] [0] [0] [1] [] []
  gather_S5000x128_S250000x1_S250000x128_1_0_n_n_0_1_1128_wf : GatherDims.WF S5000x128 S250000x1 S250000x128 [1] [0] [] [0] [] 1 ![1, 128]
  scatter_S20000x128_S250000x1_S250000x128_1_0_0_1_wf : ScatterDims.WF S20000x128 S250000x1 S250000x128 [1] [0] [0] 1
  scatter_S20000_S250000x1_S250000_n_0_0_1_wf : ScatterDims.WF S20000 S250000x1 S250000 [] [0] [0] 1
  scatter_S50000x128_S250000x1_S250000x128_1_0_0_1_wf : ScatterDims.WF S50000x128 S250000x1 S250000x128 [1] [0] [0] 1
  scatter_S50000_S250000x1_S250000_n_0_0_1_wf : ScatterDims.WF S50000 S250000x1 S250000 [] [0] [0] 1
  gather_S5000x128_S100000x1_S100000x128_1_0_n_n_0_1_1128_wf : GatherDims.WF S5000x128 S100000x1 S100000x128 [1] [0] [] [0] [] 1 ![1, 128]
  scatter_S5000x128_S100000x1_S100000x128_1_0_0_1_wf : ScatterDims.WF S5000x128 S100000x1 S100000x128 [1] [0] [0] 1
  scatter_S5000_S100000x1_S100000_n_0_0_1_wf : ScatterDims.WF S5000 S100000x1 S100000 [] [0] [0] 1

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S20000x128_S500000x1_S500000x128_1_0_0_1 : ScatterDims S20000x128 S500000x1 S500000x128 where
  updateWindowDims := [1]
  insertedWindowDims := [0]
  scatterDimsToOperandDims := [0]
  indexVectorDim := 1
  wf := scatter_S20000x128_S500000x1_S500000x128_1_0_0_1_wf
def scatter_S20000_S500000x1_S500000_n_0_0_1 : ScatterDims S20000 S500000x1 S500000 where
  updateWindowDims := []
  insertedWindowDims := [0]
  scatterDimsToOperandDims := [0]
  indexVectorDim := 1
  wf := scatter_S20000_S500000x1_S500000_n_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S250000x1_S250000x128_1_0_n_n_0_1_1128 : GatherDims S20000x128 S250000x1 S250000x128 where
  offsetDims := [1]
  collapsedSliceDims := [0]
  operandBatchingDims := []
  startIndicesBatchingDims := []
  startIndexMap := [0]
  indexVectorDim := 1
  sliceSizes := ![1, 128]
  wf := gather_S20000x128_S250000x1_S250000x128_1_0_n_n_0_1_1128_wf
def scatter_S5000x128_S250000x1_S250000x128_1_0_0_1 : ScatterDims S5000x128 S250000x1 S250000x128 where
  updateWindowDims := [1]
  insertedWindowDims := [0]
  scatterDimsToOperandDims := [0]
  indexVectorDim := 1
  wf := scatter_S5000x128_S250000x1_S250000x128_1_0_0_1_wf
def scatter_S5000_S250000x1_S250000_n_0_0_1 : ScatterDims S5000 S250000x1 S250000 where
  updateWindowDims := []
  insertedWindowDims := [0]
  scatterDimsToOperandDims := [0]
  indexVectorDim := 1
  wf := scatter_S5000_S250000x1_S250000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S250000x1_S250000x128_1_0_n_n_0_1_1128 : GatherDims S50000x128 S250000x1 S250000x128 where
  offsetDims := [1]
  collapsedSliceDims := [0]
  operandBatchingDims := []
  startIndicesBatchingDims := []
  startIndexMap := [0]
  indexVectorDim := 1
  sliceSizes := ![1, 128]
  wf := gather_S50000x128_S250000x1_S250000x128_1_0_n_n_0_1_1128_wf
def gather_S20000x128_S500000x1_S500000x128_1_0_n_n_0_1_1128 : GatherDims S20000x128 S500000x1 S500000x128 where
  offsetDims := [1]
  collapsedSliceDims := [0]
  operandBatchingDims := []
  startIndicesBatchingDims := []
  startIndexMap := [0]
  indexVectorDim := 1
  sliceSizes := ![1, 128]
  wf := gather_S20000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S5000x128_S250000x1_S250000x128_1_0_n_n_0_1_1128 : GatherDims S5000x128 S250000x1 S250000x128 where
  offsetDims := [1]
  collapsedSliceDims := [0]
  operandBatchingDims := []
  startIndicesBatchingDims := []
  startIndexMap := [0]
  indexVectorDim := 1
  sliceSizes := ![1, 128]
  wf := gather_S5000x128_S250000x1_S250000x128_1_0_n_n_0_1_1128_wf
def scatter_S20000x128_S250000x1_S250000x128_1_0_0_1 : ScatterDims S20000x128 S250000x1 S250000x128 where
  updateWindowDims := [1]
  insertedWindowDims := [0]
  scatterDimsToOperandDims := [0]
  indexVectorDim := 1
  wf := scatter_S20000x128_S250000x1_S250000x128_1_0_0_1_wf
def scatter_S20000_S250000x1_S250000_n_0_0_1 : ScatterDims S20000 S250000x1 S250000 where
  updateWindowDims := []
  insertedWindowDims := [0]
  scatterDimsToOperandDims := [0]
  indexVectorDim := 1
  wf := scatter_S20000_S250000x1_S250000_n_0_0_1_wf
def scatter_S50000x128_S250000x1_S250000x128_1_0_0_1 : ScatterDims S50000x128 S250000x1 S250000x128 where
  updateWindowDims := [1]
  insertedWindowDims := [0]
  scatterDimsToOperandDims := [0]
  indexVectorDim := 1
  wf := scatter_S50000x128_S250000x1_S250000x128_1_0_0_1_wf
def scatter_S50000_S250000x1_S250000_n_0_0_1 : ScatterDims S50000 S250000x1 S250000 where
  updateWindowDims := []
  insertedWindowDims := [0]
  scatterDimsToOperandDims := [0]
  indexVectorDim := 1
  wf := scatter_S50000_S250000x1_S250000_n_0_0_1_wf
def gather_S5000x128_S100000x1_S100000x128_1_0_n_n_0_1_1128 : GatherDims S5000x128 S100000x1 S100000x128 where
  offsetDims := [1]
  collapsedSliceDims := [0]
  operandBatchingDims := []
  startIndicesBatchingDims := []
  startIndexMap := [0]
  indexVectorDim := 1
  sliceSizes := ![1, 128]
  wf := gather_S5000x128_S100000x1_S100000x128_1_0_n_n_0_1_1128_wf
def scatter_S5000x128_S100000x1_S100000x128_1_0_0_1 : ScatterDims S5000x128 S100000x1 S100000x128 where
  updateWindowDims := [1]
  insertedWindowDims := [0]
  scatterDimsToOperandDims := [0]
  indexVectorDim := 1
  wf := scatter_S5000x128_S100000x1_S100000x128_1_0_0_1_wf
def scatter_S5000_S100000x1_S100000_n_0_0_1 : ScatterDims S5000 S100000x1 S100000 where
  updateWindowDims := []
  insertedWindowDims := [0]
  scatterDimsToOperandDims := [0]
  indexVectorDim := 1
  wf := scatter_S5000_S100000x1_S100000_n_0_0_1_wf

class Facts : Prop extends Facts₀ where

variable [Facts]
-- ==== Proof.KernelRun.lean ====
/-
  The idealized kernel's run with its whole final memory named.

  @main is nine kernel regions among stretches of host operations.  The generated frame module folds the buffer
  contents through the eighteen segments (`Gen.W0` … `Gen.W18`: a stretch applies its operations, a region replaces
  its arrays by what its write-backs leave) and launches the segments with the library's theorem for several regions;
  of the final contents it keeps the argument arrays.  The same launch keeps every unscoped buffer: after the run
  each holds `Gen.W18`'s contents, the three result arrays among them.
-/
import proofs.«116292_j712964571450_1_alg».proof.Proof.FrameKernelIdealP

set_option maxRecDepth 16384

noncomputable section

namespace Cert.KernelIdeal.Whole

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every unscoped buffer of every core ends
    at the last boundary's contents. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W18 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c b hb => h c _ (mem_uc b hb))

end Cert.KernelIdeal.Whole

end
-- ==== Proof.LibStackPick.lean ====
/-
  One matrix, or one bias vector, picked out of a stack indexed by a layer and a relation, at any extents.

  A stack of matrices `[L, R, a, b]` can be read at `(l, r)` in one step — a unit slice at offset `(l, r, 0, 0)` with
  both unit axes cast away — or in two — the unit slice of layer `l`, its unit axis cast away, then the unit slice of
  relation `r`, its unit axis cast away.  Either way the entry `(q, k)` of the result is the stack's entry
  `(l, r, q, k)`, so the two arrays are equal (`mat_direct_eq_staged`).  The same for a stack of vectors `[L, R, b]`,
  read in one step as a one-row array `[1, b]` (through a vector) or in two as a vector `[b]`: the row is the vector laid
  out as one row (`row_direct_eq_staged`).
-/
import Idealize.ShloMosaic.Lib.ValueIdx
import Idealize.ShloMosaic.Lib.ValueLayout
import Idealize.ShloMosaic.Lib.Pipeline.Value

noncomputable section

namespace Cert.StackPick

open Idealize.ShloMosaic Idealize.ShloMosaic.ValueIdx

variable {α : Type}

/-- One step: the unit slice at `(l, r, 0, 0)`, cast to `[a, b]`, at `(q, k)`. -/
theorem mat_direct_apply {L R a b : ℕ} (l r : ℕ) (hl : l < L) (hr : r < R)
    (W : (⟨4, ![L, R, a, b]⟩ : Shape).Idx → α)
    (h1 : (⟨4, ![L, R, a, b]⟩ : Shape).Slices ![l, r, 0, 0] ⟨4, ![1, 1, a, b]⟩)
    (h2 : (⟨4, ![1, 1, a, b]⟩ : Shape).ShapeCasts ⟨2, ![a, b]⟩) (q : Fin a) (k : Fin b) :
    shapeCast ⟨2, ![a, b]⟩ (extractStridedSlice ⟨4, ![1, 1, a, b]⟩ ![l, r, 0, 0] W h1) h2 (ix2 q k)
      = W (ix4 (⟨l, hl⟩ : Fin L) (⟨r, hr⟩ : Fin R) q k) := by
  rw [shapeCast_apply _ h2 (ix2 q k) (ix4 (0 : Fin 1) (0 : Fin 1) q k) (by
    rw [Shape.rowMajor_val_four, Shape.rowMajor_val_two]
    show ((0 * 1 + 0) * a + q.val) * b + k.val = q.val * b + k.val
    simp only [Nat.zero_mul, Nat.zero_add, Nat.add_zero])]
  exact extractStridedSlice_apply ![l, r, 0, 0] W h1 (ix4 (0 : Fin 1) (0 : Fin 1) q k) (ix4 (⟨l, hl⟩ : Fin L) (⟨r, hr⟩ : Fin R) q k) (fun ax => by
    match ax with
    | ⟨0, _⟩ => show l = l + 0; rfl
    | ⟨1, _⟩ => show r = r + 0; rfl
    | ⟨2, _⟩ => show q.val = 0 + q.val; omega
    | ⟨3, _⟩ => show k.val = 0 + k.val; omega)

/-- Two steps: layer `l`'s unit slice cast to `[R, a, b]`, relation `r`'s unit slice of that cast to `[a, b]`, at `(q, k)`. -/
theorem mat_staged_apply {L R a b : ℕ} (l r : ℕ) (hl : l < L) (hr : r < R)
    (W : (⟨4, ![L, R, a, b]⟩ : Shape).Idx → α)
    (g1 : (⟨4, ![L, R, a, b]⟩ : Shape).Slices ![l, 0, 0, 0] ⟨4, ![1, R, a, b]⟩)
    (g2 : (⟨4, ![1, R, a, b]⟩ : Shape).ShapeCasts ⟨3, ![R, a, b]⟩)
    (g3 : (⟨3, ![R, a, b]⟩ : Shape).Slices ![r, 0, 0] ⟨3, ![1, a, b]⟩)
    (g4 : (⟨3, ![1, a, b]⟩ : Shape).ShapeCasts ⟨2, ![a, b]⟩) (q : Fin a) (k : Fin b) :
    shapeCast ⟨2, ![a, b]⟩ (extractStridedSlice ⟨3, ![1, a, b]⟩ ![r, 0, 0]
        (shapeCast ⟨3, ![R, a, b]⟩ (extractStridedSlice ⟨4, ![1, R, a, b]⟩ ![l, 0, 0, 0] W g1) g2) g3) g4 (ix2 q k)
      = W (ix4 (⟨l, hl⟩ : Fin L) (⟨r, hr⟩ : Fin R) q k) := by
  rw [shapeCast_apply _ g4 (ix2 q k) (ix3 (0 : Fin 1) q k) (by
      rw [Shape.rowMajor_val_three, Shape.rowMajor_val_two]
      show (0 * a + q.val) * b + k.val = q.val * b + k.val
      simp only [Nat.zero_mul, Nat.zero_add]),
    extractStridedSlice_apply ![r, 0, 0] _ g3 (ix3 (0 : Fin 1) q k) (ix3 (⟨r, hr⟩ : Fin R) q k) (fun ax => by
      match ax with
      | ⟨0, _⟩ => show r = r + 0; rfl
      | ⟨1, _⟩ => show q.val = 0 + q.val; omega
      | ⟨2, _⟩ => show k.val = 0 + k.val; omega),
    shapeCast_apply _ g2 (ix3 (⟨r, hr⟩ : Fin R) q k) (ix4 (0 : Fin 1) (⟨r, hr⟩ : Fin R) q k) (by
      rw [Shape.rowMajor_val_four, Shape.rowMajor_val_three]
      show ((0 * R + r) * a + q.val) * b + k.val = (r * a + q.val) * b + k.val
      simp only [Nat.zero_mul, Nat.zero_add])]
  exact extractStridedSlice_apply ![l, 0, 0, 0] W g1 (ix4 (0 : Fin 1) (⟨r, hr⟩ : Fin R) q k) (ix4 (⟨l, hl⟩ : Fin L) (⟨r, hr⟩ : Fin R) q k) (fun ax => by
    match ax with
    | ⟨0, _⟩ => show l = l + 0; rfl
    | ⟨1, _⟩ => show r = 0 + r; omega
    | ⟨2, _⟩ => show q.val = 0 + q.val; omega
    | ⟨3, _⟩ => show k.val = 0 + k.val; omega)

/-- The two ways of picking a matrix out of the stack give one array. -/
theorem mat_direct_eq_staged {L R a b : ℕ} (l r : ℕ) (hl : l < L) (hr : r < R)
    (W : (⟨4, ![L, R, a, b]⟩ : Shape).Idx → α)
    (h1 : (⟨4, ![L, R, a, b]⟩ : Shape).Slices ![l, r, 0, 0] ⟨4, ![1, 1, a, b]⟩)
    (h2 : (⟨4, ![1, 1, a, b]⟩ : Shape).ShapeCasts ⟨2, ![a, b]⟩)
    (g1 : (⟨4, ![L, R, a, b]⟩ : Shape).Slices ![l, 0, 0, 0] ⟨4, ![1, R, a, b]⟩)
    (g2 : (⟨4, ![1, R, a, b]⟩ : Shape).ShapeCasts ⟨3, ![R, a, b]⟩)
    (g3 : (⟨3, ![R, a, b]⟩ : Shape).Slices ![r, 0, 0] ⟨3, ![1, a, b]⟩)
    (g4 : (⟨3, ![1, a, b]⟩ : Shape).ShapeCasts ⟨2, ![a, b]⟩) :
    shapeCast ⟨2, ![a, b]⟩ (extractStridedSlice ⟨4, ![1, 1, a, b]⟩ ![l, r, 0, 0] W h1) h2
      = shapeCast ⟨2, ![a, b]⟩ (extractStridedSlice ⟨3, ![1, a, b]⟩ ![r, 0, 0]
          (shapeCast ⟨3, ![R, a, b]⟩ (extractStridedSlice ⟨4, ![1, R, a, b]⟩ ![l, 0, 0, 0] W g1) g2) g3) g4 := by
  funext i
  obtain ⟨q, k, rfl⟩ : ∃ (q : Fin a) (k : Fin b), i = ix2 q k := ⟨i 0, i 1, eq_ix2 i⟩
  rw [mat_direct_apply l r hl hr W h1 h2 q k, mat_staged_apply l r hl hr W g1 g2 g3 g4 q k]

/-- One step for a bias: the unit slice at `(l, r, 0)`, cast to a vector and then to one row, at `(u, k)`. -/
theorem row_direct_apply {L R b : ℕ} (l r : ℕ) (hl : l < L) (hr : r < R)
    (B : (⟨3, ![L, R, b]⟩ : Shape).Idx → α)
    (h1 : (⟨3, ![L, R, b]⟩ : Shape).Slices ![l, r, 0] ⟨3, ![1, 1, b]⟩)
    (h2 : (⟨3, ![1, 1, b]⟩ : Shape).ShapeCasts ⟨1, ![b]⟩) (h3 : (⟨1, ![b]⟩ : Shape).ShapeCasts ⟨2, ![1, b]⟩)
    (u : Fin 1) (k : Fin b) :
    shapeCast ⟨2, ![1, b]⟩ (shapeCast ⟨1, ![b]⟩ (extractStridedSlice ⟨3, ![1, 1, b]⟩ ![l, r, 0] B h1) h2) h3 (ix2 u k)
      = B (ix3 (⟨l, hl⟩ : Fin L) (⟨r, hr⟩ : Fin R) k) := by
  have hu : u.val = 0 := by omega
  rw [shapeCast_apply _ h3 (ix2 u k) (ix1 k) (by
      rw [Shape.rowMajor_val_one, Shape.rowMajor_val_two]
      show k.val = u.val * b + k.val
      rw [hu, Nat.zero_mul, Nat.zero_add]),
    shapeCast_apply _ h2 (ix1 k) (ix3 (0 : Fin 1) (0 : Fin 1) k) (by
      rw [Shape.rowMajor_val_three, Shape.rowMajor_val_one]
      show (0 * 1 + 0) * b + k.val = k.val
      simp only [Nat.zero_mul, Nat.zero_add, Nat.add_zero])]
  exact extractStridedSlice_apply ![l, r, 0] B h1 (ix3 (0 : Fin 1) (0 : Fin 1) k) (ix3 (⟨l, hl⟩ : Fin L) (⟨r, hr⟩ : Fin R) k) (fun ax => by
    match ax with
    | ⟨0, _⟩ => show l = l + 0; rfl
    | ⟨1, _⟩ => show r = r + 0; rfl
    | ⟨2, _⟩ => show k.val = 0 + k.val; omega)

/-- Two steps for a bias: layer `l`'s unit slice cast to `[R, b]`, relation `r`'s unit slice of that cast to a vector, at `k`. -/
theorem vec_staged_apply {L R b : ℕ} (l r : ℕ) (hl : l < L) (hr : r < R)
    (B : (⟨3, ![L, R, b]⟩ : Shape).Idx → α)
    (g1 : (⟨3, ![L, R, b]⟩ : Shape).Slices ![l, 0, 0] ⟨3, ![1, R, b]⟩)
    (g2 : (⟨3, ![1, R, b]⟩ : Shape).ShapeCasts ⟨2, ![R, b]⟩)
    (g3 : (⟨2, ![R, b]⟩ : Shape).Slices ![r, 0] ⟨2, ![1, b]⟩)
    (g4 : (⟨2, ![1, b]⟩ : Shape).ShapeCasts ⟨1, ![b]⟩) (k : Fin b) :
    shapeCast ⟨1, ![b]⟩ (extractStridedSlice ⟨2, ![1, b]⟩ ![r, 0]
        (shapeCast ⟨2, ![R, b]⟩ (extractStridedSlice ⟨3, ![1, R, b]⟩ ![l, 0, 0] B g1) g2) g3) g4 (ix1 k)
      = B (ix3 (⟨l, hl⟩ : Fin L) (⟨r, hr⟩ : Fin R) k) := by
  rw [shapeCast_apply _ g4 (ix1 k) (ix2 (0 : Fin 1) k) (by
      rw [Shape.rowMajor_val_two, Shape.rowMajor_val_one]
      show 0 * b + k.val = k.val
      simp only [Nat.zero_mul, Nat.zero_add]),
    extractStridedSlice_apply ![r, 0] _ g3 (ix2 (0 : Fin 1) k) (ix2 (⟨r, hr⟩ : Fin R) k) (fun ax => by
      match ax with
      | ⟨0, _⟩ => show r = r + 0; rfl
      | ⟨1, _⟩ => show k.val = 0 + k.val; omega),
    shapeCast_apply _ g2 (ix2 (⟨r, hr⟩ : Fin R) k) (ix3 (0 : Fin 1) (⟨r, hr⟩ : Fin R) k) (by
      rw [Shape.rowMajor_val_three, Shape.rowMajor_val_two]
      show (0 * R + r) * b + k.val = r * b + k.val
      simp only [Nat.zero_mul, Nat.zero_add])]
  exact extractStridedSlice_apply ![l, 0, 0] B g1 (ix3 (0 : Fin 1) (⟨r, hr⟩ : Fin R) k) (ix3 (⟨l, hl⟩ : Fin L) (⟨r, hr⟩ : Fin R) k) (fun ax => by
    match ax with
    | ⟨0, _⟩ => show l = l + 0; rfl
    | ⟨1, _⟩ => show r = 0 + r; omega
    | ⟨2, _⟩ => show k.val = 0 + k.val; omega)

/-- The bias row picked in one step is the vector picked in two steps, laid out as one row. -/
theorem row_direct_eq_staged {L R b : ℕ} (l r : ℕ) (hl : l < L) (hr : r < R)
    (B : (⟨3, ![L, R, b]⟩ : Shape).Idx → α)
    (h1 : (⟨3, ![L, R, b]⟩ : Shape).Slices ![l, r, 0] ⟨3, ![1, 1, b]⟩)
    (h2 : (⟨3, ![1, 1, b]⟩ : Shape).ShapeCasts ⟨1, ![b]⟩) (h3 : (⟨1, ![b]⟩ : Shape).ShapeCasts ⟨2, ![1, b]⟩)
    (g1 : (⟨3, ![L, R, b]⟩ : Shape).Slices ![l, 0, 0] ⟨3, ![1, R, b]⟩)
    (g2 : (⟨3, ![1, R, b]⟩ : Shape).ShapeCasts ⟨2, ![R, b]⟩)
    (g3 : (⟨2, ![R, b]⟩ : Shape).Slices ![r, 0] ⟨2, ![1, b]⟩)
    (g4 : (⟨2, ![1, b]⟩ : Shape).ShapeCasts ⟨1, ![b]⟩) :
    shapeCast ⟨2, ![1, b]⟩ (shapeCast ⟨1, ![b]⟩ (extractStridedSlice ⟨3, ![1, 1, b]⟩ ![l, r, 0] B h1) h2) h3
      = fun i => shapeCast ⟨1, ![b]⟩ (extractStridedSlice ⟨2, ![1, b]⟩ ![r, 0]
          (shapeCast ⟨2, ![R, b]⟩ (extractStridedSlice ⟨3, ![1, R, b]⟩ ![l, 0, 0] B g1) g2) g3) g4
            (ix1 (⟨(i 1).val, idx2_lt1 i⟩ : Fin b)) := by
  funext i
  obtain ⟨u, k, rfl⟩ : ∃ (u : Fin 1) (k : Fin b), i = ix2 u k := ⟨i 0, i 1, eq_ix2 i⟩
  rw [row_direct_apply l r hl hr B h1 h2 h3 u k]
  exact (vec_staged_apply l r hl hr B g1 g2 g3 g4 k).symm

end Cert.StackPick

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibBiasRow.lean ====
/-
  A one-row bias added to every row of a rank-2 array, on the extended reals, at any extents.

  `addRow X b` is `X(p, q) + b(0, q)`.  The vector unit spells it as the row broadcast along the rows and added; the
  host as the vector broadcast to one row, that row broadcast to every row, and added.  Both are `addRow`, the host's
  over the vector laid out as a row (`Cert.Dense.row`).  The entry at `(p, q)` depends on the entry of `X` there and
  on entry `q` of the bias only (`addRow_at`; `reluBias_at` for the rectified layer, `mm_at` for the matrix product, whose
  entry depends on one row of the left operand), which is what reading a block of rows against the whole array needs.
-/
import proofs.«116292_j712964571450_1_alg».proof.Proof.LibDense

noncomputable section

namespace Cert.BiasRow

open Idealize.ShloMosaic Idealize.ShloMosaic.ValueIdx Cert.Dense

/-- A one-row array added to every row. -/
def addRow {M N : ℕ} (X : Mat M N) (b : Mat 1 N) : Mat M N := fun i => X i + b (ix2 (0 : Fin 1) (c1 i))

theorem addRow_apply {M N : ℕ} (X : Mat M N) (b : Mat 1 N) (p : Fin M) (q : Fin N) :
    addRow X b (ix2 p q) = X (ix2 p q) + b (ix2 (0 : Fin 1) q) := rfl

/-- The vector unit's form: the row broadcast to every row, added. -/
theorem vecAddRow {M N : ℕ} (X : FVec Ideal ⟨2, ![M, N]⟩ .f32) (b : FVec Ideal ⟨2, ![1, N]⟩ .f32)
    (h : (⟨2, ![1, N]⟩ : Shape).Broadcasts ⟨2, ![M, N]⟩) :
    addf X (broadcastTo ⟨2, ![M, N]⟩ b h) = addRow X b := by
  funext i
  obtain ⟨p, q, rfl⟩ : ∃ (p : Fin M) (q : Fin N), i = ix2 p q := ⟨i 0, i 1, eq_ix2 i⟩
  show X (ix2 p q) + broadcastTo ⟨2, ![M, N]⟩ b h (ix2 p q) = _
  rw [broadcastTo_1b_ab_apply]
  rfl

/-- The host's form: the vector broadcast to one row, that row to every row, added. -/
theorem hostAddRow {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

/-- The biased array at an index depends on the entry there and on the bias of its column. -/
theorem addRow_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    addRow X' b' j = addRow X b i := by
  unfold addRow; rw [hX, hb]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

end Cert.BiasRow

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibHostLayout.lean ====
/-
  The host's layout operations, row sums and transposed contractions, read at an index.

  A reference written with `keepdims` reductions moves between a vector `[n]`, a column `[n, 1]` and an array `[n, c]`
  by `broadcast_in_dim`: a vector broadcast to a column reads the vector at the row; a column broadcast along the rows
  reads the column at the row; a vector broadcast to one row and that row to every row reads the vector at the column;
  a scalar broadcast everywhere reads the scalar.  On the extended reals the host's sum of an `[n, c]` array along its
  second axis reads, at row `q`, the initial value plus the sum of the row; and the host's contraction of the second
  axes of both rank-2 operands (no batch axis) reads, at `(q, d)`, the sum over `p` of `l (q, p) · r (d, p)`.  All of it
  at any extents.
-/
import Idealize.ShloMosaic.PureOps.Ideal.Laws
import Idealize.ShloMosaic.Lib.ValueIdx
import Idealize.ShloMosaic.Lib.ValueLayout
import Idealize.ShloMosaic.Lib.Pipeline.Value
import proofs.«116292_j712964571450_1_alg».proof.Proof.LibRowBlocks

noncomputable section

open scoped BigOperators

namespace Cert.HostLayout

open Idealize.ShloMosaic Idealize.ShloMosaic.ValueIdx

section Layout

variable {α : Type}

/-- A vector `[n]` broadcast to a column `[n, 1]` reads, at `(q, u)`, the vector at `q`. -/
theorem bcast_vec_col {n : ℕ} (x : (⟨1, ![n]⟩ : Shape).Idx → α)
    (h : (⟨1, ![n]⟩ : Shape).BroadcastsInDim ⟨2, ![n, 1]⟩ ![0]) (q : Fin n) (u : Fin 1) :
    broadcastInDim ⟨2, ![n, 1]⟩ ![0] h x (ix2 q u) = x (ix1 q) :=
  broadcastInDim_apply ![0] h x (ix2 q u) (ix1 q) fun a => by
    match a with
    | ⟨0, _⟩ =>
      show q.val = if n = 1 then 0 else q.val
      split
      · have := q.isLt; omega
      · rfl

/-- A scalar broadcast to `[a, b]` reads the scalar everywhere. -/
theorem bcast_scalar_mat {a b : ℕ} (x : (⟨0, ![]⟩ : Shape).Idx → α)
    (h : (⟨0, ![]⟩ : Shape).BroadcastsInDim ⟨2, ![a, b]⟩ ![]) (p : Fin a) (q : Fin b) :
    broadcastInDim ⟨2, ![a, b]⟩ ![] h x (ix2 p q) = x ix0 :=
  broadcastInDim_apply ![] h x (ix2 p q) ix0 fun a => a.elim0

/-- A column `[n, 1]` broadcast to `[n, c]` reads, at `(q, d)`, the column at row `q`. -/
theorem bcast_col_mat {n c : ℕ} (x : (⟨2, ![n, 1]⟩ : Shape).Idx → α)
    (h : (⟨2, ![n, 1]⟩ : Shape).BroadcastsInDim ⟨2, ![n, c]⟩ ![0, 1]) (q : Fin n) (d : Fin c) :
    broadcastInDim ⟨2, ![n, c]⟩ ![0, 1] h x (ix2 q d) = x (ix2 q (0 : Fin 1)) :=
  broadcastInDim_apply ![0, 1] h x (ix2 q d) (ix2 q (0 : Fin 1)) fun a => by
    match a with
    | ⟨0, _⟩ =>
      show q.val = if n = 1 then 0 else q.val
      split
      · have := q.isLt; omega
      · rfl
    | ⟨1, _⟩ => rfl

/-- A vector `[N]` broadcast to one row and that row to every row of `[M, N]` reads, at `(p, q)`, the vector at `q`. -/
theorem bcast_vec_mat {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]

end Layout

/-- The host's sum of an `[n, c]` array along its second axis reads, at row `q`, the initial value plus the sum of the
    row's entries. -/
theorem hostRowSum {n c : ℕ} (x : FVec Ideal ⟨2, ![n, c]⟩ .f32) (init : FVec Ideal ⟨0, ![]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel) (q : Fin n) :
    Host.reduceAdd x init h' hu (ix1 q) = init (Shape.Idx.first hu) + ∑ k : Fin c, x (ix2 q k) := by
  refine (Ideal.hostReduceAdd_single h' h x (init (Shape.Idx.first hu)) (ix1 q)).trans ?_
  refine congrArg (init (Shape.Idx.first hu) + ·) (Finset.sum_congr rfl fun k _ => congrArg x (funext fun ax => Fin.ext ?_))
  match ax with
  | ⟨0, _⟩ => rfl
  | ⟨1, _⟩ => rfl

/-- The host's `l · rᵀ` (the second axes contracted, no batch axis) reads, at `(q, d)`, the sum over `p` of
    `l (q, p) · r (d, p)`. -/
theorem hostDot_abT {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    Host.dotGeneral (F := Ideal) D prec l r (ix2 q d) = ∑ p : Fin K, l (ix2 q p) * r (ix2 d p) :=
  (Ideal.dotGeneral_apply D prec .single l r (ix2 q d)).trans (Cert.RowBlocks.abT_sum D h1 h2 h3 h4 h5 h6 l r q d)

end Cert.HostLayout

end
-- ==== Proof.LibHeteroMean.lean ====
/-
  Averaging several relations' messages into one destination type, on the extended reals, at any extents.

  One relation sends to a destination row `p` the message `part M wl b X wr (p, q) = (∑ k, M(p,k) · wl(q,k) + b(0,q)) +
  ∑ k, X(p,k) · wr(q,k)`: the aggregated neighbour rows `M` times the transposed weight, a one-row bias, and the
  destination's own rows `X` times a second transposed weight.  The messages of two or three relations are added to a
  zero array from the left, the sum is multiplied by a scalar `c` (`mean2`, `mean3`), and the result is rectified
  (`relu`) or each row is divided by `max (√(sum of the row's squares), eps)` (`l2`).

  The vector unit spells the transposition, the two products into zero accumulators, the bias row broadcast along the
  rows, the sum from a zero splat, the product with a splat, the maximum with a zero splat, and the row norm as a lane
  sum cast to a column and broadcast back.  The host spells the same with `dot_general`, `broadcast_in_dim`, a
  quotient by a broadcast constant `d` and a `reduce`.  Each spelling is the function above; the host's quotient by a
  nonzero real `d` is the product with `1/d` on every extended real, so no finiteness is needed anywhere.

  An entry of each function depends on one row of the row-blocked operands (`part_rows`, `mean2_at`, `mean3_at`,
  `relu_at`, `l2_rows`): what reading a block of rows against the whole array needs.
-/
import proofs.«116292_j712964571450_1_alg».proof.Proof.LibDense
import proofs.«116292_j712964571450_1_alg».proof.Proof.LibBiasRow
import proofs.«116292_j712964571450_1_alg».proof.Proof.LibRowBlocks
import proofs.«116292_j712964571450_1_alg».proof.Proof.LibHostLayout

noncomputable section

open scoped BigOperators

namespace Cert.HeteroMean

open Idealize.ShloMosaic Idealize.ShloMosaic.ValueIdx Cert.Dense Cert.BiasRow

/-! ## The functions -/

/-- The transposed matrix. -/
def tr {a b : ℕ} (W : Mat a b) : Mat b a := fun i => W (ix2 (c1 i) (c0 i))

theorem tr_apply {a b : ℕ} (W : Mat a b) (j : Fin b) (i : Fin a) : tr W (ix2 j i) = W (ix2 i j) := rfl

/-- One relation's message. -/
def part {n a e o : ℕ} (M : Mat n a) (wl : Mat o a) (b : Mat 1 o) (X : Mat n e) (wr : Mat o e) : Mat n o :=
  fun i => addRow (mm M (tr wl)) b i + mm X (tr wr) i

theorem part_apply {n a e o : ℕ} (M : Mat n a) (wl : Mat o a) (b : Mat 1 o) (X : Mat n e) (wr : Mat o e)
    (p : Fin n) (q : Fin o) :
    part M wl b X wr (ix2 p q)
      = ((∑ k : Fin a, M (ix2 p k) * wl (ix2 q k)) + b (ix2 (0 : Fin 1) q)) + ∑ k : Fin e, X (ix2 p k) * wr (ix2 q k) := rfl

/-- Two messages added to zero from the left, times `c`. -/
def mean2 {n o : ℕ} (c : EReal) (P1 P2 : Mat n o) : Mat n o := fun i => ((0 + P1 i) + P2 i) * c

/-- Three messages added to zero from the left, times `c`. -/
def mean3 {n o : ℕ} (c : EReal) (P1 P2 P3 : Mat n o) : Mat n o := fun i => (((0 + P1 i) + P2 i) + P3 i) * c

/-- The rectifier, entry by entry. -/
def relu {n o : ℕ} (Y : Mat n o) : Mat n o := fun i => max (Y i) 0

/-- Each row divided by the larger of its Euclidean norm and `eps`. -/
def l2 {n o : ℕ} (eps : EReal) (Y : Mat n o) : Mat n o :=
  fun i => Ideal.div (Y i) (max (Ideal.sqrt (∑ k : Fin o, Y (ix2 (c0 i) k) * Y (ix2 (c0 i) k))) eps)

theorem l2_apply {n o : ℕ} (eps : EReal) (Y : Mat n o) (p : Fin n) (q : Fin o) :
    l2 eps Y (ix2 p q) = Ideal.div (Y (ix2 p q)) (max (Ideal.sqrt (∑ k : Fin o, Y (ix2 p k) * Y (ix2 p k))) eps) := rfl

/-! ## Row locality -/

theorem part_rows {n n' a e o : ℕ} (M : Mat n a) (M' : Mat n' a) (wl : Mat o a) (b : Mat 1 o) (X : Mat n e) (X' : Mat n' e)
    (wr : Mat o e) (p : Fin n) (p' : Fin n') (hM : ∀ k, M' (ix2 p' k) = M (ix2 p k)) (hX : ∀ k, X' (ix2 p' k) = X (ix2 p k))
    (q : Fin o) : part M' wl b X' wr (ix2 p' q) = part M wl b X wr (ix2 p q) := by
  simp only [part_apply, hM, hX]

theorem mean2_at {n n' o : ℕ} (c : EReal) (P1 P2 : Mat n o) (P1' P2' : Mat n' o) (i : (⟨2, ![n, o]⟩ : Shape).Idx)
    (j : (⟨2, ![n', o]⟩ : Shape).Idx) (h1 : P1' j = P1 i) (h2 : P2' j = P2 i) : mean2 c P1' P2' j = mean2 c P1 P2 i := by
  unfold mean2; rw [h1, h2]

theorem mean3_at {n n' o : ℕ} (c : EReal) (P1 P2 P3 : Mat n o) (P1' P2' P3' : Mat n' o) (i : (⟨2, ![n, o]⟩ : Shape).Idx)
    (j : (⟨2, ![n', o]⟩ : Shape).Idx) (h1 : P1' j = P1 i) (h2 : P2' j = P2 i) (h3 : P3' j = P3 i) :
    mean3 c P1' P2' P3' j = mean3 c P1 P2 P3 i := by
  unfold mean3; rw [h1, h2, h3]

theorem relu_at {n n' o : ℕ} (Y : Mat n o) (Y' : Mat n' o) (i : (⟨2, ![n, o]⟩ : Shape).Idx)
    (j : (⟨2, ![n', o]⟩ : Shape).Idx) (h : Y' j = Y i) : relu Y' j = relu Y i := by
  unfold relu; rw [h]

theorem l2_rows {n n' o : ℕ} (eps : EReal) (Y : Mat n o) (Y' : Mat n' o) (p : Fin n) (p' : Fin n')
    (h : ∀ k, Y' (ix2 p' k) = Y (ix2 p k)) (q : Fin o) : l2 eps Y' (ix2 p' q) = l2 eps Y (ix2 p q) := by
  simp only [l2_apply, h]

/-! ## The transposition and one message, in the vector unit's and the host's spelling -/

/-- `transpose [1, 0]` is the transposed matrix (one operation for the vector unit and the host). -/
theorem transpose_eq_tr {a b : ℕ} (W : FVec Ideal ⟨2, ![a, b]⟩ .f32)
    (h : (⟨2, ![a, b]⟩ : Shape).Transposes [1, 0] ⟨2, ![b, a]⟩) : transpose ⟨2, ![b, a]⟩ [1, 0] W h = tr W := by
  funext i
  obtain ⟨j, k, rfl⟩ : ∃ (j : Fin b) (k : Fin a), i = ix2 j k := ⟨i 0, i 1, eq_ix2 i⟩
  exact transpose_ix2_apply W h j k

/-- The vector unit's message: two products with transposed weights into zero accumulators, the bias row broadcast
    along the rows between them. -/
theorem vecPart {n a e o : ℕ} (D1 : DotDims ⟨2, ![n, a]⟩ ⟨2, ![a, o]⟩ ⟨2, ![n, o]⟩)
    (h1 : D1.lhsContracting = [1]) (h2 : D1.rhsContracting = [0]) (h3 : D1.lhsNonContracting = [0])
    (h4 : D1.rhsNonContracting = [1]) (h5 : D1.lhsBatch = []) (h6 : D1.rhsBatch = [])
    (D2 : DotDims ⟨2, ![n, e]⟩ ⟨2, ![e, o]⟩ ⟨2, ![n, o]⟩)
    (g1 : D2.lhsContracting = [1]) (g2 : D2.rhsContracting = [0]) (g3 : D2.lhsNonContracting = [0])
    (g4 : D2.rhsNonContracting = [1]) (g5 : D2.lhsBatch = []) (g6 : D2.rhsBatch = [])
    (prec1 prec2 : Option ContractPrecision)
    (M : FVec Ideal ⟨2, ![n, a]⟩ .f32) (wl : FVec Ideal ⟨2, ![o, a]⟩ .f32) (b : FVec Ideal ⟨2, ![1, o]⟩ .f32)
    (X : FVec Ideal ⟨2, ![n, e]⟩ .f32) (wr : FVec Ideal ⟨2, ![o, e]⟩ .f32)
    (t1 : (⟨2, ![o, a]⟩ : Shape).Transposes [1, 0] ⟨2, ![a, o]⟩) (t2 : (⟨2, ![o, e]⟩ : Shape).Transposes [1, 0] ⟨2, ![e, o]⟩)
    (hb : (⟨2, ![1, o]⟩ : Shape).Broadcasts ⟨2, ![n, o]⟩) :
    addf (addf (matmul (F := Ideal) D1 prec1 M (transpose ⟨2, ![a, o]⟩ [1, 0] wl t1) (constant ⟨2, ![n, o]⟩ .f32 0x00000000#32))
          (broadcastTo ⟨2, ![n, o]⟩ b hb))
        (matmul (F := Ideal) D2 prec2 X (transpose ⟨2, ![e, o]⟩ [1, 0] wr t2) (constant ⟨2, ![n, o]⟩ .f32 0x00000000#32))
      = part M wl b X wr := by
  rw [matmul_zero_eq_mm D1 h1 h2 h3 h4 h5 h6, matmul_zero_eq_mm D2 g1 g2 g3 g4 g5 g6, transpose_eq_tr, transpose_eq_tr,
    vecAddRow]
  rfl

/-- The host's message: two `dot_general`s with transposed weights, the bias vector broadcast to one row and along
    the rows between them. -/
theorem hostPart {n a e o : ℕ} (D1 : DotDims ⟨2, ![n, a]⟩ ⟨2, ![a, o]⟩ ⟨2, ![n, o]⟩)
    (h1 : D1.lhsContracting = [1]) (h2 : D1.rhsContracting = [0]) (h3 : D1.lhsNonContracting = [0])
    (h4 : D1.rhsNonContracting = [1]) (h5 : D1.lhsBatch = []) (h6 : D1.rhsBatch = [])
    (D2 : DotDims ⟨2, ![n, e]⟩ ⟨2, ![e, o]⟩ ⟨2, ![n, o]⟩)
    (g1 : D2.lhsContracting = [1]) (g2 : D2.rhsContracting = [0]) (g3 : D2.lhsNonContracting = [0])
    (g4 : D2.rhsNonContracting = [1]) (g5 : D2.lhsBatch = []) (g6 : D2.rhsBatch = [])
    (prec1 prec2 : Option ContractPrecision)
    (M : FVec Ideal ⟨2, ![n, a]⟩ .f32) (wl : FVec Ideal ⟨2, ![o, a]⟩ .f32) (b : FVec Ideal ⟨1, ![o]⟩ .f32)
    (X : FVec Ideal ⟨2, ![n, e]⟩ .f32) (wr : FVec Ideal ⟨2, ![o, e]⟩ .f32)
    (t1 : (⟨2, ![o, a]⟩ : Shape).Transposes [1, 0] ⟨2, ![a, o]⟩) (t2 : (⟨2, ![o, e]⟩ : Shape).Transposes [1, 0] ⟨2, ![e, o]⟩)
    (b1 : (⟨1, ![o]⟩ : Shape).BroadcastsInDim ⟨2, ![1, o]⟩ ![1])
    (b2 : (⟨2, ![1, o]⟩ : Shape).BroadcastsInDim ⟨2, ![n, o]⟩ ![0, 1]) :
    addf (addf (Host.dotGeneral (F := Ideal) D1 prec1 M (transpose ⟨2, ![a, o]⟩ [1, 0] wl t1))
          (broadcastInDim ⟨2, ![n, o]⟩ ![0, 1] b2 (broadcastInDim ⟨2, ![1, o]⟩ ![1] b1 b)))
        (Host.dotGeneral (F := Ideal) D2 prec2 X (transpose ⟨2, ![e, o]⟩ [1, 0] wr t2))
      = part M wl (row b) X wr := by
  rw [hostDot_eq_mm D1 h1 h2 h3 h4 h5 h6, hostDot_eq_mm D2 g1 g2 g3 g4 g5 g6, transpose_eq_tr, transpose_eq_tr,
    hostAddRow]
  rfl

/-! ## The sum of the messages, scaled -/

/-- The vector unit's sum of two messages from a zero splat, times a splat. -/
theorem vecMean2 {n o : ℕ} (c : Ideal .f32) (P1 P2 : FVec Ideal ⟨2, ![n, o]⟩ .f32) :
    mulf (addf (addf (broadcast ⟨2, ![n, o]⟩ (Scalar.ofBits (F := Ideal) .f32 0x00000000#32)) P1) P2) (broadcast ⟨2, ![n, o]⟩ c)
      = mean2 c P1 P2 := by
  funext i
  show ((Ideal.ofBits .f32 0x00000000#32 + P1 i) + P2 i) * c = _
  rw [Ideal.ofBits_zero_f32]
  rfl

/-- The vector unit's sum of three messages from a zero splat, times a splat. -/
theorem vecMean3 {n o : ℕ} (c : Ideal .f32) (P1 P2 P3 : FVec Ideal ⟨2, ![n, o]⟩ .f32) :
    mulf (addf (addf (addf (broadcast ⟨2, ![n, o]⟩ (Scalar.ofBits (F := Ideal) .f32 0x00000000#32)) P1) P2) P3)
        (broadcast ⟨2, ![n, o]⟩ c)
      = mean3 c P1 P2 P3 := by
  funext i
  show (((Ideal.ofBits .f32 0x00000000#32 + P1 i) + P2 i) + P3 i) * c = _
  rw [Ideal.ofBits_zero_f32]
  rfl

/-- The host's sum of two messages from a broadcast zero, divided by a broadcast constant denoting the nonzero real `d`. -/
theorem hostMean2 {n o : ℕ} (w : BitVec 32) (d : ℝ) (hw : Ideal.ofBits .f32 w = ((d : ℝ) : EReal)) (hd : d ≠ 0)
    (P1 P2 : FVec Ideal ⟨2, ![n, o]⟩ .f32) (h0 h0' : (⟨0, ![]⟩ : Shape).BroadcastsInDim ⟨2, ![n, o]⟩ ![]) :
    Host.divf (addf (addf (broadcastInDim ⟨2, ![n, o]⟩ ![] h0 (constant (F := Ideal) ⟨0, ![]⟩ .f32 0x00000000#32)) P1) P2)
        (broadcastInDim ⟨2, ![n, o]⟩ ![] h0' (constant (F := Ideal) ⟨0, ![]⟩ .f32 w))
      = mean2 (((1 / d : ℝ) : EReal)) P1 P2 := by
  funext i
  obtain ⟨p, q, rfl⟩ : ∃ (p : Fin n) (q : Fin o), i = ix2 p q := ⟨i 0, i 1, eq_ix2 i⟩
  show Ideal.div ((broadcastInDim ⟨2, ![n, o]⟩ ![] h0 (constant (F := Ideal) ⟨0, ![]⟩ .f32 0x00000000#32) (ix2 p q) + P1 (ix2 p q))
      + P2 (ix2 p q)) (broadcastInDim ⟨2, ![n, o]⟩ ![] h0' (constant (F := Ideal) ⟨0, ![]⟩ .f32 w) (ix2 p q)) = _
  rw [Cert.HostLayout.bcast_scalar_mat, Cert.HostLayout.bcast_scalar_mat]
  show Ideal.div ((Ideal.ofBits .f32 0x00000000#32 + P1 (ix2 p q)) + P2 (ix2 p q)) (Ideal.ofBits .f32 w) = _
  rw [Ideal.ofBits_zero_f32, hw, Ideal.div_coe hd]
  rfl

/-- The host's sum of three messages from a broadcast zero, divided by a broadcast constant denoting the nonzero real `d`. -/
theorem hostMean3 {n o : ℕ} (w : BitVec 32) (d : ℝ) (hw : Ideal.ofBits .f32 w = ((d : ℝ) : EReal)) (hd : d ≠ 0)
    (P1 P2 P3 : FVec Ideal ⟨2, ![n, o]⟩ .f32) (h0 h0' : (⟨0, ![]⟩ : Shape).BroadcastsInDim ⟨2, ![n, o]⟩ ![]) :
    Host.divf (addf (addf (addf (broadcastInDim ⟨2, ![n, o]⟩ ![] h0 (constant (F := Ideal) ⟨0, ![]⟩ .f32 0x00000000#32)) P1) P2) P3)
        (broadcastInDim ⟨2, ![n, o]⟩ ![] h0' (constant (F := Ideal) ⟨0, ![]⟩ .f32 w))
      = mean3 (((1 / d : ℝ) : EReal)) P1 P2 P3 := by
  funext i
  obtain ⟨p, q, rfl⟩ : ∃ (p : Fin n) (q : Fin o), i = ix2 p q := ⟨i 0, i 1, eq_ix2 i⟩
  show Ideal.div (((broadcastInDim ⟨2, ![n, o]⟩ ![] h0 (constant (F := Ideal) ⟨0, ![]⟩ .f32 0x00000000#32) (ix2 p q) + P1 (ix2 p q))
      + P2 (ix2 p q)) + P3 (ix2 p q)) (broadcastInDim ⟨2, ![n, o]⟩ ![] h0' (constant (F := Ideal) ⟨0, ![]⟩ .f32 w) (ix2 p q)) = _
  rw [Cert.HostLayout.bcast_scalar_mat, Cert.HostLayout.bcast_scalar_mat]
  show Ideal.div (((Ideal.ofBits .f32 0x00000000#32 + P1 (ix2 p q)) + P2 (ix2 p q)) + P3 (ix2 p q)) (Ideal.ofBits .f32 w) = _
  rw [Ideal.ofBits_zero_f32, hw, Ideal.div_coe hd]
  rfl

/-! ## The rectifier -/

/-- The vector unit's maximum with a zero splat. -/
theorem vecRelu {n o : ℕ} (Y : FVec Ideal ⟨2, ![n, o]⟩ .f32) :
    maximumf Y (broadcast ⟨2, ![n, o]⟩ (Scalar.ofBits (F := Ideal) .f32 0x00000000#32)) = relu Y := by
  funext i
  show max (Y i) (Ideal.ofBits .f32 0x00000000#32) = _
  rw [Ideal.ofBits_zero_f32]
  rfl

/-- The host's maximum with a broadcast scalar zero. -/
theorem hostRelu {n o : ℕ} (Y : FVec Ideal ⟨2, ![n, o]⟩ .f32) (h0 : (⟨0, ![]⟩ : Shape).BroadcastsInDim ⟨2, ![n, o]⟩ ![]) :
    maximumf Y (broadcastInDim ⟨2, ![n, o]⟩ ![] h0 (constant (F := Ideal) ⟨0, ![]⟩ .f32 0x00000000#32)) = relu Y := by
  funext i
  obtain ⟨p, q, rfl⟩ : ∃ (p : Fin n) (q : Fin o), i = ix2 p q := ⟨i 0, i 1, eq_ix2 i⟩
  show max (Y (ix2 p q)) (broadcastInDim ⟨2, ![n, o]⟩ ![] h0 (constant (F := Ideal) ⟨0, ![]⟩ .f32 0x00000000#32) (ix2 p q)) = _
  rw [Cert.HostLayout.bcast_scalar_mat]
  show max (Y (ix2 p q)) (Ideal.ofBits .f32 0x00000000#32) = _
  rw [Ideal.ofBits_zero_f32]
  rfl

/-! ## The row normalisation -/

/-- The vector unit's row normalisation: the lane sum of the squares from the zero word, cast to a column, its root,
    the maximum with a splat of `eps`, broadcast along the rows, the exact quotient. -/
theorem vecL2 {n o : ℕ} (epsw : BitVec 32) (Y : FVec Ideal ⟨2, ![n, o]⟩ .f32)
    (hr : (⟨2, ![n, o]⟩ : Shape).Reduces [1] ⟨1, ![n]⟩) (hφ : FKind.Formats .f32)
    (hacc : (0x00000000#32 : BitVec 32) = 0x00000000#32)
    (hc : (⟨1, ![n]⟩ : Shape).ShapeCasts ⟨2, ![n, 1]⟩) (hb : (⟨2, ![n, 1]⟩ : Shape).Broadcasts ⟨2, ![n, o]⟩) :
    divf Y (broadcastTo ⟨2, ![n, o]⟩
        (maximumf (sqrt (shapeCast ⟨2, ![n, 1]⟩ (multiReduction .add [1] ⟨1, ![n]⟩ (mulf Y Y) 0x00000000#32 hr hφ hacc) hc))
          (broadcast ⟨2, ![n, 1]⟩ (Scalar.ofBits (F := Ideal) .f32 epsw))) hb)
      = l2 (Ideal.ofBits .f32 epsw) Y := by
  funext i
  obtain ⟨p, q, rfl⟩ : ∃ (p : Fin n) (q : Fin o), i = ix2 p q := ⟨i 0, i 1, eq_ix2 i⟩
  show Ideal.div (Y (ix2 p q)) (broadcastTo ⟨2, ![n, o]⟩
      (maximumf (sqrt (shapeCast ⟨2, ![n, 1]⟩ (multiReduction .add [1] ⟨1, ![n]⟩ (mulf Y Y) 0x00000000#32 hr hφ hacc) hc))
        (broadcast ⟨2, ![n, 1]⟩ (Scalar.ofBits (F := Ideal) .f32 epsw))) hb (ix2 p q)) = _
  rw [Cert.RowBlocks.broadcastTo_col_apply]
  show Ideal.div (Y (ix2 p q)) (max (Ideal.sqrt (shapeCast ⟨2, ![n, 1]⟩
      (multiReduction .add [1] ⟨1, ![n]⟩ (mulf Y Y) 0x00000000#32 hr hφ hacc) hc (ix2 p (0 : Fin 1)))) (Ideal.ofBits .f32 epsw)) = _
  rw [Cert.RowBlocks.shapeCast_col_apply, Cert.RowBlocks.rowSum_apply]
  rfl

/-- The host's row normalisation: `reduce` by addition of the squares from a scalar zero, broadcast to a column, its
    root, the maximum with a broadcast `eps`, broadcast along the rows, the quotient. -/
theorem hostL2 {n o : ℕ} (epsw : BitVec 32) (Y : FVec Ideal ⟨2, ![n, o]⟩ .f32)
    (hr' : (⟨2, ![n, o]⟩ : Shape).ReducesTo [1] ⟨1, ![n]⟩) (hr : (⟨2, ![n, o]⟩ : Shape).Reduces [1] ⟨1, ![n]⟩)
    (hu : 0 < (⟨0, ![]⟩ : Shape).numel)
    (b1 : (⟨1, ![n]⟩ : Shape).BroadcastsInDim ⟨2, ![n, 1]⟩ ![0])
    (b0 : (⟨0, ![]⟩ : Shape).BroadcastsInDim ⟨2, ![n, 1]⟩ ![])
    (b2 : (⟨2, ![n, 1]⟩ : Shape).BroadcastsInDim ⟨2, ![n, o]⟩ ![0, 1]) :
    Host.divf Y (broadcastInDim ⟨2, ![n, o]⟩ ![0, 1] b2
        (maximumf (Host.sqrt (broadcastInDim ⟨2, ![n, 1]⟩ ![0] b1
            (Host.reduceAdd (mulf Y Y) (constant (F := Ideal) ⟨0, ![]⟩ .f32 0x00000000#32) hr' hu)))
          (broadcastInDim ⟨2, ![n, 1]⟩ ![] b0 (constant (F := Ideal) ⟨0, ![]⟩ .f32 epsw))))
      = l2 (Ideal.ofBits .f32 epsw) Y := by
  funext i
  obtain ⟨p, q, rfl⟩ : ∃ (p : Fin n) (q : Fin o), i = ix2 p q := ⟨i 0, i 1, eq_ix2 i⟩
  show Ideal.div (Y (ix2 p q)) (broadcastInDim ⟨2, ![n, o]⟩ ![0, 1] b2
      (maximumf (Host.sqrt (broadcastInDim ⟨2, ![n, 1]⟩ ![0] b1
          (Host.reduceAdd (mulf Y Y) (constant (F := Ideal) ⟨0, ![]⟩ .f32 0x00000000#32) hr' hu)))
        (broadcastInDim ⟨2, ![n, 1]⟩ ![] b0 (constant (F := Ideal) ⟨0, ![]⟩ .f32 epsw))) (ix2 p q)) = _
  rw [Cert.HostLayout.bcast_col_mat]
  show Ideal.div (Y (ix2 p q)) (max (Ideal.sqrt (broadcastInDim ⟨2, ![n, 1]⟩ ![0] b1
      (Host.reduceAdd (mulf Y Y) (constant (F := Ideal) ⟨0, ![]⟩ .f32 0x00000000#32) hr' hu) (ix2 p (0 : Fin 1))))
      (broadcastInDim ⟨2, ![n, 1]⟩ ![] b0 (constant (F := Ideal) ⟨0, ![]⟩ .f32 epsw) (ix2 p (0 : Fin 1)))) = _
  rw [Cert.HostLayout.bcast_vec_col, Cert.HostLayout.bcast_scalar_mat, Cert.HostLayout.hostRowSum _ _ hr' hr hu]
  show Ideal.div (Y (ix2 p q)) (max (Ideal.sqrt (Ideal.ofBits .f32 0x00000000#32 + ∑ k : Fin o, Y (ix2 p k) * Y (ix2 p k)))
      (Ideal.ofBits .f32 epsw)) = _
  rw [Ideal.ofBits_zero_f32, zero_add]
  rfl

/-! ## One destination type's update before its activation -/

/-- Two relations' messages to one destination type, averaged with the scalar `c`. -/
def upd2 {n a e o : ℕ} (c : EReal) (x : Mat n e) (m1 m2 : Mat n a) (wl1 wl2 : Mat o a) (b1 b2 : Mat 1 o)
    (wr1 wr2 : Mat o e) : Mat n o :=
  mean2 c (part m1 wl1 b1 x wr1) (part m2 wl2 b2 x wr2)

/-- Three relations' messages to one destination type, averaged with the scalar `c`. -/
def upd3 {n a e o : ℕ} (c : EReal) (x : Mat n e) (m1 m2 m3 : Mat n a) (wl1 wl2 wl3 : Mat o a) (b1 b2 b3 : Mat 1 o)
    (wr1 wr2 wr3 : Mat o e) : Mat n o :=
  mean3 c (part m1 wl1 b1 x wr1) (part m2 wl2 b2 x wr2) (part m3 wl3 b3 x wr3)

/-- A row of the update depends on the same row of the destination's features and of each aggregate. -/
theorem upd2_rows {n n' a e o : ℕ} (c : EReal) (x : Mat n e) (x' : Mat n' e) (m1 m2 : Mat n a) (m1' m2' : Mat n' a)
    (wl1 wl2 : Mat o a) (b1 b2 : Mat 1 o) (wr1 wr2 : Mat o e) (p : Fin n) (p' : Fin n')
    (hx : ∀ k, x' (ix2 p' k) = x (ix2 p k)) (h1 : ∀ k, m1' (ix2 p' k) = m1 (ix2 p k))
    (h2 : ∀ k, m2' (ix2 p' k) = m2 (ix2 p k)) (q : Fin o) :
    upd2 c x' m1' m2' wl1 wl2 b1 b2 wr1 wr2 (ix2 p' q) = upd2 c x m1 m2 wl1 wl2 b1 b2 wr1 wr2 (ix2 p q) :=
  mean2_at c _ _ _ _ _ _ (part_rows m1 m1' wl1 b1 x x' wr1 p p' h1 hx q) (part_rows m2 m2' wl2 b2 x x' wr2 p p' h2 hx q)

theorem upd3_rows {n n' a e o : ℕ} (c : EReal) (x : Mat n e) (x' : Mat n' e) (m1 m2 m3 : Mat n a) (m1' m2' m3' : Mat n' a)
    (wl1 wl2 wl3 : Mat o a) (b1 b2 b3 : Mat 1 o) (wr1 wr2 wr3 : Mat o e) (p : Fin n) (p' : Fin n')
    (hx : ∀ k, x' (ix2 p' k) = x (ix2 p k)) (h1 : ∀ k, m1' (ix2 p' k) = m1 (ix2 p k))
    (h2 : ∀ k, m2' (ix2 p' k) = m2 (ix2 p k)) (h3 : ∀ k, m3' (ix2 p' k) = m3 (ix2 p k)) (q : Fin o) :
    upd3 c x' m1' m2' m3' wl1 wl2 wl3 b1 b2 b3 wr1 wr2 wr3 (ix2 p' q)
      = upd3 c x m1 m2 m3 wl1 wl2 wl3 b1 b2 b3 wr1 wr2 wr3 (ix2 p q) :=
  mean3_at c _ _ _ _ _ _ _ _ (part_rows m1 m1' wl1 b1 x x' wr1 p p' h1 hx q) (part_rows m2 m2' wl2 b2 x x' wr2 p p' h2 hx q)
    (part_rows m3 m3' wl3 b3 x x' wr3 p p' h3 hx q)

/-- The rectified array at an entry, from a pointwise agreement of the arrays. -/
theorem relu_rows {n n' o : ℕ} (Y : Mat n o) (Y' : Mat n' o) (p : Fin n) (p' : Fin n') (q : Fin o)
    (h : Y' (ix2 p' q) = Y (ix2 p q)) : relu Y' (ix2 p' q) = relu Y (ix2 p q) :=
  relu_at Y Y' _ _ h

/-! ## The constants the two spellings divide and multiply by -/

theorem ofBits_three : Ideal.ofBits .f32 0x40400000#32 = ((3 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_half : Ideal.ofBits .f32 0x3F000000#32 = (((1 / 2 : ℝ)) : EReal) := by
  simp [Ideal.ofBits, Ideal.ieee, -EReal.coe_mul]; norm_num

end Cert.HeteroMean

end
-- ==== Proof.RefLayers.lean ====
/-
  The reference, one layer and one node type at a time: each layer output is the update of that node type — the
  relations' messages from the aggregates and the weight and bias slices, their sum from a broadcast zero divided by the
  number of relations (the product with its reciprocal on every extended real), then the rectifier or the row
  normalisation — of the previous layer's outputs.  The aggregates and the slices stay the reference's own stages.
-/
import proofs.«116292_j712964571450_1_alg».proof.Proof.ReadP
import proofs.«116292_j712964571450_1_alg».proof.Proof.LibHeteroMean

set_option maxRecDepth 16384

noncomputable section

namespace Cert.ReferenceIdeal.Layers

open Cert.ReferenceIdeal Cert.ReferenceIdeal.Gen Cert.ReferenceIdeal.ReadP Idealize.ShloMosaic Idealize.ShloMosaic.ValueIdx
open Cert.Dense Cert.HeteroMean

variable (x0 : (⟨S50000x128, .f32⟩ : BufTy).Contents (Elt Ideal))
  (x1 : (⟨S20000x128, .f32⟩ : BufTy).Contents (Elt Ideal))
  (x2 : (⟨S5000x128, .f32⟩ : BufTy).Contents (Elt Ideal))
  (x3 : (⟨S3x8x128x128, .f32⟩ : BufTy).Contents (Elt Ideal))
  (x4 : (⟨S3x8x128, .f32⟩ : BufTy).Contents (Elt Ideal))
  (x5 : (⟨S3x8x128x128, .f32⟩ : BufTy).Contents (Elt Ideal))
  (x6 : (⟨S2x500000, .i32⟩ : BufTy).Contents (Elt Ideal))
  (x7 : (⟨S2x250000, .i32⟩ : BufTy).Contents (Elt Ideal))
  (x8 : (⟨S2x250000, .i32⟩ : BufTy).Contents (Elt Ideal))
  (x9 : (⟨S2x500000, .i32⟩ : BufTy).Contents (Elt Ideal))
  (x10 : (⟨S2x250000, .i32⟩ : BufTy).Contents (Elt Ideal))
  (x11 : (⟨S2x250000, .i32⟩ : BufTy).Contents (Elt Ideal))
  (x12 : (⟨S2x500000, .i32⟩ : BufTy).Contents (Elt Ideal))
  (x13 : (⟨S2x100000, .i32⟩ : BufTy).Contents (Elt Ideal))

/-- Layer 0, node type 0: the reference's output is the update of its inputs. -/
theorem out0 :
    (val_main_v319 (F := Ideal) x0 x1 x2 x3 x4 x5 x9 x11 x12)
      = relu (upd3 (((1 / 3 : ℝ)) : EReal) x0 (val_main_v145 (F := Ideal) x1 x9) (val_main_v219 (F := Ideal) x2 x11) (val_main_v256 (F := Ideal) x0 x12) (val_main_v118 (F := Ideal) x3) (val_main_v192 (F := Ideal) x3) (val_main_v229 (F := Ideal) x3) (row (val_main_v120 (F := Ideal) x4)) (row (val_main_v194 (F := Ideal) x4)) (row (val_main_v231 (F := Ideal) x4)) (val_main_v122 (F := Ideal) x5) (val_main_v196 (F := Ideal) x5) (val_main_v233 (F := Ideal) x5)) := by
  have e1 := hostPart dot_S50000x128_S128x128_S50000x128_1_0_0_1_n_n rfl rfl rfl rfl rfl rfl dot_S50000x128_S128x128_S50000x128_1_0_0_1_n_n rfl rfl rfl rfl rfl rfl none none (val_main_v145 (F := Ideal) x1 x9) (val_main_v118 (F := Ideal) x3) (val_main_v120 (F := Ideal) x4) x0 (val_main_v122 (F := Ideal) x5) transposes_S128x128_S128x128_1_0 transposes_S128x128_S128x128_1_0 bcast_S128_S1x128_1 bcast_S1x128_S50000x128_0_1
  have e2 := hostPart dot_S50000x128_S128x128_S50000x128_1_0_0_1_n_n rfl rfl rfl rfl rfl rfl dot_S50000x128_S128x128_S50000x128_1_0_0_1_n_n rfl rfl rfl rfl rfl rfl none none (val_main_v219 (F := Ideal) x2 x11) (val_main_v192 (F := Ideal) x3) (val_main_v194 (F := Ideal) x4) x0 (val_main_v196 (F := Ideal) x5) transposes_S128x128_S128x128_1_0 transposes_S128x128_S128x128_1_0 bcast_S128_S1x128_1 bcast_S1x128_S50000x128_0_1
  have e3 := hostPart dot_S50000x128_S128x128_S50000x128_1_0_0_1_n_n rfl rfl rfl rfl rfl rfl dot_S50000x128_S128x128_S50000x128_1_0_0_1_n_n rfl rfl rfl rfl rfl rfl none none (val_main_v256 (F := Ideal) x0 x12) (val_main_v229 (F := Ideal) x3) (val_main_v231 (F := Ideal) x4) x0 (val_main_v233 (F := Ideal) x5) transposes_S128x128_S128x128_1_0 transposes_S128x128_S128x128_1_0 bcast_S128_S1x128_1 bcast_S1x128_S50000x128_0_1
  unfold upd3
  rw [← hostRelu _ bcast_S_S50000x128, ← hostMean3 0x40400000#32 3 ofBits_three (by norm_num) _ _ _ bcast_S_S50000x128 bcast_S_S50000x128, ← e1, ← e2, ← e3]
  rfl

/-- Layer 0, node type 1: the reference's output is the update of its inputs. -/
theorem out1 :
    (val_main_v320 (F := Ideal) x0 x1 x2 x3 x4 x5 x6 x10)
      = relu (upd2 (((1 / 2 : ℝ)) : EReal) x1 (val_main_v34 (F := Ideal) x0 x6) (val_main_v182 (F := Ideal) x2 x10) (val_main_v7 (F := Ideal) x3) (val_main_v155 (F := Ideal) x3) (row (val_main_v9 (F := Ideal) x4)) (row (val_main_v157 (F := Ideal) x4)) (val_main_v11 (F := Ideal) x5) (val_main_v159 (F := Ideal) x5)) := by
  have e1 := hostPart dot_S20000x128_S128x128_S20000x128_1_0_0_1_n_n rfl rfl rfl rfl rfl rfl dot_S20000x128_S128x128_S20000x128_1_0_0_1_n_n rfl rfl rfl rfl rfl rfl none none (val_main_v34 (F := Ideal) x0 x6) (val_main_v7 (F := Ideal) x3) (val_main_v9 (F := Ideal) x4) x1 (val_main_v11 (F := Ideal) x5) transposes_S128x128_S128x128_1_0 transposes_S128x128_S128x128_1_0 bcast_S128_S1x128_1 bcast_S1x128_S20000x128_0_1
  have e2 := hostPart dot_S20000x128_S128x128_S20000x128_1_0_0_1_n_n rfl rfl rfl rfl rfl rfl dot_S20000x128_S128x128_S20000x128_1_0_0_1_n_n rfl rfl rfl rfl rfl rfl none none (val_main_v182 (F := Ideal) x2 x10) (val_main_v155 (F := Ideal) x3) (val_main_v157 (F := Ideal) x4) x1 (val_main_v159 (F := Ideal) x5) transposes_S128x128_S128x128_1_0 transposes_S128x128_S128x128_1_0 bcast_S128_S1x128_1 bcast_S1x128_S20000x128_0_1
  unfold upd2
  rw [← hostRelu _ bcast_S_S20000x128, ← hostMean2 0x40000000#32 2 ofBits_two (by norm_num) _ _ bcast_S_S20000x128 bcast_S_S20000x128, ← e1, ← e2]
  rfl

/-- Layer 0, node type 2: the reference's output is the update of its inputs. -/
theorem out2 :
    (val_main_v321 (F := Ideal) x0 x1 x2 x3 x4 x5 x7 x8 x13)
      = relu (upd3 (((1 / 3 : ℝ)) : EReal) x2 (val_main_v71 (F := Ideal) x1 x7) (val_main_v108 (F := Ideal) x0 x8) (val_main_v293 (F := Ideal) x2 x13) (val_main_v44 (F := Ideal) x3) (val_main_v81 (F := Ideal) x3) (val_main_v266 (F := Ideal) x3) (row (val_main_v46 (F := Ideal) x4)) (row (val_main_v83 (F := Ideal) x4)) (row (val_main_v268 (F := Ideal) x4)) (val_main_v48 (F := Ideal) x5) (val_main_v85 (F := Ideal) x5) (val_main_v270 (F := Ideal) x5)) := by
  have e1 := hostPart dot_S5000x128_S128x128_S5000x128_1_0_0_1_n_n rfl rfl rfl rfl rfl rfl dot_S5000x128_S128x128_S5000x128_1_0_0_1_n_n rfl rfl rfl rfl rfl rfl none none (val_main_v71 (F := Ideal) x1 x7) (val_main_v44 (F := Ideal) x3) (val_main_v46 (F := Ideal) x4) x2 (val_main_v48 (F := Ideal) x5) transposes_S128x128_S128x128_1_0 transposes_S128x128_S128x128_1_0 bcast_S128_S1x128_1 bcast_S1x128_S5000x128_0_1
  have e2 := hostPart dot_S5000x128_S128x128_S5000x128_1_0_0_1_n_n rfl rfl rfl rfl rfl rfl dot_S5000x128_S128x128_S5000x128_1_0_0_1_n_n rfl rfl rfl rfl rfl rfl none none (val_main_v108 (F := Ideal) x0 x8) (val_main_v81 (F := Ideal) x3) (val_main_v83 (F := Ideal) x4) x2 (val_main_v85 (F := Ideal) x5) transposes_S128x128_S128x128_1_0 transposes_S128x128_S128x128_1_0 bcast_S128_S1x128_1 bcast_S1x128_S5000x128_0_1
  have e3 := hostPart dot_S5000x128_S128x128_S5000x128_1_0_0_1_n_n rfl rfl rfl rfl rfl rfl dot_S5000x128_S128x128_S5000x128_1_0_0_1_n_n rfl rfl rfl rfl rfl rfl none none (val_main_v293 (F := Ideal) x2 x13) (val_main_v266 (F := Ideal) x3) (val_main_v268 (F := Ideal) x4) x2 (val_main_v270 (F := Ideal) x5) transposes_S128x128_S128x128_1_0 transposes_S128x128_S128x128_1_0 bcast_S128_S1x128_1 bcast_S1x128_S5000x128_0_1
  unfold upd3
  rw [← hostRelu _ bcast_S_S5000x128, ← hostMean3 0x40400000#32 3 ofBits_three (by norm_num) _ _ _ bcast_S_S5000x128 bcast_S_S5000x128, ← e1, ← e2, ← e3]
  rfl

/-- Layer 1, node type 0: the reference's output is the update of its inputs. -/
theorem out3 :
    (val_main_v641 (F := Ideal) x0 x1 x2 x3 x4 x5 x6 x7 x8 x9 x10 x11 x12 x13)
      = relu (upd3 (((1 / 3 : ℝ)) : EReal) (val_main_v319 (F := Ideal) x0 x1 x2 x3 x4 x5 x9 x11 x12) (val_main_v467 (F := Ideal) x0 x1 x2 x3 x4 x5 x6 x9 x10) (val_main_v541 (F := Ideal) x0 x1 x2 x3 x4 x5 x7 x8 x11 x13) (val_main_v578 (F := Ideal) x0 x1 x2 x3 x4 x5 x9 x11 x12) (val_main_v440 (F := Ideal) x3) (val_main_v514 (F := Ideal) x3) (val_main_v551 (F := Ideal) x3) (row (val_main_v442 (F := Ideal) x4)) (row (val_main_v516 (F := Ideal) x4)) (row (val_main_v553 (F := Ideal) x4)) (val_main_v444 (F := Ideal) x5) (val_main_v518 (F := Ideal) x5) (val_main_v555 (F := Ideal) x5)) := by
  have e1 := hostPart dot_S50000x128_S128x128_S50000x128_1_0_0_1_n_n rfl rfl rfl rfl rfl rfl dot_S50000x128_S128x128_S50000x128_1_0_0_1_n_n rfl rfl rfl rfl rfl rfl none none (val_main_v467 (F := Ideal) x0 x1 x2 x3 x4 x5 x6 x9 x10) (val_main_v440 (F := Ideal) x3) (val_main_v442 (F := Ideal) x4) (val_main_v319 (F := Ideal) x0 x1 x2 x3 x4 x5 x9 x11 x12) (val_main_v444 (F := Ideal) x5) transposes_S128x128_S128x128_1_0 transposes_S128x128_S128x128_1_0 bcast_S128_S1x128_1 bcast_S1x128_S50000x128_0_1
  have e2 := hostPart dot_S50000x128_S128x128_S50000x128_1_0_0_1_n_n rfl rfl rfl rfl rfl rfl dot_S50000x128_S128x128_S50000x128_1_0_0_1_n_n rfl rfl rfl rfl rfl rfl none none (val_main_v541 (F := Ideal) x0 x1 x2 x3 x4 x5 x7 x8 x11 x13) (val_main_v514 (F := Ideal) x3) (val_main_v516 (F := Ideal) x4) (val_main_v319 (F := Ideal) x0 x1 x2 x3 x4 x5 x9 x11 x12) (val_main_v518 (F := Ideal) x5) transposes_S128x128_S128x128_1_0 transposes_S128x128_S128x128_1_0 bcast_S128_S1x128_1 bcast_S1x128_S50000x128_0_1
  have e3 := hostPart dot_S50000x128_S128x128_S50000x128_1_0_0_1_n_n rfl rfl rfl rfl rfl rfl dot_S50000x128_S128x128_S50000x128_1_0_0_1_n_n rfl rfl rfl rfl rfl rfl none none (val_main_v578 (F := Ideal) x0 x1 x2 x3 x4 x5 x9 x11 x12) (val_main_v551 (F := Ideal) x3) (val_main_v553 (F := Ideal) x4) (val_main_v319 (F := Ideal) x0 x1 x2 x3 x4 x5 x9 x11 x12) (val_main_v555 (F := Ideal) x5) transposes_S128x128_S128x128_1_0 transposes_S128x128_S128x128_1_0 bcast_S128_S1x128_1 bcast_S1x128_S50000x128_0_1
  unfold upd3
  rw [← hostRelu _ bcast_S_S50000x128, ← hostMean3 0x40400000#32 3 ofBits_three (by norm_num) _ _ _ bcast_S_S50000x128 bcast_S_S50000x128, ← e1, ← e2, ← e3]
  rfl

/-- Layer 1, node type 1: the reference's output is the update of its inputs. -/
theorem out4 :
    (val_main_v642 (F := Ideal) x0 x1 x2 x3 x4 x5 x6 x7 x8 x9 x10 x11 x12 x13)
      = relu (upd2 (((1 / 2 : ℝ)) : EReal) (val_main_v320 (F := Ideal) x0 x1 x2 x3 x4 x5 x6 x10) (val_main_v356 (F := Ideal) x0 x1 x2 x3 x4 x5 x6 x9 x11 x12) (val_main_v504 (F := Ideal) x0 x1 x2 x3 x4 x5 x7 x8 x10 x13) (val_main_v329 (F := Ideal) x3) (val_main_v477 (F := Ideal) x3) (row (val_main_v331 (F := Ideal) x4)) (row (val_main_v479 (F := Ideal) x4)) (val_main_v333 (F := Ideal) x5) (val_main_v481 (F := Ideal) x5)) := by
  have e1 := hostPart dot_S20000x128_S128x128_S20000x128_1_0_0_1_n_n rfl rfl rfl rfl rfl rfl dot_S20000x128_S128x128_S20000x128_1_0_0_1_n_n rfl rfl rfl rfl rfl rfl none none (val_main_v356 (F := Ideal) x0 x1 x2 x3 x4 x5 x6 x9 x11 x12) (val_main_v329 (F := Ideal) x3) (val_main_v331 (F := Ideal) x4) (val_main_v320 (F := Ideal) x0 x1 x2 x3 x4 x5 x6 x10) (val_main_v333 (F := Ideal) x5) transposes_S128x128_S128x128_1_0 transposes_S128x128_S128x128_1_0 bcast_S128_S1x128_1 bcast_S1x128_S20000x128_0_1
  have e2 := hostPart dot_S20000x128_S128x128_S20000x128_1_0_0_1_n_n rfl rfl rfl rfl rfl rfl dot_S20000x128_S128x128_S20000x128_1_0_0_1_n_n rfl rfl rfl rfl rfl rfl none none (val_main_v504 (F := Ideal) x0 x1 x2 x3 x4 x5 x7 x8 x10 x13) (val_main_v477 (F := Ideal) x3) (val_main_v479 (F := Ideal) x4) (val_main_v320 (F := Ideal) x0 x1 x2 x3 x4 x5 x6 x10) (val_main_v481 (F := Ideal) x5) transposes_S128x128_S128x128_1_0 transposes_S128x128_S128x128_1_0 bcast_S128_S1x128_1 bcast_S1x128_S20000x128_0_1
  unfold upd2
  rw [← hostRelu _ bcast_S_S20000x128, ← hostMean2 0x40000000#32 2 ofBits_two (by norm_num) _ _ bcast_S_S20000x128 bcast_S_S20000x128, ← e1, ← e2]
  rfl

/-- Layer 1, node type 2: the reference's output is the update of its inputs. -/
theorem out5 :
    (val_main_v643 (F := Ideal) x0 x1 x2 x3 x4 x5 x6 x7 x8 x9 x10 x11 x12 x13)
      = relu (upd3 (((1 / 3 : ℝ)) : EReal) (val_main_v321 (F := Ideal) x0 x1 x2 x3 x4 x5 x7 x8 x13) (val_main_v393 (F := Ideal) x0 x1 x2 x3 x4 x5 x6 x7 x10) (val_main_v430 (F := Ideal) x0 x1 x2 x3 x4 x5 x8 x9 x11 x12) (val_main_v615 (F := Ideal) x0 x1 x2 x3 x4 x5 x7 x8 x13) (val_main_v366 (F := Ideal) x3) (val_main_v403 (F := Ideal) x3) (val_main_v588 (F := Ideal) x3) (row (val_main_v368 (F := Ideal) x4)) (row (val_main_v405 (F := Ideal) x4)) (row (val_main_v590 (F := Ideal) x4)) (val_main_v370 (F := Ideal) x5) (val_main_v407 (F := Ideal) x5) (val_main_v592 (F := Ideal) x5)) := by
  have e1 := hostPart dot_S5000x128_S128x128_S5000x128_1_0_0_1_n_n rfl rfl rfl rfl rfl rfl dot_S5000x128_S128x128_S5000x128_1_0_0_1_n_n rfl rfl rfl rfl rfl rfl none none (val_main_v393 (F := Ideal) x0 x1 x2 x3 x4 x5 x6 x7 x10) (val_main_v366 (F := Ideal) x3) (val_main_v368 (F := Ideal) x4) (val_main_v321 (F := Ideal) x0 x1 x2 x3 x4 x5 x7 x8 x13) (val_main_v370 (F := Ideal) x5) transposes_S128x128_S128x128_1_0 transposes_S128x128_S128x128_1_0 bcast_S128_S1x128_1 bcast_S1x128_S5000x128_0_1
  have e2 := hostPart dot_S5000x128_S128x128_S5000x128_1_0_0_1_n_n rfl rfl rfl rfl rfl rfl dot_S5000x128_S128x128_S5000x128_1_0_0_1_n_n rfl rfl rfl rfl rfl rfl none none (val_main_v430 (F := Ideal) x0 x1 x2 x3 x4 x5 x8 x9 x11 x12) (val_main_v403 (F := Ideal) x3) (val_main_v405 (F := Ideal) x4) (val_main_v321 (F := Ideal) x0 x1 x2 x3 x4 x5 x7 x8 x13) (val_main_v407 (F := Ideal) x5) transposes_S128x128_S128x128_1_0 transposes_S128x128_S128x128_1_0 bcast_S128_S1x128_1 bcast_S1x128_S5000x128_0_1
  have e3 := hostPart dot_S5000x128_S128x128_S5000x128_1_0_0_1_n_n rfl rfl rfl rfl rfl rfl dot_S5000x128_S128x128_S5000x128_1_0_0_1_n_n rfl rfl rfl rfl rfl rfl none none (val_main_v615 (F := Ideal) x0 x1 x2 x3 x4 x5 x7 x8 x13) (val_main_v588 (F := Ideal) x3) (val_main_v590 (F := Ideal) x4) (val_main_v321 (F := Ideal) x0 x1 x2 x3 x4 x5 x7 x8 x13) (val_main_v592 (F := Ideal) x5) transposes_S128x128_S128x128_1_0 transposes_S128x128_S128x128_1_0 bcast_S128_S1x128_1 bcast_S1x128_S5000x128_0_1
  unfold upd3
  rw [← hostRelu _ bcast_S_S5000x128, ← hostMean3 0x40400000#32 3 ofBits_three (by norm_num) _ _ _ bcast_S_S5000x128 bcast_S_S5000x128, ← e1, ← e2, ← e3]
  rfl

/-- Layer 2, node type 0: the reference's output is the update of its inputs. -/
theorem out6 :
    (val_main_v970 (F := Ideal) x0 x1 x2 x3 x4 x5 x6 x7 x8 x9 x10 x11 x12 x13)
      = l2 (Ideal.ofBits .f32 0x2B8CBCCC#32) (upd3 (((1 / 3 : ℝ)) : EReal) (val_main_v641 (F := Ideal) x0 x1 x2 x3 x4 x5 x6 x7 x8 x9 x10 x11 x12 x13) (val_main_v789 (F := Ideal) x0 x1 x2 x3 x4 x5 x6 x7 x8 x9 x10 x11 x12 x13) (val_main_v863 (F := Ideal) x0 x1 x2 x3 x4 x5 x6 x7 x8 x9 x10 x11 x12 x13) (val_main_v900 (F := Ideal) x0 x1 x2 x3 x4 x5 x6 x7 x8 x9 x10 x11 x12 x13) (val_main_v762 (F := Ideal) x3) (val_main_v836 (F := Ideal) x3) (val_main_v873 (F := Ideal) x3) (row (val_main_v764 (F := Ideal) x4)) (row (val_main_v838 (F := Ideal) x4)) (row (val_main_v875 (F := Ideal) x4)) (val_main_v766 (F := Ideal) x5) (val_main_v840 (F := Ideal) x5) (val_main_v877 (F := Ideal) x5)) := by
  have e1 := hostPart dot_S50000x128_S128x128_S50000x128_1_0_0_1_n_n rfl rfl rfl rfl rfl rfl dot_S50000x128_S128x128_S50000x128_1_0_0_1_n_n rfl rfl rfl rfl rfl rfl none none (val_main_v789 (F := Ideal) x0 x1 x2 x3 x4 x5 x6 x7 x8 x9 x10 x11 x12 x13) (val_main_v762 (F := Ideal) x3) (val_main_v764 (F := Ideal) x4) (val_main_v641 (F := Ideal) x0 x1 x2 x3 x4 x5 x6 x7 x8 x9 x10 x11 x12 x13) (val_main_v766 (F := Ideal) x5) transposes_S128x128_S128x128_1_0 transposes_S128x128_S128x128_1_0 bcast_S128_S1x128_1 bcast_S1x128_S50000x128_0_1
  have e2 := hostPart dot_S50000x128_S128x128_S50000x128_1_0_0_1_n_n rfl rfl rfl rfl rfl rfl dot_S50000x128_S128x128_S50000x128_1_0_0_1_n_n rfl rfl rfl rfl rfl rfl none none (val_main_v863 (F := Ideal) x0 x1 x2 x3 x4 x5 x6 x7 x8 x9 x10 x11 x12 x13) (val_main_v836 (F := Ideal) x3) (val_main_v838 (F := Ideal) x4) (val_main_v641 (F := Ideal) x0 x1 x2 x3 x4 x5 x6 x7 x8 x9 x10 x11 x12 x13) (val_main_v840 (F := Ideal) x5) transposes_S128x128_S128x128_1_0 transposes_S128x128_S128x128_1_0 bcast_S128_S1x128_1 bcast_S1x128_S50000x128_0_1
  have e3 := hostPart dot_S50000x128_S128x128_S50000x128_1_0_0_1_n_n rfl rfl rfl rfl rfl rfl dot_S50000x128_S128x128_S50000x128_1_0_0_1_n_n rfl rfl rfl rfl rfl rfl none none (val_main_v900 (F := Ideal) x0 x1 x2 x3 x4 x5 x6 x7 x8 x9 x10 x11 x12 x13) (val_main_v873 (F := Ideal) x3) (val_main_v875 (F := Ideal) x4) (val_main_v641 (F := Ideal) x0 x1 x2 x3 x4 x5 x6 x7 x8 x9 x10 x11 x12 x13) (val_main_v877 (F := Ideal) x5) transposes_S128x128_S128x128_1_0 transposes_S128x128_S128x128_1_0 bcast_S128_S1x128_1 bcast_S1x128_S50000x128_0_1
  unfold upd3
  rw [← hostL2 0x2B8CBCCC#32 _ reducesTo_S50000x128_S50000_d1 (by decide) h_S_ bcast_S50000_S50000x1_0 bcast_S_S50000x1 bcast_S50000x1_S50000x128_0_1, ← hostMean3 0x40400000#32 3 ofBits_three (by norm_num) _ _ _ bcast_S_S50000x128 bcast_S_S50000x128, ← e1, ← e2, ← e3]
  rfl

/-- Layer 2, node type 1: the reference's output is the update of its inputs. -/
theorem out7 :
    (val_main_v978 (F := Ideal) x0 x1 x2 x3 x4 x5 x6 x7 x8 x9 x10 x11 x12 x13)
      = l2 (Ideal.ofBits .f32 0x2B8CBCCC#32) (upd2 (((1 / 2 : ℝ)) : EReal) (val_main_v642 (F := Ideal) x0 x1 x2 x3 x4 x5 x6 x7 x8 x9 x10 x11 x12 x13) (val_main_v678 (F := Ideal) x0 x1 x2 x3 x4 x5 x6 x7 x8 x9 x10 x11 x12 x13) (val_main_v826 (F := Ideal) x0 x1 x2 x3 x4 x5 x6 x7 x8 x9 x10 x11 x12 x13) (val_main_v651 (F := Ideal) x3) (val_main_v799 (F := Ideal) x3) (row (val_main_v653 (F := Ideal) x4)) (row (val_main_v801 (F := Ideal) x4)) (val_main_v655 (F := Ideal) x5) (val_main_v803 (F := Ideal) x5)) := by
  have e1 := hostPart dot_S20000x128_S128x128_S20000x128_1_0_0_1_n_n rfl rfl rfl rfl rfl rfl dot_S20000x128_S128x128_S20000x128_1_0_0_1_n_n rfl rfl rfl rfl rfl rfl none none (val_main_v678 (F := Ideal) x0 x1 x2 x3 x4 x5 x6 x7 x8 x9 x10 x11 x12 x13) (val_main_v651 (F := Ideal) x3) (val_main_v653 (F := Ideal) x4) (val_main_v642 (F := Ideal) x0 x1 x2 x3 x4 x5 x6 x7 x8 x9 x10 x11 x12 x13) (val_main_v655 (F := Ideal) x5) transposes_S128x128_S128x128_1_0 transposes_S128x128_S128x128_1_0 bcast_S128_S1x128_1 bcast_S1x128_S20000x128_0_1
  have e2 := hostPart dot_S20000x128_S128x128_S20000x128_1_0_0_1_n_n rfl rfl rfl rfl rfl rfl dot_S20000x128_S128x128_S20000x128_1_0_0_1_n_n rfl rfl rfl rfl rfl rfl none none (val_main_v826 (F := Ideal) x0 x1 x2 x3 x4 x5 x6 x7 x8 x9 x10 x11 x12 x13) (val_main_v799 (F := Ideal) x3) (val_main_v801 (F := Ideal) x4) (val_main_v642 (F := Ideal) x0 x1 x2 x3 x4 x5 x6 x7 x8 x9 x10 x11 x12 x13) (val_main_v803 (F := Ideal) x5) transposes_S128x128_S128x128_1_0 transposes_S128x128_S128x128_1_0 bcast_S128_S1x128_1 bcast_S1x128_S20000x128_0_1
  unfold upd2
  rw [← hostL2 0x2B8CBCCC#32 _ reducesTo_S20000x128_S20000_d1 (by decide) h_S_ bcast_S20000_S20000x1_0 bcast_S_S20000x1 bcast_S20000x1_S20000x128_0_1, ← hostMean2 0x40000000#32 2 ofBits_two (by norm_num) _ _ bcast_S_S20000x128 bcast_S_S20000x128, ← e1, ← e2]
  rfl

/-- Layer 2, node type 2: the reference's output is the update of its inputs. -/
theorem out8 :
    (val_main_v986 (F := Ideal) x0 x1 x2 x3 x4 x5 x6 x7 x8 x9 x10 x11 x12 x13)
      = l2 (Ideal.ofBits .f32 0x2B8CBCCC#32) (upd3 (((1 / 3 : ℝ)) : EReal) (val_main_v643 (F := Ideal) x0 x1 x2 x3 x4 x5 x6 x7 x8 x9 x10 x11 x12 x13) (val_main_v715 (F := Ideal) x0 x1 x2 x3 x4 x5 x6 x7 x8 x9 x10 x11 x12 x13) (val_main_v752 (F := Ideal) x0 x1 x2 x3 x4 x5 x6 x7 x8 x9 x10 x11 x12 x13) (val_main_v937 (F := Ideal) x0 x1 x2 x3 x4 x5 x6 x7 x8 x9 x10 x11 x12 x13) (val_main_v688 (F := Ideal) x3) (val_main_v725 (F := Ideal) x3) (val_main_v910 (F := Ideal) x3) (row (val_main_v690 (F := Ideal) x4)) (row (val_main_v727 (F := Ideal) x4)) (row (val_main_v912 (F := Ideal) x4)) (val_main_v692 (F := Ideal) x5) (val_main_v729 (F := Ideal) x5) (val_main_v914 (F := Ideal) x5)) := by
  have e1 := hostPart dot_S5000x128_S128x128_S5000x128_1_0_0_1_n_n rfl rfl rfl rfl rfl rfl dot_S5000x128_S128x128_S5000x128_1_0_0_1_n_n rfl rfl rfl rfl rfl rfl none none (val_main_v715 (F := Ideal) x0 x1 x2 x3 x4 x5 x6 x7 x8 x9 x10 x11 x12 x13) (val_main_v688 (F := Ideal) x3) (val_main_v690 (F := Ideal) x4) (val_main_v643 (F := Ideal) x0 x1 x2 x3 x4 x5 x6 x7 x8 x9 x10 x11 x12 x13) (val_main_v692 (F := Ideal) x5) transposes_S128x128_S128x128_1_0 transposes_S128x128_S128x128_1_0 bcast_S128_S1x128_1 bcast_S1x128_S5000x128_0_1
  have e2 := hostPart dot_S5000x128_S128x128_S5000x128_1_0_0_1_n_n rfl rfl rfl rfl rfl rfl dot_S5000x128_S128x128_S5000x128_1_0_0_1_n_n rfl rfl rfl rfl rfl rfl none none (val_main_v752 (F := Ideal) x0 x1 x2 x3 x4 x5 x6 x7 x8 x9 x10 x11 x12 x13) (val_main_v725 (F := Ideal) x3) (val_main_v727 (F := Ideal) x4) (val_main_v643 (F := Ideal) x0 x1 x2 x3 x4 x5 x6 x7 x8 x9 x10 x11 x12 x13) (val_main_v729 (F := Ideal) x5) transposes_S128x128_S128x128_1_0 transposes_S128x128_S128x128_1_0 bcast_S128_S1x128_1 bcast_S1x128_S5000x128_0_1
  have e3 := hostPart dot_S5000x128_S128x128_S5000x128_1_0_0_1_n_n rfl rfl rfl rfl rfl rfl dot_S5000x128_S128x128_S5000x128_1_0_0_1_n_n rfl rfl rfl rfl rfl rfl none none (val_main_v937 (F := Ideal) x0 x1 x2 x3 x4 x5 x6 x7 x8 x9 x10 x11 x12 x13) (val_main_v910 (F := Ideal) x3) (val_main_v912 (F := Ideal) x4) (val_main_v643 (F := Ideal) x0 x1 x2 x3 x4 x5 x6 x7 x8 x9 x10 x11 x12 x13) (val_main_v914 (F := Ideal) x5) transposes_S128x128_S128x128_1_0 transposes_S128x128_S128x128_1_0 bcast_S128_S1x128_1 bcast_S1x128_S5000x128_0_1
  unfold upd3
  rw [← hostL2 0x2B8CBCCC#32 _ reducesTo_S5000x128_S5000_d1 (by decide) h_S_ bcast_S5000_S5000x1_0 bcast_S_S5000x1 bcast_S5000x1_S5000x128_0_1, ← hostMean3 0x40400000#32 3 ofBits_three (by norm_num) _ _ _ bcast_S_S5000x128 bcast_S_S5000x128, ← e1, ← e2, ← e3]
  rfl

end Cert.ReferenceIdeal.Layers

end
-- ==== Proof.Region0.lean ====
/-
  Kernel region 0 of the idealized kernel: the update of the first node type in layer 0, read as one
  function of the arrays the region finds.

  The grid has 25 points; point `t` stages rows `2000·t … 2000·t + 1999` of the node features and of each aggregate,
  and the whole weight and bias arrays.  The body computes, on those row blocks, each relation's message (aggregate times
  transposed weight, bias row, features times a second transposed weight), adds the 3 messages to zero, multiplies by
  the named constant 1/3 and rectifies.  An entry of that result depends on one row of the row-blocked operands only,
  so the block a point writes back is the block of the same function of the whole arrays, and the 25 blocks tile the
  50000 rows.
-/
import proofs.«116292_j712964571450_1_alg».proof.Proof.FrameKernelIdealP
import proofs.«116292_j712964571450_1_alg».proof.Proof.LibHeteroMean

set_option maxRecDepth 16384

noncomputable section

namespace Cert.KernelIdeal.Reg0

open Cert.KernelIdeal Cert.KernelIdeal.Gen Cert.KernelIdeal.GenP Idealize.ShloMosaic Idealize.ShloMosaic.TcCoe Idealize.ShloMosaic.ValueIdx
open Idealize.SL.Sem
open Idealize.ShloMosaic.Pipeline (Dat)
open Cert.Dense Cert.HeteroMean

variable (V : (c : Dev nD) → (b : Ref sig .tc) → Buf (Elt Ideal) ((c : Thread nD τ).loc b))

theorem hz : (![0, 0] : Fin 2 → Nat) = fun _ => 0 := funext fun a => by fin_cases a <;> rfl

/-- The named constant denotes one third. -/
theorem inv3 : Named.named (F := Ideal) κ "inv_3" (φ := .f32) 0x3EAAAAAB#32 = (((1 / 3 : ℝ)) : EReal) :=
  IdealRules.named_const.ideal_named_scalar _ _ _ _ rfl

/-- The body's stored value, as the update of its loaded blocks. -/
theorem pay (x0 : Vec Ideal S2000x128 .f32) (x1 : Vec Ideal S2000x128 .f32) (x2 : Vec Ideal S2000x128 .f32) (x3 : Vec Ideal S2000x128 .f32) (x4 : Vec Ideal S128x128 .f32) (x5 : Vec Ideal S128x128 .f32) (x6 : Vec Ideal S128x128 .f32) (x7 : Vec Ideal S1x128 .f32) (x8 : Vec Ideal S1x128 .f32) (x9 : Vec Ideal S1x128 .f32) (x10 : Vec Ideal S128x128 .f32) (x11 : Vec Ideal S128x128 .f32) (x12 : Vec Ideal S128x128 .f32) :
    k0_pay1 x0 (k0_pay2 x0 x1 x4 x10 x7 x2 x5 x11 x8) x3 x6 x12 x9
      = relu (upd3 (((1 / 3 : ℝ)) : EReal) x0 x1 x2 x3 x4 x5 x6 x7 x8 x9 x10 x11 x12) := by
  have e1 := vecPart dot_S2000x128_S128x128_S2000x128_1_0_0_1_n_n rfl rfl rfl rfl rfl rfl dot_S2000x128_S128x128_S2000x128_1_0_0_1_n_n rfl rfl rfl rfl rfl rfl none none x1 x4 x7 x0 x10 transposes_S128x128_p1_0_S128x128 transposes_S128x128_p1_0_S128x128 broadcasts_S1x128_S2000x128
  have e2 := vecPart dot_S2000x128_S128x128_S2000x128_1_0_0_1_n_n rfl rfl rfl rfl rfl rfl dot_S2000x128_S128x128_S2000x128_1_0_0_1_n_n rfl rfl rfl rfl rfl rfl none none x2 x5 x8 x0 x11 transposes_S128x128_p1_0_S128x128 transposes_S128x128_p1_0_S128x128 broadcasts_S1x128_S2000x128
  have e3 := vecPart dot_S2000x128_S128x128_S2000x128_1_0_0_1_n_n rfl rfl rfl rfl rfl rfl dot_S2000x128_S128x128_S2000x128_1_0_0_1_n_n rfl rfl rfl rfl rfl rfl none none x3 x6 x9 x0 x12 transposes_S128x128_p1_0_S128x128 transposes_S128x128_p1_0_S128x128 broadcasts_S1x128_S2000x128
  unfold upd3
  rw [← vecRelu, ← inv3, ← vecMean3, ← e1, ← e2, ← e3]
  simp only [k0_pay1, k0_pay2, shapeCast_self]

/-- The printed index maps, decided over the grid: the row-blocked windows move with the point, the others stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = t.val ∧ win0_13.index t (1 : Fin 2) = 0 :=
  (by decide +kernel : ∀ t : Fin grid0.N, _)

/-- Row `p'` of window 0's block at point `t` is row `2000·t + p'` of its array. -/
theorem blk0 (c : Dev nD) (t : Fin cfg0.N) (p' : Fin 2000) (p : Fin 50000) (hp : p.val = t.val * 2000 + p'.val) (q : Fin 128) :
    iblk0 V c 0 t (ix2 p' q) = ((V c main_arg0) : Mat 50000 128) (ix2 p q) := by
  show (V c main_arg0) (((cfg0.win 0).blk t).view.emb (ix2 p' q)) = _
  refine congrArg (V c main_arg0) (funext fun a => Fin.ext ?_)
  have hf := idx_facts t
  match a with
  | ⟨0, _⟩ => show win0_0.index t (0 : Fin 2) * 2000 + 1 * p'.val = p.val; omega
  | ⟨1, _⟩ => show win0_0.index t (1 : Fin 2) * 128 + 1 * q.val = q.val; omega

/-- Row `p'` of window 1's block at point `t` is row `2000·t + p'` of its array. -/
theorem blk1 (c : Dev nD) (t : Fin cfg0.N) (p' : Fin 2000) (p : Fin 50000) (hp : p.val = t.val * 2000 + p'.val) (q : Fin 128) :
    iblk0 V c 1 t (ix2 p' q) = ((V c main_v135) : Mat 50000 128) (ix2 p q) := by
  show (V c main_v135) (((cfg0.win 1).blk t).view.emb (ix2 p' q)) = _
  refine congrArg (V c main_v135) (funext fun a => Fin.ext ?_)
  have hf := idx_facts t
  match a with
  | ⟨0, _⟩ => show win0_1.index t (0 : Fin 2) * 2000 + 1 * p'.val = p.val; omega
  | ⟨1, _⟩ => show win0_1.index t (1 : Fin 2) * 128 + 1 * q.val = q.val; omega

/-- Row `p'` of window 2's block at point `t` is row `2000·t + p'` of its array. -/
theorem blk2 (c : Dev nD) (t : Fin cfg0.N) (p' : Fin 2000) (p : Fin 50000) (hp : p.val = t.val * 2000 + p'.val) (q : Fin 128) :
    iblk0 V c 2 t (ix2 p' q) = ((V c main_v167) : Mat 50000 128) (ix2 p q) := by
  show (V c main_v167) (((cfg0.win 2).blk t).view.emb (ix2 p' q)) = _
  refine congrArg (V c main_v167) (funext fun a => Fin.ext ?_)
  have hf := idx_facts t
  match a with
  | ⟨0, _⟩ => show win0_2.index t (0 : Fin 2) * 2000 + 1 * p'.val = p.val; omega
  | ⟨1, _⟩ => show win0_2.index t (1 : Fin 2) * 128 + 1 * q.val = q.val; omega

/-- Row `p'` of window 3's block at point `t` is row `2000·t + p'` of its array. -/
theorem blk3 (c : Dev nD) (t : Fin cfg0.N) (p' : Fin 2000) (p : Fin 50000) (hp : p.val = t.val * 2000 + p'.val) (q : Fin 128) :
    iblk0 V c 3 t (ix2 p' q) = ((V c main_v183) : Mat 50000 128) (ix2 p q) := by
  show (V c main_v183) (((cfg0.win 3).blk t).view.emb (ix2 p' q)) = _
  refine congrArg (V c main_v183) (funext fun a => Fin.ext ?_)
  have hf := idx_facts t
  match a with
  | ⟨0, _⟩ => show win0_3.index t (0 : Fin 2) * 2000 + 1 * p'.val = p.val; omega
  | ⟨1, _⟩ => show win0_3.index t (1 : Fin 2) * 128 + 1 * q.val = q.val; omega

/-- Window 4's block at every point is its whole array. -/
theorem blk4 (c : Dev nD) (t : Fin cfg0.N) : iblk0 V c 4 t = (V c main_v201) := by
  funext y
  show (V c main_v201) (((cfg0.win 4).blk t).view.emb y) = _
  refine congrArg (V c main_v201) (funext fun a => Fin.ext ?_)
  have hf := idx_facts t
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Window 5's block at every point is its whole array. -/
theorem blk5 (c : Dev nD) (t : Fin cfg0.N) : iblk0 V c 5 t = (V c main_v203) := by
  funext y
  show (V c main_v203) (((cfg0.win 5).blk t).view.emb y) = _
  refine congrArg (V c main_v203) (funext fun a => Fin.ext ?_)
  have hf := idx_facts t
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- Window 6's block at every point is its whole array. -/
theorem blk6 (c : Dev nD) (t : Fin cfg0.N) : iblk0 V c 6 t = (V c main_v205) := by
  funext y
  show (V c main_v205) (((cfg0.win 6).blk t).view.emb y) = _
  refine congrArg (V c main_v205) (funext fun a => Fin.ext ?_)
  have hf := idx_facts t
  match a with
  | ⟨0, _⟩ => show win0_6.index t (0 : Fin 2) * 128 + 1 * (y 0).val = (y 0).val; omega
  | ⟨1, _⟩ => show win0_6.index t (1 : Fin 2) * 128 + 1 * (y 1).val = (y 1).val; omega

/-- Window 7's block at every point is its whole array. -/
theorem blk7 (c : Dev nD) (t : Fin cfg0.N) : iblk0 V c 7 t = (V c main_v208) := by
  funext y
  show (V c main_v208) (((cfg0.win 7).blk t).view.emb y) = _
  refine congrArg (V c main_v208) (funext fun a => Fin.ext ?_)
  have hf := idx_facts t
  match a with
  | ⟨0, _⟩ => show win0_7.index t (0 : Fin 2) * 1 + 1 * (y 0).val = (y 0).val; omega
  | ⟨1, _⟩ => show win0_7.index t (1 : Fin 2) * 128 + 1 * (y 1).val = (y 1).val; omega

/-- Window 8's block at every point is its whole array. -/
theorem blk8 (c : Dev nD) (t : Fin cfg0.N) : iblk0 V c 8 t = (V c main_v211) := by
  funext y
  show (V c main_v211) (((cfg0.win 8).blk t).view.emb y) = _
  refine congrArg (V c main_v211) (funext fun a => Fin.ext ?_)
  have hf := idx_facts t
  match a with
  | ⟨0, _⟩ => show win0_8.index t (0 : Fin 2) * 1 + 1 * (y 0).val = (y 0).val; omega
  | ⟨1, _⟩ => show win0_8.index t (1 : Fin 2) * 128 + 1 * (y 1).val = (y 1).val; omega

/-- Window 9's block at every point is its whole array. -/
theorem blk9 (c : Dev nD) (t : Fin cfg0.N) : iblk0 V c 9 t = (V c main_v214) := by
  funext y
  show (V c main_v214) (((cfg0.win 9).blk t).view.emb y) = _
  refine congrArg (V c main_v214) (funext fun a => Fin.ext ?_)
  have hf := idx_facts t
  match a with
  | ⟨0, _⟩ => show win0_9.index t (0 : Fin 2) * 1 + 1 * (y 0).val = (y 0).val; omega
  | ⟨1, _⟩ => show win0_9.index t (1 : Fin 2) * 128 + 1 * (y 1).val = (y 1).val; omega

/-- Window 10's block at every point is its whole array. -/
theorem blk10 (c : Dev nD) (t : Fin cfg0.N) : iblk0 V c 10 t = (V c main_v216) := by
  funext y
  show (V c main_v216) (((cfg0.win 10).blk t).view.emb y) = _
  refine congrArg (V c main_v216) (funext fun a => Fin.ext ?_)
  have hf := idx_facts t
  match a with
  | ⟨0, _⟩ => show win0_10.index t (0 : Fin 2) * 128 + 1 * (y 0).val = (y 0).val; omega
  | ⟨1, _⟩ => show win0_10.index t (1 : Fin 2) * 128 + 1 * (y 1).val = (y 1).val; omega

/-- Window 11's block at every point is its whole array. -/
theorem blk11 (c : Dev nD) (t : Fin cfg0.N) : iblk0 V c 11 t = (V c main_v218) := by
  funext y
  show (V c main_v218) (((cfg0.win 11).blk t).view.emb y) = _
  refine congrArg (V c main_v218) (funext fun a => Fin.ext ?_)
  have hf := idx_facts t
  match a with
  | ⟨0, _⟩ => show win0_11.index t (0 : Fin 2) * 128 + 1 * (y 0).val = (y 0).val; omega
  | ⟨1, _⟩ => show win0_11.index t (1 : Fin 2) * 128 + 1 * (y 1).val = (y 1).val; omega

/-- Window 12's block at every point is its whole array. -/
theorem blk12 (c : Dev nD) (t : Fin cfg0.N) : iblk0 V c 12 t = (V c main_v220) := by
  funext y
  show (V c main_v220) (((cfg0.win 12).blk t).view.emb y) = _
  refine congrArg (V c main_v220) (funext fun a => Fin.ext ?_)
  have hf := idx_facts t
  match a with
  | ⟨0, _⟩ => show win0_12.index t (0 : Fin 2) * 128 + 1 * (y 0).val = (y 0).val; omega
  | ⟨1, _⟩ => show win0_12.index t (1 : Fin 2) * 128 + 1 * (y 1).val = (y 1).val; omega

/-- What point `t` writes back is block `t` of the update of the whole arrays. -/
theorem flushed_eq (c : Dev nD) (t : Fin cfg0.N) :
    (dat0 V c).flushed 13 t = ((cfg0.win 13).blk t).view.read (Elt Ideal)
      (relu (upd3 (((1 / 3 : ℝ)) : EReal) ((V c main_arg0) : Mat 50000 128) ((V c main_v135) : Mat 50000 128) ((V c main_v167) : Mat 50000 128) ((V c main_v183) : Mat 50000 128) (V c main_v201) (V c main_v203) (V c main_v205) (V c main_v208) (V c main_v211) (V c main_v214) (V c main_v216) (V c main_v218) (V c main_v220))) := by
  show (cfg0.win 13).cut (grid0.coords t) ((dat0 V c).after 13 t) = _
  rw [after0_13]
  unfold out0_13
  rw [View.canon_unit_zero hz]
  simp only [View.ld_unit_zero (S := S2000x128) hz, View.ld_unit_zero (S := S128x128) hz, View.ld_unit_zero (S := S1x128) hz]
  rw [pay, blk4 V c t, blk5 V c t, blk6 V c t, blk7 V c t, blk8 V c t, blk9 V c t, blk10 V c t, blk11 V c t, blk12 V c t]
  funext j
  obtain ⟨p', q, rfl⟩ : ∃ (p' : Fin 2000) (q : Fin 128), j = ix2 p' q := ⟨j 0, j 1, eq_ix2 j⟩
  have ht : t.val < 25 := by have h := t.isLt; have hN : cfg0.N = 25 := N_0; omega
  have hp'' : t.val * 2000 + p'.val < 50000 := by have := p'.isLt; omega
  have hemb : ((cfg0.win 13).blk t).view.emb (ix2 p' q) = ix2 (⟨t.val * 2000 + p'.val, hp''⟩ : Fin 50000) q := by
    funext a; apply Fin.ext
    have hf := idx_facts t
    match a with
    | ⟨0, _⟩ => show win0_13.index t (0 : Fin 2) * 2000 + 1 * p'.val = t.val * 2000 + p'.val; omega
    | ⟨1, _⟩ => show win0_13.index t (1 : Fin 2) * 128 + 1 * q.val = q.val; omega
  show _ = (relu (upd3 (((1 / 3 : ℝ)) : EReal) ((V c main_arg0) : Mat 50000 128) ((V c main_v135) : Mat 50000 128) ((V c main_v167) : Mat 50000 128) ((V c main_v183) : Mat 50000 128) (V c main_v201) (V c main_v203) (V c main_v205) (V c main_v208) (V c main_v211) (V c main_v214) (V c main_v216) (V c main_v218) (V c main_v220))) (((cfg0.win 13).blk t).view.emb (ix2 p' q))
  rw [hemb]
  exact relu_rows _ _ _ _ _ (upd3_rows _ _ _ _ _ _ _ _ _ _ _ _ _ _ _ _ _ _ (⟨t.val * 2000 + p'.val, hp''⟩ : Fin 50000) p'
      (fun k => blk0 V c t p' (⟨t.val * 2000 + p'.val, hp''⟩ : Fin 50000) rfl k) (fun k => blk1 V c t p' (⟨t.val * 2000 + p'.val, hp''⟩ : Fin 50000) rfl k) (fun k => blk2 V c t p' (⟨t.val * 2000 + p'.val, hp''⟩ : Fin 50000) rfl k) (fun k => blk3 V c t p' (⟨t.val * 2000 + p'.val, hp''⟩ : Fin 50000) rfl k) q)

/-- An index of the array is in point `t`'s block iff each coordinate is in the block's range on its axis. -/
theorem mem_blk (t : Fin cfg0.N) (i : S50000x128.Idx) :
    i ∈ ((cfg0.win 13).blk t).view.set ↔ ∀ a : Fin 2, win0_13.index t a * S2000x128.size a ≤ (i a).val ∧ (i a).val < win0_13.index t a * S2000x128.size a + S2000x128.size a := by
  show i ∈ ((View.whole main_v221).slice (win0_13.rect t)).set ↔ _
  rw [View.set_slice_whole, Rect.mem_set_unit]
  exact Iff.rfl

/-- The output array after the region: the update of the arrays the region finds. -/
theorem final (c : Dev nD) : (dat0 V c).arrAt 13 cfg0.N
      = relu (upd3 (((1 / 3 : ℝ)) : EReal) ((V c main_arg0) : Mat 50000 128) ((V c main_v135) : Mat 50000 128) ((V c main_v167) : Mat 50000 128) ((V c main_v183) : Mat 50000 128) (V c main_v201) (V c main_v203) (V c main_v205) (V c main_v208) (V c main_v211) (V c main_v214) (V c main_v216) (V c main_v218) (V c main_v220)) :=
  (dat0 V c).arrAt_eq_of_cover 13 _ (fun t _ => flushed_eq V c t) fun i => by
    have hi0 : (i 0).val < 50000 := (i 0).isLt
    have hi1 : (i 1).val < 128 := (i 1).isLt
    have hN : cfg0.N = 25 := N_0
    obtain ⟨t, ht⟩ : ∃ t : Fin cfg0.N, t.val = (i 0).val / 2000 := ⟨⟨(i 0).val / 2000, by rw [hN]; omega⟩, rfl⟩
    refine ⟨t, flush0_13 t, ?_⟩
    rw [mem_blk]
    have hf := idx_facts t
    intro a
    match a with
    | ⟨0, _⟩ => show win0_13.index t (0 : Fin 2) * 2000 ≤ (i 0).val ∧ (i 0).val < win0_13.index t (0 : Fin 2) * 2000 + 2000; omega
    | ⟨1, _⟩ => show win0_13.index t (1 : Fin 2) * 128 ≤ (i 1).val ∧ (i 1).val < win0_13.index t (1 : Fin 2) * 128 + 128; omega

end Cert.KernelIdeal.Reg0

end
-- ==== Proof.Region1.lean ====
/-
  Kernel region 1 of the idealized kernel: the update of the second node type in layer 0, read as one
  function of the arrays the region finds.

  The grid has 10 points; point `t` stages rows `2000·t … 2000·t + 1999` of the node features and of each aggregate,
  and the whole weight and bias arrays.  The body computes, on those row blocks, each relation's message (aggregate times
  transposed weight, bias row, features times a second transposed weight), adds the 2 messages to zero, multiplies by
  one half and rectifies.  An entry of that result depends on one row of the row-blocked operands only,
  so the block a point writes back is the block of the same function of the whole arrays, and the 10 blocks tile the
  20000 rows.
-/
import proofs.«116292_j712964571450_1_alg».proof.Proof.FrameKernelIdealP
import proofs.«116292_j712964571450_1_alg».proof.Proof.LibHeteroMean

set_option maxRecDepth 16384

noncomputable section

namespace Cert.KernelIdeal.Reg1

open Cert.KernelIdeal Cert.KernelIdeal.Gen Cert.KernelIdeal.GenP Idealize.ShloMosaic Idealize.ShloMosaic.TcCoe Idealize.ShloMosaic.ValueIdx
open Idealize.SL.Sem
open Idealize.ShloMosaic.Pipeline (Dat)
open Cert.Dense Cert.HeteroMean

variable (V : (c : Dev nD) → (b : Ref sig .tc) → Buf (Elt Ideal) ((c : Thread nD τ).loc b))

theorem hz : (![0, 0] : Fin 2 → Nat) = fun _ => 0 := funext fun a => by fin_cases a <;> rfl

/-- The body's stored value, as the update of its loaded blocks. -/
theorem pay (x0 : Vec Ideal S2000x128 .f32) (x1 : Vec Ideal S2000x128 .f32) (x2 : Vec Ideal S2000x128 .f32) (x3 : Vec Ideal S128x128 .f32) (x4 : Vec Ideal S128x128 .f32) (x5 : Vec Ideal S1x128 .f32) (x6 : Vec Ideal S1x128 .f32) (x7 : Vec Ideal S128x128 .f32) (x8 : Vec Ideal S128x128 .f32) :
    k1_pay1 (k1_pay2 x0 x1 x3 x7 x5 x2 x4 x8 x6) (k1_pay3 (F := Ideal))
      = relu (upd2 (((1 / 2 : ℝ)) : EReal) x0 x1 x2 x3 x4 x5 x6 x7 x8) := by
  have e1 := vecPart dot_S2000x128_S128x128_S2000x128_1_0_0_1_n_n rfl rfl rfl rfl rfl rfl dot_S2000x128_S128x128_S2000x128_1_0_0_1_n_n rfl rfl rfl rfl rfl rfl none none x1 x3 x5 x0 x7 transposes_S128x128_p1_0_S128x128 transposes_S128x128_p1_0_S128x128 broadcasts_S1x128_S2000x128
  have e2 := vecPart dot_S2000x128_S128x128_S2000x128_1_0_0_1_n_n rfl rfl rfl rfl rfl rfl dot_S2000x128_S128x128_S2000x128_1_0_0_1_n_n rfl rfl rfl rfl rfl rfl none none x2 x4 x6 x0 x8 transposes_S128x128_p1_0_S128x128 transposes_S128x128_p1_0_S128x128 broadcasts_S1x128_S2000x128
  unfold upd2
  rw [← vecRelu, ← Cert.HeteroMean.ofBits_half, ← vecMean2, ← e1, ← e2]
  simp only [k1_pay1, k1_pay2, k1_pay3, shapeCast_self]
  rfl

/-- The printed index maps, decided over the grid: the row-blocked windows move with the point, the others stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-- Row `p'` of window 0's block at point `t` is row `2000·t + p'` of its array. -/
theorem blk0 (c : Dev nD) (t : Fin cfg1.N) (p' : Fin 2000) (p : Fin 20000) (hp : p.val = t.val * 2000 + p'.val) (q : Fin 128) :
    iblk1 V c 0 t (ix2 p' q) = ((V c main_arg1) : Mat 20000 128) (ix2 p q) := by
  show (V c main_arg1) (((cfg1.win 0).blk t).view.emb (ix2 p' q)) = _
  refine congrArg (V c main_arg1) (funext fun a => Fin.ext ?_)
  have hf := idx_facts t
  match a with
  | ⟨0, _⟩ => show win1_0.index t (0 : Fin 2) * 2000 + 1 * p'.val = p.val; omega
  | ⟨1, _⟩ => show win1_0.index t (1 : Fin 2) * 128 + 1 * q.val = q.val; omega

/-- Row `p'` of window 1's block at point `t` is row `2000·t + p'` of its array. -/
theorem blk1 (c : Dev nD) (t : Fin cfg1.N) (p' : Fin 2000) (p : Fin 20000) (hp : p.val = t.val * 2000 + p'.val) (q : Fin 128) :
    iblk1 V c 1 t (ix2 p' q) = ((V c main_v87) : Mat 20000 128) (ix2 p q) := by
  show (V c main_v87) (((cfg1.win 1).blk t).view.emb (ix2 p' q)) = _
  refine congrArg (V c main_v87) (funext fun a => Fin.ext ?_)
  have hf := idx_facts t
  match a with
  | ⟨0, _⟩ => show win1_1.index t (0 : Fin 2) * 2000 + 1 * p'.val = p.val; omega
  | ⟨1, _⟩ => show win1_1.index t (1 : Fin 2) * 128 + 1 * q.val = q.val; omega

/-- Row `p'` of window 2's block at point `t` is row `2000·t + p'` of its array. -/
theorem blk2 (c : Dev nD) (t : Fin cfg1.N) (p' : Fin 2000) (p : Fin 20000) (hp : p.val = t.val * 2000 + p'.val) (q : Fin 128) :
    iblk1 V c 2 t (ix2 p' q) = ((V c main_v151) : Mat 20000 128) (ix2 p q) := by
  show (V c main_v151) (((cfg1.win 2).blk t).view.emb (ix2 p' q)) = _
  refine congrArg (V c main_v151) (funext fun a => Fin.ext ?_)
  have hf := idx_facts t
  match a with
  | ⟨0, _⟩ => show win1_2.index t (0 : Fin 2) * 2000 + 1 * p'.val = p.val; omega
  | ⟨1, _⟩ => show win1_2.index t (1 : Fin 2) * 128 + 1 * q.val = q.val; omega

/-- Window 3's block at every point is its whole array. -/
theorem blk3 (c : Dev nD) (t : Fin cfg1.N) : iblk1 V c 3 t = (V c main_v223) := by
  funext y
  show (V c main_v223) (((cfg1.win 3).blk t).view.emb y) = _
  refine congrArg (V c main_v223) (funext fun a => Fin.ext ?_)
  have hf := idx_facts t
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- Window 4's block at every point is its whole array. -/
theorem blk4 (c : Dev nD) (t : Fin cfg1.N) : iblk1 V c 4 t = (V c main_v225) := by
  funext y
  show (V c main_v225) (((cfg1.win 4).blk t).view.emb y) = _
  refine congrArg (V c main_v225) (funext fun a => Fin.ext ?_)
  have hf := idx_facts t
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- Window 5's block at every point is its whole array. -/
theorem blk5 (c : Dev nD) (t : Fin cfg1.N) : iblk1 V c 5 t = (V c main_v228) := by
  funext y
  show (V c main_v228) (((cfg1.win 5).blk t).view.emb y) = _
  refine congrArg (V c main_v228) (funext fun a => Fin.ext ?_)
  have hf := idx_facts t
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- Window 6's block at every point is its whole array. -/
theorem blk6 (c : Dev nD) (t : Fin cfg1.N) : iblk1 V c 6 t = (V c main_v231) := by
  funext y
  show (V c main_v231) (((cfg1.win 6).blk t).view.emb y) = _
  refine congrArg (V c main_v231) (funext fun a => Fin.ext ?_)
  have hf := idx_facts t
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- Window 7's block at every point is its whole array. -/
theorem blk7 (c : Dev nD) (t : Fin cfg1.N) : iblk1 V c 7 t = (V c main_v233) := by
  funext y
  show (V c main_v233) (((cfg1.win 7).blk t).view.emb y) = _
  refine congrArg (V c main_v233) (funext fun a => Fin.ext ?_)
  have hf := idx_facts t
  match a with
  | ⟨0, _⟩ => show win1_7.index t (0 : Fin 2) * 128 + 1 * (y 0).val = (y 0).val; omega
  | ⟨1, _⟩ => show win1_7.index t (1 : Fin 2) * 128 + 1 * (y 1).val = (y 1).val; omega

/-- Window 8's block at every point is its whole array. -/
theorem blk8 (c : Dev nD) (t : Fin cfg1.N) : iblk1 V c 8 t = (V c main_v235) := by
  funext y
  show (V c main_v235) (((cfg1.win 8).blk t).view.emb y) = _
  refine congrArg (V c main_v235) (funext fun a => Fin.ext ?_)
  have hf := idx_facts t
  match a with
  | ⟨0, _⟩ => show win1_8.index t (0 : Fin 2) * 128 + 1 * (y 0).val = (y 0).val; omega
  | ⟨1, _⟩ => show win1_8.index t (1 : Fin 2) * 128 + 1 * (y 1).val = (y 1).val; omega

/-- What point `t` writes back is block `t` of the update of the whole arrays. -/
theorem flushed_eq (c : Dev nD) (t : Fin cfg1.N) :
    (dat1 V c).flushed 9 t = ((cfg1.win 9).blk t).view.read (Elt Ideal)
      (relu (upd2 (((1 / 2 : ℝ)) : EReal) ((V c main_arg1) : Mat 20000 128) ((V c main_v87) : Mat 20000 128) ((V c main_v151) : Mat 20000 128) (V c main_v223) (V c main_v225) (V c main_v228) (V c main_v231) (V c main_v233) (V c main_v235))) := by
  show (cfg1.win 9).cut (grid1.coords t) ((dat1 V c).after 9 t) = _
  rw [after1_9]
  unfold out1_9
  rw [View.canon_unit_zero hz]
  simp only [View.ld_unit_zero (S := S2000x128) hz, View.ld_unit_zero (S := S128x128) hz, View.ld_unit_zero (S := S1x128) hz]
  rw [pay, blk3 V c t, blk4 V c t, blk5 V c t, blk6 V c t, blk7 V c t, blk8 V c t]
  funext j
  obtain ⟨p', q, rfl⟩ : ∃ (p' : Fin 2000) (q : Fin 128), j = ix2 p' q := ⟨j 0, j 1, eq_ix2 j⟩
  have ht : t.val < 10 := by have h := t.isLt; have hN : cfg1.N = 10 := N_1; omega
  have hp'' : t.val * 2000 + p'.val < 20000 := by have := p'.isLt; omega
  have hemb : ((cfg1.win 9).blk t).view.emb (ix2 p' q) = ix2 (⟨t.val * 2000 + p'.val, hp''⟩ : Fin 20000) q := by
    funext a; apply Fin.ext
    have hf := idx_facts t
    match a with
    | ⟨0, _⟩ => show win1_9.index t (0 : Fin 2) * 2000 + 1 * p'.val = t.val * 2000 + p'.val; omega
    | ⟨1, _⟩ => show win1_9.index t (1 : Fin 2) * 128 + 1 * q.val = q.val; omega
  show _ = (relu (upd2 (((1 / 2 : ℝ)) : EReal) ((V c main_arg1) : Mat 20000 128) ((V c main_v87) : Mat 20000 128) ((V c main_v151) : Mat 20000 128) (V c main_v223) (V c main_v225) (V c main_v228) (V c main_v231) (V c main_v233) (V c main_v235))) (((cfg1.win 9).blk t).view.emb (ix2 p' q))
  rw [hemb]
  exact relu_rows _ _ _ _ _ (upd2_rows _ _ _ _ _ _ _ _ _ _ _ _ _ (⟨t.val * 2000 + p'.val, hp''⟩ : Fin 20000) p'
      (fun k => blk0 V c t p' (⟨t.val * 2000 + p'.val, hp''⟩ : Fin 20000) rfl k) (fun k => blk1 V c t p' (⟨t.val * 2000 + p'.val, hp''⟩ : Fin 20000) rfl k) (fun k => blk2 V c t p' (⟨t.val * 2000 + p'.val, hp''⟩ : Fin 20000) rfl k) q)

/-- An index of the array is in point `t`'s block iff each coordinate is in the block's range on its axis. -/
theorem mem_blk (t : Fin cfg1.N) (i : S20000x128.Idx) :
    i ∈ ((cfg1.win 9).blk t).view.set ↔ ∀ a : Fin 2, win1_9.index t a * S2000x128.size a ≤ (i a).val ∧ (i a).val < win1_9.index t a * S2000x128.size a + S2000x128.size a := by
  show i ∈ ((View.whole main_v236).slice (win1_9.rect t)).set ↔ _
  rw [View.set_slice_whole, Rect.mem_set_unit]
  exact Iff.rfl

/-- The output array after the region: the update of the arrays the region finds. -/
theorem final (c : Dev nD) : (dat1 V c).arrAt 9 cfg1.N
      = relu (upd2 (((1 / 2 : ℝ)) : EReal) ((V c main_arg1) : Mat 20000 128) ((V c main_v87) : Mat 20000 128) ((V c main_v151) : Mat 20000 128) (V c main_v223) (V c main_v225) (V c main_v228) (V c main_v231) (V c main_v233) (V c main_v235)) :=
  (dat1 V c).arrAt_eq_of_cover 9 _ (fun t _ => flushed_eq V c t) fun i => by
    have hi0 : (i 0).val < 20000 := (i 0).isLt
    have hi1 : (i 1).val < 128 := (i 1).isLt
    have hN : cfg1.N = 10 := N_1
    obtain ⟨t, ht⟩ : ∃ t : Fin cfg1.N, t.val = (i 0).val / 2000 := ⟨⟨(i 0).val / 2000, by rw [hN]; omega⟩, rfl⟩
    refine ⟨t, flush1_9 t, ?_⟩
    rw [mem_blk]
    have hf := idx_facts t
    intro a
    match a with
    | ⟨0, _⟩ => show win1_9.index t (0 : Fin 2) * 2000 ≤ (i 0).val ∧ (i 0).val < win1_9.index t (0 : Fin 2) * 2000 + 2000; omega
    | ⟨1, _⟩ => show win1_9.index t (1 : Fin 2) * 128 ≤ (i 1).val ∧ (i 1).val < win1_9.index t (1 : Fin 2) * 128 + 128; omega

end Cert.KernelIdeal.Reg1

end
-- ==== Proof.Region2.lean ====
/-
  Kernel region 2 of the idealized kernel: the update of the third node type in layer 0, read as one
  function of the arrays the region finds.

  The grid has 5 points; point `t` stages rows `1000·t … 1000·t + 999` of the node features and of each aggregate,
  and the whole weight and bias arrays.  The body computes, on those row blocks, each relation's message (aggregate times
  transposed weight, bias row, features times a second transposed weight), adds the 3 messages to zero, multiplies by
  the named constant 1/3 and rectifies.  An entry of that result depends on one row of the row-blocked operands only,
  so the block a point writes back is the block of the same function of the whole arrays, and the 5 blocks tile the
  5000 rows.
-/
import proofs.«116292_j712964571450_1_alg».proof.Proof.FrameKernelIdealP
import proofs.«116292_j712964571450_1_alg».proof.Proof.LibHeteroMean

set_option maxRecDepth 16384

noncomputable section

namespace Cert.KernelIdeal.Reg2

open Cert.KernelIdeal Cert.KernelIdeal.Gen Cert.KernelIdeal.GenP Idealize.ShloMosaic Idealize.ShloMosaic.TcCoe Idealize.ShloMosaic.ValueIdx
open Idealize.SL.Sem
open Idealize.ShloMosaic.Pipeline (Dat)
open Cert.Dense Cert.HeteroMean

variable (V : (c : Dev nD) → (b : Ref sig .tc) → Buf (Elt Ideal) ((c : Thread nD τ).loc b))

theorem hz : (![0, 0] : Fin 2 → Nat) = fun _ => 0 := funext fun a => by fin_cases a <;> rfl

/-- The named constant denotes one third. -/
theorem inv3 : Named.named (F := Ideal) κ "inv_3" (φ := .f32) 0x3EAAAAAB#32 = (((1 / 3 : ℝ)) : EReal) :=
  IdealRules.named_const.ideal_named_scalar _ _ _ _ rfl

/-- The body's stored value, as the update of its loaded blocks. -/
theorem pay (x0 : Vec Ideal S1000x128 .f32) (x1 : Vec Ideal S1000x128 .f32) (x2 : Vec Ideal S1000x128 .f32) (x3 : Vec Ideal S1000x128 .f32) (x4 : Vec Ideal S128x128 .f32) (x5 : Vec Ideal S128x128 .f32) (x6 : Vec Ideal S128x128 .f32) (x7 : Vec Ideal S1x128 .f32) (x8 : Vec Ideal S1x128 .f32) (x9 : Vec Ideal S1x128 .f32) (x10 : Vec Ideal S128x128 .f32) (x11 : Vec Ideal S128x128 .f32) (x12 : Vec Ideal S128x128 .f32) :
    k2_pay1 x0 (k2_pay2 x0 x1 x4 x10 x7 x2 x5 x11 x8) x3 x6 x12 x9
      = relu (upd3 (((1 / 3 : ℝ)) : EReal) x0 x1 x2 x3 x4 x5 x6 x7 x8 x9 x10 x11 x12) := by
  have e1 := vecPart dot_S1000x128_S128x128_S1000x128_1_0_0_1_n_n rfl rfl rfl rfl rfl rfl dot_S1000x128_S128x128_S1000x128_1_0_0_1_n_n rfl rfl rfl rfl rfl rfl none none x1 x4 x7 x0 x10 transposes_S128x128_p1_0_S128x128 transposes_S128x128_p1_0_S128x128 broadcasts_S1x128_S1000x128
  have e2 := vecPart dot_S1000x128_S128x128_S1000x128_1_0_0_1_n_n rfl rfl rfl rfl rfl rfl dot_S1000x128_S128x128_S1000x128_1_0_0_1_n_n rfl rfl rfl rfl rfl rfl none none x2 x5 x8 x0 x11 transposes_S128x128_p1_0_S128x128 transposes_S128x128_p1_0_S128x128 broadcasts_S1x128_S1000x128
  have e3 := vecPart dot_S1000x128_S128x128_S1000x128_1_0_0_1_n_n rfl rfl rfl rfl rfl rfl dot_S1000x128_S128x128_S1000x128_1_0_0_1_n_n rfl rfl rfl rfl rfl rfl none none x3 x6 x9 x0 x12 transposes_S128x128_p1_0_S128x128 transposes_S128x128_p1_0_S128x128 broadcasts_S1x128_S1000x128
  unfold upd3
  rw [← vecRelu, ← inv3, ← vecMean3, ← e1, ← e2, ← e3]
  simp only [k2_pay1, k2_pay2, shapeCast_self]

/-- The printed index maps, decided over the grid: the row-blocked windows move with the point, the others stay. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0
    ∧ win2_11.index t (0 : Fin 2) = 0 ∧ win2_11.index t (1 : Fin 2) = 0
    ∧ win2_12.index t (0 : Fin 2) = 0 ∧ win2_12.index t (1 : Fin 2) = 0
    ∧ win2_13.index t (0 : Fin 2) = t.val ∧ win2_13.index t (1 : Fin 2) = 0 :=
  (by decide +kernel : ∀ t : Fin grid2.N, _)

/-- Row `p'` of window 0's block at point `t` is row `1000·t + p'` of its array. -/
theorem blk0 (c : Dev nD) (t : Fin cfg2.N) (p' : Fin 1000) (p : Fin 5000) (hp : p.val = t.val * 1000 + p'.val) (q : Fin 128) :
    iblk2 V c 0 t (ix2 p' q) = ((V c main_arg2) : Mat 5000 128) (ix2 p q) := by
  show (V c main_arg2) (((cfg2.win 0).blk t).view.emb (ix2 p' q)) = _
  refine congrArg (V c main_arg2) (funext fun a => Fin.ext ?_)
  have hf := idx_facts t
  match a with
  | ⟨0, _⟩ => show win2_0.index t (0 : Fin 2) * 1000 + 1 * p'.val = p.val; omega
  | ⟨1, _⟩ => show win2_0.index t (1 : Fin 2) * 128 + 1 * q.val = q.val; omega

/-- Row `p'` of window 1's block at point `t` is row `1000·t + p'` of its array. -/
theorem blk1 (c : Dev nD) (t : Fin cfg2.N) (p' : Fin 1000) (p : Fin 5000) (hp : p.val = t.val * 1000 + p'.val) (q : Fin 128) :
    iblk2 V c 1 t (ix2 p' q) = ((V c main_v103) : Mat 5000 128) (ix2 p q) := by
  show (V c main_v103) (((cfg2.win 1).blk t).view.emb (ix2 p' q)) = _
  refine congrArg (V c main_v103) (funext fun a => Fin.ext ?_)
  have hf := idx_facts t
  match a with
  | ⟨0, _⟩ => show win2_1.index t (0 : Fin 2) * 1000 + 1 * p'.val = p.val; omega
  | ⟨1, _⟩ => show win2_1.index t (1 : Fin 2) * 128 + 1 * q.val = q.val; omega

/-- Row `p'` of window 2's block at point `t` is row `1000·t + p'` of its array. -/
theorem blk2 (c : Dev nD) (t : Fin cfg2.N) (p' : Fin 1000) (p : Fin 5000) (hp : p.val = t.val * 1000 + p'.val) (q : Fin 128) :
    iblk2 V c 2 t (ix2 p' q) = ((V c main_v119) : Mat 5000 128) (ix2 p q) := by
  show (V c main_v119) (((cfg2.win 2).blk t).view.emb (ix2 p' q)) = _
  refine congrArg (V c main_v119) (funext fun a => Fin.ext ?_)
  have hf := idx_facts t
  match a with
  | ⟨0, _⟩ => show win2_2.index t (0 : Fin 2) * 1000 + 1 * p'.val = p.val; omega
  | ⟨1, _⟩ => show win2_2.index t (1 : Fin 2) * 128 + 1 * q.val = q.val; omega

/-- Row `p'` of window 3's block at point `t` is row `1000·t + p'` of its array. -/
theorem blk3 (c : Dev nD) (t : Fin cfg2.N) (p' : Fin 1000) (p : Fin 5000) (hp : p.val = t.val * 1000 + p'.val) (q : Fin 128) :
    iblk2 V c 3 t (ix2 p' q) = ((V c main_v199) : Mat 5000 128) (ix2 p q) := by
  show (V c main_v199) (((cfg2.win 3).blk t).view.emb (ix2 p' q)) = _
  refine congrArg (V c main_v199) (funext fun a => Fin.ext ?_)
  have hf := idx_facts t
  match a with
  | ⟨0, _⟩ => show win2_3.index t (0 : Fin 2) * 1000 + 1 * p'.val = p.val; omega
  | ⟨1, _⟩ => show win2_3.index t (1 : Fin 2) * 128 + 1 * q.val = q.val; omega

/-- Window 4's block at every point is its whole array. -/
theorem blk4 (c : Dev nD) (t : Fin cfg2.N) : iblk2 V c 4 t = (V c main_v238) := by
  funext y
  show (V c main_v238) (((cfg2.win 4).blk t).view.emb y) = _
  refine congrArg (V c main_v238) (funext fun a => Fin.ext ?_)
  have hf := idx_facts t
  match a with
  | ⟨0, _⟩ => show win2_4.index t (0 : Fin 2) * 128 + 1 * (y 0).val = (y 0).val; omega
  | ⟨1, _⟩ => show win2_4.index t (1 : Fin 2) * 128 + 1 * (y 1).val = (y 1).val; omega

/-- Window 5's block at every point is its whole array. -/
theorem blk5 (c : Dev nD) (t : Fin cfg2.N) : iblk2 V c 5 t = (V c main_v240) := by
  funext y
  show (V c main_v240) (((cfg2.win 5).blk t).view.emb y) = _
  refine congrArg (V c main_v240) (funext fun a => Fin.ext ?_)
  have hf := idx_facts t
  match a with
  | ⟨0, _⟩ => show win2_5.index t (0 : Fin 2) * 128 + 1 * (y 0).val = (y 0).val; omega
  | ⟨1, _⟩ => show win2_5.index t (1 : Fin 2) * 128 + 1 * (y 1).val = (y 1).val; omega

/-- Window 6's block at every point is its whole array. -/
theorem blk6 (c : Dev nD) (t : Fin cfg2.N) : iblk2 V c 6 t = (V c main_v242) := by
  funext y
  show (V c main_v242) (((cfg2.win 6).blk t).view.emb y) = _
  refine congrArg (V c main_v242) (funext fun a => Fin.ext ?_)
  have hf := idx_facts t
  match a with
  | ⟨0, _⟩ => show win2_6.index t (0 : Fin 2) * 128 + 1 * (y 0).val = (y 0).val; omega
  | ⟨1, _⟩ => show win2_6.index t (1 : Fin 2) * 128 + 1 * (y 1).val = (y 1).val; omega

/-- Window 7's block at every point is its whole array. -/
theorem blk7 (c : Dev nD) (t : Fin cfg2.N) : iblk2 V c 7 t = (V c main_v245) := by
  funext y
  show (V c main_v245) (((cfg2.win 7).blk t).view.emb y) = _
  refine congrArg (V c main_v245) (funext fun a => Fin.ext ?_)
  have hf := idx_facts t
  match a with
  | ⟨0, _⟩ => show win2_7.index t (0 : Fin 2) * 1 + 1 * (y 0).val = (y 0).val; omega
  | ⟨1, _⟩ => show win2_7.index t (1 : Fin 2) * 128 + 1 * (y 1).val = (y 1).val; omega

/-- Window 8's block at every point is its whole array. -/
theorem blk8 (c : Dev nD) (t : Fin cfg2.N) : iblk2 V c 8 t = (V c main_v248) := by
  funext y
  show (V c main_v248) (((cfg2.win 8).blk t).view.emb y) = _
  refine congrArg (V c main_v248) (funext fun a => Fin.ext ?_)
  have hf := idx_facts t
  match a with
  | ⟨0, _⟩ => show win2_8.index t (0 : Fin 2) * 1 + 1 * (y 0).val = (y 0).val; omega
  | ⟨1, _⟩ => show win2_8.index t (1 : Fin 2) * 128 + 1 * (y 1).val = (y 1).val; omega

/-- Window 9's block at every point is its whole array. -/
theorem blk9 (c : Dev nD) (t : Fin cfg2.N) : iblk2 V c 9 t = (V c main_v251) := by
  funext y
  show (V c main_v251) (((cfg2.win 9).blk t).view.emb y) = _
  refine congrArg (V c main_v251) (funext fun a => Fin.ext ?_)
  have hf := idx_facts t
  match a with
  | ⟨0, _⟩ => show win2_9.index t (0 : Fin 2) * 1 + 1 * (y 0).val = (y 0).val; omega
  | ⟨1, _⟩ => show win2_9.index t (1 : Fin 2) * 128 + 1 * (y 1).val = (y 1).val; omega

/-- Window 10's block at every point is its whole array. -/
theorem blk10 (c : Dev nD) (t : Fin cfg2.N) : iblk2 V c 10 t = (V c main_v253) := by
  funext y
  show (V c main_v253) (((cfg2.win 10).blk t).view.emb y) = _
  refine congrArg (V c main_v253) (funext fun a => Fin.ext ?_)
  have hf := idx_facts t
  match a with
  | ⟨0, _⟩ => show win2_10.index t (0 : Fin 2) * 128 + 1 * (y 0).val = (y 0).val; omega
  | ⟨1, _⟩ => show win2_10.index t (1 : Fin 2) * 128 + 1 * (y 1).val = (y 1).val; omega

/-- Window 11's block at every point is its whole array. -/
theorem blk11 (c : Dev nD) (t : Fin cfg2.N) : iblk2 V c 11 t = (V c main_v255) := by
  funext y
  show (V c main_v255) (((cfg2.win 11).blk t).view.emb y) = _
  refine congrArg (V c main_v255) (funext fun a => Fin.ext ?_)
  have hf := idx_facts t
  match a with
  | ⟨0, _⟩ => show win2_11.index t (0 : Fin 2) * 128 + 1 * (y 0).val = (y 0).val; omega
  | ⟨1, _⟩ => show win2_11.index t (1 : Fin 2) * 128 + 1 * (y 1).val = (y 1).val; omega

/-- Window 12's block at every point is its whole array. -/
theorem blk12 (c : Dev nD) (t : Fin cfg2.N) : iblk2 V c 12 t = (V c main_v257) := by
  funext y
  show (V c main_v257) (((cfg2.win 12).blk t).view.emb y) = _
  refine congrArg (V c main_v257) (funext fun a => Fin.ext ?_)
  have hf := idx_facts t
  match a with
  | ⟨0, _⟩ => show win2_12.index t (0 : Fin 2) * 128 + 1 * (y 0).val = (y 0).val; omega
  | ⟨1, _⟩ => show win2_12.index t (1 : Fin 2) * 128 + 1 * (y 1).val = (y 1).val; omega

/-- What point `t` writes back is block `t` of the update of the whole arrays. -/
theorem flushed_eq (c : Dev nD) (t : Fin cfg2.N) :
    (dat2 V c).flushed 13 t = ((cfg2.win 13).blk t).view.read (Elt Ideal)
      (relu (upd3 (((1 / 3 : ℝ)) : EReal) ((V c main_arg2) : Mat 5000 128) ((V c main_v103) : Mat 5000 128) ((V c main_v119) : Mat 5000 128) ((V c main_v199) : Mat 5000 128) (V c main_v238) (V c main_v240) (V c main_v242) (V c main_v245) (V c main_v248) (V c main_v251) (V c main_v253) (V c main_v255) (V c main_v257))) := by
  show (cfg2.win 13).cut (grid2.coords t) ((dat2 V c).after 13 t) = _
  rw [after2_13]
  unfold out2_13
  rw [View.canon_unit_zero hz]
  simp only [View.ld_unit_zero (S := S1000x128) hz, View.ld_unit_zero (S := S128x128) hz, View.ld_unit_zero (S := S1x128) hz]
  rw [pay, blk4 V c t, blk5 V c t, blk6 V c t, blk7 V c t, blk8 V c t, blk9 V c t, blk10 V c t, blk11 V c t, blk12 V c t]
  funext j
  obtain ⟨p', q, rfl⟩ : ∃ (p' : Fin 1000) (q : Fin 128), j = ix2 p' q := ⟨j 0, j 1, eq_ix2 j⟩
  have ht : t.val < 5 := by have h := t.isLt; have hN : cfg2.N = 5 := N_2; omega
  have hp'' : t.val * 1000 + p'.val < 5000 := by have := p'.isLt; omega
  have hemb : ((cfg2.win 13).blk t).view.emb (ix2 p' q) = ix2 (⟨t.val * 1000 + p'.val, hp''⟩ : Fin 5000) q := by
    funext a; apply Fin.ext
    have hf := idx_facts t
    match a with
    | ⟨0, _⟩ => show win2_13.index t (0 : Fin 2) * 1000 + 1 * p'.val = t.val * 1000 + p'.val; omega
    | ⟨1, _⟩ => show win2_13.index t (1 : Fin 2) * 128 + 1 * q.val = q.val; omega
  show _ = (relu (upd3 (((1 / 3 : ℝ)) : EReal) ((V c main_arg2) : Mat 5000 128) ((V c main_v103) : Mat 5000 128) ((V c main_v119) : Mat 5000 128) ((V c main_v199) : Mat 5000 128) (V c main_v238) (V c main_v240) (V c main_v242) (V c main_v245) (V c main_v248) (V c main_v251) (V c main_v253) (V c main_v255) (V c main_v257))) (((cfg2.win 13).blk t).view.emb (ix2 p' q))
  rw [hemb]
  exact relu_rows _ _ _ _ _ (upd3_rows _ _ _ _ _ _ _ _ _ _ _ _ _ _ _ _ _ _ (⟨t.val * 1000 + p'.val, hp''⟩ : Fin 5000) p'
      (fun k => blk0 V c t p' (⟨t.val * 1000 + p'.val, hp''⟩ : Fin 5000) rfl k) (fun k => blk1 V c t p' (⟨t.val * 1000 + p'.val, hp''⟩ : Fin 5000) rfl k) (fun k => blk2 V c t p' (⟨t.val * 1000 + p'.val, hp''⟩ : Fin 5000) rfl k) (fun k => blk3 V c t p' (⟨t.val * 1000 + p'.val, hp''⟩ : Fin 5000) rfl k) q)

/-- An index of the array is in point `t`'s block iff each coordinate is in the block's range on its axis. -/
theorem mem_blk (t : Fin cfg2.N) (i : S5000x128.Idx) :
    i ∈ ((cfg2.win 13).blk t).view.set ↔ ∀ a : Fin 2, win2_13.index t a * S1000x128.size a ≤ (i a).val ∧ (i a).val < win2_13.index t a * S1000x128.size a + S1000x128.size a := by
  show i ∈ ((View.whole main_v258).slice (win2_13.rect t)).set ↔ _
  rw [View.set_slice_whole, Rect.mem_set_unit]
  exact Iff.rfl

/-- The output array after the region: the update of the arrays the region finds. -/
theorem final (c : Dev nD) : (dat2 V c).arrAt 13 cfg2.N
      = relu (upd3 (((1 / 3 : ℝ)) : EReal) ((V c main_arg2) : Mat 5000 128) ((V c main_v103) : Mat 5000 128) ((V c main_v119) : Mat 5000 128) ((V c main_v199) : Mat 5000 128) (V c main_v238) (V c main_v240) (V c main_v242) (V c main_v245) (V c main_v248) (V c main_v251) (V c main_v253) (V c main_v255) (V c main_v257)) :=
  (dat2 V c).arrAt_eq_of_cover 13 _ (fun t _ => flushed_eq V c t) fun i => by
    have hi0 : (i 0).val < 5000 := (i 0).isLt
    have hi1 : (i 1).val < 128 := (i 1).isLt
    have hN : cfg2.N = 5 := N_2
    obtain ⟨t, ht⟩ : ∃ t : Fin cfg2.N, t.val = (i 0).val / 1000 := ⟨⟨(i 0).val / 1000, by rw [hN]; omega⟩, rfl⟩
    refine ⟨t, flush2_13 t, ?_⟩
    rw [mem_blk]
    have hf := idx_facts t
    intro a
    match a with
    | ⟨0, _⟩ => show win2_13.index t (0 : Fin 2) * 1000 ≤ (i 0).val ∧ (i 0).val < win2_13.index t (0 : Fin 2) * 1000 + 1000; omega
    | ⟨1, _⟩ => show win2_13.index t (1 : Fin 2) * 128 ≤ (i 1).val ∧ (i 1).val < win2_13.index t (1 : Fin 2) * 128 + 128; omega

end Cert.KernelIdeal.Reg2

end
-- ==== Proof.Chain0.lean ====
/-
  Layer 0 of the idealized kernel against layer 0 of the reference.

  The contents of the kernel's buffers at the boundaries of @main's segments, named by the reference's stages of the same
  argument arrays: an argument array is carried unchanged to every boundary; each aggregate (the rows gathered at the
  source entries, summed per destination, divided by the clamped count column) is the same chain of host operations on
  both sides, applied to the previous layer's outputs; each weight matrix or bias vector the kernel slices out of the
  stacked parameters in one step is the array the reference slices in two; and each region's output array — the update
  of the arrays the region finds — is the reference's layer output for that node type.
-/
import proofs.«116292_j712964571450_1_alg».proof.Proof.FrameKernelIdealP
import proofs.«116292_j712964571450_1_alg».proof.Proof.LibStackPick
import proofs.«116292_j712964571450_1_alg».proof.Proof.RefLayers
import proofs.«116292_j712964571450_1_alg».proof.Proof.Region0
import proofs.«116292_j712964571450_1_alg».proof.Proof.Region1
import proofs.«116292_j712964571450_1_alg».proof.Proof.Region2

set_option maxRecDepth 16384

noncomputable section

namespace Cert.KernelIdeal.Chain

open Cert.KernelIdeal Cert.KernelIdeal.Gen Cert.KernelIdeal.GenP
open Idealize.ShloMosaic Idealize.ShloMosaic.TcCoe Idealize.SL.Sem Idealize.ShloMosaic.StableHlo

variable (m : (ℓ : Loc nD τ sig) → Buf (Elt Ideal) ℓ) (ρ : Dev nD → PrngReg)

theorem at0_arg0 (c : Dev nD) : W0 m ρ c (Proc.devRef .tc main_arg0) = (m ((c : Thread nD τ).loc main_arg0)) := rfl

theorem at1_arg0 (c : Dev nD) : W1 m ρ c (Proc.devRef .tc main_arg0) = (m ((c : Thread nD τ).loc main_arg0)) :=
  (keepP0 m ρ c main_arg0 (by decide)).trans (at0_arg0 m ρ c)

theorem at0_arg9 (c : Dev nD) : W0 m ρ c (Proc.devRef .tc main_arg9) = (m ((c : Thread nD τ).loc main_arg9)) := rfl

theorem at0_arg1 (c : Dev nD) : W0 m ρ c (Proc.devRef .tc main_arg1) = (m ((c : Thread nD τ).loc main_arg1)) := rfl

set_option maxHeartbeats 40000000 in
theorem at1_v135 (c : Dev nD) : W1 m ρ c (Proc.devRef .tc main_v135) = (Cert.ReferenceIdeal.ReadP.val_main_v145 (F := Ideal) (m ((c : Thread nD τ).loc main_arg1)) (m ((c : Thread nD τ).loc main_arg9))) := by
  show StableHlo.after hostOps0 (W0 m ρ c) (Proc.devRef .tc main_v135) = _
  after_results_simp
  rw [at0_arg9 m ρ c, at0_arg1 m ρ c]
  rfl

theorem at0_arg11 (c : Dev nD) : W0 m ρ c (Proc.devRef .tc main_arg11) = (m ((c : Thread nD τ).loc main_arg11)) := rfl

theorem at0_arg2 (c : Dev nD) : W0 m ρ c (Proc.devRef .tc main_arg2) = (m ((c : Thread nD τ).loc main_arg2)) := rfl

set_option maxHeartbeats 40000000 in
theorem at1_v167 (c : Dev nD) : W1 m ρ c (Proc.devRef .tc main_v167) = (Cert.ReferenceIdeal.ReadP.val_main_v219 (F := Ideal) (m ((c : Thread nD τ).loc main_arg2)) (m ((c : Thread nD τ).loc main_arg11))) := by
  show StableHlo.after hostOps0 (W0 m ρ c) (Proc.devRef .tc main_v167) = _
  after_results_simp
  rw [at0_arg11 m ρ c, at0_arg2 m ρ c]
  rfl

theorem at0_arg12 (c : Dev nD) : W0 m ρ c (Proc.devRef .tc main_arg12) = (m ((c : Thread nD τ).loc main_arg12)) := rfl

set_option maxHeartbeats 40000000 in
theorem at1_v183 (c : Dev nD) : W1 m ρ c (Proc.devRef .tc main_v183) = (Cert.ReferenceIdeal.ReadP.val_main_v256 (F := Ideal) (m ((c : Thread nD τ).loc main_arg0)) (m ((c : Thread nD τ).loc main_arg12))) := by
  show StableHlo.after hostOps0 (W0 m ρ c) (Proc.devRef .tc main_v183) = _
  after_results_simp
  rw [at0_arg12 m ρ c, at0_arg0 m ρ c]
  rfl

theorem at0_arg3 (c : Dev nD) : W0 m ρ c (Proc.devRef .tc main_arg3) = (m ((c : Thread nD τ).loc main_arg3)) := rfl

set_option maxHeartbeats 40000000 in
theorem at1_v201 (c : Dev nD) : W1 m ρ c (Proc.devRef .tc main_v201) = (Cert.ReferenceIdeal.ReadP.val_main_v118 (F := Ideal) (m ((c : Thread nD τ).loc main_arg3))) := by
  show StableHlo.after hostOps0 (W0 m ρ c) (Proc.devRef .tc main_v201) = _
  after_results_simp
  rw [at0_arg3 m ρ c]
  exact Cert.StackPick.mat_direct_eq_staged (L := 3) (R := 8) (a := 128) (b := 128) 0 3 (by decide) (by decide) _ _ _ _ _ _ _

set_option maxHeartbeats 40000000 in
theorem at1_v203 (c : Dev nD) : W1 m ρ c (Proc.devRef .tc main_v203) = (Cert.ReferenceIdeal.ReadP.val_main_v192 (F := Ideal) (m ((c : Thread nD τ).loc main_arg3))) := by
  show StableHlo.after hostOps0 (W0 m ρ c) (Proc.devRef .tc main_v203) = _
  after_results_simp
  rw [at0_arg3 m ρ c]
  exact Cert.StackPick.mat_direct_eq_staged (L := 3) (R := 8) (a := 128) (b := 128) 0 5 (by decide) (by decide) _ _ _ _ _ _ _

set_option maxHeartbeats 40000000 in
theorem at1_v205 (c : Dev nD) : W1 m ρ c (Proc.devRef .tc main_v205) = (Cert.ReferenceIdeal.ReadP.val_main_v229 (F := Ideal) (m ((c : Thread nD τ).loc main_arg3))) := by
  show StableHlo.after hostOps0 (W0 m ρ c) (Proc.devRef .tc main_v205) = _
  after_results_simp
  rw [at0_arg3 m ρ c]
  exact Cert.StackPick.mat_direct_eq_staged (L := 3) (R := 8) (a := 128) (b := 128) 0 6 (by decide) (by decide) _ _ _ _ _ _ _

theorem at0_arg4 (c : Dev nD) : W0 m ρ c (Proc.devRef .tc main_arg4) = (m ((c : Thread nD τ).loc main_arg4)) := rfl

set_option maxHeartbeats 40000000 in
theorem at1_v208 (c : Dev nD) : W1 m ρ c (Proc.devRef .tc main_v208) = (Cert.Dense.row (Cert.ReferenceIdeal.ReadP.val_main_v120 (F := Ideal) (m ((c : Thread nD τ).loc main_arg4)))) := by
  show StableHlo.after hostOps0 (W0 m ρ c) (Proc.devRef .tc main_v208) = _
  after_results_simp
  rw [at0_arg4 m ρ c]
  exact Cert.StackPick.row_direct_eq_staged (L := 3) (R := 8) (b := 128) 0 3 (by decide) (by decide) _ _ _ _ Cert.ReferenceIdeal.Gen.slices_S3x8x128_S1x8x128_0_0_0 Cert.ReferenceIdeal.Gen.shapeCasts_S1x8x128_S8x128 Cert.ReferenceIdeal.Gen.slices_S8x128_S1x128_3_0 Cert.ReferenceIdeal.Gen.shapeCasts_S1x128_S128

set_option maxHeartbeats 40000000 in
theorem at1_v211 (c : Dev nD) : W1 m ρ c (Proc.devRef .tc main_v211) = (Cert.Dense.row (Cert.ReferenceIdeal.ReadP.val_main_v194 (F := Ideal) (m ((c : Thread nD τ).loc main_arg4)))) := by
  show StableHlo.after hostOps0 (W0 m ρ c) (Proc.devRef .tc main_v211) = _
  after_results_simp
  rw [at0_arg4 m ρ c]
  exact Cert.StackPick.row_direct_eq_staged (L := 3) (R := 8) (b := 128) 0 5 (by decide) (by decide) _ _ _ _ Cert.ReferenceIdeal.Gen.slices_S3x8x128_S1x8x128_0_0_0 Cert.ReferenceIdeal.Gen.shapeCasts_S1x8x128_S8x128 Cert.ReferenceIdeal.Gen.slices_S8x128_S1x128_5_0 Cert.ReferenceIdeal.Gen.shapeCasts_S1x128_S128

set_option maxHeartbeats 40000000 in
theorem at1_v214 (c : Dev nD) : W1 m ρ c (Proc.devRef .tc main_v214) = (Cert.Dense.row (Cert.ReferenceIdeal.ReadP.val_main_v231 (F := Ideal) (m ((c : Thread nD τ).loc main_arg4)))) := by
  show StableHlo.after hostOps0 (W0 m ρ c) (Proc.devRef .tc main_v214) = _
  after_results_simp
  rw [at0_arg4 m ρ c]
  exact Cert.StackPick.row_direct_eq_staged (L := 3) (R := 8) (b := 128) 0 6 (by decide) (by decide) _ _ _ _ Cert.ReferenceIdeal.Gen.slices_S3x8x128_S1x8x128_0_0_0 Cert.ReferenceIdeal.Gen.shapeCasts_S1x8x128_S8x128 Cert.ReferenceIdeal.Gen.slices_S8x128_S1x128_6_0 Cert.ReferenceIdeal.Gen.shapeCasts_S1x128_S128

theorem at0_arg5 (c : Dev nD) : W0 m ρ c (Proc.devRef .tc main_arg5) = (m ((c : Thread nD τ).loc main_arg5)) := rfl

set_option maxHeartbeats 40000000 in
theorem at1_v216 (c : Dev nD) : W1 m ρ c (Proc.devRef .tc main_v216) = (Cert.ReferenceIdeal.ReadP.val_main_v122 (F := Ideal) (m ((c : Thread nD τ).loc main_arg5))) := by
  show StableHlo.after hostOps0 (W0 m ρ c) (Proc.devRef .tc main_v216) = _
  after_results_simp
  rw [at0_arg5 m ρ c]
  exact Cert.StackPick.mat_direct_eq_staged (L := 3) (R := 8) (a := 128) (b := 128) 0 3 (by decide) (by decide) _ _ _ _ _ _ _

set_option maxHeartbeats 40000000 in
theorem at1_v218 (c : Dev nD) : W1 m ρ c (Proc.devRef .tc main_v218) = (Cert.ReferenceIdeal.ReadP.val_main_v196 (F := Ideal) (m ((c : Thread nD τ).loc main_arg5))) := by
  show StableHlo.after hostOps0 (W0 m ρ c) (Proc.devRef .tc main_v218) = _
  after_results_simp
  rw [at0_arg5 m ρ c]
  exact Cert.StackPick.mat_direct_eq_staged (L := 3) (R := 8) (a := 128) (b := 128) 0 5 (by decide) (by decide) _ _ _ _ _ _ _

set_option maxHeartbeats 40000000 in
theorem at1_v220 (c : Dev nD) : W1 m ρ c (Proc.devRef .tc main_v220) = (Cert.ReferenceIdeal.ReadP.val_main_v233 (F := Ideal) (m ((c : Thread nD τ).loc main_arg5))) := by
  show StableHlo.after hostOps0 (W0 m ρ c) (Proc.devRef .tc main_v220) = _
  after_results_simp
  rw [at0_arg5 m ρ c]
  exact Cert.StackPick.mat_direct_eq_staged (L := 3) (R := 8) (a := 128) (b := 128) 0 6 (by decide) (by decide) _ _ _ _ _ _ _

theorem win0_0 (c : Dev nD) : V1 m ρ c main_arg0 = (m ((c : Thread nD τ).loc main_arg0)) := at1_arg0 m ρ c

theorem win0_1 (c : Dev nD) : V1 m ρ c main_v135 = (Cert.ReferenceIdeal.ReadP.val_main_v145 (F := Ideal) (m ((c : Thread nD τ).loc main_arg1)) (m ((c : Thread nD τ).loc main_arg9))) := at1_v135 m ρ c

theorem win0_2 (c : Dev nD) : V1 m ρ c main_v167 = (Cert.ReferenceIdeal.ReadP.val_main_v219 (F := Ideal) (m ((c : Thread nD τ).loc main_arg2)) (m ((c : Thread nD τ).loc main_arg11))) := at1_v167 m ρ c

theorem win0_3 (c : Dev nD) : V1 m ρ c main_v183 = (Cert.ReferenceIdeal.ReadP.val_main_v256 (F := Ideal) (m ((c : Thread nD τ).loc main_arg0)) (m ((c : Thread nD τ).loc main_arg12))) := at1_v183 m ρ c

theorem win0_4 (c : Dev nD) : V1 m ρ c main_v201 = (Cert.ReferenceIdeal.ReadP.val_main_v118 (F := Ideal) (m ((c : Thread nD τ).loc main_arg3))) := at1_v201 m ρ c

theorem win0_5 (c : Dev nD) : V1 m ρ c main_v203 = (Cert.ReferenceIdeal.ReadP.val_main_v192 (F := Ideal) (m ((c : Thread nD τ).loc main_arg3))) := at1_v203 m ρ c

theorem win0_6 (c : Dev nD) : V1 m ρ c main_v205 = (Cert.ReferenceIdeal.ReadP.val_main_v229 (F := Ideal) (m ((c : Thread nD τ).loc main_arg3))) := at1_v205 m ρ c

theorem win0_7 (c : Dev nD) : V1 m ρ c main_v208 = (Cert.Dense.row (Cert.ReferenceIdeal.ReadP.val_main_v120 (F := Ideal) (m ((c : Thread nD τ).loc main_arg4)))) := at1_v208 m ρ c

theorem win0_8 (c : Dev nD) : V1 m ρ c main_v211 = (Cert.Dense.row (Cert.ReferenceIdeal.ReadP.val_main_v194 (F := Ideal) (m ((c : Thread nD τ).loc main_arg4)))) := at1_v211 m ρ c

theorem win0_9 (c : Dev nD) : V1 m ρ c main_v214 = (Cert.Dense.row (Cert.ReferenceIdeal.ReadP.val_main_v231 (F := Ideal) (m ((c : Thread nD τ).loc main_arg4)))) := at1_v214 m ρ c

theorem win0_10 (c : Dev nD) : V1 m ρ c main_v216 = (Cert.ReferenceIdeal.ReadP.val_main_v122 (F := Ideal) (m ((c : Thread nD τ).loc main_arg5))) := at1_v216 m ρ c

theorem win0_11 (c : Dev nD) : V1 m ρ c main_v218 = (Cert.ReferenceIdeal.ReadP.val_main_v196 (F := Ideal) (m ((c : Thread nD τ).loc main_arg5))) := at1_v218 m ρ c

theorem win0_12 (c : Dev nD) : V1 m ρ c main_v220 = (Cert.ReferenceIdeal.ReadP.val_main_v233 (F := Ideal) (m ((c : Thread nD τ).loc main_arg5))) := at1_v220 m ρ c

/-- Region 0's output array, after the region, is the reference's layer-0 output for node type 0. -/
theorem out0 (c : Dev nD) : W2 m ρ c (Proc.devRef .tc main_v221) = (Cert.ReferenceIdeal.ReadP.val_main_v319 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg11)) (m ((c : Thread nD τ).loc main_arg12))) := by
  rw [show W2 m ρ c (Proc.devRef .tc main_v221) = (dat0 (V1 m ρ) c).arrAt 13 cfg0.N from W2_arr m ρ c 13,
    Cert.KernelIdeal.Reg0.final (V1 m ρ) c, win0_0 m ρ c, win0_1 m ρ c, win0_2 m ρ c, win0_3 m ρ c, win0_4 m ρ c, win0_5 m ρ c, win0_6 m ρ c, win0_7 m ρ c, win0_8 m ρ c, win0_9 m ρ c, win0_10 m ρ c, win0_11 m ρ c, win0_12 m ρ c]
  exact (Cert.ReferenceIdeal.Layers.out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg11)) (m ((c : Thread nD τ).loc main_arg12))).symm

theorem at1_arg1 (c : Dev nD) : W1 m ρ c (Proc.devRef .tc main_arg1) = (m ((c : Thread nD τ).loc main_arg1)) :=
  (keepP0 m ρ c main_arg1 (by decide)).trans (at0_arg1 m ρ c)

theorem at2_arg1 (c : Dev nD) : W2 m ρ c (Proc.devRef .tc main_arg1) = (m ((c : Thread nD τ).loc main_arg1)) :=
  (W2_of_ne m ρ c main_arg1 (by decide)).trans (at1_arg1 m ρ c)

theorem at3_arg1 (c : Dev nD) : W3 m ρ c (Proc.devRef .tc main_arg1) = (m ((c : Thread nD τ).loc main_arg1)) :=
  (keepP1 m ρ c main_arg1 (by decide)).trans (at2_arg1 m ρ c)

theorem at0_arg6 (c : Dev nD) : W0 m ρ c (Proc.devRef .tc main_arg6) = (m ((c : Thread nD τ).loc main_arg6)) := rfl

set_option maxHeartbeats 40000000 in
theorem at1_v87 (c : Dev nD) : W1 m ρ c (Proc.devRef .tc main_v87) = (Cert.ReferenceIdeal.ReadP.val_main_v34 (F := Ideal) (m ((c : Thread nD τ).loc main_arg0)) (m ((c : Thread nD τ).loc main_arg6))) := by
  show StableHlo.after hostOps0 (W0 m ρ c) (Proc.devRef .tc main_v87) = _
  after_results_simp
  rw [at0_arg6 m ρ c, at0_arg0 m ρ c]
  rfl

theorem at2_v87 (c : Dev nD) : W2 m ρ c (Proc.devRef .tc main_v87) = (Cert.ReferenceIdeal.ReadP.val_main_v34 (F := Ideal) (m ((c : Thread nD τ).loc main_arg0)) (m ((c : Thread nD τ).loc main_arg6))) :=
  (W2_of_ne m ρ c main_v87 (by decide)).trans (at1_v87 m ρ c)

theorem at3_v87 (c : Dev nD) : W3 m ρ c (Proc.devRef .tc main_v87) = (Cert.ReferenceIdeal.ReadP.val_main_v34 (F := Ideal) (m ((c : Thread nD τ).loc main_arg0)) (m ((c : Thread nD τ).loc main_arg6))) :=
  (keepP1 m ρ c main_v87 (by decide)).trans (at2_v87 m ρ c)

theorem at0_arg10 (c : Dev nD) : W0 m ρ c (Proc.devRef .tc main_arg10) = (m ((c : Thread nD τ).loc main_arg10)) := rfl

set_option maxHeartbeats 40000000 in
theorem at1_v151 (c : Dev nD) : W1 m ρ c (Proc.devRef .tc main_v151) = (Cert.ReferenceIdeal.ReadP.val_main_v182 (F := Ideal) (m ((c : Thread nD τ).loc main_arg2)) (m ((c : Thread nD τ).loc main_arg10))) := by
  show StableHlo.after hostOps0 (W0 m ρ c) (Proc.devRef .tc main_v151) = _
  after_results_simp
  rw [at0_arg10 m ρ c, at0_arg2 m ρ c]
  rfl

theorem at2_v151 (c : Dev nD) : W2 m ρ c (Proc.devRef .tc main_v151) = (Cert.ReferenceIdeal.ReadP.val_main_v182 (F := Ideal) (m ((c : Thread nD τ).loc main_arg2)) (m ((c : Thread nD τ).loc main_arg10))) :=
  (W2_of_ne m ρ c main_v151 (by decide)).trans (at1_v151 m ρ c)

theorem at3_v151 (c : Dev nD) : W3 m ρ c (Proc.devRef .tc main_v151) = (Cert.ReferenceIdeal.ReadP.val_main_v182 (F := Ideal) (m ((c : Thread nD τ).loc main_arg2)) (m ((c : Thread nD τ).loc main_arg10))) :=
  (keepP1 m ρ c main_v151 (by decide)).trans (at2_v151 m ρ c)

theorem at1_arg3 (c : Dev nD) : W1 m ρ c (Proc.devRef .tc main_arg3) = (m ((c : Thread nD τ).loc main_arg3)) :=
  (keepP0 m ρ c main_arg3 (by decide)).trans (at0_arg3 m ρ c)

theorem at2_arg3 (c : Dev nD) : W2 m ρ c (Proc.devRef .tc main_arg3) = (m ((c : Thread nD τ).loc main_arg3)) :=
  (W2_of_ne m ρ c main_arg3 (by decide)).trans (at1_arg3 m ρ c)

set_option maxHeartbeats 40000000 in
theorem at3_v223 (c : Dev nD) : W3 m ρ c (Proc.devRef .tc main_v223) = (Cert.ReferenceIdeal.ReadP.val_main_v7 (F := Ideal) (m ((c : Thread nD τ).loc main_arg3))) := by
  show StableHlo.after hostOps1 (W2 m ρ c) (Proc.devRef .tc main_v223) = _
  after_results_simp
  rw [at2_arg3 m ρ c]
  exact Cert.StackPick.mat_direct_eq_staged (L := 3) (R := 8) (a := 128) (b := 128) 0 0 (by decide) (by decide) _ _ _ _ _ _ _

set_option maxHeartbeats 40000000 in
theorem at3_v225 (c : Dev nD) : W3 m ρ c (Proc.devRef .tc main_v225) = (Cert.ReferenceIdeal.ReadP.val_main_v155 (F := Ideal) (m ((c : Thread nD τ).loc main_arg3))) := by
  show StableHlo.after hostOps1 (W2 m ρ c) (Proc.devRef .tc main_v225) = _
  after_results_simp
  rw [at2_arg3 m ρ c]
  exact Cert.StackPick.mat_direct_eq_staged (L := 3) (R := 8) (a := 128) (b := 128) 0 4 (by decide) (by decide) _ _ _ _ _ _ _

theorem at1_arg4 (c : Dev nD) : W1 m ρ c (Proc.devRef .tc main_arg4) = (m ((c : Thread nD τ).loc main_arg4)) :=
  (keepP0 m ρ c main_arg4 (by decide)).trans (at0_arg4 m ρ c)

theorem at2_arg4 (c : Dev nD) : W2 m ρ c (Proc.devRef .tc main_arg4) = (m ((c : Thread nD τ).loc main_arg4)) :=
  (W2_of_ne m ρ c main_arg4 (by decide)).trans (at1_arg4 m ρ c)

set_option maxHeartbeats 40000000 in
theorem at3_v228 (c : Dev nD) : W3 m ρ c (Proc.devRef .tc main_v228) = (Cert.Dense.row (Cert.ReferenceIdeal.ReadP.val_main_v9 (F := Ideal) (m ((c : Thread nD τ).loc main_arg4)))) := by
  show StableHlo.after hostOps1 (W2 m ρ c) (Proc.devRef .tc main_v228) = _
  after_results_simp
  rw [at2_arg4 m ρ c]
  exact Cert.StackPick.row_direct_eq_staged (L := 3) (R := 8) (b := 128) 0 0 (by decide) (by decide) _ _ _ _ Cert.ReferenceIdeal.Gen.slices_S3x8x128_S1x8x128_0_0_0 Cert.ReferenceIdeal.Gen.shapeCasts_S1x8x128_S8x128 Cert.ReferenceIdeal.Gen.slices_S8x128_S1x128_0_0 Cert.ReferenceIdeal.Gen.shapeCasts_S1x128_S128

set_option maxHeartbeats 40000000 in
theorem at3_v231 (c : Dev nD) : W3 m ρ c (Proc.devRef .tc main_v231) = (Cert.Dense.row (Cert.ReferenceIdeal.ReadP.val_main_v157 (F := Ideal) (m ((c : Thread nD τ).loc main_arg4)))) := by
  show StableHlo.after hostOps1 (W2 m ρ c) (Proc.devRef .tc main_v231) = _
  after_results_simp
  rw [at2_arg4 m ρ c]
  exact Cert.StackPick.row_direct_eq_staged (L := 3) (R := 8) (b := 128) 0 4 (by decide) (by decide) _ _ _ _ Cert.ReferenceIdeal.Gen.slices_S3x8x128_S1x8x128_0_0_0 Cert.ReferenceIdeal.Gen.shapeCasts_S1x8x128_S8x128 Cert.ReferenceIdeal.Gen.slices_S8x128_S1x128_4_0 Cert.ReferenceIdeal.Gen.shapeCasts_S1x128_S128

theorem at1_arg5 (c : Dev nD) : W1 m ρ c (Proc.devRef .tc main_arg5) = (m ((c : Thread nD τ).loc main_arg5)) :=
  (keepP0 m ρ c main_arg5 (by decide)).trans (at0_arg5 m ρ c)

theorem at2_arg5 (c : Dev nD) : W2 m ρ c (Proc.devRef .tc main_arg5) = (m ((c : Thread nD τ).loc main_arg5)) :=
  (W2_of_ne m ρ c main_arg5 (by decide)).trans (at1_arg5 m ρ c)

set_option maxHeartbeats 40000000 in
theorem at3_v233 (c : Dev nD) : W3 m ρ c (Proc.devRef .tc main_v233) = (Cert.ReferenceIdeal.ReadP.val_main_v11 (F := Ideal) (m ((c : Thread nD τ).loc main_arg5))) := by
  show StableHlo.after hostOps1 (W2 m ρ c) (Proc.devRef .tc main_v233) = _
  after_results_simp
  rw [at2_arg5 m ρ c]
  exact Cert.StackPick.mat_direct_eq_staged (L := 3) (R := 8) (a := 128) (b := 128) 0 0 (by decide) (by decide) _ _ _ _ _ _ _

set_option maxHeartbeats 40000000 in
theorem at3_v235 (c : Dev nD) : W3 m ρ c (Proc.devRef .tc main_v235) = (Cert.ReferenceIdeal.ReadP.val_main_v159 (F := Ideal) (m ((c : Thread nD τ).loc main_arg5))) := by
  show StableHlo.after hostOps1 (W2 m ρ c) (Proc.devRef .tc main_v235) = _
  after_results_simp
  rw [at2_arg5 m ρ c]
  exact Cert.StackPick.mat_direct_eq_staged (L := 3) (R := 8) (a := 128) (b := 128) 0 4 (by decide) (by decide) _ _ _ _ _ _ _

theorem win1_0 (c : Dev nD) : V3 m ρ c main_arg1 = (m ((c : Thread nD τ).loc main_arg1)) := at3_arg1 m ρ c

theorem win1_1 (c : Dev nD) : V3 m ρ c main_v87 = (Cert.ReferenceIdeal.ReadP.val_main_v34 (F := Ideal) (m ((c : Thread nD τ).loc main_arg0)) (m ((c : Thread nD τ).loc main_arg6))) := at3_v87 m ρ c

theorem win1_2 (c : Dev nD) : V3 m ρ c main_v151 = (Cert.ReferenceIdeal.ReadP.val_main_v182 (F := Ideal) (m ((c : Thread nD τ).loc main_arg2)) (m ((c : Thread nD τ).loc main_arg10))) := at3_v151 m ρ c

theorem win1_3 (c : Dev nD) : V3 m ρ c main_v223 = (Cert.ReferenceIdeal.ReadP.val_main_v7 (F := Ideal) (m ((c : Thread nD τ).loc main_arg3))) := at3_v223 m ρ c

theorem win1_4 (c : Dev nD) : V3 m ρ c main_v225 = (Cert.ReferenceIdeal.ReadP.val_main_v155 (F := Ideal) (m ((c : Thread nD τ).loc main_arg3))) := at3_v225 m ρ c

theorem win1_5 (c : Dev nD) : V3 m ρ c main_v228 = (Cert.Dense.row (Cert.ReferenceIdeal.ReadP.val_main_v9 (F := Ideal) (m ((c : Thread nD τ).loc main_arg4)))) := at3_v228 m ρ c

theorem win1_6 (c : Dev nD) : V3 m ρ c main_v231 = (Cert.Dense.row (Cert.ReferenceIdeal.ReadP.val_main_v157 (F := Ideal) (m ((c : Thread nD τ).loc main_arg4)))) := at3_v231 m ρ c

theorem win1_7 (c : Dev nD) : V3 m ρ c main_v233 = (Cert.ReferenceIdeal.ReadP.val_main_v11 (F := Ideal) (m ((c : Thread nD τ).loc main_arg5))) := at3_v233 m ρ c

theorem win1_8 (c : Dev nD) : V3 m ρ c main_v235 = (Cert.ReferenceIdeal.ReadP.val_main_v159 (F := Ideal) (m ((c : Thread nD τ).loc main_arg5))) := at3_v235 m ρ c

/-- Region 1's output array, after the region, is the reference's layer-0 output for node type 1. -/
theorem out1 (c : Dev nD) : W4 m ρ c (Proc.devRef .tc main_v236) = (Cert.ReferenceIdeal.ReadP.val_main_v320 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10))) := by
  rw [show W4 m ρ c (Proc.devRef .tc main_v236) = (dat1 (V3 m ρ) c).arrAt 9 cfg1.N from W4_arr m ρ c 9,
    Cert.KernelIdeal.Reg1.final (V3 m ρ) c, win1_0 m ρ c, win1_1 m ρ c, win1_2 m ρ c, win1_3 m ρ c, win1_4 m ρ c, win1_5 m ρ c, win1_6 m ρ c, win1_7 m ρ c, win1_8 m ρ c]
  exact (Cert.ReferenceIdeal.Layers.out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10))).symm

theorem at1_arg2 (c : Dev nD) : W1 m ρ c (Proc.devRef .tc main_arg2) = (m ((c : Thread nD τ).loc main_arg2)) :=
  (keepP0 m ρ c main_arg2 (by decide)).trans (at0_arg2 m ρ c)

theorem at2_arg2 (c : Dev nD) : W2 m ρ c (Proc.devRef .tc main_arg2) = (m ((c : Thread nD τ).loc main_arg2)) :=
  (W2_of_ne m ρ c main_arg2 (by decide)).trans (at1_arg2 m ρ c)

theorem at3_arg2 (c : Dev nD) : W3 m ρ c (Proc.devRef .tc main_arg2) = (m ((c : Thread nD τ).loc main_arg2)) :=
  (keepP1 m ρ c main_arg2 (by decide)).trans (at2_arg2 m ρ c)

theorem at4_arg2 (c : Dev nD) : W4 m ρ c (Proc.devRef .tc main_arg2) = (m ((c : Thread nD τ).loc main_arg2)) :=
  (W4_of_ne m ρ c main_arg2 (by decide)).trans (at3_arg2 m ρ c)

theorem at5_arg2 (c : Dev nD) : W5 m ρ c (Proc.devRef .tc main_arg2) = (m ((c : Thread nD τ).loc main_arg2)) :=
  (keepP2 m ρ c main_arg2 (by decide)).trans (at4_arg2 m ρ c)

theorem at0_arg7 (c : Dev nD) : W0 m ρ c (Proc.devRef .tc main_arg7) = (m ((c : Thread nD τ).loc main_arg7)) := rfl

set_option maxHeartbeats 40000000 in
theorem at1_v103 (c : Dev nD) : W1 m ρ c (Proc.devRef .tc main_v103) = (Cert.ReferenceIdeal.ReadP.val_main_v71 (F := Ideal) (m ((c : Thread nD τ).loc main_arg1)) (m ((c : Thread nD τ).loc main_arg7))) := by
  show StableHlo.after hostOps0 (W0 m ρ c) (Proc.devRef .tc main_v103) = _
  after_results_simp
  rw [at0_arg7 m ρ c, at0_arg1 m ρ c]
  rfl

theorem at2_v103 (c : Dev nD) : W2 m ρ c (Proc.devRef .tc main_v103) = (Cert.ReferenceIdeal.ReadP.val_main_v71 (F := Ideal) (m ((c : Thread nD τ).loc main_arg1)) (m ((c : Thread nD τ).loc main_arg7))) :=
  (W2_of_ne m ρ c main_v103 (by decide)).trans (at1_v103 m ρ c)

theorem at3_v103 (c : Dev nD) : W3 m ρ c (Proc.devRef .tc main_v103) = (Cert.ReferenceIdeal.ReadP.val_main_v71 (F := Ideal) (m ((c : Thread nD τ).loc main_arg1)) (m ((c : Thread nD τ).loc main_arg7))) :=
  (keepP1 m ρ c main_v103 (by decide)).trans (at2_v103 m ρ c)

theorem at4_v103 (c : Dev nD) : W4 m ρ c (Proc.devRef .tc main_v103) = (Cert.ReferenceIdeal.ReadP.val_main_v71 (F := Ideal) (m ((c : Thread nD τ).loc main_arg1)) (m ((c : Thread nD τ).loc main_arg7))) :=
  (W4_of_ne m ρ c main_v103 (by decide)).trans (at3_v103 m ρ c)

theorem at5_v103 (c : Dev nD) : W5 m ρ c (Proc.devRef .tc main_v103) = (Cert.ReferenceIdeal.ReadP.val_main_v71 (F := Ideal) (m ((c : Thread nD τ).loc main_arg1)) (m ((c : Thread nD τ).loc main_arg7))) :=
  (keepP2 m ρ c main_v103 (by decide)).trans (at4_v103 m ρ c)

theorem at0_arg8 (c : Dev nD) : W0 m ρ c (Proc.devRef .tc main_arg8) = (m ((c : Thread nD τ).loc main_arg8)) := rfl

set_option maxHeartbeats 40000000 in
theorem at1_v119 (c : Dev nD) : W1 m ρ c (Proc.devRef .tc main_v119) = (Cert.ReferenceIdeal.ReadP.val_main_v108 (F := Ideal) (m ((c : Thread nD τ).loc main_arg0)) (m ((c : Thread nD τ).loc main_arg8))) := by
  show StableHlo.after hostOps0 (W0 m ρ c) (Proc.devRef .tc main_v119) = _
  after_results_simp
  rw [at0_arg8 m ρ c, at0_arg0 m ρ c]
  rfl

theorem at2_v119 (c : Dev nD) : W2 m ρ c (Proc.devRef .tc main_v119) = (Cert.ReferenceIdeal.ReadP.val_main_v108 (F := Ideal) (m ((c : Thread nD τ).loc main_arg0)) (m ((c : Thread nD τ).loc main_arg8))) :=
  (W2_of_ne m ρ c main_v119 (by decide)).trans (at1_v119 m ρ c)

theorem at3_v119 (c : Dev nD) : W3 m ρ c (Proc.devRef .tc main_v119) = (Cert.ReferenceIdeal.ReadP.val_main_v108 (F := Ideal) (m ((c : Thread nD τ).loc main_arg0)) (m ((c : Thread nD τ).loc main_arg8))) :=
  (keepP1 m ρ c main_v119 (by decide)).trans (at2_v119 m ρ c)

theorem at4_v119 (c : Dev nD) : W4 m ρ c (Proc.devRef .tc main_v119) = (Cert.ReferenceIdeal.ReadP.val_main_v108 (F := Ideal) (m ((c : Thread nD τ).loc main_arg0)) (m ((c : Thread nD τ).loc main_arg8))) :=
  (W4_of_ne m ρ c main_v119 (by decide)).trans (at3_v119 m ρ c)

theorem at5_v119 (c : Dev nD) : W5 m ρ c (Proc.devRef .tc main_v119) = (Cert.ReferenceIdeal.ReadP.val_main_v108 (F := Ideal) (m ((c : Thread nD τ).loc main_arg0)) (m ((c : Thread nD τ).loc main_arg8))) :=
  (keepP2 m ρ c main_v119 (by decide)).trans (at4_v119 m ρ c)

theorem at0_arg13 (c : Dev nD) : W0 m ρ c (Proc.devRef .tc main_arg13) = (m ((c : Thread nD τ).loc main_arg13)) := rfl

set_option maxHeartbeats 40000000 in
theorem at1_v199 (c : Dev nD) : W1 m ρ c (Proc.devRef .tc main_v199) = (Cert.ReferenceIdeal.ReadP.val_main_v293 (F := Ideal) (m ((c : Thread nD τ).loc main_arg2)) (m ((c : Thread nD τ).loc main_arg13))) := by
  show StableHlo.after hostOps0 (W0 m ρ c) (Proc.devRef .tc main_v199) = _
  after_results_simp
  rw [at0_arg13 m ρ c, at0_arg2 m ρ c]
  rfl

theorem at2_v199 (c : Dev nD) : W2 m ρ c (Proc.devRef .tc main_v199) = (Cert.ReferenceIdeal.ReadP.val_main_v293 (F := Ideal) (m ((c : Thread nD τ).loc main_arg2)) (m ((c : Thread nD τ).loc main_arg13))) :=
  (W2_of_ne m ρ c main_v199 (by decide)).trans (at1_v199 m ρ c)

theorem at3_v199 (c : Dev nD) : W3 m ρ c (Proc.devRef .tc main_v199) = (Cert.ReferenceIdeal.ReadP.val_main_v293 (F := Ideal) (m ((c : Thread nD τ).loc main_arg2)) (m ((c : Thread nD τ).loc main_arg13))) :=
  (keepP1 m ρ c main_v199 (by decide)).trans (at2_v199 m ρ c)

theorem at4_v199 (c : Dev nD) : W4 m ρ c (Proc.devRef .tc main_v199) = (Cert.ReferenceIdeal.ReadP.val_main_v293 (F := Ideal) (m ((c : Thread nD τ).loc main_arg2)) (m ((c : Thread nD τ).loc main_arg13))) :=
  (W4_of_ne m ρ c main_v199 (by decide)).trans (at3_v199 m ρ c)

theorem at5_v199 (c : Dev nD) : W5 m ρ c (Proc.devRef .tc main_v199) = (Cert.ReferenceIdeal.ReadP.val_main_v293 (F := Ideal) (m ((c : Thread nD τ).loc main_arg2)) (m ((c : Thread nD τ).loc main_arg13))) :=
  (keepP2 m ρ c main_v199 (by decide)).trans (at4_v199 m ρ c)

theorem at3_arg3 (c : Dev nD) : W3 m ρ c (Proc.devRef .tc main_arg3) = (m ((c : Thread nD τ).loc main_arg3)) :=
  (keepP1 m ρ c main_arg3 (by decide)).trans (at2_arg3 m ρ c)

theorem at4_arg3 (c : Dev nD) : W4 m ρ c (Proc.devRef .tc main_arg3) = (m ((c : Thread nD τ).loc main_arg3)) :=
  (W4_of_ne m ρ c main_arg3 (by decide)).trans (at3_arg3 m ρ c)

set_option maxHeartbeats 40000000 in
theorem at5_v238 (c : Dev nD) : W5 m ρ c (Proc.devRef .tc main_v238) = (Cert.ReferenceIdeal.ReadP.val_main_v44 (F := Ideal) (m ((c : Thread nD τ).loc main_arg3))) := by
  show StableHlo.after hostOps2 (W4 m ρ c) (Proc.devRef .tc main_v238) = _
  after_results_simp
  rw [at4_arg3 m ρ c]
  exact Cert.StackPick.mat_direct_eq_staged (L := 3) (R := 8) (a := 128) (b := 128) 0 1 (by decide) (by decide) _ _ _ _ _ _ _

set_option maxHeartbeats 40000000 in
theorem at5_v240 (c : Dev nD) : W5 m ρ c (Proc.devRef .tc main_v240) = (Cert.ReferenceIdeal.ReadP.val_main_v81 (F := Ideal) (m ((c : Thread nD τ).loc main_arg3))) := by
  show StableHlo.after hostOps2 (W4 m ρ c) (Proc.devRef .tc main_v240) = _
  after_results_simp
  rw [at4_arg3 m ρ c]
  exact Cert.StackPick.mat_direct_eq_staged (L := 3) (R := 8) (a := 128) (b := 128) 0 2 (by decide) (by decide) _ _ _ _ _ _ _

set_option maxHeartbeats 40000000 in
theorem at5_v242 (c : Dev nD) : W5 m ρ c (Proc.devRef .tc main_v242) = (Cert.ReferenceIdeal.ReadP.val_main_v266 (F := Ideal) (m ((c : Thread nD τ).loc main_arg3))) := by
  show StableHlo.after hostOps2 (W4 m ρ c) (Proc.devRef .tc main_v242) = _
  after_results_simp
  rw [at4_arg3 m ρ c]
  exact Cert.StackPick.mat_direct_eq_staged (L := 3) (R := 8) (a := 128) (b := 128) 0 7 (by decide) (by decide) _ _ _ _ _ _ _

theorem at3_arg4 (c : Dev nD) : W3 m ρ c (Proc.devRef .tc main_arg4) = (m ((c : Thread nD τ).loc main_arg4)) :=
  (keepP1 m ρ c main_arg4 (by decide)).trans (at2_arg4 m ρ c)

theorem at4_arg4 (c : Dev nD) : W4 m ρ c (Proc.devRef .tc main_arg4) = (m ((c : Thread nD τ).loc main_arg4)) :=
  (W4_of_ne m ρ c main_arg4 (by decide)).trans (at3_arg4 m ρ c)

set_option maxHeartbeats 40000000 in
theorem at5_v245 (c : Dev nD) : W5 m ρ c (Proc.devRef .tc main_v245) = (Cert.Dense.row (Cert.ReferenceIdeal.ReadP.val_main_v46 (F := Ideal) (m ((c : Thread nD τ).loc main_arg4)))) := by
  show StableHlo.after hostOps2 (W4 m ρ c) (Proc.devRef .tc main_v245) = _
  after_results_simp
  rw [at4_arg4 m ρ c]
  exact Cert.StackPick.row_direct_eq_staged (L := 3) (R := 8) (b := 128) 0 1 (by decide) (by decide) _ _ _ _ Cert.ReferenceIdeal.Gen.slices_S3x8x128_S1x8x128_0_0_0 Cert.ReferenceIdeal.Gen.shapeCasts_S1x8x128_S8x128 Cert.ReferenceIdeal.Gen.slices_S8x128_S1x128_1_0 Cert.ReferenceIdeal.Gen.shapeCasts_S1x128_S128

set_option maxHeartbeats 40000000 in
theorem at5_v248 (c : Dev nD) : W5 m ρ c (Proc.devRef .tc main_v248) = (Cert.Dense.row (Cert.ReferenceIdeal.ReadP.val_main_v83 (F := Ideal) (m ((c : Thread nD τ).loc main_arg4)))) := by
  show StableHlo.after hostOps2 (W4 m ρ c) (Proc.devRef .tc main_v248) = _
  after_results_simp
  rw [at4_arg4 m ρ c]
  exact Cert.StackPick.row_direct_eq_staged (L := 3) (R := 8) (b := 128) 0 2 (by decide) (by decide) _ _ _ _ Cert.ReferenceIdeal.Gen.slices_S3x8x128_S1x8x128_0_0_0 Cert.ReferenceIdeal.Gen.shapeCasts_S1x8x128_S8x128 Cert.ReferenceIdeal.Gen.slices_S8x128_S1x128_2_0 Cert.ReferenceIdeal.Gen.shapeCasts_S1x128_S128

set_option maxHeartbeats 40000000 in
theorem at5_v251 (c : Dev nD) : W5 m ρ c (Proc.devRef .tc main_v251) = (Cert.Dense.row (Cert.ReferenceIdeal.ReadP.val_main_v268 (F := Ideal) (m ((c : Thread nD τ).loc main_arg4)))) := by
  show StableHlo.after hostOps2 (W4 m ρ c) (Proc.devRef .tc main_v251) = _
  after_results_simp
  rw [at4_arg4 m ρ c]
  exact Cert.StackPick.row_direct_eq_staged (L := 3) (R := 8) (b := 128) 0 7 (by decide) (by decide) _ _ _ _ Cert.ReferenceIdeal.Gen.slices_S3x8x128_S1x8x128_0_0_0 Cert.ReferenceIdeal.Gen.shapeCasts_S1x8x128_S8x128 Cert.ReferenceIdeal.Gen.slices_S8x128_S1x128_7_0 Cert.ReferenceIdeal.Gen.shapeCasts_S1x128_S128

theorem at3_arg5 (c : Dev nD) : W3 m ρ c (Proc.devRef .tc main_arg5) = (m ((c : Thread nD τ).loc main_arg5)) :=
  (keepP1 m ρ c main_arg5 (by decide)).trans (at2_arg5 m ρ c)

theorem at4_arg5 (c : Dev nD) : W4 m ρ c (Proc.devRef .tc main_arg5) = (m ((c : Thread nD τ).loc main_arg5)) :=
  (W4_of_ne m ρ c main_arg5 (by decide)).trans (at3_arg5 m ρ c)

set_option maxHeartbeats 40000000 in
theorem at5_v253 (c : Dev nD) : W5 m ρ c (Proc.devRef .tc main_v253) = (Cert.ReferenceIdeal.ReadP.val_main_v48 (F := Ideal) (m ((c : Thread nD τ).loc main_arg5))) := by
  show StableHlo.after hostOps2 (W4 m ρ c) (Proc.devRef .tc main_v253) = _
  after_results_simp
  rw [at4_arg5 m ρ c]
  exact Cert.StackPick.mat_direct_eq_staged (L := 3) (R := 8) (a := 128) (b := 128) 0 1 (by decide) (by decide) _ _ _ _ _ _ _

set_option maxHeartbeats 40000000 in
theorem at5_v255 (c : Dev nD) : W5 m ρ c (Proc.devRef .tc main_v255) = (Cert.ReferenceIdeal.ReadP.val_main_v85 (F := Ideal) (m ((c : Thread nD τ).loc main_arg5))) := by
  show StableHlo.after hostOps2 (W4 m ρ c) (Proc.devRef .tc main_v255) = _
  after_results_simp
  rw [at4_arg5 m ρ c]
  exact Cert.StackPick.mat_direct_eq_staged (L := 3) (R := 8) (a := 128) (b := 128) 0 2 (by decide) (by decide) _ _ _ _ _ _ _

set_option maxHeartbeats 40000000 in
theorem at5_v257 (c : Dev nD) : W5 m ρ c (Proc.devRef .tc main_v257) = (Cert.ReferenceIdeal.ReadP.val_main_v270 (F := Ideal) (m ((c : Thread nD τ).loc main_arg5))) := by
  show StableHlo.after hostOps2 (W4 m ρ c) (Proc.devRef .tc main_v257) = _
  after_results_simp
  rw [at4_arg5 m ρ c]
  exact Cert.StackPick.mat_direct_eq_staged (L := 3) (R := 8) (a := 128) (b := 128) 0 7 (by decide) (by decide) _ _ _ _ _ _ _

theorem win2_0 (c : Dev nD) : V5 m ρ c main_arg2 = (m ((c : Thread nD τ).loc main_arg2)) := at5_arg2 m ρ c

theorem win2_1 (c : Dev nD) : V5 m ρ c main_v103 = (Cert.ReferenceIdeal.ReadP.val_main_v71 (F := Ideal) (m ((c : Thread nD τ).loc main_arg1)) (m ((c : Thread nD τ).loc main_arg7))) := at5_v103 m ρ c

theorem win2_2 (c : Dev nD) : V5 m ρ c main_v119 = (Cert.ReferenceIdeal.ReadP.val_main_v108 (F := Ideal) (m ((c : Thread nD τ).loc main_arg0)) (m ((c : Thread nD τ).loc main_arg8))) := at5_v119 m ρ c

theorem win2_3 (c : Dev nD) : V5 m ρ c main_v199 = (Cert.ReferenceIdeal.ReadP.val_main_v293 (F := Ideal) (m ((c : Thread nD τ).loc main_arg2)) (m ((c : Thread nD τ).loc main_arg13))) := at5_v199 m ρ c

theorem win2_4 (c : Dev nD) : V5 m ρ c main_v238 = (Cert.ReferenceIdeal.ReadP.val_main_v44 (F := Ideal) (m ((c : Thread nD τ).loc main_arg3))) := at5_v238 m ρ c

theorem win2_5 (c : Dev nD) : V5 m ρ c main_v240 = (Cert.ReferenceIdeal.ReadP.val_main_v81 (F := Ideal) (m ((c : Thread nD τ).loc main_arg3))) := at5_v240 m ρ c

theorem win2_6 (c : Dev nD) : V5 m ρ c main_v242 = (Cert.ReferenceIdeal.ReadP.val_main_v266 (F := Ideal) (m ((c : Thread nD τ).loc main_arg3))) := at5_v242 m ρ c

theorem win2_7 (c : Dev nD) : V5 m ρ c main_v245 = (Cert.Dense.row (Cert.ReferenceIdeal.ReadP.val_main_v46 (F := Ideal) (m ((c : Thread nD τ).loc main_arg4)))) := at5_v245 m ρ c

theorem win2_8 (c : Dev nD) : V5 m ρ c main_v248 = (Cert.Dense.row (Cert.ReferenceIdeal.ReadP.val_main_v83 (F := Ideal) (m ((c : Thread nD τ).loc main_arg4)))) := at5_v248 m ρ c

theorem win2_9 (c : Dev nD) : V5 m ρ c main_v251 = (Cert.Dense.row (Cert.ReferenceIdeal.ReadP.val_main_v268 (F := Ideal) (m ((c : Thread nD τ).loc main_arg4)))) := at5_v251 m ρ c

theorem win2_10 (c : Dev nD) : V5 m ρ c main_v253 = (Cert.ReferenceIdeal.ReadP.val_main_v48 (F := Ideal) (m ((c : Thread nD τ).loc main_arg5))) := at5_v253 m ρ c

theorem win2_11 (c : Dev nD) : V5 m ρ c main_v255 = (Cert.ReferenceIdeal.ReadP.val_main_v85 (F := Ideal) (m ((c : Thread nD τ).loc main_arg5))) := at5_v255 m ρ c

theorem win2_12 (c : Dev nD) : V5 m ρ c main_v257 = (Cert.ReferenceIdeal.ReadP.val_main_v270 (F := Ideal) (m ((c : Thread nD τ).loc main_arg5))) := at5_v257 m ρ c

/-- Region 2's output array, after the region, is the reference's layer-0 output for node type 2. -/
theorem out2 (c : Dev nD) : W6 m ρ c (Proc.devRef .tc main_v258) = (Cert.ReferenceIdeal.ReadP.val_main_v321 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg13))) := by
  rw [show W6 m ρ c (Proc.devRef .tc main_v258) = (dat2 (V5 m ρ) c).arrAt 13 cfg2.N from W6_arr m ρ c 13,
    Cert.KernelIdeal.Reg2.final (V5 m ρ) c, win2_0 m ρ c, win2_1 m ρ c, win2_2 m ρ c, win2_3 m ρ c, win2_4 m ρ c, win2_5 m ρ c, win2_6 m ρ c, win2_7 m ρ c, win2_8 m ρ c, win2_9 m ρ c, win2_10 m ρ c, win2_11 m ρ c, win2_12 m ρ c]
  exact (Cert.ReferenceIdeal.Layers.out2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg13))).symm

theorem at3_v221 (c : Dev nD) : W3 m ρ c (Proc.devRef .tc main_v221) = (Cert.ReferenceIdeal.ReadP.val_main_v319 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg11)) (m ((c : Thread nD τ).loc main_arg12))) :=
  (keepP1 m ρ c main_v221 (by decide)).trans (out0 m ρ c)

theorem at4_v221 (c : Dev nD) : W4 m ρ c (Proc.devRef .tc main_v221) = (Cert.ReferenceIdeal.ReadP.val_main_v319 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg11)) (m ((c : Thread nD τ).loc main_arg12))) :=
  (W4_of_ne m ρ c main_v221 (by decide)).trans (at3_v221 m ρ c)

theorem at5_v221 (c : Dev nD) : W5 m ρ c (Proc.devRef .tc main_v221) = (Cert.ReferenceIdeal.ReadP.val_main_v319 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg11)) (m ((c : Thread nD τ).loc main_arg12))) :=
  (keepP2 m ρ c main_v221 (by decide)).trans (at4_v221 m ρ c)

theorem at6_v221 (c : Dev nD) : W6 m ρ c (Proc.devRef .tc main_v221) = (Cert.ReferenceIdeal.ReadP.val_main_v319 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg11)) (m ((c : Thread nD τ).loc main_arg12))) :=
  (W6_of_ne m ρ c main_v221 (by decide)).trans (at5_v221 m ρ c)

theorem at1_arg9 (c : Dev nD) : W1 m ρ c (Proc.devRef .tc main_arg9) = (m ((c : Thread nD τ).loc main_arg9)) :=
  (keepP0 m ρ c main_arg9 (by decide)).trans (at0_arg9 m ρ c)

theorem at2_arg9 (c : Dev nD) : W2 m ρ c (Proc.devRef .tc main_arg9) = (m ((c : Thread nD τ).loc main_arg9)) :=
  (W2_of_ne m ρ c main_arg9 (by decide)).trans (at1_arg9 m ρ c)

theorem at3_arg9 (c : Dev nD) : W3 m ρ c (Proc.devRef .tc main_arg9) = (m ((c : Thread nD τ).loc main_arg9)) :=
  (keepP1 m ρ c main_arg9 (by decide)).trans (at2_arg9 m ρ c)

theorem at4_arg9 (c : Dev nD) : W4 m ρ c (Proc.devRef .tc main_arg9) = (m ((c : Thread nD τ).loc main_arg9)) :=
  (W4_of_ne m ρ c main_arg9 (by decide)).trans (at3_arg9 m ρ c)

theorem at5_arg9 (c : Dev nD) : W5 m ρ c (Proc.devRef .tc main_arg9) = (m ((c : Thread nD τ).loc main_arg9)) :=
  (keepP2 m ρ c main_arg9 (by decide)).trans (at4_arg9 m ρ c)

theorem at6_arg9 (c : Dev nD) : W6 m ρ c (Proc.devRef .tc main_arg9) = (m ((c : Thread nD τ).loc main_arg9)) :=
  (W6_of_ne m ρ c main_arg9 (by decide)).trans (at5_arg9 m ρ c)

theorem at5_v236 (c : Dev nD) : W5 m ρ c (Proc.devRef .tc main_v236) = (Cert.ReferenceIdeal.ReadP.val_main_v320 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10))) :=
  (keepP2 m ρ c main_v236 (by decide)).trans (out1 m ρ c)

theorem at6_v236 (c : Dev nD) : W6 m ρ c (Proc.devRef .tc main_v236) = (Cert.ReferenceIdeal.ReadP.val_main_v320 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10))) :=
  (W6_of_ne m ρ c main_v236 (by decide)).trans (at5_v236 m ρ c)

set_option maxHeartbeats 40000000 in
theorem at1_v35 (c : Dev nD) : W1 m ρ c (Proc.devRef .tc main_v35) = (Cert.ReferenceIdeal.ReadP.val_main_v143 (F := Ideal) (m ((c : Thread nD τ).loc main_arg9))) := by
  show StableHlo.after hostOps0 (W0 m ρ c) (Proc.devRef .tc main_v35) = _
  after_results_simp
  rw [at0_arg9 m ρ c]
  rfl

theorem at2_v35 (c : Dev nD) : W2 m ρ c (Proc.devRef .tc main_v35) = (Cert.ReferenceIdeal.ReadP.val_main_v143 (F := Ideal) (m ((c : Thread nD τ).loc main_arg9))) :=
  (W2_of_ne m ρ c main_v35 (by decide)).trans (at1_v35 m ρ c)

theorem at3_v35 (c : Dev nD) : W3 m ρ c (Proc.devRef .tc main_v35) = (Cert.ReferenceIdeal.ReadP.val_main_v143 (F := Ideal) (m ((c : Thread nD τ).loc main_arg9))) :=
  (keepP1 m ρ c main_v35 (by decide)).trans (at2_v35 m ρ c)

theorem at4_v35 (c : Dev nD) : W4 m ρ c (Proc.devRef .tc main_v35) = (Cert.ReferenceIdeal.ReadP.val_main_v143 (F := Ideal) (m ((c : Thread nD τ).loc main_arg9))) :=
  (W4_of_ne m ρ c main_v35 (by decide)).trans (at3_v35 m ρ c)

theorem at5_v35 (c : Dev nD) : W5 m ρ c (Proc.devRef .tc main_v35) = (Cert.ReferenceIdeal.ReadP.val_main_v143 (F := Ideal) (m ((c : Thread nD τ).loc main_arg9))) :=
  (keepP2 m ρ c main_v35 (by decide)).trans (at4_v35 m ρ c)

theorem at6_v35 (c : Dev nD) : W6 m ρ c (Proc.devRef .tc main_v35) = (Cert.ReferenceIdeal.ReadP.val_main_v143 (F := Ideal) (m ((c : Thread nD τ).loc main_arg9))) :=
  (W6_of_ne m ρ c main_v35 (by decide)).trans (at5_v35 m ρ c)

theorem at1_arg11 (c : Dev nD) : W1 m ρ c (Proc.devRef .tc main_arg11) = (m ((c : Thread nD τ).loc main_arg11)) :=
  (keepP0 m ρ c main_arg11 (by decide)).trans (at0_arg11 m ρ c)

theorem at2_arg11 (c : Dev nD) : W2 m ρ c (Proc.devRef .tc main_arg11) = (m ((c : Thread nD τ).loc main_arg11)) :=
  (W2_of_ne m ρ c main_arg11 (by decide)).trans (at1_arg11 m ρ c)

theorem at3_arg11 (c : Dev nD) : W3 m ρ c (Proc.devRef .tc main_arg11) = (m ((c : Thread nD τ).loc main_arg11)) :=
  (keepP1 m ρ c main_arg11 (by decide)).trans (at2_arg11 m ρ c)

theorem at4_arg11 (c : Dev nD) : W4 m ρ c (Proc.devRef .tc main_arg11) = (m ((c : Thread nD τ).loc main_arg11)) :=
  (W4_of_ne m ρ c main_arg11 (by decide)).trans (at3_arg11 m ρ c)

theorem at5_arg11 (c : Dev nD) : W5 m ρ c (Proc.devRef .tc main_arg11) = (m ((c : Thread nD τ).loc main_arg11)) :=
  (keepP2 m ρ c main_arg11 (by decide)).trans (at4_arg11 m ρ c)

theorem at6_arg11 (c : Dev nD) : W6 m ρ c (Proc.devRef .tc main_arg11) = (m ((c : Thread nD τ).loc main_arg11)) :=
  (W6_of_ne m ρ c main_arg11 (by decide)).trans (at5_arg11 m ρ c)

set_option maxHeartbeats 40000000 in
theorem at1_v53 (c : Dev nD) : W1 m ρ c (Proc.devRef .tc main_v53) = (Cert.ReferenceIdeal.ReadP.val_main_v217 (F := Ideal) (m ((c : Thread nD τ).loc main_arg11))) := by
  show StableHlo.after hostOps0 (W0 m ρ c) (Proc.devRef .tc main_v53) = _
  after_results_simp
  rw [at0_arg11 m ρ c]
  rfl

theorem at2_v53 (c : Dev nD) : W2 m ρ c (Proc.devRef .tc main_v53) = (Cert.ReferenceIdeal.ReadP.val_main_v217 (F := Ideal) (m ((c : Thread nD τ).loc main_arg11))) :=
  (W2_of_ne m ρ c main_v53 (by decide)).trans (at1_v53 m ρ c)

theorem at3_v53 (c : Dev nD) : W3 m ρ c (Proc.devRef .tc main_v53) = (Cert.ReferenceIdeal.ReadP.val_main_v217 (F := Ideal) (m ((c : Thread nD τ).loc main_arg11))) :=
  (keepP1 m ρ c main_v53 (by decide)).trans (at2_v53 m ρ c)

theorem at4_v53 (c : Dev nD) : W4 m ρ c (Proc.devRef .tc main_v53) = (Cert.ReferenceIdeal.ReadP.val_main_v217 (F := Ideal) (m ((c : Thread nD τ).loc main_arg11))) :=
  (W4_of_ne m ρ c main_v53 (by decide)).trans (at3_v53 m ρ c)

theorem at5_v53 (c : Dev nD) : W5 m ρ c (Proc.devRef .tc main_v53) = (Cert.ReferenceIdeal.ReadP.val_main_v217 (F := Ideal) (m ((c : Thread nD τ).loc main_arg11))) :=
  (keepP2 m ρ c main_v53 (by decide)).trans (at4_v53 m ρ c)

theorem at6_v53 (c : Dev nD) : W6 m ρ c (Proc.devRef .tc main_v53) = (Cert.ReferenceIdeal.ReadP.val_main_v217 (F := Ideal) (m ((c : Thread nD τ).loc main_arg11))) :=
  (W6_of_ne m ρ c main_v53 (by decide)).trans (at5_v53 m ρ c)

theorem at1_arg12 (c : Dev nD) : W1 m ρ c (Proc.devRef .tc main_arg12) = (m ((c : Thread nD τ).loc main_arg12)) :=
  (keepP0 m ρ c main_arg12 (by decide)).trans (at0_arg12 m ρ c)

theorem at2_arg12 (c : Dev nD) : W2 m ρ c (Proc.devRef .tc main_arg12) = (m ((c : Thread nD τ).loc main_arg12)) :=
  (W2_of_ne m ρ c main_arg12 (by decide)).trans (at1_arg12 m ρ c)

theorem at3_arg12 (c : Dev nD) : W3 m ρ c (Proc.devRef .tc main_arg12) = (m ((c : Thread nD τ).loc main_arg12)) :=
  (keepP1 m ρ c main_arg12 (by decide)).trans (at2_arg12 m ρ c)

theorem at4_arg12 (c : Dev nD) : W4 m ρ c (Proc.devRef .tc main_arg12) = (m ((c : Thread nD τ).loc main_arg12)) :=
  (W4_of_ne m ρ c main_arg12 (by decide)).trans (at3_arg12 m ρ c)

theorem at5_arg12 (c : Dev nD) : W5 m ρ c (Proc.devRef .tc main_arg12) = (m ((c : Thread nD τ).loc main_arg12)) :=
  (keepP2 m ρ c main_arg12 (by decide)).trans (at4_arg12 m ρ c)

theorem at6_arg12 (c : Dev nD) : W6 m ρ c (Proc.devRef .tc main_arg12) = (m ((c : Thread nD τ).loc main_arg12)) :=
  (W6_of_ne m ρ c main_arg12 (by decide)).trans (at5_arg12 m ρ c)

set_option maxHeartbeats 40000000 in
theorem at1_v62 (c : Dev nD) : W1 m ρ c (Proc.devRef .tc main_v62) = (Cert.ReferenceIdeal.ReadP.val_main_v254 (F := Ideal) (m ((c : Thread nD τ).loc main_arg12))) := by
  show StableHlo.after hostOps0 (W0 m ρ c) (Proc.devRef .tc main_v62) = _
  after_results_simp
  rw [at0_arg12 m ρ c]
  rfl

theorem at2_v62 (c : Dev nD) : W2 m ρ c (Proc.devRef .tc main_v62) = (Cert.ReferenceIdeal.ReadP.val_main_v254 (F := Ideal) (m ((c : Thread nD τ).loc main_arg12))) :=
  (W2_of_ne m ρ c main_v62 (by decide)).trans (at1_v62 m ρ c)

theorem at3_v62 (c : Dev nD) : W3 m ρ c (Proc.devRef .tc main_v62) = (Cert.ReferenceIdeal.ReadP.val_main_v254 (F := Ideal) (m ((c : Thread nD τ).loc main_arg12))) :=
  (keepP1 m ρ c main_v62 (by decide)).trans (at2_v62 m ρ c)

theorem at4_v62 (c : Dev nD) : W4 m ρ c (Proc.devRef .tc main_v62) = (Cert.ReferenceIdeal.ReadP.val_main_v254 (F := Ideal) (m ((c : Thread nD τ).loc main_arg12))) :=
  (W4_of_ne m ρ c main_v62 (by decide)).trans (at3_v62 m ρ c)

theorem at5_v62 (c : Dev nD) : W5 m ρ c (Proc.devRef .tc main_v62) = (Cert.ReferenceIdeal.ReadP.val_main_v254 (F := Ideal) (m ((c : Thread nD τ).loc main_arg12))) :=
  (keepP2 m ρ c main_v62 (by decide)).trans (at4_v62 m ρ c)

theorem at6_v62 (c : Dev nD) : W6 m ρ c (Proc.devRef .tc main_v62) = (Cert.ReferenceIdeal.ReadP.val_main_v254 (F := Ideal) (m ((c : Thread nD τ).loc main_arg12))) :=
  (W6_of_ne m ρ c main_v62 (by decide)).trans (at5_v62 m ρ c)

theorem at5_arg3 (c : Dev nD) : W5 m ρ c (Proc.devRef .tc main_arg3) = (m ((c : Thread nD τ).loc main_arg3)) :=
  (keepP2 m ρ c main_arg3 (by decide)).trans (at4_arg3 m ρ c)

theorem at6_arg3 (c : Dev nD) : W6 m ρ c (Proc.devRef .tc main_arg3) = (m ((c : Thread nD τ).loc main_arg3)) :=
  (W6_of_ne m ρ c main_arg3 (by decide)).trans (at5_arg3 m ρ c)

theorem at5_arg4 (c : Dev nD) : W5 m ρ c (Proc.devRef .tc main_arg4) = (m ((c : Thread nD τ).loc main_arg4)) :=
  (keepP2 m ρ c main_arg4 (by decide)).trans (at4_arg4 m ρ c)

theorem at6_arg4 (c : Dev nD) : W6 m ρ c (Proc.devRef .tc main_arg4) = (m ((c : Thread nD τ).loc main_arg4)) :=
  (W6_of_ne m ρ c main_arg4 (by decide)).trans (at5_arg4 m ρ c)

theorem at5_arg5 (c : Dev nD) : W5 m ρ c (Proc.devRef .tc main_arg5) = (m ((c : Thread nD τ).loc main_arg5)) :=
  (keepP2 m ρ c main_arg5 (by decide)).trans (at4_arg5 m ρ c)

theorem at6_arg5 (c : Dev nD) : W6 m ρ c (Proc.devRef .tc main_arg5) = (m ((c : Thread nD τ).loc main_arg5)) :=
  (W6_of_ne m ρ c main_arg5 (by decide)).trans (at5_arg5 m ρ c)

theorem at1_arg6 (c : Dev nD) : W1 m ρ c (Proc.devRef .tc main_arg6) = (m ((c : Thread nD τ).loc main_arg6)) :=
  (keepP0 m ρ c main_arg6 (by decide)).trans (at0_arg6 m ρ c)

theorem at2_arg6 (c : Dev nD) : W2 m ρ c (Proc.devRef .tc main_arg6) = (m ((c : Thread nD τ).loc main_arg6)) :=
  (W2_of_ne m ρ c main_arg6 (by decide)).trans (at1_arg6 m ρ c)

theorem at3_arg6 (c : Dev nD) : W3 m ρ c (Proc.devRef .tc main_arg6) = (m ((c : Thread nD τ).loc main_arg6)) :=
  (keepP1 m ρ c main_arg6 (by decide)).trans (at2_arg6 m ρ c)

theorem at4_arg6 (c : Dev nD) : W4 m ρ c (Proc.devRef .tc main_arg6) = (m ((c : Thread nD τ).loc main_arg6)) :=
  (W4_of_ne m ρ c main_arg6 (by decide)).trans (at3_arg6 m ρ c)

theorem at5_arg6 (c : Dev nD) : W5 m ρ c (Proc.devRef .tc main_arg6) = (m ((c : Thread nD τ).loc main_arg6)) :=
  (keepP2 m ρ c main_arg6 (by decide)).trans (at4_arg6 m ρ c)

theorem at6_arg6 (c : Dev nD) : W6 m ρ c (Proc.devRef .tc main_arg6) = (m ((c : Thread nD τ).loc main_arg6)) :=
  (W6_of_ne m ρ c main_arg6 (by decide)).trans (at5_arg6 m ρ c)

set_option maxHeartbeats 40000000 in
theorem at1_v8 (c : Dev nD) : W1 m ρ c (Proc.devRef .tc main_v8) = (Cert.ReferenceIdeal.ReadP.val_main_v32 (F := Ideal) (m ((c : Thread nD τ).loc main_arg6))) := by
  show StableHlo.after hostOps0 (W0 m ρ c) (Proc.devRef .tc main_v8) = _
  after_results_simp
  rw [at0_arg6 m ρ c]
  rfl

theorem at2_v8 (c : Dev nD) : W2 m ρ c (Proc.devRef .tc main_v8) = (Cert.ReferenceIdeal.ReadP.val_main_v32 (F := Ideal) (m ((c : Thread nD τ).loc main_arg6))) :=
  (W2_of_ne m ρ c main_v8 (by decide)).trans (at1_v8 m ρ c)

theorem at3_v8 (c : Dev nD) : W3 m ρ c (Proc.devRef .tc main_v8) = (Cert.ReferenceIdeal.ReadP.val_main_v32 (F := Ideal) (m ((c : Thread nD τ).loc main_arg6))) :=
  (keepP1 m ρ c main_v8 (by decide)).trans (at2_v8 m ρ c)

theorem at4_v8 (c : Dev nD) : W4 m ρ c (Proc.devRef .tc main_v8) = (Cert.ReferenceIdeal.ReadP.val_main_v32 (F := Ideal) (m ((c : Thread nD τ).loc main_arg6))) :=
  (W4_of_ne m ρ c main_v8 (by decide)).trans (at3_v8 m ρ c)

theorem at5_v8 (c : Dev nD) : W5 m ρ c (Proc.devRef .tc main_v8) = (Cert.ReferenceIdeal.ReadP.val_main_v32 (F := Ideal) (m ((c : Thread nD τ).loc main_arg6))) :=
  (keepP2 m ρ c main_v8 (by decide)).trans (at4_v8 m ρ c)

theorem at6_v8 (c : Dev nD) : W6 m ρ c (Proc.devRef .tc main_v8) = (Cert.ReferenceIdeal.ReadP.val_main_v32 (F := Ideal) (m ((c : Thread nD τ).loc main_arg6))) :=
  (W6_of_ne m ρ c main_v8 (by decide)).trans (at5_v8 m ρ c)

theorem at1_arg10 (c : Dev nD) : W1 m ρ c (Proc.devRef .tc main_arg10) = (m ((c : Thread nD τ).loc main_arg10)) :=
  (keepP0 m ρ c main_arg10 (by decide)).trans (at0_arg10 m ρ c)

theorem at2_arg10 (c : Dev nD) : W2 m ρ c (Proc.devRef .tc main_arg10) = (m ((c : Thread nD τ).loc main_arg10)) :=
  (W2_of_ne m ρ c main_arg10 (by decide)).trans (at1_arg10 m ρ c)

theorem at3_arg10 (c : Dev nD) : W3 m ρ c (Proc.devRef .tc main_arg10) = (m ((c : Thread nD τ).loc main_arg10)) :=
  (keepP1 m ρ c main_arg10 (by decide)).trans (at2_arg10 m ρ c)

theorem at4_arg10 (c : Dev nD) : W4 m ρ c (Proc.devRef .tc main_arg10) = (m ((c : Thread nD τ).loc main_arg10)) :=
  (W4_of_ne m ρ c main_arg10 (by decide)).trans (at3_arg10 m ρ c)

theorem at5_arg10 (c : Dev nD) : W5 m ρ c (Proc.devRef .tc main_arg10) = (m ((c : Thread nD τ).loc main_arg10)) :=
  (keepP2 m ρ c main_arg10 (by decide)).trans (at4_arg10 m ρ c)

theorem at6_arg10 (c : Dev nD) : W6 m ρ c (Proc.devRef .tc main_arg10) = (m ((c : Thread nD τ).loc main_arg10)) :=
  (W6_of_ne m ρ c main_arg10 (by decide)).trans (at5_arg10 m ρ c)

set_option maxHeartbeats 40000000 in
theorem at1_v44 (c : Dev nD) : W1 m ρ c (Proc.devRef .tc main_v44) = (Cert.ReferenceIdeal.ReadP.val_main_v180 (F := Ideal) (m ((c : Thread nD τ).loc main_arg10))) := by
  show StableHlo.after hostOps0 (W0 m ρ c) (Proc.devRef .tc main_v44) = _
  after_results_simp
  rw [at0_arg10 m ρ c]
  rfl

theorem at2_v44 (c : Dev nD) : W2 m ρ c (Proc.devRef .tc main_v44) = (Cert.ReferenceIdeal.ReadP.val_main_v180 (F := Ideal) (m ((c : Thread nD τ).loc main_arg10))) :=
  (W2_of_ne m ρ c main_v44 (by decide)).trans (at1_v44 m ρ c)

theorem at3_v44 (c : Dev nD) : W3 m ρ c (Proc.devRef .tc main_v44) = (Cert.ReferenceIdeal.ReadP.val_main_v180 (F := Ideal) (m ((c : Thread nD τ).loc main_arg10))) :=
  (keepP1 m ρ c main_v44 (by decide)).trans (at2_v44 m ρ c)

theorem at4_v44 (c : Dev nD) : W4 m ρ c (Proc.devRef .tc main_v44) = (Cert.ReferenceIdeal.ReadP.val_main_v180 (F := Ideal) (m ((c : Thread nD τ).loc main_arg10))) :=
  (W4_of_ne m ρ c main_v44 (by decide)).trans (at3_v44 m ρ c)

theorem at5_v44 (c : Dev nD) : W5 m ρ c (Proc.devRef .tc main_v44) = (Cert.ReferenceIdeal.ReadP.val_main_v180 (F := Ideal) (m ((c : Thread nD τ).loc main_arg10))) :=
  (keepP2 m ρ c main_v44 (by decide)).trans (at4_v44 m ρ c)

theorem at6_v44 (c : Dev nD) : W6 m ρ c (Proc.devRef .tc main_v44) = (Cert.ReferenceIdeal.ReadP.val_main_v180 (F := Ideal) (m ((c : Thread nD τ).loc main_arg10))) :=
  (W6_of_ne m ρ c main_v44 (by decide)).trans (at5_v44 m ρ c)

theorem at1_arg7 (c : Dev nD) : W1 m ρ c (Proc.devRef .tc main_arg7) = (m ((c : Thread nD τ).loc main_arg7)) :=
  (keepP0 m ρ c main_arg7 (by decide)).trans (at0_arg7 m ρ c)

theorem at2_arg7 (c : Dev nD) : W2 m ρ c (Proc.devRef .tc main_arg7) = (m ((c : Thread nD τ).loc main_arg7)) :=
  (W2_of_ne m ρ c main_arg7 (by decide)).trans (at1_arg7 m ρ c)

theorem at3_arg7 (c : Dev nD) : W3 m ρ c (Proc.devRef .tc main_arg7) = (m ((c : Thread nD τ).loc main_arg7)) :=
  (keepP1 m ρ c main_arg7 (by decide)).trans (at2_arg7 m ρ c)

theorem at4_arg7 (c : Dev nD) : W4 m ρ c (Proc.devRef .tc main_arg7) = (m ((c : Thread nD τ).loc main_arg7)) :=
  (W4_of_ne m ρ c main_arg7 (by decide)).trans (at3_arg7 m ρ c)

theorem at5_arg7 (c : Dev nD) : W5 m ρ c (Proc.devRef .tc main_arg7) = (m ((c : Thread nD τ).loc main_arg7)) :=
  (keepP2 m ρ c main_arg7 (by decide)).trans (at4_arg7 m ρ c)

theorem at6_arg7 (c : Dev nD) : W6 m ρ c (Proc.devRef .tc main_arg7) = (m ((c : Thread nD τ).loc main_arg7)) :=
  (W6_of_ne m ρ c main_arg7 (by decide)).trans (at5_arg7 m ρ c)

set_option maxHeartbeats 40000000 in
theorem at1_v17 (c : Dev nD) : W1 m ρ c (Proc.devRef .tc main_v17) = (Cert.ReferenceIdeal.ReadP.val_main_v69 (F := Ideal) (m ((c : Thread nD τ).loc main_arg7))) := by
  show StableHlo.after hostOps0 (W0 m ρ c) (Proc.devRef .tc main_v17) = _
  after_results_simp
  rw [at0_arg7 m ρ c]
  rfl

theorem at2_v17 (c : Dev nD) : W2 m ρ c (Proc.devRef .tc main_v17) = (Cert.ReferenceIdeal.ReadP.val_main_v69 (F := Ideal) (m ((c : Thread nD τ).loc main_arg7))) :=
  (W2_of_ne m ρ c main_v17 (by decide)).trans (at1_v17 m ρ c)

theorem at3_v17 (c : Dev nD) : W3 m ρ c (Proc.devRef .tc main_v17) = (Cert.ReferenceIdeal.ReadP.val_main_v69 (F := Ideal) (m ((c : Thread nD τ).loc main_arg7))) :=
  (keepP1 m ρ c main_v17 (by decide)).trans (at2_v17 m ρ c)

theorem at4_v17 (c : Dev nD) : W4 m ρ c (Proc.devRef .tc main_v17) = (Cert.ReferenceIdeal.ReadP.val_main_v69 (F := Ideal) (m ((c : Thread nD τ).loc main_arg7))) :=
  (W4_of_ne m ρ c main_v17 (by decide)).trans (at3_v17 m ρ c)

theorem at5_v17 (c : Dev nD) : W5 m ρ c (Proc.devRef .tc main_v17) = (Cert.ReferenceIdeal.ReadP.val_main_v69 (F := Ideal) (m ((c : Thread nD τ).loc main_arg7))) :=
  (keepP2 m ρ c main_v17 (by decide)).trans (at4_v17 m ρ c)

theorem at6_v17 (c : Dev nD) : W6 m ρ c (Proc.devRef .tc main_v17) = (Cert.ReferenceIdeal.ReadP.val_main_v69 (F := Ideal) (m ((c : Thread nD τ).loc main_arg7))) :=
  (W6_of_ne m ρ c main_v17 (by decide)).trans (at5_v17 m ρ c)

theorem at1_arg8 (c : Dev nD) : W1 m ρ c (Proc.devRef .tc main_arg8) = (m ((c : Thread nD τ).loc main_arg8)) :=
  (keepP0 m ρ c main_arg8 (by decide)).trans (at0_arg8 m ρ c)

theorem at2_arg8 (c : Dev nD) : W2 m ρ c (Proc.devRef .tc main_arg8) = (m ((c : Thread nD τ).loc main_arg8)) :=
  (W2_of_ne m ρ c main_arg8 (by decide)).trans (at1_arg8 m ρ c)

theorem at3_arg8 (c : Dev nD) : W3 m ρ c (Proc.devRef .tc main_arg8) = (m ((c : Thread nD τ).loc main_arg8)) :=
  (keepP1 m ρ c main_arg8 (by decide)).trans (at2_arg8 m ρ c)

theorem at4_arg8 (c : Dev nD) : W4 m ρ c (Proc.devRef .tc main_arg8) = (m ((c : Thread nD τ).loc main_arg8)) :=
  (W4_of_ne m ρ c main_arg8 (by decide)).trans (at3_arg8 m ρ c)

theorem at5_arg8 (c : Dev nD) : W5 m ρ c (Proc.devRef .tc main_arg8) = (m ((c : Thread nD τ).loc main_arg8)) :=
  (keepP2 m ρ c main_arg8 (by decide)).trans (at4_arg8 m ρ c)

theorem at6_arg8 (c : Dev nD) : W6 m ρ c (Proc.devRef .tc main_arg8) = (m ((c : Thread nD τ).loc main_arg8)) :=
  (W6_of_ne m ρ c main_arg8 (by decide)).trans (at5_arg8 m ρ c)

set_option maxHeartbeats 40000000 in
theorem at1_v26 (c : Dev nD) : W1 m ρ c (Proc.devRef .tc main_v26) = (Cert.ReferenceIdeal.ReadP.val_main_v106 (F := Ideal) (m ((c : Thread nD τ).loc main_arg8))) := by
  show StableHlo.after hostOps0 (W0 m ρ c) (Proc.devRef .tc main_v26) = _
  after_results_simp
  rw [at0_arg8 m ρ c]
  rfl

theorem at2_v26 (c : Dev nD) : W2 m ρ c (Proc.devRef .tc main_v26) = (Cert.ReferenceIdeal.ReadP.val_main_v106 (F := Ideal) (m ((c : Thread nD τ).loc main_arg8))) :=
  (W2_of_ne m ρ c main_v26 (by decide)).trans (at1_v26 m ρ c)

theorem at3_v26 (c : Dev nD) : W3 m ρ c (Proc.devRef .tc main_v26) = (Cert.ReferenceIdeal.ReadP.val_main_v106 (F := Ideal) (m ((c : Thread nD τ).loc main_arg8))) :=
  (keepP1 m ρ c main_v26 (by decide)).trans (at2_v26 m ρ c)

theorem at4_v26 (c : Dev nD) : W4 m ρ c (Proc.devRef .tc main_v26) = (Cert.ReferenceIdeal.ReadP.val_main_v106 (F := Ideal) (m ((c : Thread nD τ).loc main_arg8))) :=
  (W4_of_ne m ρ c main_v26 (by decide)).trans (at3_v26 m ρ c)

theorem at5_v26 (c : Dev nD) : W5 m ρ c (Proc.devRef .tc main_v26) = (Cert.ReferenceIdeal.ReadP.val_main_v106 (F := Ideal) (m ((c : Thread nD τ).loc main_arg8))) :=
  (keepP2 m ρ c main_v26 (by decide)).trans (at4_v26 m ρ c)

theorem at6_v26 (c : Dev nD) : W6 m ρ c (Proc.devRef .tc main_v26) = (Cert.ReferenceIdeal.ReadP.val_main_v106 (F := Ideal) (m ((c : Thread nD τ).loc main_arg8))) :=
  (W6_of_ne m ρ c main_v26 (by decide)).trans (at5_v26 m ρ c)

theorem at1_arg13 (c : Dev nD) : W1 m ρ c (Proc.devRef .tc main_arg13) = (m ((c : Thread nD τ).loc main_arg13)) :=
  (keepP0 m ρ c main_arg13 (by decide)).trans (at0_arg13 m ρ c)

theorem at2_arg13 (c : Dev nD) : W2 m ρ c (Proc.devRef .tc main_arg13) = (m ((c : Thread nD τ).loc main_arg13)) :=
  (W2_of_ne m ρ c main_arg13 (by decide)).trans (at1_arg13 m ρ c)

theorem at3_arg13 (c : Dev nD) : W3 m ρ c (Proc.devRef .tc main_arg13) = (m ((c : Thread nD τ).loc main_arg13)) :=
  (keepP1 m ρ c main_arg13 (by decide)).trans (at2_arg13 m ρ c)

theorem at4_arg13 (c : Dev nD) : W4 m ρ c (Proc.devRef .tc main_arg13) = (m ((c : Thread nD τ).loc main_arg13)) :=
  (W4_of_ne m ρ c main_arg13 (by decide)).trans (at3_arg13 m ρ c)

theorem at5_arg13 (c : Dev nD) : W5 m ρ c (Proc.devRef .tc main_arg13) = (m ((c : Thread nD τ).loc main_arg13)) :=
  (keepP2 m ρ c main_arg13 (by decide)).trans (at4_arg13 m ρ c)

theorem at6_arg13 (c : Dev nD) : W6 m ρ c (Proc.devRef .tc main_arg13) = (m ((c : Thread nD τ).loc main_arg13)) :=
  (W6_of_ne m ρ c main_arg13 (by decide)).trans (at5_arg13 m ρ c)

set_option maxHeartbeats 40000000 in
theorem at1_v71 (c : Dev nD) : W1 m ρ c (Proc.devRef .tc main_v71) = (Cert.ReferenceIdeal.ReadP.val_main_v291 (F := Ideal) (m ((c : Thread nD τ).loc main_arg13))) := by
  show StableHlo.after hostOps0 (W0 m ρ c) (Proc.devRef .tc main_v71) = _
  after_results_simp
  rw [at0_arg13 m ρ c]
  rfl

theorem at2_v71 (c : Dev nD) : W2 m ρ c (Proc.devRef .tc main_v71) = (Cert.ReferenceIdeal.ReadP.val_main_v291 (F := Ideal) (m ((c : Thread nD τ).loc main_arg13))) :=
  (W2_of_ne m ρ c main_v71 (by decide)).trans (at1_v71 m ρ c)

theorem at3_v71 (c : Dev nD) : W3 m ρ c (Proc.devRef .tc main_v71) = (Cert.ReferenceIdeal.ReadP.val_main_v291 (F := Ideal) (m ((c : Thread nD τ).loc main_arg13))) :=
  (keepP1 m ρ c main_v71 (by decide)).trans (at2_v71 m ρ c)

theorem at4_v71 (c : Dev nD) : W4 m ρ c (Proc.devRef .tc main_v71) = (Cert.ReferenceIdeal.ReadP.val_main_v291 (F := Ideal) (m ((c : Thread nD τ).loc main_arg13))) :=
  (W4_of_ne m ρ c main_v71 (by decide)).trans (at3_v71 m ρ c)

theorem at5_v71 (c : Dev nD) : W5 m ρ c (Proc.devRef .tc main_v71) = (Cert.ReferenceIdeal.ReadP.val_main_v291 (F := Ideal) (m ((c : Thread nD τ).loc main_arg13))) :=
  (keepP2 m ρ c main_v71 (by decide)).trans (at4_v71 m ρ c)

theorem at6_v71 (c : Dev nD) : W6 m ρ c (Proc.devRef .tc main_v71) = (Cert.ReferenceIdeal.ReadP.val_main_v291 (F := Ideal) (m ((c : Thread nD τ).loc main_arg13))) :=
  (W6_of_ne m ρ c main_v71 (by decide)).trans (at5_v71 m ρ c)

end Cert.KernelIdeal.Chain

end
-- ==== Proof.Region3.lean ====
/-
  Kernel region 3 of the idealized kernel: the update of the first node type in layer 1, read as one
  function of the arrays the region finds.

  The grid has 25 points; point `t` stages rows `2000·t … 2000·t + 1999` of the node features and of each aggregate,
  and the whole weight and bias arrays.  The body computes, on those row blocks, each relation's message (aggregate times
  transposed weight, bias row, features times a second transposed weight), adds the 3 messages to zero, multiplies by
  the named constant 1/3 and rectifies.  An entry of that result depends on one row of the row-blocked operands only,
  so the block a point writes back is the block of the same function of the whole arrays, and the 25 blocks tile the
  50000 rows.
-/
import proofs.«116292_j712964571450_1_alg».proof.Proof.FrameKernelIdealP
import proofs.«116292_j712964571450_1_alg».proof.Proof.LibHeteroMean

set_option maxRecDepth 16384

noncomputable section

namespace Cert.KernelIdeal.Reg3

open Cert.KernelIdeal Cert.KernelIdeal.Gen Cert.KernelIdeal.GenP Idealize.ShloMosaic Idealize.ShloMosaic.TcCoe Idealize.ShloMosaic.ValueIdx
open Idealize.SL.Sem
open Idealize.ShloMosaic.Pipeline (Dat)
open Cert.Dense Cert.HeteroMean

variable (V : (c : Dev nD) → (b : Ref sig .tc) → Buf (Elt Ideal) ((c : Thread nD τ).loc b))

theorem hz : (![0, 0] : Fin 2 → Nat) = fun _ => 0 := funext fun a => by fin_cases a <;> rfl

/-- The named constant denotes one third. -/
theorem inv3 : Named.named (F := Ideal) κ "inv_3" (φ := .f32) 0x3EAAAAAB#32 = (((1 / 3 : ℝ)) : EReal) :=
  IdealRules.named_const.ideal_named_scalar _ _ _ _ rfl

/-- The body's stored value, as the update of its loaded blocks. -/
theorem pay (x0 : Vec Ideal S2000x128 .f32) (x1 : Vec Ideal S2000x128 .f32) (x2 : Vec Ideal S2000x128 .f32) (x3 : Vec Ideal S2000x128 .f32) (x4 : Vec Ideal S128x128 .f32) (x5 : Vec Ideal S128x128 .f32) (x6 : Vec Ideal S128x128 .f32) (x7 : Vec Ideal S1x128 .f32) (x8 : Vec Ideal S1x128 .f32) (x9 : Vec Ideal S1x128 .f32) (x10 : Vec Ideal S128x128 .f32) (x11 : Vec Ideal S128x128 .f32) (x12 : Vec Ideal S128x128 .f32) :
    k3_pay1 (k3_pay2 x0) (k3_pay3 x0 x1 x4 x10 x7 x2 x5 x11 x8) x3 x6 x12 x9
      = relu (upd3 (((1 / 3 : ℝ)) : EReal) x0 x1 x2 x3 x4 x5 x6 x7 x8 x9 x10 x11 x12) := by
  have e1 := vecPart dot_S2000x128_S128x128_S2000x128_1_0_0_1_n_n rfl rfl rfl rfl rfl rfl dot_S2000x128_S128x128_S2000x128_1_0_0_1_n_n rfl rfl rfl rfl rfl rfl none none x1 x4 x7 x0 x10 transposes_S128x128_p1_0_S128x128 transposes_S128x128_p1_0_S128x128 broadcasts_S1x128_S2000x128
  have e2 := vecPart dot_S2000x128_S128x128_S2000x128_1_0_0_1_n_n rfl rfl rfl rfl rfl rfl dot_S2000x128_S128x128_S2000x128_1_0_0_1_n_n rfl rfl rfl rfl rfl rfl none none x2 x5 x8 x0 x11 transposes_S128x128_p1_0_S128x128 transposes_S128x128_p1_0_S128x128 broadcasts_S1x128_S2000x128
  have e3 := vecPart dot_S2000x128_S128x128_S2000x128_1_0_0_1_n_n rfl rfl rfl rfl rfl rfl dot_S2000x128_S128x128_S2000x128_1_0_0_1_n_n rfl rfl rfl rfl rfl rfl none none x3 x6 x9 x0 x12 transposes_S128x128_p1_0_S128x128 transposes_S128x128_p1_0_S128x128 broadcasts_S1x128_S2000x128
  unfold upd3
  rw [← vecRelu, ← inv3, ← vecMean3, ← e1, ← e2, ← e3]
  simp only [k3_pay1, k3_pay2, k3_pay3, shapeCast_self]

/-- The printed index maps, decided over the grid: the row-blocked windows move with the point, the others stay. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = 0 ∧ win3_9.index t (1 : Fin 2) = 0
    ∧ win3_10.index t (0 : Fin 2) = 0 ∧ win3_10.index t (1 : Fin 2) = 0
    ∧ win3_11.index t (0 : Fin 2) = 0 ∧ win3_11.index t (1 : Fin 2) = 0
    ∧ win3_12.index t (0 : Fin 2) = 0 ∧ win3_12.index t (1 : Fin 2) = 0
    ∧ win3_13.index t (0 : Fin 2) = t.val ∧ win3_13.index t (1 : Fin 2) = 0 :=
  (by decide +kernel : ∀ t : Fin grid3.N, _)

/-- Row `p'` of window 0's block at point `t` is row `2000·t + p'` of its array. -/
theorem blk0 (c : Dev nD) (t : Fin cfg3.N) (p' : Fin 2000) (p : Fin 50000) (hp : p.val = t.val * 2000 + p'.val) (q : Fin 128) :
    iblk3 V c 0 t (ix2 p' q) = ((V c main_v221) : Mat 50000 128) (ix2 p q) := by
  show (V c main_v221) (((cfg3.win 0).blk t).view.emb (ix2 p' q)) = _
  refine congrArg (V c main_v221) (funext fun a => Fin.ext ?_)
  have hf := idx_facts t
  match a with
  | ⟨0, _⟩ => show win3_0.index t (0 : Fin 2) * 2000 + 1 * p'.val = p.val; omega
  | ⟨1, _⟩ => show win3_0.index t (1 : Fin 2) * 128 + 1 * q.val = q.val; omega

/-- Row `p'` of window 1's block at point `t` is row `2000·t + p'` of its array. -/
theorem blk1 (c : Dev nD) (t : Fin cfg3.N) (p' : Fin 2000) (p : Fin 50000) (hp : p.val = t.val * 2000 + p'.val) (q : Fin 128) :
    iblk3 V c 1 t (ix2 p' q) = ((V c main_v322) : Mat 50000 128) (ix2 p q) := by
  show (V c main_v322) (((cfg3.win 1).blk t).view.emb (ix2 p' q)) = _
  refine congrArg (V c main_v322) (funext fun a => Fin.ext ?_)
  have hf := idx_facts t
  match a with
  | ⟨0, _⟩ => show win3_1.index t (0 : Fin 2) * 2000 + 1 * p'.val = p.val; omega
  | ⟨1, _⟩ => show win3_1.index t (1 : Fin 2) * 128 + 1 * q.val = q.val; omega

/-- Row `p'` of window 2's block at point `t` is row `2000·t + p'` of its array. -/
theorem blk2 (c : Dev nD) (t : Fin cfg3.N) (p' : Fin 2000) (p : Fin 50000) (hp : p.val = t.val * 2000 + p'.val) (q : Fin 128) :
    iblk3 V c 2 t (ix2 p' q) = ((V c main_v354) : Mat 50000 128) (ix2 p q) := by
  show (V c main_v354) (((cfg3.win 2).blk t).view.emb (ix2 p' q)) = _
  refine congrArg (V c main_v354) (funext fun a => Fin.ext ?_)
  have hf := idx_facts t
  match a with
  | ⟨0, _⟩ => show win3_2.index t (0 : Fin 2) * 2000 + 1 * p'.val = p.val; omega
  | ⟨1, _⟩ => show win3_2.index t (1 : Fin 2) * 128 + 1 * q.val = q.val; omega

/-- Row `p'` of window 3's block at point `t` is row `2000·t + p'` of its array. -/
theorem blk3 (c : Dev nD) (t : Fin cfg3.N) (p' : Fin 2000) (p : Fin 50000) (hp : p.val = t.val * 2000 + p'.val) (q : Fin 128) :
    iblk3 V c 3 t (ix2 p' q) = ((V c main_v370) : Mat 50000 128) (ix2 p q) := by
  show (V c main_v370) (((cfg3.win 3).blk t).view.emb (ix2 p' q)) = _
  refine congrArg (V c main_v370) (funext fun a => Fin.ext ?_)
  have hf := idx_facts t
  match a with
  | ⟨0, _⟩ => show win3_3.index t (0 : Fin 2) * 2000 + 1 * p'.val = p.val; omega
  | ⟨1, _⟩ => show win3_3.index t (1 : Fin 2) * 128 + 1 * q.val = q.val; omega

/-- Window 4's block at every point is its whole array. -/
theorem blk4 (c : Dev nD) (t : Fin cfg3.N) : iblk3 V c 4 t = (V c main_v388) := by
  funext y
  show (V c main_v388) (((cfg3.win 4).blk t).view.emb y) = _
  refine congrArg (V c main_v388) (funext fun a => Fin.ext ?_)
  have hf := idx_facts t
  match a with
  | ⟨0, _⟩ => show win3_4.index t (0 : Fin 2) * 128 + 1 * (y 0).val = (y 0).val; omega
  | ⟨1, _⟩ => show win3_4.index t (1 : Fin 2) * 128 + 1 * (y 1).val = (y 1).val; omega

/-- Window 5's block at every point is its whole array. -/
theorem blk5 (c : Dev nD) (t : Fin cfg3.N) : iblk3 V c 5 t = (V c main_v390) := by
  funext y
  show (V c main_v390) (((cfg3.win 5).blk t).view.emb y) = _
  refine congrArg (V c main_v390) (funext fun a => Fin.ext ?_)
  have hf := idx_facts t
  match a with
  | ⟨0, _⟩ => show win3_5.index t (0 : Fin 2) * 128 + 1 * (y 0).val = (y 0).val; omega
  | ⟨1, _⟩ => show win3_5.index t (1 : Fin 2) * 128 + 1 * (y 1).val = (y 1).val; omega

/-- Window 6's block at every point is its whole array. -/
theorem blk6 (c : Dev nD) (t : Fin cfg3.N) : iblk3 V c 6 t = (V c main_v392) := by
  funext y
  show (V c main_v392) (((cfg3.win 6).blk t).view.emb y) = _
  refine congrArg (V c main_v392) (funext fun a => Fin.ext ?_)
  have hf := idx_facts t
  match a with
  | ⟨0, _⟩ => show win3_6.index t (0 : Fin 2) * 128 + 1 * (y 0).val = (y 0).val; omega
  | ⟨1, _⟩ => show win3_6.index t (1 : Fin 2) * 128 + 1 * (y 1).val = (y 1).val; omega

/-- Window 7's block at every point is its whole array. -/
theorem blk7 (c : Dev nD) (t : Fin cfg3.N) : iblk3 V c 7 t = (V c main_v395) := by
  funext y
  show (V c main_v395) (((cfg3.win 7).blk t).view.emb y) = _
  refine congrArg (V c main_v395) (funext fun a => Fin.ext ?_)
  have hf := idx_facts t
  match a with
  | ⟨0, _⟩ => show win3_7.index t (0 : Fin 2) * 1 + 1 * (y 0).val = (y 0).val; omega
  | ⟨1, _⟩ => show win3_7.index t (1 : Fin 2) * 128 + 1 * (y 1).val = (y 1).val; omega

/-- Window 8's block at every point is its whole array. -/
theorem blk8 (c : Dev nD) (t : Fin cfg3.N) : iblk3 V c 8 t = (V c main_v398) := by
  funext y
  show (V c main_v398) (((cfg3.win 8).blk t).view.emb y) = _
  refine congrArg (V c main_v398) (funext fun a => Fin.ext ?_)
  have hf := idx_facts t
  match a with
  | ⟨0, _⟩ => show win3_8.index t (0 : Fin 2) * 1 + 1 * (y 0).val = (y 0).val; omega
  | ⟨1, _⟩ => show win3_8.index t (1 : Fin 2) * 128 + 1 * (y 1).val = (y 1).val; omega

/-- Window 9's block at every point is its whole array. -/
theorem blk9 (c : Dev nD) (t : Fin cfg3.N) : iblk3 V c 9 t = (V c main_v401) := by
  funext y
  show (V c main_v401) (((cfg3.win 9).blk t).view.emb y) = _
  refine congrArg (V c main_v401) (funext fun a => Fin.ext ?_)
  have hf := idx_facts t
  match a with
  | ⟨0, _⟩ => show win3_9.index t (0 : Fin 2) * 1 + 1 * (y 0).val = (y 0).val; omega
  | ⟨1, _⟩ => show win3_9.index t (1 : Fin 2) * 128 + 1 * (y 1).val = (y 1).val; omega

/-- Window 10's block at every point is its whole array. -/
theorem blk10 (c : Dev nD) (t : Fin cfg3.N) : iblk3 V c 10 t = (V c main_v403) := by
  funext y
  show (V c main_v403) (((cfg3.win 10).blk t).view.emb y) = _
  refine congrArg (V c main_v403) (funext fun a => Fin.ext ?_)
  have hf := idx_facts t
  match a with
  | ⟨0, _⟩ => show win3_10.index t (0 : Fin 2) * 128 + 1 * (y 0).val = (y 0).val; omega
  | ⟨1, _⟩ => show win3_10.index t (1 : Fin 2) * 128 + 1 * (y 1).val = (y 1).val; omega

/-- Window 11's block at every point is its whole array. -/
theorem blk11 (c : Dev nD) (t : Fin cfg3.N) : iblk3 V c 11 t = (V c main_v405) := by
  funext y
  show (V c main_v405) (((cfg3.win 11).blk t).view.emb y) = _
  refine congrArg (V c main_v405) (funext fun a => Fin.ext ?_)
  have hf := idx_facts t
  match a with
  | ⟨0, _⟩ => show win3_11.index t (0 : Fin 2) * 128 + 1 * (y 0).val = (y 0).val; omega
  | ⟨1, _⟩ => show win3_11.index t (1 : Fin 2) * 128 + 1 * (y 1).val = (y 1).val; omega

/-- Window 12's block at every point is its whole array. -/
theorem blk12 (c : Dev nD) (t : Fin cfg3.N) : iblk3 V c 12 t = (V c main_v407) := by
  funext y
  show (V c main_v407) (((cfg3.win 12).blk t).view.emb y) = _
  refine congrArg (V c main_v407) (funext fun a => Fin.ext ?_)
  have hf := idx_facts t
  match a with
  | ⟨0, _⟩ => show win3_12.index t (0 : Fin 2) * 128 + 1 * (y 0).val = (y 0).val; omega
  | ⟨1, _⟩ => show win3_12.index t (1 : Fin 2) * 128 + 1 * (y 1).val = (y 1).val; omega

/-- What point `t` writes back is block `t` of the update of the whole arrays. -/
theorem flushed_eq (c : Dev nD) (t : Fin cfg3.N) :
    (dat3 V c).flushed 13 t = ((cfg3.win 13).blk t).view.read (Elt Ideal)
      (relu (upd3 (((1 / 3 : ℝ)) : EReal) ((V c main_v221) : Mat 50000 128) ((V c main_v322) : Mat 50000 128) ((V c main_v354) : Mat 50000 128) ((V c main_v370) : Mat 50000 128) (V c main_v388) (V c main_v390) (V c main_v392) (V c main_v395) (V c main_v398) (V c main_v401) (V c main_v403) (V c main_v405) (V c main_v407))) := by
  show (cfg3.win 13).cut (grid3.coords t) ((dat3 V c).after 13 t) = _
  rw [after3_13]
  unfold out3_13
  rw [View.canon_unit_zero hz]
  simp only [View.ld_unit_zero (S := S2000x128) hz, View.ld_unit_zero (S := S128x128) hz, View.ld_unit_zero (S := S1x128) hz]
  rw [pay, blk4 V c t, blk5 V c t, blk6 V c t, blk7 V c t, blk8 V c t, blk9 V c t, blk10 V c t, blk11 V c t, blk12 V c t]
  funext j
  obtain ⟨p', q, rfl⟩ : ∃ (p' : Fin 2000) (q : Fin 128), j = ix2 p' q := ⟨j 0, j 1, eq_ix2 j⟩
  have ht : t.val < 25 := by have h := t.isLt; have hN : cfg3.N = 25 := N_3; omega
  have hp'' : t.val * 2000 + p'.val < 50000 := by have := p'.isLt; omega
  have hemb : ((cfg3.win 13).blk t).view.emb (ix2 p' q) = ix2 (⟨t.val * 2000 + p'.val, hp''⟩ : Fin 50000) q := by
    funext a; apply Fin.ext
    have hf := idx_facts t
    match a with
    | ⟨0, _⟩ => show win3_13.index t (0 : Fin 2) * 2000 + 1 * p'.val = t.val * 2000 + p'.val; omega
    | ⟨1, _⟩ => show win3_13.index t (1 : Fin 2) * 128 + 1 * q.val = q.val; omega
  show _ = (relu (upd3 (((1 / 3 : ℝ)) : EReal) ((V c main_v221) : Mat 50000 128) ((V c main_v322) : Mat 50000 128) ((V c main_v354) : Mat 50000 128) ((V c main_v370) : Mat 50000 128) (V c main_v388) (V c main_v390) (V c main_v392) (V c main_v395) (V c main_v398) (V c main_v401) (V c main_v403) (V c main_v405) (V c main_v407))) (((cfg3.win 13).blk t).view.emb (ix2 p' q))
  rw [hemb]
  exact relu_rows _ _ _ _ _ (upd3_rows _ _ _ _ _ _ _ _ _ _ _ _ _ _ _ _ _ _ (⟨t.val * 2000 + p'.val, hp''⟩ : Fin 50000) p'
      (fun k => blk0 V c t p' (⟨t.val * 2000 + p'.val, hp''⟩ : Fin 50000) rfl k) (fun k => blk1 V c t p' (⟨t.val * 2000 + p'.val, hp''⟩ : Fin 50000) rfl k) (fun k => blk2 V c t p' (⟨t.val * 2000 + p'.val, hp''⟩ : Fin 50000) rfl k) (fun k => blk3 V c t p' (⟨t.val * 2000 + p'.val, hp''⟩ : Fin 50000) rfl k) q)

/-- An index of the array is in point `t`'s block iff each coordinate is in the block's range on its axis. -/
theorem mem_blk (t : Fin cfg3.N) (i : S50000x128.Idx) :
    i ∈ ((cfg3.win 13).blk t).view.set ↔ ∀ a : Fin 2, win3_13.index t a * S2000x128.size a ≤ (i a).val ∧ (i a).val < win3_13.index t a * S2000x128.size a + S2000x128.size a := by
  show i ∈ ((View.whole main_v408).slice (win3_13.rect t)).set ↔ _
  rw [View.set_slice_whole, Rect.mem_set_unit]
  exact Iff.rfl

/-- The output array after the region: the update of the arrays the region finds. -/
theorem final (c : Dev nD) : (dat3 V c).arrAt 13 cfg3.N
      = relu (upd3 (((1 / 3 : ℝ)) : EReal) ((V c main_v221) : Mat 50000 128) ((V c main_v322) : Mat 50000 128) ((V c main_v354) : Mat 50000 128) ((V c main_v370) : Mat 50000 128) (V c main_v388) (V c main_v390) (V c main_v392) (V c main_v395) (V c main_v398) (V c main_v401) (V c main_v403) (V c main_v405) (V c main_v407)) :=
  (dat3 V c).arrAt_eq_of_cover 13 _ (fun t _ => flushed_eq V c t) fun i => by
    have hi0 : (i 0).val < 50000 := (i 0).isLt
    have hi1 : (i 1).val < 128 := (i 1).isLt
    have hN : cfg3.N = 25 := N_3
    obtain ⟨t, ht⟩ : ∃ t : Fin cfg3.N, t.val = (i 0).val / 2000 := ⟨⟨(i 0).val / 2000, by rw [hN]; omega⟩, rfl⟩
    refine ⟨t, flush3_13 t, ?_⟩
    rw [mem_blk]
    have hf := idx_facts t
    intro a
    match a with
    | ⟨0, _⟩ => show win3_13.index t (0 : Fin 2) * 2000 ≤ (i 0).val ∧ (i 0).val < win3_13.index t (0 : Fin 2) * 2000 + 2000; omega
    | ⟨1, _⟩ => show win3_13.index t (1 : Fin 2) * 128 ≤ (i 1).val ∧ (i 1).val < win3_13.index t (1 : Fin 2) * 128 + 128; omega

end Cert.KernelIdeal.Reg3

end
-- ==== Proof.Region4.lean ====
/-
  Kernel region 4 of the idealized kernel: the update of the second node type in layer 1, read as one
  function of the arrays the region finds.

  The grid has 10 points; point `t` stages rows `2000·t … 2000·t + 1999` of the node features and of each aggregate,
  and the whole weight and bias arrays.  The body computes, on those row blocks, each relation's message (aggregate times
  transposed weight, bias row, features times a second transposed weight), adds the 2 messages to zero, multiplies by
  one half and rectifies.  An entry of that result depends on one row of the row-blocked operands only,
  so the block a point writes back is the block of the same function of the whole arrays, and the 10 blocks tile the
  20000 rows.
-/
import proofs.«116292_j712964571450_1_alg».proof.Proof.FrameKernelIdealP
import proofs.«116292_j712964571450_1_alg».proof.Proof.LibHeteroMean

set_option maxRecDepth 16384

noncomputable section

namespace Cert.KernelIdeal.Reg4

open Cert.KernelIdeal Cert.KernelIdeal.Gen Cert.KernelIdeal.GenP Idealize.ShloMosaic Idealize.ShloMosaic.TcCoe Idealize.ShloMosaic.ValueIdx
open Idealize.SL.Sem
open Idealize.ShloMosaic.Pipeline (Dat)
open Cert.Dense Cert.HeteroMean

variable (V : (c : Dev nD) → (b : Ref sig .tc) → Buf (Elt Ideal) ((c : Thread nD τ).loc b))

theorem hz : (![0, 0] : Fin 2 → Nat) = fun _ => 0 := funext fun a => by fin_cases a <;> rfl

/-- The body's stored value, as the update of its loaded blocks. -/
theorem pay (x0 : Vec Ideal S2000x128 .f32) (x1 : Vec Ideal S2000x128 .f32) (x2 : Vec Ideal S2000x128 .f32) (x3 : Vec Ideal S128x128 .f32) (x4 : Vec Ideal S128x128 .f32) (x5 : Vec Ideal S1x128 .f32) (x6 : Vec Ideal S1x128 .f32) (x7 : Vec Ideal S128x128 .f32) (x8 : Vec Ideal S128x128 .f32) :
    k4_pay1 (k4_pay2 x0 x1 x3 x7 x5 x2 x4 x8 x6) (Scalar.ofBits .f32 0x3F000000#32)
      = relu (upd2 (((1 / 2 : ℝ)) : EReal) x0 x1 x2 x3 x4 x5 x6 x7 x8) := by
  have e1 := vecPart dot_S2000x128_S128x128_S2000x128_1_0_0_1_n_n rfl rfl rfl rfl rfl rfl dot_S2000x128_S128x128_S2000x128_1_0_0_1_n_n rfl rfl rfl rfl rfl rfl none none x1 x3 x5 x0 x7 transposes_S128x128_p1_0_S128x128 transposes_S128x128_p1_0_S128x128 broadcasts_S1x128_S2000x128
  have e2 := vecPart dot_S2000x128_S128x128_S2000x128_1_0_0_1_n_n rfl rfl rfl rfl rfl rfl dot_S2000x128_S128x128_S2000x128_1_0_0_1_n_n rfl rfl rfl rfl rfl rfl none none x2 x4 x6 x0 x8 transposes_S128x128_p1_0_S128x128 transposes_S128x128_p1_0_S128x128 broadcasts_S1x128_S2000x128
  unfold upd2
  rw [← vecRelu, ← Cert.HeteroMean.ofBits_half, ← vecMean2, ← e1, ← e2]
  simp only [k4_pay1, k4_pay2, shapeCast_self]
  rfl

/-- The printed index maps, decided over the grid: the row-blocked windows move with the point, the others stay. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0
    ∧ win4_9.index t (0 : Fin 2) = t.val ∧ win4_9.index t (1 : Fin 2) = 0 :=
  (by decide +kernel : ∀ t : Fin grid4.N, _)

/-- Row `p'` of window 0's block at point `t` is row `2000·t + p'` of its array. -/
theorem blk0 (c : Dev nD) (t : Fin cfg4.N) (p' : Fin 2000) (p : Fin 20000) (hp : p.val = t.val * 2000 + p'.val) (q : Fin 128) :
    iblk4 V c 0 t (ix2 p' q) = ((V c main_v236) : Mat 20000 128) (ix2 p q) := by
  show (V c main_v236) (((cfg4.win 0).blk t).view.emb (ix2 p' q)) = _
  refine congrArg (V c main_v236) (funext fun a => Fin.ext ?_)
  have hf := idx_facts t
  match a with
  | ⟨0, _⟩ => show win4_0.index t (0 : Fin 2) * 2000 + 1 * p'.val = p.val; omega
  | ⟨1, _⟩ => show win4_0.index t (1 : Fin 2) * 128 + 1 * q.val = q.val; omega

/-- Row `p'` of window 1's block at point `t` is row `2000·t + p'` of its array. -/
theorem blk1 (c : Dev nD) (t : Fin cfg4.N) (p' : Fin 2000) (p : Fin 20000) (hp : p.val = t.val * 2000 + p'.val) (q : Fin 128) :
    iblk4 V c 1 t (ix2 p' q) = ((V c main_v274) : Mat 20000 128) (ix2 p q) := by
  show (V c main_v274) (((cfg4.win 1).blk t).view.emb (ix2 p' q)) = _
  refine congrArg (V c main_v274) (funext fun a => Fin.ext ?_)
  have hf := idx_facts t
  match a with
  | ⟨0, _⟩ => show win4_1.index t (0 : Fin 2) * 2000 + 1 * p'.val = p.val; omega
  | ⟨1, _⟩ => show win4_1.index t (1 : Fin 2) * 128 + 1 * q.val = q.val; omega

/-- Row `p'` of window 2's block at point `t` is row `2000·t + p'` of its array. -/
theorem blk2 (c : Dev nD) (t : Fin cfg4.N) (p' : Fin 2000) (p : Fin 20000) (hp : p.val = t.val * 2000 + p'.val) (q : Fin 128) :
    iblk4 V c 2 t (ix2 p' q) = ((V c main_v338) : Mat 20000 128) (ix2 p q) := by
  show (V c main_v338) (((cfg4.win 2).blk t).view.emb (ix2 p' q)) = _
  refine congrArg (V c main_v338) (funext fun a => Fin.ext ?_)
  have hf := idx_facts t
  match a with
  | ⟨0, _⟩ => show win4_2.index t (0 : Fin 2) * 2000 + 1 * p'.val = p.val; omega
  | ⟨1, _⟩ => show win4_2.index t (1 : Fin 2) * 128 + 1 * q.val = q.val; omega

/-- Window 3's block at every point is its whole array. -/
theorem blk3 (c : Dev nD) (t : Fin cfg4.N) : iblk4 V c 3 t = (V c main_v410) := by
  funext y
  show (V c main_v410) (((cfg4.win 3).blk t).view.emb y) = _
  refine congrArg (V c main_v410) (funext fun a => Fin.ext ?_)
  have hf := idx_facts t
  match a with
  | ⟨0, _⟩ => show win4_3.index t (0 : Fin 2) * 128 + 1 * (y 0).val = (y 0).val; omega
  | ⟨1, _⟩ => show win4_3.index t (1 : Fin 2) * 128 + 1 * (y 1).val = (y 1).val; omega

/-- Window 4's block at every point is its whole array. -/
theorem blk4 (c : Dev nD) (t : Fin cfg4.N) : iblk4 V c 4 t = (V c main_v412) := by
  funext y
  show (V c main_v412) (((cfg4.win 4).blk t).view.emb y) = _
  refine congrArg (V c main_v412) (funext fun a => Fin.ext ?_)
  have hf := idx_facts t
  match a with
  | ⟨0, _⟩ => show win4_4.index t (0 : Fin 2) * 128 + 1 * (y 0).val = (y 0).val; omega
  | ⟨1, _⟩ => show win4_4.index t (1 : Fin 2) * 128 + 1 * (y 1).val = (y 1).val; omega

/-- Window 5's block at every point is its whole array. -/
theorem blk5 (c : Dev nD) (t : Fin cfg4.N) : iblk4 V c 5 t = (V c main_v415) := by
  funext y
  show (V c main_v415) (((cfg4.win 5).blk t).view.emb y) = _
  refine congrArg (V c main_v415) (funext fun a => Fin.ext ?_)
  have hf := idx_facts t
  match a with
  | ⟨0, _⟩ => show win4_5.index t (0 : Fin 2) * 1 + 1 * (y 0).val = (y 0).val; omega
  | ⟨1, _⟩ => show win4_5.index t (1 : Fin 2) * 128 + 1 * (y 1).val = (y 1).val; omega

/-- Window 6's block at every point is its whole array. -/
theorem blk6 (c : Dev nD) (t : Fin cfg4.N) : iblk4 V c 6 t = (V c main_v418) := by
  funext y
  show (V c main_v418) (((cfg4.win 6).blk t).view.emb y) = _
  refine congrArg (V c main_v418) (funext fun a => Fin.ext ?_)
  have hf := idx_facts t
  match a with
  | ⟨0, _⟩ => show win4_6.index t (0 : Fin 2) * 1 + 1 * (y 0).val = (y 0).val; omega
  | ⟨1, _⟩ => show win4_6.index t (1 : Fin 2) * 128 + 1 * (y 1).val = (y 1).val; omega

/-- Window 7's block at every point is its whole array. -/
theorem blk7 (c : Dev nD) (t : Fin cfg4.N) : iblk4 V c 7 t = (V c main_v420) := by
  funext y
  show (V c main_v420) (((cfg4.win 7).blk t).view.emb y) = _
  refine congrArg (V c main_v420) (funext fun a => Fin.ext ?_)
  have hf := idx_facts t
  match a with
  | ⟨0, _⟩ => show win4_7.index t (0 : Fin 2) * 128 + 1 * (y 0).val = (y 0).val; omega
  | ⟨1, _⟩ => show win4_7.index t (1 : Fin 2) * 128 + 1 * (y 1).val = (y 1).val; omega

/-- Window 8's block at every point is its whole array. -/
theorem blk8 (c : Dev nD) (t : Fin cfg4.N) : iblk4 V c 8 t = (V c main_v422) := by
  funext y
  show (V c main_v422) (((cfg4.win 8).blk t).view.emb y) = _
  refine congrArg (V c main_v422) (funext fun a => Fin.ext ?_)
  have hf := idx_facts t
  match a with
  | ⟨0, _⟩ => show win4_8.index t (0 : Fin 2) * 128 + 1 * (y 0).val = (y 0).val; omega
  | ⟨1, _⟩ => show win4_8.index t (1 : Fin 2) * 128 + 1 * (y 1).val = (y 1).val; omega

/-- What point `t` writes back is block `t` of the update of the whole arrays. -/
theorem flushed_eq (c : Dev nD) (t : Fin cfg4.N) :
    (dat4 V c).flushed 9 t = ((cfg4.win 9).blk t).view.read (Elt Ideal)
      (relu (upd2 (((1 / 2 : ℝ)) : EReal) ((V c main_v236) : Mat 20000 128) ((V c main_v274) : Mat 20000 128) ((V c main_v338) : Mat 20000 128) (V c main_v410) (V c main_v412) (V c main_v415) (V c main_v418) (V c main_v420) (V c main_v422))) := by
  show (cfg4.win 9).cut (grid4.coords t) ((dat4 V c).after 9 t) = _
  rw [after4_9]
  unfold out4_9
  rw [View.canon_unit_zero hz]
  simp only [View.ld_unit_zero (S := S2000x128) hz, View.ld_unit_zero (S := S128x128) hz, View.ld_unit_zero (S := S1x128) hz]
  rw [pay, blk3 V c t, blk4 V c t, blk5 V c t, blk6 V c t, blk7 V c t, blk8 V c t]
  funext j
  obtain ⟨p', q, rfl⟩ : ∃ (p' : Fin 2000) (q : Fin 128), j = ix2 p' q := ⟨j 0, j 1, eq_ix2 j⟩
  have ht : t.val < 10 := by have h := t.isLt; have hN : cfg4.N = 10 := N_4; omega
  have hp'' : t.val * 2000 + p'.val < 20000 := by have := p'.isLt; omega
  have hemb : ((cfg4.win 9).blk t).view.emb (ix2 p' q) = ix2 (⟨t.val * 2000 + p'.val, hp''⟩ : Fin 20000) q := by
    funext a; apply Fin.ext
    have hf := idx_facts t
    match a with
    | ⟨0, _⟩ => show win4_9.index t (0 : Fin 2) * 2000 + 1 * p'.val = t.val * 2000 + p'.val; omega
    | ⟨1, _⟩ => show win4_9.index t (1 : Fin 2) * 128 + 1 * q.val = q.val; omega
  show _ = (relu (upd2 (((1 / 2 : ℝ)) : EReal) ((V c main_v236) : Mat 20000 128) ((V c main_v274) : Mat 20000 128) ((V c main_v338) : Mat 20000 128) (V c main_v410) (V c main_v412) (V c main_v415) (V c main_v418) (V c main_v420) (V c main_v422))) (((cfg4.win 9).blk t).view.emb (ix2 p' q))
  rw [hemb]
  exact relu_rows _ _ _ _ _ (upd2_rows _ _ _ _ _ _ _ _ _ _ _ _ _ (⟨t.val * 2000 + p'.val, hp''⟩ : Fin 20000) p'
      (fun k => blk0 V c t p' (⟨t.val * 2000 + p'.val, hp''⟩ : Fin 20000) rfl k) (fun k => blk1 V c t p' (⟨t.val * 2000 + p'.val, hp''⟩ : Fin 20000) rfl k) (fun k => blk2 V c t p' (⟨t.val * 2000 + p'.val, hp''⟩ : Fin 20000) rfl k) q)

/-- An index of the array is in point `t`'s block iff each coordinate is in the block's range on its axis. -/
theorem mem_blk (t : Fin cfg4.N) (i : S20000x128.Idx) :
    i ∈ ((cfg4.win 9).blk t).view.set ↔ ∀ a : Fin 2, win4_9.index t a * S2000x128.size a ≤ (i a).val ∧ (i a).val < win4_9.index t a * S2000x128.size a + S2000x128.size a := by
  show i ∈ ((View.whole main_v423).slice (win4_9.rect t)).set ↔ _
  rw [View.set_slice_whole, Rect.mem_set_unit]
  exact Iff.rfl

/-- The output array after the region: the update of the arrays the region finds. -/
theorem final (c : Dev nD) : (dat4 V c).arrAt 9 cfg4.N
      = relu (upd2 (((1 / 2 : ℝ)) : EReal) ((V c main_v236) : Mat 20000 128) ((V c main_v274) : Mat 20000 128) ((V c main_v338) : Mat 20000 128) (V c main_v410) (V c main_v412) (V c main_v415) (V c main_v418) (V c main_v420) (V c main_v422)) :=
  (dat4 V c).arrAt_eq_of_cover 9 _ (fun t _ => flushed_eq V c t) fun i => by
    have hi0 : (i 0).val < 20000 := (i 0).isLt
    have hi1 : (i 1).val < 128 := (i 1).isLt
    have hN : cfg4.N = 10 := N_4
    obtain ⟨t, ht⟩ : ∃ t : Fin cfg4.N, t.val = (i 0).val / 2000 := ⟨⟨(i 0).val / 2000, by rw [hN]; omega⟩, rfl⟩
    refine ⟨t, flush4_9 t, ?_⟩
    rw [mem_blk]
    have hf := idx_facts t
    intro a
    match a with
    | ⟨0, _⟩ => show win4_9.index t (0 : Fin 2) * 2000 ≤ (i 0).val ∧ (i 0).val < win4_9.index t (0 : Fin 2) * 2000 + 2000; omega
    | ⟨1, _⟩ => show win4_9.index t (1 : Fin 2) * 128 ≤ (i 1).val ∧ (i 1).val < win4_9.index t (1 : Fin 2) * 128 + 128; omega

end Cert.KernelIdeal.Reg4

end
-- ==== Proof.Region5.lean ====
/-
  Kernel region 5 of the idealized kernel: the update of the third node type in layer 1, read as one
  function of the arrays the region finds.

  The grid has 5 points; point `t` stages rows `1000·t … 1000·t + 999` of the node features and of each aggregate,
  and the whole weight and bias arrays.  The body computes, on those row blocks, each relation's message (aggregate times
  transposed weight, bias row, features times a second transposed weight), adds the 3 messages to zero, multiplies by
  the named constant 1/3 and rectifies.  An entry of that result depends on one row of the row-blocked operands only,
  so the block a point writes back is the block of the same function of the whole arrays, and the 5 blocks tile the
  5000 rows.
-/
import proofs.«116292_j712964571450_1_alg».proof.Proof.FrameKernelIdealP
import proofs.«116292_j712964571450_1_alg».proof.Proof.LibHeteroMean

set_option maxRecDepth 16384

noncomputable section

namespace Cert.KernelIdeal.Reg5

open Cert.KernelIdeal Cert.KernelIdeal.Gen Cert.KernelIdeal.GenP Idealize.ShloMosaic Idealize.ShloMosaic.TcCoe Idealize.ShloMosaic.ValueIdx
open Idealize.SL.Sem
open Idealize.ShloMosaic.Pipeline (Dat)
open Cert.Dense Cert.HeteroMean

variable (V : (c : Dev nD) → (b : Ref sig .tc) → Buf (Elt Ideal) ((c : Thread nD τ).loc b))

theorem hz : (![0, 0] : Fin 2 → Nat) = fun _ => 0 := funext fun a => by fin_cases a <;> rfl

/-- The named constant denotes one third. -/
theorem inv3 : Named.named (F := Ideal) κ "inv_3" (φ := .f32) 0x3EAAAAAB#32 = (((1 / 3 : ℝ)) : EReal) :=
  IdealRules.named_const.ideal_named_scalar _ _ _ _ rfl

/-- The body's stored value, as the update of its loaded blocks. -/
theorem pay (x0 : Vec Ideal S1000x128 .f32) (x1 : Vec Ideal S1000x128 .f32) (x2 : Vec Ideal S1000x128 .f32) (x3 : Vec Ideal S1000x128 .f32) (x4 : Vec Ideal S128x128 .f32) (x5 : Vec Ideal S128x128 .f32) (x6 : Vec Ideal S128x128 .f32) (x7 : Vec Ideal S1x128 .f32) (x8 : Vec Ideal S1x128 .f32) (x9 : Vec Ideal S1x128 .f32) (x10 : Vec Ideal S128x128 .f32) (x11 : Vec Ideal S128x128 .f32) (x12 : Vec Ideal S128x128 .f32) :
    k5_pay1 (k5_pay2 x0) (k5_pay3 x0 x1 x4 x10 x7 x2 x5 x11 x8) x3 x6 x12 x9
      = relu (upd3 (((1 / 3 : ℝ)) : EReal) x0 x1 x2 x3 x4 x5 x6 x7 x8 x9 x10 x11 x12) := by
  have e1 := vecPart dot_S1000x128_S128x128_S1000x128_1_0_0_1_n_n rfl rfl rfl rfl rfl rfl dot_S1000x128_S128x128_S1000x128_1_0_0_1_n_n rfl rfl rfl rfl rfl rfl none none x1 x4 x7 x0 x10 transposes_S128x128_p1_0_S128x128 transposes_S128x128_p1_0_S128x128 broadcasts_S1x128_S1000x128
  have e2 := vecPart dot_S1000x128_S128x128_S1000x128_1_0_0_1_n_n rfl rfl rfl rfl rfl rfl dot_S1000x128_S128x128_S1000x128_1_0_0_1_n_n rfl rfl rfl rfl rfl rfl none none x2 x5 x8 x0 x11 transposes_S128x128_p1_0_S128x128 transposes_S128x128_p1_0_S128x128 broadcasts_S1x128_S1000x128
  have e3 := vecPart dot_S1000x128_S128x128_S1000x128_1_0_0_1_n_n rfl rfl rfl rfl rfl rfl dot_S1000x128_S128x128_S1000x128_1_0_0_1_n_n rfl rfl rfl rfl rfl rfl none none x3 x6 x9 x0 x12 transposes_S128x128_p1_0_S128x128 transposes_S128x128_p1_0_S128x128 broadcasts_S1x128_S1000x128
  unfold upd3
  rw [← vecRelu, ← inv3, ← vecMean3, ← e1, ← e2, ← e3]
  simp only [k5_pay1, k5_pay2, k5_pay3, shapeCast_self]

/-- The printed index maps, decided over the grid: the row-blocked windows move with the point, the others stay. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = 0 ∧ win5_8.index t (1 : Fin 2) = 0
    ∧ win5_9.index t (0 : Fin 2) = 0 ∧ win5_9.index t (1 : Fin 2) = 0
    ∧ win5_10.index t (0 : Fin 2) = 0 ∧ win5_10.index t (1 : Fin 2) = 0
    ∧ win5_11.index t (0 : Fin 2) = 0 ∧ win5_11.index t (1 : Fin 2) = 0
    ∧ win5_12.index t (0 : Fin 2) = 0 ∧ win5_12.index t (1 : Fin 2) = 0
    ∧ win5_13.index t (0 : Fin 2) = t.val ∧ win5_13.index t (1 : Fin 2) = 0 :=
  (by decide +kernel : ∀ t : Fin grid5.N, _)

/-- Row `p'` of window 0's block at point `t` is row `1000·t + p'` of its array. -/
theorem blk0 (c : Dev nD) (t : Fin cfg5.N) (p' : Fin 1000) (p : Fin 5000) (hp : p.val = t.val * 1000 + p'.val) (q : Fin 128) :
    iblk5 V c 0 t (ix2 p' q) = ((V c main_v258) : Mat 5000 128) (ix2 p q) := by
  show (V c main_v258) (((cfg5.win 0).blk t).view.emb (ix2 p' q)) = _
  refine congrArg (V c main_v258) (funext fun a => Fin.ext ?_)
  have hf := idx_facts t
  match a with
  | ⟨0, _⟩ => show win5_0.index t (0 : Fin 2) * 1000 + 1 * p'.val = p.val; omega
  | ⟨1, _⟩ => show win5_0.index t (1 : Fin 2) * 128 + 1 * q.val = q.val; omega

/-- Row `p'` of window 1's block at point `t` is row `1000·t + p'` of its array. -/
theorem blk1 (c : Dev nD) (t : Fin cfg5.N) (p' : Fin 1000) (p : Fin 5000) (hp : p.val = t.val * 1000 + p'.val) (q : Fin 128) :
    iblk5 V c 1 t (ix2 p' q) = ((V c main_v290) : Mat 5000 128) (ix2 p q) := by
  show (V c main_v290) (((cfg5.win 1).blk t).view.emb (ix2 p' q)) = _
  refine congrArg (V c main_v290) (funext fun a => Fin.ext ?_)
  have hf := idx_facts t
  match a with
  | ⟨0, _⟩ => show win5_1.index t (0 : Fin 2) * 1000 + 1 * p'.val = p.val; omega
  | ⟨1, _⟩ => show win5_1.index t (1 : Fin 2) * 128 + 1 * q.val = q.val; omega

/-- Row `p'` of window 2's block at point `t` is row `1000·t + p'` of its array. -/
theorem blk2 (c : Dev nD) (t : Fin cfg5.N) (p' : Fin 1000) (p : Fin 5000) (hp : p.val = t.val * 1000 + p'.val) (q : Fin 128) :
    iblk5 V c 2 t (ix2 p' q) = ((V c main_v306) : Mat 5000 128) (ix2 p q) := by
  show (V c main_v306) (((cfg5.win 2).blk t).view.emb (ix2 p' q)) = _
  refine congrArg (V c main_v306) (funext fun a => Fin.ext ?_)
  have hf := idx_facts t
  match a with
  | ⟨0, _⟩ => show win5_2.index t (0 : Fin 2) * 1000 + 1 * p'.val = p.val; omega
  | ⟨1, _⟩ => show win5_2.index t (1 : Fin 2) * 128 + 1 * q.val = q.val; omega

/-- Row `p'` of window 3's block at point `t` is row `1000·t + p'` of its array. -/
theorem blk3 (c : Dev nD) (t : Fin cfg5.N) (p' : Fin 1000) (p : Fin 5000) (hp : p.val = t.val * 1000 + p'.val) (q : Fin 128) :
    iblk5 V c 3 t (ix2 p' q) = ((V c main_v386) : Mat 5000 128) (ix2 p q) := by
  show (V c main_v386) (((cfg5.win 3).blk t).view.emb (ix2 p' q)) = _
  refine congrArg (V c main_v386) (funext fun a => Fin.ext ?_)
  have hf := idx_facts t
  match a with
  | ⟨0, _⟩ => show win5_3.index t (0 : Fin 2) * 1000 + 1 * p'.val = p.val; omega
  | ⟨1, _⟩ => show win5_3.index t (1 : Fin 2) * 128 + 1 * q.val = q.val; omega

/-- Window 4's block at every point is its whole array. -/
theorem blk4 (c : Dev nD) (t : Fin cfg5.N) : iblk5 V c 4 t = (V c main_v425) := by
  funext y
  show (V c main_v425) (((cfg5.win 4).blk t).view.emb y) = _
  refine congrArg (V c main_v425) (funext fun a => Fin.ext ?_)
  have hf := idx_facts t
  match a with
  | ⟨0, _⟩ => show win5_4.index t (0 : Fin 2) * 128 + 1 * (y 0).val = (y 0).val; omega
  | ⟨1, _⟩ => show win5_4.index t (1 : Fin 2) * 128 + 1 * (y 1).val = (y 1).val; omega

/-- Window 5's block at every point is its whole array. -/
theorem blk5 (c : Dev nD) (t : Fin cfg5.N) : iblk5 V c 5 t = (V c main_v427) := by
  funext y
  show (V c main_v427) (((cfg5.win 5).blk t).view.emb y) = _
  refine congrArg (V c main_v427) (funext fun a => Fin.ext ?_)
  have hf := idx_facts t
  match a with
  | ⟨0, _⟩ => show win5_5.index t (0 : Fin 2) * 128 + 1 * (y 0).val = (y 0).val; omega
  | ⟨1, _⟩ => show win5_5.index t (1 : Fin 2) * 128 + 1 * (y 1).val = (y 1).val; omega

/-- Window 6's block at every point is its whole array. -/
theorem blk6 (c : Dev nD) (t : Fin cfg5.N) : iblk5 V c 6 t = (V c main_v429) := by
  funext y
  show (V c main_v429) (((cfg5.win 6).blk t).view.emb y) = _
  refine congrArg (V c main_v429) (funext fun a => Fin.ext ?_)
  have hf := idx_facts t
  match a with
  | ⟨0, _⟩ => show win5_6.index t (0 : Fin 2) * 128 + 1 * (y 0).val = (y 0).val; omega
  | ⟨1, _⟩ => show win5_6.index t (1 : Fin 2) * 128 + 1 * (y 1).val = (y 1).val; omega

/-- Window 7's block at every point is its whole array. -/
theorem blk7 (c : Dev nD) (t : Fin cfg5.N) : iblk5 V c 7 t = (V c main_v432) := by
  funext y
  show (V c main_v432) (((cfg5.win 7).blk t).view.emb y) = _
  refine congrArg (V c main_v432) (funext fun a => Fin.ext ?_)
  have hf := idx_facts t
  match a with
  | ⟨0, _⟩ => show win5_7.index t (0 : Fin 2) * 1 + 1 * (y 0).val = (y 0).val; omega
  | ⟨1, _⟩ => show win5_7.index t (1 : Fin 2) * 128 + 1 * (y 1).val = (y 1).val; omega

/-- Window 8's block at every point is its whole array. -/
theorem blk8 (c : Dev nD) (t : Fin cfg5.N) : iblk5 V c 8 t = (V c main_v435) := by
  funext y
  show (V c main_v435) (((cfg5.win 8).blk t).view.emb y) = _
  refine congrArg (V c main_v435) (funext fun a => Fin.ext ?_)
  have hf := idx_facts t
  match a with
  | ⟨0, _⟩ => show win5_8.index t (0 : Fin 2) * 1 + 1 * (y 0).val = (y 0).val; omega
  | ⟨1, _⟩ => show win5_8.index t (1 : Fin 2) * 128 + 1 * (y 1).val = (y 1).val; omega

/-- Window 9's block at every point is its whole array. -/
theorem blk9 (c : Dev nD) (t : Fin cfg5.N) : iblk5 V c 9 t = (V c main_v438) := by
  funext y
  show (V c main_v438) (((cfg5.win 9).blk t).view.emb y) = _
  refine congrArg (V c main_v438) (funext fun a => Fin.ext ?_)
  have hf := idx_facts t
  match a with
  | ⟨0, _⟩ => show win5_9.index t (0 : Fin 2) * 1 + 1 * (y 0).val = (y 0).val; omega
  | ⟨1, _⟩ => show win5_9.index t (1 : Fin 2) * 128 + 1 * (y 1).val = (y 1).val; omega

/-- Window 10's block at every point is its whole array. -/
theorem blk10 (c : Dev nD) (t : Fin cfg5.N) : iblk5 V c 10 t = (V c main_v440) := by
  funext y
  show (V c main_v440) (((cfg5.win 10).blk t).view.emb y) = _
  refine congrArg (V c main_v440) (funext fun a => Fin.ext ?_)
  have hf := idx_facts t
  match a with
  | ⟨0, _⟩ => show win5_10.index t (0 : Fin 2) * 128 + 1 * (y 0).val = (y 0).val; omega
  | ⟨1, _⟩ => show win5_10.index t (1 : Fin 2) * 128 + 1 * (y 1).val = (y 1).val; omega

/-- Window 11's block at every point is its whole array. -/
theorem blk11 (c : Dev nD) (t : Fin cfg5.N) : iblk5 V c 11 t = (V c main_v442) := by
  funext y
  show (V c main_v442) (((cfg5.win 11).blk t).view.emb y) = _
  refine congrArg (V c main_v442) (funext fun a => Fin.ext ?_)
  have hf := idx_facts t
  match a with
  | ⟨0, _⟩ => show win5_11.index t (0 : Fin 2) * 128 + 1 * (y 0).val = (y 0).val; omega
  | ⟨1, _⟩ => show win5_11.index t (1 : Fin 2) * 128 + 1 * (y 1).val = (y 1).val; omega

/-- Window 12's block at every point is its whole array. -/
theorem blk12 (c : Dev nD) (t : Fin cfg5.N) : iblk5 V c 12 t = (V c main_v444) := by
  funext y
  show (V c main_v444) (((cfg5.win 12).blk t).view.emb y) = _
  refine congrArg (V c main_v444) (funext fun a => Fin.ext ?_)
  have hf := idx_facts t
  match a with
  | ⟨0, _⟩ => show win5_12.index t (0 : Fin 2) * 128 + 1 * (y 0).val = (y 0).val; omega
  | ⟨1, _⟩ => show win5_12.index t (1 : Fin 2) * 128 + 1 * (y 1).val = (y 1).val; omega

/-- What point `t` writes back is block `t` of the update of the whole arrays. -/
theorem flushed_eq (c : Dev nD) (t : Fin cfg5.N) :
    (dat5 V c).flushed 13 t = ((cfg5.win 13).blk t).view.read (Elt Ideal)
      (relu (upd3 (((1 / 3 : ℝ)) : EReal) ((V c main_v258) : Mat 5000 128) ((V c main_v290) : Mat 5000 128) ((V c main_v306) : Mat 5000 128) ((V c main_v386) : Mat 5000 128) (V c main_v425) (V c main_v427) (V c main_v429) (V c main_v432) (V c main_v435) (V c main_v438) (V c main_v440) (V c main_v442) (V c main_v444))) := by
  show (cfg5.win 13).cut (grid5.coords t) ((dat5 V c).after 13 t) = _
  rw [after5_13]
  unfold out5_13
  rw [View.canon_unit_zero hz]
  simp only [View.ld_unit_zero (S := S1000x128) hz, View.ld_unit_zero (S := S128x128) hz, View.ld_unit_zero (S := S1x128) hz]
  rw [pay, blk4 V c t, blk5 V c t, blk6 V c t, blk7 V c t, blk8 V c t, blk9 V c t, blk10 V c t, blk11 V c t, blk12 V c t]
  funext j
  obtain ⟨p', q, rfl⟩ : ∃ (p' : Fin 1000) (q : Fin 128), j = ix2 p' q := ⟨j 0, j 1, eq_ix2 j⟩
  have ht : t.val < 5 := by have h := t.isLt; have hN : cfg5.N = 5 := N_5; omega
  have hp'' : t.val * 1000 + p'.val < 5000 := by have := p'.isLt; omega
  have hemb : ((cfg5.win 13).blk t).view.emb (ix2 p' q) = ix2 (⟨t.val * 1000 + p'.val, hp''⟩ : Fin 5000) q := by
    funext a; apply Fin.ext
    have hf := idx_facts t
    match a with
    | ⟨0, _⟩ => show win5_13.index t (0 : Fin 2) * 1000 + 1 * p'.val = t.val * 1000 + p'.val; omega
    | ⟨1, _⟩ => show win5_13.index t (1 : Fin 2) * 128 + 1 * q.val = q.val; omega
  show _ = (relu (upd3 (((1 / 3 : ℝ)) : EReal) ((V c main_v258) : Mat 5000 128) ((V c main_v290) : Mat 5000 128) ((V c main_v306) : Mat 5000 128) ((V c main_v386) : Mat 5000 128) (V c main_v425) (V c main_v427) (V c main_v429) (V c main_v432) (V c main_v435) (V c main_v438) (V c main_v440) (V c main_v442) (V c main_v444))) (((cfg5.win 13).blk t).view.emb (ix2 p' q))
  rw [hemb]
  exact relu_rows _ _ _ _ _ (upd3_rows _ _ _ _ _ _ _ _ _ _ _ _ _ _ _ _ _ _ (⟨t.val * 1000 + p'.val, hp''⟩ : Fin 5000) p'
      (fun k => blk0 V c t p' (⟨t.val * 1000 + p'.val, hp''⟩ : Fin 5000) rfl k) (fun k => blk1 V c t p' (⟨t.val * 1000 + p'.val, hp''⟩ : Fin 5000) rfl k) (fun k => blk2 V c t p' (⟨t.val * 1000 + p'.val, hp''⟩ : Fin 5000) rfl k) (fun k => blk3 V c t p' (⟨t.val * 1000 + p'.val, hp''⟩ : Fin 5000) rfl k) q)

/-- An index of the array is in point `t`'s block iff each coordinate is in the block's range on its axis. -/
theorem mem_blk (t : Fin cfg5.N) (i : S5000x128.Idx) :
    i ∈ ((cfg5.win 13).blk t).view.set ↔ ∀ a : Fin 2, win5_13.index t a * S1000x128.size a ≤ (i a).val ∧ (i a).val < win5_13.index t a * S1000x128.size a + S1000x128.size a := by
  show i ∈ ((View.whole main_v445).slice (win5_13.rect t)).set ↔ _
  rw [View.set_slice_whole, Rect.mem_set_unit]
  exact Iff.rfl

/-- The output array after the region: the update of the arrays the region finds. -/
theorem final (c : Dev nD) : (dat5 V c).arrAt 13 cfg5.N
      = relu (upd3 (((1 / 3 : ℝ)) : EReal) ((V c main_v258) : Mat 5000 128) ((V c main_v290) : Mat 5000 128) ((V c main_v306) : Mat 5000 128) ((V c main_v386) : Mat 5000 128) (V c main_v425) (V c main_v427) (V c main_v429) (V c main_v432) (V c main_v435) (V c main_v438) (V c main_v440) (V c main_v442) (V c main_v444)) :=
  (dat5 V c).arrAt_eq_of_cover 13 _ (fun t _ => flushed_eq V c t) fun i => by
    have hi0 : (i 0).val < 5000 := (i 0).isLt
    have hi1 : (i 1).val < 128 := (i 1).isLt
    have hN : cfg5.N = 5 := N_5
    obtain ⟨t, ht⟩ : ∃ t : Fin cfg5.N, t.val = (i 0).val / 1000 := ⟨⟨(i 0).val / 1000, by rw [hN]; omega⟩, rfl⟩
    refine ⟨t, flush5_13 t, ?_⟩
    rw [mem_blk]
    have hf := idx_facts t
    intro a
    match a with
    | ⟨0, _⟩ => show win5_13.index t (0 : Fin 2) * 1000 ≤ (i 0).val ∧ (i 0).val < win5_13.index t (0 : Fin 2) * 1000 + 1000; omega
    | ⟨1, _⟩ => show win5_13.index t (1 : Fin 2) * 128 ≤ (i 1).val ∧ (i 1).val < win5_13.index t (1 : Fin 2) * 128 + 128; omega

end Cert.KernelIdeal.Reg5

end
-- ==== Proof.Chain1.lean ====
/-
  Layer 1 of the idealized kernel against layer 1 of the reference.

  The contents of the kernel's buffers at the boundaries of @main's segments, named by the reference's stages of the same
  argument arrays: an argument array is carried unchanged to every boundary; each aggregate (the rows gathered at the
  source entries, summed per destination, divided by the clamped count column) is the same chain of host operations on
  both sides, applied to the previous layer's outputs; each weight matrix or bias vector the kernel slices out of the
  stacked parameters in one step is the array the reference slices in two; and each region's output array — the update
  of the arrays the region finds — is the reference's layer output for that node type.
-/
import proofs.«116292_j712964571450_1_alg».proof.Proof.Chain0
import proofs.«116292_j712964571450_1_alg».proof.Proof.Region3
import proofs.«116292_j712964571450_1_alg».proof.Proof.Region4
import proofs.«116292_j712964571450_1_alg».proof.Proof.Region5

set_option maxRecDepth 16384

noncomputable section

namespace Cert.KernelIdeal.Chain

open Cert.KernelIdeal Cert.KernelIdeal.Gen Cert.KernelIdeal.GenP
open Idealize.ShloMosaic Idealize.ShloMosaic.TcCoe Idealize.SL.Sem Idealize.ShloMosaic.StableHlo

variable (m : (ℓ : Loc nD τ sig) → Buf (Elt Ideal) ℓ) (ρ : Dev nD → PrngReg)

theorem at7_v221 (c : Dev nD) : W7 m ρ c (Proc.devRef .tc main_v221) = (Cert.ReferenceIdeal.ReadP.val_main_v319 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg11)) (m ((c : Thread nD τ).loc main_arg12))) :=
  (keepP3 m ρ c main_v221 (by decide)).trans (at6_v221 m ρ c)

set_option maxHeartbeats 40000000 in
theorem at7_v322 (c : Dev nD) : W7 m ρ c (Proc.devRef .tc main_v322) = (Cert.ReferenceIdeal.ReadP.val_main_v467 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))) := by
  show StableHlo.after hostOps3 (W6 m ρ c) (Proc.devRef .tc main_v322) = _
  after_results_simp
  rw [at6_arg9 m ρ c, at6_v236 m ρ c, at6_v35 m ρ c]
  rfl

set_option maxHeartbeats 40000000 in
theorem at7_v354 (c : Dev nD) : W7 m ρ c (Proc.devRef .tc main_v354) = (Cert.ReferenceIdeal.ReadP.val_main_v541 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg11)) (m ((c : Thread nD τ).loc main_arg13))) := by
  show StableHlo.after hostOps3 (W6 m ρ c) (Proc.devRef .tc main_v354) = _
  after_results_simp
  rw [at6_arg11 m ρ c, out2 m ρ c, at6_v53 m ρ c]
  rfl

set_option maxHeartbeats 40000000 in
theorem at7_v370 (c : Dev nD) : W7 m ρ c (Proc.devRef .tc main_v370) = (Cert.ReferenceIdeal.ReadP.val_main_v578 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg11)) (m ((c : Thread nD τ).loc main_arg12))) := by
  show StableHlo.after hostOps3 (W6 m ρ c) (Proc.devRef .tc main_v370) = _
  after_results_simp
  rw [at6_arg12 m ρ c, at6_v221 m ρ c, at6_v62 m ρ c]
  rfl

set_option maxHeartbeats 40000000 in
theorem at7_v388 (c : Dev nD) : W7 m ρ c (Proc.devRef .tc main_v388) = (Cert.ReferenceIdeal.ReadP.val_main_v440 (F := Ideal) (m ((c : Thread nD τ).loc main_arg3))) := by
  show StableHlo.after hostOps3 (W6 m ρ c) (Proc.devRef .tc main_v388) = _
  after_results_simp
  rw [at6_arg3 m ρ c]
  exact Cert.StackPick.mat_direct_eq_staged (L := 3) (R := 8) (a := 128) (b := 128) 1 3 (by decide) (by decide) _ _ _ _ _ _ _

set_option maxHeartbeats 40000000 in
theorem at7_v390 (c : Dev nD) : W7 m ρ c (Proc.devRef .tc main_v390) = (Cert.ReferenceIdeal.ReadP.val_main_v514 (F := Ideal) (m ((c : Thread nD τ).loc main_arg3))) := by
  show StableHlo.after hostOps3 (W6 m ρ c) (Proc.devRef .tc main_v390) = _
  after_results_simp
  rw [at6_arg3 m ρ c]
  exact Cert.StackPick.mat_direct_eq_staged (L := 3) (R := 8) (a := 128) (b := 128) 1 5 (by decide) (by decide) _ _ _ _ _ _ _

set_option maxHeartbeats 40000000 in
theorem at7_v392 (c : Dev nD) : W7 m ρ c (Proc.devRef .tc main_v392) = (Cert.ReferenceIdeal.ReadP.val_main_v551 (F := Ideal) (m ((c : Thread nD τ).loc main_arg3))) := by
  show StableHlo.after hostOps3 (W6 m ρ c) (Proc.devRef .tc main_v392) = _
  after_results_simp
  rw [at6_arg3 m ρ c]
  exact Cert.StackPick.mat_direct_eq_staged (L := 3) (R := 8) (a := 128) (b := 128) 1 6 (by decide) (by decide) _ _ _ _ _ _ _

set_option maxHeartbeats 40000000 in
theorem at7_v395 (c : Dev nD) : W7 m ρ c (Proc.devRef .tc main_v395) = (Cert.Dense.row (Cert.ReferenceIdeal.ReadP.val_main_v442 (F := Ideal) (m ((c : Thread nD τ).loc main_arg4)))) := by
  show StableHlo.after hostOps3 (W6 m ρ c) (Proc.devRef .tc main_v395) = _
  after_results_simp
  rw [at6_arg4 m ρ c]
  exact Cert.StackPick.row_direct_eq_staged (L := 3) (R := 8) (b := 128) 1 3 (by decide) (by decide) _ _ _ _ Cert.ReferenceIdeal.Gen.slices_S3x8x128_S1x8x128_1_0_0 Cert.ReferenceIdeal.Gen.shapeCasts_S1x8x128_S8x128 Cert.ReferenceIdeal.Gen.slices_S8x128_S1x128_3_0 Cert.ReferenceIdeal.Gen.shapeCasts_S1x128_S128

set_option maxHeartbeats 40000000 in
theorem at7_v398 (c : Dev nD) : W7 m ρ c (Proc.devRef .tc main_v398) = (Cert.Dense.row (Cert.ReferenceIdeal.ReadP.val_main_v516 (F := Ideal) (m ((c : Thread nD τ).loc main_arg4)))) := by
  show StableHlo.after hostOps3 (W6 m ρ c) (Proc.devRef .tc main_v398) = _
  after_results_simp
  rw [at6_arg4 m ρ c]
  exact Cert.StackPick.row_direct_eq_staged (L := 3) (R := 8) (b := 128) 1 5 (by decide) (by decide) _ _ _ _ Cert.ReferenceIdeal.Gen.slices_S3x8x128_S1x8x128_1_0_0 Cert.ReferenceIdeal.Gen.shapeCasts_S1x8x128_S8x128 Cert.ReferenceIdeal.Gen.slices_S8x128_S1x128_5_0 Cert.ReferenceIdeal.Gen.shapeCasts_S1x128_S128

set_option maxHeartbeats 40000000 in
theorem at7_v401 (c : Dev nD) : W7 m ρ c (Proc.devRef .tc main_v401) = (Cert.Dense.row (Cert.ReferenceIdeal.ReadP.val_main_v553 (F := Ideal) (m ((c : Thread nD τ).loc main_arg4)))) := by
  show StableHlo.after hostOps3 (W6 m ρ c) (Proc.devRef .tc main_v401) = _
  after_results_simp
  rw [at6_arg4 m ρ c]
  exact Cert.StackPick.row_direct_eq_staged (L := 3) (R := 8) (b := 128) 1 6 (by decide) (by decide) _ _ _ _ Cert.ReferenceIdeal.Gen.slices_S3x8x128_S1x8x128_1_0_0 Cert.ReferenceIdeal.Gen.shapeCasts_S1x8x128_S8x128 Cert.ReferenceIdeal.Gen.slices_S8x128_S1x128_6_0 Cert.ReferenceIdeal.Gen.shapeCasts_S1x128_S128

set_option maxHeartbeats 40000000 in
theorem at7_v403 (c : Dev nD) : W7 m ρ c (Proc.devRef .tc main_v403) = (Cert.ReferenceIdeal.ReadP.val_main_v444 (F := Ideal) (m ((c : Thread nD τ).loc main_arg5))) := by
  show StableHlo.after hostOps3 (W6 m ρ c) (Proc.devRef .tc main_v403) = _
  after_results_simp
  rw [at6_arg5 m ρ c]
  exact Cert.StackPick.mat_direct_eq_staged (L := 3) (R := 8) (a := 128) (b := 128) 1 3 (by decide) (by decide) _ _ _ _ _ _ _

set_option maxHeartbeats 40000000 in
theorem at7_v405 (c : Dev nD) : W7 m ρ c (Proc.devRef .tc main_v405) = (Cert.ReferenceIdeal.ReadP.val_main_v518 (F := Ideal) (m ((c : Thread nD τ).loc main_arg5))) := by
  show StableHlo.after hostOps3 (W6 m ρ c) (Proc.devRef .tc main_v405) = _
  after_results_simp
  rw [at6_arg5 m ρ c]
  exact Cert.StackPick.mat_direct_eq_staged (L := 3) (R := 8) (a := 128) (b := 128) 1 5 (by decide) (by decide) _ _ _ _ _ _ _

set_option maxHeartbeats 40000000 in
theorem at7_v407 (c : Dev nD) : W7 m ρ c (Proc.devRef .tc main_v407) = (Cert.ReferenceIdeal.ReadP.val_main_v555 (F := Ideal) (m ((c : Thread nD τ).loc main_arg5))) := by
  show StableHlo.after hostOps3 (W6 m ρ c) (Proc.devRef .tc main_v407) = _
  after_results_simp
  rw [at6_arg5 m ρ c]
  exact Cert.StackPick.mat_direct_eq_staged (L := 3) (R := 8) (a := 128) (b := 128) 1 6 (by decide) (by decide) _ _ _ _ _ _ _

theorem win3_0 (c : Dev nD) : V7 m ρ c main_v221 = (Cert.ReferenceIdeal.ReadP.val_main_v319 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg11)) (m ((c : Thread nD τ).loc main_arg12))) := at7_v221 m ρ c

theorem win3_1 (c : Dev nD) : V7 m ρ c main_v322 = (Cert.ReferenceIdeal.ReadP.val_main_v467 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))) := at7_v322 m ρ c

theorem win3_2 (c : Dev nD) : V7 m ρ c main_v354 = (Cert.ReferenceIdeal.ReadP.val_main_v541 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg11)) (m ((c : Thread nD τ).loc main_arg13))) := at7_v354 m ρ c

theorem win3_3 (c : Dev nD) : V7 m ρ c main_v370 = (Cert.ReferenceIdeal.ReadP.val_main_v578 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg11)) (m ((c : Thread nD τ).loc main_arg12))) := at7_v370 m ρ c

theorem win3_4 (c : Dev nD) : V7 m ρ c main_v388 = (Cert.ReferenceIdeal.ReadP.val_main_v440 (F := Ideal) (m ((c : Thread nD τ).loc main_arg3))) := at7_v388 m ρ c

theorem win3_5 (c : Dev nD) : V7 m ρ c main_v390 = (Cert.ReferenceIdeal.ReadP.val_main_v514 (F := Ideal) (m ((c : Thread nD τ).loc main_arg3))) := at7_v390 m ρ c

theorem win3_6 (c : Dev nD) : V7 m ρ c main_v392 = (Cert.ReferenceIdeal.ReadP.val_main_v551 (F := Ideal) (m ((c : Thread nD τ).loc main_arg3))) := at7_v392 m ρ c

theorem win3_7 (c : Dev nD) : V7 m ρ c main_v395 = (Cert.Dense.row (Cert.ReferenceIdeal.ReadP.val_main_v442 (F := Ideal) (m ((c : Thread nD τ).loc main_arg4)))) := at7_v395 m ρ c

theorem win3_8 (c : Dev nD) : V7 m ρ c main_v398 = (Cert.Dense.row (Cert.ReferenceIdeal.ReadP.val_main_v516 (F := Ideal) (m ((c : Thread nD τ).loc main_arg4)))) := at7_v398 m ρ c

theorem win3_9 (c : Dev nD) : V7 m ρ c main_v401 = (Cert.Dense.row (Cert.ReferenceIdeal.ReadP.val_main_v553 (F := Ideal) (m ((c : Thread nD τ).loc main_arg4)))) := at7_v401 m ρ c

theorem win3_10 (c : Dev nD) : V7 m ρ c main_v403 = (Cert.ReferenceIdeal.ReadP.val_main_v444 (F := Ideal) (m ((c : Thread nD τ).loc main_arg5))) := at7_v403 m ρ c

theorem win3_11 (c : Dev nD) : V7 m ρ c main_v405 = (Cert.ReferenceIdeal.ReadP.val_main_v518 (F := Ideal) (m ((c : Thread nD τ).loc main_arg5))) := at7_v405 m ρ c

theorem win3_12 (c : Dev nD) : V7 m ρ c main_v407 = (Cert.ReferenceIdeal.ReadP.val_main_v555 (F := Ideal) (m ((c : Thread nD τ).loc main_arg5))) := at7_v407 m ρ c

/-- Region 3's output array, after the region, is the reference's layer-1 output for node type 0. -/
theorem out3 (c : Dev nD) : W8 m ρ c (Proc.devRef .tc main_v408) = (Cert.ReferenceIdeal.ReadP.val_main_v641 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  rw [show W8 m ρ c (Proc.devRef .tc main_v408) = (dat3 (V7 m ρ) c).arrAt 13 cfg3.N from W8_arr m ρ c 13,
    Cert.KernelIdeal.Reg3.final (V7 m ρ) c, win3_0 m ρ c, win3_1 m ρ c, win3_2 m ρ c, win3_3 m ρ c, win3_4 m ρ c, win3_5 m ρ c, win3_6 m ρ c, win3_7 m ρ c, win3_8 m ρ c, win3_9 m ρ c, win3_10 m ρ c, win3_11 m ρ c, win3_12 m ρ c]
  exact (Cert.ReferenceIdeal.Layers.out3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))).symm

theorem at7_v236 (c : Dev nD) : W7 m ρ c (Proc.devRef .tc main_v236) = (Cert.ReferenceIdeal.ReadP.val_main_v320 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10))) :=
  (keepP3 m ρ c main_v236 (by decide)).trans (at6_v236 m ρ c)

theorem at8_v236 (c : Dev nD) : W8 m ρ c (Proc.devRef .tc main_v236) = (Cert.ReferenceIdeal.ReadP.val_main_v320 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10))) :=
  (W8_of_ne m ρ c main_v236 (by decide)).trans (at7_v236 m ρ c)

theorem at9_v236 (c : Dev nD) : W9 m ρ c (Proc.devRef .tc main_v236) = (Cert.ReferenceIdeal.ReadP.val_main_v320 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10))) :=
  (keepP4 m ρ c main_v236 (by decide)).trans (at8_v236 m ρ c)

set_option maxHeartbeats 40000000 in
theorem at7_v274 (c : Dev nD) : W7 m ρ c (Proc.devRef .tc main_v274) = (Cert.ReferenceIdeal.ReadP.val_main_v356 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg11)) (m ((c : Thread nD τ).loc main_arg12))) := by
  show StableHlo.after hostOps3 (W6 m ρ c) (Proc.devRef .tc main_v274) = _
  after_results_simp
  rw [at6_arg6 m ρ c, at6_v221 m ρ c, at6_v8 m ρ c]
  rfl

theorem at8_v274 (c : Dev nD) : W8 m ρ c (Proc.devRef .tc main_v274) = (Cert.ReferenceIdeal.ReadP.val_main_v356 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg11)) (m ((c : Thread nD τ).loc main_arg12))) :=
  (W8_of_ne m ρ c main_v274 (by decide)).trans (at7_v274 m ρ c)

theorem at9_v274 (c : Dev nD) : W9 m ρ c (Proc.devRef .tc main_v274) = (Cert.ReferenceIdeal.ReadP.val_main_v356 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg11)) (m ((c : Thread nD τ).loc main_arg12))) :=
  (keepP4 m ρ c main_v274 (by decide)).trans (at8_v274 m ρ c)

set_option maxHeartbeats 40000000 in
theorem at7_v338 (c : Dev nD) : W7 m ρ c (Proc.devRef .tc main_v338) = (Cert.ReferenceIdeal.ReadP.val_main_v504 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg10)) (m ((c : Thread nD τ).loc main_arg13))) := by
  show StableHlo.after hostOps3 (W6 m ρ c) (Proc.devRef .tc main_v338) = _
  after_results_simp
  rw [at6_arg10 m ρ c, out2 m ρ c, at6_v44 m ρ c]
  rfl

theorem at8_v338 (c : Dev nD) : W8 m ρ c (Proc.devRef .tc main_v338) = (Cert.ReferenceIdeal.ReadP.val_main_v504 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg10)) (m ((c : Thread nD τ).loc main_arg13))) :=
  (W8_of_ne m ρ c main_v338 (by decide)).trans (at7_v338 m ρ c)

theorem at9_v338 (c : Dev nD) : W9 m ρ c (Proc.devRef .tc main_v338) = (Cert.ReferenceIdeal.ReadP.val_main_v504 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg10)) (m ((c : Thread nD τ).loc main_arg13))) :=
  (keepP4 m ρ c main_v338 (by decide)).trans (at8_v338 m ρ c)

theorem at7_arg3 (c : Dev nD) : W7 m ρ c (Proc.devRef .tc main_arg3) = (m ((c : Thread nD τ).loc main_arg3)) :=
  (keepP3 m ρ c main_arg3 (by decide)).trans (at6_arg3 m ρ c)

theorem at8_arg3 (c : Dev nD) : W8 m ρ c (Proc.devRef .tc main_arg3) = (m ((c : Thread nD τ).loc main_arg3)) :=
  (W8_of_ne m ρ c main_arg3 (by decide)).trans (at7_arg3 m ρ c)

set_option maxHeartbeats 40000000 in
theorem at9_v410 (c : Dev nD) : W9 m ρ c (Proc.devRef .tc main_v410) = (Cert.ReferenceIdeal.ReadP.val_main_v329 (F := Ideal) (m ((c : Thread nD τ).loc main_arg3))) := by
  show StableHlo.after hostOps4 (W8 m ρ c) (Proc.devRef .tc main_v410) = _
  after_results_simp
  rw [at8_arg3 m ρ c]
  exact Cert.StackPick.mat_direct_eq_staged (L := 3) (R := 8) (a := 128) (b := 128) 1 0 (by decide) (by decide) _ _ _ _ _ _ _

set_option maxHeartbeats 40000000 in
theorem at9_v412 (c : Dev nD) : W9 m ρ c (Proc.devRef .tc main_v412) = (Cert.ReferenceIdeal.ReadP.val_main_v477 (F := Ideal) (m ((c : Thread nD τ).loc main_arg3))) := by
  show StableHlo.after hostOps4 (W8 m ρ c) (Proc.devRef .tc main_v412) = _
  after_results_simp
  rw [at8_arg3 m ρ c]
  exact Cert.StackPick.mat_direct_eq_staged (L := 3) (R := 8) (a := 128) (b := 128) 1 4 (by decide) (by decide) _ _ _ _ _ _ _

theorem at7_arg4 (c : Dev nD) : W7 m ρ c (Proc.devRef .tc main_arg4) = (m ((c : Thread nD τ).loc main_arg4)) :=
  (keepP3 m ρ c main_arg4 (by decide)).trans (at6_arg4 m ρ c)

theorem at8_arg4 (c : Dev nD) : W8 m ρ c (Proc.devRef .tc main_arg4) = (m ((c : Thread nD τ).loc main_arg4)) :=
  (W8_of_ne m ρ c main_arg4 (by decide)).trans (at7_arg4 m ρ c)

set_option maxHeartbeats 40000000 in
theorem at9_v415 (c : Dev nD) : W9 m ρ c (Proc.devRef .tc main_v415) = (Cert.Dense.row (Cert.ReferenceIdeal.ReadP.val_main_v331 (F := Ideal) (m ((c : Thread nD τ).loc main_arg4)))) := by
  show StableHlo.after hostOps4 (W8 m ρ c) (Proc.devRef .tc main_v415) = _
  after_results_simp
  rw [at8_arg4 m ρ c]
  exact Cert.StackPick.row_direct_eq_staged (L := 3) (R := 8) (b := 128) 1 0 (by decide) (by decide) _ _ _ _ Cert.ReferenceIdeal.Gen.slices_S3x8x128_S1x8x128_1_0_0 Cert.ReferenceIdeal.Gen.shapeCasts_S1x8x128_S8x128 Cert.ReferenceIdeal.Gen.slices_S8x128_S1x128_0_0 Cert.ReferenceIdeal.Gen.shapeCasts_S1x128_S128

set_option maxHeartbeats 40000000 in
theorem at9_v418 (c : Dev nD) : W9 m ρ c (Proc.devRef .tc main_v418) = (Cert.Dense.row (Cert.ReferenceIdeal.ReadP.val_main_v479 (F := Ideal) (m ((c : Thread nD τ).loc main_arg4)))) := by
  show StableHlo.after hostOps4 (W8 m ρ c) (Proc.devRef .tc main_v418) = _
  after_results_simp
  rw [at8_arg4 m ρ c]
  exact Cert.StackPick.row_direct_eq_staged (L := 3) (R := 8) (b := 128) 1 4 (by decide) (by decide) _ _ _ _ Cert.ReferenceIdeal.Gen.slices_S3x8x128_S1x8x128_1_0_0 Cert.ReferenceIdeal.Gen.shapeCasts_S1x8x128_S8x128 Cert.ReferenceIdeal.Gen.slices_S8x128_S1x128_4_0 Cert.ReferenceIdeal.Gen.shapeCasts_S1x128_S128

theorem at7_arg5 (c : Dev nD) : W7 m ρ c (Proc.devRef .tc main_arg5) = (m ((c : Thread nD τ).loc main_arg5)) :=
  (keepP3 m ρ c main_arg5 (by decide)).trans (at6_arg5 m ρ c)

theorem at8_arg5 (c : Dev nD) : W8 m ρ c (Proc.devRef .tc main_arg5) = (m ((c : Thread nD τ).loc main_arg5)) :=
  (W8_of_ne m ρ c main_arg5 (by decide)).trans (at7_arg5 m ρ c)

set_option maxHeartbeats 40000000 in
theorem at9_v420 (c : Dev nD) : W9 m ρ c (Proc.devRef .tc main_v420) = (Cert.ReferenceIdeal.ReadP.val_main_v333 (F := Ideal) (m ((c : Thread nD τ).loc main_arg5))) := by
  show StableHlo.after hostOps4 (W8 m ρ c) (Proc.devRef .tc main_v420) = _
  after_results_simp
  rw [at8_arg5 m ρ c]
  exact Cert.StackPick.mat_direct_eq_staged (L := 3) (R := 8) (a := 128) (b := 128) 1 0 (by decide) (by decide) _ _ _ _ _ _ _

set_option maxHeartbeats 40000000 in
theorem at9_v422 (c : Dev nD) : W9 m ρ c (Proc.devRef .tc main_v422) = (Cert.ReferenceIdeal.ReadP.val_main_v481 (F := Ideal) (m ((c : Thread nD τ).loc main_arg5))) := by
  show StableHlo.after hostOps4 (W8 m ρ c) (Proc.devRef .tc main_v422) = _
  after_results_simp
  rw [at8_arg5 m ρ c]
  exact Cert.StackPick.mat_direct_eq_staged (L := 3) (R := 8) (a := 128) (b := 128) 1 4 (by decide) (by decide) _ _ _ _ _ _ _

theorem win4_0 (c : Dev nD) : V9 m ρ c main_v236 = (Cert.ReferenceIdeal.ReadP.val_main_v320 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10))) := at9_v236 m ρ c

theorem win4_1 (c : Dev nD) : V9 m ρ c main_v274 = (Cert.ReferenceIdeal.ReadP.val_main_v356 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg11)) (m ((c : Thread nD τ).loc main_arg12))) := at9_v274 m ρ c

theorem win4_2 (c : Dev nD) : V9 m ρ c main_v338 = (Cert.ReferenceIdeal.ReadP.val_main_v504 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg10)) (m ((c : Thread nD τ).loc main_arg13))) := at9_v338 m ρ c

theorem win4_3 (c : Dev nD) : V9 m ρ c main_v410 = (Cert.ReferenceIdeal.ReadP.val_main_v329 (F := Ideal) (m ((c : Thread nD τ).loc main_arg3))) := at9_v410 m ρ c

theorem win4_4 (c : Dev nD) : V9 m ρ c main_v412 = (Cert.ReferenceIdeal.ReadP.val_main_v477 (F := Ideal) (m ((c : Thread nD τ).loc main_arg3))) := at9_v412 m ρ c

theorem win4_5 (c : Dev nD) : V9 m ρ c main_v415 = (Cert.Dense.row (Cert.ReferenceIdeal.ReadP.val_main_v331 (F := Ideal) (m ((c : Thread nD τ).loc main_arg4)))) := at9_v415 m ρ c

theorem win4_6 (c : Dev nD) : V9 m ρ c main_v418 = (Cert.Dense.row (Cert.ReferenceIdeal.ReadP.val_main_v479 (F := Ideal) (m ((c : Thread nD τ).loc main_arg4)))) := at9_v418 m ρ c

theorem win4_7 (c : Dev nD) : V9 m ρ c main_v420 = (Cert.ReferenceIdeal.ReadP.val_main_v333 (F := Ideal) (m ((c : Thread nD τ).loc main_arg5))) := at9_v420 m ρ c

theorem win4_8 (c : Dev nD) : V9 m ρ c main_v422 = (Cert.ReferenceIdeal.ReadP.val_main_v481 (F := Ideal) (m ((c : Thread nD τ).loc main_arg5))) := at9_v422 m ρ c

/-- Region 4's output array, after the region, is the reference's layer-1 output for node type 1. -/
theorem out4 (c : Dev nD) : W10 m ρ c (Proc.devRef .tc main_v423) = (Cert.ReferenceIdeal.ReadP.val_main_v642 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  rw [show W10 m ρ c (Proc.devRef .tc main_v423) = (dat4 (V9 m ρ) c).arrAt 9 cfg4.N from W10_arr m ρ c 9,
    Cert.KernelIdeal.Reg4.final (V9 m ρ) c, win4_0 m ρ c, win4_1 m ρ c, win4_2 m ρ c, win4_3 m ρ c, win4_4 m ρ c, win4_5 m ρ c, win4_6 m ρ c, win4_7 m ρ c, win4_8 m ρ c]
  exact (Cert.ReferenceIdeal.Layers.out4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))).symm

theorem at7_v258 (c : Dev nD) : W7 m ρ c (Proc.devRef .tc main_v258) = (Cert.ReferenceIdeal.ReadP.val_main_v321 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg13))) :=
  (keepP3 m ρ c main_v258 (by decide)).trans (out2 m ρ c)

theorem at8_v258 (c : Dev nD) : W8 m ρ c (Proc.devRef .tc main_v258) = (Cert.ReferenceIdeal.ReadP.val_main_v321 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg13))) :=
  (W8_of_ne m ρ c main_v258 (by decide)).trans (at7_v258 m ρ c)

theorem at9_v258 (c : Dev nD) : W9 m ρ c (Proc.devRef .tc main_v258) = (Cert.ReferenceIdeal.ReadP.val_main_v321 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg13))) :=
  (keepP4 m ρ c main_v258 (by decide)).trans (at8_v258 m ρ c)

theorem at10_v258 (c : Dev nD) : W10 m ρ c (Proc.devRef .tc main_v258) = (Cert.ReferenceIdeal.ReadP.val_main_v321 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg13))) :=
  (W10_of_ne m ρ c main_v258 (by decide)).trans (at9_v258 m ρ c)

theorem at11_v258 (c : Dev nD) : W11 m ρ c (Proc.devRef .tc main_v258) = (Cert.ReferenceIdeal.ReadP.val_main_v321 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg13))) :=
  (keepP5 m ρ c main_v258 (by decide)).trans (at10_v258 m ρ c)

set_option maxHeartbeats 40000000 in
theorem at7_v290 (c : Dev nD) : W7 m ρ c (Proc.devRef .tc main_v290) = (Cert.ReferenceIdeal.ReadP.val_main_v393 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10))) := by
  show StableHlo.after hostOps3 (W6 m ρ c) (Proc.devRef .tc main_v290) = _
  after_results_simp
  rw [at6_arg7 m ρ c, at6_v236 m ρ c, at6_v17 m ρ c]
  rfl

theorem at8_v290 (c : Dev nD) : W8 m ρ c (Proc.devRef .tc main_v290) = (Cert.ReferenceIdeal.ReadP.val_main_v393 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10))) :=
  (W8_of_ne m ρ c main_v290 (by decide)).trans (at7_v290 m ρ c)

theorem at9_v290 (c : Dev nD) : W9 m ρ c (Proc.devRef .tc main_v290) = (Cert.ReferenceIdeal.ReadP.val_main_v393 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10))) :=
  (keepP4 m ρ c main_v290 (by decide)).trans (at8_v290 m ρ c)

theorem at10_v290 (c : Dev nD) : W10 m ρ c (Proc.devRef .tc main_v290) = (Cert.ReferenceIdeal.ReadP.val_main_v393 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10))) :=
  (W10_of_ne m ρ c main_v290 (by decide)).trans (at9_v290 m ρ c)

theorem at11_v290 (c : Dev nD) : W11 m ρ c (Proc.devRef .tc main_v290) = (Cert.ReferenceIdeal.ReadP.val_main_v393 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10))) :=
  (keepP5 m ρ c main_v290 (by decide)).trans (at10_v290 m ρ c)

set_option maxHeartbeats 40000000 in
theorem at7_v306 (c : Dev nD) : W7 m ρ c (Proc.devRef .tc main_v306) = (Cert.ReferenceIdeal.ReadP.val_main_v430 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg11)) (m ((c : Thread nD τ).loc main_arg12))) := by
  show StableHlo.after hostOps3 (W6 m ρ c) (Proc.devRef .tc main_v306) = _
  after_results_simp
  rw [at6_arg8 m ρ c, at6_v221 m ρ c, at6_v26 m ρ c]
  rfl

theorem at8_v306 (c : Dev nD) : W8 m ρ c (Proc.devRef .tc main_v306) = (Cert.ReferenceIdeal.ReadP.val_main_v430 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg11)) (m ((c : Thread nD τ).loc main_arg12))) :=
  (W8_of_ne m ρ c main_v306 (by decide)).trans (at7_v306 m ρ c)

theorem at9_v306 (c : Dev nD) : W9 m ρ c (Proc.devRef .tc main_v306) = (Cert.ReferenceIdeal.ReadP.val_main_v430 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg11)) (m ((c : Thread nD τ).loc main_arg12))) :=
  (keepP4 m ρ c main_v306 (by decide)).trans (at8_v306 m ρ c)

theorem at10_v306 (c : Dev nD) : W10 m ρ c (Proc.devRef .tc main_v306) = (Cert.ReferenceIdeal.ReadP.val_main_v430 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg11)) (m ((c : Thread nD τ).loc main_arg12))) :=
  (W10_of_ne m ρ c main_v306 (by decide)).trans (at9_v306 m ρ c)

theorem at11_v306 (c : Dev nD) : W11 m ρ c (Proc.devRef .tc main_v306) = (Cert.ReferenceIdeal.ReadP.val_main_v430 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg11)) (m ((c : Thread nD τ).loc main_arg12))) :=
  (keepP5 m ρ c main_v306 (by decide)).trans (at10_v306 m ρ c)

set_option maxHeartbeats 40000000 in
theorem at7_v386 (c : Dev nD) : W7 m ρ c (Proc.devRef .tc main_v386) = (Cert.ReferenceIdeal.ReadP.val_main_v615 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg13))) := by
  show StableHlo.after hostOps3 (W6 m ρ c) (Proc.devRef .tc main_v386) = _
  after_results_simp
  rw [at6_arg13 m ρ c, out2 m ρ c, at6_v71 m ρ c]
  rfl

theorem at8_v386 (c : Dev nD) : W8 m ρ c (Proc.devRef .tc main_v386) = (Cert.ReferenceIdeal.ReadP.val_main_v615 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg13))) :=
  (W8_of_ne m ρ c main_v386 (by decide)).trans (at7_v386 m ρ c)

theorem at9_v386 (c : Dev nD) : W9 m ρ c (Proc.devRef .tc main_v386) = (Cert.ReferenceIdeal.ReadP.val_main_v615 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg13))) :=
  (keepP4 m ρ c main_v386 (by decide)).trans (at8_v386 m ρ c)

theorem at10_v386 (c : Dev nD) : W10 m ρ c (Proc.devRef .tc main_v386) = (Cert.ReferenceIdeal.ReadP.val_main_v615 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg13))) :=
  (W10_of_ne m ρ c main_v386 (by decide)).trans (at9_v386 m ρ c)

theorem at11_v386 (c : Dev nD) : W11 m ρ c (Proc.devRef .tc main_v386) = (Cert.ReferenceIdeal.ReadP.val_main_v615 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg13))) :=
  (keepP5 m ρ c main_v386 (by decide)).trans (at10_v386 m ρ c)

theorem at9_arg3 (c : Dev nD) : W9 m ρ c (Proc.devRef .tc main_arg3) = (m ((c : Thread nD τ).loc main_arg3)) :=
  (keepP4 m ρ c main_arg3 (by decide)).trans (at8_arg3 m ρ c)

theorem at10_arg3 (c : Dev nD) : W10 m ρ c (Proc.devRef .tc main_arg3) = (m ((c : Thread nD τ).loc main_arg3)) :=
  (W10_of_ne m ρ c main_arg3 (by decide)).trans (at9_arg3 m ρ c)

set_option maxHeartbeats 40000000 in
theorem at11_v425 (c : Dev nD) : W11 m ρ c (Proc.devRef .tc main_v425) = (Cert.ReferenceIdeal.ReadP.val_main_v366 (F := Ideal) (m ((c : Thread nD τ).loc main_arg3))) := by
  show StableHlo.after hostOps5 (W10 m ρ c) (Proc.devRef .tc main_v425) = _
  after_results_simp
  rw [at10_arg3 m ρ c]
  exact Cert.StackPick.mat_direct_eq_staged (L := 3) (R := 8) (a := 128) (b := 128) 1 1 (by decide) (by decide) _ _ _ _ _ _ _

set_option maxHeartbeats 40000000 in
theorem at11_v427 (c : Dev nD) : W11 m ρ c (Proc.devRef .tc main_v427) = (Cert.ReferenceIdeal.ReadP.val_main_v403 (F := Ideal) (m ((c : Thread nD τ).loc main_arg3))) := by
  show StableHlo.after hostOps5 (W10 m ρ c) (Proc.devRef .tc main_v427) = _
  after_results_simp
  rw [at10_arg3 m ρ c]
  exact Cert.StackPick.mat_direct_eq_staged (L := 3) (R := 8) (a := 128) (b := 128) 1 2 (by decide) (by decide) _ _ _ _ _ _ _

set_option maxHeartbeats 40000000 in
theorem at11_v429 (c : Dev nD) : W11 m ρ c (Proc.devRef .tc main_v429) = (Cert.ReferenceIdeal.ReadP.val_main_v588 (F := Ideal) (m ((c : Thread nD τ).loc main_arg3))) := by
  show StableHlo.after hostOps5 (W10 m ρ c) (Proc.devRef .tc main_v429) = _
  after_results_simp
  rw [at10_arg3 m ρ c]
  exact Cert.StackPick.mat_direct_eq_staged (L := 3) (R := 8) (a := 128) (b := 128) 1 7 (by decide) (by decide) _ _ _ _ _ _ _

theorem at9_arg4 (c : Dev nD) : W9 m ρ c (Proc.devRef .tc main_arg4) = (m ((c : Thread nD τ).loc main_arg4)) :=
  (keepP4 m ρ c main_arg4 (by decide)).trans (at8_arg4 m ρ c)

theorem at10_arg4 (c : Dev nD) : W10 m ρ c (Proc.devRef .tc main_arg4) = (m ((c : Thread nD τ).loc main_arg4)) :=
  (W10_of_ne m ρ c main_arg4 (by decide)).trans (at9_arg4 m ρ c)

set_option maxHeartbeats 40000000 in
theorem at11_v432 (c : Dev nD) : W11 m ρ c (Proc.devRef .tc main_v432) = (Cert.Dense.row (Cert.ReferenceIdeal.ReadP.val_main_v368 (F := Ideal) (m ((c : Thread nD τ).loc main_arg4)))) := by
  show StableHlo.after hostOps5 (W10 m ρ c) (Proc.devRef .tc main_v432) = _
  after_results_simp
  rw [at10_arg4 m ρ c]
  exact Cert.StackPick.row_direct_eq_staged (L := 3) (R := 8) (b := 128) 1 1 (by decide) (by decide) _ _ _ _ Cert.ReferenceIdeal.Gen.slices_S3x8x128_S1x8x128_1_0_0 Cert.ReferenceIdeal.Gen.shapeCasts_S1x8x128_S8x128 Cert.ReferenceIdeal.Gen.slices_S8x128_S1x128_1_0 Cert.ReferenceIdeal.Gen.shapeCasts_S1x128_S128

set_option maxHeartbeats 40000000 in
theorem at11_v435 (c : Dev nD) : W11 m ρ c (Proc.devRef .tc main_v435) = (Cert.Dense.row (Cert.ReferenceIdeal.ReadP.val_main_v405 (F := Ideal) (m ((c : Thread nD τ).loc main_arg4)))) := by
  show StableHlo.after hostOps5 (W10 m ρ c) (Proc.devRef .tc main_v435) = _
  after_results_simp
  rw [at10_arg4 m ρ c]
  exact Cert.StackPick.row_direct_eq_staged (L := 3) (R := 8) (b := 128) 1 2 (by decide) (by decide) _ _ _ _ Cert.ReferenceIdeal.Gen.slices_S3x8x128_S1x8x128_1_0_0 Cert.ReferenceIdeal.Gen.shapeCasts_S1x8x128_S8x128 Cert.ReferenceIdeal.Gen.slices_S8x128_S1x128_2_0 Cert.ReferenceIdeal.Gen.shapeCasts_S1x128_S128

set_option maxHeartbeats 40000000 in
theorem at11_v438 (c : Dev nD) : W11 m ρ c (Proc.devRef .tc main_v438) = (Cert.Dense.row (Cert.ReferenceIdeal.ReadP.val_main_v590 (F := Ideal) (m ((c : Thread nD τ).loc main_arg4)))) := by
  show StableHlo.after hostOps5 (W10 m ρ c) (Proc.devRef .tc main_v438) = _
  after_results_simp
  rw [at10_arg4 m ρ c]
  exact Cert.StackPick.row_direct_eq_staged (L := 3) (R := 8) (b := 128) 1 7 (by decide) (by decide) _ _ _ _ Cert.ReferenceIdeal.Gen.slices_S3x8x128_S1x8x128_1_0_0 Cert.ReferenceIdeal.Gen.shapeCasts_S1x8x128_S8x128 Cert.ReferenceIdeal.Gen.slices_S8x128_S1x128_7_0 Cert.ReferenceIdeal.Gen.shapeCasts_S1x128_S128

theorem at9_arg5 (c : Dev nD) : W9 m ρ c (Proc.devRef .tc main_arg5) = (m ((c : Thread nD τ).loc main_arg5)) :=
  (keepP4 m ρ c main_arg5 (by decide)).trans (at8_arg5 m ρ c)

theorem at10_arg5 (c : Dev nD) : W10 m ρ c (Proc.devRef .tc main_arg5) = (m ((c : Thread nD τ).loc main_arg5)) :=
  (W10_of_ne m ρ c main_arg5 (by decide)).trans (at9_arg5 m ρ c)

set_option maxHeartbeats 40000000 in
theorem at11_v440 (c : Dev nD) : W11 m ρ c (Proc.devRef .tc main_v440) = (Cert.ReferenceIdeal.ReadP.val_main_v370 (F := Ideal) (m ((c : Thread nD τ).loc main_arg5))) := by
  show StableHlo.after hostOps5 (W10 m ρ c) (Proc.devRef .tc main_v440) = _
  after_results_simp
  rw [at10_arg5 m ρ c]
  exact Cert.StackPick.mat_direct_eq_staged (L := 3) (R := 8) (a := 128) (b := 128) 1 1 (by decide) (by decide) _ _ _ _ _ _ _

set_option maxHeartbeats 40000000 in
theorem at11_v442 (c : Dev nD) : W11 m ρ c (Proc.devRef .tc main_v442) = (Cert.ReferenceIdeal.ReadP.val_main_v407 (F := Ideal) (m ((c : Thread nD τ).loc main_arg5))) := by
  show StableHlo.after hostOps5 (W10 m ρ c) (Proc.devRef .tc main_v442) = _
  after_results_simp
  rw [at10_arg5 m ρ c]
  exact Cert.StackPick.mat_direct_eq_staged (L := 3) (R := 8) (a := 128) (b := 128) 1 2 (by decide) (by decide) _ _ _ _ _ _ _

set_option maxHeartbeats 40000000 in
theorem at11_v444 (c : Dev nD) : W11 m ρ c (Proc.devRef .tc main_v444) = (Cert.ReferenceIdeal.ReadP.val_main_v592 (F := Ideal) (m ((c : Thread nD τ).loc main_arg5))) := by
  show StableHlo.after hostOps5 (W10 m ρ c) (Proc.devRef .tc main_v444) = _
  after_results_simp
  rw [at10_arg5 m ρ c]
  exact Cert.StackPick.mat_direct_eq_staged (L := 3) (R := 8) (a := 128) (b := 128) 1 7 (by decide) (by decide) _ _ _ _ _ _ _

theorem win5_0 (c : Dev nD) : V11 m ρ c main_v258 = (Cert.ReferenceIdeal.ReadP.val_main_v321 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg13))) := at11_v258 m ρ c

theorem win5_1 (c : Dev nD) : V11 m ρ c main_v290 = (Cert.ReferenceIdeal.ReadP.val_main_v393 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10))) := at11_v290 m ρ c

theorem win5_2 (c : Dev nD) : V11 m ρ c main_v306 = (Cert.ReferenceIdeal.ReadP.val_main_v430 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg11)) (m ((c : Thread nD τ).loc main_arg12))) := at11_v306 m ρ c

theorem win5_3 (c : Dev nD) : V11 m ρ c main_v386 = (Cert.ReferenceIdeal.ReadP.val_main_v615 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg13))) := at11_v386 m ρ c

theorem win5_4 (c : Dev nD) : V11 m ρ c main_v425 = (Cert.ReferenceIdeal.ReadP.val_main_v366 (F := Ideal) (m ((c : Thread nD τ).loc main_arg3))) := at11_v425 m ρ c

theorem win5_5 (c : Dev nD) : V11 m ρ c main_v427 = (Cert.ReferenceIdeal.ReadP.val_main_v403 (F := Ideal) (m ((c : Thread nD τ).loc main_arg3))) := at11_v427 m ρ c

theorem win5_6 (c : Dev nD) : V11 m ρ c main_v429 = (Cert.ReferenceIdeal.ReadP.val_main_v588 (F := Ideal) (m ((c : Thread nD τ).loc main_arg3))) := at11_v429 m ρ c

theorem win5_7 (c : Dev nD) : V11 m ρ c main_v432 = (Cert.Dense.row (Cert.ReferenceIdeal.ReadP.val_main_v368 (F := Ideal) (m ((c : Thread nD τ).loc main_arg4)))) := at11_v432 m ρ c

theorem win5_8 (c : Dev nD) : V11 m ρ c main_v435 = (Cert.Dense.row (Cert.ReferenceIdeal.ReadP.val_main_v405 (F := Ideal) (m ((c : Thread nD τ).loc main_arg4)))) := at11_v435 m ρ c

theorem win5_9 (c : Dev nD) : V11 m ρ c main_v438 = (Cert.Dense.row (Cert.ReferenceIdeal.ReadP.val_main_v590 (F := Ideal) (m ((c : Thread nD τ).loc main_arg4)))) := at11_v438 m ρ c

theorem win5_10 (c : Dev nD) : V11 m ρ c main_v440 = (Cert.ReferenceIdeal.ReadP.val_main_v370 (F := Ideal) (m ((c : Thread nD τ).loc main_arg5))) := at11_v440 m ρ c

theorem win5_11 (c : Dev nD) : V11 m ρ c main_v442 = (Cert.ReferenceIdeal.ReadP.val_main_v407 (F := Ideal) (m ((c : Thread nD τ).loc main_arg5))) := at11_v442 m ρ c

theorem win5_12 (c : Dev nD) : V11 m ρ c main_v444 = (Cert.ReferenceIdeal.ReadP.val_main_v592 (F := Ideal) (m ((c : Thread nD τ).loc main_arg5))) := at11_v444 m ρ c

/-- Region 5's output array, after the region, is the reference's layer-1 output for node type 2. -/
theorem out5 (c : Dev nD) : W12 m ρ c (Proc.devRef .tc main_v445) = (Cert.ReferenceIdeal.ReadP.val_main_v643 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  rw [show W12 m ρ c (Proc.devRef .tc main_v445) = (dat5 (V11 m ρ) c).arrAt 13 cfg5.N from W12_arr m ρ c 13,
    Cert.KernelIdeal.Reg5.final (V11 m ρ) c, win5_0 m ρ c, win5_1 m ρ c, win5_2 m ρ c, win5_3 m ρ c, win5_4 m ρ c, win5_5 m ρ c, win5_6 m ρ c, win5_7 m ρ c, win5_8 m ρ c, win5_9 m ρ c, win5_10 m ρ c, win5_11 m ρ c, win5_12 m ρ c]
  exact (Cert.ReferenceIdeal.Layers.out5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))).symm

theorem at9_v408 (c : Dev nD) : W9 m ρ c (Proc.devRef .tc main_v408) = (Cert.ReferenceIdeal.ReadP.val_main_v641 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (keepP4 m ρ c main_v408 (by decide)).trans (out3 m ρ c)

theorem at10_v408 (c : Dev nD) : W10 m ρ c (Proc.devRef .tc main_v408) = (Cert.ReferenceIdeal.ReadP.val_main_v641 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (W10_of_ne m ρ c main_v408 (by decide)).trans (at9_v408 m ρ c)

theorem at11_v408 (c : Dev nD) : W11 m ρ c (Proc.devRef .tc main_v408) = (Cert.ReferenceIdeal.ReadP.val_main_v641 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (keepP5 m ρ c main_v408 (by decide)).trans (at10_v408 m ρ c)

theorem at12_v408 (c : Dev nD) : W12 m ρ c (Proc.devRef .tc main_v408) = (Cert.ReferenceIdeal.ReadP.val_main_v641 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (W12_of_ne m ρ c main_v408 (by decide)).trans (at11_v408 m ρ c)

theorem at7_arg9 (c : Dev nD) : W7 m ρ c (Proc.devRef .tc main_arg9) = (m ((c : Thread nD τ).loc main_arg9)) :=
  (keepP3 m ρ c main_arg9 (by decide)).trans (at6_arg9 m ρ c)

theorem at8_arg9 (c : Dev nD) : W8 m ρ c (Proc.devRef .tc main_arg9) = (m ((c : Thread nD τ).loc main_arg9)) :=
  (W8_of_ne m ρ c main_arg9 (by decide)).trans (at7_arg9 m ρ c)

theorem at9_arg9 (c : Dev nD) : W9 m ρ c (Proc.devRef .tc main_arg9) = (m ((c : Thread nD τ).loc main_arg9)) :=
  (keepP4 m ρ c main_arg9 (by decide)).trans (at8_arg9 m ρ c)

theorem at10_arg9 (c : Dev nD) : W10 m ρ c (Proc.devRef .tc main_arg9) = (m ((c : Thread nD τ).loc main_arg9)) :=
  (W10_of_ne m ρ c main_arg9 (by decide)).trans (at9_arg9 m ρ c)

theorem at11_arg9 (c : Dev nD) : W11 m ρ c (Proc.devRef .tc main_arg9) = (m ((c : Thread nD τ).loc main_arg9)) :=
  (keepP5 m ρ c main_arg9 (by decide)).trans (at10_arg9 m ρ c)

theorem at12_arg9 (c : Dev nD) : W12 m ρ c (Proc.devRef .tc main_arg9) = (m ((c : Thread nD τ).loc main_arg9)) :=
  (W12_of_ne m ρ c main_arg9 (by decide)).trans (at11_arg9 m ρ c)

theorem at11_v423 (c : Dev nD) : W11 m ρ c (Proc.devRef .tc main_v423) = (Cert.ReferenceIdeal.ReadP.val_main_v642 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (keepP5 m ρ c main_v423 (by decide)).trans (out4 m ρ c)

theorem at12_v423 (c : Dev nD) : W12 m ρ c (Proc.devRef .tc main_v423) = (Cert.ReferenceIdeal.ReadP.val_main_v642 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (W12_of_ne m ρ c main_v423 (by decide)).trans (at11_v423 m ρ c)

theorem at7_v35 (c : Dev nD) : W7 m ρ c (Proc.devRef .tc main_v35) = (Cert.ReferenceIdeal.ReadP.val_main_v143 (F := Ideal) (m ((c : Thread nD τ).loc main_arg9))) :=
  (keepP3 m ρ c main_v35 (by decide)).trans (at6_v35 m ρ c)

theorem at8_v35 (c : Dev nD) : W8 m ρ c (Proc.devRef .tc main_v35) = (Cert.ReferenceIdeal.ReadP.val_main_v143 (F := Ideal) (m ((c : Thread nD τ).loc main_arg9))) :=
  (W8_of_ne m ρ c main_v35 (by decide)).trans (at7_v35 m ρ c)

theorem at9_v35 (c : Dev nD) : W9 m ρ c (Proc.devRef .tc main_v35) = (Cert.ReferenceIdeal.ReadP.val_main_v143 (F := Ideal) (m ((c : Thread nD τ).loc main_arg9))) :=
  (keepP4 m ρ c main_v35 (by decide)).trans (at8_v35 m ρ c)

theorem at10_v35 (c : Dev nD) : W10 m ρ c (Proc.devRef .tc main_v35) = (Cert.ReferenceIdeal.ReadP.val_main_v143 (F := Ideal) (m ((c : Thread nD τ).loc main_arg9))) :=
  (W10_of_ne m ρ c main_v35 (by decide)).trans (at9_v35 m ρ c)

theorem at11_v35 (c : Dev nD) : W11 m ρ c (Proc.devRef .tc main_v35) = (Cert.ReferenceIdeal.ReadP.val_main_v143 (F := Ideal) (m ((c : Thread nD τ).loc main_arg9))) :=
  (keepP5 m ρ c main_v35 (by decide)).trans (at10_v35 m ρ c)

theorem at12_v35 (c : Dev nD) : W12 m ρ c (Proc.devRef .tc main_v35) = (Cert.ReferenceIdeal.ReadP.val_main_v143 (F := Ideal) (m ((c : Thread nD τ).loc main_arg9))) :=
  (W12_of_ne m ρ c main_v35 (by decide)).trans (at11_v35 m ρ c)

theorem at7_arg11 (c : Dev nD) : W7 m ρ c (Proc.devRef .tc main_arg11) = (m ((c : Thread nD τ).loc main_arg11)) :=
  (keepP3 m ρ c main_arg11 (by decide)).trans (at6_arg11 m ρ c)

theorem at8_arg11 (c : Dev nD) : W8 m ρ c (Proc.devRef .tc main_arg11) = (m ((c : Thread nD τ).loc main_arg11)) :=
  (W8_of_ne m ρ c main_arg11 (by decide)).trans (at7_arg11 m ρ c)

theorem at9_arg11 (c : Dev nD) : W9 m ρ c (Proc.devRef .tc main_arg11) = (m ((c : Thread nD τ).loc main_arg11)) :=
  (keepP4 m ρ c main_arg11 (by decide)).trans (at8_arg11 m ρ c)

theorem at10_arg11 (c : Dev nD) : W10 m ρ c (Proc.devRef .tc main_arg11) = (m ((c : Thread nD τ).loc main_arg11)) :=
  (W10_of_ne m ρ c main_arg11 (by decide)).trans (at9_arg11 m ρ c)

theorem at11_arg11 (c : Dev nD) : W11 m ρ c (Proc.devRef .tc main_arg11) = (m ((c : Thread nD τ).loc main_arg11)) :=
  (keepP5 m ρ c main_arg11 (by decide)).trans (at10_arg11 m ρ c)

theorem at12_arg11 (c : Dev nD) : W12 m ρ c (Proc.devRef .tc main_arg11) = (m ((c : Thread nD τ).loc main_arg11)) :=
  (W12_of_ne m ρ c main_arg11 (by decide)).trans (at11_arg11 m ρ c)

theorem at7_v53 (c : Dev nD) : W7 m ρ c (Proc.devRef .tc main_v53) = (Cert.ReferenceIdeal.ReadP.val_main_v217 (F := Ideal) (m ((c : Thread nD τ).loc main_arg11))) :=
  (keepP3 m ρ c main_v53 (by decide)).trans (at6_v53 m ρ c)

theorem at8_v53 (c : Dev nD) : W8 m ρ c (Proc.devRef .tc main_v53) = (Cert.ReferenceIdeal.ReadP.val_main_v217 (F := Ideal) (m ((c : Thread nD τ).loc main_arg11))) :=
  (W8_of_ne m ρ c main_v53 (by decide)).trans (at7_v53 m ρ c)

theorem at9_v53 (c : Dev nD) : W9 m ρ c (Proc.devRef .tc main_v53) = (Cert.ReferenceIdeal.ReadP.val_main_v217 (F := Ideal) (m ((c : Thread nD τ).loc main_arg11))) :=
  (keepP4 m ρ c main_v53 (by decide)).trans (at8_v53 m ρ c)

theorem at10_v53 (c : Dev nD) : W10 m ρ c (Proc.devRef .tc main_v53) = (Cert.ReferenceIdeal.ReadP.val_main_v217 (F := Ideal) (m ((c : Thread nD τ).loc main_arg11))) :=
  (W10_of_ne m ρ c main_v53 (by decide)).trans (at9_v53 m ρ c)

theorem at11_v53 (c : Dev nD) : W11 m ρ c (Proc.devRef .tc main_v53) = (Cert.ReferenceIdeal.ReadP.val_main_v217 (F := Ideal) (m ((c : Thread nD τ).loc main_arg11))) :=
  (keepP5 m ρ c main_v53 (by decide)).trans (at10_v53 m ρ c)

theorem at12_v53 (c : Dev nD) : W12 m ρ c (Proc.devRef .tc main_v53) = (Cert.ReferenceIdeal.ReadP.val_main_v217 (F := Ideal) (m ((c : Thread nD τ).loc main_arg11))) :=
  (W12_of_ne m ρ c main_v53 (by decide)).trans (at11_v53 m ρ c)

theorem at7_arg12 (c : Dev nD) : W7 m ρ c (Proc.devRef .tc main_arg12) = (m ((c : Thread nD τ).loc main_arg12)) :=
  (keepP3 m ρ c main_arg12 (by decide)).trans (at6_arg12 m ρ c)

theorem at8_arg12 (c : Dev nD) : W8 m ρ c (Proc.devRef .tc main_arg12) = (m ((c : Thread nD τ).loc main_arg12)) :=
  (W8_of_ne m ρ c main_arg12 (by decide)).trans (at7_arg12 m ρ c)

theorem at9_arg12 (c : Dev nD) : W9 m ρ c (Proc.devRef .tc main_arg12) = (m ((c : Thread nD τ).loc main_arg12)) :=
  (keepP4 m ρ c main_arg12 (by decide)).trans (at8_arg12 m ρ c)

theorem at10_arg12 (c : Dev nD) : W10 m ρ c (Proc.devRef .tc main_arg12) = (m ((c : Thread nD τ).loc main_arg12)) :=
  (W10_of_ne m ρ c main_arg12 (by decide)).trans (at9_arg12 m ρ c)

theorem at11_arg12 (c : Dev nD) : W11 m ρ c (Proc.devRef .tc main_arg12) = (m ((c : Thread nD τ).loc main_arg12)) :=
  (keepP5 m ρ c main_arg12 (by decide)).trans (at10_arg12 m ρ c)

theorem at12_arg12 (c : Dev nD) : W12 m ρ c (Proc.devRef .tc main_arg12) = (m ((c : Thread nD τ).loc main_arg12)) :=
  (W12_of_ne m ρ c main_arg12 (by decide)).trans (at11_arg12 m ρ c)

theorem at7_v62 (c : Dev nD) : W7 m ρ c (Proc.devRef .tc main_v62) = (Cert.ReferenceIdeal.ReadP.val_main_v254 (F := Ideal) (m ((c : Thread nD τ).loc main_arg12))) :=
  (keepP3 m ρ c main_v62 (by decide)).trans (at6_v62 m ρ c)

theorem at8_v62 (c : Dev nD) : W8 m ρ c (Proc.devRef .tc main_v62) = (Cert.ReferenceIdeal.ReadP.val_main_v254 (F := Ideal) (m ((c : Thread nD τ).loc main_arg12))) :=
  (W8_of_ne m ρ c main_v62 (by decide)).trans (at7_v62 m ρ c)

theorem at9_v62 (c : Dev nD) : W9 m ρ c (Proc.devRef .tc main_v62) = (Cert.ReferenceIdeal.ReadP.val_main_v254 (F := Ideal) (m ((c : Thread nD τ).loc main_arg12))) :=
  (keepP4 m ρ c main_v62 (by decide)).trans (at8_v62 m ρ c)

theorem at10_v62 (c : Dev nD) : W10 m ρ c (Proc.devRef .tc main_v62) = (Cert.ReferenceIdeal.ReadP.val_main_v254 (F := Ideal) (m ((c : Thread nD τ).loc main_arg12))) :=
  (W10_of_ne m ρ c main_v62 (by decide)).trans (at9_v62 m ρ c)

theorem at11_v62 (c : Dev nD) : W11 m ρ c (Proc.devRef .tc main_v62) = (Cert.ReferenceIdeal.ReadP.val_main_v254 (F := Ideal) (m ((c : Thread nD τ).loc main_arg12))) :=
  (keepP5 m ρ c main_v62 (by decide)).trans (at10_v62 m ρ c)

theorem at12_v62 (c : Dev nD) : W12 m ρ c (Proc.devRef .tc main_v62) = (Cert.ReferenceIdeal.ReadP.val_main_v254 (F := Ideal) (m ((c : Thread nD τ).loc main_arg12))) :=
  (W12_of_ne m ρ c main_v62 (by decide)).trans (at11_v62 m ρ c)

theorem at11_arg3 (c : Dev nD) : W11 m ρ c (Proc.devRef .tc main_arg3) = (m ((c : Thread nD τ).loc main_arg3)) :=
  (keepP5 m ρ c main_arg3 (by decide)).trans (at10_arg3 m ρ c)

theorem at12_arg3 (c : Dev nD) : W12 m ρ c (Proc.devRef .tc main_arg3) = (m ((c : Thread nD τ).loc main_arg3)) :=
  (W12_of_ne m ρ c main_arg3 (by decide)).trans (at11_arg3 m ρ c)

theorem at11_arg4 (c : Dev nD) : W11 m ρ c (Proc.devRef .tc main_arg4) = (m ((c : Thread nD τ).loc main_arg4)) :=
  (keepP5 m ρ c main_arg4 (by decide)).trans (at10_arg4 m ρ c)

theorem at12_arg4 (c : Dev nD) : W12 m ρ c (Proc.devRef .tc main_arg4) = (m ((c : Thread nD τ).loc main_arg4)) :=
  (W12_of_ne m ρ c main_arg4 (by decide)).trans (at11_arg4 m ρ c)

theorem at11_arg5 (c : Dev nD) : W11 m ρ c (Proc.devRef .tc main_arg5) = (m ((c : Thread nD τ).loc main_arg5)) :=
  (keepP5 m ρ c main_arg5 (by decide)).trans (at10_arg5 m ρ c)

theorem at12_arg5 (c : Dev nD) : W12 m ρ c (Proc.devRef .tc main_arg5) = (m ((c : Thread nD τ).loc main_arg5)) :=
  (W12_of_ne m ρ c main_arg5 (by decide)).trans (at11_arg5 m ρ c)

theorem at7_arg6 (c : Dev nD) : W7 m ρ c (Proc.devRef .tc main_arg6) = (m ((c : Thread nD τ).loc main_arg6)) :=
  (keepP3 m ρ c main_arg6 (by decide)).trans (at6_arg6 m ρ c)

theorem at8_arg6 (c : Dev nD) : W8 m ρ c (Proc.devRef .tc main_arg6) = (m ((c : Thread nD τ).loc main_arg6)) :=
  (W8_of_ne m ρ c main_arg6 (by decide)).trans (at7_arg6 m ρ c)

theorem at9_arg6 (c : Dev nD) : W9 m ρ c (Proc.devRef .tc main_arg6) = (m ((c : Thread nD τ).loc main_arg6)) :=
  (keepP4 m ρ c main_arg6 (by decide)).trans (at8_arg6 m ρ c)

theorem at10_arg6 (c : Dev nD) : W10 m ρ c (Proc.devRef .tc main_arg6) = (m ((c : Thread nD τ).loc main_arg6)) :=
  (W10_of_ne m ρ c main_arg6 (by decide)).trans (at9_arg6 m ρ c)

theorem at11_arg6 (c : Dev nD) : W11 m ρ c (Proc.devRef .tc main_arg6) = (m ((c : Thread nD τ).loc main_arg6)) :=
  (keepP5 m ρ c main_arg6 (by decide)).trans (at10_arg6 m ρ c)

theorem at12_arg6 (c : Dev nD) : W12 m ρ c (Proc.devRef .tc main_arg6) = (m ((c : Thread nD τ).loc main_arg6)) :=
  (W12_of_ne m ρ c main_arg6 (by decide)).trans (at11_arg6 m ρ c)

theorem at7_v8 (c : Dev nD) : W7 m ρ c (Proc.devRef .tc main_v8) = (Cert.ReferenceIdeal.ReadP.val_main_v32 (F := Ideal) (m ((c : Thread nD τ).loc main_arg6))) :=
  (keepP3 m ρ c main_v8 (by decide)).trans (at6_v8 m ρ c)

theorem at8_v8 (c : Dev nD) : W8 m ρ c (Proc.devRef .tc main_v8) = (Cert.ReferenceIdeal.ReadP.val_main_v32 (F := Ideal) (m ((c : Thread nD τ).loc main_arg6))) :=
  (W8_of_ne m ρ c main_v8 (by decide)).trans (at7_v8 m ρ c)

theorem at9_v8 (c : Dev nD) : W9 m ρ c (Proc.devRef .tc main_v8) = (Cert.ReferenceIdeal.ReadP.val_main_v32 (F := Ideal) (m ((c : Thread nD τ).loc main_arg6))) :=
  (keepP4 m ρ c main_v8 (by decide)).trans (at8_v8 m ρ c)

theorem at10_v8 (c : Dev nD) : W10 m ρ c (Proc.devRef .tc main_v8) = (Cert.ReferenceIdeal.ReadP.val_main_v32 (F := Ideal) (m ((c : Thread nD τ).loc main_arg6))) :=
  (W10_of_ne m ρ c main_v8 (by decide)).trans (at9_v8 m ρ c)

theorem at11_v8 (c : Dev nD) : W11 m ρ c (Proc.devRef .tc main_v8) = (Cert.ReferenceIdeal.ReadP.val_main_v32 (F := Ideal) (m ((c : Thread nD τ).loc main_arg6))) :=
  (keepP5 m ρ c main_v8 (by decide)).trans (at10_v8 m ρ c)

theorem at12_v8 (c : Dev nD) : W12 m ρ c (Proc.devRef .tc main_v8) = (Cert.ReferenceIdeal.ReadP.val_main_v32 (F := Ideal) (m ((c : Thread nD τ).loc main_arg6))) :=
  (W12_of_ne m ρ c main_v8 (by decide)).trans (at11_v8 m ρ c)

theorem at7_arg10 (c : Dev nD) : W7 m ρ c (Proc.devRef .tc main_arg10) = (m ((c : Thread nD τ).loc main_arg10)) :=
  (keepP3 m ρ c main_arg10 (by decide)).trans (at6_arg10 m ρ c)

theorem at8_arg10 (c : Dev nD) : W8 m ρ c (Proc.devRef .tc main_arg10) = (m ((c : Thread nD τ).loc main_arg10)) :=
  (W8_of_ne m ρ c main_arg10 (by decide)).trans (at7_arg10 m ρ c)

theorem at9_arg10 (c : Dev nD) : W9 m ρ c (Proc.devRef .tc main_arg10) = (m ((c : Thread nD τ).loc main_arg10)) :=
  (keepP4 m ρ c main_arg10 (by decide)).trans (at8_arg10 m ρ c)

theorem at10_arg10 (c : Dev nD) : W10 m ρ c (Proc.devRef .tc main_arg10) = (m ((c : Thread nD τ).loc main_arg10)) :=
  (W10_of_ne m ρ c main_arg10 (by decide)).trans (at9_arg10 m ρ c)

theorem at11_arg10 (c : Dev nD) : W11 m ρ c (Proc.devRef .tc main_arg10) = (m ((c : Thread nD τ).loc main_arg10)) :=
  (keepP5 m ρ c main_arg10 (by decide)).trans (at10_arg10 m ρ c)

theorem at12_arg10 (c : Dev nD) : W12 m ρ c (Proc.devRef .tc main_arg10) = (m ((c : Thread nD τ).loc main_arg10)) :=
  (W12_of_ne m ρ c main_arg10 (by decide)).trans (at11_arg10 m ρ c)

theorem at7_v44 (c : Dev nD) : W7 m ρ c (Proc.devRef .tc main_v44) = (Cert.ReferenceIdeal.ReadP.val_main_v180 (F := Ideal) (m ((c : Thread nD τ).loc main_arg10))) :=
  (keepP3 m ρ c main_v44 (by decide)).trans (at6_v44 m ρ c)

theorem at8_v44 (c : Dev nD) : W8 m ρ c (Proc.devRef .tc main_v44) = (Cert.ReferenceIdeal.ReadP.val_main_v180 (F := Ideal) (m ((c : Thread nD τ).loc main_arg10))) :=
  (W8_of_ne m ρ c main_v44 (by decide)).trans (at7_v44 m ρ c)

theorem at9_v44 (c : Dev nD) : W9 m ρ c (Proc.devRef .tc main_v44) = (Cert.ReferenceIdeal.ReadP.val_main_v180 (F := Ideal) (m ((c : Thread nD τ).loc main_arg10))) :=
  (keepP4 m ρ c main_v44 (by decide)).trans (at8_v44 m ρ c)

theorem at10_v44 (c : Dev nD) : W10 m ρ c (Proc.devRef .tc main_v44) = (Cert.ReferenceIdeal.ReadP.val_main_v180 (F := Ideal) (m ((c : Thread nD τ).loc main_arg10))) :=
  (W10_of_ne m ρ c main_v44 (by decide)).trans (at9_v44 m ρ c)

theorem at11_v44 (c : Dev nD) : W11 m ρ c (Proc.devRef .tc main_v44) = (Cert.ReferenceIdeal.ReadP.val_main_v180 (F := Ideal) (m ((c : Thread nD τ).loc main_arg10))) :=
  (keepP5 m ρ c main_v44 (by decide)).trans (at10_v44 m ρ c)

theorem at12_v44 (c : Dev nD) : W12 m ρ c (Proc.devRef .tc main_v44) = (Cert.ReferenceIdeal.ReadP.val_main_v180 (F := Ideal) (m ((c : Thread nD τ).loc main_arg10))) :=
  (W12_of_ne m ρ c main_v44 (by decide)).trans (at11_v44 m ρ c)

theorem at7_arg7 (c : Dev nD) : W7 m ρ c (Proc.devRef .tc main_arg7) = (m ((c : Thread nD τ).loc main_arg7)) :=
  (keepP3 m ρ c main_arg7 (by decide)).trans (at6_arg7 m ρ c)

theorem at8_arg7 (c : Dev nD) : W8 m ρ c (Proc.devRef .tc main_arg7) = (m ((c : Thread nD τ).loc main_arg7)) :=
  (W8_of_ne m ρ c main_arg7 (by decide)).trans (at7_arg7 m ρ c)

theorem at9_arg7 (c : Dev nD) : W9 m ρ c (Proc.devRef .tc main_arg7) = (m ((c : Thread nD τ).loc main_arg7)) :=
  (keepP4 m ρ c main_arg7 (by decide)).trans (at8_arg7 m ρ c)

theorem at10_arg7 (c : Dev nD) : W10 m ρ c (Proc.devRef .tc main_arg7) = (m ((c : Thread nD τ).loc main_arg7)) :=
  (W10_of_ne m ρ c main_arg7 (by decide)).trans (at9_arg7 m ρ c)

theorem at11_arg7 (c : Dev nD) : W11 m ρ c (Proc.devRef .tc main_arg7) = (m ((c : Thread nD τ).loc main_arg7)) :=
  (keepP5 m ρ c main_arg7 (by decide)).trans (at10_arg7 m ρ c)

theorem at12_arg7 (c : Dev nD) : W12 m ρ c (Proc.devRef .tc main_arg7) = (m ((c : Thread nD τ).loc main_arg7)) :=
  (W12_of_ne m ρ c main_arg7 (by decide)).trans (at11_arg7 m ρ c)

theorem at7_v17 (c : Dev nD) : W7 m ρ c (Proc.devRef .tc main_v17) = (Cert.ReferenceIdeal.ReadP.val_main_v69 (F := Ideal) (m ((c : Thread nD τ).loc main_arg7))) :=
  (keepP3 m ρ c main_v17 (by decide)).trans (at6_v17 m ρ c)

theorem at8_v17 (c : Dev nD) : W8 m ρ c (Proc.devRef .tc main_v17) = (Cert.ReferenceIdeal.ReadP.val_main_v69 (F := Ideal) (m ((c : Thread nD τ).loc main_arg7))) :=
  (W8_of_ne m ρ c main_v17 (by decide)).trans (at7_v17 m ρ c)

theorem at9_v17 (c : Dev nD) : W9 m ρ c (Proc.devRef .tc main_v17) = (Cert.ReferenceIdeal.ReadP.val_main_v69 (F := Ideal) (m ((c : Thread nD τ).loc main_arg7))) :=
  (keepP4 m ρ c main_v17 (by decide)).trans (at8_v17 m ρ c)

theorem at10_v17 (c : Dev nD) : W10 m ρ c (Proc.devRef .tc main_v17) = (Cert.ReferenceIdeal.ReadP.val_main_v69 (F := Ideal) (m ((c : Thread nD τ).loc main_arg7))) :=
  (W10_of_ne m ρ c main_v17 (by decide)).trans (at9_v17 m ρ c)

theorem at11_v17 (c : Dev nD) : W11 m ρ c (Proc.devRef .tc main_v17) = (Cert.ReferenceIdeal.ReadP.val_main_v69 (F := Ideal) (m ((c : Thread nD τ).loc main_arg7))) :=
  (keepP5 m ρ c main_v17 (by decide)).trans (at10_v17 m ρ c)

theorem at12_v17 (c : Dev nD) : W12 m ρ c (Proc.devRef .tc main_v17) = (Cert.ReferenceIdeal.ReadP.val_main_v69 (F := Ideal) (m ((c : Thread nD τ).loc main_arg7))) :=
  (W12_of_ne m ρ c main_v17 (by decide)).trans (at11_v17 m ρ c)

theorem at7_arg8 (c : Dev nD) : W7 m ρ c (Proc.devRef .tc main_arg8) = (m ((c : Thread nD τ).loc main_arg8)) :=
  (keepP3 m ρ c main_arg8 (by decide)).trans (at6_arg8 m ρ c)

theorem at8_arg8 (c : Dev nD) : W8 m ρ c (Proc.devRef .tc main_arg8) = (m ((c : Thread nD τ).loc main_arg8)) :=
  (W8_of_ne m ρ c main_arg8 (by decide)).trans (at7_arg8 m ρ c)

theorem at9_arg8 (c : Dev nD) : W9 m ρ c (Proc.devRef .tc main_arg8) = (m ((c : Thread nD τ).loc main_arg8)) :=
  (keepP4 m ρ c main_arg8 (by decide)).trans (at8_arg8 m ρ c)

theorem at10_arg8 (c : Dev nD) : W10 m ρ c (Proc.devRef .tc main_arg8) = (m ((c : Thread nD τ).loc main_arg8)) :=
  (W10_of_ne m ρ c main_arg8 (by decide)).trans (at9_arg8 m ρ c)

theorem at11_arg8 (c : Dev nD) : W11 m ρ c (Proc.devRef .tc main_arg8) = (m ((c : Thread nD τ).loc main_arg8)) :=
  (keepP5 m ρ c main_arg8 (by decide)).trans (at10_arg8 m ρ c)

theorem at12_arg8 (c : Dev nD) : W12 m ρ c (Proc.devRef .tc main_arg8) = (m ((c : Thread nD τ).loc main_arg8)) :=
  (W12_of_ne m ρ c main_arg8 (by decide)).trans (at11_arg8 m ρ c)

theorem at7_v26 (c : Dev nD) : W7 m ρ c (Proc.devRef .tc main_v26) = (Cert.ReferenceIdeal.ReadP.val_main_v106 (F := Ideal) (m ((c : Thread nD τ).loc main_arg8))) :=
  (keepP3 m ρ c main_v26 (by decide)).trans (at6_v26 m ρ c)

theorem at8_v26 (c : Dev nD) : W8 m ρ c (Proc.devRef .tc main_v26) = (Cert.ReferenceIdeal.ReadP.val_main_v106 (F := Ideal) (m ((c : Thread nD τ).loc main_arg8))) :=
  (W8_of_ne m ρ c main_v26 (by decide)).trans (at7_v26 m ρ c)

theorem at9_v26 (c : Dev nD) : W9 m ρ c (Proc.devRef .tc main_v26) = (Cert.ReferenceIdeal.ReadP.val_main_v106 (F := Ideal) (m ((c : Thread nD τ).loc main_arg8))) :=
  (keepP4 m ρ c main_v26 (by decide)).trans (at8_v26 m ρ c)

theorem at10_v26 (c : Dev nD) : W10 m ρ c (Proc.devRef .tc main_v26) = (Cert.ReferenceIdeal.ReadP.val_main_v106 (F := Ideal) (m ((c : Thread nD τ).loc main_arg8))) :=
  (W10_of_ne m ρ c main_v26 (by decide)).trans (at9_v26 m ρ c)

theorem at11_v26 (c : Dev nD) : W11 m ρ c (Proc.devRef .tc main_v26) = (Cert.ReferenceIdeal.ReadP.val_main_v106 (F := Ideal) (m ((c : Thread nD τ).loc main_arg8))) :=
  (keepP5 m ρ c main_v26 (by decide)).trans (at10_v26 m ρ c)

theorem at12_v26 (c : Dev nD) : W12 m ρ c (Proc.devRef .tc main_v26) = (Cert.ReferenceIdeal.ReadP.val_main_v106 (F := Ideal) (m ((c : Thread nD τ).loc main_arg8))) :=
  (W12_of_ne m ρ c main_v26 (by decide)).trans (at11_v26 m ρ c)

theorem at7_arg13 (c : Dev nD) : W7 m ρ c (Proc.devRef .tc main_arg13) = (m ((c : Thread nD τ).loc main_arg13)) :=
  (keepP3 m ρ c main_arg13 (by decide)).trans (at6_arg13 m ρ c)

theorem at8_arg13 (c : Dev nD) : W8 m ρ c (Proc.devRef .tc main_arg13) = (m ((c : Thread nD τ).loc main_arg13)) :=
  (W8_of_ne m ρ c main_arg13 (by decide)).trans (at7_arg13 m ρ c)

theorem at9_arg13 (c : Dev nD) : W9 m ρ c (Proc.devRef .tc main_arg13) = (m ((c : Thread nD τ).loc main_arg13)) :=
  (keepP4 m ρ c main_arg13 (by decide)).trans (at8_arg13 m ρ c)

theorem at10_arg13 (c : Dev nD) : W10 m ρ c (Proc.devRef .tc main_arg13) = (m ((c : Thread nD τ).loc main_arg13)) :=
  (W10_of_ne m ρ c main_arg13 (by decide)).trans (at9_arg13 m ρ c)

theorem at11_arg13 (c : Dev nD) : W11 m ρ c (Proc.devRef .tc main_arg13) = (m ((c : Thread nD τ).loc main_arg13)) :=
  (keepP5 m ρ c main_arg13 (by decide)).trans (at10_arg13 m ρ c)

theorem at12_arg13 (c : Dev nD) : W12 m ρ c (Proc.devRef .tc main_arg13) = (m ((c : Thread nD τ).loc main_arg13)) :=
  (W12_of_ne m ρ c main_arg13 (by decide)).trans (at11_arg13 m ρ c)

theorem at7_v71 (c : Dev nD) : W7 m ρ c (Proc.devRef .tc main_v71) = (Cert.ReferenceIdeal.ReadP.val_main_v291 (F := Ideal) (m ((c : Thread nD τ).loc main_arg13))) :=
  (keepP3 m ρ c main_v71 (by decide)).trans (at6_v71 m ρ c)

theorem at8_v71 (c : Dev nD) : W8 m ρ c (Proc.devRef .tc main_v71) = (Cert.ReferenceIdeal.ReadP.val_main_v291 (F := Ideal) (m ((c : Thread nD τ).loc main_arg13))) :=
  (W8_of_ne m ρ c main_v71 (by decide)).trans (at7_v71 m ρ c)

theorem at9_v71 (c : Dev nD) : W9 m ρ c (Proc.devRef .tc main_v71) = (Cert.ReferenceIdeal.ReadP.val_main_v291 (F := Ideal) (m ((c : Thread nD τ).loc main_arg13))) :=
  (keepP4 m ρ c main_v71 (by decide)).trans (at8_v71 m ρ c)

theorem at10_v71 (c : Dev nD) : W10 m ρ c (Proc.devRef .tc main_v71) = (Cert.ReferenceIdeal.ReadP.val_main_v291 (F := Ideal) (m ((c : Thread nD τ).loc main_arg13))) :=
  (W10_of_ne m ρ c main_v71 (by decide)).trans (at9_v71 m ρ c)

theorem at11_v71 (c : Dev nD) : W11 m ρ c (Proc.devRef .tc main_v71) = (Cert.ReferenceIdeal.ReadP.val_main_v291 (F := Ideal) (m ((c : Thread nD τ).loc main_arg13))) :=
  (keepP5 m ρ c main_v71 (by decide)).trans (at10_v71 m ρ c)

theorem at12_v71 (c : Dev nD) : W12 m ρ c (Proc.devRef .tc main_v71) = (Cert.ReferenceIdeal.ReadP.val_main_v291 (F := Ideal) (m ((c : Thread nD τ).loc main_arg13))) :=
  (W12_of_ne m ρ c main_v71 (by decide)).trans (at11_v71 m ρ c)

end Cert.KernelIdeal.Chain

end
-- ==== Proof.Region6.lean ====
/-
  Kernel region 6 of the idealized kernel: the update of the first node type in layer 2, read as one
  function of the arrays the region finds.

  The grid has 25 points; point `t` stages rows `2000·t … 2000·t + 1999` of the node features and of each aggregate,
  and the whole weight and bias arrays.  The body computes, on those row blocks, each relation's message (aggregate times
  transposed weight, bias row, features times a second transposed weight), adds the 3 messages to zero, multiplies by
  the named constant 1/3 and divides each row by the larger of its Euclidean norm and 1e-12.  An entry of that result depends on one row of the row-blocked operands only,
  so the block a point writes back is the block of the same function of the whole arrays, and the 25 blocks tile the
  50000 rows.
-/
import proofs.«116292_j712964571450_1_alg».proof.Proof.FrameKernelIdealP
import proofs.«116292_j712964571450_1_alg».proof.Proof.LibHeteroMean

set_option maxRecDepth 16384

noncomputable section

namespace Cert.KernelIdeal.Reg6

open Cert.KernelIdeal Cert.KernelIdeal.Gen Cert.KernelIdeal.GenP Idealize.ShloMosaic Idealize.ShloMosaic.TcCoe Idealize.ShloMosaic.ValueIdx
open Idealize.SL.Sem
open Idealize.ShloMosaic.Pipeline (Dat)
open Cert.Dense Cert.HeteroMean

variable (V : (c : Dev nD) → (b : Ref sig .tc) → Buf (Elt Ideal) ((c : Thread nD τ).loc b))

theorem hz : (![0, 0] : Fin 2 → Nat) = fun _ => 0 := funext fun a => by fin_cases a <;> rfl

/-- The named constant denotes one third. -/
theorem inv3 : Named.named (F := Ideal) κ "inv_3" (φ := .f32) 0x3EAAAAAB#32 = (((1 / 3 : ℝ)) : EReal) :=
  IdealRules.named_const.ideal_named_scalar _ _ _ _ rfl

/-- The body's stored value, as the update of its loaded blocks. -/
theorem pay (x0 : Vec Ideal S2000x128 .f32) (x1 : Vec Ideal S2000x128 .f32) (x2 : Vec Ideal S2000x128 .f32) (x3 : Vec Ideal S2000x128 .f32) (x4 : Vec Ideal S128x128 .f32) (x5 : Vec Ideal S128x128 .f32) (x6 : Vec Ideal S128x128 .f32) (x7 : Vec Ideal S1x128 .f32) (x8 : Vec Ideal S1x128 .f32) (x9 : Vec Ideal S1x128 .f32) (x10 : Vec Ideal S128x128 .f32) (x11 : Vec Ideal S128x128 .f32) (x12 : Vec Ideal S128x128 .f32) :
    k6_pay1 (k6_pay2 x0) (k6_pay3 x0 x1 x4 x10 x7 x2 x5 x11 x8) x3 x6 x12 x9
      = l2 (Ideal.ofBits .f32 0x2B8CBCCC#32) (upd3 (((1 / 3 : ℝ)) : EReal) x0 x1 x2 x3 x4 x5 x6 x7 x8 x9 x10 x11 x12) := by
  have e1 := vecPart dot_S2000x128_S128x128_S2000x128_1_0_0_1_n_n rfl rfl rfl rfl rfl rfl dot_S2000x128_S128x128_S2000x128_1_0_0_1_n_n rfl rfl rfl rfl rfl rfl none none x1 x4 x7 x0 x10 transposes_S128x128_p1_0_S128x128 transposes_S128x128_p1_0_S128x128 broadcasts_S1x128_S2000x128
  have e2 := vecPart dot_S2000x128_S128x128_S2000x128_1_0_0_1_n_n rfl rfl rfl rfl rfl rfl dot_S2000x128_S128x128_S2000x128_1_0_0_1_n_n rfl rfl rfl rfl rfl rfl none none x2 x5 x8 x0 x11 transposes_S128x128_p1_0_S128x128 transposes_S128x128_p1_0_S128x128 broadcasts_S1x128_S2000x128
  have e3 := vecPart dot_S2000x128_S128x128_S2000x128_1_0_0_1_n_n rfl rfl rfl rfl rfl rfl dot_S2000x128_S128x128_S2000x128_1_0_0_1_n_n rfl rfl rfl rfl rfl rfl none none x3 x6 x9 x0 x12 transposes_S128x128_p1_0_S128x128 transposes_S128x128_p1_0_S128x128 broadcasts_S1x128_S2000x128
  unfold upd3
  rw [← vecL2 0x2B8CBCCC#32 _ reduces_S2000x128_S2000 (.inl rfl) rfl shapeCasts_S2000_S2000x1 broadcasts_S2000x1_S2000x128, ← inv3, ← vecMean3, ← e1, ← e2, ← e3]
  simp only [k6_pay1, k6_pay2, k6_pay3, shapeCast_self]

/-- The printed index maps, decided over the grid: the row-blocked windows move with the point, the others stay. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0
    ∧ win6_8.index t (0 : Fin 2) = 0 ∧ win6_8.index t (1 : Fin 2) = 0
    ∧ win6_9.index t (0 : Fin 2) = 0 ∧ win6_9.index t (1 : Fin 2) = 0
    ∧ win6_10.index t (0 : Fin 2) = 0 ∧ win6_10.index t (1 : Fin 2) = 0
    ∧ win6_11.index t (0 : Fin 2) = 0 ∧ win6_11.index t (1 : Fin 2) = 0
    ∧ win6_12.index t (0 : Fin 2) = 0 ∧ win6_12.index t (1 : Fin 2) = 0
    ∧ win6_13.index t (0 : Fin 2) = t.val ∧ win6_13.index t (1 : Fin 2) = 0 :=
  (by decide +kernel : ∀ t : Fin grid6.N, _)

/-- Row `p'` of window 0's block at point `t` is row `2000·t + p'` of its array. -/
theorem blk0 (c : Dev nD) (t : Fin cfg6.N) (p' : Fin 2000) (p : Fin 50000) (hp : p.val = t.val * 2000 + p'.val) (q : Fin 128) :
    iblk6 V c 0 t (ix2 p' q) = ((V c main_v408) : Mat 50000 128) (ix2 p q) := by
  show (V c main_v408) (((cfg6.win 0).blk t).view.emb (ix2 p' q)) = _
  refine congrArg (V c main_v408) (funext fun a => Fin.ext ?_)
  have hf := idx_facts t
  match a with
  | ⟨0, _⟩ => show win6_0.index t (0 : Fin 2) * 2000 + 1 * p'.val = p.val; omega
  | ⟨1, _⟩ => show win6_0.index t (1 : Fin 2) * 128 + 1 * q.val = q.val; omega

/-- Row `p'` of window 1's block at point `t` is row `2000·t + p'` of its array. -/
theorem blk1 (c : Dev nD) (t : Fin cfg6.N) (p' : Fin 2000) (p : Fin 50000) (hp : p.val = t.val * 2000 + p'.val) (q : Fin 128) :
    iblk6 V c 1 t (ix2 p' q) = ((V c main_v509) : Mat 50000 128) (ix2 p q) := by
  show (V c main_v509) (((cfg6.win 1).blk t).view.emb (ix2 p' q)) = _
  refine congrArg (V c main_v509) (funext fun a => Fin.ext ?_)
  have hf := idx_facts t
  match a with
  | ⟨0, _⟩ => show win6_1.index t (0 : Fin 2) * 2000 + 1 * p'.val = p.val; omega
  | ⟨1, _⟩ => show win6_1.index t (1 : Fin 2) * 128 + 1 * q.val = q.val; omega

/-- Row `p'` of window 2's block at point `t` is row `2000·t + p'` of its array. -/
theorem blk2 (c : Dev nD) (t : Fin cfg6.N) (p' : Fin 2000) (p : Fin 50000) (hp : p.val = t.val * 2000 + p'.val) (q : Fin 128) :
    iblk6 V c 2 t (ix2 p' q) = ((V c main_v541) : Mat 50000 128) (ix2 p q) := by
  show (V c main_v541) (((cfg6.win 2).blk t).view.emb (ix2 p' q)) = _
  refine congrArg (V c main_v541) (funext fun a => Fin.ext ?_)
  have hf := idx_facts t
  match a with
  | ⟨0, _⟩ => show win6_2.index t (0 : Fin 2) * 2000 + 1 * p'.val = p.val; omega
  | ⟨1, _⟩ => show win6_2.index t (1 : Fin 2) * 128 + 1 * q.val = q.val; omega

/-- Row `p'` of window 3's block at point `t` is row `2000·t + p'` of its array. -/
theorem blk3 (c : Dev nD) (t : Fin cfg6.N) (p' : Fin 2000) (p : Fin 50000) (hp : p.val = t.val * 2000 + p'.val) (q : Fin 128) :
    iblk6 V c 3 t (ix2 p' q) = ((V c main_v557) : Mat 50000 128) (ix2 p q) := by
  show (V c main_v557) (((cfg6.win 3).blk t).view.emb (ix2 p' q)) = _
  refine congrArg (V c main_v557) (funext fun a => Fin.ext ?_)
  have hf := idx_facts t
  match a with
  | ⟨0, _⟩ => show win6_3.index t (0 : Fin 2) * 2000 + 1 * p'.val = p.val; omega
  | ⟨1, _⟩ => show win6_3.index t (1 : Fin 2) * 128 + 1 * q.val = q.val; omega

/-- Window 4's block at every point is its whole array. -/
theorem blk4 (c : Dev nD) (t : Fin cfg6.N) : iblk6 V c 4 t = (V c main_v575) := by
  funext y
  show (V c main_v575) (((cfg6.win 4).blk t).view.emb y) = _
  refine congrArg (V c main_v575) (funext fun a => Fin.ext ?_)
  have hf := idx_facts t
  match a with
  | ⟨0, _⟩ => show win6_4.index t (0 : Fin 2) * 128 + 1 * (y 0).val = (y 0).val; omega
  | ⟨1, _⟩ => show win6_4.index t (1 : Fin 2) * 128 + 1 * (y 1).val = (y 1).val; omega

/-- Window 5's block at every point is its whole array. -/
theorem blk5 (c : Dev nD) (t : Fin cfg6.N) : iblk6 V c 5 t = (V c main_v577) := by
  funext y
  show (V c main_v577) (((cfg6.win 5).blk t).view.emb y) = _
  refine congrArg (V c main_v577) (funext fun a => Fin.ext ?_)
  have hf := idx_facts t
  match a with
  | ⟨0, _⟩ => show win6_5.index t (0 : Fin 2) * 128 + 1 * (y 0).val = (y 0).val; omega
  | ⟨1, _⟩ => show win6_5.index t (1 : Fin 2) * 128 + 1 * (y 1).val = (y 1).val; omega

/-- Window 6's block at every point is its whole array. -/
theorem blk6 (c : Dev nD) (t : Fin cfg6.N) : iblk6 V c 6 t = (V c main_v579) := by
  funext y
  show (V c main_v579) (((cfg6.win 6).blk t).view.emb y) = _
  refine congrArg (V c main_v579) (funext fun a => Fin.ext ?_)
  have hf := idx_facts t
  match a with
  | ⟨0, _⟩ => show win6_6.index t (0 : Fin 2) * 128 + 1 * (y 0).val = (y 0).val; omega
  | ⟨1, _⟩ => show win6_6.index t (1 : Fin 2) * 128 + 1 * (y 1).val = (y 1).val; omega

/-- Window 7's block at every point is its whole array. -/
theorem blk7 (c : Dev nD) (t : Fin cfg6.N) : iblk6 V c 7 t = (V c main_v582) := by
  funext y
  show (V c main_v582) (((cfg6.win 7).blk t).view.emb y) = _
  refine congrArg (V c main_v582) (funext fun a => Fin.ext ?_)
  have hf := idx_facts t
  match a with
  | ⟨0, _⟩ => show win6_7.index t (0 : Fin 2) * 1 + 1 * (y 0).val = (y 0).val; omega
  | ⟨1, _⟩ => show win6_7.index t (1 : Fin 2) * 128 + 1 * (y 1).val = (y 1).val; omega

/-- Window 8's block at every point is its whole array. -/
theorem blk8 (c : Dev nD) (t : Fin cfg6.N) : iblk6 V c 8 t = (V c main_v585) := by
  funext y
  show (V c main_v585) (((cfg6.win 8).blk t).view.emb y) = _
  refine congrArg (V c main_v585) (funext fun a => Fin.ext ?_)
  have hf := idx_facts t
  match a with
  | ⟨0, _⟩ => show win6_8.index t (0 : Fin 2) * 1 + 1 * (y 0).val = (y 0).val; omega
  | ⟨1, _⟩ => show win6_8.index t (1 : Fin 2) * 128 + 1 * (y 1).val = (y 1).val; omega

/-- Window 9's block at every point is its whole array. -/
theorem blk9 (c : Dev nD) (t : Fin cfg6.N) : iblk6 V c 9 t = (V c main_v588) := by
  funext y
  show (V c main_v588) (((cfg6.win 9).blk t).view.emb y) = _
  refine congrArg (V c main_v588) (funext fun a => Fin.ext ?_)
  have hf := idx_facts t
  match a with
  | ⟨0, _⟩ => show win6_9.index t (0 : Fin 2) * 1 + 1 * (y 0).val = (y 0).val; omega
  | ⟨1, _⟩ => show win6_9.index t (1 : Fin 2) * 128 + 1 * (y 1).val = (y 1).val; omega

/-- Window 10's block at every point is its whole array. -/
theorem blk10 (c : Dev nD) (t : Fin cfg6.N) : iblk6 V c 10 t = (V c main_v590) := by
  funext y
  show (V c main_v590) (((cfg6.win 10).blk t).view.emb y) = _
  refine congrArg (V c main_v590) (funext fun a => Fin.ext ?_)
  have hf := idx_facts t
  match a with
  | ⟨0, _⟩ => show win6_10.index t (0 : Fin 2) * 128 + 1 * (y 0).val = (y 0).val; omega
  | ⟨1, _⟩ => show win6_10.index t (1 : Fin 2) * 128 + 1 * (y 1).val = (y 1).val; omega

/-- Window 11's block at every point is its whole array. -/
theorem blk11 (c : Dev nD) (t : Fin cfg6.N) : iblk6 V c 11 t = (V c main_v592) := by
  funext y
  show (V c main_v592) (((cfg6.win 11).blk t).view.emb y) = _
  refine congrArg (V c main_v592) (funext fun a => Fin.ext ?_)
  have hf := idx_facts t
  match a with
  | ⟨0, _⟩ => show win6_11.index t (0 : Fin 2) * 128 + 1 * (y 0).val = (y 0).val; omega
  | ⟨1, _⟩ => show win6_11.index t (1 : Fin 2) * 128 + 1 * (y 1).val = (y 1).val; omega

/-- Window 12's block at every point is its whole array. -/
theorem blk12 (c : Dev nD) (t : Fin cfg6.N) : iblk6 V c 12 t = (V c main_v594) := by
  funext y
  show (V c main_v594) (((cfg6.win 12).blk t).view.emb y) = _
  refine congrArg (V c main_v594) (funext fun a => Fin.ext ?_)
  have hf := idx_facts t
  match a with
  | ⟨0, _⟩ => show win6_12.index t (0 : Fin 2) * 128 + 1 * (y 0).val = (y 0).val; omega
  | ⟨1, _⟩ => show win6_12.index t (1 : Fin 2) * 128 + 1 * (y 1).val = (y 1).val; omega

/-- What point `t` writes back is block `t` of the update of the whole arrays. -/
theorem flushed_eq (c : Dev nD) (t : Fin cfg6.N) :
    (dat6 V c).flushed 13 t = ((cfg6.win 13).blk t).view.read (Elt Ideal)
      (l2 (Ideal.ofBits .f32 0x2B8CBCCC#32) (upd3 (((1 / 3 : ℝ)) : EReal) ((V c main_v408) : Mat 50000 128) ((V c main_v509) : Mat 50000 128) ((V c main_v541) : Mat 50000 128) ((V c main_v557) : Mat 50000 128) (V c main_v575) (V c main_v577) (V c main_v579) (V c main_v582) (V c main_v585) (V c main_v588) (V c main_v590) (V c main_v592) (V c main_v594))) := by
  show (cfg6.win 13).cut (grid6.coords t) ((dat6 V c).after 13 t) = _
  rw [after6_13]
  unfold out6_13
  rw [View.canon_unit_zero hz]
  simp only [View.ld_unit_zero (S := S2000x128) hz, View.ld_unit_zero (S := S128x128) hz, View.ld_unit_zero (S := S1x128) hz]
  rw [pay, blk4 V c t, blk5 V c t, blk6 V c t, blk7 V c t, blk8 V c t, blk9 V c t, blk10 V c t, blk11 V c t, blk12 V c t]
  funext j
  obtain ⟨p', q, rfl⟩ : ∃ (p' : Fin 2000) (q : Fin 128), j = ix2 p' q := ⟨j 0, j 1, eq_ix2 j⟩
  have ht : t.val < 25 := by have h := t.isLt; have hN : cfg6.N = 25 := N_6; omega
  have hp'' : t.val * 2000 + p'.val < 50000 := by have := p'.isLt; omega
  have hemb : ((cfg6.win 13).blk t).view.emb (ix2 p' q) = ix2 (⟨t.val * 2000 + p'.val, hp''⟩ : Fin 50000) q := by
    funext a; apply Fin.ext
    have hf := idx_facts t
    match a with
    | ⟨0, _⟩ => show win6_13.index t (0 : Fin 2) * 2000 + 1 * p'.val = t.val * 2000 + p'.val; omega
    | ⟨1, _⟩ => show win6_13.index t (1 : Fin 2) * 128 + 1 * q.val = q.val; omega
  show _ = (l2 (Ideal.ofBits .f32 0x2B8CBCCC#32) (upd3 (((1 / 3 : ℝ)) : EReal) ((V c main_v408) : Mat 50000 128) ((V c main_v509) : Mat 50000 128) ((V c main_v541) : Mat 50000 128) ((V c main_v557) : Mat 50000 128) (V c main_v575) (V c main_v577) (V c main_v579) (V c main_v582) (V c main_v585) (V c main_v588) (V c main_v590) (V c main_v592) (V c main_v594))) (((cfg6.win 13).blk t).view.emb (ix2 p' q))
  rw [hemb]
  exact l2_rows _ _ _ (⟨t.val * 2000 + p'.val, hp''⟩ : Fin 50000) p' (fun q' => upd3_rows _ _ _ _ _ _ _ _ _ _ _ _ _ _ _ _ _ _ (⟨t.val * 2000 + p'.val, hp''⟩ : Fin 50000) p'
      (fun k => blk0 V c t p' (⟨t.val * 2000 + p'.val, hp''⟩ : Fin 50000) rfl k) (fun k => blk1 V c t p' (⟨t.val * 2000 + p'.val, hp''⟩ : Fin 50000) rfl k) (fun k => blk2 V c t p' (⟨t.val * 2000 + p'.val, hp''⟩ : Fin 50000) rfl k) (fun k => blk3 V c t p' (⟨t.val * 2000 + p'.val, hp''⟩ : Fin 50000) rfl k) q') q

/-- An index of the array is in point `t`'s block iff each coordinate is in the block's range on its axis. -/
theorem mem_blk (t : Fin cfg6.N) (i : S50000x128.Idx) :
    i ∈ ((cfg6.win 13).blk t).view.set ↔ ∀ a : Fin 2, win6_13.index t a * S2000x128.size a ≤ (i a).val ∧ (i a).val < win6_13.index t a * S2000x128.size a + S2000x128.size a := by
  show i ∈ ((View.whole main_v595).slice (win6_13.rect t)).set ↔ _
  rw [View.set_slice_whole, Rect.mem_set_unit]
  exact Iff.rfl

/-- The output array after the region: the update of the arrays the region finds. -/
theorem final (c : Dev nD) : (dat6 V c).arrAt 13 cfg6.N
      = l2 (Ideal.ofBits .f32 0x2B8CBCCC#32) (upd3 (((1 / 3 : ℝ)) : EReal) ((V c main_v408) : Mat 50000 128) ((V c main_v509) : Mat 50000 128) ((V c main_v541) : Mat 50000 128) ((V c main_v557) : Mat 50000 128) (V c main_v575) (V c main_v577) (V c main_v579) (V c main_v582) (V c main_v585) (V c main_v588) (V c main_v590) (V c main_v592) (V c main_v594)) :=
  (dat6 V c).arrAt_eq_of_cover 13 _ (fun t _ => flushed_eq V c t) fun i => by
    have hi0 : (i 0).val < 50000 := (i 0).isLt
    have hi1 : (i 1).val < 128 := (i 1).isLt
    have hN : cfg6.N = 25 := N_6
    obtain ⟨t, ht⟩ : ∃ t : Fin cfg6.N, t.val = (i 0).val / 2000 := ⟨⟨(i 0).val / 2000, by rw [hN]; omega⟩, rfl⟩
    refine ⟨t, flush6_13 t, ?_⟩
    rw [mem_blk]
    have hf := idx_facts t
    intro a
    match a with
    | ⟨0, _⟩ => show win6_13.index t (0 : Fin 2) * 2000 ≤ (i 0).val ∧ (i 0).val < win6_13.index t (0 : Fin 2) * 2000 + 2000; omega
    | ⟨1, _⟩ => show win6_13.index t (1 : Fin 2) * 128 ≤ (i 1).val ∧ (i 1).val < win6_13.index t (1 : Fin 2) * 128 + 128; omega

end Cert.KernelIdeal.Reg6

end
-- ==== Proof.Region7.lean ====
/-
  Kernel region 7 of the idealized kernel: the update of the second node type in layer 2, read as one
  function of the arrays the region finds.

  The grid has 10 points; point `t` stages rows `2000·t … 2000·t + 1999` of the node features and of each aggregate,
  and the whole weight and bias arrays.  The body computes, on those row blocks, each relation's message (aggregate times
  transposed weight, bias row, features times a second transposed weight), adds the 2 messages to zero, multiplies by
  one half and divides each row by the larger of its Euclidean norm and 1e-12.  An entry of that result depends on one row of the row-blocked operands only,
  so the block a point writes back is the block of the same function of the whole arrays, and the 10 blocks tile the
  20000 rows.
-/
import proofs.«116292_j712964571450_1_alg».proof.Proof.FrameKernelIdealP
import proofs.«116292_j712964571450_1_alg».proof.Proof.LibHeteroMean

set_option maxRecDepth 16384

noncomputable section

namespace Cert.KernelIdeal.Reg7

open Cert.KernelIdeal Cert.KernelIdeal.Gen Cert.KernelIdeal.GenP Idealize.ShloMosaic Idealize.ShloMosaic.TcCoe Idealize.ShloMosaic.ValueIdx
open Idealize.SL.Sem
open Idealize.ShloMosaic.Pipeline (Dat)
open Cert.Dense Cert.HeteroMean

variable (V : (c : Dev nD) → (b : Ref sig .tc) → Buf (Elt Ideal) ((c : Thread nD τ).loc b))

theorem hz : (![0, 0] : Fin 2 → Nat) = fun _ => 0 := funext fun a => by fin_cases a <;> rfl

/-- The body's stored value, as the update of its loaded blocks. -/
theorem pay (x0 : Vec Ideal S2000x128 .f32) (x1 : Vec Ideal S2000x128 .f32) (x2 : Vec Ideal S2000x128 .f32) (x3 : Vec Ideal S128x128 .f32) (x4 : Vec Ideal S128x128 .f32) (x5 : Vec Ideal S1x128 .f32) (x6 : Vec Ideal S1x128 .f32) (x7 : Vec Ideal S128x128 .f32) (x8 : Vec Ideal S128x128 .f32) :
    k7_pay1 (k7_pay2 x0 x1 x3 x7 x5 x2 x4 x8 x6) (Scalar.ofBits .f32 0x3F000000#32)
      = l2 (Ideal.ofBits .f32 0x2B8CBCCC#32) (upd2 (((1 / 2 : ℝ)) : EReal) x0 x1 x2 x3 x4 x5 x6 x7 x8) := by
  have e1 := vecPart dot_S2000x128_S128x128_S2000x128_1_0_0_1_n_n rfl rfl rfl rfl rfl rfl dot_S2000x128_S128x128_S2000x128_1_0_0_1_n_n rfl rfl rfl rfl rfl rfl none none x1 x3 x5 x0 x7 transposes_S128x128_p1_0_S128x128 transposes_S128x128_p1_0_S128x128 broadcasts_S1x128_S2000x128
  have e2 := vecPart dot_S2000x128_S128x128_S2000x128_1_0_0_1_n_n rfl rfl rfl rfl rfl rfl dot_S2000x128_S128x128_S2000x128_1_0_0_1_n_n rfl rfl rfl rfl rfl rfl none none x2 x4 x6 x0 x8 transposes_S128x128_p1_0_S128x128 transposes_S128x128_p1_0_S128x128 broadcasts_S1x128_S2000x128
  unfold upd2
  rw [← vecL2 0x2B8CBCCC#32 _ reduces_S2000x128_S2000 (.inl rfl) rfl shapeCasts_S2000_S2000x1 broadcasts_S2000x1_S2000x128, ← Cert.HeteroMean.ofBits_half, ← vecMean2, ← e1, ← e2]
  simp only [k7_pay1, k7_pay2, shapeCast_self]
  rfl

/-- The printed index maps, decided over the grid: the row-blocked windows move with the point, the others stay. -/
theorem idx_facts : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = 0 ∧ win7_7.index t (1 : Fin 2) = 0
    ∧ win7_8.index t (0 : Fin 2) = 0 ∧ win7_8.index t (1 : Fin 2) = 0
    ∧ win7_9.index t (0 : Fin 2) = t.val ∧ win7_9.index t (1 : Fin 2) = 0 :=
  (by decide +kernel : ∀ t : Fin grid7.N, _)

/-- Row `p'` of window 0's block at point `t` is row `2000·t + p'` of its array. -/
theorem blk0 (c : Dev nD) (t : Fin cfg7.N) (p' : Fin 2000) (p : Fin 20000) (hp : p.val = t.val * 2000 + p'.val) (q : Fin 128) :
    iblk7 V c 0 t (ix2 p' q) = ((V c main_v423) : Mat 20000 128) (ix2 p q) := by
  show (V c main_v423) (((cfg7.win 0).blk t).view.emb (ix2 p' q)) = _
  refine congrArg (V c main_v423) (funext fun a => Fin.ext ?_)
  have hf := idx_facts t
  match a with
  | ⟨0, _⟩ => show win7_0.index t (0 : Fin 2) * 2000 + 1 * p'.val = p.val; omega
  | ⟨1, _⟩ => show win7_0.index t (1 : Fin 2) * 128 + 1 * q.val = q.val; omega

/-- Row `p'` of window 1's block at point `t` is row `2000·t + p'` of its array. -/
theorem blk1 (c : Dev nD) (t : Fin cfg7.N) (p' : Fin 2000) (p : Fin 20000) (hp : p.val = t.val * 2000 + p'.val) (q : Fin 128) :
    iblk7 V c 1 t (ix2 p' q) = ((V c main_v461) : Mat 20000 128) (ix2 p q) := by
  show (V c main_v461) (((cfg7.win 1).blk t).view.emb (ix2 p' q)) = _
  refine congrArg (V c main_v461) (funext fun a => Fin.ext ?_)
  have hf := idx_facts t
  match a with
  | ⟨0, _⟩ => show win7_1.index t (0 : Fin 2) * 2000 + 1 * p'.val = p.val; omega
  | ⟨1, _⟩ => show win7_1.index t (1 : Fin 2) * 128 + 1 * q.val = q.val; omega

/-- Row `p'` of window 2's block at point `t` is row `2000·t + p'` of its array. -/
theorem blk2 (c : Dev nD) (t : Fin cfg7.N) (p' : Fin 2000) (p : Fin 20000) (hp : p.val = t.val * 2000 + p'.val) (q : Fin 128) :
    iblk7 V c 2 t (ix2 p' q) = ((V c main_v525) : Mat 20000 128) (ix2 p q) := by
  show (V c main_v525) (((cfg7.win 2).blk t).view.emb (ix2 p' q)) = _
  refine congrArg (V c main_v525) (funext fun a => Fin.ext ?_)
  have hf := idx_facts t
  match a with
  | ⟨0, _⟩ => show win7_2.index t (0 : Fin 2) * 2000 + 1 * p'.val = p.val; omega
  | ⟨1, _⟩ => show win7_2.index t (1 : Fin 2) * 128 + 1 * q.val = q.val; omega

/-- Window 3's block at every point is its whole array. -/
theorem blk3 (c : Dev nD) (t : Fin cfg7.N) : iblk7 V c 3 t = (V c main_v597) := by
  funext y
  show (V c main_v597) (((cfg7.win 3).blk t).view.emb y) = _
  refine congrArg (V c main_v597) (funext fun a => Fin.ext ?_)
  have hf := idx_facts t
  match a with
  | ⟨0, _⟩ => show win7_3.index t (0 : Fin 2) * 128 + 1 * (y 0).val = (y 0).val; omega
  | ⟨1, _⟩ => show win7_3.index t (1 : Fin 2) * 128 + 1 * (y 1).val = (y 1).val; omega

/-- Window 4's block at every point is its whole array. -/
theorem blk4 (c : Dev nD) (t : Fin cfg7.N) : iblk7 V c 4 t = (V c main_v599) := by
  funext y
  show (V c main_v599) (((cfg7.win 4).blk t).view.emb y) = _
  refine congrArg (V c main_v599) (funext fun a => Fin.ext ?_)
  have hf := idx_facts t
  match a with
  | ⟨0, _⟩ => show win7_4.index t (0 : Fin 2) * 128 + 1 * (y 0).val = (y 0).val; omega
  | ⟨1, _⟩ => show win7_4.index t (1 : Fin 2) * 128 + 1 * (y 1).val = (y 1).val; omega

/-- Window 5's block at every point is its whole array. -/
theorem blk5 (c : Dev nD) (t : Fin cfg7.N) : iblk7 V c 5 t = (V c main_v602) := by
  funext y
  show (V c main_v602) (((cfg7.win 5).blk t).view.emb y) = _
  refine congrArg (V c main_v602) (funext fun a => Fin.ext ?_)
  have hf := idx_facts t
  match a with
  | ⟨0, _⟩ => show win7_5.index t (0 : Fin 2) * 1 + 1 * (y 0).val = (y 0).val; omega
  | ⟨1, _⟩ => show win7_5.index t (1 : Fin 2) * 128 + 1 * (y 1).val = (y 1).val; omega

/-- Window 6's block at every point is its whole array. -/
theorem blk6 (c : Dev nD) (t : Fin cfg7.N) : iblk7 V c 6 t = (V c main_v605) := by
  funext y
  show (V c main_v605) (((cfg7.win 6).blk t).view.emb y) = _
  refine congrArg (V c main_v605) (funext fun a => Fin.ext ?_)
  have hf := idx_facts t
  match a with
  | ⟨0, _⟩ => show win7_6.index t (0 : Fin 2) * 1 + 1 * (y 0).val = (y 0).val; omega
  | ⟨1, _⟩ => show win7_6.index t (1 : Fin 2) * 128 + 1 * (y 1).val = (y 1).val; omega

/-- Window 7's block at every point is its whole array. -/
theorem blk7 (c : Dev nD) (t : Fin cfg7.N) : iblk7 V c 7 t = (V c main_v607) := by
  funext y
  show (V c main_v607) (((cfg7.win 7).blk t).view.emb y) = _
  refine congrArg (V c main_v607) (funext fun a => Fin.ext ?_)
  have hf := idx_facts t
  match a with
  | ⟨0, _⟩ => show win7_7.index t (0 : Fin 2) * 128 + 1 * (y 0).val = (y 0).val; omega
  | ⟨1, _⟩ => show win7_7.index t (1 : Fin 2) * 128 + 1 * (y 1).val = (y 1).val; omega

/-- Window 8's block at every point is its whole array. -/
theorem blk8 (c : Dev nD) (t : Fin cfg7.N) : iblk7 V c 8 t = (V c main_v609) := by
  funext y
  show (V c main_v609) (((cfg7.win 8).blk t).view.emb y) = _
  refine congrArg (V c main_v609) (funext fun a => Fin.ext ?_)
  have hf := idx_facts t
  match a with
  | ⟨0, _⟩ => show win7_8.index t (0 : Fin 2) * 128 + 1 * (y 0).val = (y 0).val; omega
  | ⟨1, _⟩ => show win7_8.index t (1 : Fin 2) * 128 + 1 * (y 1).val = (y 1).val; omega

/-- What point `t` writes back is block `t` of the update of the whole arrays. -/
theorem flushed_eq (c : Dev nD) (t : Fin cfg7.N) :
    (dat7 V c).flushed 9 t = ((cfg7.win 9).blk t).view.read (Elt Ideal)
      (l2 (Ideal.ofBits .f32 0x2B8CBCCC#32) (upd2 (((1 / 2 : ℝ)) : EReal) ((V c main_v423) : Mat 20000 128) ((V c main_v461) : Mat 20000 128) ((V c main_v525) : Mat 20000 128) (V c main_v597) (V c main_v599) (V c main_v602) (V c main_v605) (V c main_v607) (V c main_v609))) := by
  show (cfg7.win 9).cut (grid7.coords t) ((dat7 V c).after 9 t) = _
  rw [after7_9]
  unfold out7_9
  rw [View.canon_unit_zero hz]
  simp only [View.ld_unit_zero (S := S2000x128) hz, View.ld_unit_zero (S := S128x128) hz, View.ld_unit_zero (S := S1x128) hz]
  rw [pay, blk3 V c t, blk4 V c t, blk5 V c t, blk6 V c t, blk7 V c t, blk8 V c t]
  funext j
  obtain ⟨p', q, rfl⟩ : ∃ (p' : Fin 2000) (q : Fin 128), j = ix2 p' q := ⟨j 0, j 1, eq_ix2 j⟩
  have ht : t.val < 10 := by have h := t.isLt; have hN : cfg7.N = 10 := N_7; omega
  have hp'' : t.val * 2000 + p'.val < 20000 := by have := p'.isLt; omega
  have hemb : ((cfg7.win 9).blk t).view.emb (ix2 p' q) = ix2 (⟨t.val * 2000 + p'.val, hp''⟩ : Fin 20000) q := by
    funext a; apply Fin.ext
    have hf := idx_facts t
    match a with
    | ⟨0, _⟩ => show win7_9.index t (0 : Fin 2) * 2000 + 1 * p'.val = t.val * 2000 + p'.val; omega
    | ⟨1, _⟩ => show win7_9.index t (1 : Fin 2) * 128 + 1 * q.val = q.val; omega
  show _ = (l2 (Ideal.ofBits .f32 0x2B8CBCCC#32) (upd2 (((1 / 2 : ℝ)) : EReal) ((V c main_v423) : Mat 20000 128) ((V c main_v461) : Mat 20000 128) ((V c main_v525) : Mat 20000 128) (V c main_v597) (V c main_v599) (V c main_v602) (V c main_v605) (V c main_v607) (V c main_v609))) (((cfg7.win 9).blk t).view.emb (ix2 p' q))
  rw [hemb]
  exact l2_rows _ _ _ (⟨t.val * 2000 + p'.val, hp''⟩ : Fin 20000) p' (fun q' => upd2_rows _ _ _ _ _ _ _ _ _ _ _ _ _ (⟨t.val * 2000 + p'.val, hp''⟩ : Fin 20000) p'
      (fun k => blk0 V c t p' (⟨t.val * 2000 + p'.val, hp''⟩ : Fin 20000) rfl k) (fun k => blk1 V c t p' (⟨t.val * 2000 + p'.val, hp''⟩ : Fin 20000) rfl k) (fun k => blk2 V c t p' (⟨t.val * 2000 + p'.val, hp''⟩ : Fin 20000) rfl k) q') q

/-- An index of the array is in point `t`'s block iff each coordinate is in the block's range on its axis. -/
theorem mem_blk (t : Fin cfg7.N) (i : S20000x128.Idx) :
    i ∈ ((cfg7.win 9).blk t).view.set ↔ ∀ a : Fin 2, win7_9.index t a * S2000x128.size a ≤ (i a).val ∧ (i a).val < win7_9.index t a * S2000x128.size a + S2000x128.size a := by
  show i ∈ ((View.whole main_v610).slice (win7_9.rect t)).set ↔ _
  rw [View.set_slice_whole, Rect.mem_set_unit]
  exact Iff.rfl

/-- The output array after the region: the update of the arrays the region finds. -/
theorem final (c : Dev nD) : (dat7 V c).arrAt 9 cfg7.N
      = l2 (Ideal.ofBits .f32 0x2B8CBCCC#32) (upd2 (((1 / 2 : ℝ)) : EReal) ((V c main_v423) : Mat 20000 128) ((V c main_v461) : Mat 20000 128) ((V c main_v525) : Mat 20000 128) (V c main_v597) (V c main_v599) (V c main_v602) (V c main_v605) (V c main_v607) (V c main_v609)) :=
  (dat7 V c).arrAt_eq_of_cover 9 _ (fun t _ => flushed_eq V c t) fun i => by
    have hi0 : (i 0).val < 20000 := (i 0).isLt
    have hi1 : (i 1).val < 128 := (i 1).isLt
    have hN : cfg7.N = 10 := N_7
    obtain ⟨t, ht⟩ : ∃ t : Fin cfg7.N, t.val = (i 0).val / 2000 := ⟨⟨(i 0).val / 2000, by rw [hN]; omega⟩, rfl⟩
    refine ⟨t, flush7_9 t, ?_⟩
    rw [mem_blk]
    have hf := idx_facts t
    intro a
    match a with
    | ⟨0, _⟩ => show win7_9.index t (0 : Fin 2) * 2000 ≤ (i 0).val ∧ (i 0).val < win7_9.index t (0 : Fin 2) * 2000 + 2000; omega
    | ⟨1, _⟩ => show win7_9.index t (1 : Fin 2) * 128 ≤ (i 1).val ∧ (i 1).val < win7_9.index t (1 : Fin 2) * 128 + 128; omega

end Cert.KernelIdeal.Reg7

end
-- ==== Proof.Region8.lean ====
/-
  Kernel region 8 of the idealized kernel: the update of the third node type in layer 2, read as one
  function of the arrays the region finds.

  The grid has 5 points; point `t` stages rows `1000·t … 1000·t + 999` of the node features and of each aggregate,
  and the whole weight and bias arrays.  The body computes, on those row blocks, each relation's message (aggregate times
  transposed weight, bias row, features times a second transposed weight), adds the 3 messages to zero, multiplies by
  the named constant 1/3 and divides each row by the larger of its Euclidean norm and 1e-12.  An entry of that result depends on one row of the row-blocked operands only,
  so the block a point writes back is the block of the same function of the whole arrays, and the 5 blocks tile the
  5000 rows.
-/
import proofs.«116292_j712964571450_1_alg».proof.Proof.FrameKernelIdealP
import proofs.«116292_j712964571450_1_alg».proof.Proof.LibHeteroMean

set_option maxRecDepth 16384

noncomputable section

namespace Cert.KernelIdeal.Reg8

open Cert.KernelIdeal Cert.KernelIdeal.Gen Cert.KernelIdeal.GenP Idealize.ShloMosaic Idealize.ShloMosaic.TcCoe Idealize.ShloMosaic.ValueIdx
open Idealize.SL.Sem
open Idealize.ShloMosaic.Pipeline (Dat)
open Cert.Dense Cert.HeteroMean

variable (V : (c : Dev nD) → (b : Ref sig .tc) → Buf (Elt Ideal) ((c : Thread nD τ).loc b))

theorem hz : (![0, 0] : Fin 2 → Nat) = fun _ => 0 := funext fun a => by fin_cases a <;> rfl

/-- The named constant denotes one third. -/
theorem inv3 : Named.named (F := Ideal) κ "inv_3" (φ := .f32) 0x3EAAAAAB#32 = (((1 / 3 : ℝ)) : EReal) :=
  IdealRules.named_const.ideal_named_scalar _ _ _ _ rfl

/-- The body's stored value, as the update of its loaded blocks. -/
theorem pay (x0 : Vec Ideal S1000x128 .f32) (x1 : Vec Ideal S1000x128 .f32) (x2 : Vec Ideal S1000x128 .f32) (x3 : Vec Ideal S1000x128 .f32) (x4 : Vec Ideal S128x128 .f32) (x5 : Vec Ideal S128x128 .f32) (x6 : Vec Ideal S128x128 .f32) (x7 : Vec Ideal S1x128 .f32) (x8 : Vec Ideal S1x128 .f32) (x9 : Vec Ideal S1x128 .f32) (x10 : Vec Ideal S128x128 .f32) (x11 : Vec Ideal S128x128 .f32) (x12 : Vec Ideal S128x128 .f32) :
    k8_pay1 (k8_pay2 x0) (k8_pay3 x0 x1 x4 x10 x7 x2 x5 x11 x8) x3 x6 x12 x9
      = l2 (Ideal.ofBits .f32 0x2B8CBCCC#32) (upd3 (((1 / 3 : ℝ)) : EReal) x0 x1 x2 x3 x4 x5 x6 x7 x8 x9 x10 x11 x12) := by
  have e1 := vecPart dot_S1000x128_S128x128_S1000x128_1_0_0_1_n_n rfl rfl rfl rfl rfl rfl dot_S1000x128_S128x128_S1000x128_1_0_0_1_n_n rfl rfl rfl rfl rfl rfl none none x1 x4 x7 x0 x10 transposes_S128x128_p1_0_S128x128 transposes_S128x128_p1_0_S128x128 broadcasts_S1x128_S1000x128
  have e2 := vecPart dot_S1000x128_S128x128_S1000x128_1_0_0_1_n_n rfl rfl rfl rfl rfl rfl dot_S1000x128_S128x128_S1000x128_1_0_0_1_n_n rfl rfl rfl rfl rfl rfl none none x2 x5 x8 x0 x11 transposes_S128x128_p1_0_S128x128 transposes_S128x128_p1_0_S128x128 broadcasts_S1x128_S1000x128
  have e3 := vecPart dot_S1000x128_S128x128_S1000x128_1_0_0_1_n_n rfl rfl rfl rfl rfl rfl dot_S1000x128_S128x128_S1000x128_1_0_0_1_n_n rfl rfl rfl rfl rfl rfl none none x3 x6 x9 x0 x12 transposes_S128x128_p1_0_S128x128 transposes_S128x128_p1_0_S128x128 broadcasts_S1x128_S1000x128
  unfold upd3
  rw [← vecL2 0x2B8CBCCC#32 _ reduces_S1000x128_S1000 (.inl rfl) rfl shapeCasts_S1000_S1000x1 broadcasts_S1000x1_S1000x128, ← inv3, ← vecMean3, ← e1, ← e2, ← e3]
  simp only [k8_pay1, k8_pay2, k8_pay3, shapeCast_self]

/-- The printed index maps, decided over the grid: the row-blocked windows move with the point, the others stay. -/
theorem idx_facts : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = t.val ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = 0 ∧ win8_6.index t (1 : Fin 2) = 0
    ∧ win8_7.index t (0 : Fin 2) = 0 ∧ win8_7.index t (1 : Fin 2) = 0
    ∧ win8_8.index t (0 : Fin 2) = 0 ∧ win8_8.index t (1 : Fin 2) = 0
    ∧ win8_9.index t (0 : Fin 2) = 0 ∧ win8_9.index t (1 : Fin 2) = 0
    ∧ win8_10.index t (0 : Fin 2) = 0 ∧ win8_10.index t (1 : Fin 2) = 0
    ∧ win8_11.index t (0 : Fin 2) = 0 ∧ win8_11.index t (1 : Fin 2) = 0
    ∧ win8_12.index t (0 : Fin 2) = 0 ∧ win8_12.index t (1 : Fin 2) = 0
    ∧ win8_13.index t (0 : Fin 2) = t.val ∧ win8_13.index t (1 : Fin 2) = 0 :=
  (by decide +kernel : ∀ t : Fin grid8.N, _)

/-- Row `p'` of window 0's block at point `t` is row `1000·t + p'` of its array. -/
theorem blk0 (c : Dev nD) (t : Fin cfg8.N) (p' : Fin 1000) (p : Fin 5000) (hp : p.val = t.val * 1000 + p'.val) (q : Fin 128) :
    iblk8 V c 0 t (ix2 p' q) = ((V c main_v445) : Mat 5000 128) (ix2 p q) := by
  show (V c main_v445) (((cfg8.win 0).blk t).view.emb (ix2 p' q)) = _
  refine congrArg (V c main_v445) (funext fun a => Fin.ext ?_)
  have hf := idx_facts t
  match a with
  | ⟨0, _⟩ => show win8_0.index t (0 : Fin 2) * 1000 + 1 * p'.val = p.val; omega
  | ⟨1, _⟩ => show win8_0.index t (1 : Fin 2) * 128 + 1 * q.val = q.val; omega

/-- Row `p'` of window 1's block at point `t` is row `1000·t + p'` of its array. -/
theorem blk1 (c : Dev nD) (t : Fin cfg8.N) (p' : Fin 1000) (p : Fin 5000) (hp : p.val = t.val * 1000 + p'.val) (q : Fin 128) :
    iblk8 V c 1 t (ix2 p' q) = ((V c main_v477) : Mat 5000 128) (ix2 p q) := by
  show (V c main_v477) (((cfg8.win 1).blk t).view.emb (ix2 p' q)) = _
  refine congrArg (V c main_v477) (funext fun a => Fin.ext ?_)
  have hf := idx_facts t
  match a with
  | ⟨0, _⟩ => show win8_1.index t (0 : Fin 2) * 1000 + 1 * p'.val = p.val; omega
  | ⟨1, _⟩ => show win8_1.index t (1 : Fin 2) * 128 + 1 * q.val = q.val; omega

/-- Row `p'` of window 2's block at point `t` is row `1000·t + p'` of its array. -/
theorem blk2 (c : Dev nD) (t : Fin cfg8.N) (p' : Fin 1000) (p : Fin 5000) (hp : p.val = t.val * 1000 + p'.val) (q : Fin 128) :
    iblk8 V c 2 t (ix2 p' q) = ((V c main_v493) : Mat 5000 128) (ix2 p q) := by
  show (V c main_v493) (((cfg8.win 2).blk t).view.emb (ix2 p' q)) = _
  refine congrArg (V c main_v493) (funext fun a => Fin.ext ?_)
  have hf := idx_facts t
  match a with
  | ⟨0, _⟩ => show win8_2.index t (0 : Fin 2) * 1000 + 1 * p'.val = p.val; omega
  | ⟨1, _⟩ => show win8_2.index t (1 : Fin 2) * 128 + 1 * q.val = q.val; omega

/-- Row `p'` of window 3's block at point `t` is row `1000·t + p'` of its array. -/
theorem blk3 (c : Dev nD) (t : Fin cfg8.N) (p' : Fin 1000) (p : Fin 5000) (hp : p.val = t.val * 1000 + p'.val) (q : Fin 128) :
    iblk8 V c 3 t (ix2 p' q) = ((V c main_v573) : Mat 5000 128) (ix2 p q) := by
  show (V c main_v573) (((cfg8.win 3).blk t).view.emb (ix2 p' q)) = _
  refine congrArg (V c main_v573) (funext fun a => Fin.ext ?_)
  have hf := idx_facts t
  match a with
  | ⟨0, _⟩ => show win8_3.index t (0 : Fin 2) * 1000 + 1 * p'.val = p.val; omega
  | ⟨1, _⟩ => show win8_3.index t (1 : Fin 2) * 128 + 1 * q.val = q.val; omega

/-- Window 4's block at every point is its whole array. -/
theorem blk4 (c : Dev nD) (t : Fin cfg8.N) : iblk8 V c 4 t = (V c main_v612) := by
  funext y
  show (V c main_v612) (((cfg8.win 4).blk t).view.emb y) = _
  refine congrArg (V c main_v612) (funext fun a => Fin.ext ?_)
  have hf := idx_facts t
  match a with
  | ⟨0, _⟩ => show win8_4.index t (0 : Fin 2) * 128 + 1 * (y 0).val = (y 0).val; omega
  | ⟨1, _⟩ => show win8_4.index t (1 : Fin 2) * 128 + 1 * (y 1).val = (y 1).val; omega

/-- Window 5's block at every point is its whole array. -/
theorem blk5 (c : Dev nD) (t : Fin cfg8.N) : iblk8 V c 5 t = (V c main_v614) := by
  funext y
  show (V c main_v614) (((cfg8.win 5).blk t).view.emb y) = _
  refine congrArg (V c main_v614) (funext fun a => Fin.ext ?_)
  have hf := idx_facts t
  match a with
  | ⟨0, _⟩ => show win8_5.index t (0 : Fin 2) * 128 + 1 * (y 0).val = (y 0).val; omega
  | ⟨1, _⟩ => show win8_5.index t (1 : Fin 2) * 128 + 1 * (y 1).val = (y 1).val; omega

/-- Window 6's block at every point is its whole array. -/
theorem blk6 (c : Dev nD) (t : Fin cfg8.N) : iblk8 V c 6 t = (V c main_v616) := by
  funext y
  show (V c main_v616) (((cfg8.win 6).blk t).view.emb y) = _
  refine congrArg (V c main_v616) (funext fun a => Fin.ext ?_)
  have hf := idx_facts t
  match a with
  | ⟨0, _⟩ => show win8_6.index t (0 : Fin 2) * 128 + 1 * (y 0).val = (y 0).val; omega
  | ⟨1, _⟩ => show win8_6.index t (1 : Fin 2) * 128 + 1 * (y 1).val = (y 1).val; omega

/-- Window 7's block at every point is its whole array. -/
theorem blk7 (c : Dev nD) (t : Fin cfg8.N) : iblk8 V c 7 t = (V c main_v619) := by
  funext y
  show (V c main_v619) (((cfg8.win 7).blk t).view.emb y) = _
  refine congrArg (V c main_v619) (funext fun a => Fin.ext ?_)
  have hf := idx_facts t
  match a with
  | ⟨0, _⟩ => show win8_7.index t (0 : Fin 2) * 1 + 1 * (y 0).val = (y 0).val; omega
  | ⟨1, _⟩ => show win8_7.index t (1 : Fin 2) * 128 + 1 * (y 1).val = (y 1).val; omega

/-- Window 8's block at every point is its whole array. -/
theorem blk8 (c : Dev nD) (t : Fin cfg8.N) : iblk8 V c 8 t = (V c main_v622) := by
  funext y
  show (V c main_v622) (((cfg8.win 8).blk t).view.emb y) = _
  refine congrArg (V c main_v622) (funext fun a => Fin.ext ?_)
  have hf := idx_facts t
  match a with
  | ⟨0, _⟩ => show win8_8.index t (0 : Fin 2) * 1 + 1 * (y 0).val = (y 0).val; omega
  | ⟨1, _⟩ => show win8_8.index t (1 : Fin 2) * 128 + 1 * (y 1).val = (y 1).val; omega

/-- Window 9's block at every point is its whole array. -/
theorem blk9 (c : Dev nD) (t : Fin cfg8.N) : iblk8 V c 9 t = (V c main_v625) := by
  funext y
  show (V c main_v625) (((cfg8.win 9).blk t).view.emb y) = _
  refine congrArg (V c main_v625) (funext fun a => Fin.ext ?_)
  have hf := idx_facts t
  match a with
  | ⟨0, _⟩ => show win8_9.index t (0 : Fin 2) * 1 + 1 * (y 0).val = (y 0).val; omega
  | ⟨1, _⟩ => show win8_9.index t (1 : Fin 2) * 128 + 1 * (y 1).val = (y 1).val; omega

/-- Window 10's block at every point is its whole array. -/
theorem blk10 (c : Dev nD) (t : Fin cfg8.N) : iblk8 V c 10 t = (V c main_v627) := by
  funext y
  show (V c main_v627) (((cfg8.win 10).blk t).view.emb y) = _
  refine congrArg (V c main_v627) (funext fun a => Fin.ext ?_)
  have hf := idx_facts t
  match a with
  | ⟨0, _⟩ => show win8_10.index t (0 : Fin 2) * 128 + 1 * (y 0).val = (y 0).val; omega
  | ⟨1, _⟩ => show win8_10.index t (1 : Fin 2) * 128 + 1 * (y 1).val = (y 1).val; omega

/-- Window 11's block at every point is its whole array. -/
theorem blk11 (c : Dev nD) (t : Fin cfg8.N) : iblk8 V c 11 t = (V c main_v629) := by
  funext y
  show (V c main_v629) (((cfg8.win 11).blk t).view.emb y) = _
  refine congrArg (V c main_v629) (funext fun a => Fin.ext ?_)
  have hf := idx_facts t
  match a with
  | ⟨0, _⟩ => show win8_11.index t (0 : Fin 2) * 128 + 1 * (y 0).val = (y 0).val; omega
  | ⟨1, _⟩ => show win8_11.index t (1 : Fin 2) * 128 + 1 * (y 1).val = (y 1).val; omega

/-- Window 12's block at every point is its whole array. -/
theorem blk12 (c : Dev nD) (t : Fin cfg8.N) : iblk8 V c 12 t = (V c main_v631) := by
  funext y
  show (V c main_v631) (((cfg8.win 12).blk t).view.emb y) = _
  refine congrArg (V c main_v631) (funext fun a => Fin.ext ?_)
  have hf := idx_facts t
  match a with
  | ⟨0, _⟩ => show win8_12.index t (0 : Fin 2) * 128 + 1 * (y 0).val = (y 0).val; omega
  | ⟨1, _⟩ => show win8_12.index t (1 : Fin 2) * 128 + 1 * (y 1).val = (y 1).val; omega

/-- What point `t` writes back is block `t` of the update of the whole arrays. -/
theorem flushed_eq (c : Dev nD) (t : Fin cfg8.N) :
    (dat8 V c).flushed 13 t = ((cfg8.win 13).blk t).view.read (Elt Ideal)
      (l2 (Ideal.ofBits .f32 0x2B8CBCCC#32) (upd3 (((1 / 3 : ℝ)) : EReal) ((V c main_v445) : Mat 5000 128) ((V c main_v477) : Mat 5000 128) ((V c main_v493) : Mat 5000 128) ((V c main_v573) : Mat 5000 128) (V c main_v612) (V c main_v614) (V c main_v616) (V c main_v619) (V c main_v622) (V c main_v625) (V c main_v627) (V c main_v629) (V c main_v631))) := by
  show (cfg8.win 13).cut (grid8.coords t) ((dat8 V c).after 13 t) = _
  rw [after8_13]
  unfold out8_13
  rw [View.canon_unit_zero hz]
  simp only [View.ld_unit_zero (S := S1000x128) hz, View.ld_unit_zero (S := S128x128) hz, View.ld_unit_zero (S := S1x128) hz]
  rw [pay, blk4 V c t, blk5 V c t, blk6 V c t, blk7 V c t, blk8 V c t, blk9 V c t, blk10 V c t, blk11 V c t, blk12 V c t]
  funext j
  obtain ⟨p', q, rfl⟩ : ∃ (p' : Fin 1000) (q : Fin 128), j = ix2 p' q := ⟨j 0, j 1, eq_ix2 j⟩
  have ht : t.val < 5 := by have h := t.isLt; have hN : cfg8.N = 5 := N_8; omega
  have hp'' : t.val * 1000 + p'.val < 5000 := by have := p'.isLt; omega
  have hemb : ((cfg8.win 13).blk t).view.emb (ix2 p' q) = ix2 (⟨t.val * 1000 + p'.val, hp''⟩ : Fin 5000) q := by
    funext a; apply Fin.ext
    have hf := idx_facts t
    match a with
    | ⟨0, _⟩ => show win8_13.index t (0 : Fin 2) * 1000 + 1 * p'.val = t.val * 1000 + p'.val; omega
    | ⟨1, _⟩ => show win8_13.index t (1 : Fin 2) * 128 + 1 * q.val = q.val; omega
  show _ = (l2 (Ideal.ofBits .f32 0x2B8CBCCC#32) (upd3 (((1 / 3 : ℝ)) : EReal) ((V c main_v445) : Mat 5000 128) ((V c main_v477) : Mat 5000 128) ((V c main_v493) : Mat 5000 128) ((V c main_v573) : Mat 5000 128) (V c main_v612) (V c main_v614) (V c main_v616) (V c main_v619) (V c main_v622) (V c main_v625) (V c main_v627) (V c main_v629) (V c main_v631))) (((cfg8.win 13).blk t).view.emb (ix2 p' q))
  rw [hemb]
  exact l2_rows _ _ _ (⟨t.val * 1000 + p'.val, hp''⟩ : Fin 5000) p' (fun q' => upd3_rows _ _ _ _ _ _ _ _ _ _ _ _ _ _ _ _ _ _ (⟨t.val * 1000 + p'.val, hp''⟩ : Fin 5000) p'
      (fun k => blk0 V c t p' (⟨t.val * 1000 + p'.val, hp''⟩ : Fin 5000) rfl k) (fun k => blk1 V c t p' (⟨t.val * 1000 + p'.val, hp''⟩ : Fin 5000) rfl k) (fun k => blk2 V c t p' (⟨t.val * 1000 + p'.val, hp''⟩ : Fin 5000) rfl k) (fun k => blk3 V c t p' (⟨t.val * 1000 + p'.val, hp''⟩ : Fin 5000) rfl k) q') q

/-- An index of the array is in point `t`'s block iff each coordinate is in the block's range on its axis. -/
theorem mem_blk (t : Fin cfg8.N) (i : S5000x128.Idx) :
    i ∈ ((cfg8.win 13).blk t).view.set ↔ ∀ a : Fin 2, win8_13.index t a * S1000x128.size a ≤ (i a).val ∧ (i a).val < win8_13.index t a * S1000x128.size a + S1000x128.size a := by
  show i ∈ ((View.whole main_v632).slice (win8_13.rect t)).set ↔ _
  rw [View.set_slice_whole, Rect.mem_set_unit]
  exact Iff.rfl

/-- The output array after the region: the update of the arrays the region finds. -/
theorem final (c : Dev nD) : (dat8 V c).arrAt 13 cfg8.N
      = l2 (Ideal.ofBits .f32 0x2B8CBCCC#32) (upd3 (((1 / 3 : ℝ)) : EReal) ((V c main_v445) : Mat 5000 128) ((V c main_v477) : Mat 5000 128) ((V c main_v493) : Mat 5000 128) ((V c main_v573) : Mat 5000 128) (V c main_v612) (V c main_v614) (V c main_v616) (V c main_v619) (V c main_v622) (V c main_v625) (V c main_v627) (V c main_v629) (V c main_v631)) :=
  (dat8 V c).arrAt_eq_of_cover 13 _ (fun t _ => flushed_eq V c t) fun i => by
    have hi0 : (i 0).val < 5000 := (i 0).isLt
    have hi1 : (i 1).val < 128 := (i 1).isLt
    have hN : cfg8.N = 5 := N_8
    obtain ⟨t, ht⟩ : ∃ t : Fin cfg8.N, t.val = (i 0).val / 1000 := ⟨⟨(i 0).val / 1000, by rw [hN]; omega⟩, rfl⟩
    refine ⟨t, flush8_13 t, ?_⟩
    rw [mem_blk]
    have hf := idx_facts t
    intro a
    match a with
    | ⟨0, _⟩ => show win8_13.index t (0 : Fin 2) * 1000 ≤ (i 0).val ∧ (i 0).val < win8_13.index t (0 : Fin 2) * 1000 + 1000; omega
    | ⟨1, _⟩ => show win8_13.index t (1 : Fin 2) * 128 ≤ (i 1).val ∧ (i 1).val < win8_13.index t (1 : Fin 2) * 128 + 128; omega

end Cert.KernelIdeal.Reg8

end
-- ==== Proof.Chain2.lean ====
/-
  Layer 2 of the idealized kernel against layer 2 of the reference.

  The contents of the kernel's buffers at the boundaries of @main's segments, named by the reference's stages of the same
  argument arrays: an argument array is carried unchanged to every boundary; each aggregate (the rows gathered at the
  source entries, summed per destination, divided by the clamped count column) is the same chain of host operations on
  both sides, applied to the previous layer's outputs; each weight matrix or bias vector the kernel slices out of the
  stacked parameters in one step is the array the reference slices in two; and each region's output array — the update
  of the arrays the region finds — is the reference's layer output for that node type.
-/
import proofs.«116292_j712964571450_1_alg».proof.Proof.Chain1
import proofs.«116292_j712964571450_1_alg».proof.Proof.Region6
import proofs.«116292_j712964571450_1_alg».proof.Proof.Region7
import proofs.«116292_j712964571450_1_alg».proof.Proof.Region8

set_option maxRecDepth 16384

noncomputable section

namespace Cert.KernelIdeal.Chain

open Cert.KernelIdeal Cert.KernelIdeal.Gen Cert.KernelIdeal.GenP
open Idealize.ShloMosaic Idealize.ShloMosaic.TcCoe Idealize.SL.Sem Idealize.ShloMosaic.StableHlo

variable (m : (ℓ : Loc nD τ sig) → Buf (Elt Ideal) ℓ) (ρ : Dev nD → PrngReg)

theorem at13_v408 (c : Dev nD) : W13 m ρ c (Proc.devRef .tc main_v408) = (Cert.ReferenceIdeal.ReadP.val_main_v641 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (keepP6 m ρ c main_v408 (by decide)).trans (at12_v408 m ρ c)

set_option maxHeartbeats 40000000 in
theorem at13_v509 (c : Dev nD) : W13 m ρ c (Proc.devRef .tc main_v509) = (Cert.ReferenceIdeal.ReadP.val_main_v789 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  show StableHlo.after hostOps6 (W12 m ρ c) (Proc.devRef .tc main_v509) = _
  after_results_simp
  rw [at12_arg9 m ρ c, at12_v423 m ρ c, at12_v35 m ρ c]
  rfl

set_option maxHeartbeats 40000000 in
theorem at13_v541 (c : Dev nD) : W13 m ρ c (Proc.devRef .tc main_v541) = (Cert.ReferenceIdeal.ReadP.val_main_v863 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  show StableHlo.after hostOps6 (W12 m ρ c) (Proc.devRef .tc main_v541) = _
  after_results_simp
  rw [at12_arg11 m ρ c, out5 m ρ c, at12_v53 m ρ c]
  rfl

set_option maxHeartbeats 40000000 in
theorem at13_v557 (c : Dev nD) : W13 m ρ c (Proc.devRef .tc main_v557) = (Cert.ReferenceIdeal.ReadP.val_main_v900 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  show StableHlo.after hostOps6 (W12 m ρ c) (Proc.devRef .tc main_v557) = _
  after_results_simp
  rw [at12_arg12 m ρ c, at12_v408 m ρ c, at12_v62 m ρ c]
  rfl

set_option maxHeartbeats 40000000 in
theorem at13_v575 (c : Dev nD) : W13 m ρ c (Proc.devRef .tc main_v575) = (Cert.ReferenceIdeal.ReadP.val_main_v762 (F := Ideal) (m ((c : Thread nD τ).loc main_arg3))) := by
  show StableHlo.after hostOps6 (W12 m ρ c) (Proc.devRef .tc main_v575) = _
  after_results_simp
  rw [at12_arg3 m ρ c]
  exact Cert.StackPick.mat_direct_eq_staged (L := 3) (R := 8) (a := 128) (b := 128) 2 3 (by decide) (by decide) _ _ _ _ _ _ _

set_option maxHeartbeats 40000000 in
theorem at13_v577 (c : Dev nD) : W13 m ρ c (Proc.devRef .tc main_v577) = (Cert.ReferenceIdeal.ReadP.val_main_v836 (F := Ideal) (m ((c : Thread nD τ).loc main_arg3))) := by
  show StableHlo.after hostOps6 (W12 m ρ c) (Proc.devRef .tc main_v577) = _
  after_results_simp
  rw [at12_arg3 m ρ c]
  exact Cert.StackPick.mat_direct_eq_staged (L := 3) (R := 8) (a := 128) (b := 128) 2 5 (by decide) (by decide) _ _ _ _ _ _ _

set_option maxHeartbeats 40000000 in
theorem at13_v579 (c : Dev nD) : W13 m ρ c (Proc.devRef .tc main_v579) = (Cert.ReferenceIdeal.ReadP.val_main_v873 (F := Ideal) (m ((c : Thread nD τ).loc main_arg3))) := by
  show StableHlo.after hostOps6 (W12 m ρ c) (Proc.devRef .tc main_v579) = _
  after_results_simp
  rw [at12_arg3 m ρ c]
  exact Cert.StackPick.mat_direct_eq_staged (L := 3) (R := 8) (a := 128) (b := 128) 2 6 (by decide) (by decide) _ _ _ _ _ _ _

set_option maxHeartbeats 40000000 in
theorem at13_v582 (c : Dev nD) : W13 m ρ c (Proc.devRef .tc main_v582) = (Cert.Dense.row (Cert.ReferenceIdeal.ReadP.val_main_v764 (F := Ideal) (m ((c : Thread nD τ).loc main_arg4)))) := by
  show StableHlo.after hostOps6 (W12 m ρ c) (Proc.devRef .tc main_v582) = _
  after_results_simp
  rw [at12_arg4 m ρ c]
  exact Cert.StackPick.row_direct_eq_staged (L := 3) (R := 8) (b := 128) 2 3 (by decide) (by decide) _ _ _ _ Cert.ReferenceIdeal.Gen.slices_S3x8x128_S1x8x128_2_0_0 Cert.ReferenceIdeal.Gen.shapeCasts_S1x8x128_S8x128 Cert.ReferenceIdeal.Gen.slices_S8x128_S1x128_3_0 Cert.ReferenceIdeal.Gen.shapeCasts_S1x128_S128

set_option maxHeartbeats 40000000 in
theorem at13_v585 (c : Dev nD) : W13 m ρ c (Proc.devRef .tc main_v585) = (Cert.Dense.row (Cert.ReferenceIdeal.ReadP.val_main_v838 (F := Ideal) (m ((c : Thread nD τ).loc main_arg4)))) := by
  show StableHlo.after hostOps6 (W12 m ρ c) (Proc.devRef .tc main_v585) = _
  after_results_simp
  rw [at12_arg4 m ρ c]
  exact Cert.StackPick.row_direct_eq_staged (L := 3) (R := 8) (b := 128) 2 5 (by decide) (by decide) _ _ _ _ Cert.ReferenceIdeal.Gen.slices_S3x8x128_S1x8x128_2_0_0 Cert.ReferenceIdeal.Gen.shapeCasts_S1x8x128_S8x128 Cert.ReferenceIdeal.Gen.slices_S8x128_S1x128_5_0 Cert.ReferenceIdeal.Gen.shapeCasts_S1x128_S128

set_option maxHeartbeats 40000000 in
theorem at13_v588 (c : Dev nD) : W13 m ρ c (Proc.devRef .tc main_v588) = (Cert.Dense.row (Cert.ReferenceIdeal.ReadP.val_main_v875 (F := Ideal) (m ((c : Thread nD τ).loc main_arg4)))) := by
  show StableHlo.after hostOps6 (W12 m ρ c) (Proc.devRef .tc main_v588) = _
  after_results_simp
  rw [at12_arg4 m ρ c]
  exact Cert.StackPick.row_direct_eq_staged (L := 3) (R := 8) (b := 128) 2 6 (by decide) (by decide) _ _ _ _ Cert.ReferenceIdeal.Gen.slices_S3x8x128_S1x8x128_2_0_0 Cert.ReferenceIdeal.Gen.shapeCasts_S1x8x128_S8x128 Cert.ReferenceIdeal.Gen.slices_S8x128_S1x128_6_0 Cert.ReferenceIdeal.Gen.shapeCasts_S1x128_S128

set_option maxHeartbeats 40000000 in
theorem at13_v590 (c : Dev nD) : W13 m ρ c (Proc.devRef .tc main_v590) = (Cert.ReferenceIdeal.ReadP.val_main_v766 (F := Ideal) (m ((c : Thread nD τ).loc main_arg5))) := by
  show StableHlo.after hostOps6 (W12 m ρ c) (Proc.devRef .tc main_v590) = _
  after_results_simp
  rw [at12_arg5 m ρ c]
  exact Cert.StackPick.mat_direct_eq_staged (L := 3) (R := 8) (a := 128) (b := 128) 2 3 (by decide) (by decide) _ _ _ _ _ _ _

set_option maxHeartbeats 40000000 in
theorem at13_v592 (c : Dev nD) : W13 m ρ c (Proc.devRef .tc main_v592) = (Cert.ReferenceIdeal.ReadP.val_main_v840 (F := Ideal) (m ((c : Thread nD τ).loc main_arg5))) := by
  show StableHlo.after hostOps6 (W12 m ρ c) (Proc.devRef .tc main_v592) = _
  after_results_simp
  rw [at12_arg5 m ρ c]
  exact Cert.StackPick.mat_direct_eq_staged (L := 3) (R := 8) (a := 128) (b := 128) 2 5 (by decide) (by decide) _ _ _ _ _ _ _

set_option maxHeartbeats 40000000 in
theorem at13_v594 (c : Dev nD) : W13 m ρ c (Proc.devRef .tc main_v594) = (Cert.ReferenceIdeal.ReadP.val_main_v877 (F := Ideal) (m ((c : Thread nD τ).loc main_arg5))) := by
  show StableHlo.after hostOps6 (W12 m ρ c) (Proc.devRef .tc main_v594) = _
  after_results_simp
  rw [at12_arg5 m ρ c]
  exact Cert.StackPick.mat_direct_eq_staged (L := 3) (R := 8) (a := 128) (b := 128) 2 6 (by decide) (by decide) _ _ _ _ _ _ _

theorem win6_0 (c : Dev nD) : V13 m ρ c main_v408 = (Cert.ReferenceIdeal.ReadP.val_main_v641 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := at13_v408 m ρ c

theorem win6_1 (c : Dev nD) : V13 m ρ c main_v509 = (Cert.ReferenceIdeal.ReadP.val_main_v789 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := at13_v509 m ρ c

theorem win6_2 (c : Dev nD) : V13 m ρ c main_v541 = (Cert.ReferenceIdeal.ReadP.val_main_v863 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := at13_v541 m ρ c

theorem win6_3 (c : Dev nD) : V13 m ρ c main_v557 = (Cert.ReferenceIdeal.ReadP.val_main_v900 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := at13_v557 m ρ c

theorem win6_4 (c : Dev nD) : V13 m ρ c main_v575 = (Cert.ReferenceIdeal.ReadP.val_main_v762 (F := Ideal) (m ((c : Thread nD τ).loc main_arg3))) := at13_v575 m ρ c

theorem win6_5 (c : Dev nD) : V13 m ρ c main_v577 = (Cert.ReferenceIdeal.ReadP.val_main_v836 (F := Ideal) (m ((c : Thread nD τ).loc main_arg3))) := at13_v577 m ρ c

theorem win6_6 (c : Dev nD) : V13 m ρ c main_v579 = (Cert.ReferenceIdeal.ReadP.val_main_v873 (F := Ideal) (m ((c : Thread nD τ).loc main_arg3))) := at13_v579 m ρ c

theorem win6_7 (c : Dev nD) : V13 m ρ c main_v582 = (Cert.Dense.row (Cert.ReferenceIdeal.ReadP.val_main_v764 (F := Ideal) (m ((c : Thread nD τ).loc main_arg4)))) := at13_v582 m ρ c

theorem win6_8 (c : Dev nD) : V13 m ρ c main_v585 = (Cert.Dense.row (Cert.ReferenceIdeal.ReadP.val_main_v838 (F := Ideal) (m ((c : Thread nD τ).loc main_arg4)))) := at13_v585 m ρ c

theorem win6_9 (c : Dev nD) : V13 m ρ c main_v588 = (Cert.Dense.row (Cert.ReferenceIdeal.ReadP.val_main_v875 (F := Ideal) (m ((c : Thread nD τ).loc main_arg4)))) := at13_v588 m ρ c

theorem win6_10 (c : Dev nD) : V13 m ρ c main_v590 = (Cert.ReferenceIdeal.ReadP.val_main_v766 (F := Ideal) (m ((c : Thread nD τ).loc main_arg5))) := at13_v590 m ρ c

theorem win6_11 (c : Dev nD) : V13 m ρ c main_v592 = (Cert.ReferenceIdeal.ReadP.val_main_v840 (F := Ideal) (m ((c : Thread nD τ).loc main_arg5))) := at13_v592 m ρ c

theorem win6_12 (c : Dev nD) : V13 m ρ c main_v594 = (Cert.ReferenceIdeal.ReadP.val_main_v877 (F := Ideal) (m ((c : Thread nD τ).loc main_arg5))) := at13_v594 m ρ c

/-- Region 6's output array, after the region, is the reference's layer-2 output for node type 0. -/
theorem out6 (c : Dev nD) : W14 m ρ c (Proc.devRef .tc main_v595) = (Cert.ReferenceIdeal.ReadP.val_main_v970 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  rw [show W14 m ρ c (Proc.devRef .tc main_v595) = (dat6 (V13 m ρ) c).arrAt 13 cfg6.N from W14_arr m ρ c 13,
    Cert.KernelIdeal.Reg6.final (V13 m ρ) c, win6_0 m ρ c, win6_1 m ρ c, win6_2 m ρ c, win6_3 m ρ c, win6_4 m ρ c, win6_5 m ρ c, win6_6 m ρ c, win6_7 m ρ c, win6_8 m ρ c, win6_9 m ρ c, win6_10 m ρ c, win6_11 m ρ c, win6_12 m ρ c]
  exact (Cert.ReferenceIdeal.Layers.out6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))).symm

theorem at13_v423 (c : Dev nD) : W13 m ρ c (Proc.devRef .tc main_v423) = (Cert.ReferenceIdeal.ReadP.val_main_v642 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (keepP6 m ρ c main_v423 (by decide)).trans (at12_v423 m ρ c)

theorem at14_v423 (c : Dev nD) : W14 m ρ c (Proc.devRef .tc main_v423) = (Cert.ReferenceIdeal.ReadP.val_main_v642 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (W14_of_ne m ρ c main_v423 (by decide)).trans (at13_v423 m ρ c)

theorem at15_v423 (c : Dev nD) : W15 m ρ c (Proc.devRef .tc main_v423) = (Cert.ReferenceIdeal.ReadP.val_main_v642 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (keepP7 m ρ c main_v423 (by decide)).trans (at14_v423 m ρ c)

set_option maxHeartbeats 40000000 in
theorem at13_v461 (c : Dev nD) : W13 m ρ c (Proc.devRef .tc main_v461) = (Cert.ReferenceIdeal.ReadP.val_main_v678 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  show StableHlo.after hostOps6 (W12 m ρ c) (Proc.devRef .tc main_v461) = _
  after_results_simp
  rw [at12_arg6 m ρ c, at12_v408 m ρ c, at12_v8 m ρ c]
  rfl

theorem at14_v461 (c : Dev nD) : W14 m ρ c (Proc.devRef .tc main_v461) = (Cert.ReferenceIdeal.ReadP.val_main_v678 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (W14_of_ne m ρ c main_v461 (by decide)).trans (at13_v461 m ρ c)

theorem at15_v461 (c : Dev nD) : W15 m ρ c (Proc.devRef .tc main_v461) = (Cert.ReferenceIdeal.ReadP.val_main_v678 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (keepP7 m ρ c main_v461 (by decide)).trans (at14_v461 m ρ c)

set_option maxHeartbeats 40000000 in
theorem at13_v525 (c : Dev nD) : W13 m ρ c (Proc.devRef .tc main_v525) = (Cert.ReferenceIdeal.ReadP.val_main_v826 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  show StableHlo.after hostOps6 (W12 m ρ c) (Proc.devRef .tc main_v525) = _
  after_results_simp
  rw [at12_arg10 m ρ c, out5 m ρ c, at12_v44 m ρ c]
  rfl

theorem at14_v525 (c : Dev nD) : W14 m ρ c (Proc.devRef .tc main_v525) = (Cert.ReferenceIdeal.ReadP.val_main_v826 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (W14_of_ne m ρ c main_v525 (by decide)).trans (at13_v525 m ρ c)

theorem at15_v525 (c : Dev nD) : W15 m ρ c (Proc.devRef .tc main_v525) = (Cert.ReferenceIdeal.ReadP.val_main_v826 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (keepP7 m ρ c main_v525 (by decide)).trans (at14_v525 m ρ c)

theorem at13_arg3 (c : Dev nD) : W13 m ρ c (Proc.devRef .tc main_arg3) = (m ((c : Thread nD τ).loc main_arg3)) :=
  (keepP6 m ρ c main_arg3 (by decide)).trans (at12_arg3 m ρ c)

theorem at14_arg3 (c : Dev nD) : W14 m ρ c (Proc.devRef .tc main_arg3) = (m ((c : Thread nD τ).loc main_arg3)) :=
  (W14_of_ne m ρ c main_arg3 (by decide)).trans (at13_arg3 m ρ c)

set_option maxHeartbeats 40000000 in
theorem at15_v597 (c : Dev nD) : W15 m ρ c (Proc.devRef .tc main_v597) = (Cert.ReferenceIdeal.ReadP.val_main_v651 (F := Ideal) (m ((c : Thread nD τ).loc main_arg3))) := by
  show StableHlo.after hostOps7 (W14 m ρ c) (Proc.devRef .tc main_v597) = _
  after_results_simp
  rw [at14_arg3 m ρ c]
  exact Cert.StackPick.mat_direct_eq_staged (L := 3) (R := 8) (a := 128) (b := 128) 2 0 (by decide) (by decide) _ _ _ _ _ _ _

set_option maxHeartbeats 40000000 in
theorem at15_v599 (c : Dev nD) : W15 m ρ c (Proc.devRef .tc main_v599) = (Cert.ReferenceIdeal.ReadP.val_main_v799 (F := Ideal) (m ((c : Thread nD τ).loc main_arg3))) := by
  show StableHlo.after hostOps7 (W14 m ρ c) (Proc.devRef .tc main_v599) = _
  after_results_simp
  rw [at14_arg3 m ρ c]
  exact Cert.StackPick.mat_direct_eq_staged (L := 3) (R := 8) (a := 128) (b := 128) 2 4 (by decide) (by decide) _ _ _ _ _ _ _

theorem at13_arg4 (c : Dev nD) : W13 m ρ c (Proc.devRef .tc main_arg4) = (m ((c : Thread nD τ).loc main_arg4)) :=
  (keepP6 m ρ c main_arg4 (by decide)).trans (at12_arg4 m ρ c)

theorem at14_arg4 (c : Dev nD) : W14 m ρ c (Proc.devRef .tc main_arg4) = (m ((c : Thread nD τ).loc main_arg4)) :=
  (W14_of_ne m ρ c main_arg4 (by decide)).trans (at13_arg4 m ρ c)

set_option maxHeartbeats 40000000 in
theorem at15_v602 (c : Dev nD) : W15 m ρ c (Proc.devRef .tc main_v602) = (Cert.Dense.row (Cert.ReferenceIdeal.ReadP.val_main_v653 (F := Ideal) (m ((c : Thread nD τ).loc main_arg4)))) := by
  show StableHlo.after hostOps7 (W14 m ρ c) (Proc.devRef .tc main_v602) = _
  after_results_simp
  rw [at14_arg4 m ρ c]
  exact Cert.StackPick.row_direct_eq_staged (L := 3) (R := 8) (b := 128) 2 0 (by decide) (by decide) _ _ _ _ Cert.ReferenceIdeal.Gen.slices_S3x8x128_S1x8x128_2_0_0 Cert.ReferenceIdeal.Gen.shapeCasts_S1x8x128_S8x128 Cert.ReferenceIdeal.Gen.slices_S8x128_S1x128_0_0 Cert.ReferenceIdeal.Gen.shapeCasts_S1x128_S128

set_option maxHeartbeats 40000000 in
theorem at15_v605 (c : Dev nD) : W15 m ρ c (Proc.devRef .tc main_v605) = (Cert.Dense.row (Cert.ReferenceIdeal.ReadP.val_main_v801 (F := Ideal) (m ((c : Thread nD τ).loc main_arg4)))) := by
  show StableHlo.after hostOps7 (W14 m ρ c) (Proc.devRef .tc main_v605) = _
  after_results_simp
  rw [at14_arg4 m ρ c]
  exact Cert.StackPick.row_direct_eq_staged (L := 3) (R := 8) (b := 128) 2 4 (by decide) (by decide) _ _ _ _ Cert.ReferenceIdeal.Gen.slices_S3x8x128_S1x8x128_2_0_0 Cert.ReferenceIdeal.Gen.shapeCasts_S1x8x128_S8x128 Cert.ReferenceIdeal.Gen.slices_S8x128_S1x128_4_0 Cert.ReferenceIdeal.Gen.shapeCasts_S1x128_S128

theorem at13_arg5 (c : Dev nD) : W13 m ρ c (Proc.devRef .tc main_arg5) = (m ((c : Thread nD τ).loc main_arg5)) :=
  (keepP6 m ρ c main_arg5 (by decide)).trans (at12_arg5 m ρ c)

theorem at14_arg5 (c : Dev nD) : W14 m ρ c (Proc.devRef .tc main_arg5) = (m ((c : Thread nD τ).loc main_arg5)) :=
  (W14_of_ne m ρ c main_arg5 (by decide)).trans (at13_arg5 m ρ c)

set_option maxHeartbeats 40000000 in
theorem at15_v607 (c : Dev nD) : W15 m ρ c (Proc.devRef .tc main_v607) = (Cert.ReferenceIdeal.ReadP.val_main_v655 (F := Ideal) (m ((c : Thread nD τ).loc main_arg5))) := by
  show StableHlo.after hostOps7 (W14 m ρ c) (Proc.devRef .tc main_v607) = _
  after_results_simp
  rw [at14_arg5 m ρ c]
  exact Cert.StackPick.mat_direct_eq_staged (L := 3) (R := 8) (a := 128) (b := 128) 2 0 (by decide) (by decide) _ _ _ _ _ _ _

set_option maxHeartbeats 40000000 in
theorem at15_v609 (c : Dev nD) : W15 m ρ c (Proc.devRef .tc main_v609) = (Cert.ReferenceIdeal.ReadP.val_main_v803 (F := Ideal) (m ((c : Thread nD τ).loc main_arg5))) := by
  show StableHlo.after hostOps7 (W14 m ρ c) (Proc.devRef .tc main_v609) = _
  after_results_simp
  rw [at14_arg5 m ρ c]
  exact Cert.StackPick.mat_direct_eq_staged (L := 3) (R := 8) (a := 128) (b := 128) 2 4 (by decide) (by decide) _ _ _ _ _ _ _

theorem win7_0 (c : Dev nD) : V15 m ρ c main_v423 = (Cert.ReferenceIdeal.ReadP.val_main_v642 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := at15_v423 m ρ c

theorem win7_1 (c : Dev nD) : V15 m ρ c main_v461 = (Cert.ReferenceIdeal.ReadP.val_main_v678 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := at15_v461 m ρ c

theorem win7_2 (c : Dev nD) : V15 m ρ c main_v525 = (Cert.ReferenceIdeal.ReadP.val_main_v826 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := at15_v525 m ρ c

theorem win7_3 (c : Dev nD) : V15 m ρ c main_v597 = (Cert.ReferenceIdeal.ReadP.val_main_v651 (F := Ideal) (m ((c : Thread nD τ).loc main_arg3))) := at15_v597 m ρ c

theorem win7_4 (c : Dev nD) : V15 m ρ c main_v599 = (Cert.ReferenceIdeal.ReadP.val_main_v799 (F := Ideal) (m ((c : Thread nD τ).loc main_arg3))) := at15_v599 m ρ c

theorem win7_5 (c : Dev nD) : V15 m ρ c main_v602 = (Cert.Dense.row (Cert.ReferenceIdeal.ReadP.val_main_v653 (F := Ideal) (m ((c : Thread nD τ).loc main_arg4)))) := at15_v602 m ρ c

theorem win7_6 (c : Dev nD) : V15 m ρ c main_v605 = (Cert.Dense.row (Cert.ReferenceIdeal.ReadP.val_main_v801 (F := Ideal) (m ((c : Thread nD τ).loc main_arg4)))) := at15_v605 m ρ c

theorem win7_7 (c : Dev nD) : V15 m ρ c main_v607 = (Cert.ReferenceIdeal.ReadP.val_main_v655 (F := Ideal) (m ((c : Thread nD τ).loc main_arg5))) := at15_v607 m ρ c

theorem win7_8 (c : Dev nD) : V15 m ρ c main_v609 = (Cert.ReferenceIdeal.ReadP.val_main_v803 (F := Ideal) (m ((c : Thread nD τ).loc main_arg5))) := at15_v609 m ρ c

/-- Region 7's output array, after the region, is the reference's layer-2 output for node type 1. -/
theorem out7 (c : Dev nD) : W16 m ρ c (Proc.devRef .tc main_v610) = (Cert.ReferenceIdeal.ReadP.val_main_v978 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  rw [show W16 m ρ c (Proc.devRef .tc main_v610) = (dat7 (V15 m ρ) c).arrAt 9 cfg7.N from W16_arr m ρ c 9,
    Cert.KernelIdeal.Reg7.final (V15 m ρ) c, win7_0 m ρ c, win7_1 m ρ c, win7_2 m ρ c, win7_3 m ρ c, win7_4 m ρ c, win7_5 m ρ c, win7_6 m ρ c, win7_7 m ρ c, win7_8 m ρ c]
  exact (Cert.ReferenceIdeal.Layers.out7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))).symm

theorem at13_v445 (c : Dev nD) : W13 m ρ c (Proc.devRef .tc main_v445) = (Cert.ReferenceIdeal.ReadP.val_main_v643 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (keepP6 m ρ c main_v445 (by decide)).trans (out5 m ρ c)

theorem at14_v445 (c : Dev nD) : W14 m ρ c (Proc.devRef .tc main_v445) = (Cert.ReferenceIdeal.ReadP.val_main_v643 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (W14_of_ne m ρ c main_v445 (by decide)).trans (at13_v445 m ρ c)

theorem at15_v445 (c : Dev nD) : W15 m ρ c (Proc.devRef .tc main_v445) = (Cert.ReferenceIdeal.ReadP.val_main_v643 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (keepP7 m ρ c main_v445 (by decide)).trans (at14_v445 m ρ c)

theorem at16_v445 (c : Dev nD) : W16 m ρ c (Proc.devRef .tc main_v445) = (Cert.ReferenceIdeal.ReadP.val_main_v643 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (W16_of_ne m ρ c main_v445 (by decide)).trans (at15_v445 m ρ c)

theorem at17_v445 (c : Dev nD) : W17 m ρ c (Proc.devRef .tc main_v445) = (Cert.ReferenceIdeal.ReadP.val_main_v643 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (keepP8 m ρ c main_v445 (by decide)).trans (at16_v445 m ρ c)

set_option maxHeartbeats 40000000 in
theorem at13_v477 (c : Dev nD) : W13 m ρ c (Proc.devRef .tc main_v477) = (Cert.ReferenceIdeal.ReadP.val_main_v715 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  show StableHlo.after hostOps6 (W12 m ρ c) (Proc.devRef .tc main_v477) = _
  after_results_simp
  rw [at12_arg7 m ρ c, at12_v423 m ρ c, at12_v17 m ρ c]
  rfl

theorem at14_v477 (c : Dev nD) : W14 m ρ c (Proc.devRef .tc main_v477) = (Cert.ReferenceIdeal.ReadP.val_main_v715 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (W14_of_ne m ρ c main_v477 (by decide)).trans (at13_v477 m ρ c)

theorem at15_v477 (c : Dev nD) : W15 m ρ c (Proc.devRef .tc main_v477) = (Cert.ReferenceIdeal.ReadP.val_main_v715 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (keepP7 m ρ c main_v477 (by decide)).trans (at14_v477 m ρ c)

theorem at16_v477 (c : Dev nD) : W16 m ρ c (Proc.devRef .tc main_v477) = (Cert.ReferenceIdeal.ReadP.val_main_v715 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (W16_of_ne m ρ c main_v477 (by decide)).trans (at15_v477 m ρ c)

theorem at17_v477 (c : Dev nD) : W17 m ρ c (Proc.devRef .tc main_v477) = (Cert.ReferenceIdeal.ReadP.val_main_v715 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (keepP8 m ρ c main_v477 (by decide)).trans (at16_v477 m ρ c)

set_option maxHeartbeats 40000000 in
theorem at13_v493 (c : Dev nD) : W13 m ρ c (Proc.devRef .tc main_v493) = (Cert.ReferenceIdeal.ReadP.val_main_v752 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  show StableHlo.after hostOps6 (W12 m ρ c) (Proc.devRef .tc main_v493) = _
  after_results_simp
  rw [at12_arg8 m ρ c, at12_v408 m ρ c, at12_v26 m ρ c]
  rfl

theorem at14_v493 (c : Dev nD) : W14 m ρ c (Proc.devRef .tc main_v493) = (Cert.ReferenceIdeal.ReadP.val_main_v752 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (W14_of_ne m ρ c main_v493 (by decide)).trans (at13_v493 m ρ c)

theorem at15_v493 (c : Dev nD) : W15 m ρ c (Proc.devRef .tc main_v493) = (Cert.ReferenceIdeal.ReadP.val_main_v752 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (keepP7 m ρ c main_v493 (by decide)).trans (at14_v493 m ρ c)

theorem at16_v493 (c : Dev nD) : W16 m ρ c (Proc.devRef .tc main_v493) = (Cert.ReferenceIdeal.ReadP.val_main_v752 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (W16_of_ne m ρ c main_v493 (by decide)).trans (at15_v493 m ρ c)

theorem at17_v493 (c : Dev nD) : W17 m ρ c (Proc.devRef .tc main_v493) = (Cert.ReferenceIdeal.ReadP.val_main_v752 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (keepP8 m ρ c main_v493 (by decide)).trans (at16_v493 m ρ c)

set_option maxHeartbeats 40000000 in
theorem at13_v573 (c : Dev nD) : W13 m ρ c (Proc.devRef .tc main_v573) = (Cert.ReferenceIdeal.ReadP.val_main_v937 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  show StableHlo.after hostOps6 (W12 m ρ c) (Proc.devRef .tc main_v573) = _
  after_results_simp
  rw [at12_arg13 m ρ c, out5 m ρ c, at12_v71 m ρ c]
  rfl

theorem at14_v573 (c : Dev nD) : W14 m ρ c (Proc.devRef .tc main_v573) = (Cert.ReferenceIdeal.ReadP.val_main_v937 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (W14_of_ne m ρ c main_v573 (by decide)).trans (at13_v573 m ρ c)

theorem at15_v573 (c : Dev nD) : W15 m ρ c (Proc.devRef .tc main_v573) = (Cert.ReferenceIdeal.ReadP.val_main_v937 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (keepP7 m ρ c main_v573 (by decide)).trans (at14_v573 m ρ c)

theorem at16_v573 (c : Dev nD) : W16 m ρ c (Proc.devRef .tc main_v573) = (Cert.ReferenceIdeal.ReadP.val_main_v937 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (W16_of_ne m ρ c main_v573 (by decide)).trans (at15_v573 m ρ c)

theorem at17_v573 (c : Dev nD) : W17 m ρ c (Proc.devRef .tc main_v573) = (Cert.ReferenceIdeal.ReadP.val_main_v937 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (keepP8 m ρ c main_v573 (by decide)).trans (at16_v573 m ρ c)

theorem at15_arg3 (c : Dev nD) : W15 m ρ c (Proc.devRef .tc main_arg3) = (m ((c : Thread nD τ).loc main_arg3)) :=
  (keepP7 m ρ c main_arg3 (by decide)).trans (at14_arg3 m ρ c)

theorem at16_arg3 (c : Dev nD) : W16 m ρ c (Proc.devRef .tc main_arg3) = (m ((c : Thread nD τ).loc main_arg3)) :=
  (W16_of_ne m ρ c main_arg3 (by decide)).trans (at15_arg3 m ρ c)

set_option maxHeartbeats 40000000 in
theorem at17_v612 (c : Dev nD) : W17 m ρ c (Proc.devRef .tc main_v612) = (Cert.ReferenceIdeal.ReadP.val_main_v688 (F := Ideal) (m ((c : Thread nD τ).loc main_arg3))) := by
  show StableHlo.after hostOps8 (W16 m ρ c) (Proc.devRef .tc main_v612) = _
  after_results_simp
  rw [at16_arg3 m ρ c]
  exact Cert.StackPick.mat_direct_eq_staged (L := 3) (R := 8) (a := 128) (b := 128) 2 1 (by decide) (by decide) _ _ _ _ _ _ _

set_option maxHeartbeats 40000000 in
theorem at17_v614 (c : Dev nD) : W17 m ρ c (Proc.devRef .tc main_v614) = (Cert.ReferenceIdeal.ReadP.val_main_v725 (F := Ideal) (m ((c : Thread nD τ).loc main_arg3))) := by
  show StableHlo.after hostOps8 (W16 m ρ c) (Proc.devRef .tc main_v614) = _
  after_results_simp
  rw [at16_arg3 m ρ c]
  exact Cert.StackPick.mat_direct_eq_staged (L := 3) (R := 8) (a := 128) (b := 128) 2 2 (by decide) (by decide) _ _ _ _ _ _ _

set_option maxHeartbeats 40000000 in
theorem at17_v616 (c : Dev nD) : W17 m ρ c (Proc.devRef .tc main_v616) = (Cert.ReferenceIdeal.ReadP.val_main_v910 (F := Ideal) (m ((c : Thread nD τ).loc main_arg3))) := by
  show StableHlo.after hostOps8 (W16 m ρ c) (Proc.devRef .tc main_v616) = _
  after_results_simp
  rw [at16_arg3 m ρ c]
  exact Cert.StackPick.mat_direct_eq_staged (L := 3) (R := 8) (a := 128) (b := 128) 2 7 (by decide) (by decide) _ _ _ _ _ _ _

theorem at15_arg4 (c : Dev nD) : W15 m ρ c (Proc.devRef .tc main_arg4) = (m ((c : Thread nD τ).loc main_arg4)) :=
  (keepP7 m ρ c main_arg4 (by decide)).trans (at14_arg4 m ρ c)

theorem at16_arg4 (c : Dev nD) : W16 m ρ c (Proc.devRef .tc main_arg4) = (m ((c : Thread nD τ).loc main_arg4)) :=
  (W16_of_ne m ρ c main_arg4 (by decide)).trans (at15_arg4 m ρ c)

set_option maxHeartbeats 40000000 in
theorem at17_v619 (c : Dev nD) : W17 m ρ c (Proc.devRef .tc main_v619) = (Cert.Dense.row (Cert.ReferenceIdeal.ReadP.val_main_v690 (F := Ideal) (m ((c : Thread nD τ).loc main_arg4)))) := by
  show StableHlo.after hostOps8 (W16 m ρ c) (Proc.devRef .tc main_v619) = _
  after_results_simp
  rw [at16_arg4 m ρ c]
  exact Cert.StackPick.row_direct_eq_staged (L := 3) (R := 8) (b := 128) 2 1 (by decide) (by decide) _ _ _ _ Cert.ReferenceIdeal.Gen.slices_S3x8x128_S1x8x128_2_0_0 Cert.ReferenceIdeal.Gen.shapeCasts_S1x8x128_S8x128 Cert.ReferenceIdeal.Gen.slices_S8x128_S1x128_1_0 Cert.ReferenceIdeal.Gen.shapeCasts_S1x128_S128

set_option maxHeartbeats 40000000 in
theorem at17_v622 (c : Dev nD) : W17 m ρ c (Proc.devRef .tc main_v622) = (Cert.Dense.row (Cert.ReferenceIdeal.ReadP.val_main_v727 (F := Ideal) (m ((c : Thread nD τ).loc main_arg4)))) := by
  show StableHlo.after hostOps8 (W16 m ρ c) (Proc.devRef .tc main_v622) = _
  after_results_simp
  rw [at16_arg4 m ρ c]
  exact Cert.StackPick.row_direct_eq_staged (L := 3) (R := 8) (b := 128) 2 2 (by decide) (by decide) _ _ _ _ Cert.ReferenceIdeal.Gen.slices_S3x8x128_S1x8x128_2_0_0 Cert.ReferenceIdeal.Gen.shapeCasts_S1x8x128_S8x128 Cert.ReferenceIdeal.Gen.slices_S8x128_S1x128_2_0 Cert.ReferenceIdeal.Gen.shapeCasts_S1x128_S128

set_option maxHeartbeats 40000000 in
theorem at17_v625 (c : Dev nD) : W17 m ρ c (Proc.devRef .tc main_v625) = (Cert.Dense.row (Cert.ReferenceIdeal.ReadP.val_main_v912 (F := Ideal) (m ((c : Thread nD τ).loc main_arg4)))) := by
  show StableHlo.after hostOps8 (W16 m ρ c) (Proc.devRef .tc main_v625) = _
  after_results_simp
  rw [at16_arg4 m ρ c]
  exact Cert.StackPick.row_direct_eq_staged (L := 3) (R := 8) (b := 128) 2 7 (by decide) (by decide) _ _ _ _ Cert.ReferenceIdeal.Gen.slices_S3x8x128_S1x8x128_2_0_0 Cert.ReferenceIdeal.Gen.shapeCasts_S1x8x128_S8x128 Cert.ReferenceIdeal.Gen.slices_S8x128_S1x128_7_0 Cert.ReferenceIdeal.Gen.shapeCasts_S1x128_S128

theorem at15_arg5 (c : Dev nD) : W15 m ρ c (Proc.devRef .tc main_arg5) = (m ((c : Thread nD τ).loc main_arg5)) :=
  (keepP7 m ρ c main_arg5 (by decide)).trans (at14_arg5 m ρ c)

theorem at16_arg5 (c : Dev nD) : W16 m ρ c (Proc.devRef .tc main_arg5) = (m ((c : Thread nD τ).loc main_arg5)) :=
  (W16_of_ne m ρ c main_arg5 (by decide)).trans (at15_arg5 m ρ c)

set_option maxHeartbeats 40000000 in
theorem at17_v627 (c : Dev nD) : W17 m ρ c (Proc.devRef .tc main_v627) = (Cert.ReferenceIdeal.ReadP.val_main_v692 (F := Ideal) (m ((c : Thread nD τ).loc main_arg5))) := by
  show StableHlo.after hostOps8 (W16 m ρ c) (Proc.devRef .tc main_v627) = _
  after_results_simp
  rw [at16_arg5 m ρ c]
  exact Cert.StackPick.mat_direct_eq_staged (L := 3) (R := 8) (a := 128) (b := 128) 2 1 (by decide) (by decide) _ _ _ _ _ _ _

set_option maxHeartbeats 40000000 in
theorem at17_v629 (c : Dev nD) : W17 m ρ c (Proc.devRef .tc main_v629) = (Cert.ReferenceIdeal.ReadP.val_main_v729 (F := Ideal) (m ((c : Thread nD τ).loc main_arg5))) := by
  show StableHlo.after hostOps8 (W16 m ρ c) (Proc.devRef .tc main_v629) = _
  after_results_simp
  rw [at16_arg5 m ρ c]
  exact Cert.StackPick.mat_direct_eq_staged (L := 3) (R := 8) (a := 128) (b := 128) 2 2 (by decide) (by decide) _ _ _ _ _ _ _

set_option maxHeartbeats 40000000 in
theorem at17_v631 (c : Dev nD) : W17 m ρ c (Proc.devRef .tc main_v631) = (Cert.ReferenceIdeal.ReadP.val_main_v914 (F := Ideal) (m ((c : Thread nD τ).loc main_arg5))) := by
  show StableHlo.after hostOps8 (W16 m ρ c) (Proc.devRef .tc main_v631) = _
  after_results_simp
  rw [at16_arg5 m ρ c]
  exact Cert.StackPick.mat_direct_eq_staged (L := 3) (R := 8) (a := 128) (b := 128) 2 7 (by decide) (by decide) _ _ _ _ _ _ _

theorem win8_0 (c : Dev nD) : V17 m ρ c main_v445 = (Cert.ReferenceIdeal.ReadP.val_main_v643 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := at17_v445 m ρ c

theorem win8_1 (c : Dev nD) : V17 m ρ c main_v477 = (Cert.ReferenceIdeal.ReadP.val_main_v715 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := at17_v477 m ρ c

theorem win8_2 (c : Dev nD) : V17 m ρ c main_v493 = (Cert.ReferenceIdeal.ReadP.val_main_v752 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := at17_v493 m ρ c

theorem win8_3 (c : Dev nD) : V17 m ρ c main_v573 = (Cert.ReferenceIdeal.ReadP.val_main_v937 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := at17_v573 m ρ c

theorem win8_4 (c : Dev nD) : V17 m ρ c main_v612 = (Cert.ReferenceIdeal.ReadP.val_main_v688 (F := Ideal) (m ((c : Thread nD τ).loc main_arg3))) := at17_v612 m ρ c

theorem win8_5 (c : Dev nD) : V17 m ρ c main_v614 = (Cert.ReferenceIdeal.ReadP.val_main_v725 (F := Ideal) (m ((c : Thread nD τ).loc main_arg3))) := at17_v614 m ρ c

theorem win8_6 (c : Dev nD) : V17 m ρ c main_v616 = (Cert.ReferenceIdeal.ReadP.val_main_v910 (F := Ideal) (m ((c : Thread nD τ).loc main_arg3))) := at17_v616 m ρ c

theorem win8_7 (c : Dev nD) : V17 m ρ c main_v619 = (Cert.Dense.row (Cert.ReferenceIdeal.ReadP.val_main_v690 (F := Ideal) (m ((c : Thread nD τ).loc main_arg4)))) := at17_v619 m ρ c

theorem win8_8 (c : Dev nD) : V17 m ρ c main_v622 = (Cert.Dense.row (Cert.ReferenceIdeal.ReadP.val_main_v727 (F := Ideal) (m ((c : Thread nD τ).loc main_arg4)))) := at17_v622 m ρ c

theorem win8_9 (c : Dev nD) : V17 m ρ c main_v625 = (Cert.Dense.row (Cert.ReferenceIdeal.ReadP.val_main_v912 (F := Ideal) (m ((c : Thread nD τ).loc main_arg4)))) := at17_v625 m ρ c

theorem win8_10 (c : Dev nD) : V17 m ρ c main_v627 = (Cert.ReferenceIdeal.ReadP.val_main_v692 (F := Ideal) (m ((c : Thread nD τ).loc main_arg5))) := at17_v627 m ρ c

theorem win8_11 (c : Dev nD) : V17 m ρ c main_v629 = (Cert.ReferenceIdeal.ReadP.val_main_v729 (F := Ideal) (m ((c : Thread nD τ).loc main_arg5))) := at17_v629 m ρ c

theorem win8_12 (c : Dev nD) : V17 m ρ c main_v631 = (Cert.ReferenceIdeal.ReadP.val_main_v914 (F := Ideal) (m ((c : Thread nD τ).loc main_arg5))) := at17_v631 m ρ c

/-- Region 8's output array, after the region, is the reference's layer-2 output for node type 2. -/
theorem out8 (c : Dev nD) : W18 m ρ c (Proc.devRef .tc main_v632) = (Cert.ReferenceIdeal.ReadP.val_main_v986 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  rw [show W18 m ρ c (Proc.devRef .tc main_v632) = (dat8 (V17 m ρ) c).arrAt 13 cfg8.N from W18_arr m ρ c 13,
    Cert.KernelIdeal.Reg8.final (V17 m ρ) c, win8_0 m ρ c, win8_1 m ρ c, win8_2 m ρ c, win8_3 m ρ c, win8_4 m ρ c, win8_5 m ρ c, win8_6 m ρ c, win8_7 m ρ c, win8_8 m ρ c, win8_9 m ρ c, win8_10 m ρ c, win8_11 m ρ c, win8_12 m ρ c]
  exact (Cert.ReferenceIdeal.Layers.out8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))).symm

theorem at15_v595 (c : Dev nD) : W15 m ρ c (Proc.devRef .tc main_v595) = (Cert.ReferenceIdeal.ReadP.val_main_v970 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (keepP7 m ρ c main_v595 (by decide)).trans (out6 m ρ c)

theorem at16_v595 (c : Dev nD) : W16 m ρ c (Proc.devRef .tc main_v595) = (Cert.ReferenceIdeal.ReadP.val_main_v970 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (W16_of_ne m ρ c main_v595 (by decide)).trans (at15_v595 m ρ c)

theorem at17_v595 (c : Dev nD) : W17 m ρ c (Proc.devRef .tc main_v595) = (Cert.ReferenceIdeal.ReadP.val_main_v970 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (keepP8 m ρ c main_v595 (by decide)).trans (at16_v595 m ρ c)

theorem at18_v595 (c : Dev nD) : W18 m ρ c (Proc.devRef .tc main_v595) = (Cert.ReferenceIdeal.ReadP.val_main_v970 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (W18_of_ne m ρ c main_v595 (by decide)).trans (at17_v595 m ρ c)

theorem at17_v610 (c : Dev nD) : W17 m ρ c (Proc.devRef .tc main_v610) = (Cert.ReferenceIdeal.ReadP.val_main_v978 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (keepP8 m ρ c main_v610 (by decide)).trans (out7 m ρ c)

theorem at18_v610 (c : Dev nD) : W18 m ρ c (Proc.devRef .tc main_v610) = (Cert.ReferenceIdeal.ReadP.val_main_v978 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (W18_of_ne m ρ c main_v610 (by decide)).trans (at17_v610 m ρ c)

end Cert.KernelIdeal.Chain

end
-- ==== Proof.RefOps0.lean ====
/-
  Parts 0 to 4 of the reference's @main as lists of host operations: part `K` of the printed program is the
  operations of `opsK` run in order (a called function's operations stand in its call's place); every operation touches
  TensorCore references only and allocates nothing; and none of them writes an argument array, so each argument array keeps
  its contents across the part, from any contents `V`.
-/
import proofs.«116292_j712964571450_1_alg».proof.Proof.Gen.ReferenceIdeal
import Idealize.ShloMosaic.Lib.StableHlo.Run

set_option maxRecDepth 16384
set_option maxHeartbeats 40000000

noncomputable section

namespace Cert.ReferenceIdeal.Parts

open Cert.ReferenceIdeal Cert.ReferenceIdeal.Gen Idealize.ShloMosaic Idealize.ShloMosaic.TcCoe Idealize.SL.Sem Idealize.ShloMosaic.StableHlo

variable {F : FTy → Type} [FloatOps F]

/-- Part 0's 60 operations, in order. -/
abbrev ops0 : List (HloOp τ sig (Elt F)) :=
  [ unary main_arg3 main_v0 ((extractStridedSlice S1x8x128x128 ![0, 0, 0, 0] · slices_S3x8x128x128_S1x8x128x128_0_0_0_0) : (⟨S3x8x128x128, .f32⟩ : BufTy).Contents (Elt F) → (⟨S1x8x128x128, .f32⟩ : BufTy).Contents (Elt F)),
    reshape main_v0 main_v1 rfl shapeCasts_S1x8x128x128_S8x128x128,
    unary main_arg4 main_v2 ((extractStridedSlice S1x8x128 ![0, 0, 0] · slices_S3x8x128_S1x8x128_0_0_0) : (⟨S3x8x128, .f32⟩ : BufTy).Contents (Elt F) → (⟨S1x8x128, .f32⟩ : BufTy).Contents (Elt F)),
    reshape main_v2 main_v3 rfl shapeCasts_S1x8x128_S8x128,
    unary main_arg5 main_v4 ((extractStridedSlice S1x8x128x128 ![0, 0, 0, 0] · slices_S3x8x128x128_S1x8x128x128_0_0_0_0) : (⟨S3x8x128x128, .f32⟩ : BufTy).Contents (Elt F) → (⟨S1x8x128x128, .f32⟩ : BufTy).Contents (Elt F)),
    reshape main_v4 main_v5 rfl shapeCasts_S1x8x128x128_S8x128x128,
    unary main_v1 main_v6 ((extractStridedSlice S1x128x128 ![0, 0, 0] · slices_S8x128x128_S1x128x128_0_0_0) : (⟨S8x128x128, .f32⟩ : BufTy).Contents (Elt F) → (⟨S1x128x128, .f32⟩ : BufTy).Contents (Elt F)),
    reshape main_v6 main_v7 rfl shapeCasts_S1x128x128_S128x128,
    unary main_v3 main_v8 ((extractStridedSlice S1x128 ![0, 0] · slices_S8x128_S1x128_0_0) : (⟨S8x128, .f32⟩ : BufTy).Contents (Elt F) → (⟨S1x128, .f32⟩ : BufTy).Contents (Elt F)),
    reshape main_v8 main_v9 rfl shapeCasts_S1x128_S128,
    unary main_v5 main_v10 ((extractStridedSlice S1x128x128 ![0, 0, 0] · slices_S8x128x128_S1x128x128_0_0_0) : (⟨S8x128x128, .f32⟩ : BufTy).Contents (Elt F) → (⟨S1x128x128, .f32⟩ : BufTy).Contents (Elt F)),
    reshape main_v10 main_v11 rfl shapeCasts_S1x128x128_S128x128,
    unary main_arg6 main_v12 ((extractStridedSlice S1x500000 ![0, 0] · slices_S2x500000_S1x500000_0_0) : (⟨S2x500000, .i32⟩ : BufTy).Contents (Elt F) → (⟨S1x500000, .i32⟩ : BufTy).Contents (Elt F)),
    reshape main_v12 main_v13 rfl shapeCasts_S1x500000_S500000,
    unary main_arg6 main_v14 ((extractStridedSlice S1x500000 ![1, 0] · slices_S2x500000_S1x500000_1_0) : (⟨S2x500000, .i32⟩ : BufTy).Contents (Elt F) → (⟨S1x500000, .i32⟩ : BufTy).Contents (Elt F)),
    reshape main_v14 main_v15 rfl shapeCasts_S1x500000_S500000,
    nullary main_c (constantI S_ 32 0#32),
    unary main_c main_v16 (broadcastInDim S500000 ![] bcast_S_S500000 : (⟨S_, .i32⟩ : BufTy).Contents (Elt F) → (⟨S500000, .i32⟩ : BufTy).Contents (Elt F)),
    binary main_v13 main_v16 main_v17 (cmpi .slt : (⟨S500000, .i32⟩ : BufTy).Contents (Elt F) → (⟨S500000, .i32⟩ : BufTy).Contents (Elt F) → (⟨S500000, .i1⟩ : BufTy).Contents (Elt F)),
    nullary main_c_0 (constantI S_ 32 50000#32),
    unary main_c_0 main_v18 (broadcastInDim S500000 ![] bcast_S_S500000 : (⟨S_, .i32⟩ : BufTy).Contents (Elt F) → (⟨S500000, .i32⟩ : BufTy).Contents (Elt F)),
    binary main_v13 main_v18 main_v19 (addi : (⟨S500000, .i32⟩ : BufTy).Contents (Elt F) → (⟨S500000, .i32⟩ : BufTy).Contents (Elt F) → (⟨S500000, .i32⟩ : BufTy).Contents (Elt F)),
    ternary main_v17 main_v19 main_v13 main_v20 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v20 main_v21 (broadcastInDim S500000x1 ![0] bcast_S500000_S500000x1_0 : (⟨S500000, .i32⟩ : BufTy).Contents (Elt F) → (⟨S500000x1, .i32⟩ : BufTy).Contents (Elt F)),
    binary main_arg0 main_v21 main_v22 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    nullary main_cst (constant S_ .f32 0x00000000#32),
    unary main_cst main_v23 (broadcastInDim S20000x128 ![] bcast_S_S20000x128 : (⟨S_, .f32⟩ : BufTy).Contents (Elt F) → (⟨S20000x128, .f32⟩ : BufTy).Contents (Elt F)),
    unary main_v15 main_v24 (broadcastInDim S500000x1 ![0] bcast_S500000_S500000x1_0 : (⟨S500000, .i32⟩ : BufTy).Contents (Elt F) → (⟨S500000x1, .i32⟩ : BufTy).Contents (Elt F)),
    ternary main_v23 main_v24 main_v22 main_v25 ((fun x i u => Host.scatterAdd scatter_S20000x128_S500000x1_S500000x128_1_0_0_1 x i u) : (⟨S20000x128, .f32⟩ : BufTy).Contents (Elt F) → (⟨S500000x1, .i32⟩ : BufTy).Contents (Elt F) → (⟨S500000x128, .f32⟩ : BufTy).Contents (Elt F) → (⟨S20000x128, .f32⟩ : BufTy).Contents (Elt F)),
    nullary main_cst_1 (constant S_ .f32 0x3F800000#32),
    unary main_cst_1 main_v26 (broadcastInDim S500000 ![] bcast_S_S500000 : (⟨S_, .f32⟩ : BufTy).Contents (Elt F) → (⟨S500000, .f32⟩ : BufTy).Contents (Elt F)),
    nullary main_cst_2 (constant S_ .f32 0x00000000#32),
    unary main_cst_2 main_v27 (broadcastInDim S20000 ![] bcast_S_S20000 : (⟨S_, .f32⟩ : BufTy).Contents (Elt F) → (⟨S20000, .f32⟩ : BufTy).Contents (Elt F)),
    unary main_v15 main_v28 (broadcastInDim S500000x1 ![0] bcast_S500000_S500000x1_0 : (⟨S500000, .i32⟩ : BufTy).Contents (Elt F) → (⟨S500000x1, .i32⟩ : BufTy).Contents (Elt F)),
    ternary main_v27 main_v28 main_v26 main_v29 ((fun x i u => Host.scatterAdd scatter_S20000_S500000x1_S500000_n_0_0_1 x i u) : (⟨S20000, .f32⟩ : BufTy).Contents (Elt F) → (⟨S500000x1, .i32⟩ : BufTy).Contents (Elt F) → (⟨S500000, .f32⟩ : BufTy).Contents (Elt F) → (⟨S20000, .f32⟩ : BufTy).Contents (Elt F)),
    nullary main_cst_3 (constant S_ .f32 0x3F800000#32),
    unary main_cst_3 main_v30 (broadcastInDim S20000 ![] bcast_S_S20000 : (⟨S_, .f32⟩ : BufTy).Contents (Elt F) → (⟨S20000, .f32⟩ : BufTy).Contents (Elt F)),
    binary main_v29 main_v30 main_v31 (maximumf : (⟨S20000, .f32⟩ : BufTy).Contents (Elt F) → (⟨S20000, .f32⟩ : BufTy).Contents (Elt F) → (⟨S20000, .f32⟩ : BufTy).Contents (Elt F)),
    unary main_v31 main_v32 (broadcastInDim S20000x1 ![0] bcast_S20000_S20000x1_0 : (⟨S20000, .f32⟩ : BufTy).Contents (Elt F) → (⟨S20000x1, .f32⟩ : BufTy).Contents (Elt F)),
    unary main_v32 main_v33 (broadcastInDim S20000x128 ![0, 1] bcast_S20000x1_S20000x128_0_1 : (⟨S20000x1, .f32⟩ : BufTy).Contents (Elt F) → (⟨S20000x128, .f32⟩ : BufTy).Contents (Elt F)),
    binary main_v25 main_v33 main_v34 (Host.divf : (⟨S20000x128, .f32⟩ : BufTy).Contents (Elt F) → (⟨S20000x128, .f32⟩ : BufTy).Contents (Elt F) → (⟨S20000x128, .f32⟩ : BufTy).Contents (Elt F)),
    unary main_v7 main_v35 ((transpose S128x128 [1, 0] · transposes_S128x128_S128x128_1_0) : (⟨S128x128, .f32⟩ : BufTy).Contents (Elt F) → (⟨S128x128, .f32⟩ : BufTy).Contents (Elt F)),
    binary main_v34 main_v35 main_v36 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_v9 main_v37 (broadcastInDim S1x128 ![1] bcast_S128_S1x128_1 : (⟨S128, .f32⟩ : BufTy).Contents (Elt F) → (⟨S1x128, .f32⟩ : BufTy).Contents (Elt F)),
    unary main_v37 main_v38 (broadcastInDim S20000x128 ![0, 1] bcast_S1x128_S20000x128_0_1 : (⟨S1x128, .f32⟩ : BufTy).Contents (Elt F) → (⟨S20000x128, .f32⟩ : BufTy).Contents (Elt F)),
    binary main_v36 main_v38 main_v39 (addf : (⟨S20000x128, .f32⟩ : BufTy).Contents (Elt F) → (⟨S20000x128, .f32⟩ : BufTy).Contents (Elt F) → (⟨S20000x128, .f32⟩ : BufTy).Contents (Elt F)),
    unary main_v11 main_v40 ((transpose S128x128 [1, 0] · transposes_S128x128_S128x128_1_0) : (⟨S128x128, .f32⟩ : BufTy).Contents (Elt F) → (⟨S128x128, .f32⟩ : BufTy).Contents (Elt F)),
    binary main_arg1 main_v40 main_v41 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    binary main_v39 main_v41 main_v42 (addf : (⟨S20000x128, .f32⟩ : BufTy).Contents (Elt F) → (⟨S20000x128, .f32⟩ : BufTy).Contents (Elt F) → (⟨S20000x128, .f32⟩ : BufTy).Contents (Elt F)),
    unary main_v1 main_v43 ((extractStridedSlice S1x128x128 ![1, 0, 0] · slices_S8x128x128_S1x128x128_1_0_0) : (⟨S8x128x128, .f32⟩ : BufTy).Contents (Elt F) → (⟨S1x128x128, .f32⟩ : BufTy).Contents (Elt F)),
    reshape main_v43 main_v44 rfl shapeCasts_S1x128x128_S128x128,
    unary main_v3 main_v45 ((extractStridedSlice S1x128 ![1, 0] · slices_S8x128_S1x128_1_0) : (⟨S8x128, .f32⟩ : BufTy).Contents (Elt F) → (⟨S1x128, .f32⟩ : BufTy).Contents (Elt F)),
    reshape main_v45 main_v46 rfl shapeCasts_S1x128_S128,
    unary main_v5 main_v47 ((extractStridedSlice S1x128x128 ![1, 0, 0] · slices_S8x128x128_S1x128x128_1_0_0) : (⟨S8x128x128, .f32⟩ : BufTy).Contents (Elt F) → (⟨S1x128x128, .f32⟩ : BufTy).Contents (Elt F)),
    reshape main_v47 main_v48 rfl shapeCasts_S1x128x128_S128x128,
    unary main_arg7 main_v49 ((extractStridedSlice S1x250000 ![0, 0] · slices_S2x250000_S1x250000_0_0) : (⟨S2x250000, .i32⟩ : BufTy).Contents (Elt F) → (⟨S1x250000, .i32⟩ : BufTy).Contents (Elt F)),
    reshape main_v49 main_v50 rfl shapeCasts_S1x250000_S250000,
    unary main_arg7 main_v51 ((extractStridedSlice S1x250000 ![1, 0] · slices_S2x250000_S1x250000_1_0) : (⟨S2x250000, .i32⟩ : BufTy).Contents (Elt F) → (⟨S1x250000, .i32⟩ : BufTy).Contents (Elt F)),
    reshape main_v51 main_v52 rfl shapeCasts_S1x250000_S250000,
    nullary main_c_4 (constantI S_ 32 0#32) ]

theorem part0_eq (d : Dev nD) : main_part0 (F := F) d = seq ops0 := rfl

theorem ops0_sub : (ops0 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub ..⟩

theorem ops0_fresh : (ops0 : List (HloOp τ sig (Elt F))).Forall fun op => op.fresh = ∅ := by
  simp only [List.Forall]; repeat' constructor

theorem kept0_0 (V : Valuation τ sig (Elt F)) : after (ops0 (F := F)) V (Proc.devRef .tc main_arg0) = V (Proc.devRef .tc main_arg0) := by
  after_results_simp
theorem kept0_1 (V : Valuation τ sig (Elt F)) : after (ops0 (F := F)) V (Proc.devRef .tc main_arg1) = V (Proc.devRef .tc main_arg1) := by
  after_results_simp
theorem kept0_2 (V : Valuation τ sig (Elt F)) : after (ops0 (F := F)) V (Proc.devRef .tc main_arg2) = V (Proc.devRef .tc main_arg2) := by
  after_results_simp
theorem kept0_3 (V : Valuation τ sig (Elt F)) : after (ops0 (F := F)) V (Proc.devRef .tc main_arg3) = V (Proc.devRef .tc main_arg3) := by
  after_results_simp
theorem kept0_4 (V : Valuation τ sig (Elt F)) : after (ops0 (F := F)) V (Proc.devRef .tc main_arg4) = V (Proc.devRef .tc main_arg4) := by
  after_results_simp
theorem kept0_5 (V : Valuation τ sig (Elt F)) : after (ops0 (F := F)) V (Proc.devRef .tc main_arg5) = V (Proc.devRef .tc main_arg5) := by
  after_results_simp
theorem kept0_6 (V : Valuation τ sig (Elt F)) : after (ops0 (F := F)) V (Proc.devRef .tc main_arg6) = V (Proc.devRef .tc main_arg6) := by
  after_results_simp
theorem kept0_7 (V : Valuation τ sig (Elt F)) : after (ops0 (F := F)) V (Proc.devRef .tc main_arg7) = V (Proc.devRef .tc main_arg7) := by
  after_results_simp
theorem kept0_8 (V : Valuation τ sig (Elt F)) : after (ops0 (F := F)) V (Proc.devRef .tc main_arg8) = V (Proc.devRef .tc main_arg8) := by
  after_results_simp
theorem kept0_9 (V : Valuation τ sig (Elt F)) : after (ops0 (F := F)) V (Proc.devRef .tc main_arg9) = V (Proc.devRef .tc main_arg9) := by
  after_results_simp
theorem kept0_10 (V : Valuation τ sig (Elt F)) : after (ops0 (F := F)) V (Proc.devRef .tc main_arg10) = V (Proc.devRef .tc main_arg10) := by
  after_results_simp
theorem kept0_11 (V : Valuation τ sig (Elt F)) : after (ops0 (F := F)) V (Proc.devRef .tc main_arg11) = V (Proc.devRef .tc main_arg11) := by
  after_results_simp
theorem kept0_12 (V : Valuation τ sig (Elt F)) : after (ops0 (F := F)) V (Proc.devRef .tc main_arg12) = V (Proc.devRef .tc main_arg12) := by
  after_results_simp
theorem kept0_13 (V : Valuation τ sig (Elt F)) : after (ops0 (F := F)) V (Proc.devRef .tc main_arg13) = V (Proc.devRef .tc main_arg13) := by
  after_results_simp

/-- Part 1's 60 operations, in order. -/
abbrev ops1 : List (HloOp τ sig (Elt F)) :=
  [ unary main_c_4 main_v53 (broadcastInDim S250000 ![] bcast_S_S250000 : (⟨S_, .i32⟩ : BufTy).Contents (Elt F) → (⟨S250000, .i32⟩ : BufTy).Contents (Elt F)),
    binary main_v50 main_v53 main_v54 (cmpi .slt : (⟨S250000, .i32⟩ : BufTy).Contents (Elt F) → (⟨S250000, .i32⟩ : BufTy).Contents (Elt F) → (⟨S250000, .i1⟩ : BufTy).Contents (Elt F)),
    nullary main_c_5 (constantI S_ 32 20000#32),
    unary main_c_5 main_v55 (broadcastInDim S250000 ![] bcast_S_S250000 : (⟨S_, .i32⟩ : BufTy).Contents (Elt F) → (⟨S250000, .i32⟩ : BufTy).Contents (Elt F)),
    binary main_v50 main_v55 main_v56 (addi : (⟨S250000, .i32⟩ : BufTy).Contents (Elt F) → (⟨S250000, .i32⟩ : BufTy).Contents (Elt F) → (⟨S250000, .i32⟩ : BufTy).Contents (Elt F)),
    ternary main_v54 main_v56 main_v50 main_v57 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    unary main_v57 main_v58 (broadcastInDim S250000x1 ![0] bcast_S250000_S250000x1_0 : (⟨S250000, .i32⟩ : BufTy).Contents (Elt F) → (⟨S250000x1, .i32⟩ : BufTy).Contents (Elt F)),
    binary main_arg1 main_v58 main_v59 ((fun x i => Host.gather gather_S20000x128_S250000x1_S250000x128_1_0_n_n_0_1_1128 x i) : (⟨S20000x128, .f32⟩ : BufTy).Contents (Elt F) → (⟨S250000x1, .i32⟩ : BufTy).Contents (Elt F) → (⟨S250000x128, .f32⟩ : BufTy).Contents (Elt F)),
    nullary main_cst_6 (constant S_ .f32 0x00000000#32),
    unary main_cst_6 main_v60 (broadcastInDim S5000x128 ![] bcast_S_S5000x128 : (⟨S_, .f32⟩ : BufTy).Contents (Elt F) → (⟨S5000x128, .f32⟩ : BufTy).Contents (Elt F)),
    unary main_v52 main_v61 (broadcastInDim S250000x1 ![0] bcast_S250000_S250000x1_0 : (⟨S250000, .i32⟩ : BufTy).Contents (Elt F) → (⟨S250000x1, .i32⟩ : BufTy).Contents (Elt F)),
    ternary main_v60 main_v61 main_v59 main_v62 ((fun x i u => Host.scatterAdd scatter_S5000x128_S250000x1_S250000x128_1_0_0_1 x i u) : (⟨S5000x128, .f32⟩ : BufTy).Contents (Elt F) → (⟨S250000x1, .i32⟩ : BufTy).Contents (Elt F) → (⟨S250000x128, .f32⟩ : BufTy).Contents (Elt F) → (⟨S5000x128, .f32⟩ : BufTy).Contents (Elt F)),
    nullary main_cst_7 (constant S_ .f32 0x3F800000#32),
    unary main_cst_7 main_v63 (broadcastInDim S250000 ![] bcast_S_S250000 : (⟨S_, .f32⟩ : BufTy).Contents (Elt F) → (⟨S250000, .f32⟩ : BufTy).Contents (Elt F)),
    nullary main_cst_8 (constant S_ .f32 0x00000000#32),
    unary main_cst_8 main_v64 (broadcastInDim S5000 ![] bcast_S_S5000 : (⟨S_, .f32⟩ : BufTy).Contents (Elt F) → (⟨S5000, .f32⟩ : BufTy).Contents (Elt F)),
    unary main_v52 main_v65 (broadcastInDim S250000x1 ![0] bcast_S250000_S250000x1_0 : (⟨S250000, .i32⟩ : BufTy).Contents (Elt F) → (⟨S250000x1, .i32⟩ : BufTy).Contents (Elt F)),
    ternary main_v64 main_v65 main_v63 main_v66 ((fun x i u => Host.scatterAdd scatter_S5000_S250000x1_S250000_n_0_0_1 x i u) : (⟨S5000, .f32⟩ : BufTy).Contents (Elt F) → (⟨S250000x1, .i32⟩ : BufTy).Contents (Elt F) → (⟨S250000, .f32⟩ : BufTy).Contents (Elt F) → (⟨S5000, .f32⟩ : BufTy).Contents (Elt F)),
    nullary main_cst_9 (constant S_ .f32 0x3F800000#32),
    unary main_cst_9 main_v67 (broadcastInDim S5000 ![] bcast_S_S5000 : (⟨S_, .f32⟩ : BufTy).Contents (Elt F) → (⟨S5000, .f32⟩ : BufTy).Contents (Elt F)),
    binary main_v66 main_v67 main_v68 (maximumf : (⟨S5000, .f32⟩ : BufTy).Contents (Elt F) → (⟨S5000, .f32⟩ : BufTy).Contents (Elt F) → (⟨S5000, .f32⟩ : BufTy).Contents (Elt F)),
    unary main_v68 main_v69 (broadcastInDim S5000x1 ![0] bcast_S5000_S5000x1_0 : (⟨S5000, .f32⟩ : BufTy).Contents (Elt F) → (⟨S5000x1, .f32⟩ : BufTy).Contents (Elt F)),
    unary main_v69 main_v70 (broadcastInDim S5000x128 ![0, 1] bcast_S5000x1_S5000x128_0_1 : (⟨S5000x1, .f32⟩ : BufTy).Contents (Elt F) → (⟨S5000x128, .f32⟩ : BufTy).Contents (Elt F)),
    binary main_v62 main_v70 main_v71 (Host.divf : (⟨S5000x128, .f32⟩ : BufTy).Contents (Elt F) → (⟨S5000x128, .f32⟩ : BufTy).Contents (Elt F) → (⟨S5000x128, .f32⟩ : BufTy).Contents (Elt F)),
    unary main_v44 main_v72 ((transpose S128x128 [1, 0] · transposes_S128x128_S128x128_1_0) : (⟨S128x128, .f32⟩ : BufTy).Contents (Elt F) → (⟨S128x128, .f32⟩ : BufTy).Contents (Elt F)),
    binary main_v71 main_v72 main_v73 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    unary main_v46 main_v74 (broadcastInDim S1x128 ![1] bcast_S128_S1x128_1 : (⟨S128, .f32⟩ : BufTy).Contents (Elt F) → (⟨S1x128, .f32⟩ : BufTy).Contents (Elt F)),
    unary main_v74 main_v75 (broadcastInDim S5000x128 ![0, 1] bcast_S1x128_S5000x128_0_1 : (⟨S1x128, .f32⟩ : BufTy).Contents (Elt F) → (⟨S5000x128, .f32⟩ : BufTy).Contents (Elt F)),
    binary main_v73 main_v75 main_v76 (addf : (⟨S5000x128, .f32⟩ : BufTy).Contents (Elt F) → (⟨S5000x128, .f32⟩ : BufTy).Contents (Elt F) → (⟨S5000x128, .f32⟩ : BufTy).Contents (Elt F)),
    unary main_v48 main_v77 ((transpose S128x128 [1, 0] · transposes_S128x128_S128x128_1_0) : (⟨S128x128, .f32⟩ : BufTy).Contents (Elt F) → (⟨S128x128, .f32⟩ : BufTy).Contents (Elt F)),
    binary main_arg2 main_v77 main_v78 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    binary main_v76 main_v78 main_v79 (addf : (⟨S5000x128, .f32⟩ : BufTy).Contents (Elt F) → (⟨S5000x128, .f32⟩ : BufTy).Contents (Elt F) → (⟨S5000x128, .f32⟩ : BufTy).Contents (Elt F)),
    unary main_v1 main_v80 ((extractStridedSlice S1x128x128 ![2, 0, 0] · slices_S8x128x128_S1x128x128_2_0_0) : (⟨S8x128x128, .f32⟩ : BufTy).Contents (Elt F) → (⟨S1x128x128, .f32⟩ : BufTy).Contents (Elt F)),
    reshape main_v80 main_v81 rfl shapeCasts_S1x128x128_S128x128,
    unary main_v3 main_v82 ((extractStridedSlice S1x128 ![2, 0] · slices_S8x128_S1x128_2_0) : (⟨S8x128, .f32⟩ : BufTy).Contents (Elt F) → (⟨S1x128, .f32⟩ : BufTy).Contents (Elt F)),
    reshape main_v82 main_v83 rfl shapeCasts_S1x128_S128,
    unary main_v5 main_v84 ((extractStridedSlice S1x128x128 ![2, 0, 0] · slices_S8x128x128_S1x128x128_2_0_0) : (⟨S8x128x128, .f32⟩ : BufTy).Contents (Elt F) → (⟨S1x128x128, .f32⟩ : BufTy).Contents (Elt F)),
    reshape main_v84 main_v85 rfl shapeCasts_S1x128x128_S128x128,
    unary main_arg8 main_v86 ((extractStridedSlice S1x250000 ![0, 0] · slices_S2x250000_S1x250000_0_0) : (⟨S2x250000, .i32⟩ : BufTy).Contents (Elt F) → (⟨S1x250000, .i32⟩ : BufTy).Contents (Elt F)),
    reshape main_v86 main_v87 rfl shapeCasts_S1x250000_S250000,
    unary main_arg8 main_v88 ((extractStridedSlice S1x250000 ![1, 0] · slices_S2x250000_S1x250000_1_0) : (⟨S2x250000, .i32⟩ : BufTy).Contents (Elt F) → (⟨S1x250000, .i32⟩ : BufTy).Contents (Elt F)),
    reshape main_v88 main_v89 rfl shapeCasts_S1x250000_S250000,
    nullary main_c_10 (constantI S_ 32 0#32),
    unary main_c_10 main_v90 (broadcastInDim S250000 ![] bcast_S_S250000 : (⟨S_, .i32⟩ : BufTy).Contents (Elt F) → (⟨S250000, .i32⟩ : BufTy).Contents (Elt F)),
    binary main_v87 main_v90 main_v91 (cmpi .slt : (⟨S250000, .i32⟩ : BufTy).Contents (Elt F) → (⟨S250000, .i32⟩ : BufTy).Contents (Elt F) → (⟨S250000, .i1⟩ : BufTy).Contents (Elt F)),
    nullary main_c_11 (constantI S_ 32 50000#32),
    unary main_c_11 main_v92 (broadcastInDim S250000 ![] bcast_S_S250000 : (⟨S_, .i32⟩ : BufTy).Contents (Elt F) → (⟨S250000, .i32⟩ : BufTy).Contents (Elt F)),
    binary main_v87 main_v92 main_v93 (addi : (⟨S250000, .i32⟩ : BufTy).Contents (Elt F) → (⟨S250000, .i32⟩ : BufTy).Contents (Elt F) → (⟨S250000, .i32⟩ : BufTy).Contents (Elt F)),
    ternary main_v91 main_v93 main_v87 main_v94 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    unary main_v94 main_v95 (broadcastInDim S250000x1 ![0] bcast_S250000_S250000x1_0 : (⟨S250000, .i32⟩ : BufTy).Contents (Elt F) → (⟨S250000x1, .i32⟩ : BufTy).Contents (Elt F)),
    binary main_arg0 main_v95 main_v96 ((fun x i => Host.gather gather_S50000x128_S250000x1_S250000x128_1_0_n_n_0_1_1128 x i) : (⟨S50000x128, .f32⟩ : BufTy).Contents (Elt F) → (⟨S250000x1, .i32⟩ : BufTy).Contents (Elt F) → (⟨S250000x128, .f32⟩ : BufTy).Contents (Elt F)),
    nullary main_cst_12 (constant S_ .f32 0x00000000#32),
    unary main_cst_12 main_v97 (broadcastInDim S5000x128 ![] bcast_S_S5000x128 : (⟨S_, .f32⟩ : BufTy).Contents (Elt F) → (⟨S5000x128, .f32⟩ : BufTy).Contents (Elt F)),
    unary main_v89 main_v98 (broadcastInDim S250000x1 ![0] bcast_S250000_S250000x1_0 : (⟨S250000, .i32⟩ : BufTy).Contents (Elt F) → (⟨S250000x1, .i32⟩ : BufTy).Contents (Elt F)),
    ternary main_v97 main_v98 main_v96 main_v99 ((fun x i u => Host.scatterAdd scatter_S5000x128_S250000x1_S250000x128_1_0_0_1 x i u) : (⟨S5000x128, .f32⟩ : BufTy).Contents (Elt F) → (⟨S250000x1, .i32⟩ : BufTy).Contents (Elt F) → (⟨S250000x128, .f32⟩ : BufTy).Contents (Elt F) → (⟨S5000x128, .f32⟩ : BufTy).Contents (Elt F)),
    nullary main_cst_13 (constant S_ .f32 0x3F800000#32),
    unary main_cst_13 main_v100 (broadcastInDim S250000 ![] bcast_S_S250000 : (⟨S_, .f32⟩ : BufTy).Contents (Elt F) → (⟨S250000, .f32⟩ : BufTy).Contents (Elt F)),
    nullary main_cst_14 (constant S_ .f32 0x00000000#32),
    unary main_cst_14 main_v101 (broadcastInDim S5000 ![] bcast_S_S5000 : (⟨S_, .f32⟩ : BufTy).Contents (Elt F) → (⟨S5000, .f32⟩ : BufTy).Contents (Elt F)),
    unary main_v89 main_v102 (broadcastInDim S250000x1 ![0] bcast_S250000_S250000x1_0 : (⟨S250000, .i32⟩ : BufTy).Contents (Elt F) → (⟨S250000x1, .i32⟩ : BufTy).Contents (Elt F)) ]

theorem part1_eq (d : Dev nD) : main_part1 (F := F) d = seq ops1 := rfl

theorem ops1_sub : (ops1 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub ..⟩

theorem ops1_fresh : (ops1 : List (HloOp τ sig (Elt F))).Forall fun op => op.fresh = ∅ := by
  simp only [List.Forall]; repeat' constructor

theorem kept1_0 (V : Valuation τ sig (Elt F)) : after (ops1 (F := F)) V (Proc.devRef .tc main_arg0) = V (Proc.devRef .tc main_arg0) := by
  after_results_simp
theorem kept1_1 (V : Valuation τ sig (Elt F)) : after (ops1 (F := F)) V (Proc.devRef .tc main_arg1) = V (Proc.devRef .tc main_arg1) := by
  after_results_simp
theorem kept1_2 (V : Valuation τ sig (Elt F)) : after (ops1 (F := F)) V (Proc.devRef .tc main_arg2) = V (Proc.devRef .tc main_arg2) := by
  after_results_simp
theorem kept1_3 (V : Valuation τ sig (Elt F)) : after (ops1 (F := F)) V (Proc.devRef .tc main_arg3) = V (Proc.devRef .tc main_arg3) := by
  after_results_simp
theorem kept1_4 (V : Valuation τ sig (Elt F)) : after (ops1 (F := F)) V (Proc.devRef .tc main_arg4) = V (Proc.devRef .tc main_arg4) := by
  after_results_simp
theorem kept1_5 (V : Valuation τ sig (Elt F)) : after (ops1 (F := F)) V (Proc.devRef .tc main_arg5) = V (Proc.devRef .tc main_arg5) := by
  after_results_simp
theorem kept1_6 (V : Valuation τ sig (Elt F)) : after (ops1 (F := F)) V (Proc.devRef .tc main_arg6) = V (Proc.devRef .tc main_arg6) := by
  after_results_simp
theorem kept1_7 (V : Valuation τ sig (Elt F)) : after (ops1 (F := F)) V (Proc.devRef .tc main_arg7) = V (Proc.devRef .tc main_arg7) := by
  after_results_simp
theorem kept1_8 (V : Valuation τ sig (Elt F)) : after (ops1 (F := F)) V (Proc.devRef .tc main_arg8) = V (Proc.devRef .tc main_arg8) := by
  after_results_simp
theorem kept1_9 (V : Valuation τ sig (Elt F)) : after (ops1 (F := F)) V (Proc.devRef .tc main_arg9) = V (Proc.devRef .tc main_arg9) := by
  after_results_simp
theorem kept1_10 (V : Valuation τ sig (Elt F)) : after (ops1 (F := F)) V (Proc.devRef .tc main_arg10) = V (Proc.devRef .tc main_arg10) := by
  after_results_simp
theorem kept1_11 (V : Valuation τ sig (Elt F)) : after (ops1 (F := F)) V (Proc.devRef .tc main_arg11) = V (Proc.devRef .tc main_arg11) := by
  after_results_simp
theorem kept1_12 (V : Valuation τ sig (Elt F)) : after (ops1 (F := F)) V (Proc.devRef .tc main_arg12) = V (Proc.devRef .tc main_arg12) := by
  after_results_simp
theorem kept1_13 (V : Valuation τ sig (Elt F)) : after (ops1 (F := F)) V (Proc.devRef .tc main_arg13) = V (Proc.devRef .tc main_arg13) := by
  after_results_simp

/-- Part 2's 60 operations, in order. -/
abbrev ops2 : List (HloOp τ sig (Elt F)) :=
  [ ternary main_v101 main_v102 main_v100 main_v103 ((fun x i u => Host.scatterAdd scatter_S5000_S250000x1_S250000_n_0_0_1 x i u) : (⟨S5000, .f32⟩ : BufTy).Contents (Elt F) → (⟨S250000x1, .i32⟩ : BufTy).Contents (Elt F) → (⟨S250000, .f32⟩ : BufTy).Contents (Elt F) → (⟨S5000, .f32⟩ : BufTy).Contents (Elt F)),
    nullary main_cst_15 (constant S_ .f32 0x3F800000#32),
    unary main_cst_15 main_v104 (broadcastInDim S5000 ![] bcast_S_S5000 : (⟨S_, .f32⟩ : BufTy).Contents (Elt F) → (⟨S5000, .f32⟩ : BufTy).Contents (Elt F)),
    binary main_v103 main_v104 main_v105 (maximumf : (⟨S5000, .f32⟩ : BufTy).Contents (Elt F) → (⟨S5000, .f32⟩ : BufTy).Contents (Elt F) → (⟨S5000, .f32⟩ : BufTy).Contents (Elt F)),
    unary main_v105 main_v106 (broadcastInDim S5000x1 ![0] bcast_S5000_S5000x1_0 : (⟨S5000, .f32⟩ : BufTy).Contents (Elt F) → (⟨S5000x1, .f32⟩ : BufTy).Contents (Elt F)),
    unary main_v106 main_v107 (broadcastInDim S5000x128 ![0, 1] bcast_S5000x1_S5000x128_0_1 : (⟨S5000x1, .f32⟩ : BufTy).Contents (Elt F) → (⟨S5000x128, .f32⟩ : BufTy).Contents (Elt F)),
    binary main_v99 main_v107 main_v108 (Host.divf : (⟨S5000x128, .f32⟩ : BufTy).Contents (Elt F) → (⟨S5000x128, .f32⟩ : BufTy).Contents (Elt F) → (⟨S5000x128, .f32⟩ : BufTy).Contents (Elt F)),
    unary main_v81 main_v109 ((transpose S128x128 [1, 0] · transposes_S128x128_S128x128_1_0) : (⟨S128x128, .f32⟩ : BufTy).Contents (Elt F) → (⟨S128x128, .f32⟩ : BufTy).Contents (Elt F)),
    binary main_v108 main_v109 main_v110 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    unary main_v83 main_v111 (broadcastInDim S1x128 ![1] bcast_S128_S1x128_1 : (⟨S128, .f32⟩ : BufTy).Contents (Elt F) → (⟨S1x128, .f32⟩ : BufTy).Contents (Elt F)),
    unary main_v111 main_v112 (broadcastInDim S5000x128 ![0, 1] bcast_S1x128_S5000x128_0_1 : (⟨S1x128, .f32⟩ : BufTy).Contents (Elt F) → (⟨S5000x128, .f32⟩ : BufTy).Contents (Elt F)),
    binary main_v110 main_v112 main_v113 (addf : (⟨S5000x128, .f32⟩ : BufTy).Contents (Elt F) → (⟨S5000x128, .f32⟩ : BufTy).Contents (Elt F) → (⟨S5000x128, .f32⟩ : BufTy).Contents (Elt F)),
    unary main_v85 main_v114 ((transpose S128x128 [1, 0] · transposes_S128x128_S128x128_1_0) : (⟨S128x128, .f32⟩ : BufTy).Contents (Elt F) → (⟨S128x128, .f32⟩ : BufTy).Contents (Elt F)),
    binary main_arg2 main_v114 main_v115 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    binary main_v113 main_v115 main_v116 (addf : (⟨S5000x128, .f32⟩ : BufTy).Contents (Elt F) → (⟨S5000x128, .f32⟩ : BufTy).Contents (Elt F) → (⟨S5000x128, .f32⟩ : BufTy).Contents (Elt F)),
    unary main_v1 main_v117 ((extractStridedSlice S1x128x128 ![3, 0, 0] · slices_S8x128x128_S1x128x128_3_0_0) : (⟨S8x128x128, .f32⟩ : BufTy).Contents (Elt F) → (⟨S1x128x128, .f32⟩ : BufTy).Contents (Elt F)),
    reshape main_v117 main_v118 rfl shapeCasts_S1x128x128_S128x128,
    unary main_v3 main_v119 ((extractStridedSlice S1x128 ![3, 0] · slices_S8x128_S1x128_3_0) : (⟨S8x128, .f32⟩ : BufTy).Contents (Elt F) → (⟨S1x128, .f32⟩ : BufTy).Contents (Elt F)),
    reshape main_v119 main_v120 rfl shapeCasts_S1x128_S128,
    unary main_v5 main_v121 ((extractStridedSlice S1x128x128 ![3, 0, 0] · slices_S8x128x128_S1x128x128_3_0_0) : (⟨S8x128x128, .f32⟩ : BufTy).Contents (Elt F) → (⟨S1x128x128, .f32⟩ : BufTy).Contents (Elt F)),
    reshape main_v121 main_v122 rfl shapeCasts_S1x128x128_S128x128,
    unary main_arg9 main_v123 ((extractStridedSlice S1x500000 ![0, 0] · slices_S2x500000_S1x500000_0_0) : (⟨S2x500000, .i32⟩ : BufTy).Contents (Elt F) → (⟨S1x500000, .i32⟩ : BufTy).Contents (Elt F)),
    reshape main_v123 main_v124 rfl shapeCasts_S1x500000_S500000,
    unary main_arg9 main_v125 ((extractStridedSlice S1x500000 ![1, 0] · slices_S2x500000_S1x500000_1_0) : (⟨S2x500000, .i32⟩ : BufTy).Contents (Elt F) → (⟨S1x500000, .i32⟩ : BufTy).Contents (Elt F)),
    reshape main_v125 main_v126 rfl shapeCasts_S1x500000_S500000,
    nullary main_c_16 (constantI S_ 32 0#32),
    unary main_c_16 main_v127 (broadcastInDim S500000 ![] bcast_S_S500000 : (⟨S_, .i32⟩ : BufTy).Contents (Elt F) → (⟨S500000, .i32⟩ : BufTy).Contents (Elt F)),
    binary main_v124 main_v127 main_v128 (cmpi .slt : (⟨S500000, .i32⟩ : BufTy).Contents (Elt F) → (⟨S500000, .i32⟩ : BufTy).Contents (Elt F) → (⟨S500000, .i1⟩ : BufTy).Contents (Elt F)),
    nullary main_c_17 (constantI S_ 32 20000#32),
    unary main_c_17 main_v129 (broadcastInDim S500000 ![] bcast_S_S500000 : (⟨S_, .i32⟩ : BufTy).Contents (Elt F) → (⟨S500000, .i32⟩ : BufTy).Contents (Elt F)),
    binary main_v124 main_v129 main_v130 (addi : (⟨S500000, .i32⟩ : BufTy).Contents (Elt F) → (⟨S500000, .i32⟩ : BufTy).Contents (Elt F) → (⟨S500000, .i32⟩ : BufTy).Contents (Elt F)),
    ternary main_v128 main_v130 main_v124 main_v131 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v131 main_v132 (broadcastInDim S500000x1 ![0] bcast_S500000_S500000x1_0 : (⟨S500000, .i32⟩ : BufTy).Contents (Elt F) → (⟨S500000x1, .i32⟩ : BufTy).Contents (Elt F)),
    binary main_arg1 main_v132 main_v133 ((fun x i => Host.gather gather_S20000x128_S500000x1_S500000x128_1_0_n_n_0_1_1128 x i) : (⟨S20000x128, .f32⟩ : BufTy).Contents (Elt F) → (⟨S500000x1, .i32⟩ : BufTy).Contents (Elt F) → (⟨S500000x128, .f32⟩ : BufTy).Contents (Elt F)),
    nullary main_cst_18 (constant S_ .f32 0x00000000#32),
    unary main_cst_18 main_v134 (broadcastInDim S50000x128 ![] bcast_S_S50000x128 : (⟨S_, .f32⟩ : BufTy).Contents (Elt F) → (⟨S50000x128, .f32⟩ : BufTy).Contents (Elt F)),
    unary main_v126 main_v135 (broadcastInDim S500000x1 ![0] bcast_S500000_S500000x1_0 : (⟨S500000, .i32⟩ : BufTy).Contents (Elt F) → (⟨S500000x1, .i32⟩ : BufTy).Contents (Elt F)),
    ternary main_v134 main_v135 main_v133 main_v136 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)),
    nullary main_cst_19 (constant S_ .f32 0x3F800000#32),
    unary main_cst_19 main_v137 (broadcastInDim S500000 ![] bcast_S_S500000 : (⟨S_, .f32⟩ : BufTy).Contents (Elt F) → (⟨S500000, .f32⟩ : BufTy).Contents (Elt F)),
    nullary main_cst_20 (constant S_ .f32 0x00000000#32),
    unary main_cst_20 main_v138 (broadcastInDim S50000 ![] bcast_S_S50000 : (⟨S_, .f32⟩ : BufTy).Contents (Elt F) → (⟨S50000, .f32⟩ : BufTy).Contents (Elt F)),
    unary main_v126 main_v139 (broadcastInDim S500000x1 ![0] bcast_S500000_S500000x1_0 : (⟨S500000, .i32⟩ : BufTy).Contents (Elt F) → (⟨S500000x1, .i32⟩ : BufTy).Contents (Elt F)),
    ternary main_v138 main_v139 main_v137 main_v140 ((fun x i u => Host.scatterAdd scatter_S50000_S500000x1_S500000_n_0_0_1 x i u) : (⟨S50000, .f32⟩ : BufTy).Contents (Elt F) → (⟨S500000x1, .i32⟩ : BufTy).Contents (Elt F) → (⟨S500000, .f32⟩ : BufTy).Contents (Elt F) → (⟨S50000, .f32⟩ : BufTy).Contents (Elt F)),
    nullary main_cst_21 (constant S_ .f32 0x3F800000#32),
    unary main_cst_21 main_v141 (broadcastInDim S50000 ![] bcast_S_S50000 : (⟨S_, .f32⟩ : BufTy).Contents (Elt F) → (⟨S50000, .f32⟩ : BufTy).Contents (Elt F)),
    binary main_v140 main_v141 main_v142 (maximumf : (⟨S50000, .f32⟩ : BufTy).Contents (Elt F) → (⟨S50000, .f32⟩ : BufTy).Contents (Elt F) → (⟨S50000, .f32⟩ : BufTy).Contents (Elt F)),
    unary main_v142 main_v143 (broadcastInDim S50000x1 ![0] bcast_S50000_S50000x1_0 : (⟨S50000, .f32⟩ : BufTy).Contents (Elt F) → (⟨S50000x1, .f32⟩ : BufTy).Contents (Elt F)),
    unary main_v143 main_v144 (broadcastInDim S50000x128 ![0, 1] bcast_S50000x1_S50000x128_0_1 : (⟨S50000x1, .f32⟩ : BufTy).Contents (Elt F) → (⟨S50000x128, .f32⟩ : BufTy).Contents (Elt F)),
    binary main_v136 main_v144 main_v145 (Host.divf : (⟨S50000x128, .f32⟩ : BufTy).Contents (Elt F) → (⟨S50000x128, .f32⟩ : BufTy).Contents (Elt F) → (⟨S50000x128, .f32⟩ : BufTy).Contents (Elt F)),
    unary main_v118 main_v146 ((transpose S128x128 [1, 0] · transposes_S128x128_S128x128_1_0) : (⟨S128x128, .f32⟩ : BufTy).Contents (Elt F) → (⟨S128x128, .f32⟩ : BufTy).Contents (Elt F)),
    binary main_v145 main_v146 main_v147 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v120 main_v148 (broadcastInDim S1x128 ![1] bcast_S128_S1x128_1 : (⟨S128, .f32⟩ : BufTy).Contents (Elt F) → (⟨S1x128, .f32⟩ : BufTy).Contents (Elt F)),
    unary main_v148 main_v149 (broadcastInDim S50000x128 ![0, 1] bcast_S1x128_S50000x128_0_1 : (⟨S1x128, .f32⟩ : BufTy).Contents (Elt F) → (⟨S50000x128, .f32⟩ : BufTy).Contents (Elt F)),
    binary main_v147 main_v149 main_v150 (addf : (⟨S50000x128, .f32⟩ : BufTy).Contents (Elt F) → (⟨S50000x128, .f32⟩ : BufTy).Contents (Elt F) → (⟨S50000x128, .f32⟩ : BufTy).Contents (Elt F)),
    unary main_v122 main_v151 ((transpose S128x128 [1, 0] · transposes_S128x128_S128x128_1_0) : (⟨S128x128, .f32⟩ : BufTy).Contents (Elt F) → (⟨S128x128, .f32⟩ : BufTy).Contents (Elt F)),
    binary main_arg0 main_v151 main_v152 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v150 main_v152 main_v153 (addf : (⟨S50000x128, .f32⟩ : BufTy).Contents (Elt F) → (⟨S50000x128, .f32⟩ : BufTy).Contents (Elt F) → (⟨S50000x128, .f32⟩ : BufTy).Contents (Elt F)),
    unary main_v1 main_v154 ((extractStridedSlice S1x128x128 ![4, 0, 0] · slices_S8x128x128_S1x128x128_4_0_0) : (⟨S8x128x128, .f32⟩ : BufTy).Contents (Elt F) → (⟨S1x128x128, .f32⟩ : BufTy).Contents (Elt F)),
    reshape main_v154 main_v155 rfl shapeCasts_S1x128x128_S128x128 ]

theorem part2_eq (d : Dev nD) : main_part2 (F := F) d = seq ops2 := rfl

theorem ops2_sub : (ops2 : List (HloOp τ sig (Elt F))).Forall fun op => op.bufs ⊆ tcRefs τ sig :=
  ⟨ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., reshape_bufs_sub ..⟩

theorem ops2_fresh : (ops2 : List (HloOp τ sig (Elt F))).Forall fun op => op.fresh = ∅ := by
  simp only [List.Forall]; repeat' constructor

theorem kept2_0 (V : Valuation τ sig (Elt F)) : after (ops2 (F := F)) V (Proc.devRef .tc main_arg0) = V (Proc.devRef .tc main_arg0) := by
  after_results_simp
theorem kept2_1 (V : Valuation τ sig (Elt F)) : after (ops2 (F := F)) V (Proc.devRef .tc main_arg1) = V (Proc.devRef .tc main_arg1) := by
  after_results_simp
theorem kept2_2 (V : Valuation τ sig (Elt F)) : after (ops2 (F := F)) V (Proc.devRef .tc main_arg2) = V (Proc.devRef .tc main_arg2) := by
  after_results_simp
theorem kept2_3 (V : Valuation τ sig (Elt F)) : after (ops2 (F := F)) V (Proc.devRef .tc main_arg3) = V (Proc.devRef .tc main_arg3) := by
  after_results_simp
theorem kept2_4 (V : Valuation τ sig (Elt F)) : after (ops2 (F := F)) V (Proc.devRef .tc main_arg4) = V (Proc.devRef .tc main_arg4) := by
  after_results_simp
theorem kept2_5 (V : Valuation τ sig (Elt F)) : after (ops2 (F := F)) V (Proc.devRef .tc main_arg5) = V (Proc.devRef .tc main_arg5) := by
  after_results_simp
theorem kept2_6 (V : Valuation τ sig (Elt F)) : after (ops2 (F := F)) V (Proc.devRef .tc main_arg6) = V (Proc.devRef .tc main_arg6) := by
  after_results_simp
theorem kept2_7 (V : Valuation τ sig (Elt F)) : after (ops2 (F := F)) V (Proc.devRef .tc main_arg7) = V (Proc.devRef .tc main_arg7) := by
  after_results_simp
theorem kept2_8 (V : Valuation τ sig (Elt F)) : after (ops2 (F := F)) V (Proc.devRef .tc main_arg8) = V (Proc.devRef .tc main_arg8) := by
  after_results_simp
theorem kept2_9 (V : Valuation τ sig (Elt F)) : after (ops2 (F := F)) V (Proc.devRef .tc main_arg9) = V (Proc.devRef .tc main_arg9) := by
  after_results_simp
theorem kept2_10 (V : Valuation τ sig (Elt F)) : after (ops2 (F := F)) V (Proc.devRef .tc main_arg10) = V (Proc.devRef .tc main_arg10) := by
  after_results_simp
theorem kept2_11 (V : Valuation τ sig (Elt F)) : after (ops2 (F := F)) V (Proc.devRef .tc main_arg11) = V (Proc.devRef .tc main_arg11) := by
  after_results_simp
theorem kept2_12 (V : Valuation τ sig (Elt F)) : after (ops2 (F := F)) V (Proc.devRef .tc main_arg12) = V (Proc.devRef .tc main_arg12) := by
  after_results_simp
theorem kept2_13 (V : Valuation τ sig (Elt F)) : after (ops2 (F := F)) V (Proc.devRef .tc main_arg13) = V (Proc.devRef .tc main_arg13) := by
  after_results_simp

/-- Part 3's 60 operations, in order. -/
abbrev ops3 : List (HloOp τ sig (Elt F)) :=
  [ unary main_v3 main_v156 ((extractStridedSlice S1x128 ![4, 0] · slices_S8x128_S1x128_4_0) : (⟨S8x128, .f32⟩ : BufTy).Contents (Elt F) → (⟨S1x128, .f32⟩ : BufTy).Contents (Elt F)),
    reshape main_v156 main_v157 rfl shapeCasts_S1x128_S128,
    unary main_v5 main_v158 ((extractStridedSlice S1x128x128 ![4, 0, 0] · slices_S8x128x128_S1x128x128_4_0_0) : (⟨S8x128x128, .f32⟩ : BufTy).Contents (Elt F) → (⟨S1x128x128, .f32⟩ : BufTy).Contents (Elt F)),
    reshape main_v158 main_v159 rfl shapeCasts_S1x128x128_S128x128,
    unary main_arg10 main_v160 ((extractStridedSlice S1x250000 ![0, 0] · slices_S2x250000_S1x250000_0_0) : (⟨S2x250000, .i32⟩ : BufTy).Contents (Elt F) → (⟨S1x250000, .i32⟩ : BufTy).Contents (Elt F)),
    reshape main_v160 main_v161 rfl shapeCasts_S1x250000_S250000,
    unary main_arg10 main_v162 ((extractStridedSlice S1x250000 ![1, 0] · slices_S2x250000_S1x250000_1_0) : (⟨S2x250000, .i32⟩ : BufTy).Contents (Elt F) → (⟨S1x250000, .i32⟩ : BufTy).Contents (Elt F)),
    reshape main_v162 main_v163 rfl shapeCasts_S1x250000_S250000,
    nullary main_c_22 (constantI S_ 32 0#32),
    unary main_c_22 main_v164 (broadcastInDim S250000 ![] bcast_S_S250000 : (⟨S_, .i32⟩ : BufTy).Contents (Elt F) → (⟨S250000, .i32⟩ : BufTy).Contents (Elt F)),
    binary main_v161 main_v164 main_v165 (cmpi .slt : (⟨S250000, .i32⟩ : BufTy).Contents (Elt F) → (⟨S250000, .i32⟩ : BufTy).Contents (Elt F) → (⟨S250000, .i1⟩ : BufTy).Contents (Elt F)),
    nullary main_c_23 (constantI S_ 32 5000#32),
    unary main_c_23 main_v166 (broadcastInDim S250000 ![] bcast_S_S250000 : (⟨S_, .i32⟩ : BufTy).Contents (Elt F) → (⟨S250000, .i32⟩ : BufTy).Contents (Elt F)),
    binary main_v161 main_v166 main_v167 (addi : (⟨S250000, .i32⟩ : BufTy).Contents (Elt F) → (⟨S250000, .i32⟩ : BufTy).Contents (Elt F) → (⟨S250000, .i32⟩ : BufTy).Contents (Elt F)),
    ternary main_v165 main_v167 main_v161 main_v168 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    unary main_v168 main_v169 (broadcastInDim S250000x1 ![0] bcast_S250000_S250000x1_0 : (⟨S250000, .i32⟩ : BufTy).Contents (Elt F) → (⟨S250000x1, .i32⟩ : BufTy).Contents (Elt F)),
    binary main_arg2 main_v169 main_v170 ((fun x i => Host.gather gather_S5000x128_S250000x1_S250000x128_1_0_n_n_0_1_1128 x i) : (⟨S5000x128, .f32⟩ : BufTy).Contents (Elt F) → (⟨S250000x1, .i32⟩ : BufTy).Contents (Elt F) → (⟨S250000x128, .f32⟩ : BufTy).Contents (Elt F)),
    nullary main_cst_24 (constant S_ .f32 0x00000000#32),
    unary main_cst_24 main_v171 (broadcastInDim S20000x128 ![] bcast_S_S20000x128 : (⟨S_, .f32⟩ : BufTy).Contents (Elt F) → (⟨S20000x128, .f32⟩ : BufTy).Contents (Elt F)),
    unary main_v163 main_v172 (broadcastInDim S250000x1 ![0] bcast_S250000_S250000x1_0 : (⟨S250000, .i32⟩ : BufTy).Contents (Elt F) → (⟨S250000x1, .i32⟩ : BufTy).Contents (Elt F)),
    ternary main_v171 main_v172 main_v170 main_v173 ((fun x i u => Host.scatterAdd scatter_S20000x128_S250000x1_S250000x128_1_0_0_1 x i u) : (⟨S20000x128, .f32⟩ : BufTy).Contents (Elt F) → (⟨S250000x1, .i32⟩ : BufTy).Contents (Elt F) → (⟨S250000x128, .f32⟩ : BufTy).Contents (Elt F) → (⟨S20000x128, .f32⟩ : BufTy).Contents (Elt F)),
    nullary main_cst_25 (constant S_ .f32 0x3F800000#32),
    unary main_cst_25 main_v174 (broadcastInDim S250000 ![] bcast_S_S250000 : (⟨S_, .f32⟩ : BufTy).Contents (Elt F) → (⟨S250000, .f32⟩ : BufTy).Contents (Elt F)),
    nullary main_cst_26 (constant S_ .f32 0x00000000#32),
    unary main_cst_26 main_v175 (broadcastInDim S20000 ![] bcast_S_S20000 : (⟨S_, .f32⟩ : BufTy).Contents (Elt F) → (⟨S20000, .f32⟩ : BufTy).Contents (Elt F)),
    unary main_v163 main_v176 (broadcastInDim S250000x1 ![0] bcast_S250000_S250000x1_0 : (⟨S250000, .i32⟩ : BufTy).Contents (Elt F) → (⟨S250000x1, .i32⟩ : BufTy).Contents (Elt F)),
    ternary main_v175 main_v176 main_v174 main_v177 ((fun x i u => Host.scatterAdd scatter_S20000_S250000x1_S250000_n_0_0_1 x i u) : (⟨S20000, .f32⟩ : BufTy).Contents (Elt F) → (⟨S250000x1, .i32⟩ : BufTy).Contents (Elt F) → (⟨S250000, .f32⟩ : BufTy).Contents (Elt F) → (⟨S20000, .f32⟩ : BufTy).Contents (Elt F)),
    nullary main_cst_27 (constant S_ .f32 0x3F800000#32),
    unary main_cst_27 main_v178 (broadcastInDim S20000 ![] bcast_S_S20000 : (⟨S_, .f32⟩ : BufTy).Contents (Elt F) → (⟨S20000, .f32⟩ : BufTy).Contents (Elt F)),
    binary main_v177 main_v178 main_v179 (maximumf : (⟨S20000, .f32⟩ : BufTy).Contents (Elt F) → (⟨S20000, .f32⟩ : BufTy).Contents (Elt F) → (⟨S20000, .f32⟩ : BufTy).Contents (Elt F)),
    unary main_v179 main_v180 (broadcastInDim S20000x1 ![0] bcast_S20000_S20000x1_0 : (⟨S20000, .f32⟩ : BufTy).Contents (Elt F) → (⟨S20000x1, .f32⟩ : BufTy).Contents (Elt F)),
    unary main_v180 main_v181 (broadcastInDim S20000x128 ![0, 1] bcast_S20000x1_S20000x128_0_1 : (⟨S20000x1, .f32⟩ : BufTy).Contents (Elt F) → (⟨S20000x128, .f32⟩ : BufTy).Contents (Elt F)),
    binary main_v173 main_v181 main_v182 (Host.divf : (⟨S20000x128, .f32⟩ : BufTy).Contents (Elt F) → (⟨S20000x128, .f32⟩ : BufTy).Contents (Elt F) → (⟨S20000x128, .f32⟩ : BufTy).Contents (Elt F)),
    unary main_v155 main_v183 ((transpose S128x128 [1, 0] · transposes_S128x128_S128x128_1_0) : (⟨S128x128, .f32⟩ : BufTy).Contents (Elt F) → (⟨S128x128, .f32⟩ : BufTy).Contents (Elt F)),
    binary main_v182 main_v183 main_v184 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_v157 main_v185 (broadcastInDim S1x128 ![1] bcast_S128_S1x128_1 : (⟨S128, .f32⟩ : BufTy).Contents (Elt F) → (⟨S1x128, .f32⟩ : BufTy).Contents (Elt F)),
    unary main_v185 main_v186 (broadcastInDim S20000x128 ![0, 1] bcast_S1x128_S20000x128_0_1 : (⟨S1x128, .f32⟩ : BufTy).Contents (Elt F) → (⟨S20000x128, .f32⟩ : BufTy).Contents (Elt F)),
    binary main_v184 main_v186 main_v187 (addf : (⟨S20000x128, .f32⟩ : BufTy).Contents (Elt F) → (⟨S20000x128, .f32⟩ : BufTy).Contents (Elt F) → (⟨S20000x128, .f32⟩ : BufTy).Contents (Elt F)),
    unary main_v159 main_v188 ((transpose S128x128 [1, 0] · transposes_S128x128_S128x128_1_0) : (⟨S128x128, .f32⟩ : BufTy).Contents (Elt F) → (⟨S128x128, .f32⟩ : BufTy).Contents (Elt F)),
    binary main_arg1 main_v188 main_v189 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    binary main_v187 main_v189 main_v190 (addf : (⟨S20000x128, .f32⟩ : BufTy).Contents (Elt F) → (⟨S20000x128, .f32⟩ : BufTy).Contents (Elt F) → (⟨S20000x128, .f32⟩ : BufTy).Contents (Elt F)),
    unary main_v1 main_v191 ((extractStridedSlice S1x128x128 ![5, 0, 0] · slices_S8x128x128_S1x128x128_5_0_0) : (⟨S8x128x128, .f32⟩ : BufTy).Contents (Elt F) → (⟨S1x128x128, .f32⟩ : BufTy).Contents (Elt F)),
    reshape main_v191 main_v192 rfl shapeCasts_S1x128x128_S128x128,
    unary main_v3 main_v193 ((extractStridedSlice S1x128 ![5, 0] · slices_S8x128_S1x128_5_0) : (⟨S8x128, .f32⟩ : BufTy).Contents (Elt F) → (⟨S1x128, .f32⟩ : BufTy).Contents (Elt F)),
    reshape main_v193 main_v194 rfl shapeCasts_S1x128_S128,
    unary main_v5 main_v195 ((extractStridedSlice S1x128x128 ![5, 0, 0] · slices_S8x128x128_S1x128x128_5_0_0) : (⟨S8x128x128, .f32⟩ : BufTy).Contents (Elt F) → (⟨S1x128x128, .f32⟩ : BufTy).Contents (Elt F)),
    reshape main_v195 main_v196 rfl shapeCasts_S1x128x128_S128x128,
    unary main_arg11 main_v197 ((extractStridedSlice S1x250000 ![0, 0] · slices_S2x250000_S1x250000_0_0) : (⟨S2x250000, .i32⟩ : BufTy).Contents (Elt F) → (⟨S1x250000, .i32⟩ : BufTy).Contents (Elt F)),
    reshape main_v197 main_v198 rfl shapeCasts_S1x250000_S250000,
    unary main_arg11 main_v199 ((extractStridedSlice S1x250000 ![1, 0] · slices_S2x250000_S1x250000_1_0) : (⟨S2x250000, .i32⟩ : BufTy).Contents (Elt F) → (⟨S1x250000, .i32⟩ : BufTy).Contents (Elt F)),
    reshape main_v199 main_v200 rfl shapeCasts_S1x250000_S250000,
    nullary main_c_28 (constantI S_ 32 0#32),
    unary main_c_28 main_v201 (broadcastInDim S250000 ![] bcast_S_S250000 : (⟨S_, .i32⟩ : BufTy).Contents (Elt F) → (⟨S250000, .i32⟩ : BufTy).Contents (Elt F)),
    binary main_v198 main_v201 main_v202 (cmpi .slt : (⟨S250000, .i32⟩ : BufTy).Contents (Elt F) → (⟨S250000, .i32⟩ : BufTy).Contents (Elt F) → (⟨S250000, .i1⟩ : BufTy).Contents (Elt F)),
    nullary main_c_29 (constantI S_ 32 5000#32),
    unary main_c_29 main_v203 (broadcastInDim S250000 ![] bcast_S_S250000 : (⟨S_, .i32⟩ : BufTy).Contents (Elt F) → (⟨S250000, .i32⟩ : BufTy).Contents (Elt F)),
    binary main_v198 main_v203 main_v204 (addi : (⟨S250000, .i32⟩ : BufTy).Contents (Elt F) → (⟨S250000, .i32⟩ : BufTy).Contents (Elt F) → (⟨S250000, .i32⟩ : BufTy).Contents (Elt F)),
    ternary main_v202 main_v204 main_v198 main_v205 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    unary main_v205 main_v206 (broadcastInDim S250000x1 ![0] bcast_S250000_S250000x1_0 : (⟨S250000, .i32⟩ : BufTy).Contents (Elt F) → (⟨S250000x1, .i32⟩ : BufTy).Contents (Elt F)),
    binary main_arg2 main_v206 main_v207 ((fun x i => Host.gather gather_S5000x128_S250000x1_S250000x128_1_0_n_n_0_1_1128 x i) : (⟨S5000x128, .f32⟩ : BufTy).Contents (Elt F) → (⟨S250000x1, .i32⟩ : BufTy).Contents (Elt F) → (⟨S250000x128, .f32⟩ : BufTy).Contents (Elt F)) ]

theorem part3_eq (d : Dev nD) : main_part3 (F := F) d = seq ops3 := rfl

theorem ops3_sub : (ops3 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub ..⟩

theorem ops3_fresh : (ops3 : List (HloOp τ sig (Elt F))).Forall fun op => op.fresh = ∅ := by
  simp only [List.Forall]; repeat' constructor

theorem kept3_0 (V : Valuation τ sig (Elt F)) : after (ops3 (F := F)) V (Proc.devRef .tc main_arg0) = V (Proc.devRef .tc main_arg0) := by
  after_results_simp
theorem kept3_1 (V : Valuation τ sig (Elt F)) : after (ops3 (F := F)) V (Proc.devRef .tc main_arg1) = V (Proc.devRef .tc main_arg1) := by
  after_results_simp
theorem kept3_2 (V : Valuation τ sig (Elt F)) : after (ops3 (F := F)) V (Proc.devRef .tc main_arg2) = V (Proc.devRef .tc main_arg2) := by
  after_results_simp
theorem kept3_3 (V : Valuation τ sig (Elt F)) : after (ops3 (F := F)) V (Proc.devRef .tc main_arg3) = V (Proc.devRef .tc main_arg3) := by
  after_results_simp
theorem kept3_4 (V : Valuation τ sig (Elt F)) : after (ops3 (F := F)) V (Proc.devRef .tc main_arg4) = V (Proc.devRef .tc main_arg4) := by
  after_results_simp
theorem kept3_5 (V : Valuation τ sig (Elt F)) : after (ops3 (F := F)) V (Proc.devRef .tc main_arg5) = V (Proc.devRef .tc main_arg5) := by
  after_results_simp
theorem kept3_6 (V : Valuation τ sig (Elt F)) : after (ops3 (F := F)) V (Proc.devRef .tc main_arg6) = V (Proc.devRef .tc main_arg6) := by
  after_results_simp
theorem kept3_7 (V : Valuation τ sig (Elt F)) : after (ops3 (F := F)) V (Proc.devRef .tc main_arg7) = V (Proc.devRef .tc main_arg7) := by
  after_results_simp
theorem kept3_8 (V : Valuation τ sig (Elt F)) : after (ops3 (F := F)) V (Proc.devRef .tc main_arg8) = V (Proc.devRef .tc main_arg8) := by
  after_results_simp
theorem kept3_9 (V : Valuation τ sig (Elt F)) : after (ops3 (F := F)) V (Proc.devRef .tc main_arg9) = V (Proc.devRef .tc main_arg9) := by
  after_results_simp
theorem kept3_10 (V : Valuation τ sig (Elt F)) : after (ops3 (F := F)) V (Proc.devRef .tc main_arg10) = V (Proc.devRef .tc main_arg10) := by
  after_results_simp
theorem kept3_11 (V : Valuation τ sig (Elt F)) : after (ops3 (F := F)) V (Proc.devRef .tc main_arg11) = V (Proc.devRef .tc main_arg11) := by
  after_results_simp
theorem kept3_12 (V : Valuation τ sig (Elt F)) : after (ops3 (F := F)) V (Proc.devRef .tc main_arg12) = V (Proc.devRef .tc main_arg12) := by
  after_results_simp
theorem kept3_13 (V : Valuation τ sig (Elt F)) : after (ops3 (F := F)) V (Proc.devRef .tc main_arg13) = V (Proc.devRef .tc main_arg13) := by
  after_results_simp

/-- Part 4's 60 operations, in order. -/
abbrev ops4 : List (HloOp τ sig (Elt F)) :=
  [ nullary main_cst_30 (constant S_ .f32 0x00000000#32),
    unary main_cst_30 main_v208 (broadcastInDim S50000x128 ![] bcast_S_S50000x128 : (⟨S_, .f32⟩ : BufTy).Contents (Elt F) → (⟨S50000x128, .f32⟩ : BufTy).Contents (Elt F)),
    unary main_v200 main_v209 (broadcastInDim S250000x1 ![0] bcast_S250000_S250000x1_0 : (⟨S250000, .i32⟩ : BufTy).Contents (Elt F) → (⟨S250000x1, .i32⟩ : BufTy).Contents (Elt F)),
    ternary main_v208 main_v209 main_v207 main_v210 ((fun x i u => Host.scatterAdd scatter_S50000x128_S250000x1_S250000x128_1_0_0_1 x i u) : (⟨S50000x128, .f32⟩ : BufTy).Contents (Elt F) → (⟨S250000x1, .i32⟩ : BufTy).Contents (Elt F) → (⟨S250000x128, .f32⟩ : BufTy).Contents (Elt F) → (⟨S50000x128, .f32⟩ : BufTy).Contents (Elt F)),
    nullary main_cst_31 (constant S_ .f32 0x3F800000#32),
    unary main_cst_31 main_v211 (broadcastInDim S250000 ![] bcast_S_S250000 : (⟨S_, .f32⟩ : BufTy).Contents (Elt F) → (⟨S250000, .f32⟩ : BufTy).Contents (Elt F)),
    nullary main_cst_32 (constant S_ .f32 0x00000000#32),
    unary main_cst_32 main_v212 (broadcastInDim S50000 ![] bcast_S_S50000 : (⟨S_, .f32⟩ : BufTy).Contents (Elt F) → (⟨S50000, .f32⟩ : BufTy).Contents (Elt F)),
    unary main_v200 main_v213 (broadcastInDim S250000x1 ![0] bcast_S250000_S250000x1_0 : (⟨S250000, .i32⟩ : BufTy).Contents (Elt F) → (⟨S250000x1, .i32⟩ : BufTy).Contents (Elt F)),
    ternary main_v212 main_v213 main_v211 main_v214 ((fun x i u => Host.scatterAdd scatter_S50000_S250000x1_S250000_n_0_0_1 x i u) : (⟨S50000, .f32⟩ : BufTy).Contents (Elt F) → (⟨S250000x1, .i32⟩ : BufTy).Contents (Elt F) → (⟨S250000, .f32⟩ : BufTy).Contents (Elt F) → (⟨S50000, .f32⟩ : BufTy).Contents (Elt F)),
    nullary main_cst_33 (constant S_ .f32 0x3F800000#32),
    unary main_cst_33 main_v215 (broadcastInDim S50000 ![] bcast_S_S50000 : (⟨S_, .f32⟩ : BufTy).Contents (Elt F) → (⟨S50000, .f32⟩ : BufTy).Contents (Elt F)),
    binary main_v214 main_v215 main_v216 (maximumf : (⟨S50000, .f32⟩ : BufTy).Contents (Elt F) → (⟨S50000, .f32⟩ : BufTy).Contents (Elt F) → (⟨S50000, .f32⟩ : BufTy).Contents (Elt F)),
    unary main_v216 main_v217 (broadcastInDim S50000x1 ![0] bcast_S50000_S50000x1_0 : (⟨S50000, .f32⟩ : BufTy).Contents (Elt F) → (⟨S50000x1, .f32⟩ : BufTy).Contents (Elt F)),
    unary main_v217 main_v218 (broadcastInDim S50000x128 ![0, 1] bcast_S50000x1_S50000x128_0_1 : (⟨S50000x1, .f32⟩ : BufTy).Contents (Elt F) → (⟨S50000x128, .f32⟩ : BufTy).Contents (Elt F)),
    binary main_v210 main_v218 main_v219 (Host.divf : (⟨S50000x128, .f32⟩ : BufTy).Contents (Elt F) → (⟨S50000x128, .f32⟩ : BufTy).Contents (Elt F) → (⟨S50000x128, .f32⟩ : BufTy).Contents (Elt F)),
    unary main_v192 main_v220 ((transpose S128x128 [1, 0] · transposes_S128x128_S128x128_1_0) : (⟨S128x128, .f32⟩ : BufTy).Contents (Elt F) → (⟨S128x128, .f32⟩ : BufTy).Contents (Elt F)),
    binary main_v219 main_v220 main_v221 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v194 main_v222 (broadcastInDim S1x128 ![1] bcast_S128_S1x128_1 : (⟨S128, .f32⟩ : BufTy).Contents (Elt F) → (⟨S1x128, .f32⟩ : BufTy).Contents (Elt F)),
    unary main_v222 main_v223 (broadcastInDim S50000x128 ![0, 1] bcast_S1x128_S50000x128_0_1 : (⟨S1x128, .f32⟩ : BufTy).Contents (Elt F) → (⟨S50000x128, .f32⟩ : BufTy).Contents (Elt F)),
    binary main_v221 main_v223 main_v224 (addf : (⟨S50000x128, .f32⟩ : BufTy).Contents (Elt F) → (⟨S50000x128, .f32⟩ : BufTy).Contents (Elt F) → (⟨S50000x128, .f32⟩ : BufTy).Contents (Elt F)),
    unary main_v196 main_v225 ((transpose S128x128 [1, 0] · transposes_S128x128_S128x128_1_0) : (⟨S128x128, .f32⟩ : BufTy).Contents (Elt F) → (⟨S128x128, .f32⟩ : BufTy).Contents (Elt F)),
    binary main_arg0 main_v225 main_v226 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v224 main_v226 main_v227 (addf : (⟨S50000x128, .f32⟩ : BufTy).Contents (Elt F) → (⟨S50000x128, .f32⟩ : BufTy).Contents (Elt F) → (⟨S50000x128, .f32⟩ : BufTy).Contents (Elt F)),
    unary main_v1 main_v228 ((extractStridedSlice S1x128x128 ![6, 0, 0] · slices_S8x128x128_S1x128x128_6_0_0) : (⟨S8x128x128, .f32⟩ : BufTy).Contents (Elt F) → (⟨S1x128x128, .f32⟩ : BufTy).Contents (Elt F)),
    reshape main_v228 main_v229 rfl shapeCasts_S1x128x128_S128x128,
    unary main_v3 main_v230 ((extractStridedSlice S1x128 ![6, 0] · slices_S8x128_S1x128_6_0) : (⟨S8x128, .f32⟩ : BufTy).Contents (Elt F) → (⟨S1x128, .f32⟩ : BufTy).Contents (Elt F)),
    reshape main_v230 main_v231 rfl shapeCasts_S1x128_S128,
    unary main_v5 main_v232 ((extractStridedSlice S1x128x128 ![6, 0, 0] · slices_S8x128x128_S1x128x128_6_0_0) : (⟨S8x128x128, .f32⟩ : BufTy).Contents (Elt F) → (⟨S1x128x128, .f32⟩ : BufTy).Contents (Elt F)),
    reshape main_v232 main_v233 rfl shapeCasts_S1x128x128_S128x128,
    unary main_arg12 main_v234 ((extractStridedSlice S1x500000 ![0, 0] · slices_S2x500000_S1x500000_0_0) : (⟨S2x500000, .i32⟩ : BufTy).Contents (Elt F) → (⟨S1x500000, .i32⟩ : BufTy).Contents (Elt F)),
    reshape main_v234 main_v235 rfl shapeCasts_S1x500000_S500000,
    unary main_arg12 main_v236 ((extractStridedSlice S1x500000 ![1, 0] · slices_S2x500000_S1x500000_1_0) : (⟨S2x500000, .i32⟩ : BufTy).Contents (Elt F) → (⟨S1x500000, .i32⟩ : BufTy).Contents (Elt F)),
    reshape main_v236 main_v237 rfl shapeCasts_S1x500000_S500000,
    nullary main_c_34 (constantI S_ 32 0#32),
    unary main_c_34 main_v238 (broadcastInDim S500000 ![] bcast_S_S500000 : (⟨S_, .i32⟩ : BufTy).Contents (Elt F) → (⟨S500000, .i32⟩ : BufTy).Contents (Elt F)),
    binary main_v235 main_v238 main_v239 (cmpi .slt : (⟨S500000, .i32⟩ : BufTy).Contents (Elt F) → (⟨S500000, .i32⟩ : BufTy).Contents (Elt F) → (⟨S500000, .i1⟩ : BufTy).Contents (Elt F)),
    nullary main_c_35 (constantI S_ 32 50000#32),
    unary main_c_35 main_v240 (broadcastInDim S500000 ![] bcast_S_S500000 : (⟨S_, .i32⟩ : BufTy).Contents (Elt F) → (⟨S500000, .i32⟩ : BufTy).Contents (Elt F)),
    binary main_v235 main_v240 main_v241 (addi : (⟨S500000, .i32⟩ : BufTy).Contents (Elt F) → (⟨S500000, .i32⟩ : BufTy).Contents (Elt F) → (⟨S500000, .i32⟩ : BufTy).Contents (Elt F)),
    ternary main_v239 main_v241 main_v235 main_v242 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v242 main_v243 (broadcastInDim S500000x1 ![0] bcast_S500000_S500000x1_0 : (⟨S500000, .i32⟩ : BufTy).Contents (Elt F) → (⟨S500000x1, .i32⟩ : BufTy).Contents (Elt F)),
    binary main_arg0 main_v243 main_v244 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    nullary main_cst_36 (constant S_ .f32 0x00000000#32),
    unary main_cst_36 main_v245 (broadcastInDim S50000x128 ![] bcast_S_S50000x128 : (⟨S_, .f32⟩ : BufTy).Contents (Elt F) → (⟨S50000x128, .f32⟩ : BufTy).Contents (Elt F)),
    unary main_v237 main_v246 (broadcastInDim S500000x1 ![0] bcast_S500000_S500000x1_0 : (⟨S500000, .i32⟩ : BufTy).Contents (Elt F) → (⟨S500000x1, .i32⟩ : BufTy).Contents (Elt F)),
    ternary main_v245 main_v246 main_v244 main_v247 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)),
    nullary main_cst_37 (constant S_ .f32 0x3F800000#32),
    unary main_cst_37 main_v248 (broadcastInDim S500000 ![] bcast_S_S500000 : (⟨S_, .f32⟩ : BufTy).Contents (Elt F) → (⟨S500000, .f32⟩ : BufTy).Contents (Elt F)),
    nullary main_cst_38 (constant S_ .f32 0x00000000#32),
    unary main_cst_38 main_v249 (broadcastInDim S50000 ![] bcast_S_S50000 : (⟨S_, .f32⟩ : BufTy).Contents (Elt F) → (⟨S50000, .f32⟩ : BufTy).Contents (Elt F)),
    unary main_v237 main_v250 (broadcastInDim S500000x1 ![0] bcast_S500000_S500000x1_0 : (⟨S500000, .i32⟩ : BufTy).Contents (Elt F) → (⟨S500000x1, .i32⟩ : BufTy).Contents (Elt F)),
    ternary main_v249 main_v250 main_v248 main_v251 ((fun x i u => Host.scatterAdd scatter_S50000_S500000x1_S500000_n_0_0_1 x i u) : (⟨S50000, .f32⟩ : BufTy).Contents (Elt F) → (⟨S500000x1, .i32⟩ : BufTy).Contents (Elt F) → (⟨S500000, .f32⟩ : BufTy).Contents (Elt F) → (⟨S50000, .f32⟩ : BufTy).Contents (Elt F)),
    nullary main_cst_39 (constant S_ .f32 0x3F800000#32),
    unary main_cst_39 main_v252 (broadcastInDim S50000 ![] bcast_S_S50000 : (⟨S_, .f32⟩ : BufTy).Contents (Elt F) → (⟨S50000, .f32⟩ : BufTy).Contents (Elt F)),
    binary main_v251 main_v252 main_v253 (maximumf : (⟨S50000, .f32⟩ : BufTy).Contents (Elt F) → (⟨S50000, .f32⟩ : BufTy).Contents (Elt F) → (⟨S50000, .f32⟩ : BufTy).Contents (Elt F)),
    unary main_v253 main_v254 (broadcastInDim S50000x1 ![0] bcast_S50000_S50000x1_0 : (⟨S50000, .f32⟩ : BufTy).Contents (Elt F) → (⟨S50000x1, .f32⟩ : BufTy).Contents (Elt F)),
    unary main_v254 main_v255 (broadcastInDim S50000x128 ![0, 1] bcast_S50000x1_S50000x128_0_1 : (⟨S50000x1, .f32⟩ : BufTy).Contents (Elt F) → (⟨S50000x128, .f32⟩ : BufTy).Contents (Elt F)),
    binary main_v247 main_v255 main_v256 (Host.divf : (⟨S50000x128, .f32⟩ : BufTy).Contents (Elt F) → (⟨S50000x128, .f32⟩ : BufTy).Contents (Elt F) → (⟨S50000x128, .f32⟩ : BufTy).Contents (Elt F)),
    unary main_v229 main_v257 ((transpose S128x128 [1, 0] · transposes_S128x128_S128x128_1_0) : (⟨S128x128, .f32⟩ : BufTy).Contents (Elt F) → (⟨S128x128, .f32⟩ : BufTy).Contents (Elt F)) ]

theorem part4_eq (d : Dev nD) : main_part4 (F := F) d = seq ops4 := rfl

theorem ops4_sub : (ops4 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub ..⟩

theorem ops4_fresh : (ops4 : List (HloOp τ sig (Elt F))).Forall fun op => op.fresh = ∅ := by
  simp only [List.Forall]; repeat' constructor

theorem kept4_0 (V : Valuation τ sig (Elt F)) : after (ops4 (F := F)) V (Proc.devRef .tc main_arg0) = V (Proc.devRef .tc main_arg0) := by
  after_results_simp
theorem kept4_1 (V : Valuation τ sig (Elt F)) : after (ops4 (F := F)) V (Proc.devRef .tc main_arg1) = V (Proc.devRef .tc main_arg1) := by
  after_results_simp
theorem kept4_2 (V : Valuation τ sig (Elt F)) : after (ops4 (F := F)) V (Proc.devRef .tc main_arg2) = V (Proc.devRef .tc main_arg2) := by
  after_results_simp
theorem kept4_3 (V : Valuation τ sig (Elt F)) : after (ops4 (F := F)) V (Proc.devRef .tc main_arg3) = V (Proc.devRef .tc main_arg3) := by
  after_results_simp
theorem kept4_4 (V : Valuation τ sig (Elt F)) : after (ops4 (F := F)) V (Proc.devRef .tc main_arg4) = V (Proc.devRef .tc main_arg4) := by
  after_results_simp
theorem kept4_5 (V : Valuation τ sig (Elt F)) : after (ops4 (F := F)) V (Proc.devRef .tc main_arg5) = V (Proc.devRef .tc main_arg5) := by
  after_results_simp
theorem kept4_6 (V : Valuation τ sig (Elt F)) : after (ops4 (F := F)) V (Proc.devRef .tc main_arg6) = V (Proc.devRef .tc main_arg6) := by
  after_results_simp
theorem kept4_7 (V : Valuation τ sig (Elt F)) : after (ops4 (F := F)) V (Proc.devRef .tc main_arg7) = V (Proc.devRef .tc main_arg7) := by
  after_results_simp
theorem kept4_8 (V : Valuation τ sig (Elt F)) : after (ops4 (F := F)) V (Proc.devRef .tc main_arg8) = V (Proc.devRef .tc main_arg8) := by
  after_results_simp
theorem kept4_9 (V : Valuation τ sig (Elt F)) : after (ops4 (F := F)) V (Proc.devRef .tc main_arg9) = V (Proc.devRef .tc main_arg9) := by
  after_results_simp
theorem kept4_10 (V : Valuation τ sig (Elt F)) : after (ops4 (F := F)) V (Proc.devRef .tc main_arg10) = V (Proc.devRef .tc main_arg10) := by
  after_results_simp
theorem kept4_11 (V : Valuation τ sig (Elt F)) : after (ops4 (F := F)) V (Proc.devRef .tc main_arg11) = V (Proc.devRef .tc main_arg11) := by
  after_results_simp
theorem kept4_12 (V : Valuation τ sig (Elt F)) : after (ops4 (F := F)) V (Proc.devRef .tc main_arg12) = V (Proc.devRef .tc main_arg12) := by
  after_results_simp
theorem kept4_13 (V : Valuation τ sig (Elt F)) : after (ops4 (F := F)) V (Proc.devRef .tc main_arg13) = V (Proc.devRef .tc main_arg13) := by
  after_results_simp

end Cert.ReferenceIdeal.Parts

end
-- ==== Proof.RefOps1.lean ====
/-
  Parts 5 to 9 of the reference's @main as lists of host operations: part `K` of the printed program is the
  operations of `opsK` run in order (a called function's operations stand in its call's place); every operation touches
  TensorCore references only and allocates nothing; and none of them writes an argument array, so each argument array keeps
  its contents across the part, from any contents `V`.
-/
import proofs.«116292_j712964571450_1_alg».proof.Proof.Gen.ReferenceIdeal
import Idealize.ShloMosaic.Lib.StableHlo.Run

set_option maxRecDepth 16384
set_option maxHeartbeats 40000000

noncomputable section

namespace Cert.ReferenceIdeal.Parts

open Cert.ReferenceIdeal Cert.ReferenceIdeal.Gen Idealize.ShloMosaic Idealize.ShloMosaic.TcCoe Idealize.SL.Sem Idealize.ShloMosaic.StableHlo

variable {F : FTy → Type} [FloatOps F]

/-- Part 5's 60 operations, in order. -/
abbrev ops5 : List (HloOp τ sig (Elt F)) :=
  [ binary main_v256 main_v257 main_v258 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v231 main_v259 (broadcastInDim S1x128 ![1] bcast_S128_S1x128_1 : (⟨S128, .f32⟩ : BufTy).Contents (Elt F) → (⟨S1x128, .f32⟩ : BufTy).Contents (Elt F)),
    unary main_v259 main_v260 (broadcastInDim S50000x128 ![0, 1] bcast_S1x128_S50000x128_0_1 : (⟨S1x128, .f32⟩ : BufTy).Contents (Elt F) → (⟨S50000x128, .f32⟩ : BufTy).Contents (Elt F)),
    binary main_v258 main_v260 main_v261 (addf : (⟨S50000x128, .f32⟩ : BufTy).Contents (Elt F) → (⟨S50000x128, .f32⟩ : BufTy).Contents (Elt F) → (⟨S50000x128, .f32⟩ : BufTy).Contents (Elt F)),
    unary main_v233 main_v262 ((transpose S128x128 [1, 0] · transposes_S128x128_S128x128_1_0) : (⟨S128x128, .f32⟩ : BufTy).Contents (Elt F) → (⟨S128x128, .f32⟩ : BufTy).Contents (Elt F)),
    binary main_arg0 main_v262 main_v263 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v261 main_v263 main_v264 (addf : (⟨S50000x128, .f32⟩ : BufTy).Contents (Elt F) → (⟨S50000x128, .f32⟩ : BufTy).Contents (Elt F) → (⟨S50000x128, .f32⟩ : BufTy).Contents (Elt F)),
    unary main_v1 main_v265 ((extractStridedSlice S1x128x128 ![7, 0, 0] · slices_S8x128x128_S1x128x128_7_0_0) : (⟨S8x128x128, .f32⟩ : BufTy).Contents (Elt F) → (⟨S1x128x128, .f32⟩ : BufTy).Contents (Elt F)),
    reshape main_v265 main_v266 rfl shapeCasts_S1x128x128_S128x128,
    unary main_v3 main_v267 ((extractStridedSlice S1x128 ![7, 0] · slices_S8x128_S1x128_7_0) : (⟨S8x128, .f32⟩ : BufTy).Contents (Elt F) → (⟨S1x128, .f32⟩ : BufTy).Contents (Elt F)),
    reshape main_v267 main_v268 rfl shapeCasts_S1x128_S128,
    unary main_v5 main_v269 ((extractStridedSlice S1x128x128 ![7, 0, 0] · slices_S8x128x128_S1x128x128_7_0_0) : (⟨S8x128x128, .f32⟩ : BufTy).Contents (Elt F) → (⟨S1x128x128, .f32⟩ : BufTy).Contents (Elt F)),
    reshape main_v269 main_v270 rfl shapeCasts_S1x128x128_S128x128,
    unary main_arg13 main_v271 ((extractStridedSlice S1x100000 ![0, 0] · slices_S2x100000_S1x100000_0_0) : (⟨S2x100000, .i32⟩ : BufTy).Contents (Elt F) → (⟨S1x100000, .i32⟩ : BufTy).Contents (Elt F)),
    reshape main_v271 main_v272 rfl shapeCasts_S1x100000_S100000,
    unary main_arg13 main_v273 ((extractStridedSlice S1x100000 ![1, 0] · slices_S2x100000_S1x100000_1_0) : (⟨S2x100000, .i32⟩ : BufTy).Contents (Elt F) → (⟨S1x100000, .i32⟩ : BufTy).Contents (Elt F)),
    reshape main_v273 main_v274 rfl shapeCasts_S1x100000_S100000,
    nullary main_c_40 (constantI S_ 32 0#32),
    unary main_c_40 main_v275 (broadcastInDim S100000 ![] bcast_S_S100000 : (⟨S_, .i32⟩ : BufTy).Contents (Elt F) → (⟨S100000, .i32⟩ : BufTy).Contents (Elt F)),
    binary main_v272 main_v275 main_v276 (cmpi .slt : (⟨S100000, .i32⟩ : BufTy).Contents (Elt F) → (⟨S100000, .i32⟩ : BufTy).Contents (Elt F) → (⟨S100000, .i1⟩ : BufTy).Contents (Elt F)),
    nullary main_c_41 (constantI S_ 32 5000#32),
    unary main_c_41 main_v277 (broadcastInDim S100000 ![] bcast_S_S100000 : (⟨S_, .i32⟩ : BufTy).Contents (Elt F) → (⟨S100000, .i32⟩ : BufTy).Contents (Elt F)),
    binary main_v272 main_v277 main_v278 (addi : (⟨S100000, .i32⟩ : BufTy).Contents (Elt F) → (⟨S100000, .i32⟩ : BufTy).Contents (Elt F) → (⟨S100000, .i32⟩ : BufTy).Contents (Elt F)),
    ternary main_v276 main_v278 main_v272 main_v279 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v279 main_v280 (broadcastInDim S100000x1 ![0] bcast_S100000_S100000x1_0 : (⟨S100000, .i32⟩ : BufTy).Contents (Elt F) → (⟨S100000x1, .i32⟩ : BufTy).Contents (Elt F)),
    binary main_arg2 main_v280 main_v281 ((fun x i => Host.gather gather_S5000x128_S100000x1_S100000x128_1_0_n_n_0_1_1128 x i) : (⟨S5000x128, .f32⟩ : BufTy).Contents (Elt F) → (⟨S100000x1, .i32⟩ : BufTy).Contents (Elt F) → (⟨S100000x128, .f32⟩ : BufTy).Contents (Elt F)),
    nullary main_cst_42 (constant S_ .f32 0x00000000#32),
    unary main_cst_42 main_v282 (broadcastInDim S5000x128 ![] bcast_S_S5000x128 : (⟨S_, .f32⟩ : BufTy).Contents (Elt F) → (⟨S5000x128, .f32⟩ : BufTy).Contents (Elt F)),
    unary main_v274 main_v283 (broadcastInDim S100000x1 ![0] bcast_S100000_S100000x1_0 : (⟨S100000, .i32⟩ : BufTy).Contents (Elt F) → (⟨S100000x1, .i32⟩ : BufTy).Contents (Elt F)),
    ternary main_v282 main_v283 main_v281 main_v284 ((fun x i u => Host.scatterAdd scatter_S5000x128_S100000x1_S100000x128_1_0_0_1 x i u) : (⟨S5000x128, .f32⟩ : BufTy).Contents (Elt F) → (⟨S100000x1, .i32⟩ : BufTy).Contents (Elt F) → (⟨S100000x128, .f32⟩ : BufTy).Contents (Elt F) → (⟨S5000x128, .f32⟩ : BufTy).Contents (Elt F)),
    nullary main_cst_43 (constant S_ .f32 0x3F800000#32),
    unary main_cst_43 main_v285 (broadcastInDim S100000 ![] bcast_S_S100000 : (⟨S_, .f32⟩ : BufTy).Contents (Elt F) → (⟨S100000, .f32⟩ : BufTy).Contents (Elt F)),
    nullary main_cst_44 (constant S_ .f32 0x00000000#32),
    unary main_cst_44 main_v286 (broadcastInDim S5000 ![] bcast_S_S5000 : (⟨S_, .f32⟩ : BufTy).Contents (Elt F) → (⟨S5000, .f32⟩ : BufTy).Contents (Elt F)),
    unary main_v274 main_v287 (broadcastInDim S100000x1 ![0] bcast_S100000_S100000x1_0 : (⟨S100000, .i32⟩ : BufTy).Contents (Elt F) → (⟨S100000x1, .i32⟩ : BufTy).Contents (Elt F)),
    ternary main_v286 main_v287 main_v285 main_v288 ((fun x i u => Host.scatterAdd scatter_S5000_S100000x1_S100000_n_0_0_1 x i u) : (⟨S5000, .f32⟩ : BufTy).Contents (Elt F) → (⟨S100000x1, .i32⟩ : BufTy).Contents (Elt F) → (⟨S100000, .f32⟩ : BufTy).Contents (Elt F) → (⟨S5000, .f32⟩ : BufTy).Contents (Elt F)),
    nullary main_cst_45 (constant S_ .f32 0x3F800000#32),
    unary main_cst_45 main_v289 (broadcastInDim S5000 ![] bcast_S_S5000 : (⟨S_, .f32⟩ : BufTy).Contents (Elt F) → (⟨S5000, .f32⟩ : BufTy).Contents (Elt F)),
    binary main_v288 main_v289 main_v290 (maximumf : (⟨S5000, .f32⟩ : BufTy).Contents (Elt F) → (⟨S5000, .f32⟩ : BufTy).Contents (Elt F) → (⟨S5000, .f32⟩ : BufTy).Contents (Elt F)),
    unary main_v290 main_v291 (broadcastInDim S5000x1 ![0] bcast_S5000_S5000x1_0 : (⟨S5000, .f32⟩ : BufTy).Contents (Elt F) → (⟨S5000x1, .f32⟩ : BufTy).Contents (Elt F)),
    unary main_v291 main_v292 (broadcastInDim S5000x128 ![0, 1] bcast_S5000x1_S5000x128_0_1 : (⟨S5000x1, .f32⟩ : BufTy).Contents (Elt F) → (⟨S5000x128, .f32⟩ : BufTy).Contents (Elt F)),
    binary main_v284 main_v292 main_v293 (Host.divf : (⟨S5000x128, .f32⟩ : BufTy).Contents (Elt F) → (⟨S5000x128, .f32⟩ : BufTy).Contents (Elt F) → (⟨S5000x128, .f32⟩ : BufTy).Contents (Elt F)),
    unary main_v266 main_v294 ((transpose S128x128 [1, 0] · transposes_S128x128_S128x128_1_0) : (⟨S128x128, .f32⟩ : BufTy).Contents (Elt F) → (⟨S128x128, .f32⟩ : BufTy).Contents (Elt F)),
    binary main_v293 main_v294 main_v295 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    unary main_v268 main_v296 (broadcastInDim S1x128 ![1] bcast_S128_S1x128_1 : (⟨S128, .f32⟩ : BufTy).Contents (Elt F) → (⟨S1x128, .f32⟩ : BufTy).Contents (Elt F)),
    unary main_v296 main_v297 (broadcastInDim S5000x128 ![0, 1] bcast_S1x128_S5000x128_0_1 : (⟨S1x128, .f32⟩ : BufTy).Contents (Elt F) → (⟨S5000x128, .f32⟩ : BufTy).Contents (Elt F)),
    binary main_v295 main_v297 main_v298 (addf : (⟨S5000x128, .f32⟩ : BufTy).Contents (Elt F) → (⟨S5000x128, .f32⟩ : BufTy).Contents (Elt F) → (⟨S5000x128, .f32⟩ : BufTy).Contents (Elt F)),
    unary main_v270 main_v299 ((transpose S128x128 [1, 0] · transposes_S128x128_S128x128_1_0) : (⟨S128x128, .f32⟩ : BufTy).Contents (Elt F) → (⟨S128x128, .f32⟩ : BufTy).Contents (Elt F)),
    binary main_arg2 main_v299 main_v300 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    binary main_v298 main_v300 main_v301 (addf : (⟨S5000x128, .f32⟩ : BufTy).Contents (Elt F) → (⟨S5000x128, .f32⟩ : BufTy).Contents (Elt F) → (⟨S5000x128, .f32⟩ : BufTy).Contents (Elt F)),
    nullary main_cst_46 (constant S_ .f32 0x00000000#32),
    unary main_cst_46 main_v302 (broadcastInDim S50000x128 ![] bcast_S_S50000x128 : (⟨S_, .f32⟩ : BufTy).Contents (Elt F) → (⟨S50000x128, .f32⟩ : BufTy).Contents (Elt F)),
    binary main_v302 main_v153 main_v303 (addf : (⟨S50000x128, .f32⟩ : BufTy).Contents (Elt F) → (⟨S50000x128, .f32⟩ : BufTy).Contents (Elt F) → (⟨S50000x128, .f32⟩ : BufTy).Contents (Elt F)),
    binary main_v303 main_v227 main_v304 (addf : (⟨S50000x128, .f32⟩ : BufTy).Contents (Elt F) → (⟨S50000x128, .f32⟩ : BufTy).Contents (Elt F) → (⟨S50000x128, .f32⟩ : BufTy).Contents (Elt F)),
    binary main_v304 main_v264 main_v305 (addf : (⟨S50000x128, .f32⟩ : BufTy).Contents (Elt F) → (⟨S50000x128, .f32⟩ : BufTy).Contents (Elt F) → (⟨S50000x128, .f32⟩ : BufTy).Contents (Elt F)),
    nullary main_cst_47 (constant S_ .f32 0x40400000#32),
    unary main_cst_47 main_v306 (broadcastInDim S50000x128 ![] bcast_S_S50000x128 : (⟨S_, .f32⟩ : BufTy).Contents (Elt F) → (⟨S50000x128, .f32⟩ : BufTy).Contents (Elt F)),
    binary main_v305 main_v306 main_v307 (Host.divf : (⟨S50000x128, .f32⟩ : BufTy).Contents (Elt F) → (⟨S50000x128, .f32⟩ : BufTy).Contents (Elt F) → (⟨S50000x128, .f32⟩ : BufTy).Contents (Elt F)),
    nullary main_cst_48 (constant S_ .f32 0x00000000#32),
    unary main_cst_48 main_v308 (broadcastInDim S20000x128 ![] bcast_S_S20000x128 : (⟨S_, .f32⟩ : BufTy).Contents (Elt F) → (⟨S20000x128, .f32⟩ : BufTy).Contents (Elt F)) ]

theorem part5_eq (d : Dev nD) : main_part5 (F := F) d = seq ops5 := rfl

theorem ops5_sub : (ops5 : List (HloOp τ sig (Elt F))).Forall fun op => op.bufs ⊆ tcRefs τ sig :=
  ⟨binary_bufs_sub .., unary_bufs_sub .., unary_bufs_sub .., binary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub ..⟩

theorem ops5_fresh : (ops5 : List (HloOp τ sig (Elt F))).Forall fun op => op.fresh = ∅ := by
  simp only [List.Forall]; repeat' constructor

theorem kept5_0 (V : Valuation τ sig (Elt F)) : after (ops5 (F := F)) V (Proc.devRef .tc main_arg0) = V (Proc.devRef .tc main_arg0) := by
  after_results_simp
theorem kept5_1 (V : Valuation τ sig (Elt F)) : after (ops5 (F := F)) V (Proc.devRef .tc main_arg1) = V (Proc.devRef .tc main_arg1) := by
  after_results_simp
theorem kept5_2 (V : Valuation τ sig (Elt F)) : after (ops5 (F := F)) V (Proc.devRef .tc main_arg2) = V (Proc.devRef .tc main_arg2) := by
  after_results_simp
theorem kept5_3 (V : Valuation τ sig (Elt F)) : after (ops5 (F := F)) V (Proc.devRef .tc main_arg3) = V (Proc.devRef .tc main_arg3) := by
  after_results_simp
theorem kept5_4 (V : Valuation τ sig (Elt F)) : after (ops5 (F := F)) V (Proc.devRef .tc main_arg4) = V (Proc.devRef .tc main_arg4) := by
  after_results_simp
theorem kept5_5 (V : Valuation τ sig (Elt F)) : after (ops5 (F := F)) V (Proc.devRef .tc main_arg5) = V (Proc.devRef .tc main_arg5) := by
  after_results_simp
theorem kept5_6 (V : Valuation τ sig (Elt F)) : after (ops5 (F := F)) V (Proc.devRef .tc main_arg6) = V (Proc.devRef .tc main_arg6) := by
  after_results_simp
theorem kept5_7 (V : Valuation τ sig (Elt F)) : after (ops5 (F := F)) V (Proc.devRef .tc main_arg7) = V (Proc.devRef .tc main_arg7) := by
  after_results_simp
theorem kept5_8 (V : Valuation τ sig (Elt F)) : after (ops5 (F := F)) V (Proc.devRef .tc main_arg8) = V (Proc.devRef .tc main_arg8) := by
  after_results_simp
theorem kept5_9 (V : Valuation τ sig (Elt F)) : after (ops5 (F := F)) V (Proc.devRef .tc main_arg9) = V (Proc.devRef .tc main_arg9) := by
  after_results_simp
theorem kept5_10 (V : Valuation τ sig (Elt F)) : after (ops5 (F := F)) V (Proc.devRef .tc main_arg10) = V (Proc.devRef .tc main_arg10) := by
  after_results_simp
theorem kept5_11 (V : Valuation τ sig (Elt F)) : after (ops5 (F := F)) V (Proc.devRef .tc main_arg11) = V (Proc.devRef .tc main_arg11) := by
  after_results_simp
theorem kept5_12 (V : Valuation τ sig (Elt F)) : after (ops5 (F := F)) V (Proc.devRef .tc main_arg12) = V (Proc.devRef .tc main_arg12) := by
  after_results_simp
theorem kept5_13 (V : Valuation τ sig (Elt F)) : after (ops5 (F := F)) V (Proc.devRef .tc main_arg13) = V (Proc.devRef .tc main_arg13) := by
  after_results_simp

/-- Part 6's 66 operations, in order. -/
abbrev ops6 : List (HloOp τ sig (Elt F)) :=
  [ binary main_v308 main_v42 main_v309 (addf : (⟨S20000x128, .f32⟩ : BufTy).Contents (Elt F) → (⟨S20000x128, .f32⟩ : BufTy).Contents (Elt F) → (⟨S20000x128, .f32⟩ : BufTy).Contents (Elt F)),
    binary main_v309 main_v190 main_v310 (addf : (⟨S20000x128, .f32⟩ : BufTy).Contents (Elt F) → (⟨S20000x128, .f32⟩ : BufTy).Contents (Elt F) → (⟨S20000x128, .f32⟩ : BufTy).Contents (Elt F)),
    nullary main_cst_49 (constant S_ .f32 0x40000000#32),
    unary main_cst_49 main_v311 (broadcastInDim S20000x128 ![] bcast_S_S20000x128 : (⟨S_, .f32⟩ : BufTy).Contents (Elt F) → (⟨S20000x128, .f32⟩ : BufTy).Contents (Elt F)),
    binary main_v310 main_v311 main_v312 (Host.divf : (⟨S20000x128, .f32⟩ : BufTy).Contents (Elt F) → (⟨S20000x128, .f32⟩ : BufTy).Contents (Elt F) → (⟨S20000x128, .f32⟩ : BufTy).Contents (Elt F)),
    nullary main_cst_50 (constant S_ .f32 0x00000000#32),
    unary main_cst_50 main_v313 (broadcastInDim S5000x128 ![] bcast_S_S5000x128 : (⟨S_, .f32⟩ : BufTy).Contents (Elt F) → (⟨S5000x128, .f32⟩ : BufTy).Contents (Elt F)),
    binary main_v313 main_v79 main_v314 (addf : (⟨S5000x128, .f32⟩ : BufTy).Contents (Elt F) → (⟨S5000x128, .f32⟩ : BufTy).Contents (Elt F) → (⟨S5000x128, .f32⟩ : BufTy).Contents (Elt F)),
    binary main_v314 main_v116 main_v315 (addf : (⟨S5000x128, .f32⟩ : BufTy).Contents (Elt F) → (⟨S5000x128, .f32⟩ : BufTy).Contents (Elt F) → (⟨S5000x128, .f32⟩ : BufTy).Contents (Elt F)),
    binary main_v315 main_v301 main_v316 (addf : (⟨S5000x128, .f32⟩ : BufTy).Contents (Elt F) → (⟨S5000x128, .f32⟩ : BufTy).Contents (Elt F) → (⟨S5000x128, .f32⟩ : BufTy).Contents (Elt F)),
    nullary main_cst_51 (constant S_ .f32 0x40400000#32),
    unary main_cst_51 main_v317 (broadcastInDim S5000x128 ![] bcast_S_S5000x128 : (⟨S_, .f32⟩ : BufTy).Contents (Elt F) → (⟨S5000x128, .f32⟩ : BufTy).Contents (Elt F)),
    binary main_v316 main_v317 main_v318 (Host.divf : (⟨S5000x128, .f32⟩ : BufTy).Contents (Elt F) → (⟨S5000x128, .f32⟩ : BufTy).Contents (Elt F) → (⟨S5000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v307) (TRef.of (T := ⟨S50000x128, .f32⟩) main_call0_v0) (TRef.of (T := ⟨S50000x128, .f32⟩) main_v319) maximumf,
    TRef.nullary (TRef.of (T := ⟨S_, .f32⟩) main_call1_cst) (constant S_ .f32 0x00000000#32),
    TRef.unary (TRef.of (T := ⟨S_, .f32⟩) main_call1_cst) (TRef.of (T := ⟨S20000x128, .f32⟩) main_call1_v0) (broadcastInDim S20000x128 ![] bcast_S_S20000x128),
    TRef.binary (TRef.of (T := ⟨S20000x128, .f32⟩) main_v312) (TRef.of (T := ⟨S20000x128, .f32⟩) main_call1_v0) (TRef.of (T := ⟨S20000x128, .f32⟩) main_v320) maximumf,
    TRef.nullary (TRef.of (T := ⟨S_, .f32⟩) main_call2_cst) (constant S_ .f32 0x00000000#32),
    TRef.unary (TRef.of (T := ⟨S_, .f32⟩) main_call2_cst) (TRef.of (T := ⟨S5000x128, .f32⟩) main_call2_v0) (broadcastInDim S5000x128 ![] bcast_S_S5000x128),
    TRef.binary (TRef.of (T := ⟨S5000x128, .f32⟩) main_v318) (TRef.of (T := ⟨S5000x128, .f32⟩) main_call2_v0) (TRef.of (T := ⟨S5000x128, .f32⟩) main_v321) maximumf,
    unary main_arg3 main_v322 ((extractStridedSlice S1x8x128x128 ![1, 0, 0, 0] · slices_S3x8x128x128_S1x8x128x128_1_0_0_0) : (⟨S3x8x128x128, .f32⟩ : BufTy).Contents (Elt F) → (⟨S1x8x128x128, .f32⟩ : BufTy).Contents (Elt F)),
    reshape main_v322 main_v323 rfl shapeCasts_S1x8x128x128_S8x128x128,
    unary main_arg4 main_v324 ((extractStridedSlice S1x8x128 ![1, 0, 0] · slices_S3x8x128_S1x8x128_1_0_0) : (⟨S3x8x128, .f32⟩ : BufTy).Contents (Elt F) → (⟨S1x8x128, .f32⟩ : BufTy).Contents (Elt F)),
    reshape main_v324 main_v325 rfl shapeCasts_S1x8x128_S8x128,
    unary main_arg5 main_v326 ((extractStridedSlice S1x8x128x128 ![1, 0, 0, 0] · slices_S3x8x128x128_S1x8x128x128_1_0_0_0) : (⟨S3x8x128x128, .f32⟩ : BufTy).Contents (Elt F) → (⟨S1x8x128x128, .f32⟩ : BufTy).Contents (Elt F)),
    reshape main_v326 main_v327 rfl shapeCasts_S1x8x128x128_S8x128x128,
    unary main_v323 main_v328 ((extractStridedSlice S1x128x128 ![0, 0, 0] · slices_S8x128x128_S1x128x128_0_0_0) : (⟨S8x128x128, .f32⟩ : BufTy).Contents (Elt F) → (⟨S1x128x128, .f32⟩ : BufTy).Contents (Elt F)),
    reshape main_v328 main_v329 rfl shapeCasts_S1x128x128_S128x128,
    unary main_v325 main_v330 ((extractStridedSlice S1x128 ![0, 0] · slices_S8x128_S1x128_0_0) : (⟨S8x128, .f32⟩ : BufTy).Contents (Elt F) → (⟨S1x128, .f32⟩ : BufTy).Contents (Elt F)),
    reshape main_v330 main_v331 rfl shapeCasts_S1x128_S128,
    unary main_v327 main_v332 ((extractStridedSlice S1x128x128 ![0, 0, 0] · slices_S8x128x128_S1x128x128_0_0_0) : (⟨S8x128x128, .f32⟩ : BufTy).Contents (Elt F) → (⟨S1x128x128, .f32⟩ : BufTy).Contents (Elt F)),
    reshape main_v332 main_v333 rfl shapeCasts_S1x128x128_S128x128,
    unary main_arg6 main_v334 ((extractStridedSlice S1x500000 ![0, 0] · slices_S2x500000_S1x500000_0_0) : (⟨S2x500000, .i32⟩ : BufTy).Contents (Elt F) → (⟨S1x500000, .i32⟩ : BufTy).Contents (Elt F)),
    reshape main_v334 main_v335 rfl shapeCasts_S1x500000_S500000,
    unary main_arg6 main_v336 ((extractStridedSlice S1x500000 ![1, 0] · slices_S2x500000_S1x500000_1_0) : (⟨S2x500000, .i32⟩ : BufTy).Contents (Elt F) → (⟨S1x500000, .i32⟩ : BufTy).Contents (Elt F)),
    reshape main_v336 main_v337 rfl shapeCasts_S1x500000_S500000,
    nullary main_c_52 (constantI S_ 32 0#32),
    unary main_c_52 main_v338 (broadcastInDim S500000 ![] bcast_S_S500000 : (⟨S_, .i32⟩ : BufTy).Contents (Elt F) → (⟨S500000, .i32⟩ : BufTy).Contents (Elt F)),
    binary main_v335 main_v338 main_v339 (cmpi .slt : (⟨S500000, .i32⟩ : BufTy).Contents (Elt F) → (⟨S500000, .i32⟩ : BufTy).Contents (Elt F) → (⟨S500000, .i1⟩ : BufTy).Contents (Elt F)),
    nullary main_c_53 (constantI S_ 32 50000#32),
    unary main_c_53 main_v340 (broadcastInDim S500000 ![] bcast_S_S500000 : (⟨S_, .i32⟩ : BufTy).Contents (Elt F) → (⟨S500000, .i32⟩ : BufTy).Contents (Elt F)),
    binary main_v335 main_v340 main_v341 (addi : (⟨S500000, .i32⟩ : BufTy).Contents (Elt F) → (⟨S500000, .i32⟩ : BufTy).Contents (Elt F) → (⟨S500000, .i32⟩ : BufTy).Contents (Elt F)),
    ternary main_v339 main_v341 main_v335 main_v342 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v342 main_v343 (broadcastInDim S500000x1 ![0] bcast_S500000_S500000x1_0 : (⟨S500000, .i32⟩ : BufTy).Contents (Elt F) → (⟨S500000x1, .i32⟩ : BufTy).Contents (Elt F)),
    binary main_v319 main_v343 main_v344 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    nullary main_cst_54 (constant S_ .f32 0x00000000#32),
    unary main_cst_54 main_v345 (broadcastInDim S20000x128 ![] bcast_S_S20000x128 : (⟨S_, .f32⟩ : BufTy).Contents (Elt F) → (⟨S20000x128, .f32⟩ : BufTy).Contents (Elt F)),
    unary main_v337 main_v346 (broadcastInDim S500000x1 ![0] bcast_S500000_S500000x1_0 : (⟨S500000, .i32⟩ : BufTy).Contents (Elt F) → (⟨S500000x1, .i32⟩ : BufTy).Contents (Elt F)),
    ternary main_v345 main_v346 main_v344 main_v347 ((fun x i u => Host.scatterAdd scatter_S20000x128_S500000x1_S500000x128_1_0_0_1 x i u) : (⟨S20000x128, .f32⟩ : BufTy).Contents (Elt F) → (⟨S500000x1, .i32⟩ : BufTy).Contents (Elt F) → (⟨S500000x128, .f32⟩ : BufTy).Contents (Elt F) → (⟨S20000x128, .f32⟩ : BufTy).Contents (Elt F)),
    nullary main_cst_55 (constant S_ .f32 0x3F800000#32),
    unary main_cst_55 main_v348 (broadcastInDim S500000 ![] bcast_S_S500000 : (⟨S_, .f32⟩ : BufTy).Contents (Elt F) → (⟨S500000, .f32⟩ : BufTy).Contents (Elt F)),
    nullary main_cst_56 (constant S_ .f32 0x00000000#32),
    unary main_cst_56 main_v349 (broadcastInDim S20000 ![] bcast_S_S20000 : (⟨S_, .f32⟩ : BufTy).Contents (Elt F) → (⟨S20000, .f32⟩ : BufTy).Contents (Elt F)),
    unary main_v337 main_v350 (broadcastInDim S500000x1 ![0] bcast_S500000_S500000x1_0 : (⟨S500000, .i32⟩ : BufTy).Contents (Elt F) → (⟨S500000x1, .i32⟩ : BufTy).Contents (Elt F)),
    ternary main_v349 main_v350 main_v348 main_v351 ((fun x i u => Host.scatterAdd scatter_S20000_S500000x1_S500000_n_0_0_1 x i u) : (⟨S20000, .f32⟩ : BufTy).Contents (Elt F) → (⟨S500000x1, .i32⟩ : BufTy).Contents (Elt F) → (⟨S500000, .f32⟩ : BufTy).Contents (Elt F) → (⟨S20000, .f32⟩ : BufTy).Contents (Elt F)),
    nullary main_cst_57 (constant S_ .f32 0x3F800000#32),
    unary main_cst_57 main_v352 (broadcastInDim S20000 ![] bcast_S_S20000 : (⟨S_, .f32⟩ : BufTy).Contents (Elt F) → (⟨S20000, .f32⟩ : BufTy).Contents (Elt F)),
    binary main_v351 main_v352 main_v353 (maximumf : (⟨S20000, .f32⟩ : BufTy).Contents (Elt F) → (⟨S20000, .f32⟩ : BufTy).Contents (Elt F) → (⟨S20000, .f32⟩ : BufTy).Contents (Elt F)),
    unary main_v353 main_v354 (broadcastInDim S20000x1 ![0] bcast_S20000_S20000x1_0 : (⟨S20000, .f32⟩ : BufTy).Contents (Elt F) → (⟨S20000x1, .f32⟩ : BufTy).Contents (Elt F)),
    unary main_v354 main_v355 (broadcastInDim S20000x128 ![0, 1] bcast_S20000x1_S20000x128_0_1 : (⟨S20000x1, .f32⟩ : BufTy).Contents (Elt F) → (⟨S20000x128, .f32⟩ : BufTy).Contents (Elt F)),
    binary main_v347 main_v355 main_v356 (Host.divf : (⟨S20000x128, .f32⟩ : BufTy).Contents (Elt F) → (⟨S20000x128, .f32⟩ : BufTy).Contents (Elt F) → (⟨S20000x128, .f32⟩ : BufTy).Contents (Elt F)),
    unary main_v329 main_v357 ((transpose S128x128 [1, 0] · transposes_S128x128_S128x128_1_0) : (⟨S128x128, .f32⟩ : BufTy).Contents (Elt F) → (⟨S128x128, .f32⟩ : BufTy).Contents (Elt F)),
    binary main_v356 main_v357 main_v358 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_v331 main_v359 (broadcastInDim S1x128 ![1] bcast_S128_S1x128_1 : (⟨S128, .f32⟩ : BufTy).Contents (Elt F) → (⟨S1x128, .f32⟩ : BufTy).Contents (Elt F)) ]

theorem part6_eq (d : Dev nD) : main_part6 (F := F) d = seq ops6 := rfl

theorem ops6_sub : (ops6 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub ..⟩

theorem ops6_fresh : (ops6 : List (HloOp τ sig (Elt F))).Forall fun op => op.fresh = ∅ := by
  simp only [List.Forall]; repeat' constructor

theorem kept6_0 (V : Valuation τ sig (Elt F)) : after (ops6 (F := F)) V (Proc.devRef .tc main_arg0) = V (Proc.devRef .tc main_arg0) := by
  after_results_simp
theorem kept6_1 (V : Valuation τ sig (Elt F)) : after (ops6 (F := F)) V (Proc.devRef .tc main_arg1) = V (Proc.devRef .tc main_arg1) := by
  after_results_simp
theorem kept6_2 (V : Valuation τ sig (Elt F)) : after (ops6 (F := F)) V (Proc.devRef .tc main_arg2) = V (Proc.devRef .tc main_arg2) := by
  after_results_simp
theorem kept6_3 (V : Valuation τ sig (Elt F)) : after (ops6 (F := F)) V (Proc.devRef .tc main_arg3) = V (Proc.devRef .tc main_arg3) := by
  after_results_simp
theorem kept6_4 (V : Valuation τ sig (Elt F)) : after (ops6 (F := F)) V (Proc.devRef .tc main_arg4) = V (Proc.devRef .tc main_arg4) := by
  after_results_simp
theorem kept6_5 (V : Valuation τ sig (Elt F)) : after (ops6 (F := F)) V (Proc.devRef .tc main_arg5) = V (Proc.devRef .tc main_arg5) := by
  after_results_simp
theorem kept6_6 (V : Valuation τ sig (Elt F)) : after (ops6 (F := F)) V (Proc.devRef .tc main_arg6) = V (Proc.devRef .tc main_arg6) := by
  after_results_simp
theorem kept6_7 (V : Valuation τ sig (Elt F)) : after (ops6 (F := F)) V (Proc.devRef .tc main_arg7) = V (Proc.devRef .tc main_arg7) := by
  after_results_simp
theorem kept6_8 (V : Valuation τ sig (Elt F)) : after (ops6 (F := F)) V (Proc.devRef .tc main_arg8) = V (Proc.devRef .tc main_arg8) := by
  after_results_simp
theorem kept6_9 (V : Valuation τ sig (Elt F)) : after (ops6 (F := F)) V (Proc.devRef .tc main_arg9) = V (Proc.devRef .tc main_arg9) := by
  after_results_simp
theorem kept6_10 (V : Valuation τ sig (Elt F)) : after (ops6 (F := F)) V (Proc.devRef .tc main_arg10) = V (Proc.devRef .tc main_arg10) := by
  after_results_simp
theorem kept6_11 (V : Valuation τ sig (Elt F)) : after (ops6 (F := F)) V (Proc.devRef .tc main_arg11) = V (Proc.devRef .tc main_arg11) := by
  after_results_simp
theorem kept6_12 (V : Valuation τ sig (Elt F)) : after (ops6 (F := F)) V (Proc.devRef .tc main_arg12) = V (Proc.devRef .tc main_arg12) := by
  after_results_simp
theorem kept6_13 (V : Valuation τ sig (Elt F)) : after (ops6 (F := F)) V (Proc.devRef .tc main_arg13) = V (Proc.devRef .tc main_arg13) := by
  after_results_simp

/-- Part 7's 60 operations, in order. -/
abbrev ops7 : List (HloOp τ sig (Elt F)) :=
  [ unary main_v359 main_v360 (broadcastInDim S20000x128 ![0, 1] bcast_S1x128_S20000x128_0_1 : (⟨S1x128, .f32⟩ : BufTy).Contents (Elt F) → (⟨S20000x128, .f32⟩ : BufTy).Contents (Elt F)),
    binary main_v358 main_v360 main_v361 (addf : (⟨S20000x128, .f32⟩ : BufTy).Contents (Elt F) → (⟨S20000x128, .f32⟩ : BufTy).Contents (Elt F) → (⟨S20000x128, .f32⟩ : BufTy).Contents (Elt F)),
    unary main_v333 main_v362 ((transpose S128x128 [1, 0] · transposes_S128x128_S128x128_1_0) : (⟨S128x128, .f32⟩ : BufTy).Contents (Elt F) → (⟨S128x128, .f32⟩ : BufTy).Contents (Elt F)),
    binary main_v320 main_v362 main_v363 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    binary main_v361 main_v363 main_v364 (addf : (⟨S20000x128, .f32⟩ : BufTy).Contents (Elt F) → (⟨S20000x128, .f32⟩ : BufTy).Contents (Elt F) → (⟨S20000x128, .f32⟩ : BufTy).Contents (Elt F)),
    unary main_v323 main_v365 ((extractStridedSlice S1x128x128 ![1, 0, 0] · slices_S8x128x128_S1x128x128_1_0_0) : (⟨S8x128x128, .f32⟩ : BufTy).Contents (Elt F) → (⟨S1x128x128, .f32⟩ : BufTy).Contents (Elt F)),
    reshape main_v365 main_v366 rfl shapeCasts_S1x128x128_S128x128,
    unary main_v325 main_v367 ((extractStridedSlice S1x128 ![1, 0] · slices_S8x128_S1x128_1_0) : (⟨S8x128, .f32⟩ : BufTy).Contents (Elt F) → (⟨S1x128, .f32⟩ : BufTy).Contents (Elt F)),
    reshape main_v367 main_v368 rfl shapeCasts_S1x128_S128,
    unary main_v327 main_v369 ((extractStridedSlice S1x128x128 ![1, 0, 0] · slices_S8x128x128_S1x128x128_1_0_0) : (⟨S8x128x128, .f32⟩ : BufTy).Contents (Elt F) → (⟨S1x128x128, .f32⟩ : BufTy).Contents (Elt F)),
    reshape main_v369 main_v370 rfl shapeCasts_S1x128x128_S128x128,
    unary main_arg7 main_v371 ((extractStridedSlice S1x250000 ![0, 0] · slices_S2x250000_S1x250000_0_0) : (⟨S2x250000, .i32⟩ : BufTy).Contents (Elt F) → (⟨S1x250000, .i32⟩ : BufTy).Contents (Elt F)),
    reshape main_v371 main_v372 rfl shapeCasts_S1x250000_S250000,
    unary main_arg7 main_v373 ((extractStridedSlice S1x250000 ![1, 0] · slices_S2x250000_S1x250000_1_0) : (⟨S2x250000, .i32⟩ : BufTy).Contents (Elt F) → (⟨S1x250000, .i32⟩ : BufTy).Contents (Elt F)),
    reshape main_v373 main_v374 rfl shapeCasts_S1x250000_S250000,
    nullary main_c_58 (constantI S_ 32 0#32),
    unary main_c_58 main_v375 (broadcastInDim S250000 ![] bcast_S_S250000 : (⟨S_, .i32⟩ : BufTy).Contents (Elt F) → (⟨S250000, .i32⟩ : BufTy).Contents (Elt F)),
    binary main_v372 main_v375 main_v376 (cmpi .slt : (⟨S250000, .i32⟩ : BufTy).Contents (Elt F) → (⟨S250000, .i32⟩ : BufTy).Contents (Elt F) → (⟨S250000, .i1⟩ : BufTy).Contents (Elt F)),
    nullary main_c_59 (constantI S_ 32 20000#32),
    unary main_c_59 main_v377 (broadcastInDim S250000 ![] bcast_S_S250000 : (⟨S_, .i32⟩ : BufTy).Contents (Elt F) → (⟨S250000, .i32⟩ : BufTy).Contents (Elt F)),
    binary main_v372 main_v377 main_v378 (addi : (⟨S250000, .i32⟩ : BufTy).Contents (Elt F) → (⟨S250000, .i32⟩ : BufTy).Contents (Elt F) → (⟨S250000, .i32⟩ : BufTy).Contents (Elt F)),
    ternary main_v376 main_v378 main_v372 main_v379 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    unary main_v379 main_v380 (broadcastInDim S250000x1 ![0] bcast_S250000_S250000x1_0 : (⟨S250000, .i32⟩ : BufTy).Contents (Elt F) → (⟨S250000x1, .i32⟩ : BufTy).Contents (Elt F)),
    binary main_v320 main_v380 main_v381 ((fun x i => Host.gather gather_S20000x128_S250000x1_S250000x128_1_0_n_n_0_1_1128 x i) : (⟨S20000x128, .f32⟩ : BufTy).Contents (Elt F) → (⟨S250000x1, .i32⟩ : BufTy).Contents (Elt F) → (⟨S250000x128, .f32⟩ : BufTy).Contents (Elt F)),
    nullary main_cst_60 (constant S_ .f32 0x00000000#32),
    unary main_cst_60 main_v382 (broadcastInDim S5000x128 ![] bcast_S_S5000x128 : (⟨S_, .f32⟩ : BufTy).Contents (Elt F) → (⟨S5000x128, .f32⟩ : BufTy).Contents (Elt F)),
    unary main_v374 main_v383 (broadcastInDim S250000x1 ![0] bcast_S250000_S250000x1_0 : (⟨S250000, .i32⟩ : BufTy).Contents (Elt F) → (⟨S250000x1, .i32⟩ : BufTy).Contents (Elt F)),
    ternary main_v382 main_v383 main_v381 main_v384 ((fun x i u => Host.scatterAdd scatter_S5000x128_S250000x1_S250000x128_1_0_0_1 x i u) : (⟨S5000x128, .f32⟩ : BufTy).Contents (Elt F) → (⟨S250000x1, .i32⟩ : BufTy).Contents (Elt F) → (⟨S250000x128, .f32⟩ : BufTy).Contents (Elt F) → (⟨S5000x128, .f32⟩ : BufTy).Contents (Elt F)),
    nullary main_cst_61 (constant S_ .f32 0x3F800000#32),
    unary main_cst_61 main_v385 (broadcastInDim S250000 ![] bcast_S_S250000 : (⟨S_, .f32⟩ : BufTy).Contents (Elt F) → (⟨S250000, .f32⟩ : BufTy).Contents (Elt F)),
    nullary main_cst_62 (constant S_ .f32 0x00000000#32),
    unary main_cst_62 main_v386 (broadcastInDim S5000 ![] bcast_S_S5000 : (⟨S_, .f32⟩ : BufTy).Contents (Elt F) → (⟨S5000, .f32⟩ : BufTy).Contents (Elt F)),
    unary main_v374 main_v387 (broadcastInDim S250000x1 ![0] bcast_S250000_S250000x1_0 : (⟨S250000, .i32⟩ : BufTy).Contents (Elt F) → (⟨S250000x1, .i32⟩ : BufTy).Contents (Elt F)),
    ternary main_v386 main_v387 main_v385 main_v388 ((fun x i u => Host.scatterAdd scatter_S5000_S250000x1_S250000_n_0_0_1 x i u) : (⟨S5000, .f32⟩ : BufTy).Contents (Elt F) → (⟨S250000x1, .i32⟩ : BufTy).Contents (Elt F) → (⟨S250000, .f32⟩ : BufTy).Contents (Elt F) → (⟨S5000, .f32⟩ : BufTy).Contents (Elt F)),
    nullary main_cst_63 (constant S_ .f32 0x3F800000#32),
    unary main_cst_63 main_v389 (broadcastInDim S5000 ![] bcast_S_S5000 : (⟨S_, .f32⟩ : BufTy).Contents (Elt F) → (⟨S5000, .f32⟩ : BufTy).Contents (Elt F)),
    binary main_v388 main_v389 main_v390 (maximumf : (⟨S5000, .f32⟩ : BufTy).Contents (Elt F) → (⟨S5000, .f32⟩ : BufTy).Contents (Elt F) → (⟨S5000, .f32⟩ : BufTy).Contents (Elt F)),
    unary main_v390 main_v391 (broadcastInDim S5000x1 ![0] bcast_S5000_S5000x1_0 : (⟨S5000, .f32⟩ : BufTy).Contents (Elt F) → (⟨S5000x1, .f32⟩ : BufTy).Contents (Elt F)),
    unary main_v391 main_v392 (broadcastInDim S5000x128 ![0, 1] bcast_S5000x1_S5000x128_0_1 : (⟨S5000x1, .f32⟩ : BufTy).Contents (Elt F) → (⟨S5000x128, .f32⟩ : BufTy).Contents (Elt F)),
    binary main_v384 main_v392 main_v393 (Host.divf : (⟨S5000x128, .f32⟩ : BufTy).Contents (Elt F) → (⟨S5000x128, .f32⟩ : BufTy).Contents (Elt F) → (⟨S5000x128, .f32⟩ : BufTy).Contents (Elt F)),
    unary main_v366 main_v394 ((transpose S128x128 [1, 0] · transposes_S128x128_S128x128_1_0) : (⟨S128x128, .f32⟩ : BufTy).Contents (Elt F) → (⟨S128x128, .f32⟩ : BufTy).Contents (Elt F)),
    binary main_v393 main_v394 main_v395 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    unary main_v368 main_v396 (broadcastInDim S1x128 ![1] bcast_S128_S1x128_1 : (⟨S128, .f32⟩ : BufTy).Contents (Elt F) → (⟨S1x128, .f32⟩ : BufTy).Contents (Elt F)),
    unary main_v396 main_v397 (broadcastInDim S5000x128 ![0, 1] bcast_S1x128_S5000x128_0_1 : (⟨S1x128, .f32⟩ : BufTy).Contents (Elt F) → (⟨S5000x128, .f32⟩ : BufTy).Contents (Elt F)),
    binary main_v395 main_v397 main_v398 (addf : (⟨S5000x128, .f32⟩ : BufTy).Contents (Elt F) → (⟨S5000x128, .f32⟩ : BufTy).Contents (Elt F) → (⟨S5000x128, .f32⟩ : BufTy).Contents (Elt F)),
    unary main_v370 main_v399 ((transpose S128x128 [1, 0] · transposes_S128x128_S128x128_1_0) : (⟨S128x128, .f32⟩ : BufTy).Contents (Elt F) → (⟨S128x128, .f32⟩ : BufTy).Contents (Elt F)),
    binary main_v321 main_v399 main_v400 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    binary main_v398 main_v400 main_v401 (addf : (⟨S5000x128, .f32⟩ : BufTy).Contents (Elt F) → (⟨S5000x128, .f32⟩ : BufTy).Contents (Elt F) → (⟨S5000x128, .f32⟩ : BufTy).Contents (Elt F)),
    unary main_v323 main_v402 ((extractStridedSlice S1x128x128 ![2, 0, 0] · slices_S8x128x128_S1x128x128_2_0_0) : (⟨S8x128x128, .f32⟩ : BufTy).Contents (Elt F) → (⟨S1x128x128, .f32⟩ : BufTy).Contents (Elt F)),
    reshape main_v402 main_v403 rfl shapeCasts_S1x128x128_S128x128,
    unary main_v325 main_v404 ((extractStridedSlice S1x128 ![2, 0] · slices_S8x128_S1x128_2_0) : (⟨S8x128, .f32⟩ : BufTy).Contents (Elt F) → (⟨S1x128, .f32⟩ : BufTy).Contents (Elt F)),
    reshape main_v404 main_v405 rfl shapeCasts_S1x128_S128,
    unary main_v327 main_v406 ((extractStridedSlice S1x128x128 ![2, 0, 0] · slices_S8x128x128_S1x128x128_2_0_0) : (⟨S8x128x128, .f32⟩ : BufTy).Contents (Elt F) → (⟨S1x128x128, .f32⟩ : BufTy).Contents (Elt F)),
    reshape main_v406 main_v407 rfl shapeCasts_S1x128x128_S128x128,
    unary main_arg8 main_v408 ((extractStridedSlice S1x250000 ![0, 0] · slices_S2x250000_S1x250000_0_0) : (⟨S2x250000, .i32⟩ : BufTy).Contents (Elt F) → (⟨S1x250000, .i32⟩ : BufTy).Contents (Elt F)),
    reshape main_v408 main_v409 rfl shapeCasts_S1x250000_S250000,
    unary main_arg8 main_v410 ((extractStridedSlice S1x250000 ![1, 0] · slices_S2x250000_S1x250000_1_0) : (⟨S2x250000, .i32⟩ : BufTy).Contents (Elt F) → (⟨S1x250000, .i32⟩ : BufTy).Contents (Elt F)),
    reshape main_v410 main_v411 rfl shapeCasts_S1x250000_S250000,
    nullary main_c_64 (constantI S_ 32 0#32),
    unary main_c_64 main_v412 (broadcastInDim S250000 ![] bcast_S_S250000 : (⟨S_, .i32⟩ : BufTy).Contents (Elt F) → (⟨S250000, .i32⟩ : BufTy).Contents (Elt F)) ]

theorem part7_eq (d : Dev nD) : main_part7 (F := F) d = seq ops7 := rfl

theorem ops7_sub : (ops7 : List (HloOp τ sig (Elt F))).Forall fun op => op.bufs ⊆ tcRefs τ sig :=
  ⟨unary_bufs_sub .., binary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub ..⟩

theorem ops7_fresh : (ops7 : List (HloOp τ sig (Elt F))).Forall fun op => op.fresh = ∅ := by
  simp only [List.Forall]; repeat' constructor

theorem kept7_0 (V : Valuation τ sig (Elt F)) : after (ops7 (F := F)) V (Proc.devRef .tc main_arg0) = V (Proc.devRef .tc main_arg0) := by
  after_results_simp
theorem kept7_1 (V : Valuation τ sig (Elt F)) : after (ops7 (F := F)) V (Proc.devRef .tc main_arg1) = V (Proc.devRef .tc main_arg1) := by
  after_results_simp
theorem kept7_2 (V : Valuation τ sig (Elt F)) : after (ops7 (F := F)) V (Proc.devRef .tc main_arg2) = V (Proc.devRef .tc main_arg2) := by
  after_results_simp
theorem kept7_3 (V : Valuation τ sig (Elt F)) : after (ops7 (F := F)) V (Proc.devRef .tc main_arg3) = V (Proc.devRef .tc main_arg3) := by
  after_results_simp
theorem kept7_4 (V : Valuation τ sig (Elt F)) : after (ops7 (F := F)) V (Proc.devRef .tc main_arg4) = V (Proc.devRef .tc main_arg4) := by
  after_results_simp
theorem kept7_5 (V : Valuation τ sig (Elt F)) : after (ops7 (F := F)) V (Proc.devRef .tc main_arg5) = V (Proc.devRef .tc main_arg5) := by
  after_results_simp
theorem kept7_6 (V : Valuation τ sig (Elt F)) : after (ops7 (F := F)) V (Proc.devRef .tc main_arg6) = V (Proc.devRef .tc main_arg6) := by
  after_results_simp
theorem kept7_7 (V : Valuation τ sig (Elt F)) : after (ops7 (F := F)) V (Proc.devRef .tc main_arg7) = V (Proc.devRef .tc main_arg7) := by
  after_results_simp
theorem kept7_8 (V : Valuation τ sig (Elt F)) : after (ops7 (F := F)) V (Proc.devRef .tc main_arg8) = V (Proc.devRef .tc main_arg8) := by
  after_results_simp
theorem kept7_9 (V : Valuation τ sig (Elt F)) : after (ops7 (F := F)) V (Proc.devRef .tc main_arg9) = V (Proc.devRef .tc main_arg9) := by
  after_results_simp
theorem kept7_10 (V : Valuation τ sig (Elt F)) : after (ops7 (F := F)) V (Proc.devRef .tc main_arg10) = V (Proc.devRef .tc main_arg10) := by
  after_results_simp
theorem kept7_11 (V : Valuation τ sig (Elt F)) : after (ops7 (F := F)) V (Proc.devRef .tc main_arg11) = V (Proc.devRef .tc main_arg11) := by
  after_results_simp
theorem kept7_12 (V : Valuation τ sig (Elt F)) : after (ops7 (F := F)) V (Proc.devRef .tc main_arg12) = V (Proc.devRef .tc main_arg12) := by
  after_results_simp
theorem kept7_13 (V : Valuation τ sig (Elt F)) : after (ops7 (F := F)) V (Proc.devRef .tc main_arg13) = V (Proc.devRef .tc main_arg13) := by
  after_results_simp

/-- Part 8's 60 operations, in order. -/
abbrev ops8 : List (HloOp τ sig (Elt F)) :=
  [ binary main_v409 main_v412 main_v413 (cmpi .slt : (⟨S250000, .i32⟩ : BufTy).Contents (Elt F) → (⟨S250000, .i32⟩ : BufTy).Contents (Elt F) → (⟨S250000, .i1⟩ : BufTy).Contents (Elt F)),
    nullary main_c_65 (constantI S_ 32 50000#32),
    unary main_c_65 main_v414 (broadcastInDim S250000 ![] bcast_S_S250000 : (⟨S_, .i32⟩ : BufTy).Contents (Elt F) → (⟨S250000, .i32⟩ : BufTy).Contents (Elt F)),
    binary main_v409 main_v414 main_v415 (addi : (⟨S250000, .i32⟩ : BufTy).Contents (Elt F) → (⟨S250000, .i32⟩ : BufTy).Contents (Elt F) → (⟨S250000, .i32⟩ : BufTy).Contents (Elt F)),
    ternary main_v413 main_v415 main_v409 main_v416 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    unary main_v416 main_v417 (broadcastInDim S250000x1 ![0] bcast_S250000_S250000x1_0 : (⟨S250000, .i32⟩ : BufTy).Contents (Elt F) → (⟨S250000x1, .i32⟩ : BufTy).Contents (Elt F)),
    binary main_v319 main_v417 main_v418 ((fun x i => Host.gather gather_S50000x128_S250000x1_S250000x128_1_0_n_n_0_1_1128 x i) : (⟨S50000x128, .f32⟩ : BufTy).Contents (Elt F) → (⟨S250000x1, .i32⟩ : BufTy).Contents (Elt F) → (⟨S250000x128, .f32⟩ : BufTy).Contents (Elt F)),
    nullary main_cst_66 (constant S_ .f32 0x00000000#32),
    unary main_cst_66 main_v419 (broadcastInDim S5000x128 ![] bcast_S_S5000x128 : (⟨S_, .f32⟩ : BufTy).Contents (Elt F) → (⟨S5000x128, .f32⟩ : BufTy).Contents (Elt F)),
    unary main_v411 main_v420 (broadcastInDim S250000x1 ![0] bcast_S250000_S250000x1_0 : (⟨S250000, .i32⟩ : BufTy).Contents (Elt F) → (⟨S250000x1, .i32⟩ : BufTy).Contents (Elt F)),
    ternary main_v419 main_v420 main_v418 main_v421 ((fun x i u => Host.scatterAdd scatter_S5000x128_S250000x1_S250000x128_1_0_0_1 x i u) : (⟨S5000x128, .f32⟩ : BufTy).Contents (Elt F) → (⟨S250000x1, .i32⟩ : BufTy).Contents (Elt F) → (⟨S250000x128, .f32⟩ : BufTy).Contents (Elt F) → (⟨S5000x128, .f32⟩ : BufTy).Contents (Elt F)),
    nullary main_cst_67 (constant S_ .f32 0x3F800000#32),
    unary main_cst_67 main_v422 (broadcastInDim S250000 ![] bcast_S_S250000 : (⟨S_, .f32⟩ : BufTy).Contents (Elt F) → (⟨S250000, .f32⟩ : BufTy).Contents (Elt F)),
    nullary main_cst_68 (constant S_ .f32 0x00000000#32),
    unary main_cst_68 main_v423 (broadcastInDim S5000 ![] bcast_S_S5000 : (⟨S_, .f32⟩ : BufTy).Contents (Elt F) → (⟨S5000, .f32⟩ : BufTy).Contents (Elt F)),
    unary main_v411 main_v424 (broadcastInDim S250000x1 ![0] bcast_S250000_S250000x1_0 : (⟨S250000, .i32⟩ : BufTy).Contents (Elt F) → (⟨S250000x1, .i32⟩ : BufTy).Contents (Elt F)),
    ternary main_v423 main_v424 main_v422 main_v425 ((fun x i u => Host.scatterAdd scatter_S5000_S250000x1_S250000_n_0_0_1 x i u) : (⟨S5000, .f32⟩ : BufTy).Contents (Elt F) → (⟨S250000x1, .i32⟩ : BufTy).Contents (Elt F) → (⟨S250000, .f32⟩ : BufTy).Contents (Elt F) → (⟨S5000, .f32⟩ : BufTy).Contents (Elt F)),
    nullary main_cst_69 (constant S_ .f32 0x3F800000#32),
    unary main_cst_69 main_v426 (broadcastInDim S5000 ![] bcast_S_S5000 : (⟨S_, .f32⟩ : BufTy).Contents (Elt F) → (⟨S5000, .f32⟩ : BufTy).Contents (Elt F)),
    binary main_v425 main_v426 main_v427 (maximumf : (⟨S5000, .f32⟩ : BufTy).Contents (Elt F) → (⟨S5000, .f32⟩ : BufTy).Contents (Elt F) → (⟨S5000, .f32⟩ : BufTy).Contents (Elt F)),
    unary main_v427 main_v428 (broadcastInDim S5000x1 ![0] bcast_S5000_S5000x1_0 : (⟨S5000, .f32⟩ : BufTy).Contents (Elt F) → (⟨S5000x1, .f32⟩ : BufTy).Contents (Elt F)),
    unary main_v428 main_v429 (broadcastInDim S5000x128 ![0, 1] bcast_S5000x1_S5000x128_0_1 : (⟨S5000x1, .f32⟩ : BufTy).Contents (Elt F) → (⟨S5000x128, .f32⟩ : BufTy).Contents (Elt F)),
    binary main_v421 main_v429 main_v430 (Host.divf : (⟨S5000x128, .f32⟩ : BufTy).Contents (Elt F) → (⟨S5000x128, .f32⟩ : BufTy).Contents (Elt F) → (⟨S5000x128, .f32⟩ : BufTy).Contents (Elt F)),
    unary main_v403 main_v431 ((transpose S128x128 [1, 0] · transposes_S128x128_S128x128_1_0) : (⟨S128x128, .f32⟩ : BufTy).Contents (Elt F) → (⟨S128x128, .f32⟩ : BufTy).Contents (Elt F)),
    binary main_v430 main_v431 main_v432 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    unary main_v405 main_v433 (broadcastInDim S1x128 ![1] bcast_S128_S1x128_1 : (⟨S128, .f32⟩ : BufTy).Contents (Elt F) → (⟨S1x128, .f32⟩ : BufTy).Contents (Elt F)),
    unary main_v433 main_v434 (broadcastInDim S5000x128 ![0, 1] bcast_S1x128_S5000x128_0_1 : (⟨S1x128, .f32⟩ : BufTy).Contents (Elt F) → (⟨S5000x128, .f32⟩ : BufTy).Contents (Elt F)),
    binary main_v432 main_v434 main_v435 (addf : (⟨S5000x128, .f32⟩ : BufTy).Contents (Elt F) → (⟨S5000x128, .f32⟩ : BufTy).Contents (Elt F) → (⟨S5000x128, .f32⟩ : BufTy).Contents (Elt F)),
    unary main_v407 main_v436 ((transpose S128x128 [1, 0] · transposes_S128x128_S128x128_1_0) : (⟨S128x128, .f32⟩ : BufTy).Contents (Elt F) → (⟨S128x128, .f32⟩ : BufTy).Contents (Elt F)),
    binary main_v321 main_v436 main_v437 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    binary main_v435 main_v437 main_v438 (addf : (⟨S5000x128, .f32⟩ : BufTy).Contents (Elt F) → (⟨S5000x128, .f32⟩ : BufTy).Contents (Elt F) → (⟨S5000x128, .f32⟩ : BufTy).Contents (Elt F)),
    unary main_v323 main_v439 ((extractStridedSlice S1x128x128 ![3, 0, 0] · slices_S8x128x128_S1x128x128_3_0_0) : (⟨S8x128x128, .f32⟩ : BufTy).Contents (Elt F) → (⟨S1x128x128, .f32⟩ : BufTy).Contents (Elt F)),
    reshape main_v439 main_v440 rfl shapeCasts_S1x128x128_S128x128,
    unary main_v325 main_v441 ((extractStridedSlice S1x128 ![3, 0] · slices_S8x128_S1x128_3_0) : (⟨S8x128, .f32⟩ : BufTy).Contents (Elt F) → (⟨S1x128, .f32⟩ : BufTy).Contents (Elt F)),
    reshape main_v441 main_v442 rfl shapeCasts_S1x128_S128,
    unary main_v327 main_v443 ((extractStridedSlice S1x128x128 ![3, 0, 0] · slices_S8x128x128_S1x128x128_3_0_0) : (⟨S8x128x128, .f32⟩ : BufTy).Contents (Elt F) → (⟨S1x128x128, .f32⟩ : BufTy).Contents (Elt F)),
    reshape main_v443 main_v444 rfl shapeCasts_S1x128x128_S128x128,
    unary main_arg9 main_v445 ((extractStridedSlice S1x500000 ![0, 0] · slices_S2x500000_S1x500000_0_0) : (⟨S2x500000, .i32⟩ : BufTy).Contents (Elt F) → (⟨S1x500000, .i32⟩ : BufTy).Contents (Elt F)),
    reshape main_v445 main_v446 rfl shapeCasts_S1x500000_S500000,
    unary main_arg9 main_v447 ((extractStridedSlice S1x500000 ![1, 0] · slices_S2x500000_S1x500000_1_0) : (⟨S2x500000, .i32⟩ : BufTy).Contents (Elt F) → (⟨S1x500000, .i32⟩ : BufTy).Contents (Elt F)),
    reshape main_v447 main_v448 rfl shapeCasts_S1x500000_S500000,
    nullary main_c_70 (constantI S_ 32 0#32),
    unary main_c_70 main_v449 (broadcastInDim S500000 ![] bcast_S_S500000 : (⟨S_, .i32⟩ : BufTy).Contents (Elt F) → (⟨S500000, .i32⟩ : BufTy).Contents (Elt F)),
    binary main_v446 main_v449 main_v450 (cmpi .slt : (⟨S500000, .i32⟩ : BufTy).Contents (Elt F) → (⟨S500000, .i32⟩ : BufTy).Contents (Elt F) → (⟨S500000, .i1⟩ : BufTy).Contents (Elt F)),
    nullary main_c_71 (constantI S_ 32 20000#32),
    unary main_c_71 main_v451 (broadcastInDim S500000 ![] bcast_S_S500000 : (⟨S_, .i32⟩ : BufTy).Contents (Elt F) → (⟨S500000, .i32⟩ : BufTy).Contents (Elt F)),
    binary main_v446 main_v451 main_v452 (addi : (⟨S500000, .i32⟩ : BufTy).Contents (Elt F) → (⟨S500000, .i32⟩ : BufTy).Contents (Elt F) → (⟨S500000, .i32⟩ : BufTy).Contents (Elt F)),
    ternary main_v450 main_v452 main_v446 main_v453 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v453 main_v454 (broadcastInDim S500000x1 ![0] bcast_S500000_S500000x1_0 : (⟨S500000, .i32⟩ : BufTy).Contents (Elt F) → (⟨S500000x1, .i32⟩ : BufTy).Contents (Elt F)),
    binary main_v320 main_v454 main_v455 ((fun x i => Host.gather gather_S20000x128_S500000x1_S500000x128_1_0_n_n_0_1_1128 x i) : (⟨S20000x128, .f32⟩ : BufTy).Contents (Elt F) → (⟨S500000x1, .i32⟩ : BufTy).Contents (Elt F) → (⟨S500000x128, .f32⟩ : BufTy).Contents (Elt F)),
    nullary main_cst_72 (constant S_ .f32 0x00000000#32),
    unary main_cst_72 main_v456 (broadcastInDim S50000x128 ![] bcast_S_S50000x128 : (⟨S_, .f32⟩ : BufTy).Contents (Elt F) → (⟨S50000x128, .f32⟩ : BufTy).Contents (Elt F)),
    unary main_v448 main_v457 (broadcastInDim S500000x1 ![0] bcast_S500000_S500000x1_0 : (⟨S500000, .i32⟩ : BufTy).Contents (Elt F) → (⟨S500000x1, .i32⟩ : BufTy).Contents (Elt F)),
    ternary main_v456 main_v457 main_v455 main_v458 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)),
    nullary main_cst_73 (constant S_ .f32 0x3F800000#32),
    unary main_cst_73 main_v459 (broadcastInDim S500000 ![] bcast_S_S500000 : (⟨S_, .f32⟩ : BufTy).Contents (Elt F) → (⟨S500000, .f32⟩ : BufTy).Contents (Elt F)),
    nullary main_cst_74 (constant S_ .f32 0x00000000#32),
    unary main_cst_74 main_v460 (broadcastInDim S50000 ![] bcast_S_S50000 : (⟨S_, .f32⟩ : BufTy).Contents (Elt F) → (⟨S50000, .f32⟩ : BufTy).Contents (Elt F)),
    unary main_v448 main_v461 (broadcastInDim S500000x1 ![0] bcast_S500000_S500000x1_0 : (⟨S500000, .i32⟩ : BufTy).Contents (Elt F) → (⟨S500000x1, .i32⟩ : BufTy).Contents (Elt F)),
    ternary main_v460 main_v461 main_v459 main_v462 ((fun x i u => Host.scatterAdd scatter_S50000_S500000x1_S500000_n_0_0_1 x i u) : (⟨S50000, .f32⟩ : BufTy).Contents (Elt F) → (⟨S500000x1, .i32⟩ : BufTy).Contents (Elt F) → (⟨S500000, .f32⟩ : BufTy).Contents (Elt F) → (⟨S50000, .f32⟩ : BufTy).Contents (Elt F)) ]

theorem part8_eq (d : Dev nD) : main_part8 (F := F) d = seq ops8 := rfl

theorem ops8_sub : (ops8 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub ..⟩

theorem ops8_fresh : (ops8 : List (HloOp τ sig (Elt F))).Forall fun op => op.fresh = ∅ := by
  simp only [List.Forall]; repeat' constructor

theorem kept8_0 (V : Valuation τ sig (Elt F)) : after (ops8 (F := F)) V (Proc.devRef .tc main_arg0) = V (Proc.devRef .tc main_arg0) := by
  after_results_simp
theorem kept8_1 (V : Valuation τ sig (Elt F)) : after (ops8 (F := F)) V (Proc.devRef .tc main_arg1) = V (Proc.devRef .tc main_arg1) := by
  after_results_simp
theorem kept8_2 (V : Valuation τ sig (Elt F)) : after (ops8 (F := F)) V (Proc.devRef .tc main_arg2) = V (Proc.devRef .tc main_arg2) := by
  after_results_simp
theorem kept8_3 (V : Valuation τ sig (Elt F)) : after (ops8 (F := F)) V (Proc.devRef .tc main_arg3) = V (Proc.devRef .tc main_arg3) := by
  after_results_simp
theorem kept8_4 (V : Valuation τ sig (Elt F)) : after (ops8 (F := F)) V (Proc.devRef .tc main_arg4) = V (Proc.devRef .tc main_arg4) := by
  after_results_simp
theorem kept8_5 (V : Valuation τ sig (Elt F)) : after (ops8 (F := F)) V (Proc.devRef .tc main_arg5) = V (Proc.devRef .tc main_arg5) := by
  after_results_simp
theorem kept8_6 (V : Valuation τ sig (Elt F)) : after (ops8 (F := F)) V (Proc.devRef .tc main_arg6) = V (Proc.devRef .tc main_arg6) := by
  after_results_simp
theorem kept8_7 (V : Valuation τ sig (Elt F)) : after (ops8 (F := F)) V (Proc.devRef .tc main_arg7) = V (Proc.devRef .tc main_arg7) := by
  after_results_simp
theorem kept8_8 (V : Valuation τ sig (Elt F)) : after (ops8 (F := F)) V (Proc.devRef .tc main_arg8) = V (Proc.devRef .tc main_arg8) := by
  after_results_simp
theorem kept8_9 (V : Valuation τ sig (Elt F)) : after (ops8 (F := F)) V (Proc.devRef .tc main_arg9) = V (Proc.devRef .tc main_arg9) := by
  after_results_simp
theorem kept8_10 (V : Valuation τ sig (Elt F)) : after (ops8 (F := F)) V (Proc.devRef .tc main_arg10) = V (Proc.devRef .tc main_arg10) := by
  after_results_simp
theorem kept8_11 (V : Valuation τ sig (Elt F)) : after (ops8 (F := F)) V (Proc.devRef .tc main_arg11) = V (Proc.devRef .tc main_arg11) := by
  after_results_simp
theorem kept8_12 (V : Valuation τ sig (Elt F)) : after (ops8 (F := F)) V (Proc.devRef .tc main_arg12) = V (Proc.devRef .tc main_arg12) := by
  after_results_simp
theorem kept8_13 (V : Valuation τ sig (Elt F)) : after (ops8 (F := F)) V (Proc.devRef .tc main_arg13) = V (Proc.devRef .tc main_arg13) := by
  after_results_simp

/-- Part 9's 60 operations, in order. -/
abbrev ops9 : List (HloOp τ sig (Elt F)) :=
  [ nullary main_cst_75 (constant S_ .f32 0x3F800000#32),
    unary main_cst_75 main_v463 (broadcastInDim S50000 ![] bcast_S_S50000 : (⟨S_, .f32⟩ : BufTy).Contents (Elt F) → (⟨S50000, .f32⟩ : BufTy).Contents (Elt F)),
    binary main_v462 main_v463 main_v464 (maximumf : (⟨S50000, .f32⟩ : BufTy).Contents (Elt F) → (⟨S50000, .f32⟩ : BufTy).Contents (Elt F) → (⟨S50000, .f32⟩ : BufTy).Contents (Elt F)),
    unary main_v464 main_v465 (broadcastInDim S50000x1 ![0] bcast_S50000_S50000x1_0 : (⟨S50000, .f32⟩ : BufTy).Contents (Elt F) → (⟨S50000x1, .f32⟩ : BufTy).Contents (Elt F)),
    unary main_v465 main_v466 (broadcastInDim S50000x128 ![0, 1] bcast_S50000x1_S50000x128_0_1 : (⟨S50000x1, .f32⟩ : BufTy).Contents (Elt F) → (⟨S50000x128, .f32⟩ : BufTy).Contents (Elt F)),
    binary main_v458 main_v466 main_v467 (Host.divf : (⟨S50000x128, .f32⟩ : BufTy).Contents (Elt F) → (⟨S50000x128, .f32⟩ : BufTy).Contents (Elt F) → (⟨S50000x128, .f32⟩ : BufTy).Contents (Elt F)),
    unary main_v440 main_v468 ((transpose S128x128 [1, 0] · transposes_S128x128_S128x128_1_0) : (⟨S128x128, .f32⟩ : BufTy).Contents (Elt F) → (⟨S128x128, .f32⟩ : BufTy).Contents (Elt F)),
    binary main_v467 main_v468 main_v469 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v442 main_v470 (broadcastInDim S1x128 ![1] bcast_S128_S1x128_1 : (⟨S128, .f32⟩ : BufTy).Contents (Elt F) → (⟨S1x128, .f32⟩ : BufTy).Contents (Elt F)),
    unary main_v470 main_v471 (broadcastInDim S50000x128 ![0, 1] bcast_S1x128_S50000x128_0_1 : (⟨S1x128, .f32⟩ : BufTy).Contents (Elt F) → (⟨S50000x128, .f32⟩ : BufTy).Contents (Elt F)),
    binary main_v469 main_v471 main_v472 (addf : (⟨S50000x128, .f32⟩ : BufTy).Contents (Elt F) → (⟨S50000x128, .f32⟩ : BufTy).Contents (Elt F) → (⟨S50000x128, .f32⟩ : BufTy).Contents (Elt F)),
    unary main_v444 main_v473 ((transpose S128x128 [1, 0] · transposes_S128x128_S128x128_1_0) : (⟨S128x128, .f32⟩ : BufTy).Contents (Elt F) → (⟨S128x128, .f32⟩ : BufTy).Contents (Elt F)),
    binary main_v319 main_v473 main_v474 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v472 main_v474 main_v475 (addf : (⟨S50000x128, .f32⟩ : BufTy).Contents (Elt F) → (⟨S50000x128, .f32⟩ : BufTy).Contents (Elt F) → (⟨S50000x128, .f32⟩ : BufTy).Contents (Elt F)),
    unary main_v323 main_v476 ((extractStridedSlice S1x128x128 ![4, 0, 0] · slices_S8x128x128_S1x128x128_4_0_0) : (⟨S8x128x128, .f32⟩ : BufTy).Contents (Elt F) → (⟨S1x128x128, .f32⟩ : BufTy).Contents (Elt F)),
    reshape main_v476 main_v477 rfl shapeCasts_S1x128x128_S128x128,
    unary main_v325 main_v478 ((extractStridedSlice S1x128 ![4, 0] · slices_S8x128_S1x128_4_0) : (⟨S8x128, .f32⟩ : BufTy).Contents (Elt F) → (⟨S1x128, .f32⟩ : BufTy).Contents (Elt F)),
    reshape main_v478 main_v479 rfl shapeCasts_S1x128_S128,
    unary main_v327 main_v480 ((extractStridedSlice S1x128x128 ![4, 0, 0] · slices_S8x128x128_S1x128x128_4_0_0) : (⟨S8x128x128, .f32⟩ : BufTy).Contents (Elt F) → (⟨S1x128x128, .f32⟩ : BufTy).Contents (Elt F)),
    reshape main_v480 main_v481 rfl shapeCasts_S1x128x128_S128x128,
    unary main_arg10 main_v482 ((extractStridedSlice S1x250000 ![0, 0] · slices_S2x250000_S1x250000_0_0) : (⟨S2x250000, .i32⟩ : BufTy).Contents (Elt F) → (⟨S1x250000, .i32⟩ : BufTy).Contents (Elt F)),
    reshape main_v482 main_v483 rfl shapeCasts_S1x250000_S250000,
    unary main_arg10 main_v484 ((extractStridedSlice S1x250000 ![1, 0] · slices_S2x250000_S1x250000_1_0) : (⟨S2x250000, .i32⟩ : BufTy).Contents (Elt F) → (⟨S1x250000, .i32⟩ : BufTy).Contents (Elt F)),
    reshape main_v484 main_v485 rfl shapeCasts_S1x250000_S250000,
    nullary main_c_76 (constantI S_ 32 0#32),
    unary main_c_76 main_v486 (broadcastInDim S250000 ![] bcast_S_S250000 : (⟨S_, .i32⟩ : BufTy).Contents (Elt F) → (⟨S250000, .i32⟩ : BufTy).Contents (Elt F)),
    binary main_v483 main_v486 main_v487 (cmpi .slt : (⟨S250000, .i32⟩ : BufTy).Contents (Elt F) → (⟨S250000, .i32⟩ : BufTy).Contents (Elt F) → (⟨S250000, .i1⟩ : BufTy).Contents (Elt F)),
    nullary main_c_77 (constantI S_ 32 5000#32),
    unary main_c_77 main_v488 (broadcastInDim S250000 ![] bcast_S_S250000 : (⟨S_, .i32⟩ : BufTy).Contents (Elt F) → (⟨S250000, .i32⟩ : BufTy).Contents (Elt F)),
    binary main_v483 main_v488 main_v489 (addi : (⟨S250000, .i32⟩ : BufTy).Contents (Elt F) → (⟨S250000, .i32⟩ : BufTy).Contents (Elt F) → (⟨S250000, .i32⟩ : BufTy).Contents (Elt F)),
    ternary main_v487 main_v489 main_v483 main_v490 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    unary main_v490 main_v491 (broadcastInDim S250000x1 ![0] bcast_S250000_S250000x1_0 : (⟨S250000, .i32⟩ : BufTy).Contents (Elt F) → (⟨S250000x1, .i32⟩ : BufTy).Contents (Elt F)),
    binary main_v321 main_v491 main_v492 ((fun x i => Host.gather gather_S5000x128_S250000x1_S250000x128_1_0_n_n_0_1_1128 x i) : (⟨S5000x128, .f32⟩ : BufTy).Contents (Elt F) → (⟨S250000x1, .i32⟩ : BufTy).Contents (Elt F) → (⟨S250000x128, .f32⟩ : BufTy).Contents (Elt F)),
    nullary main_cst_78 (constant S_ .f32 0x00000000#32),
    unary main_cst_78 main_v493 (broadcastInDim S20000x128 ![] bcast_S_S20000x128 : (⟨S_, .f32⟩ : BufTy).Contents (Elt F) → (⟨S20000x128, .f32⟩ : BufTy).Contents (Elt F)),
    unary main_v485 main_v494 (broadcastInDim S250000x1 ![0] bcast_S250000_S250000x1_0 : (⟨S250000, .i32⟩ : BufTy).Contents (Elt F) → (⟨S250000x1, .i32⟩ : BufTy).Contents (Elt F)),
    ternary main_v493 main_v494 main_v492 main_v495 ((fun x i u => Host.scatterAdd scatter_S20000x128_S250000x1_S250000x128_1_0_0_1 x i u) : (⟨S20000x128, .f32⟩ : BufTy).Contents (Elt F) → (⟨S250000x1, .i32⟩ : BufTy).Contents (Elt F) → (⟨S250000x128, .f32⟩ : BufTy).Contents (Elt F) → (⟨S20000x128, .f32⟩ : BufTy).Contents (Elt F)),
    nullary main_cst_79 (constant S_ .f32 0x3F800000#32),
    unary main_cst_79 main_v496 (broadcastInDim S250000 ![] bcast_S_S250000 : (⟨S_, .f32⟩ : BufTy).Contents (Elt F) → (⟨S250000, .f32⟩ : BufTy).Contents (Elt F)),
    nullary main_cst_80 (constant S_ .f32 0x00000000#32),
    unary main_cst_80 main_v497 (broadcastInDim S20000 ![] bcast_S_S20000 : (⟨S_, .f32⟩ : BufTy).Contents (Elt F) → (⟨S20000, .f32⟩ : BufTy).Contents (Elt F)),
    unary main_v485 main_v498 (broadcastInDim S250000x1 ![0] bcast_S250000_S250000x1_0 : (⟨S250000, .i32⟩ : BufTy).Contents (Elt F) → (⟨S250000x1, .i32⟩ : BufTy).Contents (Elt F)),
    ternary main_v497 main_v498 main_v496 main_v499 ((fun x i u => Host.scatterAdd scatter_S20000_S250000x1_S250000_n_0_0_1 x i u) : (⟨S20000, .f32⟩ : BufTy).Contents (Elt F) → (⟨S250000x1, .i32⟩ : BufTy).Contents (Elt F) → (⟨S250000, .f32⟩ : BufTy).Contents (Elt F) → (⟨S20000, .f32⟩ : BufTy).Contents (Elt F)),
    nullary main_cst_81 (constant S_ .f32 0x3F800000#32),
    unary main_cst_81 main_v500 (broadcastInDim S20000 ![] bcast_S_S20000 : (⟨S_, .f32⟩ : BufTy).Contents (Elt F) → (⟨S20000, .f32⟩ : BufTy).Contents (Elt F)),
    binary main_v499 main_v500 main_v501 (maximumf : (⟨S20000, .f32⟩ : BufTy).Contents (Elt F) → (⟨S20000, .f32⟩ : BufTy).Contents (Elt F) → (⟨S20000, .f32⟩ : BufTy).Contents (Elt F)),
    unary main_v501 main_v502 (broadcastInDim S20000x1 ![0] bcast_S20000_S20000x1_0 : (⟨S20000, .f32⟩ : BufTy).Contents (Elt F) → (⟨S20000x1, .f32⟩ : BufTy).Contents (Elt F)),
    unary main_v502 main_v503 (broadcastInDim S20000x128 ![0, 1] bcast_S20000x1_S20000x128_0_1 : (⟨S20000x1, .f32⟩ : BufTy).Contents (Elt F) → (⟨S20000x128, .f32⟩ : BufTy).Contents (Elt F)),
    binary main_v495 main_v503 main_v504 (Host.divf : (⟨S20000x128, .f32⟩ : BufTy).Contents (Elt F) → (⟨S20000x128, .f32⟩ : BufTy).Contents (Elt F) → (⟨S20000x128, .f32⟩ : BufTy).Contents (Elt F)),
    unary main_v477 main_v505 ((transpose S128x128 [1, 0] · transposes_S128x128_S128x128_1_0) : (⟨S128x128, .f32⟩ : BufTy).Contents (Elt F) → (⟨S128x128, .f32⟩ : BufTy).Contents (Elt F)),
    binary main_v504 main_v505 main_v506 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_v479 main_v507 (broadcastInDim S1x128 ![1] bcast_S128_S1x128_1 : (⟨S128, .f32⟩ : BufTy).Contents (Elt F) → (⟨S1x128, .f32⟩ : BufTy).Contents (Elt F)),
    unary main_v507 main_v508 (broadcastInDim S20000x128 ![0, 1] bcast_S1x128_S20000x128_0_1 : (⟨S1x128, .f32⟩ : BufTy).Contents (Elt F) → (⟨S20000x128, .f32⟩ : BufTy).Contents (Elt F)),
    binary main_v506 main_v508 main_v509 (addf : (⟨S20000x128, .f32⟩ : BufTy).Contents (Elt F) → (⟨S20000x128, .f32⟩ : BufTy).Contents (Elt F) → (⟨S20000x128, .f32⟩ : BufTy).Contents (Elt F)),
    unary main_v481 main_v510 ((transpose S128x128 [1, 0] · transposes_S128x128_S128x128_1_0) : (⟨S128x128, .f32⟩ : BufTy).Contents (Elt F) → (⟨S128x128, .f32⟩ : BufTy).Contents (Elt F)),
    binary main_v320 main_v510 main_v511 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    binary main_v509 main_v511 main_v512 (addf : (⟨S20000x128, .f32⟩ : BufTy).Contents (Elt F) → (⟨S20000x128, .f32⟩ : BufTy).Contents (Elt F) → (⟨S20000x128, .f32⟩ : BufTy).Contents (Elt F)),
    unary main_v323 main_v513 ((extractStridedSlice S1x128x128 ![5, 0, 0] · slices_S8x128x128_S1x128x128_5_0_0) : (⟨S8x128x128, .f32⟩ : BufTy).Contents (Elt F) → (⟨S1x128x128, .f32⟩ : BufTy).Contents (Elt F)),
    reshape main_v513 main_v514 rfl shapeCasts_S1x128x128_S128x128,
    unary main_v325 main_v515 ((extractStridedSlice S1x128 ![5, 0] · slices_S8x128_S1x128_5_0) : (⟨S8x128, .f32⟩ : BufTy).Contents (Elt F) → (⟨S1x128, .f32⟩ : BufTy).Contents (Elt F)) ]

theorem part9_eq (d : Dev nD) : main_part9 (F := F) d = seq ops9 := rfl

theorem ops9_sub : (ops9 : List (HloOp τ sig (Elt F))).Forall fun op => op.bufs ⊆ tcRefs τ sig :=
  ⟨nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., reshape_bufs_sub .., unary_bufs_sub ..⟩

theorem ops9_fresh : (ops9 : List (HloOp τ sig (Elt F))).Forall fun op => op.fresh = ∅ := by
  simp only [List.Forall]; repeat' constructor

theorem kept9_0 (V : Valuation τ sig (Elt F)) : after (ops9 (F := F)) V (Proc.devRef .tc main_arg0) = V (Proc.devRef .tc main_arg0) := by
  after_results_simp
theorem kept9_1 (V : Valuation τ sig (Elt F)) : after (ops9 (F := F)) V (Proc.devRef .tc main_arg1) = V (Proc.devRef .tc main_arg1) := by
  after_results_simp
theorem kept9_2 (V : Valuation τ sig (Elt F)) : after (ops9 (F := F)) V (Proc.devRef .tc main_arg2) = V (Proc.devRef .tc main_arg2) := by
  after_results_simp
theorem kept9_3 (V : Valuation τ sig (Elt F)) : after (ops9 (F := F)) V (Proc.devRef .tc main_arg3) = V (Proc.devRef .tc main_arg3) := by
  after_results_simp
theorem kept9_4 (V : Valuation τ sig (Elt F)) : after (ops9 (F := F)) V (Proc.devRef .tc main_arg4) = V (Proc.devRef .tc main_arg4) := by
  after_results_simp
theorem kept9_5 (V : Valuation τ sig (Elt F)) : after (ops9 (F := F)) V (Proc.devRef .tc main_arg5) = V (Proc.devRef .tc main_arg5) := by
  after_results_simp
theorem kept9_6 (V : Valuation τ sig (Elt F)) : after (ops9 (F := F)) V (Proc.devRef .tc main_arg6) = V (Proc.devRef .tc main_arg6) := by
  after_results_simp
theorem kept9_7 (V : Valuation τ sig (Elt F)) : after (ops9 (F := F)) V (Proc.devRef .tc main_arg7) = V (Proc.devRef .tc main_arg7) := by
  after_results_simp
theorem kept9_8 (V : Valuation τ sig (Elt F)) : after (ops9 (F := F)) V (Proc.devRef .tc main_arg8) = V (Proc.devRef .tc main_arg8) := by
  after_results_simp
theorem kept9_9 (V : Valuation τ sig (Elt F)) : after (ops9 (F := F)) V (Proc.devRef .tc main_arg9) = V (Proc.devRef .tc main_arg9) := by
  after_results_simp
theorem kept9_10 (V : Valuation τ sig (Elt F)) : after (ops9 (F := F)) V (Proc.devRef .tc main_arg10) = V (Proc.devRef .tc main_arg10) := by
  after_results_simp
theorem kept9_11 (V : Valuation τ sig (Elt F)) : after (ops9 (F := F)) V (Proc.devRef .tc main_arg11) = V (Proc.devRef .tc main_arg11) := by
  after_results_simp
theorem kept9_12 (V : Valuation τ sig (Elt F)) : after (ops9 (F := F)) V (Proc.devRef .tc main_arg12) = V (Proc.devRef .tc main_arg12) := by
  after_results_simp
theorem kept9_13 (V : Valuation τ sig (Elt F)) : after (ops9 (F := F)) V (Proc.devRef .tc main_arg13) = V (Proc.devRef .tc main_arg13) := by
  after_results_simp

end Cert.ReferenceIdeal.Parts

end
-- ==== Proof.RefOps2.lean ====
/-
  Parts 10 to 14 of the reference's @main as lists of host operations: part `K` of the printed program is the
  operations of `opsK` run in order (a called function's operations stand in its call's place); every operation touches
  TensorCore references only and allocates nothing; and none of them writes an argument array, so each argument array keeps
  its contents across the part, from any contents `V`.
-/
import proofs.«116292_j712964571450_1_alg».proof.Proof.Gen.ReferenceIdeal
import Idealize.ShloMosaic.Lib.StableHlo.Run

set_option maxRecDepth 16384
set_option maxHeartbeats 40000000

noncomputable section

namespace Cert.ReferenceIdeal.Parts

open Cert.ReferenceIdeal Cert.ReferenceIdeal.Gen Idealize.ShloMosaic Idealize.ShloMosaic.TcCoe Idealize.SL.Sem Idealize.ShloMosaic.StableHlo

variable {F : FTy → Type} [FloatOps F]

/-- Part 10's 60 operations, in order. -/
abbrev ops10 : List (HloOp τ sig (Elt F)) :=
  [ reshape main_v515 main_v516 rfl shapeCasts_S1x128_S128,
    unary main_v327 main_v517 ((extractStridedSlice S1x128x128 ![5, 0, 0] · slices_S8x128x128_S1x128x128_5_0_0) : (⟨S8x128x128, .f32⟩ : BufTy).Contents (Elt F) → (⟨S1x128x128, .f32⟩ : BufTy).Contents (Elt F)),
    reshape main_v517 main_v518 rfl shapeCasts_S1x128x128_S128x128,
    unary main_arg11 main_v519 ((extractStridedSlice S1x250000 ![0, 0] · slices_S2x250000_S1x250000_0_0) : (⟨S2x250000, .i32⟩ : BufTy).Contents (Elt F) → (⟨S1x250000, .i32⟩ : BufTy).Contents (Elt F)),
    reshape main_v519 main_v520 rfl shapeCasts_S1x250000_S250000,
    unary main_arg11 main_v521 ((extractStridedSlice S1x250000 ![1, 0] · slices_S2x250000_S1x250000_1_0) : (⟨S2x250000, .i32⟩ : BufTy).Contents (Elt F) → (⟨S1x250000, .i32⟩ : BufTy).Contents (Elt F)),
    reshape main_v521 main_v522 rfl shapeCasts_S1x250000_S250000,
    nullary main_c_82 (constantI S_ 32 0#32),
    unary main_c_82 main_v523 (broadcastInDim S250000 ![] bcast_S_S250000 : (⟨S_, .i32⟩ : BufTy).Contents (Elt F) → (⟨S250000, .i32⟩ : BufTy).Contents (Elt F)),
    binary main_v520 main_v523 main_v524 (cmpi .slt : (⟨S250000, .i32⟩ : BufTy).Contents (Elt F) → (⟨S250000, .i32⟩ : BufTy).Contents (Elt F) → (⟨S250000, .i1⟩ : BufTy).Contents (Elt F)),
    nullary main_c_83 (constantI S_ 32 5000#32),
    unary main_c_83 main_v525 (broadcastInDim S250000 ![] bcast_S_S250000 : (⟨S_, .i32⟩ : BufTy).Contents (Elt F) → (⟨S250000, .i32⟩ : BufTy).Contents (Elt F)),
    binary main_v520 main_v525 main_v526 (addi : (⟨S250000, .i32⟩ : BufTy).Contents (Elt F) → (⟨S250000, .i32⟩ : BufTy).Contents (Elt F) → (⟨S250000, .i32⟩ : BufTy).Contents (Elt F)),
    ternary main_v524 main_v526 main_v520 main_v527 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    unary main_v527 main_v528 (broadcastInDim S250000x1 ![0] bcast_S250000_S250000x1_0 : (⟨S250000, .i32⟩ : BufTy).Contents (Elt F) → (⟨S250000x1, .i32⟩ : BufTy).Contents (Elt F)),
    binary main_v321 main_v528 main_v529 ((fun x i => Host.gather gather_S5000x128_S250000x1_S250000x128_1_0_n_n_0_1_1128 x i) : (⟨S5000x128, .f32⟩ : BufTy).Contents (Elt F) → (⟨S250000x1, .i32⟩ : BufTy).Contents (Elt F) → (⟨S250000x128, .f32⟩ : BufTy).Contents (Elt F)),
    nullary main_cst_84 (constant S_ .f32 0x00000000#32),
    unary main_cst_84 main_v530 (broadcastInDim S50000x128 ![] bcast_S_S50000x128 : (⟨S_, .f32⟩ : BufTy).Contents (Elt F) → (⟨S50000x128, .f32⟩ : BufTy).Contents (Elt F)),
    unary main_v522 main_v531 (broadcastInDim S250000x1 ![0] bcast_S250000_S250000x1_0 : (⟨S250000, .i32⟩ : BufTy).Contents (Elt F) → (⟨S250000x1, .i32⟩ : BufTy).Contents (Elt F)),
    ternary main_v530 main_v531 main_v529 main_v532 ((fun x i u => Host.scatterAdd scatter_S50000x128_S250000x1_S250000x128_1_0_0_1 x i u) : (⟨S50000x128, .f32⟩ : BufTy).Contents (Elt F) → (⟨S250000x1, .i32⟩ : BufTy).Contents (Elt F) → (⟨S250000x128, .f32⟩ : BufTy).Contents (Elt F) → (⟨S50000x128, .f32⟩ : BufTy).Contents (Elt F)),
    nullary main_cst_85 (constant S_ .f32 0x3F800000#32),
    unary main_cst_85 main_v533 (broadcastInDim S250000 ![] bcast_S_S250000 : (⟨S_, .f32⟩ : BufTy).Contents (Elt F) → (⟨S250000, .f32⟩ : BufTy).Contents (Elt F)),
    nullary main_cst_86 (constant S_ .f32 0x00000000#32),
    unary main_cst_86 main_v534 (broadcastInDim S50000 ![] bcast_S_S50000 : (⟨S_, .f32⟩ : BufTy).Contents (Elt F) → (⟨S50000, .f32⟩ : BufTy).Contents (Elt F)),
    unary main_v522 main_v535 (broadcastInDim S250000x1 ![0] bcast_S250000_S250000x1_0 : (⟨S250000, .i32⟩ : BufTy).Contents (Elt F) → (⟨S250000x1, .i32⟩ : BufTy).Contents (Elt F)),
    ternary main_v534 main_v535 main_v533 main_v536 ((fun x i u => Host.scatterAdd scatter_S50000_S250000x1_S250000_n_0_0_1 x i u) : (⟨S50000, .f32⟩ : BufTy).Contents (Elt F) → (⟨S250000x1, .i32⟩ : BufTy).Contents (Elt F) → (⟨S250000, .f32⟩ : BufTy).Contents (Elt F) → (⟨S50000, .f32⟩ : BufTy).Contents (Elt F)),
    nullary main_cst_87 (constant S_ .f32 0x3F800000#32),
    unary main_cst_87 main_v537 (broadcastInDim S50000 ![] bcast_S_S50000 : (⟨S_, .f32⟩ : BufTy).Contents (Elt F) → (⟨S50000, .f32⟩ : BufTy).Contents (Elt F)),
    binary main_v536 main_v537 main_v538 (maximumf : (⟨S50000, .f32⟩ : BufTy).Contents (Elt F) → (⟨S50000, .f32⟩ : BufTy).Contents (Elt F) → (⟨S50000, .f32⟩ : BufTy).Contents (Elt F)),
    unary main_v538 main_v539 (broadcastInDim S50000x1 ![0] bcast_S50000_S50000x1_0 : (⟨S50000, .f32⟩ : BufTy).Contents (Elt F) → (⟨S50000x1, .f32⟩ : BufTy).Contents (Elt F)),
    unary main_v539 main_v540 (broadcastInDim S50000x128 ![0, 1] bcast_S50000x1_S50000x128_0_1 : (⟨S50000x1, .f32⟩ : BufTy).Contents (Elt F) → (⟨S50000x128, .f32⟩ : BufTy).Contents (Elt F)),
    binary main_v532 main_v540 main_v541 (Host.divf : (⟨S50000x128, .f32⟩ : BufTy).Contents (Elt F) → (⟨S50000x128, .f32⟩ : BufTy).Contents (Elt F) → (⟨S50000x128, .f32⟩ : BufTy).Contents (Elt F)),
    unary main_v514 main_v542 ((transpose S128x128 [1, 0] · transposes_S128x128_S128x128_1_0) : (⟨S128x128, .f32⟩ : BufTy).Contents (Elt F) → (⟨S128x128, .f32⟩ : BufTy).Contents (Elt F)),
    binary main_v541 main_v542 main_v543 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v516 main_v544 (broadcastInDim S1x128 ![1] bcast_S128_S1x128_1 : (⟨S128, .f32⟩ : BufTy).Contents (Elt F) → (⟨S1x128, .f32⟩ : BufTy).Contents (Elt F)),
    unary main_v544 main_v545 (broadcastInDim S50000x128 ![0, 1] bcast_S1x128_S50000x128_0_1 : (⟨S1x128, .f32⟩ : BufTy).Contents (Elt F) → (⟨S50000x128, .f32⟩ : BufTy).Contents (Elt F)),
    binary main_v543 main_v545 main_v546 (addf : (⟨S50000x128, .f32⟩ : BufTy).Contents (Elt F) → (⟨S50000x128, .f32⟩ : BufTy).Contents (Elt F) → (⟨S50000x128, .f32⟩ : BufTy).Contents (Elt F)),
    unary main_v518 main_v547 ((transpose S128x128 [1, 0] · transposes_S128x128_S128x128_1_0) : (⟨S128x128, .f32⟩ : BufTy).Contents (Elt F) → (⟨S128x128, .f32⟩ : BufTy).Contents (Elt F)),
    binary main_v319 main_v547 main_v548 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v546 main_v548 main_v549 (addf : (⟨S50000x128, .f32⟩ : BufTy).Contents (Elt F) → (⟨S50000x128, .f32⟩ : BufTy).Contents (Elt F) → (⟨S50000x128, .f32⟩ : BufTy).Contents (Elt F)),
    unary main_v323 main_v550 ((extractStridedSlice S1x128x128 ![6, 0, 0] · slices_S8x128x128_S1x128x128_6_0_0) : (⟨S8x128x128, .f32⟩ : BufTy).Contents (Elt F) → (⟨S1x128x128, .f32⟩ : BufTy).Contents (Elt F)),
    reshape main_v550 main_v551 rfl shapeCasts_S1x128x128_S128x128,
    unary main_v325 main_v552 ((extractStridedSlice S1x128 ![6, 0] · slices_S8x128_S1x128_6_0) : (⟨S8x128, .f32⟩ : BufTy).Contents (Elt F) → (⟨S1x128, .f32⟩ : BufTy).Contents (Elt F)),
    reshape main_v552 main_v553 rfl shapeCasts_S1x128_S128,
    unary main_v327 main_v554 ((extractStridedSlice S1x128x128 ![6, 0, 0] · slices_S8x128x128_S1x128x128_6_0_0) : (⟨S8x128x128, .f32⟩ : BufTy).Contents (Elt F) → (⟨S1x128x128, .f32⟩ : BufTy).Contents (Elt F)),
    reshape main_v554 main_v555 rfl shapeCasts_S1x128x128_S128x128,
    unary main_arg12 main_v556 ((extractStridedSlice S1x500000 ![0, 0] · slices_S2x500000_S1x500000_0_0) : (⟨S2x500000, .i32⟩ : BufTy).Contents (Elt F) → (⟨S1x500000, .i32⟩ : BufTy).Contents (Elt F)),
    reshape main_v556 main_v557 rfl shapeCasts_S1x500000_S500000,
    unary main_arg12 main_v558 ((extractStridedSlice S1x500000 ![1, 0] · slices_S2x500000_S1x500000_1_0) : (⟨S2x500000, .i32⟩ : BufTy).Contents (Elt F) → (⟨S1x500000, .i32⟩ : BufTy).Contents (Elt F)),
    reshape main_v558 main_v559 rfl shapeCasts_S1x500000_S500000,
    nullary main_c_88 (constantI S_ 32 0#32),
    unary main_c_88 main_v560 (broadcastInDim S500000 ![] bcast_S_S500000 : (⟨S_, .i32⟩ : BufTy).Contents (Elt F) → (⟨S500000, .i32⟩ : BufTy).Contents (Elt F)),
    binary main_v557 main_v560 main_v561 (cmpi .slt : (⟨S500000, .i32⟩ : BufTy).Contents (Elt F) → (⟨S500000, .i32⟩ : BufTy).Contents (Elt F) → (⟨S500000, .i1⟩ : BufTy).Contents (Elt F)),
    nullary main_c_89 (constantI S_ 32 50000#32),
    unary main_c_89 main_v562 (broadcastInDim S500000 ![] bcast_S_S500000 : (⟨S_, .i32⟩ : BufTy).Contents (Elt F) → (⟨S500000, .i32⟩ : BufTy).Contents (Elt F)),
    binary main_v557 main_v562 main_v563 (addi : (⟨S500000, .i32⟩ : BufTy).Contents (Elt F) → (⟨S500000, .i32⟩ : BufTy).Contents (Elt F) → (⟨S500000, .i32⟩ : BufTy).Contents (Elt F)),
    ternary main_v561 main_v563 main_v557 main_v564 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v564 main_v565 (broadcastInDim S500000x1 ![0] bcast_S500000_S500000x1_0 : (⟨S500000, .i32⟩ : BufTy).Contents (Elt F) → (⟨S500000x1, .i32⟩ : BufTy).Contents (Elt F)),
    binary main_v319 main_v565 main_v566 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    nullary main_cst_90 (constant S_ .f32 0x00000000#32) ]

theorem part10_eq (d : Dev nD) : main_part10 (F := F) d = seq ops10 := rfl

theorem ops10_sub : (ops10 : List (HloOp τ sig (Elt F))).Forall fun op => op.bufs ⊆ tcRefs τ sig :=
  ⟨reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub ..⟩

theorem ops10_fresh : (ops10 : List (HloOp τ sig (Elt F))).Forall fun op => op.fresh = ∅ := by
  simp only [List.Forall]; repeat' constructor

theorem kept10_0 (V : Valuation τ sig (Elt F)) : after (ops10 (F := F)) V (Proc.devRef .tc main_arg0) = V (Proc.devRef .tc main_arg0) := by
  after_results_simp
theorem kept10_1 (V : Valuation τ sig (Elt F)) : after (ops10 (F := F)) V (Proc.devRef .tc main_arg1) = V (Proc.devRef .tc main_arg1) := by
  after_results_simp
theorem kept10_2 (V : Valuation τ sig (Elt F)) : after (ops10 (F := F)) V (Proc.devRef .tc main_arg2) = V (Proc.devRef .tc main_arg2) := by
  after_results_simp
theorem kept10_3 (V : Valuation τ sig (Elt F)) : after (ops10 (F := F)) V (Proc.devRef .tc main_arg3) = V (Proc.devRef .tc main_arg3) := by
  after_results_simp
theorem kept10_4 (V : Valuation τ sig (Elt F)) : after (ops10 (F := F)) V (Proc.devRef .tc main_arg4) = V (Proc.devRef .tc main_arg4) := by
  after_results_simp
theorem kept10_5 (V : Valuation τ sig (Elt F)) : after (ops10 (F := F)) V (Proc.devRef .tc main_arg5) = V (Proc.devRef .tc main_arg5) := by
  after_results_simp
theorem kept10_6 (V : Valuation τ sig (Elt F)) : after (ops10 (F := F)) V (Proc.devRef .tc main_arg6) = V (Proc.devRef .tc main_arg6) := by
  after_results_simp
theorem kept10_7 (V : Valuation τ sig (Elt F)) : after (ops10 (F := F)) V (Proc.devRef .tc main_arg7) = V (Proc.devRef .tc main_arg7) := by
  after_results_simp
theorem kept10_8 (V : Valuation τ sig (Elt F)) : after (ops10 (F := F)) V (Proc.devRef .tc main_arg8) = V (Proc.devRef .tc main_arg8) := by
  after_results_simp
theorem kept10_9 (V : Valuation τ sig (Elt F)) : after (ops10 (F := F)) V (Proc.devRef .tc main_arg9) = V (Proc.devRef .tc main_arg9) := by
  after_results_simp
theorem kept10_10 (V : Valuation τ sig (Elt F)) : after (ops10 (F := F)) V (Proc.devRef .tc main_arg10) = V (Proc.devRef .tc main_arg10) := by
  after_results_simp
theorem kept10_11 (V : Valuation τ sig (Elt F)) : after (ops10 (F := F)) V (Proc.devRef .tc main_arg11) = V (Proc.devRef .tc main_arg11) := by
  after_results_simp
theorem kept10_12 (V : Valuation τ sig (Elt F)) : after (ops10 (F := F)) V (Proc.devRef .tc main_arg12) = V (Proc.devRef .tc main_arg12) := by
  after_results_simp
theorem kept10_13 (V : Valuation τ sig (Elt F)) : after (ops10 (F := F)) V (Proc.devRef .tc main_arg13) = V (Proc.devRef .tc main_arg13) := by
  after_results_simp

/-- Part 11's 60 operations, in order. -/
abbrev ops11 : List (HloOp τ sig (Elt F)) :=
  [ unary main_cst_90 main_v567 (broadcastInDim S50000x128 ![] bcast_S_S50000x128 : (⟨S_, .f32⟩ : BufTy).Contents (Elt F) → (⟨S50000x128, .f32⟩ : BufTy).Contents (Elt F)),
    unary main_v559 main_v568 (broadcastInDim S500000x1 ![0] bcast_S500000_S500000x1_0 : (⟨S500000, .i32⟩ : BufTy).Contents (Elt F) → (⟨S500000x1, .i32⟩ : BufTy).Contents (Elt F)),
    ternary main_v567 main_v568 main_v566 main_v569 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)),
    nullary main_cst_91 (constant S_ .f32 0x3F800000#32),
    unary main_cst_91 main_v570 (broadcastInDim S500000 ![] bcast_S_S500000 : (⟨S_, .f32⟩ : BufTy).Contents (Elt F) → (⟨S500000, .f32⟩ : BufTy).Contents (Elt F)),
    nullary main_cst_92 (constant S_ .f32 0x00000000#32),
    unary main_cst_92 main_v571 (broadcastInDim S50000 ![] bcast_S_S50000 : (⟨S_, .f32⟩ : BufTy).Contents (Elt F) → (⟨S50000, .f32⟩ : BufTy).Contents (Elt F)),
    unary main_v559 main_v572 (broadcastInDim S500000x1 ![0] bcast_S500000_S500000x1_0 : (⟨S500000, .i32⟩ : BufTy).Contents (Elt F) → (⟨S500000x1, .i32⟩ : BufTy).Contents (Elt F)),
    ternary main_v571 main_v572 main_v570 main_v573 ((fun x i u => Host.scatterAdd scatter_S50000_S500000x1_S500000_n_0_0_1 x i u) : (⟨S50000, .f32⟩ : BufTy).Contents (Elt F) → (⟨S500000x1, .i32⟩ : BufTy).Contents (Elt F) → (⟨S500000, .f32⟩ : BufTy).Contents (Elt F) → (⟨S50000, .f32⟩ : BufTy).Contents (Elt F)),
    nullary main_cst_93 (constant S_ .f32 0x3F800000#32),
    unary main_cst_93 main_v574 (broadcastInDim S50000 ![] bcast_S_S50000 : (⟨S_, .f32⟩ : BufTy).Contents (Elt F) → (⟨S50000, .f32⟩ : BufTy).Contents (Elt F)),
    binary main_v573 main_v574 main_v575 (maximumf : (⟨S50000, .f32⟩ : BufTy).Contents (Elt F) → (⟨S50000, .f32⟩ : BufTy).Contents (Elt F) → (⟨S50000, .f32⟩ : BufTy).Contents (Elt F)),
    unary main_v575 main_v576 (broadcastInDim S50000x1 ![0] bcast_S50000_S50000x1_0 : (⟨S50000, .f32⟩ : BufTy).Contents (Elt F) → (⟨S50000x1, .f32⟩ : BufTy).Contents (Elt F)),
    unary main_v576 main_v577 (broadcastInDim S50000x128 ![0, 1] bcast_S50000x1_S50000x128_0_1 : (⟨S50000x1, .f32⟩ : BufTy).Contents (Elt F) → (⟨S50000x128, .f32⟩ : BufTy).Contents (Elt F)),
    binary main_v569 main_v577 main_v578 (Host.divf : (⟨S50000x128, .f32⟩ : BufTy).Contents (Elt F) → (⟨S50000x128, .f32⟩ : BufTy).Contents (Elt F) → (⟨S50000x128, .f32⟩ : BufTy).Contents (Elt F)),
    unary main_v551 main_v579 ((transpose S128x128 [1, 0] · transposes_S128x128_S128x128_1_0) : (⟨S128x128, .f32⟩ : BufTy).Contents (Elt F) → (⟨S128x128, .f32⟩ : BufTy).Contents (Elt F)),
    binary main_v578 main_v579 main_v580 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v553 main_v581 (broadcastInDim S1x128 ![1] bcast_S128_S1x128_1 : (⟨S128, .f32⟩ : BufTy).Contents (Elt F) → (⟨S1x128, .f32⟩ : BufTy).Contents (Elt F)),
    unary main_v581 main_v582 (broadcastInDim S50000x128 ![0, 1] bcast_S1x128_S50000x128_0_1 : (⟨S1x128, .f32⟩ : BufTy).Contents (Elt F) → (⟨S50000x128, .f32⟩ : BufTy).Contents (Elt F)),
    binary main_v580 main_v582 main_v583 (addf : (⟨S50000x128, .f32⟩ : BufTy).Contents (Elt F) → (⟨S50000x128, .f32⟩ : BufTy).Contents (Elt F) → (⟨S50000x128, .f32⟩ : BufTy).Contents (Elt F)),
    unary main_v555 main_v584 ((transpose S128x128 [1, 0] · transposes_S128x128_S128x128_1_0) : (⟨S128x128, .f32⟩ : BufTy).Contents (Elt F) → (⟨S128x128, .f32⟩ : BufTy).Contents (Elt F)),
    binary main_v319 main_v584 main_v585 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v583 main_v585 main_v586 (addf : (⟨S50000x128, .f32⟩ : BufTy).Contents (Elt F) → (⟨S50000x128, .f32⟩ : BufTy).Contents (Elt F) → (⟨S50000x128, .f32⟩ : BufTy).Contents (Elt F)),
    unary main_v323 main_v587 ((extractStridedSlice S1x128x128 ![7, 0, 0] · slices_S8x128x128_S1x128x128_7_0_0) : (⟨S8x128x128, .f32⟩ : BufTy).Contents (Elt F) → (⟨S1x128x128, .f32⟩ : BufTy).Contents (Elt F)),
    reshape main_v587 main_v588 rfl shapeCasts_S1x128x128_S128x128,
    unary main_v325 main_v589 ((extractStridedSlice S1x128 ![7, 0] · slices_S8x128_S1x128_7_0) : (⟨S8x128, .f32⟩ : BufTy).Contents (Elt F) → (⟨S1x128, .f32⟩ : BufTy).Contents (Elt F)),
    reshape main_v589 main_v590 rfl shapeCasts_S1x128_S128,
    unary main_v327 main_v591 ((extractStridedSlice S1x128x128 ![7, 0, 0] · slices_S8x128x128_S1x128x128_7_0_0) : (⟨S8x128x128, .f32⟩ : BufTy).Contents (Elt F) → (⟨S1x128x128, .f32⟩ : BufTy).Contents (Elt F)),
    reshape main_v591 main_v592 rfl shapeCasts_S1x128x128_S128x128,
    unary main_arg13 main_v593 ((extractStridedSlice S1x100000 ![0, 0] · slices_S2x100000_S1x100000_0_0) : (⟨S2x100000, .i32⟩ : BufTy).Contents (Elt F) → (⟨S1x100000, .i32⟩ : BufTy).Contents (Elt F)),
    reshape main_v593 main_v594 rfl shapeCasts_S1x100000_S100000,
    unary main_arg13 main_v595 ((extractStridedSlice S1x100000 ![1, 0] · slices_S2x100000_S1x100000_1_0) : (⟨S2x100000, .i32⟩ : BufTy).Contents (Elt F) → (⟨S1x100000, .i32⟩ : BufTy).Contents (Elt F)),
    reshape main_v595 main_v596 rfl shapeCasts_S1x100000_S100000,
    nullary main_c_94 (constantI S_ 32 0#32),
    unary main_c_94 main_v597 (broadcastInDim S100000 ![] bcast_S_S100000 : (⟨S_, .i32⟩ : BufTy).Contents (Elt F) → (⟨S100000, .i32⟩ : BufTy).Contents (Elt F)),
    binary main_v594 main_v597 main_v598 (cmpi .slt : (⟨S100000, .i32⟩ : BufTy).Contents (Elt F) → (⟨S100000, .i32⟩ : BufTy).Contents (Elt F) → (⟨S100000, .i1⟩ : BufTy).Contents (Elt F)),
    nullary main_c_95 (constantI S_ 32 5000#32),
    unary main_c_95 main_v599 (broadcastInDim S100000 ![] bcast_S_S100000 : (⟨S_, .i32⟩ : BufTy).Contents (Elt F) → (⟨S100000, .i32⟩ : BufTy).Contents (Elt F)),
    binary main_v594 main_v599 main_v600 (addi : (⟨S100000, .i32⟩ : BufTy).Contents (Elt F) → (⟨S100000, .i32⟩ : BufTy).Contents (Elt F) → (⟨S100000, .i32⟩ : BufTy).Contents (Elt F)),
    ternary main_v598 main_v600 main_v594 main_v601 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v601 main_v602 (broadcastInDim S100000x1 ![0] bcast_S100000_S100000x1_0 : (⟨S100000, .i32⟩ : BufTy).Contents (Elt F) → (⟨S100000x1, .i32⟩ : BufTy).Contents (Elt F)),
    binary main_v321 main_v602 main_v603 ((fun x i => Host.gather gather_S5000x128_S100000x1_S100000x128_1_0_n_n_0_1_1128 x i) : (⟨S5000x128, .f32⟩ : BufTy).Contents (Elt F) → (⟨S100000x1, .i32⟩ : BufTy).Contents (Elt F) → (⟨S100000x128, .f32⟩ : BufTy).Contents (Elt F)),
    nullary main_cst_96 (constant S_ .f32 0x00000000#32),
    unary main_cst_96 main_v604 (broadcastInDim S5000x128 ![] bcast_S_S5000x128 : (⟨S_, .f32⟩ : BufTy).Contents (Elt F) → (⟨S5000x128, .f32⟩ : BufTy).Contents (Elt F)),
    unary main_v596 main_v605 (broadcastInDim S100000x1 ![0] bcast_S100000_S100000x1_0 : (⟨S100000, .i32⟩ : BufTy).Contents (Elt F) → (⟨S100000x1, .i32⟩ : BufTy).Contents (Elt F)),
    ternary main_v604 main_v605 main_v603 main_v606 ((fun x i u => Host.scatterAdd scatter_S5000x128_S100000x1_S100000x128_1_0_0_1 x i u) : (⟨S5000x128, .f32⟩ : BufTy).Contents (Elt F) → (⟨S100000x1, .i32⟩ : BufTy).Contents (Elt F) → (⟨S100000x128, .f32⟩ : BufTy).Contents (Elt F) → (⟨S5000x128, .f32⟩ : BufTy).Contents (Elt F)),
    nullary main_cst_97 (constant S_ .f32 0x3F800000#32),
    unary main_cst_97 main_v607 (broadcastInDim S100000 ![] bcast_S_S100000 : (⟨S_, .f32⟩ : BufTy).Contents (Elt F) → (⟨S100000, .f32⟩ : BufTy).Contents (Elt F)),
    nullary main_cst_98 (constant S_ .f32 0x00000000#32),
    unary main_cst_98 main_v608 (broadcastInDim S5000 ![] bcast_S_S5000 : (⟨S_, .f32⟩ : BufTy).Contents (Elt F) → (⟨S5000, .f32⟩ : BufTy).Contents (Elt F)),
    unary main_v596 main_v609 (broadcastInDim S100000x1 ![0] bcast_S100000_S100000x1_0 : (⟨S100000, .i32⟩ : BufTy).Contents (Elt F) → (⟨S100000x1, .i32⟩ : BufTy).Contents (Elt F)),
    ternary main_v608 main_v609 main_v607 main_v610 ((fun x i u => Host.scatterAdd scatter_S5000_S100000x1_S100000_n_0_0_1 x i u) : (⟨S5000, .f32⟩ : BufTy).Contents (Elt F) → (⟨S100000x1, .i32⟩ : BufTy).Contents (Elt F) → (⟨S100000, .f32⟩ : BufTy).Contents (Elt F) → (⟨S5000, .f32⟩ : BufTy).Contents (Elt F)),
    nullary main_cst_99 (constant S_ .f32 0x3F800000#32),
    unary main_cst_99 main_v611 (broadcastInDim S5000 ![] bcast_S_S5000 : (⟨S_, .f32⟩ : BufTy).Contents (Elt F) → (⟨S5000, .f32⟩ : BufTy).Contents (Elt F)),
    binary main_v610 main_v611 main_v612 (maximumf : (⟨S5000, .f32⟩ : BufTy).Contents (Elt F) → (⟨S5000, .f32⟩ : BufTy).Contents (Elt F) → (⟨S5000, .f32⟩ : BufTy).Contents (Elt F)),
    unary main_v612 main_v613 (broadcastInDim S5000x1 ![0] bcast_S5000_S5000x1_0 : (⟨S5000, .f32⟩ : BufTy).Contents (Elt F) → (⟨S5000x1, .f32⟩ : BufTy).Contents (Elt F)),
    unary main_v613 main_v614 (broadcastInDim S5000x128 ![0, 1] bcast_S5000x1_S5000x128_0_1 : (⟨S5000x1, .f32⟩ : BufTy).Contents (Elt F) → (⟨S5000x128, .f32⟩ : BufTy).Contents (Elt F)),
    binary main_v606 main_v614 main_v615 (Host.divf : (⟨S5000x128, .f32⟩ : BufTy).Contents (Elt F) → (⟨S5000x128, .f32⟩ : BufTy).Contents (Elt F) → (⟨S5000x128, .f32⟩ : BufTy).Contents (Elt F)),
    unary main_v588 main_v616 ((transpose S128x128 [1, 0] · transposes_S128x128_S128x128_1_0) : (⟨S128x128, .f32⟩ : BufTy).Contents (Elt F) → (⟨S128x128, .f32⟩ : BufTy).Contents (Elt F)),
    binary main_v615 main_v616 main_v617 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)) ]

theorem part11_eq (d : Dev nD) : main_part11 (F := F) d = seq ops11 := rfl

theorem ops11_sub : (ops11 : List (HloOp τ sig (Elt F))).Forall fun op => op.bufs ⊆ tcRefs τ sig :=
  ⟨unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub ..⟩

theorem ops11_fresh : (ops11 : List (HloOp τ sig (Elt F))).Forall fun op => op.fresh = ∅ := by
  simp only [List.Forall]; repeat' constructor

theorem kept11_0 (V : Valuation τ sig (Elt F)) : after (ops11 (F := F)) V (Proc.devRef .tc main_arg0) = V (Proc.devRef .tc main_arg0) := by
  after_results_simp
theorem kept11_1 (V : Valuation τ sig (Elt F)) : after (ops11 (F := F)) V (Proc.devRef .tc main_arg1) = V (Proc.devRef .tc main_arg1) := by
  after_results_simp
theorem kept11_2 (V : Valuation τ sig (Elt F)) : after (ops11 (F := F)) V (Proc.devRef .tc main_arg2) = V (Proc.devRef .tc main_arg2) := by
  after_results_simp
theorem kept11_3 (V : Valuation τ sig (Elt F)) : after (ops11 (F := F)) V (Proc.devRef .tc main_arg3) = V (Proc.devRef .tc main_arg3) := by
  after_results_simp
theorem kept11_4 (V : Valuation τ sig (Elt F)) : after (ops11 (F := F)) V (Proc.devRef .tc main_arg4) = V (Proc.devRef .tc main_arg4) := by
  after_results_simp
theorem kept11_5 (V : Valuation τ sig (Elt F)) : after (ops11 (F := F)) V (Proc.devRef .tc main_arg5) = V (Proc.devRef .tc main_arg5) := by
  after_results_simp
theorem kept11_6 (V : Valuation τ sig (Elt F)) : after (ops11 (F := F)) V (Proc.devRef .tc main_arg6) = V (Proc.devRef .tc main_arg6) := by
  after_results_simp
theorem kept11_7 (V : Valuation τ sig (Elt F)) : after (ops11 (F := F)) V (Proc.devRef .tc main_arg7) = V (Proc.devRef .tc main_arg7) := by
  after_results_simp
theorem kept11_8 (V : Valuation τ sig (Elt F)) : after (ops11 (F := F)) V (Proc.devRef .tc main_arg8) = V (Proc.devRef .tc main_arg8) := by
  after_results_simp
theorem kept11_9 (V : Valuation τ sig (Elt F)) : after (ops11 (F := F)) V (Proc.devRef .tc main_arg9) = V (Proc.devRef .tc main_arg9) := by
  after_results_simp
theorem kept11_10 (V : Valuation τ sig (Elt F)) : after (ops11 (F := F)) V (Proc.devRef .tc main_arg10) = V (Proc.devRef .tc main_arg10) := by
  after_results_simp
theorem kept11_11 (V : Valuation τ sig (Elt F)) : after (ops11 (F := F)) V (Proc.devRef .tc main_arg11) = V (Proc.devRef .tc main_arg11) := by
  after_results_simp
theorem kept11_12 (V : Valuation τ sig (Elt F)) : after (ops11 (F := F)) V (Proc.devRef .tc main_arg12) = V (Proc.devRef .tc main_arg12) := by
  after_results_simp
theorem kept11_13 (V : Valuation τ sig (Elt F)) : after (ops11 (F := F)) V (Proc.devRef .tc main_arg13) = V (Proc.devRef .tc main_arg13) := by
  after_results_simp

/-- Part 12's 66 operations, in order. -/
abbrev ops12 : List (HloOp τ sig (Elt F)) :=
  [ unary main_v590 main_v618 (broadcastInDim S1x128 ![1] bcast_S128_S1x128_1 : (⟨S128, .f32⟩ : BufTy).Contents (Elt F) → (⟨S1x128, .f32⟩ : BufTy).Contents (Elt F)),
    unary main_v618 main_v619 (broadcastInDim S5000x128 ![0, 1] bcast_S1x128_S5000x128_0_1 : (⟨S1x128, .f32⟩ : BufTy).Contents (Elt F) → (⟨S5000x128, .f32⟩ : BufTy).Contents (Elt F)),
    binary main_v617 main_v619 main_v620 (addf : (⟨S5000x128, .f32⟩ : BufTy).Contents (Elt F) → (⟨S5000x128, .f32⟩ : BufTy).Contents (Elt F) → (⟨S5000x128, .f32⟩ : BufTy).Contents (Elt F)),
    unary main_v592 main_v621 ((transpose S128x128 [1, 0] · transposes_S128x128_S128x128_1_0) : (⟨S128x128, .f32⟩ : BufTy).Contents (Elt F) → (⟨S128x128, .f32⟩ : BufTy).Contents (Elt F)),
    binary main_v321 main_v621 main_v622 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    binary main_v620 main_v622 main_v623 (addf : (⟨S5000x128, .f32⟩ : BufTy).Contents (Elt F) → (⟨S5000x128, .f32⟩ : BufTy).Contents (Elt F) → (⟨S5000x128, .f32⟩ : BufTy).Contents (Elt F)),
    nullary main_cst_100 (constant S_ .f32 0x00000000#32),
    unary main_cst_100 main_v624 (broadcastInDim S50000x128 ![] bcast_S_S50000x128 : (⟨S_, .f32⟩ : BufTy).Contents (Elt F) → (⟨S50000x128, .f32⟩ : BufTy).Contents (Elt F)),
    binary main_v624 main_v475 main_v625 (addf : (⟨S50000x128, .f32⟩ : BufTy).Contents (Elt F) → (⟨S50000x128, .f32⟩ : BufTy).Contents (Elt F) → (⟨S50000x128, .f32⟩ : BufTy).Contents (Elt F)),
    binary main_v625 main_v549 main_v626 (addf : (⟨S50000x128, .f32⟩ : BufTy).Contents (Elt F) → (⟨S50000x128, .f32⟩ : BufTy).Contents (Elt F) → (⟨S50000x128, .f32⟩ : BufTy).Contents (Elt F)),
    binary main_v626 main_v586 main_v627 (addf : (⟨S50000x128, .f32⟩ : BufTy).Contents (Elt F) → (⟨S50000x128, .f32⟩ : BufTy).Contents (Elt F) → (⟨S50000x128, .f32⟩ : BufTy).Contents (Elt F)),
    nullary main_cst_101 (constant S_ .f32 0x40400000#32),
    unary main_cst_101 main_v628 (broadcastInDim S50000x128 ![] bcast_S_S50000x128 : (⟨S_, .f32⟩ : BufTy).Contents (Elt F) → (⟨S50000x128, .f32⟩ : BufTy).Contents (Elt F)),
    binary main_v627 main_v628 main_v629 (Host.divf : (⟨S50000x128, .f32⟩ : BufTy).Contents (Elt F) → (⟨S50000x128, .f32⟩ : BufTy).Contents (Elt F) → (⟨S50000x128, .f32⟩ : BufTy).Contents (Elt F)),
    nullary main_cst_102 (constant S_ .f32 0x00000000#32),
    unary main_cst_102 main_v630 (broadcastInDim S20000x128 ![] bcast_S_S20000x128 : (⟨S_, .f32⟩ : BufTy).Contents (Elt F) → (⟨S20000x128, .f32⟩ : BufTy).Contents (Elt F)),
    binary main_v630 main_v364 main_v631 (addf : (⟨S20000x128, .f32⟩ : BufTy).Contents (Elt F) → (⟨S20000x128, .f32⟩ : BufTy).Contents (Elt F) → (⟨S20000x128, .f32⟩ : BufTy).Contents (Elt F)),
    binary main_v631 main_v512 main_v632 (addf : (⟨S20000x128, .f32⟩ : BufTy).Contents (Elt F) → (⟨S20000x128, .f32⟩ : BufTy).Contents (Elt F) → (⟨S20000x128, .f32⟩ : BufTy).Contents (Elt F)),
    nullary main_cst_103 (constant S_ .f32 0x40000000#32),
    unary main_cst_103 main_v633 (broadcastInDim S20000x128 ![] bcast_S_S20000x128 : (⟨S_, .f32⟩ : BufTy).Contents (Elt F) → (⟨S20000x128, .f32⟩ : BufTy).Contents (Elt F)),
    binary main_v632 main_v633 main_v634 (Host.divf : (⟨S20000x128, .f32⟩ : BufTy).Contents (Elt F) → (⟨S20000x128, .f32⟩ : BufTy).Contents (Elt F) → (⟨S20000x128, .f32⟩ : BufTy).Contents (Elt F)),
    nullary main_cst_104 (constant S_ .f32 0x00000000#32),
    unary main_cst_104 main_v635 (broadcastInDim S5000x128 ![] bcast_S_S5000x128 : (⟨S_, .f32⟩ : BufTy).Contents (Elt F) → (⟨S5000x128, .f32⟩ : BufTy).Contents (Elt F)),
    binary main_v635 main_v401 main_v636 (addf : (⟨S5000x128, .f32⟩ : BufTy).Contents (Elt F) → (⟨S5000x128, .f32⟩ : BufTy).Contents (Elt F) → (⟨S5000x128, .f32⟩ : BufTy).Contents (Elt F)),
    binary main_v636 main_v438 main_v637 (addf : (⟨S5000x128, .f32⟩ : BufTy).Contents (Elt F) → (⟨S5000x128, .f32⟩ : BufTy).Contents (Elt F) → (⟨S5000x128, .f32⟩ : BufTy).Contents (Elt F)),
    binary main_v637 main_v623 main_v638 (addf : (⟨S5000x128, .f32⟩ : BufTy).Contents (Elt F) → (⟨S5000x128, .f32⟩ : BufTy).Contents (Elt F) → (⟨S5000x128, .f32⟩ : BufTy).Contents (Elt F)),
    nullary main_cst_105 (constant S_ .f32 0x40400000#32),
    unary main_cst_105 main_v639 (broadcastInDim S5000x128 ![] bcast_S_S5000x128 : (⟨S_, .f32⟩ : BufTy).Contents (Elt F) → (⟨S5000x128, .f32⟩ : BufTy).Contents (Elt F)),
    binary main_v638 main_v639 main_v640 (Host.divf : (⟨S5000x128, .f32⟩ : BufTy).Contents (Elt F) → (⟨S5000x128, .f32⟩ : BufTy).Contents (Elt F) → (⟨S5000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v629) (TRef.of (T := ⟨S50000x128, .f32⟩) main_call3_v0) (TRef.of (T := ⟨S50000x128, .f32⟩) main_v641) maximumf,
    TRef.nullary (TRef.of (T := ⟨S_, .f32⟩) main_call4_cst) (constant S_ .f32 0x00000000#32),
    TRef.unary (TRef.of (T := ⟨S_, .f32⟩) main_call4_cst) (TRef.of (T := ⟨S20000x128, .f32⟩) main_call4_v0) (broadcastInDim S20000x128 ![] bcast_S_S20000x128),
    TRef.binary (TRef.of (T := ⟨S20000x128, .f32⟩) main_v634) (TRef.of (T := ⟨S20000x128, .f32⟩) main_call4_v0) (TRef.of (T := ⟨S20000x128, .f32⟩) main_v642) maximumf,
    TRef.nullary (TRef.of (T := ⟨S_, .f32⟩) main_call5_cst) (constant S_ .f32 0x00000000#32),
    TRef.unary (TRef.of (T := ⟨S_, .f32⟩) main_call5_cst) (TRef.of (T := ⟨S5000x128, .f32⟩) main_call5_v0) (broadcastInDim S5000x128 ![] bcast_S_S5000x128),
    TRef.binary (TRef.of (T := ⟨S5000x128, .f32⟩) main_v640) (TRef.of (T := ⟨S5000x128, .f32⟩) main_call5_v0) (TRef.of (T := ⟨S5000x128, .f32⟩) main_v643) maximumf,
    unary main_arg3 main_v644 ((extractStridedSlice S1x8x128x128 ![2, 0, 0, 0] · slices_S3x8x128x128_S1x8x128x128_2_0_0_0) : (⟨S3x8x128x128, .f32⟩ : BufTy).Contents (Elt F) → (⟨S1x8x128x128, .f32⟩ : BufTy).Contents (Elt F)),
    reshape main_v644 main_v645 rfl shapeCasts_S1x8x128x128_S8x128x128,
    unary main_arg4 main_v646 ((extractStridedSlice S1x8x128 ![2, 0, 0] · slices_S3x8x128_S1x8x128_2_0_0) : (⟨S3x8x128, .f32⟩ : BufTy).Contents (Elt F) → (⟨S1x8x128, .f32⟩ : BufTy).Contents (Elt F)),
    reshape main_v646 main_v647 rfl shapeCasts_S1x8x128_S8x128,
    unary main_arg5 main_v648 ((extractStridedSlice S1x8x128x128 ![2, 0, 0, 0] · slices_S3x8x128x128_S1x8x128x128_2_0_0_0) : (⟨S3x8x128x128, .f32⟩ : BufTy).Contents (Elt F) → (⟨S1x8x128x128, .f32⟩ : BufTy).Contents (Elt F)),
    reshape main_v648 main_v649 rfl shapeCasts_S1x8x128x128_S8x128x128,
    unary main_v645 main_v650 ((extractStridedSlice S1x128x128 ![0, 0, 0] · slices_S8x128x128_S1x128x128_0_0_0) : (⟨S8x128x128, .f32⟩ : BufTy).Contents (Elt F) → (⟨S1x128x128, .f32⟩ : BufTy).Contents (Elt F)),
    reshape main_v650 main_v651 rfl shapeCasts_S1x128x128_S128x128,
    unary main_v647 main_v652 ((extractStridedSlice S1x128 ![0, 0] · slices_S8x128_S1x128_0_0) : (⟨S8x128, .f32⟩ : BufTy).Contents (Elt F) → (⟨S1x128, .f32⟩ : BufTy).Contents (Elt F)),
    reshape main_v652 main_v653 rfl shapeCasts_S1x128_S128,
    unary main_v649 main_v654 ((extractStridedSlice S1x128x128 ![0, 0, 0] · slices_S8x128x128_S1x128x128_0_0_0) : (⟨S8x128x128, .f32⟩ : BufTy).Contents (Elt F) → (⟨S1x128x128, .f32⟩ : BufTy).Contents (Elt F)),
    reshape main_v654 main_v655 rfl shapeCasts_S1x128x128_S128x128,
    unary main_arg6 main_v656 ((extractStridedSlice S1x500000 ![0, 0] · slices_S2x500000_S1x500000_0_0) : (⟨S2x500000, .i32⟩ : BufTy).Contents (Elt F) → (⟨S1x500000, .i32⟩ : BufTy).Contents (Elt F)),
    reshape main_v656 main_v657 rfl shapeCasts_S1x500000_S500000,
    unary main_arg6 main_v658 ((extractStridedSlice S1x500000 ![1, 0] · slices_S2x500000_S1x500000_1_0) : (⟨S2x500000, .i32⟩ : BufTy).Contents (Elt F) → (⟨S1x500000, .i32⟩ : BufTy).Contents (Elt F)),
    reshape main_v658 main_v659 rfl shapeCasts_S1x500000_S500000,
    nullary main_c_106 (constantI S_ 32 0#32),
    unary main_c_106 main_v660 (broadcastInDim S500000 ![] bcast_S_S500000 : (⟨S_, .i32⟩ : BufTy).Contents (Elt F) → (⟨S500000, .i32⟩ : BufTy).Contents (Elt F)),
    binary main_v657 main_v660 main_v661 (cmpi .slt : (⟨S500000, .i32⟩ : BufTy).Contents (Elt F) → (⟨S500000, .i32⟩ : BufTy).Contents (Elt F) → (⟨S500000, .i1⟩ : BufTy).Contents (Elt F)),
    nullary main_c_107 (constantI S_ 32 50000#32),
    unary main_c_107 main_v662 (broadcastInDim S500000 ![] bcast_S_S500000 : (⟨S_, .i32⟩ : BufTy).Contents (Elt F) → (⟨S500000, .i32⟩ : BufTy).Contents (Elt F)),
    binary main_v657 main_v662 main_v663 (addi : (⟨S500000, .i32⟩ : BufTy).Contents (Elt F) → (⟨S500000, .i32⟩ : BufTy).Contents (Elt F) → (⟨S500000, .i32⟩ : BufTy).Contents (Elt F)),
    ternary main_v661 main_v663 main_v657 main_v664 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v664 main_v665 (broadcastInDim S500000x1 ![0] bcast_S500000_S500000x1_0 : (⟨S500000, .i32⟩ : BufTy).Contents (Elt F) → (⟨S500000x1, .i32⟩ : BufTy).Contents (Elt F)),
    binary main_v641 main_v665 main_v666 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    nullary main_cst_108 (constant S_ .f32 0x00000000#32),
    unary main_cst_108 main_v667 (broadcastInDim S20000x128 ![] bcast_S_S20000x128 : (⟨S_, .f32⟩ : BufTy).Contents (Elt F) → (⟨S20000x128, .f32⟩ : BufTy).Contents (Elt F)),
    unary main_v659 main_v668 (broadcastInDim S500000x1 ![0] bcast_S500000_S500000x1_0 : (⟨S500000, .i32⟩ : BufTy).Contents (Elt F) → (⟨S500000x1, .i32⟩ : BufTy).Contents (Elt F)) ]

theorem part12_eq (d : Dev nD) : main_part12 (F := F) d = seq ops12 := rfl

theorem ops12_sub : (ops12 : List (HloOp τ sig (Elt F))).Forall fun op => op.bufs ⊆ tcRefs τ sig :=
  ⟨unary_bufs_sub .., unary_bufs_sub .., binary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub ..⟩

theorem ops12_fresh : (ops12 : List (HloOp τ sig (Elt F))).Forall fun op => op.fresh = ∅ := by
  simp only [List.Forall]; repeat' constructor

theorem kept12_0 (V : Valuation τ sig (Elt F)) : after (ops12 (F := F)) V (Proc.devRef .tc main_arg0) = V (Proc.devRef .tc main_arg0) := by
  after_results_simp
theorem kept12_1 (V : Valuation τ sig (Elt F)) : after (ops12 (F := F)) V (Proc.devRef .tc main_arg1) = V (Proc.devRef .tc main_arg1) := by
  after_results_simp
theorem kept12_2 (V : Valuation τ sig (Elt F)) : after (ops12 (F := F)) V (Proc.devRef .tc main_arg2) = V (Proc.devRef .tc main_arg2) := by
  after_results_simp
theorem kept12_3 (V : Valuation τ sig (Elt F)) : after (ops12 (F := F)) V (Proc.devRef .tc main_arg3) = V (Proc.devRef .tc main_arg3) := by
  after_results_simp
theorem kept12_4 (V : Valuation τ sig (Elt F)) : after (ops12 (F := F)) V (Proc.devRef .tc main_arg4) = V (Proc.devRef .tc main_arg4) := by
  after_results_simp
theorem kept12_5 (V : Valuation τ sig (Elt F)) : after (ops12 (F := F)) V (Proc.devRef .tc main_arg5) = V (Proc.devRef .tc main_arg5) := by
  after_results_simp
theorem kept12_6 (V : Valuation τ sig (Elt F)) : after (ops12 (F := F)) V (Proc.devRef .tc main_arg6) = V (Proc.devRef .tc main_arg6) := by
  after_results_simp
theorem kept12_7 (V : Valuation τ sig (Elt F)) : after (ops12 (F := F)) V (Proc.devRef .tc main_arg7) = V (Proc.devRef .tc main_arg7) := by
  after_results_simp
theorem kept12_8 (V : Valuation τ sig (Elt F)) : after (ops12 (F := F)) V (Proc.devRef .tc main_arg8) = V (Proc.devRef .tc main_arg8) := by
  after_results_simp
theorem kept12_9 (V : Valuation τ sig (Elt F)) : after (ops12 (F := F)) V (Proc.devRef .tc main_arg9) = V (Proc.devRef .tc main_arg9) := by
  after_results_simp
theorem kept12_10 (V : Valuation τ sig (Elt F)) : after (ops12 (F := F)) V (Proc.devRef .tc main_arg10) = V (Proc.devRef .tc main_arg10) := by
  after_results_simp
theorem kept12_11 (V : Valuation τ sig (Elt F)) : after (ops12 (F := F)) V (Proc.devRef .tc main_arg11) = V (Proc.devRef .tc main_arg11) := by
  after_results_simp
theorem kept12_12 (V : Valuation τ sig (Elt F)) : after (ops12 (F := F)) V (Proc.devRef .tc main_arg12) = V (Proc.devRef .tc main_arg12) := by
  after_results_simp
theorem kept12_13 (V : Valuation τ sig (Elt F)) : after (ops12 (F := F)) V (Proc.devRef .tc main_arg13) = V (Proc.devRef .tc main_arg13) := by
  after_results_simp

/-- Part 13's 60 operations, in order. -/
abbrev ops13 : List (HloOp τ sig (Elt F)) :=
  [ ternary main_v667 main_v668 main_v666 main_v669 ((fun x i u => Host.scatterAdd scatter_S20000x128_S500000x1_S500000x128_1_0_0_1 x i u) : (⟨S20000x128, .f32⟩ : BufTy).Contents (Elt F) → (⟨S500000x1, .i32⟩ : BufTy).Contents (Elt F) → (⟨S500000x128, .f32⟩ : BufTy).Contents (Elt F) → (⟨S20000x128, .f32⟩ : BufTy).Contents (Elt F)),
    nullary main_cst_109 (constant S_ .f32 0x3F800000#32),
    unary main_cst_109 main_v670 (broadcastInDim S500000 ![] bcast_S_S500000 : (⟨S_, .f32⟩ : BufTy).Contents (Elt F) → (⟨S500000, .f32⟩ : BufTy).Contents (Elt F)),
    nullary main_cst_110 (constant S_ .f32 0x00000000#32),
    unary main_cst_110 main_v671 (broadcastInDim S20000 ![] bcast_S_S20000 : (⟨S_, .f32⟩ : BufTy).Contents (Elt F) → (⟨S20000, .f32⟩ : BufTy).Contents (Elt F)),
    unary main_v659 main_v672 (broadcastInDim S500000x1 ![0] bcast_S500000_S500000x1_0 : (⟨S500000, .i32⟩ : BufTy).Contents (Elt F) → (⟨S500000x1, .i32⟩ : BufTy).Contents (Elt F)),
    ternary main_v671 main_v672 main_v670 main_v673 ((fun x i u => Host.scatterAdd scatter_S20000_S500000x1_S500000_n_0_0_1 x i u) : (⟨S20000, .f32⟩ : BufTy).Contents (Elt F) → (⟨S500000x1, .i32⟩ : BufTy).Contents (Elt F) → (⟨S500000, .f32⟩ : BufTy).Contents (Elt F) → (⟨S20000, .f32⟩ : BufTy).Contents (Elt F)),
    nullary main_cst_111 (constant S_ .f32 0x3F800000#32),
    unary main_cst_111 main_v674 (broadcastInDim S20000 ![] bcast_S_S20000 : (⟨S_, .f32⟩ : BufTy).Contents (Elt F) → (⟨S20000, .f32⟩ : BufTy).Contents (Elt F)),
    binary main_v673 main_v674 main_v675 (maximumf : (⟨S20000, .f32⟩ : BufTy).Contents (Elt F) → (⟨S20000, .f32⟩ : BufTy).Contents (Elt F) → (⟨S20000, .f32⟩ : BufTy).Contents (Elt F)),
    unary main_v675 main_v676 (broadcastInDim S20000x1 ![0] bcast_S20000_S20000x1_0 : (⟨S20000, .f32⟩ : BufTy).Contents (Elt F) → (⟨S20000x1, .f32⟩ : BufTy).Contents (Elt F)),
    unary main_v676 main_v677 (broadcastInDim S20000x128 ![0, 1] bcast_S20000x1_S20000x128_0_1 : (⟨S20000x1, .f32⟩ : BufTy).Contents (Elt F) → (⟨S20000x128, .f32⟩ : BufTy).Contents (Elt F)),
    binary main_v669 main_v677 main_v678 (Host.divf : (⟨S20000x128, .f32⟩ : BufTy).Contents (Elt F) → (⟨S20000x128, .f32⟩ : BufTy).Contents (Elt F) → (⟨S20000x128, .f32⟩ : BufTy).Contents (Elt F)),
    unary main_v651 main_v679 ((transpose S128x128 [1, 0] · transposes_S128x128_S128x128_1_0) : (⟨S128x128, .f32⟩ : BufTy).Contents (Elt F) → (⟨S128x128, .f32⟩ : BufTy).Contents (Elt F)),
    binary main_v678 main_v679 main_v680 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_v653 main_v681 (broadcastInDim S1x128 ![1] bcast_S128_S1x128_1 : (⟨S128, .f32⟩ : BufTy).Contents (Elt F) → (⟨S1x128, .f32⟩ : BufTy).Contents (Elt F)),
    unary main_v681 main_v682 (broadcastInDim S20000x128 ![0, 1] bcast_S1x128_S20000x128_0_1 : (⟨S1x128, .f32⟩ : BufTy).Contents (Elt F) → (⟨S20000x128, .f32⟩ : BufTy).Contents (Elt F)),
    binary main_v680 main_v682 main_v683 (addf : (⟨S20000x128, .f32⟩ : BufTy).Contents (Elt F) → (⟨S20000x128, .f32⟩ : BufTy).Contents (Elt F) → (⟨S20000x128, .f32⟩ : BufTy).Contents (Elt F)),
    unary main_v655 main_v684 ((transpose S128x128 [1, 0] · transposes_S128x128_S128x128_1_0) : (⟨S128x128, .f32⟩ : BufTy).Contents (Elt F) → (⟨S128x128, .f32⟩ : BufTy).Contents (Elt F)),
    binary main_v642 main_v684 main_v685 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    binary main_v683 main_v685 main_v686 (addf : (⟨S20000x128, .f32⟩ : BufTy).Contents (Elt F) → (⟨S20000x128, .f32⟩ : BufTy).Contents (Elt F) → (⟨S20000x128, .f32⟩ : BufTy).Contents (Elt F)),
    unary main_v645 main_v687 ((extractStridedSlice S1x128x128 ![1, 0, 0] · slices_S8x128x128_S1x128x128_1_0_0) : (⟨S8x128x128, .f32⟩ : BufTy).Contents (Elt F) → (⟨S1x128x128, .f32⟩ : BufTy).Contents (Elt F)),
    reshape main_v687 main_v688 rfl shapeCasts_S1x128x128_S128x128,
    unary main_v647 main_v689 ((extractStridedSlice S1x128 ![1, 0] · slices_S8x128_S1x128_1_0) : (⟨S8x128, .f32⟩ : BufTy).Contents (Elt F) → (⟨S1x128, .f32⟩ : BufTy).Contents (Elt F)),
    reshape main_v689 main_v690 rfl shapeCasts_S1x128_S128,
    unary main_v649 main_v691 ((extractStridedSlice S1x128x128 ![1, 0, 0] · slices_S8x128x128_S1x128x128_1_0_0) : (⟨S8x128x128, .f32⟩ : BufTy).Contents (Elt F) → (⟨S1x128x128, .f32⟩ : BufTy).Contents (Elt F)),
    reshape main_v691 main_v692 rfl shapeCasts_S1x128x128_S128x128,
    unary main_arg7 main_v693 ((extractStridedSlice S1x250000 ![0, 0] · slices_S2x250000_S1x250000_0_0) : (⟨S2x250000, .i32⟩ : BufTy).Contents (Elt F) → (⟨S1x250000, .i32⟩ : BufTy).Contents (Elt F)),
    reshape main_v693 main_v694 rfl shapeCasts_S1x250000_S250000,
    unary main_arg7 main_v695 ((extractStridedSlice S1x250000 ![1, 0] · slices_S2x250000_S1x250000_1_0) : (⟨S2x250000, .i32⟩ : BufTy).Contents (Elt F) → (⟨S1x250000, .i32⟩ : BufTy).Contents (Elt F)),
    reshape main_v695 main_v696 rfl shapeCasts_S1x250000_S250000,
    nullary main_c_112 (constantI S_ 32 0#32),
    unary main_c_112 main_v697 (broadcastInDim S250000 ![] bcast_S_S250000 : (⟨S_, .i32⟩ : BufTy).Contents (Elt F) → (⟨S250000, .i32⟩ : BufTy).Contents (Elt F)),
    binary main_v694 main_v697 main_v698 (cmpi .slt : (⟨S250000, .i32⟩ : BufTy).Contents (Elt F) → (⟨S250000, .i32⟩ : BufTy).Contents (Elt F) → (⟨S250000, .i1⟩ : BufTy).Contents (Elt F)),
    nullary main_c_113 (constantI S_ 32 20000#32),
    unary main_c_113 main_v699 (broadcastInDim S250000 ![] bcast_S_S250000 : (⟨S_, .i32⟩ : BufTy).Contents (Elt F) → (⟨S250000, .i32⟩ : BufTy).Contents (Elt F)),
    binary main_v694 main_v699 main_v700 (addi : (⟨S250000, .i32⟩ : BufTy).Contents (Elt F) → (⟨S250000, .i32⟩ : BufTy).Contents (Elt F) → (⟨S250000, .i32⟩ : BufTy).Contents (Elt F)),
    ternary main_v698 main_v700 main_v694 main_v701 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    unary main_v701 main_v702 (broadcastInDim S250000x1 ![0] bcast_S250000_S250000x1_0 : (⟨S250000, .i32⟩ : BufTy).Contents (Elt F) → (⟨S250000x1, .i32⟩ : BufTy).Contents (Elt F)),
    binary main_v642 main_v702 main_v703 ((fun x i => Host.gather gather_S20000x128_S250000x1_S250000x128_1_0_n_n_0_1_1128 x i) : (⟨S20000x128, .f32⟩ : BufTy).Contents (Elt F) → (⟨S250000x1, .i32⟩ : BufTy).Contents (Elt F) → (⟨S250000x128, .f32⟩ : BufTy).Contents (Elt F)),
    nullary main_cst_114 (constant S_ .f32 0x00000000#32),
    unary main_cst_114 main_v704 (broadcastInDim S5000x128 ![] bcast_S_S5000x128 : (⟨S_, .f32⟩ : BufTy).Contents (Elt F) → (⟨S5000x128, .f32⟩ : BufTy).Contents (Elt F)),
    unary main_v696 main_v705 (broadcastInDim S250000x1 ![0] bcast_S250000_S250000x1_0 : (⟨S250000, .i32⟩ : BufTy).Contents (Elt F) → (⟨S250000x1, .i32⟩ : BufTy).Contents (Elt F)),
    ternary main_v704 main_v705 main_v703 main_v706 ((fun x i u => Host.scatterAdd scatter_S5000x128_S250000x1_S250000x128_1_0_0_1 x i u) : (⟨S5000x128, .f32⟩ : BufTy).Contents (Elt F) → (⟨S250000x1, .i32⟩ : BufTy).Contents (Elt F) → (⟨S250000x128, .f32⟩ : BufTy).Contents (Elt F) → (⟨S5000x128, .f32⟩ : BufTy).Contents (Elt F)),
    nullary main_cst_115 (constant S_ .f32 0x3F800000#32),
    unary main_cst_115 main_v707 (broadcastInDim S250000 ![] bcast_S_S250000 : (⟨S_, .f32⟩ : BufTy).Contents (Elt F) → (⟨S250000, .f32⟩ : BufTy).Contents (Elt F)),
    nullary main_cst_116 (constant S_ .f32 0x00000000#32),
    unary main_cst_116 main_v708 (broadcastInDim S5000 ![] bcast_S_S5000 : (⟨S_, .f32⟩ : BufTy).Contents (Elt F) → (⟨S5000, .f32⟩ : BufTy).Contents (Elt F)),
    unary main_v696 main_v709 (broadcastInDim S250000x1 ![0] bcast_S250000_S250000x1_0 : (⟨S250000, .i32⟩ : BufTy).Contents (Elt F) → (⟨S250000x1, .i32⟩ : BufTy).Contents (Elt F)),
    ternary main_v708 main_v709 main_v707 main_v710 ((fun x i u => Host.scatterAdd scatter_S5000_S250000x1_S250000_n_0_0_1 x i u) : (⟨S5000, .f32⟩ : BufTy).Contents (Elt F) → (⟨S250000x1, .i32⟩ : BufTy).Contents (Elt F) → (⟨S250000, .f32⟩ : BufTy).Contents (Elt F) → (⟨S5000, .f32⟩ : BufTy).Contents (Elt F)),
    nullary main_cst_117 (constant S_ .f32 0x3F800000#32),
    unary main_cst_117 main_v711 (broadcastInDim S5000 ![] bcast_S_S5000 : (⟨S_, .f32⟩ : BufTy).Contents (Elt F) → (⟨S5000, .f32⟩ : BufTy).Contents (Elt F)),
    binary main_v710 main_v711 main_v712 (maximumf : (⟨S5000, .f32⟩ : BufTy).Contents (Elt F) → (⟨S5000, .f32⟩ : BufTy).Contents (Elt F) → (⟨S5000, .f32⟩ : BufTy).Contents (Elt F)),
    unary main_v712 main_v713 (broadcastInDim S5000x1 ![0] bcast_S5000_S5000x1_0 : (⟨S5000, .f32⟩ : BufTy).Contents (Elt F) → (⟨S5000x1, .f32⟩ : BufTy).Contents (Elt F)),
    unary main_v713 main_v714 (broadcastInDim S5000x128 ![0, 1] bcast_S5000x1_S5000x128_0_1 : (⟨S5000x1, .f32⟩ : BufTy).Contents (Elt F) → (⟨S5000x128, .f32⟩ : BufTy).Contents (Elt F)),
    binary main_v706 main_v714 main_v715 (Host.divf : (⟨S5000x128, .f32⟩ : BufTy).Contents (Elt F) → (⟨S5000x128, .f32⟩ : BufTy).Contents (Elt F) → (⟨S5000x128, .f32⟩ : BufTy).Contents (Elt F)),
    unary main_v688 main_v716 ((transpose S128x128 [1, 0] · transposes_S128x128_S128x128_1_0) : (⟨S128x128, .f32⟩ : BufTy).Contents (Elt F) → (⟨S128x128, .f32⟩ : BufTy).Contents (Elt F)),
    binary main_v715 main_v716 main_v717 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    unary main_v690 main_v718 (broadcastInDim S1x128 ![1] bcast_S128_S1x128_1 : (⟨S128, .f32⟩ : BufTy).Contents (Elt F) → (⟨S1x128, .f32⟩ : BufTy).Contents (Elt F)),
    unary main_v718 main_v719 (broadcastInDim S5000x128 ![0, 1] bcast_S1x128_S5000x128_0_1 : (⟨S1x128, .f32⟩ : BufTy).Contents (Elt F) → (⟨S5000x128, .f32⟩ : BufTy).Contents (Elt F)) ]

theorem part13_eq (d : Dev nD) : main_part13 (F := F) d = seq ops13 := rfl

theorem ops13_sub : (ops13 : List (HloOp τ sig (Elt F))).Forall fun op => op.bufs ⊆ tcRefs τ sig :=
  ⟨ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub ..⟩

theorem ops13_fresh : (ops13 : List (HloOp τ sig (Elt F))).Forall fun op => op.fresh = ∅ := by
  simp only [List.Forall]; repeat' constructor

theorem kept13_0 (V : Valuation τ sig (Elt F)) : after (ops13 (F := F)) V (Proc.devRef .tc main_arg0) = V (Proc.devRef .tc main_arg0) := by
  after_results_simp
theorem kept13_1 (V : Valuation τ sig (Elt F)) : after (ops13 (F := F)) V (Proc.devRef .tc main_arg1) = V (Proc.devRef .tc main_arg1) := by
  after_results_simp
theorem kept13_2 (V : Valuation τ sig (Elt F)) : after (ops13 (F := F)) V (Proc.devRef .tc main_arg2) = V (Proc.devRef .tc main_arg2) := by
  after_results_simp
theorem kept13_3 (V : Valuation τ sig (Elt F)) : after (ops13 (F := F)) V (Proc.devRef .tc main_arg3) = V (Proc.devRef .tc main_arg3) := by
  after_results_simp
theorem kept13_4 (V : Valuation τ sig (Elt F)) : after (ops13 (F := F)) V (Proc.devRef .tc main_arg4) = V (Proc.devRef .tc main_arg4) := by
  after_results_simp
theorem kept13_5 (V : Valuation τ sig (Elt F)) : after (ops13 (F := F)) V (Proc.devRef .tc main_arg5) = V (Proc.devRef .tc main_arg5) := by
  after_results_simp
theorem kept13_6 (V : Valuation τ sig (Elt F)) : after (ops13 (F := F)) V (Proc.devRef .tc main_arg6) = V (Proc.devRef .tc main_arg6) := by
  after_results_simp
theorem kept13_7 (V : Valuation τ sig (Elt F)) : after (ops13 (F := F)) V (Proc.devRef .tc main_arg7) = V (Proc.devRef .tc main_arg7) := by
  after_results_simp
theorem kept13_8 (V : Valuation τ sig (Elt F)) : after (ops13 (F := F)) V (Proc.devRef .tc main_arg8) = V (Proc.devRef .tc main_arg8) := by
  after_results_simp
theorem kept13_9 (V : Valuation τ sig (Elt F)) : after (ops13 (F := F)) V (Proc.devRef .tc main_arg9) = V (Proc.devRef .tc main_arg9) := by
  after_results_simp
theorem kept13_10 (V : Valuation τ sig (Elt F)) : after (ops13 (F := F)) V (Proc.devRef .tc main_arg10) = V (Proc.devRef .tc main_arg10) := by
  after_results_simp
theorem kept13_11 (V : Valuation τ sig (Elt F)) : after (ops13 (F := F)) V (Proc.devRef .tc main_arg11) = V (Proc.devRef .tc main_arg11) := by
  after_results_simp
theorem kept13_12 (V : Valuation τ sig (Elt F)) : after (ops13 (F := F)) V (Proc.devRef .tc main_arg12) = V (Proc.devRef .tc main_arg12) := by
  after_results_simp
theorem kept13_13 (V : Valuation τ sig (Elt F)) : after (ops13 (F := F)) V (Proc.devRef .tc main_arg13) = V (Proc.devRef .tc main_arg13) := by
  after_results_simp

/-- Part 14's 60 operations, in order. -/
abbrev ops14 : List (HloOp τ sig (Elt F)) :=
  [ binary main_v717 main_v719 main_v720 (addf : (⟨S5000x128, .f32⟩ : BufTy).Contents (Elt F) → (⟨S5000x128, .f32⟩ : BufTy).Contents (Elt F) → (⟨S5000x128, .f32⟩ : BufTy).Contents (Elt F)),
    unary main_v692 main_v721 ((transpose S128x128 [1, 0] · transposes_S128x128_S128x128_1_0) : (⟨S128x128, .f32⟩ : BufTy).Contents (Elt F) → (⟨S128x128, .f32⟩ : BufTy).Contents (Elt F)),
    binary main_v643 main_v721 main_v722 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    binary main_v720 main_v722 main_v723 (addf : (⟨S5000x128, .f32⟩ : BufTy).Contents (Elt F) → (⟨S5000x128, .f32⟩ : BufTy).Contents (Elt F) → (⟨S5000x128, .f32⟩ : BufTy).Contents (Elt F)),
    unary main_v645 main_v724 ((extractStridedSlice S1x128x128 ![2, 0, 0] · slices_S8x128x128_S1x128x128_2_0_0) : (⟨S8x128x128, .f32⟩ : BufTy).Contents (Elt F) → (⟨S1x128x128, .f32⟩ : BufTy).Contents (Elt F)),
    reshape main_v724 main_v725 rfl shapeCasts_S1x128x128_S128x128,
    unary main_v647 main_v726 ((extractStridedSlice S1x128 ![2, 0] · slices_S8x128_S1x128_2_0) : (⟨S8x128, .f32⟩ : BufTy).Contents (Elt F) → (⟨S1x128, .f32⟩ : BufTy).Contents (Elt F)),
    reshape main_v726 main_v727 rfl shapeCasts_S1x128_S128,
    unary main_v649 main_v728 ((extractStridedSlice S1x128x128 ![2, 0, 0] · slices_S8x128x128_S1x128x128_2_0_0) : (⟨S8x128x128, .f32⟩ : BufTy).Contents (Elt F) → (⟨S1x128x128, .f32⟩ : BufTy).Contents (Elt F)),
    reshape main_v728 main_v729 rfl shapeCasts_S1x128x128_S128x128,
    unary main_arg8 main_v730 ((extractStridedSlice S1x250000 ![0, 0] · slices_S2x250000_S1x250000_0_0) : (⟨S2x250000, .i32⟩ : BufTy).Contents (Elt F) → (⟨S1x250000, .i32⟩ : BufTy).Contents (Elt F)),
    reshape main_v730 main_v731 rfl shapeCasts_S1x250000_S250000,
    unary main_arg8 main_v732 ((extractStridedSlice S1x250000 ![1, 0] · slices_S2x250000_S1x250000_1_0) : (⟨S2x250000, .i32⟩ : BufTy).Contents (Elt F) → (⟨S1x250000, .i32⟩ : BufTy).Contents (Elt F)),
    reshape main_v732 main_v733 rfl shapeCasts_S1x250000_S250000,
    nullary main_c_118 (constantI S_ 32 0#32),
    unary main_c_118 main_v734 (broadcastInDim S250000 ![] bcast_S_S250000 : (⟨S_, .i32⟩ : BufTy).Contents (Elt F) → (⟨S250000, .i32⟩ : BufTy).Contents (Elt F)),
    binary main_v731 main_v734 main_v735 (cmpi .slt : (⟨S250000, .i32⟩ : BufTy).Contents (Elt F) → (⟨S250000, .i32⟩ : BufTy).Contents (Elt F) → (⟨S250000, .i1⟩ : BufTy).Contents (Elt F)),
    nullary main_c_119 (constantI S_ 32 50000#32),
    unary main_c_119 main_v736 (broadcastInDim S250000 ![] bcast_S_S250000 : (⟨S_, .i32⟩ : BufTy).Contents (Elt F) → (⟨S250000, .i32⟩ : BufTy).Contents (Elt F)),
    binary main_v731 main_v736 main_v737 (addi : (⟨S250000, .i32⟩ : BufTy).Contents (Elt F) → (⟨S250000, .i32⟩ : BufTy).Contents (Elt F) → (⟨S250000, .i32⟩ : BufTy).Contents (Elt F)),
    ternary main_v735 main_v737 main_v731 main_v738 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    unary main_v738 main_v739 (broadcastInDim S250000x1 ![0] bcast_S250000_S250000x1_0 : (⟨S250000, .i32⟩ : BufTy).Contents (Elt F) → (⟨S250000x1, .i32⟩ : BufTy).Contents (Elt F)),
    binary main_v641 main_v739 main_v740 ((fun x i => Host.gather gather_S50000x128_S250000x1_S250000x128_1_0_n_n_0_1_1128 x i) : (⟨S50000x128, .f32⟩ : BufTy).Contents (Elt F) → (⟨S250000x1, .i32⟩ : BufTy).Contents (Elt F) → (⟨S250000x128, .f32⟩ : BufTy).Contents (Elt F)),
    nullary main_cst_120 (constant S_ .f32 0x00000000#32),
    unary main_cst_120 main_v741 (broadcastInDim S5000x128 ![] bcast_S_S5000x128 : (⟨S_, .f32⟩ : BufTy).Contents (Elt F) → (⟨S5000x128, .f32⟩ : BufTy).Contents (Elt F)),
    unary main_v733 main_v742 (broadcastInDim S250000x1 ![0] bcast_S250000_S250000x1_0 : (⟨S250000, .i32⟩ : BufTy).Contents (Elt F) → (⟨S250000x1, .i32⟩ : BufTy).Contents (Elt F)),
    ternary main_v741 main_v742 main_v740 main_v743 ((fun x i u => Host.scatterAdd scatter_S5000x128_S250000x1_S250000x128_1_0_0_1 x i u) : (⟨S5000x128, .f32⟩ : BufTy).Contents (Elt F) → (⟨S250000x1, .i32⟩ : BufTy).Contents (Elt F) → (⟨S250000x128, .f32⟩ : BufTy).Contents (Elt F) → (⟨S5000x128, .f32⟩ : BufTy).Contents (Elt F)),
    nullary main_cst_121 (constant S_ .f32 0x3F800000#32),
    unary main_cst_121 main_v744 (broadcastInDim S250000 ![] bcast_S_S250000 : (⟨S_, .f32⟩ : BufTy).Contents (Elt F) → (⟨S250000, .f32⟩ : BufTy).Contents (Elt F)),
    nullary main_cst_122 (constant S_ .f32 0x00000000#32),
    unary main_cst_122 main_v745 (broadcastInDim S5000 ![] bcast_S_S5000 : (⟨S_, .f32⟩ : BufTy).Contents (Elt F) → (⟨S5000, .f32⟩ : BufTy).Contents (Elt F)),
    unary main_v733 main_v746 (broadcastInDim S250000x1 ![0] bcast_S250000_S250000x1_0 : (⟨S250000, .i32⟩ : BufTy).Contents (Elt F) → (⟨S250000x1, .i32⟩ : BufTy).Contents (Elt F)),
    ternary main_v745 main_v746 main_v744 main_v747 ((fun x i u => Host.scatterAdd scatter_S5000_S250000x1_S250000_n_0_0_1 x i u) : (⟨S5000, .f32⟩ : BufTy).Contents (Elt F) → (⟨S250000x1, .i32⟩ : BufTy).Contents (Elt F) → (⟨S250000, .f32⟩ : BufTy).Contents (Elt F) → (⟨S5000, .f32⟩ : BufTy).Contents (Elt F)),
    nullary main_cst_123 (constant S_ .f32 0x3F800000#32),
    unary main_cst_123 main_v748 (broadcastInDim S5000 ![] bcast_S_S5000 : (⟨S_, .f32⟩ : BufTy).Contents (Elt F) → (⟨S5000, .f32⟩ : BufTy).Contents (Elt F)),
    binary main_v747 main_v748 main_v749 (maximumf : (⟨S5000, .f32⟩ : BufTy).Contents (Elt F) → (⟨S5000, .f32⟩ : BufTy).Contents (Elt F) → (⟨S5000, .f32⟩ : BufTy).Contents (Elt F)),
    unary main_v749 main_v750 (broadcastInDim S5000x1 ![0] bcast_S5000_S5000x1_0 : (⟨S5000, .f32⟩ : BufTy).Contents (Elt F) → (⟨S5000x1, .f32⟩ : BufTy).Contents (Elt F)),
    unary main_v750 main_v751 (broadcastInDim S5000x128 ![0, 1] bcast_S5000x1_S5000x128_0_1 : (⟨S5000x1, .f32⟩ : BufTy).Contents (Elt F) → (⟨S5000x128, .f32⟩ : BufTy).Contents (Elt F)),
    binary main_v743 main_v751 main_v752 (Host.divf : (⟨S5000x128, .f32⟩ : BufTy).Contents (Elt F) → (⟨S5000x128, .f32⟩ : BufTy).Contents (Elt F) → (⟨S5000x128, .f32⟩ : BufTy).Contents (Elt F)),
    unary main_v725 main_v753 ((transpose S128x128 [1, 0] · transposes_S128x128_S128x128_1_0) : (⟨S128x128, .f32⟩ : BufTy).Contents (Elt F) → (⟨S128x128, .f32⟩ : BufTy).Contents (Elt F)),
    binary main_v752 main_v753 main_v754 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    unary main_v727 main_v755 (broadcastInDim S1x128 ![1] bcast_S128_S1x128_1 : (⟨S128, .f32⟩ : BufTy).Contents (Elt F) → (⟨S1x128, .f32⟩ : BufTy).Contents (Elt F)),
    unary main_v755 main_v756 (broadcastInDim S5000x128 ![0, 1] bcast_S1x128_S5000x128_0_1 : (⟨S1x128, .f32⟩ : BufTy).Contents (Elt F) → (⟨S5000x128, .f32⟩ : BufTy).Contents (Elt F)),
    binary main_v754 main_v756 main_v757 (addf : (⟨S5000x128, .f32⟩ : BufTy).Contents (Elt F) → (⟨S5000x128, .f32⟩ : BufTy).Contents (Elt F) → (⟨S5000x128, .f32⟩ : BufTy).Contents (Elt F)),
    unary main_v729 main_v758 ((transpose S128x128 [1, 0] · transposes_S128x128_S128x128_1_0) : (⟨S128x128, .f32⟩ : BufTy).Contents (Elt F) → (⟨S128x128, .f32⟩ : BufTy).Contents (Elt F)),
    binary main_v643 main_v758 main_v759 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    binary main_v757 main_v759 main_v760 (addf : (⟨S5000x128, .f32⟩ : BufTy).Contents (Elt F) → (⟨S5000x128, .f32⟩ : BufTy).Contents (Elt F) → (⟨S5000x128, .f32⟩ : BufTy).Contents (Elt F)),
    unary main_v645 main_v761 ((extractStridedSlice S1x128x128 ![3, 0, 0] · slices_S8x128x128_S1x128x128_3_0_0) : (⟨S8x128x128, .f32⟩ : BufTy).Contents (Elt F) → (⟨S1x128x128, .f32⟩ : BufTy).Contents (Elt F)),
    reshape main_v761 main_v762 rfl shapeCasts_S1x128x128_S128x128,
    unary main_v647 main_v763 ((extractStridedSlice S1x128 ![3, 0] · slices_S8x128_S1x128_3_0) : (⟨S8x128, .f32⟩ : BufTy).Contents (Elt F) → (⟨S1x128, .f32⟩ : BufTy).Contents (Elt F)),
    reshape main_v763 main_v764 rfl shapeCasts_S1x128_S128,
    unary main_v649 main_v765 ((extractStridedSlice S1x128x128 ![3, 0, 0] · slices_S8x128x128_S1x128x128_3_0_0) : (⟨S8x128x128, .f32⟩ : BufTy).Contents (Elt F) → (⟨S1x128x128, .f32⟩ : BufTy).Contents (Elt F)),
    reshape main_v765 main_v766 rfl shapeCasts_S1x128x128_S128x128,
    unary main_arg9 main_v767 ((extractStridedSlice S1x500000 ![0, 0] · slices_S2x500000_S1x500000_0_0) : (⟨S2x500000, .i32⟩ : BufTy).Contents (Elt F) → (⟨S1x500000, .i32⟩ : BufTy).Contents (Elt F)),
    reshape main_v767 main_v768 rfl shapeCasts_S1x500000_S500000,
    unary main_arg9 main_v769 ((extractStridedSlice S1x500000 ![1, 0] · slices_S2x500000_S1x500000_1_0) : (⟨S2x500000, .i32⟩ : BufTy).Contents (Elt F) → (⟨S1x500000, .i32⟩ : BufTy).Contents (Elt F)),
    reshape main_v769 main_v770 rfl shapeCasts_S1x500000_S500000,
    nullary main_c_124 (constantI S_ 32 0#32),
    unary main_c_124 main_v771 (broadcastInDim S500000 ![] bcast_S_S500000 : (⟨S_, .i32⟩ : BufTy).Contents (Elt F) → (⟨S500000, .i32⟩ : BufTy).Contents (Elt F)),
    binary main_v768 main_v771 main_v772 (cmpi .slt : (⟨S500000, .i32⟩ : BufTy).Contents (Elt F) → (⟨S500000, .i32⟩ : BufTy).Contents (Elt F) → (⟨S500000, .i1⟩ : BufTy).Contents (Elt F)) ]

theorem part14_eq (d : Dev nD) : main_part14 (F := F) d = seq ops14 := rfl

theorem ops14_sub : (ops14 : List (HloOp τ sig (Elt F))).Forall fun op => op.bufs ⊆ tcRefs τ sig :=
  ⟨binary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub ..⟩

theorem ops14_fresh : (ops14 : List (HloOp τ sig (Elt F))).Forall fun op => op.fresh = ∅ := by
  simp only [List.Forall]; repeat' constructor

theorem kept14_0 (V : Valuation τ sig (Elt F)) : after (ops14 (F := F)) V (Proc.devRef .tc main_arg0) = V (Proc.devRef .tc main_arg0) := by
  after_results_simp
theorem kept14_1 (V : Valuation τ sig (Elt F)) : after (ops14 (F := F)) V (Proc.devRef .tc main_arg1) = V (Proc.devRef .tc main_arg1) := by
  after_results_simp
theorem kept14_2 (V : Valuation τ sig (Elt F)) : after (ops14 (F := F)) V (Proc.devRef .tc main_arg2) = V (Proc.devRef .tc main_arg2) := by
  after_results_simp
theorem kept14_3 (V : Valuation τ sig (Elt F)) : after (ops14 (F := F)) V (Proc.devRef .tc main_arg3) = V (Proc.devRef .tc main_arg3) := by
  after_results_simp
theorem kept14_4 (V : Valuation τ sig (Elt F)) : after (ops14 (F := F)) V (Proc.devRef .tc main_arg4) = V (Proc.devRef .tc main_arg4) := by
  after_results_simp
theorem kept14_5 (V : Valuation τ sig (Elt F)) : after (ops14 (F := F)) V (Proc.devRef .tc main_arg5) = V (Proc.devRef .tc main_arg5) := by
  after_results_simp
theorem kept14_6 (V : Valuation τ sig (Elt F)) : after (ops14 (F := F)) V (Proc.devRef .tc main_arg6) = V (Proc.devRef .tc main_arg6) := by
  after_results_simp
theorem kept14_7 (V : Valuation τ sig (Elt F)) : after (ops14 (F := F)) V (Proc.devRef .tc main_arg7) = V (Proc.devRef .tc main_arg7) := by
  after_results_simp
theorem kept14_8 (V : Valuation τ sig (Elt F)) : after (ops14 (F := F)) V (Proc.devRef .tc main_arg8) = V (Proc.devRef .tc main_arg8) := by
  after_results_simp
theorem kept14_9 (V : Valuation τ sig (Elt F)) : after (ops14 (F := F)) V (Proc.devRef .tc main_arg9) = V (Proc.devRef .tc main_arg9) := by
  after_results_simp
theorem kept14_10 (V : Valuation τ sig (Elt F)) : after (ops14 (F := F)) V (Proc.devRef .tc main_arg10) = V (Proc.devRef .tc main_arg10) := by
  after_results_simp
theorem kept14_11 (V : Valuation τ sig (Elt F)) : after (ops14 (F := F)) V (Proc.devRef .tc main_arg11) = V (Proc.devRef .tc main_arg11) := by
  after_results_simp
theorem kept14_12 (V : Valuation τ sig (Elt F)) : after (ops14 (F := F)) V (Proc.devRef .tc main_arg12) = V (Proc.devRef .tc main_arg12) := by
  after_results_simp
theorem kept14_13 (V : Valuation τ sig (Elt F)) : after (ops14 (F := F)) V (Proc.devRef .tc main_arg13) = V (Proc.devRef .tc main_arg13) := by
  after_results_simp

end Cert.ReferenceIdeal.Parts

end
-- ==== Proof.RefOps3.lean ====
/-
  Parts 15 to 19 of the reference's @main as lists of host operations: part `K` of the printed program is the
  operations of `opsK` run in order (a called function's operations stand in its call's place); every operation touches
  TensorCore references only and allocates nothing; and none of them writes an argument array, so each argument array keeps
  its contents across the part, from any contents `V`.
-/
import proofs.«116292_j712964571450_1_alg».proof.Proof.Gen.ReferenceIdeal
import Idealize.ShloMosaic.Lib.StableHlo.Run

set_option maxRecDepth 16384
set_option maxHeartbeats 40000000

noncomputable section

namespace Cert.ReferenceIdeal.Parts

open Cert.ReferenceIdeal Cert.ReferenceIdeal.Gen Idealize.ShloMosaic Idealize.ShloMosaic.TcCoe Idealize.SL.Sem Idealize.ShloMosaic.StableHlo

variable {F : FTy → Type} [FloatOps F]

/-- Part 15's 60 operations, in order. -/
abbrev ops15 : List (HloOp τ sig (Elt F)) :=
  [ nullary main_c_125 (constantI S_ 32 20000#32),
    unary main_c_125 main_v773 (broadcastInDim S500000 ![] bcast_S_S500000 : (⟨S_, .i32⟩ : BufTy).Contents (Elt F) → (⟨S500000, .i32⟩ : BufTy).Contents (Elt F)),
    binary main_v768 main_v773 main_v774 (addi : (⟨S500000, .i32⟩ : BufTy).Contents (Elt F) → (⟨S500000, .i32⟩ : BufTy).Contents (Elt F) → (⟨S500000, .i32⟩ : BufTy).Contents (Elt F)),
    ternary main_v772 main_v774 main_v768 main_v775 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v775 main_v776 (broadcastInDim S500000x1 ![0] bcast_S500000_S500000x1_0 : (⟨S500000, .i32⟩ : BufTy).Contents (Elt F) → (⟨S500000x1, .i32⟩ : BufTy).Contents (Elt F)),
    binary main_v642 main_v776 main_v777 ((fun x i => Host.gather gather_S20000x128_S500000x1_S500000x128_1_0_n_n_0_1_1128 x i) : (⟨S20000x128, .f32⟩ : BufTy).Contents (Elt F) → (⟨S500000x1, .i32⟩ : BufTy).Contents (Elt F) → (⟨S500000x128, .f32⟩ : BufTy).Contents (Elt F)),
    nullary main_cst_126 (constant S_ .f32 0x00000000#32),
    unary main_cst_126 main_v778 (broadcastInDim S50000x128 ![] bcast_S_S50000x128 : (⟨S_, .f32⟩ : BufTy).Contents (Elt F) → (⟨S50000x128, .f32⟩ : BufTy).Contents (Elt F)),
    unary main_v770 main_v779 (broadcastInDim S500000x1 ![0] bcast_S500000_S500000x1_0 : (⟨S500000, .i32⟩ : BufTy).Contents (Elt F) → (⟨S500000x1, .i32⟩ : BufTy).Contents (Elt F)),
    ternary main_v778 main_v779 main_v777 main_v780 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)),
    nullary main_cst_127 (constant S_ .f32 0x3F800000#32),
    unary main_cst_127 main_v781 (broadcastInDim S500000 ![] bcast_S_S500000 : (⟨S_, .f32⟩ : BufTy).Contents (Elt F) → (⟨S500000, .f32⟩ : BufTy).Contents (Elt F)),
    nullary main_cst_128 (constant S_ .f32 0x00000000#32),
    unary main_cst_128 main_v782 (broadcastInDim S50000 ![] bcast_S_S50000 : (⟨S_, .f32⟩ : BufTy).Contents (Elt F) → (⟨S50000, .f32⟩ : BufTy).Contents (Elt F)),
    unary main_v770 main_v783 (broadcastInDim S500000x1 ![0] bcast_S500000_S500000x1_0 : (⟨S500000, .i32⟩ : BufTy).Contents (Elt F) → (⟨S500000x1, .i32⟩ : BufTy).Contents (Elt F)),
    ternary main_v782 main_v783 main_v781 main_v784 ((fun x i u => Host.scatterAdd scatter_S50000_S500000x1_S500000_n_0_0_1 x i u) : (⟨S50000, .f32⟩ : BufTy).Contents (Elt F) → (⟨S500000x1, .i32⟩ : BufTy).Contents (Elt F) → (⟨S500000, .f32⟩ : BufTy).Contents (Elt F) → (⟨S50000, .f32⟩ : BufTy).Contents (Elt F)),
    nullary main_cst_129 (constant S_ .f32 0x3F800000#32),
    unary main_cst_129 main_v785 (broadcastInDim S50000 ![] bcast_S_S50000 : (⟨S_, .f32⟩ : BufTy).Contents (Elt F) → (⟨S50000, .f32⟩ : BufTy).Contents (Elt F)),
    binary main_v784 main_v785 main_v786 (maximumf : (⟨S50000, .f32⟩ : BufTy).Contents (Elt F) → (⟨S50000, .f32⟩ : BufTy).Contents (Elt F) → (⟨S50000, .f32⟩ : BufTy).Contents (Elt F)),
    unary main_v786 main_v787 (broadcastInDim S50000x1 ![0] bcast_S50000_S50000x1_0 : (⟨S50000, .f32⟩ : BufTy).Contents (Elt F) → (⟨S50000x1, .f32⟩ : BufTy).Contents (Elt F)),
    unary main_v787 main_v788 (broadcastInDim S50000x128 ![0, 1] bcast_S50000x1_S50000x128_0_1 : (⟨S50000x1, .f32⟩ : BufTy).Contents (Elt F) → (⟨S50000x128, .f32⟩ : BufTy).Contents (Elt F)),
    binary main_v780 main_v788 main_v789 (Host.divf : (⟨S50000x128, .f32⟩ : BufTy).Contents (Elt F) → (⟨S50000x128, .f32⟩ : BufTy).Contents (Elt F) → (⟨S50000x128, .f32⟩ : BufTy).Contents (Elt F)),
    unary main_v762 main_v790 ((transpose S128x128 [1, 0] · transposes_S128x128_S128x128_1_0) : (⟨S128x128, .f32⟩ : BufTy).Contents (Elt F) → (⟨S128x128, .f32⟩ : BufTy).Contents (Elt F)),
    binary main_v789 main_v790 main_v791 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v764 main_v792 (broadcastInDim S1x128 ![1] bcast_S128_S1x128_1 : (⟨S128, .f32⟩ : BufTy).Contents (Elt F) → (⟨S1x128, .f32⟩ : BufTy).Contents (Elt F)),
    unary main_v792 main_v793 (broadcastInDim S50000x128 ![0, 1] bcast_S1x128_S50000x128_0_1 : (⟨S1x128, .f32⟩ : BufTy).Contents (Elt F) → (⟨S50000x128, .f32⟩ : BufTy).Contents (Elt F)),
    binary main_v791 main_v793 main_v794 (addf : (⟨S50000x128, .f32⟩ : BufTy).Contents (Elt F) → (⟨S50000x128, .f32⟩ : BufTy).Contents (Elt F) → (⟨S50000x128, .f32⟩ : BufTy).Contents (Elt F)),
    unary main_v766 main_v795 ((transpose S128x128 [1, 0] · transposes_S128x128_S128x128_1_0) : (⟨S128x128, .f32⟩ : BufTy).Contents (Elt F) → (⟨S128x128, .f32⟩ : BufTy).Contents (Elt F)),
    binary main_v641 main_v795 main_v796 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v794 main_v796 main_v797 (addf : (⟨S50000x128, .f32⟩ : BufTy).Contents (Elt F) → (⟨S50000x128, .f32⟩ : BufTy).Contents (Elt F) → (⟨S50000x128, .f32⟩ : BufTy).Contents (Elt F)),
    unary main_v645 main_v798 ((extractStridedSlice S1x128x128 ![4, 0, 0] · slices_S8x128x128_S1x128x128_4_0_0) : (⟨S8x128x128, .f32⟩ : BufTy).Contents (Elt F) → (⟨S1x128x128, .f32⟩ : BufTy).Contents (Elt F)),
    reshape main_v798 main_v799 rfl shapeCasts_S1x128x128_S128x128,
    unary main_v647 main_v800 ((extractStridedSlice S1x128 ![4, 0] · slices_S8x128_S1x128_4_0) : (⟨S8x128, .f32⟩ : BufTy).Contents (Elt F) → (⟨S1x128, .f32⟩ : BufTy).Contents (Elt F)),
    reshape main_v800 main_v801 rfl shapeCasts_S1x128_S128,
    unary main_v649 main_v802 ((extractStridedSlice S1x128x128 ![4, 0, 0] · slices_S8x128x128_S1x128x128_4_0_0) : (⟨S8x128x128, .f32⟩ : BufTy).Contents (Elt F) → (⟨S1x128x128, .f32⟩ : BufTy).Contents (Elt F)),
    reshape main_v802 main_v803 rfl shapeCasts_S1x128x128_S128x128,
    unary main_arg10 main_v804 ((extractStridedSlice S1x250000 ![0, 0] · slices_S2x250000_S1x250000_0_0) : (⟨S2x250000, .i32⟩ : BufTy).Contents (Elt F) → (⟨S1x250000, .i32⟩ : BufTy).Contents (Elt F)),
    reshape main_v804 main_v805 rfl shapeCasts_S1x250000_S250000,
    unary main_arg10 main_v806 ((extractStridedSlice S1x250000 ![1, 0] · slices_S2x250000_S1x250000_1_0) : (⟨S2x250000, .i32⟩ : BufTy).Contents (Elt F) → (⟨S1x250000, .i32⟩ : BufTy).Contents (Elt F)),
    reshape main_v806 main_v807 rfl shapeCasts_S1x250000_S250000,
    nullary main_c_130 (constantI S_ 32 0#32),
    unary main_c_130 main_v808 (broadcastInDim S250000 ![] bcast_S_S250000 : (⟨S_, .i32⟩ : BufTy).Contents (Elt F) → (⟨S250000, .i32⟩ : BufTy).Contents (Elt F)),
    binary main_v805 main_v808 main_v809 (cmpi .slt : (⟨S250000, .i32⟩ : BufTy).Contents (Elt F) → (⟨S250000, .i32⟩ : BufTy).Contents (Elt F) → (⟨S250000, .i1⟩ : BufTy).Contents (Elt F)),
    nullary main_c_131 (constantI S_ 32 5000#32),
    unary main_c_131 main_v810 (broadcastInDim S250000 ![] bcast_S_S250000 : (⟨S_, .i32⟩ : BufTy).Contents (Elt F) → (⟨S250000, .i32⟩ : BufTy).Contents (Elt F)),
    binary main_v805 main_v810 main_v811 (addi : (⟨S250000, .i32⟩ : BufTy).Contents (Elt F) → (⟨S250000, .i32⟩ : BufTy).Contents (Elt F) → (⟨S250000, .i32⟩ : BufTy).Contents (Elt F)),
    ternary main_v809 main_v811 main_v805 main_v812 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    unary main_v812 main_v813 (broadcastInDim S250000x1 ![0] bcast_S250000_S250000x1_0 : (⟨S250000, .i32⟩ : BufTy).Contents (Elt F) → (⟨S250000x1, .i32⟩ : BufTy).Contents (Elt F)),
    binary main_v643 main_v813 main_v814 ((fun x i => Host.gather gather_S5000x128_S250000x1_S250000x128_1_0_n_n_0_1_1128 x i) : (⟨S5000x128, .f32⟩ : BufTy).Contents (Elt F) → (⟨S250000x1, .i32⟩ : BufTy).Contents (Elt F) → (⟨S250000x128, .f32⟩ : BufTy).Contents (Elt F)),
    nullary main_cst_132 (constant S_ .f32 0x00000000#32),
    unary main_cst_132 main_v815 (broadcastInDim S20000x128 ![] bcast_S_S20000x128 : (⟨S_, .f32⟩ : BufTy).Contents (Elt F) → (⟨S20000x128, .f32⟩ : BufTy).Contents (Elt F)),
    unary main_v807 main_v816 (broadcastInDim S250000x1 ![0] bcast_S250000_S250000x1_0 : (⟨S250000, .i32⟩ : BufTy).Contents (Elt F) → (⟨S250000x1, .i32⟩ : BufTy).Contents (Elt F)),
    ternary main_v815 main_v816 main_v814 main_v817 ((fun x i u => Host.scatterAdd scatter_S20000x128_S250000x1_S250000x128_1_0_0_1 x i u) : (⟨S20000x128, .f32⟩ : BufTy).Contents (Elt F) → (⟨S250000x1, .i32⟩ : BufTy).Contents (Elt F) → (⟨S250000x128, .f32⟩ : BufTy).Contents (Elt F) → (⟨S20000x128, .f32⟩ : BufTy).Contents (Elt F)),
    nullary main_cst_133 (constant S_ .f32 0x3F800000#32),
    unary main_cst_133 main_v818 (broadcastInDim S250000 ![] bcast_S_S250000 : (⟨S_, .f32⟩ : BufTy).Contents (Elt F) → (⟨S250000, .f32⟩ : BufTy).Contents (Elt F)),
    nullary main_cst_134 (constant S_ .f32 0x00000000#32),
    unary main_cst_134 main_v819 (broadcastInDim S20000 ![] bcast_S_S20000 : (⟨S_, .f32⟩ : BufTy).Contents (Elt F) → (⟨S20000, .f32⟩ : BufTy).Contents (Elt F)),
    unary main_v807 main_v820 (broadcastInDim S250000x1 ![0] bcast_S250000_S250000x1_0 : (⟨S250000, .i32⟩ : BufTy).Contents (Elt F) → (⟨S250000x1, .i32⟩ : BufTy).Contents (Elt F)),
    ternary main_v819 main_v820 main_v818 main_v821 ((fun x i u => Host.scatterAdd scatter_S20000_S250000x1_S250000_n_0_0_1 x i u) : (⟨S20000, .f32⟩ : BufTy).Contents (Elt F) → (⟨S250000x1, .i32⟩ : BufTy).Contents (Elt F) → (⟨S250000, .f32⟩ : BufTy).Contents (Elt F) → (⟨S20000, .f32⟩ : BufTy).Contents (Elt F)),
    nullary main_cst_135 (constant S_ .f32 0x3F800000#32) ]

theorem part15_eq (d : Dev nD) : main_part15 (F := F) d = seq ops15 := rfl

theorem ops15_sub : (ops15 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub ..⟩

theorem ops15_fresh : (ops15 : List (HloOp τ sig (Elt F))).Forall fun op => op.fresh = ∅ := by
  simp only [List.Forall]; repeat' constructor

theorem kept15_0 (V : Valuation τ sig (Elt F)) : after (ops15 (F := F)) V (Proc.devRef .tc main_arg0) = V (Proc.devRef .tc main_arg0) := by
  after_results_simp
theorem kept15_1 (V : Valuation τ sig (Elt F)) : after (ops15 (F := F)) V (Proc.devRef .tc main_arg1) = V (Proc.devRef .tc main_arg1) := by
  after_results_simp
theorem kept15_2 (V : Valuation τ sig (Elt F)) : after (ops15 (F := F)) V (Proc.devRef .tc main_arg2) = V (Proc.devRef .tc main_arg2) := by
  after_results_simp
theorem kept15_3 (V : Valuation τ sig (Elt F)) : after (ops15 (F := F)) V (Proc.devRef .tc main_arg3) = V (Proc.devRef .tc main_arg3) := by
  after_results_simp
theorem kept15_4 (V : Valuation τ sig (Elt F)) : after (ops15 (F := F)) V (Proc.devRef .tc main_arg4) = V (Proc.devRef .tc main_arg4) := by
  after_results_simp
theorem kept15_5 (V : Valuation τ sig (Elt F)) : after (ops15 (F := F)) V (Proc.devRef .tc main_arg5) = V (Proc.devRef .tc main_arg5) := by
  after_results_simp
theorem kept15_6 (V : Valuation τ sig (Elt F)) : after (ops15 (F := F)) V (Proc.devRef .tc main_arg6) = V (Proc.devRef .tc main_arg6) := by
  after_results_simp
theorem kept15_7 (V : Valuation τ sig (Elt F)) : after (ops15 (F := F)) V (Proc.devRef .tc main_arg7) = V (Proc.devRef .tc main_arg7) := by
  after_results_simp
theorem kept15_8 (V : Valuation τ sig (Elt F)) : after (ops15 (F := F)) V (Proc.devRef .tc main_arg8) = V (Proc.devRef .tc main_arg8) := by
  after_results_simp
theorem kept15_9 (V : Valuation τ sig (Elt F)) : after (ops15 (F := F)) V (Proc.devRef .tc main_arg9) = V (Proc.devRef .tc main_arg9) := by
  after_results_simp
theorem kept15_10 (V : Valuation τ sig (Elt F)) : after (ops15 (F := F)) V (Proc.devRef .tc main_arg10) = V (Proc.devRef .tc main_arg10) := by
  after_results_simp
theorem kept15_11 (V : Valuation τ sig (Elt F)) : after (ops15 (F := F)) V (Proc.devRef .tc main_arg11) = V (Proc.devRef .tc main_arg11) := by
  after_results_simp
theorem kept15_12 (V : Valuation τ sig (Elt F)) : after (ops15 (F := F)) V (Proc.devRef .tc main_arg12) = V (Proc.devRef .tc main_arg12) := by
  after_results_simp
theorem kept15_13 (V : Valuation τ sig (Elt F)) : after (ops15 (F := F)) V (Proc.devRef .tc main_arg13) = V (Proc.devRef .tc main_arg13) := by
  after_results_simp

/-- Part 16's 60 operations, in order. -/
abbrev ops16 : List (HloOp τ sig (Elt F)) :=
  [ unary main_cst_135 main_v822 (broadcastInDim S20000 ![] bcast_S_S20000 : (⟨S_, .f32⟩ : BufTy).Contents (Elt F) → (⟨S20000, .f32⟩ : BufTy).Contents (Elt F)),
    binary main_v821 main_v822 main_v823 (maximumf : (⟨S20000, .f32⟩ : BufTy).Contents (Elt F) → (⟨S20000, .f32⟩ : BufTy).Contents (Elt F) → (⟨S20000, .f32⟩ : BufTy).Contents (Elt F)),
    unary main_v823 main_v824 (broadcastInDim S20000x1 ![0] bcast_S20000_S20000x1_0 : (⟨S20000, .f32⟩ : BufTy).Contents (Elt F) → (⟨S20000x1, .f32⟩ : BufTy).Contents (Elt F)),
    unary main_v824 main_v825 (broadcastInDim S20000x128 ![0, 1] bcast_S20000x1_S20000x128_0_1 : (⟨S20000x1, .f32⟩ : BufTy).Contents (Elt F) → (⟨S20000x128, .f32⟩ : BufTy).Contents (Elt F)),
    binary main_v817 main_v825 main_v826 (Host.divf : (⟨S20000x128, .f32⟩ : BufTy).Contents (Elt F) → (⟨S20000x128, .f32⟩ : BufTy).Contents (Elt F) → (⟨S20000x128, .f32⟩ : BufTy).Contents (Elt F)),
    unary main_v799 main_v827 ((transpose S128x128 [1, 0] · transposes_S128x128_S128x128_1_0) : (⟨S128x128, .f32⟩ : BufTy).Contents (Elt F) → (⟨S128x128, .f32⟩ : BufTy).Contents (Elt F)),
    binary main_v826 main_v827 main_v828 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_v801 main_v829 (broadcastInDim S1x128 ![1] bcast_S128_S1x128_1 : (⟨S128, .f32⟩ : BufTy).Contents (Elt F) → (⟨S1x128, .f32⟩ : BufTy).Contents (Elt F)),
    unary main_v829 main_v830 (broadcastInDim S20000x128 ![0, 1] bcast_S1x128_S20000x128_0_1 : (⟨S1x128, .f32⟩ : BufTy).Contents (Elt F) → (⟨S20000x128, .f32⟩ : BufTy).Contents (Elt F)),
    binary main_v828 main_v830 main_v831 (addf : (⟨S20000x128, .f32⟩ : BufTy).Contents (Elt F) → (⟨S20000x128, .f32⟩ : BufTy).Contents (Elt F) → (⟨S20000x128, .f32⟩ : BufTy).Contents (Elt F)),
    unary main_v803 main_v832 ((transpose S128x128 [1, 0] · transposes_S128x128_S128x128_1_0) : (⟨S128x128, .f32⟩ : BufTy).Contents (Elt F) → (⟨S128x128, .f32⟩ : BufTy).Contents (Elt F)),
    binary main_v642 main_v832 main_v833 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    binary main_v831 main_v833 main_v834 (addf : (⟨S20000x128, .f32⟩ : BufTy).Contents (Elt F) → (⟨S20000x128, .f32⟩ : BufTy).Contents (Elt F) → (⟨S20000x128, .f32⟩ : BufTy).Contents (Elt F)),
    unary main_v645 main_v835 ((extractStridedSlice S1x128x128 ![5, 0, 0] · slices_S8x128x128_S1x128x128_5_0_0) : (⟨S8x128x128, .f32⟩ : BufTy).Contents (Elt F) → (⟨S1x128x128, .f32⟩ : BufTy).Contents (Elt F)),
    reshape main_v835 main_v836 rfl shapeCasts_S1x128x128_S128x128,
    unary main_v647 main_v837 ((extractStridedSlice S1x128 ![5, 0] · slices_S8x128_S1x128_5_0) : (⟨S8x128, .f32⟩ : BufTy).Contents (Elt F) → (⟨S1x128, .f32⟩ : BufTy).Contents (Elt F)),
    reshape main_v837 main_v838 rfl shapeCasts_S1x128_S128,
    unary main_v649 main_v839 ((extractStridedSlice S1x128x128 ![5, 0, 0] · slices_S8x128x128_S1x128x128_5_0_0) : (⟨S8x128x128, .f32⟩ : BufTy).Contents (Elt F) → (⟨S1x128x128, .f32⟩ : BufTy).Contents (Elt F)),
    reshape main_v839 main_v840 rfl shapeCasts_S1x128x128_S128x128,
    unary main_arg11 main_v841 ((extractStridedSlice S1x250000 ![0, 0] · slices_S2x250000_S1x250000_0_0) : (⟨S2x250000, .i32⟩ : BufTy).Contents (Elt F) → (⟨S1x250000, .i32⟩ : BufTy).Contents (Elt F)),
    reshape main_v841 main_v842 rfl shapeCasts_S1x250000_S250000,
    unary main_arg11 main_v843 ((extractStridedSlice S1x250000 ![1, 0] · slices_S2x250000_S1x250000_1_0) : (⟨S2x250000, .i32⟩ : BufTy).Contents (Elt F) → (⟨S1x250000, .i32⟩ : BufTy).Contents (Elt F)),
    reshape main_v843 main_v844 rfl shapeCasts_S1x250000_S250000,
    nullary main_c_136 (constantI S_ 32 0#32),
    unary main_c_136 main_v845 (broadcastInDim S250000 ![] bcast_S_S250000 : (⟨S_, .i32⟩ : BufTy).Contents (Elt F) → (⟨S250000, .i32⟩ : BufTy).Contents (Elt F)),
    binary main_v842 main_v845 main_v846 (cmpi .slt : (⟨S250000, .i32⟩ : BufTy).Contents (Elt F) → (⟨S250000, .i32⟩ : BufTy).Contents (Elt F) → (⟨S250000, .i1⟩ : BufTy).Contents (Elt F)),
    nullary main_c_137 (constantI S_ 32 5000#32),
    unary main_c_137 main_v847 (broadcastInDim S250000 ![] bcast_S_S250000 : (⟨S_, .i32⟩ : BufTy).Contents (Elt F) → (⟨S250000, .i32⟩ : BufTy).Contents (Elt F)),
    binary main_v842 main_v847 main_v848 (addi : (⟨S250000, .i32⟩ : BufTy).Contents (Elt F) → (⟨S250000, .i32⟩ : BufTy).Contents (Elt F) → (⟨S250000, .i32⟩ : BufTy).Contents (Elt F)),
    ternary main_v846 main_v848 main_v842 main_v849 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    unary main_v849 main_v850 (broadcastInDim S250000x1 ![0] bcast_S250000_S250000x1_0 : (⟨S250000, .i32⟩ : BufTy).Contents (Elt F) → (⟨S250000x1, .i32⟩ : BufTy).Contents (Elt F)),
    binary main_v643 main_v850 main_v851 ((fun x i => Host.gather gather_S5000x128_S250000x1_S250000x128_1_0_n_n_0_1_1128 x i) : (⟨S5000x128, .f32⟩ : BufTy).Contents (Elt F) → (⟨S250000x1, .i32⟩ : BufTy).Contents (Elt F) → (⟨S250000x128, .f32⟩ : BufTy).Contents (Elt F)),
    nullary main_cst_138 (constant S_ .f32 0x00000000#32),
    unary main_cst_138 main_v852 (broadcastInDim S50000x128 ![] bcast_S_S50000x128 : (⟨S_, .f32⟩ : BufTy).Contents (Elt F) → (⟨S50000x128, .f32⟩ : BufTy).Contents (Elt F)),
    unary main_v844 main_v853 (broadcastInDim S250000x1 ![0] bcast_S250000_S250000x1_0 : (⟨S250000, .i32⟩ : BufTy).Contents (Elt F) → (⟨S250000x1, .i32⟩ : BufTy).Contents (Elt F)),
    ternary main_v852 main_v853 main_v851 main_v854 ((fun x i u => Host.scatterAdd scatter_S50000x128_S250000x1_S250000x128_1_0_0_1 x i u) : (⟨S50000x128, .f32⟩ : BufTy).Contents (Elt F) → (⟨S250000x1, .i32⟩ : BufTy).Contents (Elt F) → (⟨S250000x128, .f32⟩ : BufTy).Contents (Elt F) → (⟨S50000x128, .f32⟩ : BufTy).Contents (Elt F)),
    nullary main_cst_139 (constant S_ .f32 0x3F800000#32),
    unary main_cst_139 main_v855 (broadcastInDim S250000 ![] bcast_S_S250000 : (⟨S_, .f32⟩ : BufTy).Contents (Elt F) → (⟨S250000, .f32⟩ : BufTy).Contents (Elt F)),
    nullary main_cst_140 (constant S_ .f32 0x00000000#32),
    unary main_cst_140 main_v856 (broadcastInDim S50000 ![] bcast_S_S50000 : (⟨S_, .f32⟩ : BufTy).Contents (Elt F) → (⟨S50000, .f32⟩ : BufTy).Contents (Elt F)),
    unary main_v844 main_v857 (broadcastInDim S250000x1 ![0] bcast_S250000_S250000x1_0 : (⟨S250000, .i32⟩ : BufTy).Contents (Elt F) → (⟨S250000x1, .i32⟩ : BufTy).Contents (Elt F)),
    ternary main_v856 main_v857 main_v855 main_v858 ((fun x i u => Host.scatterAdd scatter_S50000_S250000x1_S250000_n_0_0_1 x i u) : (⟨S50000, .f32⟩ : BufTy).Contents (Elt F) → (⟨S250000x1, .i32⟩ : BufTy).Contents (Elt F) → (⟨S250000, .f32⟩ : BufTy).Contents (Elt F) → (⟨S50000, .f32⟩ : BufTy).Contents (Elt F)),
    nullary main_cst_141 (constant S_ .f32 0x3F800000#32),
    unary main_cst_141 main_v859 (broadcastInDim S50000 ![] bcast_S_S50000 : (⟨S_, .f32⟩ : BufTy).Contents (Elt F) → (⟨S50000, .f32⟩ : BufTy).Contents (Elt F)),
    binary main_v858 main_v859 main_v860 (maximumf : (⟨S50000, .f32⟩ : BufTy).Contents (Elt F) → (⟨S50000, .f32⟩ : BufTy).Contents (Elt F) → (⟨S50000, .f32⟩ : BufTy).Contents (Elt F)),
    unary main_v860 main_v861 (broadcastInDim S50000x1 ![0] bcast_S50000_S50000x1_0 : (⟨S50000, .f32⟩ : BufTy).Contents (Elt F) → (⟨S50000x1, .f32⟩ : BufTy).Contents (Elt F)),
    unary main_v861 main_v862 (broadcastInDim S50000x128 ![0, 1] bcast_S50000x1_S50000x128_0_1 : (⟨S50000x1, .f32⟩ : BufTy).Contents (Elt F) → (⟨S50000x128, .f32⟩ : BufTy).Contents (Elt F)),
    binary main_v854 main_v862 main_v863 (Host.divf : (⟨S50000x128, .f32⟩ : BufTy).Contents (Elt F) → (⟨S50000x128, .f32⟩ : BufTy).Contents (Elt F) → (⟨S50000x128, .f32⟩ : BufTy).Contents (Elt F)),
    unary main_v836 main_v864 ((transpose S128x128 [1, 0] · transposes_S128x128_S128x128_1_0) : (⟨S128x128, .f32⟩ : BufTy).Contents (Elt F) → (⟨S128x128, .f32⟩ : BufTy).Contents (Elt F)),
    binary main_v863 main_v864 main_v865 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v838 main_v866 (broadcastInDim S1x128 ![1] bcast_S128_S1x128_1 : (⟨S128, .f32⟩ : BufTy).Contents (Elt F) → (⟨S1x128, .f32⟩ : BufTy).Contents (Elt F)),
    unary main_v866 main_v867 (broadcastInDim S50000x128 ![0, 1] bcast_S1x128_S50000x128_0_1 : (⟨S1x128, .f32⟩ : BufTy).Contents (Elt F) → (⟨S50000x128, .f32⟩ : BufTy).Contents (Elt F)),
    binary main_v865 main_v867 main_v868 (addf : (⟨S50000x128, .f32⟩ : BufTy).Contents (Elt F) → (⟨S50000x128, .f32⟩ : BufTy).Contents (Elt F) → (⟨S50000x128, .f32⟩ : BufTy).Contents (Elt F)),
    unary main_v840 main_v869 ((transpose S128x128 [1, 0] · transposes_S128x128_S128x128_1_0) : (⟨S128x128, .f32⟩ : BufTy).Contents (Elt F) → (⟨S128x128, .f32⟩ : BufTy).Contents (Elt F)),
    binary main_v641 main_v869 main_v870 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v868 main_v870 main_v871 (addf : (⟨S50000x128, .f32⟩ : BufTy).Contents (Elt F) → (⟨S50000x128, .f32⟩ : BufTy).Contents (Elt F) → (⟨S50000x128, .f32⟩ : BufTy).Contents (Elt F)),
    unary main_v645 main_v872 ((extractStridedSlice S1x128x128 ![6, 0, 0] · slices_S8x128x128_S1x128x128_6_0_0) : (⟨S8x128x128, .f32⟩ : BufTy).Contents (Elt F) → (⟨S1x128x128, .f32⟩ : BufTy).Contents (Elt F)),
    reshape main_v872 main_v873 rfl shapeCasts_S1x128x128_S128x128,
    unary main_v647 main_v874 ((extractStridedSlice S1x128 ![6, 0] · slices_S8x128_S1x128_6_0) : (⟨S8x128, .f32⟩ : BufTy).Contents (Elt F) → (⟨S1x128, .f32⟩ : BufTy).Contents (Elt F)),
    reshape main_v874 main_v875 rfl shapeCasts_S1x128_S128 ]

theorem part16_eq (d : Dev nD) : main_part16 (F := F) d = seq ops16 := rfl

theorem ops16_sub : (ops16 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., reshape_bufs_sub .., unary_bufs_sub .., reshape_bufs_sub ..⟩

theorem ops16_fresh : (ops16 : List (HloOp τ sig (Elt F))).Forall fun op => op.fresh = ∅ := by
  simp only [List.Forall]; repeat' constructor

theorem kept16_0 (V : Valuation τ sig (Elt F)) : after (ops16 (F := F)) V (Proc.devRef .tc main_arg0) = V (Proc.devRef .tc main_arg0) := by
  after_results_simp
theorem kept16_1 (V : Valuation τ sig (Elt F)) : after (ops16 (F := F)) V (Proc.devRef .tc main_arg1) = V (Proc.devRef .tc main_arg1) := by
  after_results_simp
theorem kept16_2 (V : Valuation τ sig (Elt F)) : after (ops16 (F := F)) V (Proc.devRef .tc main_arg2) = V (Proc.devRef .tc main_arg2) := by
  after_results_simp
theorem kept16_3 (V : Valuation τ sig (Elt F)) : after (ops16 (F := F)) V (Proc.devRef .tc main_arg3) = V (Proc.devRef .tc main_arg3) := by
  after_results_simp
theorem kept16_4 (V : Valuation τ sig (Elt F)) : after (ops16 (F := F)) V (Proc.devRef .tc main_arg4) = V (Proc.devRef .tc main_arg4) := by
  after_results_simp
theorem kept16_5 (V : Valuation τ sig (Elt F)) : after (ops16 (F := F)) V (Proc.devRef .tc main_arg5) = V (Proc.devRef .tc main_arg5) := by
  after_results_simp
theorem kept16_6 (V : Valuation τ sig (Elt F)) : after (ops16 (F := F)) V (Proc.devRef .tc main_arg6) = V (Proc.devRef .tc main_arg6) := by
  after_results_simp
theorem kept16_7 (V : Valuation τ sig (Elt F)) : after (ops16 (F := F)) V (Proc.devRef .tc main_arg7) = V (Proc.devRef .tc main_arg7) := by
  after_results_simp
theorem kept16_8 (V : Valuation τ sig (Elt F)) : after (ops16 (F := F)) V (Proc.devRef .tc main_arg8) = V (Proc.devRef .tc main_arg8) := by
  after_results_simp
theorem kept16_9 (V : Valuation τ sig (Elt F)) : after (ops16 (F := F)) V (Proc.devRef .tc main_arg9) = V (Proc.devRef .tc main_arg9) := by
  after_results_simp
theorem kept16_10 (V : Valuation τ sig (Elt F)) : after (ops16 (F := F)) V (Proc.devRef .tc main_arg10) = V (Proc.devRef .tc main_arg10) := by
  after_results_simp
theorem kept16_11 (V : Valuation τ sig (Elt F)) : after (ops16 (F := F)) V (Proc.devRef .tc main_arg11) = V (Proc.devRef .tc main_arg11) := by
  after_results_simp
theorem kept16_12 (V : Valuation τ sig (Elt F)) : after (ops16 (F := F)) V (Proc.devRef .tc main_arg12) = V (Proc.devRef .tc main_arg12) := by
  after_results_simp
theorem kept16_13 (V : Valuation τ sig (Elt F)) : after (ops16 (F := F)) V (Proc.devRef .tc main_arg13) = V (Proc.devRef .tc main_arg13) := by
  after_results_simp

/-- Part 17's 60 operations, in order. -/
abbrev ops17 : List (HloOp τ sig (Elt F)) :=
  [ unary main_v649 main_v876 ((extractStridedSlice S1x128x128 ![6, 0, 0] · slices_S8x128x128_S1x128x128_6_0_0) : (⟨S8x128x128, .f32⟩ : BufTy).Contents (Elt F) → (⟨S1x128x128, .f32⟩ : BufTy).Contents (Elt F)),
    reshape main_v876 main_v877 rfl shapeCasts_S1x128x128_S128x128,
    unary main_arg12 main_v878 ((extractStridedSlice S1x500000 ![0, 0] · slices_S2x500000_S1x500000_0_0) : (⟨S2x500000, .i32⟩ : BufTy).Contents (Elt F) → (⟨S1x500000, .i32⟩ : BufTy).Contents (Elt F)),
    reshape main_v878 main_v879 rfl shapeCasts_S1x500000_S500000,
    unary main_arg12 main_v880 ((extractStridedSlice S1x500000 ![1, 0] · slices_S2x500000_S1x500000_1_0) : (⟨S2x500000, .i32⟩ : BufTy).Contents (Elt F) → (⟨S1x500000, .i32⟩ : BufTy).Contents (Elt F)),
    reshape main_v880 main_v881 rfl shapeCasts_S1x500000_S500000,
    nullary main_c_142 (constantI S_ 32 0#32),
    unary main_c_142 main_v882 (broadcastInDim S500000 ![] bcast_S_S500000 : (⟨S_, .i32⟩ : BufTy).Contents (Elt F) → (⟨S500000, .i32⟩ : BufTy).Contents (Elt F)),
    binary main_v879 main_v882 main_v883 (cmpi .slt : (⟨S500000, .i32⟩ : BufTy).Contents (Elt F) → (⟨S500000, .i32⟩ : BufTy).Contents (Elt F) → (⟨S500000, .i1⟩ : BufTy).Contents (Elt F)),
    nullary main_c_143 (constantI S_ 32 50000#32),
    unary main_c_143 main_v884 (broadcastInDim S500000 ![] bcast_S_S500000 : (⟨S_, .i32⟩ : BufTy).Contents (Elt F) → (⟨S500000, .i32⟩ : BufTy).Contents (Elt F)),
    binary main_v879 main_v884 main_v885 (addi : (⟨S500000, .i32⟩ : BufTy).Contents (Elt F) → (⟨S500000, .i32⟩ : BufTy).Contents (Elt F) → (⟨S500000, .i32⟩ : BufTy).Contents (Elt F)),
    ternary main_v883 main_v885 main_v879 main_v886 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v886 main_v887 (broadcastInDim S500000x1 ![0] bcast_S500000_S500000x1_0 : (⟨S500000, .i32⟩ : BufTy).Contents (Elt F) → (⟨S500000x1, .i32⟩ : BufTy).Contents (Elt F)),
    binary main_v641 main_v887 main_v888 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    nullary main_cst_144 (constant S_ .f32 0x00000000#32),
    unary main_cst_144 main_v889 (broadcastInDim S50000x128 ![] bcast_S_S50000x128 : (⟨S_, .f32⟩ : BufTy).Contents (Elt F) → (⟨S50000x128, .f32⟩ : BufTy).Contents (Elt F)),
    unary main_v881 main_v890 (broadcastInDim S500000x1 ![0] bcast_S500000_S500000x1_0 : (⟨S500000, .i32⟩ : BufTy).Contents (Elt F) → (⟨S500000x1, .i32⟩ : BufTy).Contents (Elt F)),
    ternary main_v889 main_v890 main_v888 main_v891 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)),
    nullary main_cst_145 (constant S_ .f32 0x3F800000#32),
    unary main_cst_145 main_v892 (broadcastInDim S500000 ![] bcast_S_S500000 : (⟨S_, .f32⟩ : BufTy).Contents (Elt F) → (⟨S500000, .f32⟩ : BufTy).Contents (Elt F)),
    nullary main_cst_146 (constant S_ .f32 0x00000000#32),
    unary main_cst_146 main_v893 (broadcastInDim S50000 ![] bcast_S_S50000 : (⟨S_, .f32⟩ : BufTy).Contents (Elt F) → (⟨S50000, .f32⟩ : BufTy).Contents (Elt F)),
    unary main_v881 main_v894 (broadcastInDim S500000x1 ![0] bcast_S500000_S500000x1_0 : (⟨S500000, .i32⟩ : BufTy).Contents (Elt F) → (⟨S500000x1, .i32⟩ : BufTy).Contents (Elt F)),
    ternary main_v893 main_v894 main_v892 main_v895 ((fun x i u => Host.scatterAdd scatter_S50000_S500000x1_S500000_n_0_0_1 x i u) : (⟨S50000, .f32⟩ : BufTy).Contents (Elt F) → (⟨S500000x1, .i32⟩ : BufTy).Contents (Elt F) → (⟨S500000, .f32⟩ : BufTy).Contents (Elt F) → (⟨S50000, .f32⟩ : BufTy).Contents (Elt F)),
    nullary main_cst_147 (constant S_ .f32 0x3F800000#32),
    unary main_cst_147 main_v896 (broadcastInDim S50000 ![] bcast_S_S50000 : (⟨S_, .f32⟩ : BufTy).Contents (Elt F) → (⟨S50000, .f32⟩ : BufTy).Contents (Elt F)),
    binary main_v895 main_v896 main_v897 (maximumf : (⟨S50000, .f32⟩ : BufTy).Contents (Elt F) → (⟨S50000, .f32⟩ : BufTy).Contents (Elt F) → (⟨S50000, .f32⟩ : BufTy).Contents (Elt F)),
    unary main_v897 main_v898 (broadcastInDim S50000x1 ![0] bcast_S50000_S50000x1_0 : (⟨S50000, .f32⟩ : BufTy).Contents (Elt F) → (⟨S50000x1, .f32⟩ : BufTy).Contents (Elt F)),
    unary main_v898 main_v899 (broadcastInDim S50000x128 ![0, 1] bcast_S50000x1_S50000x128_0_1 : (⟨S50000x1, .f32⟩ : BufTy).Contents (Elt F) → (⟨S50000x128, .f32⟩ : BufTy).Contents (Elt F)),
    binary main_v891 main_v899 main_v900 (Host.divf : (⟨S50000x128, .f32⟩ : BufTy).Contents (Elt F) → (⟨S50000x128, .f32⟩ : BufTy).Contents (Elt F) → (⟨S50000x128, .f32⟩ : BufTy).Contents (Elt F)),
    unary main_v873 main_v901 ((transpose S128x128 [1, 0] · transposes_S128x128_S128x128_1_0) : (⟨S128x128, .f32⟩ : BufTy).Contents (Elt F) → (⟨S128x128, .f32⟩ : BufTy).Contents (Elt F)),
    binary main_v900 main_v901 main_v902 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v875 main_v903 (broadcastInDim S1x128 ![1] bcast_S128_S1x128_1 : (⟨S128, .f32⟩ : BufTy).Contents (Elt F) → (⟨S1x128, .f32⟩ : BufTy).Contents (Elt F)),
    unary main_v903 main_v904 (broadcastInDim S50000x128 ![0, 1] bcast_S1x128_S50000x128_0_1 : (⟨S1x128, .f32⟩ : BufTy).Contents (Elt F) → (⟨S50000x128, .f32⟩ : BufTy).Contents (Elt F)),
    binary main_v902 main_v904 main_v905 (addf : (⟨S50000x128, .f32⟩ : BufTy).Contents (Elt F) → (⟨S50000x128, .f32⟩ : BufTy).Contents (Elt F) → (⟨S50000x128, .f32⟩ : BufTy).Contents (Elt F)),
    unary main_v877 main_v906 ((transpose S128x128 [1, 0] · transposes_S128x128_S128x128_1_0) : (⟨S128x128, .f32⟩ : BufTy).Contents (Elt F) → (⟨S128x128, .f32⟩ : BufTy).Contents (Elt F)),
    binary main_v641 main_v906 main_v907 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v905 main_v907 main_v908 (addf : (⟨S50000x128, .f32⟩ : BufTy).Contents (Elt F) → (⟨S50000x128, .f32⟩ : BufTy).Contents (Elt F) → (⟨S50000x128, .f32⟩ : BufTy).Contents (Elt F)),
    unary main_v645 main_v909 ((extractStridedSlice S1x128x128 ![7, 0, 0] · slices_S8x128x128_S1x128x128_7_0_0) : (⟨S8x128x128, .f32⟩ : BufTy).Contents (Elt F) → (⟨S1x128x128, .f32⟩ : BufTy).Contents (Elt F)),
    reshape main_v909 main_v910 rfl shapeCasts_S1x128x128_S128x128,
    unary main_v647 main_v911 ((extractStridedSlice S1x128 ![7, 0] · slices_S8x128_S1x128_7_0) : (⟨S8x128, .f32⟩ : BufTy).Contents (Elt F) → (⟨S1x128, .f32⟩ : BufTy).Contents (Elt F)),
    reshape main_v911 main_v912 rfl shapeCasts_S1x128_S128,
    unary main_v649 main_v913 ((extractStridedSlice S1x128x128 ![7, 0, 0] · slices_S8x128x128_S1x128x128_7_0_0) : (⟨S8x128x128, .f32⟩ : BufTy).Contents (Elt F) → (⟨S1x128x128, .f32⟩ : BufTy).Contents (Elt F)),
    reshape main_v913 main_v914 rfl shapeCasts_S1x128x128_S128x128,
    unary main_arg13 main_v915 ((extractStridedSlice S1x100000 ![0, 0] · slices_S2x100000_S1x100000_0_0) : (⟨S2x100000, .i32⟩ : BufTy).Contents (Elt F) → (⟨S1x100000, .i32⟩ : BufTy).Contents (Elt F)),
    reshape main_v915 main_v916 rfl shapeCasts_S1x100000_S100000,
    unary main_arg13 main_v917 ((extractStridedSlice S1x100000 ![1, 0] · slices_S2x100000_S1x100000_1_0) : (⟨S2x100000, .i32⟩ : BufTy).Contents (Elt F) → (⟨S1x100000, .i32⟩ : BufTy).Contents (Elt F)),
    reshape main_v917 main_v918 rfl shapeCasts_S1x100000_S100000,
    nullary main_c_148 (constantI S_ 32 0#32),
    unary main_c_148 main_v919 (broadcastInDim S100000 ![] bcast_S_S100000 : (⟨S_, .i32⟩ : BufTy).Contents (Elt F) → (⟨S100000, .i32⟩ : BufTy).Contents (Elt F)),
    binary main_v916 main_v919 main_v920 (cmpi .slt : (⟨S100000, .i32⟩ : BufTy).Contents (Elt F) → (⟨S100000, .i32⟩ : BufTy).Contents (Elt F) → (⟨S100000, .i1⟩ : BufTy).Contents (Elt F)),
    nullary main_c_149 (constantI S_ 32 5000#32),
    unary main_c_149 main_v921 (broadcastInDim S100000 ![] bcast_S_S100000 : (⟨S_, .i32⟩ : BufTy).Contents (Elt F) → (⟨S100000, .i32⟩ : BufTy).Contents (Elt F)),
    binary main_v916 main_v921 main_v922 (addi : (⟨S100000, .i32⟩ : BufTy).Contents (Elt F) → (⟨S100000, .i32⟩ : BufTy).Contents (Elt F) → (⟨S100000, .i32⟩ : BufTy).Contents (Elt F)),
    ternary main_v920 main_v922 main_v916 main_v923 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v923 main_v924 (broadcastInDim S100000x1 ![0] bcast_S100000_S100000x1_0 : (⟨S100000, .i32⟩ : BufTy).Contents (Elt F) → (⟨S100000x1, .i32⟩ : BufTy).Contents (Elt F)),
    binary main_v643 main_v924 main_v925 ((fun x i => Host.gather gather_S5000x128_S100000x1_S100000x128_1_0_n_n_0_1_1128 x i) : (⟨S5000x128, .f32⟩ : BufTy).Contents (Elt F) → (⟨S100000x1, .i32⟩ : BufTy).Contents (Elt F) → (⟨S100000x128, .f32⟩ : BufTy).Contents (Elt F)),
    nullary main_cst_150 (constant S_ .f32 0x00000000#32),
    unary main_cst_150 main_v926 (broadcastInDim S5000x128 ![] bcast_S_S5000x128 : (⟨S_, .f32⟩ : BufTy).Contents (Elt F) → (⟨S5000x128, .f32⟩ : BufTy).Contents (Elt F)) ]

theorem part17_eq (d : Dev nD) : main_part17 (F := F) d = seq ops17 := rfl

theorem ops17_sub : (ops17 : List (HloOp τ sig (Elt F))).Forall fun op => op.bufs ⊆ tcRefs τ sig :=
  ⟨unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub ..⟩

theorem ops17_fresh : (ops17 : List (HloOp τ sig (Elt F))).Forall fun op => op.fresh = ∅ := by
  simp only [List.Forall]; repeat' constructor

theorem kept17_0 (V : Valuation τ sig (Elt F)) : after (ops17 (F := F)) V (Proc.devRef .tc main_arg0) = V (Proc.devRef .tc main_arg0) := by
  after_results_simp
theorem kept17_1 (V : Valuation τ sig (Elt F)) : after (ops17 (F := F)) V (Proc.devRef .tc main_arg1) = V (Proc.devRef .tc main_arg1) := by
  after_results_simp
theorem kept17_2 (V : Valuation τ sig (Elt F)) : after (ops17 (F := F)) V (Proc.devRef .tc main_arg2) = V (Proc.devRef .tc main_arg2) := by
  after_results_simp
theorem kept17_3 (V : Valuation τ sig (Elt F)) : after (ops17 (F := F)) V (Proc.devRef .tc main_arg3) = V (Proc.devRef .tc main_arg3) := by
  after_results_simp
theorem kept17_4 (V : Valuation τ sig (Elt F)) : after (ops17 (F := F)) V (Proc.devRef .tc main_arg4) = V (Proc.devRef .tc main_arg4) := by
  after_results_simp
theorem kept17_5 (V : Valuation τ sig (Elt F)) : after (ops17 (F := F)) V (Proc.devRef .tc main_arg5) = V (Proc.devRef .tc main_arg5) := by
  after_results_simp
theorem kept17_6 (V : Valuation τ sig (Elt F)) : after (ops17 (F := F)) V (Proc.devRef .tc main_arg6) = V (Proc.devRef .tc main_arg6) := by
  after_results_simp
theorem kept17_7 (V : Valuation τ sig (Elt F)) : after (ops17 (F := F)) V (Proc.devRef .tc main_arg7) = V (Proc.devRef .tc main_arg7) := by
  after_results_simp
theorem kept17_8 (V : Valuation τ sig (Elt F)) : after (ops17 (F := F)) V (Proc.devRef .tc main_arg8) = V (Proc.devRef .tc main_arg8) := by
  after_results_simp
theorem kept17_9 (V : Valuation τ sig (Elt F)) : after (ops17 (F := F)) V (Proc.devRef .tc main_arg9) = V (Proc.devRef .tc main_arg9) := by
  after_results_simp
theorem kept17_10 (V : Valuation τ sig (Elt F)) : after (ops17 (F := F)) V (Proc.devRef .tc main_arg10) = V (Proc.devRef .tc main_arg10) := by
  after_results_simp
theorem kept17_11 (V : Valuation τ sig (Elt F)) : after (ops17 (F := F)) V (Proc.devRef .tc main_arg11) = V (Proc.devRef .tc main_arg11) := by
  after_results_simp
theorem kept17_12 (V : Valuation τ sig (Elt F)) : after (ops17 (F := F)) V (Proc.devRef .tc main_arg12) = V (Proc.devRef .tc main_arg12) := by
  after_results_simp
theorem kept17_13 (V : Valuation τ sig (Elt F)) : after (ops17 (F := F)) V (Proc.devRef .tc main_arg13) = V (Proc.devRef .tc main_arg13) := by
  after_results_simp

/-- Part 18's 60 operations, in order. -/
abbrev ops18 : List (HloOp τ sig (Elt F)) :=
  [ unary main_v918 main_v927 (broadcastInDim S100000x1 ![0] bcast_S100000_S100000x1_0 : (⟨S100000, .i32⟩ : BufTy).Contents (Elt F) → (⟨S100000x1, .i32⟩ : BufTy).Contents (Elt F)),
    ternary main_v926 main_v927 main_v925 main_v928 ((fun x i u => Host.scatterAdd scatter_S5000x128_S100000x1_S100000x128_1_0_0_1 x i u) : (⟨S5000x128, .f32⟩ : BufTy).Contents (Elt F) → (⟨S100000x1, .i32⟩ : BufTy).Contents (Elt F) → (⟨S100000x128, .f32⟩ : BufTy).Contents (Elt F) → (⟨S5000x128, .f32⟩ : BufTy).Contents (Elt F)),
    nullary main_cst_151 (constant S_ .f32 0x3F800000#32),
    unary main_cst_151 main_v929 (broadcastInDim S100000 ![] bcast_S_S100000 : (⟨S_, .f32⟩ : BufTy).Contents (Elt F) → (⟨S100000, .f32⟩ : BufTy).Contents (Elt F)),
    nullary main_cst_152 (constant S_ .f32 0x00000000#32),
    unary main_cst_152 main_v930 (broadcastInDim S5000 ![] bcast_S_S5000 : (⟨S_, .f32⟩ : BufTy).Contents (Elt F) → (⟨S5000, .f32⟩ : BufTy).Contents (Elt F)),
    unary main_v918 main_v931 (broadcastInDim S100000x1 ![0] bcast_S100000_S100000x1_0 : (⟨S100000, .i32⟩ : BufTy).Contents (Elt F) → (⟨S100000x1, .i32⟩ : BufTy).Contents (Elt F)),
    ternary main_v930 main_v931 main_v929 main_v932 ((fun x i u => Host.scatterAdd scatter_S5000_S100000x1_S100000_n_0_0_1 x i u) : (⟨S5000, .f32⟩ : BufTy).Contents (Elt F) → (⟨S100000x1, .i32⟩ : BufTy).Contents (Elt F) → (⟨S100000, .f32⟩ : BufTy).Contents (Elt F) → (⟨S5000, .f32⟩ : BufTy).Contents (Elt F)),
    nullary main_cst_153 (constant S_ .f32 0x3F800000#32),
    unary main_cst_153 main_v933 (broadcastInDim S5000 ![] bcast_S_S5000 : (⟨S_, .f32⟩ : BufTy).Contents (Elt F) → (⟨S5000, .f32⟩ : BufTy).Contents (Elt F)),
    binary main_v932 main_v933 main_v934 (maximumf : (⟨S5000, .f32⟩ : BufTy).Contents (Elt F) → (⟨S5000, .f32⟩ : BufTy).Contents (Elt F) → (⟨S5000, .f32⟩ : BufTy).Contents (Elt F)),
    unary main_v934 main_v935 (broadcastInDim S5000x1 ![0] bcast_S5000_S5000x1_0 : (⟨S5000, .f32⟩ : BufTy).Contents (Elt F) → (⟨S5000x1, .f32⟩ : BufTy).Contents (Elt F)),
    unary main_v935 main_v936 (broadcastInDim S5000x128 ![0, 1] bcast_S5000x1_S5000x128_0_1 : (⟨S5000x1, .f32⟩ : BufTy).Contents (Elt F) → (⟨S5000x128, .f32⟩ : BufTy).Contents (Elt F)),
    binary main_v928 main_v936 main_v937 (Host.divf : (⟨S5000x128, .f32⟩ : BufTy).Contents (Elt F) → (⟨S5000x128, .f32⟩ : BufTy).Contents (Elt F) → (⟨S5000x128, .f32⟩ : BufTy).Contents (Elt F)),
    unary main_v910 main_v938 ((transpose S128x128 [1, 0] · transposes_S128x128_S128x128_1_0) : (⟨S128x128, .f32⟩ : BufTy).Contents (Elt F) → (⟨S128x128, .f32⟩ : BufTy).Contents (Elt F)),
    binary main_v937 main_v938 main_v939 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    unary main_v912 main_v940 (broadcastInDim S1x128 ![1] bcast_S128_S1x128_1 : (⟨S128, .f32⟩ : BufTy).Contents (Elt F) → (⟨S1x128, .f32⟩ : BufTy).Contents (Elt F)),
    unary main_v940 main_v941 (broadcastInDim S5000x128 ![0, 1] bcast_S1x128_S5000x128_0_1 : (⟨S1x128, .f32⟩ : BufTy).Contents (Elt F) → (⟨S5000x128, .f32⟩ : BufTy).Contents (Elt F)),
    binary main_v939 main_v941 main_v942 (addf : (⟨S5000x128, .f32⟩ : BufTy).Contents (Elt F) → (⟨S5000x128, .f32⟩ : BufTy).Contents (Elt F) → (⟨S5000x128, .f32⟩ : BufTy).Contents (Elt F)),
    unary main_v914 main_v943 ((transpose S128x128 [1, 0] · transposes_S128x128_S128x128_1_0) : (⟨S128x128, .f32⟩ : BufTy).Contents (Elt F) → (⟨S128x128, .f32⟩ : BufTy).Contents (Elt F)),
    binary main_v643 main_v943 main_v944 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    binary main_v942 main_v944 main_v945 (addf : (⟨S5000x128, .f32⟩ : BufTy).Contents (Elt F) → (⟨S5000x128, .f32⟩ : BufTy).Contents (Elt F) → (⟨S5000x128, .f32⟩ : BufTy).Contents (Elt F)),
    nullary main_cst_154 (constant S_ .f32 0x00000000#32),
    unary main_cst_154 main_v946 (broadcastInDim S50000x128 ![] bcast_S_S50000x128 : (⟨S_, .f32⟩ : BufTy).Contents (Elt F) → (⟨S50000x128, .f32⟩ : BufTy).Contents (Elt F)),
    binary main_v946 main_v797 main_v947 (addf : (⟨S50000x128, .f32⟩ : BufTy).Contents (Elt F) → (⟨S50000x128, .f32⟩ : BufTy).Contents (Elt F) → (⟨S50000x128, .f32⟩ : BufTy).Contents (Elt F)),
    binary main_v947 main_v871 main_v948 (addf : (⟨S50000x128, .f32⟩ : BufTy).Contents (Elt F) → (⟨S50000x128, .f32⟩ : BufTy).Contents (Elt F) → (⟨S50000x128, .f32⟩ : BufTy).Contents (Elt F)),
    binary main_v948 main_v908 main_v949 (addf : (⟨S50000x128, .f32⟩ : BufTy).Contents (Elt F) → (⟨S50000x128, .f32⟩ : BufTy).Contents (Elt F) → (⟨S50000x128, .f32⟩ : BufTy).Contents (Elt F)),
    nullary main_cst_155 (constant S_ .f32 0x40400000#32),
    unary main_cst_155 main_v950 (broadcastInDim S50000x128 ![] bcast_S_S50000x128 : (⟨S_, .f32⟩ : BufTy).Contents (Elt F) → (⟨S50000x128, .f32⟩ : BufTy).Contents (Elt F)),
    binary main_v949 main_v950 main_v951 (Host.divf : (⟨S50000x128, .f32⟩ : BufTy).Contents (Elt F) → (⟨S50000x128, .f32⟩ : BufTy).Contents (Elt F) → (⟨S50000x128, .f32⟩ : BufTy).Contents (Elt F)),
    nullary main_cst_156 (constant S_ .f32 0x00000000#32),
    unary main_cst_156 main_v952 (broadcastInDim S20000x128 ![] bcast_S_S20000x128 : (⟨S_, .f32⟩ : BufTy).Contents (Elt F) → (⟨S20000x128, .f32⟩ : BufTy).Contents (Elt F)),
    binary main_v952 main_v686 main_v953 (addf : (⟨S20000x128, .f32⟩ : BufTy).Contents (Elt F) → (⟨S20000x128, .f32⟩ : BufTy).Contents (Elt F) → (⟨S20000x128, .f32⟩ : BufTy).Contents (Elt F)),
    binary main_v953 main_v834 main_v954 (addf : (⟨S20000x128, .f32⟩ : BufTy).Contents (Elt F) → (⟨S20000x128, .f32⟩ : BufTy).Contents (Elt F) → (⟨S20000x128, .f32⟩ : BufTy).Contents (Elt F)),
    nullary main_cst_157 (constant S_ .f32 0x40000000#32),
    unary main_cst_157 main_v955 (broadcastInDim S20000x128 ![] bcast_S_S20000x128 : (⟨S_, .f32⟩ : BufTy).Contents (Elt F) → (⟨S20000x128, .f32⟩ : BufTy).Contents (Elt F)),
    binary main_v954 main_v955 main_v956 (Host.divf : (⟨S20000x128, .f32⟩ : BufTy).Contents (Elt F) → (⟨S20000x128, .f32⟩ : BufTy).Contents (Elt F) → (⟨S20000x128, .f32⟩ : BufTy).Contents (Elt F)),
    nullary main_cst_158 (constant S_ .f32 0x00000000#32),
    unary main_cst_158 main_v957 (broadcastInDim S5000x128 ![] bcast_S_S5000x128 : (⟨S_, .f32⟩ : BufTy).Contents (Elt F) → (⟨S5000x128, .f32⟩ : BufTy).Contents (Elt F)),
    binary main_v957 main_v723 main_v958 (addf : (⟨S5000x128, .f32⟩ : BufTy).Contents (Elt F) → (⟨S5000x128, .f32⟩ : BufTy).Contents (Elt F) → (⟨S5000x128, .f32⟩ : BufTy).Contents (Elt F)),
    binary main_v958 main_v760 main_v959 (addf : (⟨S5000x128, .f32⟩ : BufTy).Contents (Elt F) → (⟨S5000x128, .f32⟩ : BufTy).Contents (Elt F) → (⟨S5000x128, .f32⟩ : BufTy).Contents (Elt F)),
    binary main_v959 main_v945 main_v960 (addf : (⟨S5000x128, .f32⟩ : BufTy).Contents (Elt F) → (⟨S5000x128, .f32⟩ : BufTy).Contents (Elt F) → (⟨S5000x128, .f32⟩ : BufTy).Contents (Elt F)),
    nullary main_cst_159 (constant S_ .f32 0x40400000#32),
    unary main_cst_159 main_v961 (broadcastInDim S5000x128 ![] bcast_S_S5000x128 : (⟨S_, .f32⟩ : BufTy).Contents (Elt F) → (⟨S5000x128, .f32⟩ : BufTy).Contents (Elt F)),
    binary main_v960 main_v961 main_v962 (Host.divf : (⟨S5000x128, .f32⟩ : BufTy).Contents (Elt F) → (⟨S5000x128, .f32⟩ : BufTy).Contents (Elt F) → (⟨S5000x128, .f32⟩ : BufTy).Contents (Elt F)),
    binary main_v951 main_v951 main_v963 (mulf : (⟨S50000x128, .f32⟩ : BufTy).Contents (Elt F) → (⟨S50000x128, .f32⟩ : BufTy).Contents (Elt F) → (⟨S50000x128, .f32⟩ : BufTy).Contents (Elt F)),
    nullary main_cst_160 (constant S_ .f32 0x00000000#32),
    binary main_v963 main_cst_160 main_v964 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v964 main_v965 (broadcastInDim S50000x1 ![0] bcast_S50000_S50000x1_0 : (⟨S50000, .f32⟩ : BufTy).Contents (Elt F) → (⟨S50000x1, .f32⟩ : BufTy).Contents (Elt F)),
    unary main_v965 main_v966 (Host.sqrt : (⟨S50000x1, .f32⟩ : BufTy).Contents (Elt F) → (⟨S50000x1, .f32⟩ : BufTy).Contents (Elt F)),
    nullary main_cst_161 (constant S_ .f32 0x2B8CBCCC#32),
    unary main_cst_161 main_v967 (broadcastInDim S50000x1 ![] bcast_S_S50000x1 : (⟨S_, .f32⟩ : BufTy).Contents (Elt F) → (⟨S50000x1, .f32⟩ : BufTy).Contents (Elt F)),
    binary main_v966 main_v967 main_v968 (maximumf : (⟨S50000x1, .f32⟩ : BufTy).Contents (Elt F) → (⟨S50000x1, .f32⟩ : BufTy).Contents (Elt F) → (⟨S50000x1, .f32⟩ : BufTy).Contents (Elt F)),
    unary main_v968 main_v969 (broadcastInDim S50000x128 ![0, 1] bcast_S50000x1_S50000x128_0_1 : (⟨S50000x1, .f32⟩ : BufTy).Contents (Elt F) → (⟨S50000x128, .f32⟩ : BufTy).Contents (Elt F)),
    binary main_v951 main_v969 main_v970 (Host.divf : (⟨S50000x128, .f32⟩ : BufTy).Contents (Elt F) → (⟨S50000x128, .f32⟩ : BufTy).Contents (Elt F) → (⟨S50000x128, .f32⟩ : BufTy).Contents (Elt F)),
    binary main_v956 main_v956 main_v971 (mulf : (⟨S20000x128, .f32⟩ : BufTy).Contents (Elt F) → (⟨S20000x128, .f32⟩ : BufTy).Contents (Elt F) → (⟨S20000x128, .f32⟩ : BufTy).Contents (Elt F)),
    nullary main_cst_162 (constant S_ .f32 0x00000000#32),
    binary main_v971 main_cst_162 main_v972 ((fun x v => Host.reduceAdd x v reducesTo_S20000x128_S20000_d1 h_S_) : (⟨S20000x128, .f32⟩ : BufTy).Contents (Elt F) → (⟨S_, .f32⟩ : BufTy).Contents (Elt F) → (⟨S20000, .f32⟩ : BufTy).Contents (Elt F)),
    unary main_v972 main_v973 (broadcastInDim S20000x1 ![0] bcast_S20000_S20000x1_0 : (⟨S20000, .f32⟩ : BufTy).Contents (Elt F) → (⟨S20000x1, .f32⟩ : BufTy).Contents (Elt F)),
    unary main_v973 main_v974 (Host.sqrt : (⟨S20000x1, .f32⟩ : BufTy).Contents (Elt F) → (⟨S20000x1, .f32⟩ : BufTy).Contents (Elt F)) ]

theorem part18_eq (d : Dev nD) : main_part18 (F := F) d = seq ops18 := rfl

theorem ops18_sub : (ops18 : List (HloOp τ sig (Elt F))).Forall fun op => op.bufs ⊆ tcRefs τ sig :=
  ⟨unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub ..⟩

theorem ops18_fresh : (ops18 : List (HloOp τ sig (Elt F))).Forall fun op => op.fresh = ∅ := by
  simp only [List.Forall]; repeat' constructor

theorem kept18_0 (V : Valuation τ sig (Elt F)) : after (ops18 (F := F)) V (Proc.devRef .tc main_arg0) = V (Proc.devRef .tc main_arg0) := by
  after_results_simp
theorem kept18_1 (V : Valuation τ sig (Elt F)) : after (ops18 (F := F)) V (Proc.devRef .tc main_arg1) = V (Proc.devRef .tc main_arg1) := by
  after_results_simp
theorem kept18_2 (V : Valuation τ sig (Elt F)) : after (ops18 (F := F)) V (Proc.devRef .tc main_arg2) = V (Proc.devRef .tc main_arg2) := by
  after_results_simp
theorem kept18_3 (V : Valuation τ sig (Elt F)) : after (ops18 (F := F)) V (Proc.devRef .tc main_arg3) = V (Proc.devRef .tc main_arg3) := by
  after_results_simp
theorem kept18_4 (V : Valuation τ sig (Elt F)) : after (ops18 (F := F)) V (Proc.devRef .tc main_arg4) = V (Proc.devRef .tc main_arg4) := by
  after_results_simp
theorem kept18_5 (V : Valuation τ sig (Elt F)) : after (ops18 (F := F)) V (Proc.devRef .tc main_arg5) = V (Proc.devRef .tc main_arg5) := by
  after_results_simp
theorem kept18_6 (V : Valuation τ sig (Elt F)) : after (ops18 (F := F)) V (Proc.devRef .tc main_arg6) = V (Proc.devRef .tc main_arg6) := by
  after_results_simp
theorem kept18_7 (V : Valuation τ sig (Elt F)) : after (ops18 (F := F)) V (Proc.devRef .tc main_arg7) = V (Proc.devRef .tc main_arg7) := by
  after_results_simp
theorem kept18_8 (V : Valuation τ sig (Elt F)) : after (ops18 (F := F)) V (Proc.devRef .tc main_arg8) = V (Proc.devRef .tc main_arg8) := by
  after_results_simp
theorem kept18_9 (V : Valuation τ sig (Elt F)) : after (ops18 (F := F)) V (Proc.devRef .tc main_arg9) = V (Proc.devRef .tc main_arg9) := by
  after_results_simp
theorem kept18_10 (V : Valuation τ sig (Elt F)) : after (ops18 (F := F)) V (Proc.devRef .tc main_arg10) = V (Proc.devRef .tc main_arg10) := by
  after_results_simp
theorem kept18_11 (V : Valuation τ sig (Elt F)) : after (ops18 (F := F)) V (Proc.devRef .tc main_arg11) = V (Proc.devRef .tc main_arg11) := by
  after_results_simp
theorem kept18_12 (V : Valuation τ sig (Elt F)) : after (ops18 (F := F)) V (Proc.devRef .tc main_arg12) = V (Proc.devRef .tc main_arg12) := by
  after_results_simp
theorem kept18_13 (V : Valuation τ sig (Elt F)) : after (ops18 (F := F)) V (Proc.devRef .tc main_arg13) = V (Proc.devRef .tc main_arg13) := by
  after_results_simp

/-- Part 19's 15 operations, in order. -/
abbrev ops19 : List (HloOp τ sig (Elt F)) :=
  [ nullary main_cst_163 (constant S_ .f32 0x2B8CBCCC#32),
    unary main_cst_163 main_v975 (broadcastInDim S20000x1 ![] bcast_S_S20000x1 : (⟨S_, .f32⟩ : BufTy).Contents (Elt F) → (⟨S20000x1, .f32⟩ : BufTy).Contents (Elt F)),
    binary main_v974 main_v975 main_v976 (maximumf : (⟨S20000x1, .f32⟩ : BufTy).Contents (Elt F) → (⟨S20000x1, .f32⟩ : BufTy).Contents (Elt F) → (⟨S20000x1, .f32⟩ : BufTy).Contents (Elt F)),
    unary main_v976 main_v977 (broadcastInDim S20000x128 ![0, 1] bcast_S20000x1_S20000x128_0_1 : (⟨S20000x1, .f32⟩ : BufTy).Contents (Elt F) → (⟨S20000x128, .f32⟩ : BufTy).Contents (Elt F)),
    binary main_v956 main_v977 main_v978 (Host.divf : (⟨S20000x128, .f32⟩ : BufTy).Contents (Elt F) → (⟨S20000x128, .f32⟩ : BufTy).Contents (Elt F) → (⟨S20000x128, .f32⟩ : BufTy).Contents (Elt F)),
    binary main_v962 main_v962 main_v979 (mulf : (⟨S5000x128, .f32⟩ : BufTy).Contents (Elt F) → (⟨S5000x128, .f32⟩ : BufTy).Contents (Elt F) → (⟨S5000x128, .f32⟩ : BufTy).Contents (Elt F)),
    nullary main_cst_164 (constant S_ .f32 0x00000000#32),
    binary main_v979 main_cst_164 main_v980 ((fun x v => Host.reduceAdd x v reducesTo_S5000x128_S5000_d1 h_S_) : (⟨S5000x128, .f32⟩ : BufTy).Contents (Elt F) → (⟨S_, .f32⟩ : BufTy).Contents (Elt F) → (⟨S5000, .f32⟩ : BufTy).Contents (Elt F)),
    unary main_v980 main_v981 (broadcastInDim S5000x1 ![0] bcast_S5000_S5000x1_0 : (⟨S5000, .f32⟩ : BufTy).Contents (Elt F) → (⟨S5000x1, .f32⟩ : BufTy).Contents (Elt F)),
    unary main_v981 main_v982 (Host.sqrt : (⟨S5000x1, .f32⟩ : BufTy).Contents (Elt F) → (⟨S5000x1, .f32⟩ : BufTy).Contents (Elt F)),
    nullary main_cst_165 (constant S_ .f32 0x2B8CBCCC#32),
    unary main_cst_165 main_v983 (broadcastInDim S5000x1 ![] bcast_S_S5000x1 : (⟨S_, .f32⟩ : BufTy).Contents (Elt F) → (⟨S5000x1, .f32⟩ : BufTy).Contents (Elt F)),
    binary main_v982 main_v983 main_v984 (maximumf : (⟨S5000x1, .f32⟩ : BufTy).Contents (Elt F) → (⟨S5000x1, .f32⟩ : BufTy).Contents (Elt F) → (⟨S5000x1, .f32⟩ : BufTy).Contents (Elt F)),
    unary main_v984 main_v985 (broadcastInDim S5000x128 ![0, 1] bcast_S5000x1_S5000x128_0_1 : (⟨S5000x1, .f32⟩ : BufTy).Contents (Elt F) → (⟨S5000x128, .f32⟩ : BufTy).Contents (Elt F)),
    binary main_v962 main_v985 main_v986 (Host.divf : (⟨S5000x128, .f32⟩ : BufTy).Contents (Elt F) → (⟨S5000x128, .f32⟩ : BufTy).Contents (Elt F) → (⟨S5000x128, .f32⟩ : BufTy).Contents (Elt F)) ]

theorem part19_eq (d : Dev nD) : main_part19 (F := F) d = seq ops19 := rfl

theorem ops19_sub : (ops19 : List (HloOp τ sig (Elt F))).Forall fun op => op.bufs ⊆ tcRefs τ sig :=
  ⟨nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem ops19_fresh : (ops19 : List (HloOp τ sig (Elt F))).Forall fun op => op.fresh = ∅ := by
  simp only [List.Forall]; repeat' constructor

theorem kept19_0 (V : Valuation τ sig (Elt F)) : after (ops19 (F := F)) V (Proc.devRef .tc main_arg0) = V (Proc.devRef .tc main_arg0) := by
  after_results_simp
theorem kept19_1 (V : Valuation τ sig (Elt F)) : after (ops19 (F := F)) V (Proc.devRef .tc main_arg1) = V (Proc.devRef .tc main_arg1) := by
  after_results_simp
theorem kept19_2 (V : Valuation τ sig (Elt F)) : after (ops19 (F := F)) V (Proc.devRef .tc main_arg2) = V (Proc.devRef .tc main_arg2) := by
  after_results_simp
theorem kept19_3 (V : Valuation τ sig (Elt F)) : after (ops19 (F := F)) V (Proc.devRef .tc main_arg3) = V (Proc.devRef .tc main_arg3) := by
  after_results_simp
theorem kept19_4 (V : Valuation τ sig (Elt F)) : after (ops19 (F := F)) V (Proc.devRef .tc main_arg4) = V (Proc.devRef .tc main_arg4) := by
  after_results_simp
theorem kept19_5 (V : Valuation τ sig (Elt F)) : after (ops19 (F := F)) V (Proc.devRef .tc main_arg5) = V (Proc.devRef .tc main_arg5) := by
  after_results_simp
theorem kept19_6 (V : Valuation τ sig (Elt F)) : after (ops19 (F := F)) V (Proc.devRef .tc main_arg6) = V (Proc.devRef .tc main_arg6) := by
  after_results_simp
theorem kept19_7 (V : Valuation τ sig (Elt F)) : after (ops19 (F := F)) V (Proc.devRef .tc main_arg7) = V (Proc.devRef .tc main_arg7) := by
  after_results_simp
theorem kept19_8 (V : Valuation τ sig (Elt F)) : after (ops19 (F := F)) V (Proc.devRef .tc main_arg8) = V (Proc.devRef .tc main_arg8) := by
  after_results_simp
theorem kept19_9 (V : Valuation τ sig (Elt F)) : after (ops19 (F := F)) V (Proc.devRef .tc main_arg9) = V (Proc.devRef .tc main_arg9) := by
  after_results_simp
theorem kept19_10 (V : Valuation τ sig (Elt F)) : after (ops19 (F := F)) V (Proc.devRef .tc main_arg10) = V (Proc.devRef .tc main_arg10) := by
  after_results_simp
theorem kept19_11 (V : Valuation τ sig (Elt F)) : after (ops19 (F := F)) V (Proc.devRef .tc main_arg11) = V (Proc.devRef .tc main_arg11) := by
  after_results_simp
theorem kept19_12 (V : Valuation τ sig (Elt F)) : after (ops19 (F := F)) V (Proc.devRef .tc main_arg12) = V (Proc.devRef .tc main_arg12) := by
  after_results_simp
theorem kept19_13 (V : Valuation τ sig (Elt F)) : after (ops19 (F := F)) V (Proc.devRef .tc main_arg13) = V (Proc.devRef .tc main_arg13) := by
  after_results_simp

end Cert.ReferenceIdeal.Parts

end
-- ==== Proof.RefOps.lean ====
/-
  The reference's @main as one list of host operations, the twenty parts' lists appended: @main runs them in order; every
  operation touches TensorCore references only and allocates nothing; running two lists one after the other is running
  the second from what the first leaves; and each argument array keeps its contents across the whole list.
-/
import proofs.«116292_j712964571450_1_alg».proof.Proof.RefOps0
import proofs.«116292_j712964571450_1_alg».proof.Proof.RefOps1
import proofs.«116292_j712964571450_1_alg».proof.Proof.RefOps2
import proofs.«116292_j712964571450_1_alg».proof.Proof.RefOps3

set_option maxRecDepth 16384
set_option maxHeartbeats 40000000

noncomputable section

namespace Cert.ReferenceIdeal.Parts

open Cert.ReferenceIdeal Cert.ReferenceIdeal.Gen Idealize.ShloMosaic Idealize.ShloMosaic.TcCoe Idealize.SL.Sem Idealize.ShloMosaic.StableHlo

variable {F : FTy → Type} [FloatOps F]

/-- @main's operations. -/
abbrev ops : List (HloOp τ sig (Elt F)) := ops0 ++ (ops1 ++ (ops2 ++ (ops3 ++ (ops4 ++ (ops5 ++ (ops6 ++ (ops7 ++ (ops8 ++ (ops9 ++ (ops10 ++ (ops11 ++ (ops12 ++ (ops13 ++ (ops14 ++ (ops15 ++ (ops16 ++ (ops17 ++ (ops18 ++ (ops19)))))))))))))))))))

/-- The contents after two lists run one after the other are the second's from the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

theorem main_eq (d : Dev nD) : main (F := F) d = seq ops := by
  unfold ops
  simp only [seq_append]
  rw [← part0_eq d, ← part1_eq d, ← part2_eq d, ← part3_eq d, ← part4_eq d, ← part5_eq d, ← part6_eq d, ← part7_eq d, ← part8_eq d, ← part9_eq d, ← part10_eq d, ← part11_eq d, ← part12_eq d, ← part13_eq d, ← part14_eq d, ← part15_eq d, ← part16_eq d, ← part17_eq d, ← part18_eq d, ← part19_eq d]
  rfl

theorem scopedRefs_eq : (Finset.univ.filter fun b : Ref sig .tc => b.isScoped) = ∅ := by decide
theorem scopedSems_eq : (Finset.univ.filter fun sm : SemLoc sig => sm.isScoped .tc) = ∅ := by decide

theorem forall_append {α : Type} (p : α → Prop) (l₁ l₂ : List α) (h₁ : l₁.Forall p) (h₂ : l₂.Forall p) : (l₁ ++ l₂).Forall p :=
  List.forall_iff_forall_mem.mpr fun a ha => (List.mem_append.mp ha).elim (List.forall_iff_forall_mem.mp h₁ a) (List.forall_iff_forall_mem.mp h₂ a)

theorem ops_sub : (ops : List (HloOp τ sig (Elt F))).Forall fun op => op.bufs ⊆ tcRefs τ sig :=
  forall_append _ _ _ ops0_sub (forall_append _ _ _ ops1_sub (forall_append _ _ _ ops2_sub (forall_append _ _ _ ops3_sub (forall_append _ _ _ ops4_sub (forall_append _ _ _ ops5_sub (forall_append _ _ _ ops6_sub (forall_append _ _ _ ops7_sub (forall_append _ _ _ ops8_sub (forall_append _ _ _ ops9_sub (forall_append _ _ _ ops10_sub (forall_append _ _ _ ops11_sub (forall_append _ _ _ ops12_sub (forall_append _ _ _ ops13_sub (forall_append _ _ _ ops14_sub (forall_append _ _ _ ops15_sub (forall_append _ _ _ ops16_sub (forall_append _ _ _ ops17_sub (forall_append _ _ _ ops18_sub (ops19_sub)))))))))))))))))))

theorem ops_fresh : (ops : List (HloOp τ sig (Elt F))).Forall fun op => op.fresh = ∅ :=
  forall_append _ _ _ ops0_fresh (forall_append _ _ _ ops1_fresh (forall_append _ _ _ ops2_fresh (forall_append _ _ _ ops3_fresh (forall_append _ _ _ ops4_fresh (forall_append _ _ _ ops5_fresh (forall_append _ _ _ ops6_fresh (forall_append _ _ _ ops7_fresh (forall_append _ _ _ ops8_fresh (forall_append _ _ _ ops9_fresh (forall_append _ _ _ ops10_fresh (forall_append _ _ _ ops11_fresh (forall_append _ _ _ ops12_fresh (forall_append _ _ _ ops13_fresh (forall_append _ _ _ ops14_fresh (forall_append _ _ _ ops15_fresh (forall_append _ _ _ ops16_fresh (forall_append _ _ _ ops17_fresh (forall_append _ _ _ ops18_fresh (ops19_fresh)))))))))))))))))))

/-- Argument 0 keeps its contents across @main. -/
theorem kept0 (V : Valuation τ sig (Elt F)) : after (ops (F := F)) V (Proc.devRef .tc main_arg0) = V (Proc.devRef .tc main_arg0) := by
  simp only [ops, after_append]
  rw [kept19_0, kept18_0, kept17_0, kept16_0, kept15_0, kept14_0, kept13_0, kept12_0, kept11_0, kept10_0, kept9_0, kept8_0, kept7_0, kept6_0, kept5_0, kept4_0, kept3_0, kept2_0, kept1_0, kept0_0]

/-- Argument 1 keeps its contents across @main. -/
theorem kept1 (V : Valuation τ sig (Elt F)) : after (ops (F := F)) V (Proc.devRef .tc main_arg1) = V (Proc.devRef .tc main_arg1) := by
  simp only [ops, after_append]
  rw [kept19_1, kept18_1, kept17_1, kept16_1, kept15_1, kept14_1, kept13_1, kept12_1, kept11_1, kept10_1, kept9_1, kept8_1, kept7_1, kept6_1, kept5_1, kept4_1, kept3_1, kept2_1, kept1_1, kept0_1]

/-- Argument 2 keeps its contents across @main. -/
theorem kept2 (V : Valuation τ sig (Elt F)) : after (ops (F := F)) V (Proc.devRef .tc main_arg2) = V (Proc.devRef .tc main_arg2) := by
  simp only [ops, after_append]
  rw [kept19_2, kept18_2, kept17_2, kept16_2, kept15_2, kept14_2, kept13_2, kept12_2, kept11_2, kept10_2, kept9_2, kept8_2, kept7_2, kept6_2, kept5_2, kept4_2, kept3_2, kept2_2, kept1_2, kept0_2]

/-- Argument 3 keeps its contents across @main. -/
theorem kept3 (V : Valuation τ sig (Elt F)) : after (ops (F := F)) V (Proc.devRef .tc main_arg3) = V (Proc.devRef .tc main_arg3) := by
  simp only [ops, after_append]
  rw [kept19_3, kept18_3, kept17_3, kept16_3, kept15_3, kept14_3, kept13_3, kept12_3, kept11_3, kept10_3, kept9_3, kept8_3, kept7_3, kept6_3, kept5_3, kept4_3, kept3_3, kept2_3, kept1_3, kept0_3]

/-- Argument 4 keeps its contents across @main. -/
theorem kept4 (V : Valuation τ sig (Elt F)) : after (ops (F := F)) V (Proc.devRef .tc main_arg4) = V (Proc.devRef .tc main_arg4) := by
  simp only [ops, after_append]
  rw [kept19_4, kept18_4, kept17_4, kept16_4, kept15_4, kept14_4, kept13_4, kept12_4, kept11_4, kept10_4, kept9_4, kept8_4, kept7_4, kept6_4, kept5_4, kept4_4, kept3_4, kept2_4, kept1_4, kept0_4]

/-- Argument 5 keeps its contents across @main. -/
theorem kept5 (V : Valuation τ sig (Elt F)) : after (ops (F := F)) V (Proc.devRef .tc main_arg5) = V (Proc.devRef .tc main_arg5) := by
  simp only [ops, after_append]
  rw [kept19_5, kept18_5, kept17_5, kept16_5, kept15_5, kept14_5, kept13_5, kept12_5, kept11_5, kept10_5, kept9_5, kept8_5, kept7_5, kept6_5, kept5_5, kept4_5, kept3_5, kept2_5, kept1_5, kept0_5]

/-- Argument 6 keeps its contents across @main. -/
theorem kept6 (V : Valuation τ sig (Elt F)) : after (ops (F := F)) V (Proc.devRef .tc main_arg6) = V (Proc.devRef .tc main_arg6) := by
  simp only [ops, after_append]
  rw [kept19_6, kept18_6, kept17_6, kept16_6, kept15_6, kept14_6, kept13_6, kept12_6, kept11_6, kept10_6, kept9_6, kept8_6, kept7_6, kept6_6, kept5_6, kept4_6, kept3_6, kept2_6, kept1_6, kept0_6]

/-- Argument 7 keeps its contents across @main. -/
theorem kept7 (V : Valuation τ sig (Elt F)) : after (ops (F := F)) V (Proc.devRef .tc main_arg7) = V (Proc.devRef .tc main_arg7) := by
  simp only [ops, after_append]
  rw [kept19_7, kept18_7, kept17_7, kept16_7, kept15_7, kept14_7, kept13_7, kept12_7, kept11_7, kept10_7, kept9_7, kept8_7, kept7_7, kept6_7, kept5_7, kept4_7, kept3_7, kept2_7, kept1_7, kept0_7]

/-- Argument 8 keeps its contents across @main. -/
theorem kept8 (V : Valuation τ sig (Elt F)) : after (ops (F := F)) V (Proc.devRef .tc main_arg8) = V (Proc.devRef .tc main_arg8) := by
  simp only [ops, after_append]
  rw [kept19_8, kept18_8, kept17_8, kept16_8, kept15_8, kept14_8, kept13_8, kept12_8, kept11_8, kept10_8, kept9_8, kept8_8, kept7_8, kept6_8, kept5_8, kept4_8, kept3_8, kept2_8, kept1_8, kept0_8]

/-- Argument 9 keeps its contents across @main. -/
theorem kept9 (V : Valuation τ sig (Elt F)) : after (ops (F := F)) V (Proc.devRef .tc main_arg9) = V (Proc.devRef .tc main_arg9) := by
  simp only [ops, after_append]
  rw [kept19_9, kept18_9, kept17_9, kept16_9, kept15_9, kept14_9, kept13_9, kept12_9, kept11_9, kept10_9, kept9_9, kept8_9, kept7_9, kept6_9, kept5_9, kept4_9, kept3_9, kept2_9, kept1_9, kept0_9]

/-- Argument 10 keeps its contents across @main. -/
theorem kept10 (V : Valuation τ sig (Elt F)) : after (ops (F := F)) V (Proc.devRef .tc main_arg10) = V (Proc.devRef .tc main_arg10) := by
  simp only [ops, after_append]
  rw [kept19_10, kept18_10, kept17_10, kept16_10, kept15_10, kept14_10, kept13_10, kept12_10, kept11_10, kept10_10, kept9_10, kept8_10, kept7_10, kept6_10, kept5_10, kept4_10, kept3_10, kept2_10, kept1_10, kept0_10]

/-- Argument 11 keeps its contents across @main. -/
theorem kept11 (V : Valuation τ sig (Elt F)) : after (ops (F := F)) V (Proc.devRef .tc main_arg11) = V (Proc.devRef .tc main_arg11) := by
  simp only [ops, after_append]
  rw [kept19_11, kept18_11, kept17_11, kept16_11, kept15_11, kept14_11, kept13_11, kept12_11, kept11_11, kept10_11, kept9_11, kept8_11, kept7_11, kept6_11, kept5_11, kept4_11, kept3_11, kept2_11, kept1_11, kept0_11]

/-- Argument 12 keeps its contents across @main. -/
theorem kept12 (V : Valuation τ sig (Elt F)) : after (ops (F := F)) V (Proc.devRef .tc main_arg12) = V (Proc.devRef .tc main_arg12) := by
  simp only [ops, after_append]
  rw [kept19_12, kept18_12, kept17_12, kept16_12, kept15_12, kept14_12, kept13_12, kept12_12, kept11_12, kept10_12, kept9_12, kept8_12, kept7_12, kept6_12, kept5_12, kept4_12, kept3_12, kept2_12, kept1_12, kept0_12]

/-- Argument 13 keeps its contents across @main. -/
theorem kept13 (V : Valuation τ sig (Elt F)) : after (ops (F := F)) V (Proc.devRef .tc main_arg13) = V (Proc.devRef .tc main_arg13) := by
  simp only [ops, after_append]
  rw [kept19_13, kept18_13, kept17_13, kept16_13, kept15_13, kept14_13, kept13_13, kept12_13, kept11_13, kept10_13, kept9_13, kept8_13, kept7_13, kept6_13, kept5_13, kept4_13, kept3_13, kept2_13, kept1_13, kept0_13]

end Cert.ReferenceIdeal.Parts

end
-- ==== Proof.RefStageA.lean ====
/-
  The reference's @main read part by part, boundaries 0 to 5: `V<K>` is what the buffers hold after parts 0 to K-1, run from any
  contents `W`.  Each buffer that a later part reads holds, at the boundary where that part starts, the stage of the Read
  module that names it, applied to `W`'s argument arrays: where the buffer is written, the part's operations give it as
  its operation's function of buffers already named; across a part that does not write it, it keeps its contents.  The
  argument arrays keep theirs throughout.
-/
import proofs.«116292_j712964571450_1_alg».proof.Proof.RefOps
import proofs.«116292_j712964571450_1_alg».proof.Proof.ReadP

set_option maxRecDepth 16384
set_option maxHeartbeats 4000000

noncomputable section

namespace Cert.ReferenceIdeal.Stage

open Cert.ReferenceIdeal Cert.ReferenceIdeal.Gen Cert.ReferenceIdeal.Parts Cert.ReferenceIdeal.ReadP
open Idealize.ShloMosaic Idealize.ShloMosaic.TcCoe Idealize.SL.Sem Idealize.ShloMosaic.StableHlo

variable (W : Valuation τ sig (Elt Ideal))

/-- The buffer contents the parts start from. -/
def V0 : Valuation τ sig (Elt Ideal) := W

/-- The buffer contents after parts 0 to 0. -/
def V1 : Valuation τ sig (Elt Ideal) := after (ops0 (F := Ideal)) (V0 W)

/-- The buffer contents after parts 0 to 1. -/
def V2 : Valuation τ sig (Elt Ideal) := after (ops1 (F := Ideal)) (V1 W)

/-- The buffer contents after parts 0 to 2. -/
def V3 : Valuation τ sig (Elt Ideal) := after (ops2 (F := Ideal)) (V2 W)

/-- The buffer contents after parts 0 to 3. -/
def V4 : Valuation τ sig (Elt Ideal) := after (ops3 (F := Ideal)) (V3 W)

/-- The buffer contents after parts 0 to 4. -/
def V5 : Valuation τ sig (Elt Ideal) := after (ops4 (F := Ideal)) (V4 W)

theorem s0_arg3 : V0 W (Proc.devRef .tc main_arg3) = W (Proc.devRef .tc main_arg3) := rfl

theorem s0_arg4 : V0 W (Proc.devRef .tc main_arg4) = W (Proc.devRef .tc main_arg4) := rfl

theorem s0_arg5 : V0 W (Proc.devRef .tc main_arg5) = W (Proc.devRef .tc main_arg5) := rfl

theorem s0_arg6 : V0 W (Proc.devRef .tc main_arg6) = W (Proc.devRef .tc main_arg6) := rfl

theorem s0_arg0 : V0 W (Proc.devRef .tc main_arg0) = W (Proc.devRef .tc main_arg0) := rfl

theorem s0_arg1 : V0 W (Proc.devRef .tc main_arg1) = W (Proc.devRef .tc main_arg1) := rfl

theorem s0_arg7 : V0 W (Proc.devRef .tc main_arg7) = W (Proc.devRef .tc main_arg7) := rfl

theorem s0_arg2 : V0 W (Proc.devRef .tc main_arg2) = W (Proc.devRef .tc main_arg2) := rfl

theorem s0_arg8 : V0 W (Proc.devRef .tc main_arg8) = W (Proc.devRef .tc main_arg8) := rfl

theorem s0_arg9 : V0 W (Proc.devRef .tc main_arg9) = W (Proc.devRef .tc main_arg9) := rfl

theorem s0_arg10 : V0 W (Proc.devRef .tc main_arg10) = W (Proc.devRef .tc main_arg10) := rfl

theorem s0_arg11 : V0 W (Proc.devRef .tc main_arg11) = W (Proc.devRef .tc main_arg11) := rfl

theorem s0_arg12 : V0 W (Proc.devRef .tc main_arg12) = W (Proc.devRef .tc main_arg12) := rfl

theorem s0_arg13 : V0 W (Proc.devRef .tc main_arg13) = W (Proc.devRef .tc main_arg13) := rfl

theorem s1_arg3 : V1 W (Proc.devRef .tc main_arg3) = W (Proc.devRef .tc main_arg3) :=
  (kept0_3 (V0 W)).trans (s0_arg3 W)

theorem s1_arg4 : V1 W (Proc.devRef .tc main_arg4) = W (Proc.devRef .tc main_arg4) :=
  (kept0_4 (V0 W)).trans (s0_arg4 W)

theorem s1_arg5 : V1 W (Proc.devRef .tc main_arg5) = W (Proc.devRef .tc main_arg5) :=
  (kept0_5 (V0 W)).trans (s0_arg5 W)

theorem s1_arg6 : V1 W (Proc.devRef .tc main_arg6) = W (Proc.devRef .tc main_arg6) :=
  (kept0_6 (V0 W)).trans (s0_arg6 W)

theorem s1_arg0 : V1 W (Proc.devRef .tc main_arg0) = W (Proc.devRef .tc main_arg0) :=
  (kept0_0 (V0 W)).trans (s0_arg0 W)

theorem s1_arg1 : V1 W (Proc.devRef .tc main_arg1) = W (Proc.devRef .tc main_arg1) :=
  (kept0_1 (V0 W)).trans (s0_arg1 W)

theorem s1_arg7 : V1 W (Proc.devRef .tc main_arg7) = W (Proc.devRef .tc main_arg7) :=
  (kept0_7 (V0 W)).trans (s0_arg7 W)

theorem s1_c_4 : V1 W (Proc.devRef .tc main_c_4) = val_main_c_4 (F := Ideal) := by
  show after (ops0 (F := Ideal)) (V0 W) (Proc.devRef .tc main_c_4) = _
  generalize hV : V0 W = V
  after_results_simp
  subst hV
  rfl

theorem s1_v50 : V1 W (Proc.devRef .tc main_v50) = val_main_v50 (F := Ideal) (W (Proc.devRef .tc main_arg7)) := by
  show after (ops0 (F := Ideal)) (V0 W) (Proc.devRef .tc main_v50) = _
  generalize hV : V0 W = V
  after_results_simp
  subst hV
  rw [s0_arg7 W]
  rfl

theorem s1_v52 : V1 W (Proc.devRef .tc main_v52) = val_main_v52 (F := Ideal) (W (Proc.devRef .tc main_arg7)) := by
  show after (ops0 (F := Ideal)) (V0 W) (Proc.devRef .tc main_v52) = _
  generalize hV : V0 W = V
  after_results_simp
  subst hV
  rw [s0_arg7 W]
  rfl

theorem s1_v44 : V1 W (Proc.devRef .tc main_v44) = val_main_v44 (F := Ideal) (W (Proc.devRef .tc main_arg3)) := by
  show after (ops0 (F := Ideal)) (V0 W) (Proc.devRef .tc main_v44) = _
  generalize hV : V0 W = V
  after_results_simp
  subst hV
  rw [s0_arg3 W]
  rfl

theorem s1_v46 : V1 W (Proc.devRef .tc main_v46) = val_main_v46 (F := Ideal) (W (Proc.devRef .tc main_arg4)) := by
  show after (ops0 (F := Ideal)) (V0 W) (Proc.devRef .tc main_v46) = _
  generalize hV : V0 W = V
  after_results_simp
  subst hV
  rw [s0_arg4 W]
  rfl

theorem s1_v48 : V1 W (Proc.devRef .tc main_v48) = val_main_v48 (F := Ideal) (W (Proc.devRef .tc main_arg5)) := by
  show after (ops0 (F := Ideal)) (V0 W) (Proc.devRef .tc main_v48) = _
  generalize hV : V0 W = V
  after_results_simp
  subst hV
  rw [s0_arg5 W]
  rfl

theorem s1_arg2 : V1 W (Proc.devRef .tc main_arg2) = W (Proc.devRef .tc main_arg2) :=
  (kept0_2 (V0 W)).trans (s0_arg2 W)

theorem s1_v1 : V1 W (Proc.devRef .tc main_v1) = val_main_v1 (F := Ideal) (W (Proc.devRef .tc main_arg3)) := by
  show after (ops0 (F := Ideal)) (V0 W) (Proc.devRef .tc main_v1) = _
  generalize hV : V0 W = V
  after_results_simp
  subst hV
  rw [s0_arg3 W]
  rfl

theorem s1_v3 : V1 W (Proc.devRef .tc main_v3) = val_main_v3 (F := Ideal) (W (Proc.devRef .tc main_arg4)) := by
  show after (ops0 (F := Ideal)) (V0 W) (Proc.devRef .tc main_v3) = _
  generalize hV : V0 W = V
  after_results_simp
  subst hV
  rw [s0_arg4 W]
  rfl

theorem s1_v5 : V1 W (Proc.devRef .tc main_v5) = val_main_v5 (F := Ideal) (W (Proc.devRef .tc main_arg5)) := by
  show after (ops0 (F := Ideal)) (V0 W) (Proc.devRef .tc main_v5) = _
  generalize hV : V0 W = V
  after_results_simp
  subst hV
  rw [s0_arg5 W]
  rfl

theorem s1_arg8 : V1 W (Proc.devRef .tc main_arg8) = W (Proc.devRef .tc main_arg8) :=
  (kept0_8 (V0 W)).trans (s0_arg8 W)

theorem s1_arg9 : V1 W (Proc.devRef .tc main_arg9) = W (Proc.devRef .tc main_arg9) :=
  (kept0_9 (V0 W)).trans (s0_arg9 W)

theorem s1_arg10 : V1 W (Proc.devRef .tc main_arg10) = W (Proc.devRef .tc main_arg10) :=
  (kept0_10 (V0 W)).trans (s0_arg10 W)

theorem s1_arg11 : V1 W (Proc.devRef .tc main_arg11) = W (Proc.devRef .tc main_arg11) :=
  (kept0_11 (V0 W)).trans (s0_arg11 W)

theorem s1_arg12 : V1 W (Proc.devRef .tc main_arg12) = W (Proc.devRef .tc main_arg12) :=
  (kept0_12 (V0 W)).trans (s0_arg12 W)

theorem s1_arg13 : V1 W (Proc.devRef .tc main_arg13) = W (Proc.devRef .tc main_arg13) :=
  (kept0_13 (V0 W)).trans (s0_arg13 W)

theorem s1_v42 : V1 W (Proc.devRef .tc main_v42) = val_main_v42 (F := Ideal) (W (Proc.devRef .tc main_arg0)) (W (Proc.devRef .tc main_arg1)) (W (Proc.devRef .tc main_arg3)) (W (Proc.devRef .tc main_arg4)) (W (Proc.devRef .tc main_arg5)) (W (Proc.devRef .tc main_arg6)) := by
  show after (ops0 (F := Ideal)) (V0 W) (Proc.devRef .tc main_v42) = _
  generalize hV : V0 W = V
  after_results_simp
  subst hV
  rw [s0_arg6 W, s0_arg0 W, s0_arg3 W, s0_arg4 W, s0_arg1 W, s0_arg5 W]
  rfl

theorem s2_arg3 : V2 W (Proc.devRef .tc main_arg3) = W (Proc.devRef .tc main_arg3) :=
  (kept1_3 (V1 W)).trans (s1_arg3 W)

theorem s2_arg4 : V2 W (Proc.devRef .tc main_arg4) = W (Proc.devRef .tc main_arg4) :=
  (kept1_4 (V1 W)).trans (s1_arg4 W)

theorem s2_arg5 : V2 W (Proc.devRef .tc main_arg5) = W (Proc.devRef .tc main_arg5) :=
  (kept1_5 (V1 W)).trans (s1_arg5 W)

theorem s2_arg6 : V2 W (Proc.devRef .tc main_arg6) = W (Proc.devRef .tc main_arg6) :=
  (kept1_6 (V1 W)).trans (s1_arg6 W)

theorem s2_arg0 : V2 W (Proc.devRef .tc main_arg0) = W (Proc.devRef .tc main_arg0) :=
  (kept1_0 (V1 W)).trans (s1_arg0 W)

theorem s2_arg1 : V2 W (Proc.devRef .tc main_arg1) = W (Proc.devRef .tc main_arg1) :=
  (kept1_1 (V1 W)).trans (s1_arg1 W)

theorem s2_arg7 : V2 W (Proc.devRef .tc main_arg7) = W (Proc.devRef .tc main_arg7) :=
  (kept1_7 (V1 W)).trans (s1_arg7 W)

theorem s2_arg2 : V2 W (Proc.devRef .tc main_arg2) = W (Proc.devRef .tc main_arg2) :=
  (kept1_2 (V1 W)).trans (s1_arg2 W)

theorem s2_v1 : V2 W (Proc.devRef .tc main_v1) = val_main_v1 (F := Ideal) (W (Proc.devRef .tc main_arg3)) := by
  show after (ops1 (F := Ideal)) (V1 W) (Proc.devRef .tc main_v1) = _
  generalize hV : V1 W = V
  after_results_simp
  subst hV
  exact s1_v1 W

theorem s2_v3 : V2 W (Proc.devRef .tc main_v3) = val_main_v3 (F := Ideal) (W (Proc.devRef .tc main_arg4)) := by
  show after (ops1 (F := Ideal)) (V1 W) (Proc.devRef .tc main_v3) = _
  generalize hV : V1 W = V
  after_results_simp
  subst hV
  exact s1_v3 W

theorem s2_v5 : V2 W (Proc.devRef .tc main_v5) = val_main_v5 (F := Ideal) (W (Proc.devRef .tc main_arg5)) := by
  show after (ops1 (F := Ideal)) (V1 W) (Proc.devRef .tc main_v5) = _
  generalize hV : V1 W = V
  after_results_simp
  subst hV
  exact s1_v5 W

theorem s2_arg8 : V2 W (Proc.devRef .tc main_arg8) = W (Proc.devRef .tc main_arg8) :=
  (kept1_8 (V1 W)).trans (s1_arg8 W)

theorem s2_v101 : V2 W (Proc.devRef .tc main_v101) = val_main_v101 (F := Ideal) := by
  show after (ops1 (F := Ideal)) (V1 W) (Proc.devRef .tc main_v101) = _
  generalize hV : V1 W = V
  after_results_simp
  subst hV
  rfl

theorem s2_v102 : V2 W (Proc.devRef .tc main_v102) = val_main_v102 (F := Ideal) (W (Proc.devRef .tc main_arg8)) := by
  show after (ops1 (F := Ideal)) (V1 W) (Proc.devRef .tc main_v102) = _
  generalize hV : V1 W = V
  after_results_simp
  subst hV
  rw [s1_arg8 W]
  rfl

theorem s2_v100 : V2 W (Proc.devRef .tc main_v100) = val_main_v100 (F := Ideal) := by
  show after (ops1 (F := Ideal)) (V1 W) (Proc.devRef .tc main_v100) = _
  generalize hV : V1 W = V
  after_results_simp
  subst hV
  rfl

theorem s2_v99 : V2 W (Proc.devRef .tc main_v99) = val_main_v99 (F := Ideal) (W (Proc.devRef .tc main_arg0)) (W (Proc.devRef .tc main_arg8)) := by
  show after (ops1 (F := Ideal)) (V1 W) (Proc.devRef .tc main_v99) = _
  generalize hV : V1 W = V
  after_results_simp
  subst hV
  rw [s1_arg8 W, s1_arg0 W]
  rfl

theorem s2_v81 : V2 W (Proc.devRef .tc main_v81) = val_main_v81 (F := Ideal) (W (Proc.devRef .tc main_arg3)) := by
  show after (ops1 (F := Ideal)) (V1 W) (Proc.devRef .tc main_v81) = _
  generalize hV : V1 W = V
  after_results_simp
  subst hV
  rw [s1_v1 W]
  rfl

theorem s2_v83 : V2 W (Proc.devRef .tc main_v83) = val_main_v83 (F := Ideal) (W (Proc.devRef .tc main_arg4)) := by
  show after (ops1 (F := Ideal)) (V1 W) (Proc.devRef .tc main_v83) = _
  generalize hV : V1 W = V
  after_results_simp
  subst hV
  rw [s1_v3 W]
  rfl

theorem s2_v85 : V2 W (Proc.devRef .tc main_v85) = val_main_v85 (F := Ideal) (W (Proc.devRef .tc main_arg5)) := by
  show after (ops1 (F := Ideal)) (V1 W) (Proc.devRef .tc main_v85) = _
  generalize hV : V1 W = V
  after_results_simp
  subst hV
  rw [s1_v5 W]
  rfl

theorem s2_arg9 : V2 W (Proc.devRef .tc main_arg9) = W (Proc.devRef .tc main_arg9) :=
  (kept1_9 (V1 W)).trans (s1_arg9 W)

theorem s2_arg10 : V2 W (Proc.devRef .tc main_arg10) = W (Proc.devRef .tc main_arg10) :=
  (kept1_10 (V1 W)).trans (s1_arg10 W)

theorem s2_arg11 : V2 W (Proc.devRef .tc main_arg11) = W (Proc.devRef .tc main_arg11) :=
  (kept1_11 (V1 W)).trans (s1_arg11 W)

theorem s2_arg12 : V2 W (Proc.devRef .tc main_arg12) = W (Proc.devRef .tc main_arg12) :=
  (kept1_12 (V1 W)).trans (s1_arg12 W)

theorem s2_arg13 : V2 W (Proc.devRef .tc main_arg13) = W (Proc.devRef .tc main_arg13) :=
  (kept1_13 (V1 W)).trans (s1_arg13 W)

theorem s2_v42 : V2 W (Proc.devRef .tc main_v42) = val_main_v42 (F := Ideal) (W (Proc.devRef .tc main_arg0)) (W (Proc.devRef .tc main_arg1)) (W (Proc.devRef .tc main_arg3)) (W (Proc.devRef .tc main_arg4)) (W (Proc.devRef .tc main_arg5)) (W (Proc.devRef .tc main_arg6)) := by
  show after (ops1 (F := Ideal)) (V1 W) (Proc.devRef .tc main_v42) = _
  generalize hV : V1 W = V
  after_results_simp
  subst hV
  exact s1_v42 W

theorem s2_v79 : V2 W (Proc.devRef .tc main_v79) = val_main_v79 (F := Ideal) (W (Proc.devRef .tc main_arg1)) (W (Proc.devRef .tc main_arg2)) (W (Proc.devRef .tc main_arg3)) (W (Proc.devRef .tc main_arg4)) (W (Proc.devRef .tc main_arg5)) (W (Proc.devRef .tc main_arg7)) := by
  show after (ops1 (F := Ideal)) (V1 W) (Proc.devRef .tc main_v79) = _
  generalize hV : V1 W = V
  after_results_simp
  subst hV
  rw [s1_v52 W, s1_arg1 W, s1_v50 W, s1_c_4 W, s1_v44 W, s1_v46 W, s1_arg2 W, s1_v48 W]
  rfl

theorem s3_arg3 : V3 W (Proc.devRef .tc main_arg3) = W (Proc.devRef .tc main_arg3) :=
  (kept2_3 (V2 W)).trans (s2_arg3 W)

theorem s3_arg4 : V3 W (Proc.devRef .tc main_arg4) = W (Proc.devRef .tc main_arg4) :=
  (kept2_4 (V2 W)).trans (s2_arg4 W)

theorem s3_arg5 : V3 W (Proc.devRef .tc main_arg5) = W (Proc.devRef .tc main_arg5) :=
  (kept2_5 (V2 W)).trans (s2_arg5 W)

theorem s3_arg6 : V3 W (Proc.devRef .tc main_arg6) = W (Proc.devRef .tc main_arg6) :=
  (kept2_6 (V2 W)).trans (s2_arg6 W)

theorem s3_arg0 : V3 W (Proc.devRef .tc main_arg0) = W (Proc.devRef .tc main_arg0) :=
  (kept2_0 (V2 W)).trans (s2_arg0 W)

theorem s3_arg1 : V3 W (Proc.devRef .tc main_arg1) = W (Proc.devRef .tc main_arg1) :=
  (kept2_1 (V2 W)).trans (s2_arg1 W)

theorem s3_arg7 : V3 W (Proc.devRef .tc main_arg7) = W (Proc.devRef .tc main_arg7) :=
  (kept2_7 (V2 W)).trans (s2_arg7 W)

theorem s3_arg2 : V3 W (Proc.devRef .tc main_arg2) = W (Proc.devRef .tc main_arg2) :=
  (kept2_2 (V2 W)).trans (s2_arg2 W)

theorem s3_v1 : V3 W (Proc.devRef .tc main_v1) = val_main_v1 (F := Ideal) (W (Proc.devRef .tc main_arg3)) := by
  show after (ops2 (F := Ideal)) (V2 W) (Proc.devRef .tc main_v1) = _
  generalize hV : V2 W = V
  after_results_simp
  subst hV
  exact s2_v1 W

theorem s3_v3 : V3 W (Proc.devRef .tc main_v3) = val_main_v3 (F := Ideal) (W (Proc.devRef .tc main_arg4)) := by
  show after (ops2 (F := Ideal)) (V2 W) (Proc.devRef .tc main_v3) = _
  generalize hV : V2 W = V
  after_results_simp
  subst hV
  exact s2_v3 W

theorem s3_v5 : V3 W (Proc.devRef .tc main_v5) = val_main_v5 (F := Ideal) (W (Proc.devRef .tc main_arg5)) := by
  show after (ops2 (F := Ideal)) (V2 W) (Proc.devRef .tc main_v5) = _
  generalize hV : V2 W = V
  after_results_simp
  subst hV
  exact s2_v5 W

theorem s3_arg8 : V3 W (Proc.devRef .tc main_arg8) = W (Proc.devRef .tc main_arg8) :=
  (kept2_8 (V2 W)).trans (s2_arg8 W)

theorem s3_arg9 : V3 W (Proc.devRef .tc main_arg9) = W (Proc.devRef .tc main_arg9) :=
  (kept2_9 (V2 W)).trans (s2_arg9 W)

theorem s3_arg10 : V3 W (Proc.devRef .tc main_arg10) = W (Proc.devRef .tc main_arg10) :=
  (kept2_10 (V2 W)).trans (s2_arg10 W)

theorem s3_v155 : V3 W (Proc.devRef .tc main_v155) = val_main_v155 (F := Ideal) (W (Proc.devRef .tc main_arg3)) := by
  show after (ops2 (F := Ideal)) (V2 W) (Proc.devRef .tc main_v155) = _
  generalize hV : V2 W = V
  after_results_simp
  subst hV
  rw [s2_v1 W]
  rfl

theorem s3_arg11 : V3 W (Proc.devRef .tc main_arg11) = W (Proc.devRef .tc main_arg11) :=
  (kept2_11 (V2 W)).trans (s2_arg11 W)

theorem s3_arg12 : V3 W (Proc.devRef .tc main_arg12) = W (Proc.devRef .tc main_arg12) :=
  (kept2_12 (V2 W)).trans (s2_arg12 W)

theorem s3_arg13 : V3 W (Proc.devRef .tc main_arg13) = W (Proc.devRef .tc main_arg13) :=
  (kept2_13 (V2 W)).trans (s2_arg13 W)

theorem s3_v153 : V3 W (Proc.devRef .tc main_v153) = val_main_v153 (F := Ideal) (W (Proc.devRef .tc main_arg0)) (W (Proc.devRef .tc main_arg1)) (W (Proc.devRef .tc main_arg3)) (W (Proc.devRef .tc main_arg4)) (W (Proc.devRef .tc main_arg5)) (W (Proc.devRef .tc main_arg9)) := by
  show after (ops2 (F := Ideal)) (V2 W) (Proc.devRef .tc main_v153) = _
  generalize hV : V2 W = V
  after_results_simp
  subst hV
  rw [s2_arg9 W, s2_arg1 W, s2_v1 W, s2_v3 W, s2_arg0 W, s2_v5 W]
  rfl

theorem s3_v42 : V3 W (Proc.devRef .tc main_v42) = val_main_v42 (F := Ideal) (W (Proc.devRef .tc main_arg0)) (W (Proc.devRef .tc main_arg1)) (W (Proc.devRef .tc main_arg3)) (W (Proc.devRef .tc main_arg4)) (W (Proc.devRef .tc main_arg5)) (W (Proc.devRef .tc main_arg6)) := by
  show after (ops2 (F := Ideal)) (V2 W) (Proc.devRef .tc main_v42) = _
  generalize hV : V2 W = V
  after_results_simp
  subst hV
  exact s2_v42 W

theorem s3_v79 : V3 W (Proc.devRef .tc main_v79) = val_main_v79 (F := Ideal) (W (Proc.devRef .tc main_arg1)) (W (Proc.devRef .tc main_arg2)) (W (Proc.devRef .tc main_arg3)) (W (Proc.devRef .tc main_arg4)) (W (Proc.devRef .tc main_arg5)) (W (Proc.devRef .tc main_arg7)) := by
  show after (ops2 (F := Ideal)) (V2 W) (Proc.devRef .tc main_v79) = _
  generalize hV : V2 W = V
  after_results_simp
  subst hV
  exact s2_v79 W

theorem s3_v116 : V3 W (Proc.devRef .tc main_v116) = val_main_v116 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg8)) := by
  show after (ops2 (F := Ideal)) (V2 W) (Proc.devRef .tc main_v116) = _
  generalize hV : V2 W = V
  after_results_simp
  subst hV
  rw [s2_v99 W, s2_v101 W, s2_v102 W, s2_v100 W, s2_v81 W, s2_v83 W, s2_arg2 W, s2_v85 W]
  rfl

theorem s4_arg3 : V4 W (Proc.devRef .tc main_arg3) = W (Proc.devRef .tc main_arg3) :=
  (kept3_3 (V3 W)).trans (s3_arg3 W)

theorem s4_arg4 : V4 W (Proc.devRef .tc main_arg4) = W (Proc.devRef .tc main_arg4) :=
  (kept3_4 (V3 W)).trans (s3_arg4 W)

theorem s4_arg5 : V4 W (Proc.devRef .tc main_arg5) = W (Proc.devRef .tc main_arg5) :=
  (kept3_5 (V3 W)).trans (s3_arg5 W)

theorem s4_arg6 : V4 W (Proc.devRef .tc main_arg6) = W (Proc.devRef .tc main_arg6) :=
  (kept3_6 (V3 W)).trans (s3_arg6 W)

theorem s4_arg0 : V4 W (Proc.devRef .tc main_arg0) = W (Proc.devRef .tc main_arg0) :=
  (kept3_0 (V3 W)).trans (s3_arg0 W)

theorem s4_arg7 : V4 W (Proc.devRef .tc main_arg7) = W (Proc.devRef .tc main_arg7) :=
  (kept3_7 (V3 W)).trans (s3_arg7 W)

theorem s4_arg2 : V4 W (Proc.devRef .tc main_arg2) = W (Proc.devRef .tc main_arg2) :=
  (kept3_2 (V3 W)).trans (s3_arg2 W)

theorem s4_v1 : V4 W (Proc.devRef .tc main_v1) = val_main_v1 (F := Ideal) (W (Proc.devRef .tc main_arg3)) := by
  show after (ops3 (F := Ideal)) (V3 W) (Proc.devRef .tc main_v1) = _
  generalize hV : V3 W = V
  after_results_simp
  subst hV
  exact s3_v1 W

theorem s4_v3 : V4 W (Proc.devRef .tc main_v3) = val_main_v3 (F := Ideal) (W (Proc.devRef .tc main_arg4)) := by
  show after (ops3 (F := Ideal)) (V3 W) (Proc.devRef .tc main_v3) = _
  generalize hV : V3 W = V
  after_results_simp
  subst hV
  exact s3_v3 W

theorem s4_v5 : V4 W (Proc.devRef .tc main_v5) = val_main_v5 (F := Ideal) (W (Proc.devRef .tc main_arg5)) := by
  show after (ops3 (F := Ideal)) (V3 W) (Proc.devRef .tc main_v5) = _
  generalize hV : V3 W = V
  after_results_simp
  subst hV
  exact s3_v5 W

theorem s4_arg8 : V4 W (Proc.devRef .tc main_arg8) = W (Proc.devRef .tc main_arg8) :=
  (kept3_8 (V3 W)).trans (s3_arg8 W)

theorem s4_arg9 : V4 W (Proc.devRef .tc main_arg9) = W (Proc.devRef .tc main_arg9) :=
  (kept3_9 (V3 W)).trans (s3_arg9 W)

theorem s4_arg10 : V4 W (Proc.devRef .tc main_arg10) = W (Proc.devRef .tc main_arg10) :=
  (kept3_10 (V3 W)).trans (s3_arg10 W)

theorem s4_arg11 : V4 W (Proc.devRef .tc main_arg11) = W (Proc.devRef .tc main_arg11) :=
  (kept3_11 (V3 W)).trans (s3_arg11 W)

theorem s4_v200 : V4 W (Proc.devRef .tc main_v200) = val_main_v200 (F := Ideal) (W (Proc.devRef .tc main_arg11)) := by
  show after (ops3 (F := Ideal)) (V3 W) (Proc.devRef .tc main_v200) = _
  generalize hV : V3 W = V
  after_results_simp
  subst hV
  rw [s3_arg11 W]
  rfl

theorem s4_v207 : V4 W (Proc.devRef .tc main_v207) = val_main_v207 (F := Ideal) (W (Proc.devRef .tc main_arg2)) (W (Proc.devRef .tc main_arg11)) := by
  show after (ops3 (F := Ideal)) (V3 W) (Proc.devRef .tc main_v207) = _
  generalize hV : V3 W = V
  after_results_simp
  subst hV
  rw [s3_arg2 W, s3_arg11 W]
  rfl

theorem s4_v192 : V4 W (Proc.devRef .tc main_v192) = val_main_v192 (F := Ideal) (W (Proc.devRef .tc main_arg3)) := by
  show after (ops3 (F := Ideal)) (V3 W) (Proc.devRef .tc main_v192) = _
  generalize hV : V3 W = V
  after_results_simp
  subst hV
  rw [s3_v1 W]
  rfl

theorem s4_v194 : V4 W (Proc.devRef .tc main_v194) = val_main_v194 (F := Ideal) (W (Proc.devRef .tc main_arg4)) := by
  show after (ops3 (F := Ideal)) (V3 W) (Proc.devRef .tc main_v194) = _
  generalize hV : V3 W = V
  after_results_simp
  subst hV
  rw [s3_v3 W]
  rfl

theorem s4_v196 : V4 W (Proc.devRef .tc main_v196) = val_main_v196 (F := Ideal) (W (Proc.devRef .tc main_arg5)) := by
  show after (ops3 (F := Ideal)) (V3 W) (Proc.devRef .tc main_v196) = _
  generalize hV : V3 W = V
  after_results_simp
  subst hV
  rw [s3_v5 W]
  rfl

theorem s4_arg12 : V4 W (Proc.devRef .tc main_arg12) = W (Proc.devRef .tc main_arg12) :=
  (kept3_12 (V3 W)).trans (s3_arg12 W)

theorem s4_arg13 : V4 W (Proc.devRef .tc main_arg13) = W (Proc.devRef .tc main_arg13) :=
  (kept3_13 (V3 W)).trans (s3_arg13 W)

theorem s4_v153 : V4 W (Proc.devRef .tc main_v153) = val_main_v153 (F := Ideal) (W (Proc.devRef .tc main_arg0)) (W (Proc.devRef .tc main_arg1)) (W (Proc.devRef .tc main_arg3)) (W (Proc.devRef .tc main_arg4)) (W (Proc.devRef .tc main_arg5)) (W (Proc.devRef .tc main_arg9)) := by
  show after (ops3 (F := Ideal)) (V3 W) (Proc.devRef .tc main_v153) = _
  generalize hV : V3 W = V
  after_results_simp
  subst hV
  exact s3_v153 W

theorem s4_v42 : V4 W (Proc.devRef .tc main_v42) = val_main_v42 (F := Ideal) (W (Proc.devRef .tc main_arg0)) (W (Proc.devRef .tc main_arg1)) (W (Proc.devRef .tc main_arg3)) (W (Proc.devRef .tc main_arg4)) (W (Proc.devRef .tc main_arg5)) (W (Proc.devRef .tc main_arg6)) := by
  show after (ops3 (F := Ideal)) (V3 W) (Proc.devRef .tc main_v42) = _
  generalize hV : V3 W = V
  after_results_simp
  subst hV
  exact s3_v42 W

theorem s4_v190 : V4 W (Proc.devRef .tc main_v190) = val_main_v190 (F := Ideal) (W (Proc.devRef .tc main_arg1)) (W (Proc.devRef .tc main_arg2)) (W (Proc.devRef .tc main_arg3)) (W (Proc.devRef .tc main_arg4)) (W (Proc.devRef .tc main_arg5)) (W (Proc.devRef .tc main_arg10)) := by
  show after (ops3 (F := Ideal)) (V3 W) (Proc.devRef .tc main_v190) = _
  generalize hV : V3 W = V
  after_results_simp
  subst hV
  rw [s3_arg10 W, s3_arg2 W, s3_v155 W, s3_v3 W, s3_arg1 W, s3_v5 W]
  rfl

theorem s4_v79 : V4 W (Proc.devRef .tc main_v79) = val_main_v79 (F := Ideal) (W (Proc.devRef .tc main_arg1)) (W (Proc.devRef .tc main_arg2)) (W (Proc.devRef .tc main_arg3)) (W (Proc.devRef .tc main_arg4)) (W (Proc.devRef .tc main_arg5)) (W (Proc.devRef .tc main_arg7)) := by
  show after (ops3 (F := Ideal)) (V3 W) (Proc.devRef .tc main_v79) = _
  generalize hV : V3 W = V
  after_results_simp
  subst hV
  exact s3_v79 W

theorem s4_v116 : V4 W (Proc.devRef .tc main_v116) = val_main_v116 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg8)) := by
  show after (ops3 (F := Ideal)) (V3 W) (Proc.devRef .tc main_v116) = _
  generalize hV : V3 W = V
  after_results_simp
  subst hV
  exact s3_v116 W

theorem s5_arg3 : V5 W (Proc.devRef .tc main_arg3) = W (Proc.devRef .tc main_arg3) :=
  (kept4_3 (V4 W)).trans (s4_arg3 W)

theorem s5_arg4 : V5 W (Proc.devRef .tc main_arg4) = W (Proc.devRef .tc main_arg4) :=
  (kept4_4 (V4 W)).trans (s4_arg4 W)

theorem s5_arg5 : V5 W (Proc.devRef .tc main_arg5) = W (Proc.devRef .tc main_arg5) :=
  (kept4_5 (V4 W)).trans (s4_arg5 W)

theorem s5_arg6 : V5 W (Proc.devRef .tc main_arg6) = W (Proc.devRef .tc main_arg6) :=
  (kept4_6 (V4 W)).trans (s4_arg6 W)

theorem s5_arg0 : V5 W (Proc.devRef .tc main_arg0) = W (Proc.devRef .tc main_arg0) :=
  (kept4_0 (V4 W)).trans (s4_arg0 W)

theorem s5_arg7 : V5 W (Proc.devRef .tc main_arg7) = W (Proc.devRef .tc main_arg7) :=
  (kept4_7 (V4 W)).trans (s4_arg7 W)

theorem s5_arg2 : V5 W (Proc.devRef .tc main_arg2) = W (Proc.devRef .tc main_arg2) :=
  (kept4_2 (V4 W)).trans (s4_arg2 W)

theorem s5_v1 : V5 W (Proc.devRef .tc main_v1) = val_main_v1 (F := Ideal) (W (Proc.devRef .tc main_arg3)) := by
  show after (ops4 (F := Ideal)) (V4 W) (Proc.devRef .tc main_v1) = _
  generalize hV : V4 W = V
  after_results_simp
  subst hV
  exact s4_v1 W

theorem s5_v3 : V5 W (Proc.devRef .tc main_v3) = val_main_v3 (F := Ideal) (W (Proc.devRef .tc main_arg4)) := by
  show after (ops4 (F := Ideal)) (V4 W) (Proc.devRef .tc main_v3) = _
  generalize hV : V4 W = V
  after_results_simp
  subst hV
  exact s4_v3 W

theorem s5_v5 : V5 W (Proc.devRef .tc main_v5) = val_main_v5 (F := Ideal) (W (Proc.devRef .tc main_arg5)) := by
  show after (ops4 (F := Ideal)) (V4 W) (Proc.devRef .tc main_v5) = _
  generalize hV : V4 W = V
  after_results_simp
  subst hV
  exact s4_v5 W

theorem s5_arg8 : V5 W (Proc.devRef .tc main_arg8) = W (Proc.devRef .tc main_arg8) :=
  (kept4_8 (V4 W)).trans (s4_arg8 W)

theorem s5_arg9 : V5 W (Proc.devRef .tc main_arg9) = W (Proc.devRef .tc main_arg9) :=
  (kept4_9 (V4 W)).trans (s4_arg9 W)

theorem s5_arg10 : V5 W (Proc.devRef .tc main_arg10) = W (Proc.devRef .tc main_arg10) :=
  (kept4_10 (V4 W)).trans (s4_arg10 W)

theorem s5_arg11 : V5 W (Proc.devRef .tc main_arg11) = W (Proc.devRef .tc main_arg11) :=
  (kept4_11 (V4 W)).trans (s4_arg11 W)

theorem s5_arg12 : V5 W (Proc.devRef .tc main_arg12) = W (Proc.devRef .tc main_arg12) :=
  (kept4_12 (V4 W)).trans (s4_arg12 W)

theorem s5_v256 : V5 W (Proc.devRef .tc main_v256) = val_main_v256 (F := Ideal) (W (Proc.devRef .tc main_arg0)) (W (Proc.devRef .tc main_arg12)) := by
  show after (ops4 (F := Ideal)) (V4 W) (Proc.devRef .tc main_v256) = _
  generalize hV : V4 W = V
  after_results_simp
  subst hV
  rw [s4_arg12 W, s4_arg0 W]
  rfl

theorem s5_v257 : V5 W (Proc.devRef .tc main_v257) = val_main_v257 (F := Ideal) (W (Proc.devRef .tc main_arg3)) := by
  show after (ops4 (F := Ideal)) (V4 W) (Proc.devRef .tc main_v257) = _
  generalize hV : V4 W = V
  after_results_simp
  subst hV
  rw [s4_v1 W]
  rfl

theorem s5_v231 : V5 W (Proc.devRef .tc main_v231) = val_main_v231 (F := Ideal) (W (Proc.devRef .tc main_arg4)) := by
  show after (ops4 (F := Ideal)) (V4 W) (Proc.devRef .tc main_v231) = _
  generalize hV : V4 W = V
  after_results_simp
  subst hV
  rw [s4_v3 W]
  rfl

theorem s5_v233 : V5 W (Proc.devRef .tc main_v233) = val_main_v233 (F := Ideal) (W (Proc.devRef .tc main_arg5)) := by
  show after (ops4 (F := Ideal)) (V4 W) (Proc.devRef .tc main_v233) = _
  generalize hV : V4 W = V
  after_results_simp
  subst hV
  rw [s4_v5 W]
  rfl

theorem s5_arg13 : V5 W (Proc.devRef .tc main_arg13) = W (Proc.devRef .tc main_arg13) :=
  (kept4_13 (V4 W)).trans (s4_arg13 W)

theorem s5_v153 : V5 W (Proc.devRef .tc main_v153) = val_main_v153 (F := Ideal) (W (Proc.devRef .tc main_arg0)) (W (Proc.devRef .tc main_arg1)) (W (Proc.devRef .tc main_arg3)) (W (Proc.devRef .tc main_arg4)) (W (Proc.devRef .tc main_arg5)) (W (Proc.devRef .tc main_arg9)) := by
  show after (ops4 (F := Ideal)) (V4 W) (Proc.devRef .tc main_v153) = _
  generalize hV : V4 W = V
  after_results_simp
  subst hV
  exact s4_v153 W

theorem s5_v227 : V5 W (Proc.devRef .tc main_v227) = val_main_v227 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg11)) := by
  show after (ops4 (F := Ideal)) (V4 W) (Proc.devRef .tc main_v227) = _
  generalize hV : V4 W = V
  after_results_simp
  subst hV
  rw [s4_v200 W, s4_v207 W, s4_v192 W, s4_v194 W, s4_arg0 W, s4_v196 W]
  rfl

theorem s5_v42 : V5 W (Proc.devRef .tc main_v42) = val_main_v42 (F := Ideal) (W (Proc.devRef .tc main_arg0)) (W (Proc.devRef .tc main_arg1)) (W (Proc.devRef .tc main_arg3)) (W (Proc.devRef .tc main_arg4)) (W (Proc.devRef .tc main_arg5)) (W (Proc.devRef .tc main_arg6)) := by
  show after (ops4 (F := Ideal)) (V4 W) (Proc.devRef .tc main_v42) = _
  generalize hV : V4 W = V
  after_results_simp
  subst hV
  exact s4_v42 W

theorem s5_v190 : V5 W (Proc.devRef .tc main_v190) = val_main_v190 (F := Ideal) (W (Proc.devRef .tc main_arg1)) (W (Proc.devRef .tc main_arg2)) (W (Proc.devRef .tc main_arg3)) (W (Proc.devRef .tc main_arg4)) (W (Proc.devRef .tc main_arg5)) (W (Proc.devRef .tc main_arg10)) := by
  show after (ops4 (F := Ideal)) (V4 W) (Proc.devRef .tc main_v190) = _
  generalize hV : V4 W = V
  after_results_simp
  subst hV
  exact s4_v190 W

theorem s5_v79 : V5 W (Proc.devRef .tc main_v79) = val_main_v79 (F := Ideal) (W (Proc.devRef .tc main_arg1)) (W (Proc.devRef .tc main_arg2)) (W (Proc.devRef .tc main_arg3)) (W (Proc.devRef .tc main_arg4)) (W (Proc.devRef .tc main_arg5)) (W (Proc.devRef .tc main_arg7)) := by
  show after (ops4 (F := Ideal)) (V4 W) (Proc.devRef .tc main_v79) = _
  generalize hV : V4 W = V
  after_results_simp
  subst hV
  exact s4_v79 W

theorem s5_v116 : V5 W (Proc.devRef .tc main_v116) = val_main_v116 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg8)) := by
  show after (ops4 (F := Ideal)) (V4 W) (Proc.devRef .tc main_v116) = _
  generalize hV : V4 W = V
  after_results_simp
  subst hV
  exact s4_v116 W

end Cert.ReferenceIdeal.Stage

end
-- ==== Proof.RefStageB.lean ====
/-
  The reference's @main read part by part, boundaries 6 to 10: `V<K>` is what the buffers hold after parts 0 to K-1, run from any
  contents `W`.  Each buffer that a later part reads holds, at the boundary where that part starts, the stage of the Read
  module that names it, applied to `W`'s argument arrays: where the buffer is written, the part's operations give it as
  its operation's function of buffers already named; across a part that does not write it, it keeps its contents.  The
  argument arrays keep theirs throughout.
-/
import proofs.«116292_j712964571450_1_alg».proof.Proof.RefStageA

set_option maxRecDepth 16384
set_option maxHeartbeats 4000000

noncomputable section

namespace Cert.ReferenceIdeal.Stage

open Cert.ReferenceIdeal Cert.ReferenceIdeal.Gen Cert.ReferenceIdeal.Parts Cert.ReferenceIdeal.ReadP
open Idealize.ShloMosaic Idealize.ShloMosaic.TcCoe Idealize.SL.Sem Idealize.ShloMosaic.StableHlo

variable (W : Valuation τ sig (Elt Ideal))

/-- The buffer contents after parts 0 to 5. -/
def V6 : Valuation τ sig (Elt Ideal) := after (ops5 (F := Ideal)) (V5 W)

/-- The buffer contents after parts 0 to 6. -/
def V7 : Valuation τ sig (Elt Ideal) := after (ops6 (F := Ideal)) (V6 W)

/-- The buffer contents after parts 0 to 7. -/
def V8 : Valuation τ sig (Elt Ideal) := after (ops7 (F := Ideal)) (V7 W)

/-- The buffer contents after parts 0 to 8. -/
def V9 : Valuation τ sig (Elt Ideal) := after (ops8 (F := Ideal)) (V8 W)

/-- The buffer contents after parts 0 to 9. -/
def V10 : Valuation τ sig (Elt Ideal) := after (ops9 (F := Ideal)) (V9 W)

theorem s6_arg3 : V6 W (Proc.devRef .tc main_arg3) = W (Proc.devRef .tc main_arg3) :=
  (kept5_3 (V5 W)).trans (s5_arg3 W)

theorem s6_arg4 : V6 W (Proc.devRef .tc main_arg4) = W (Proc.devRef .tc main_arg4) :=
  (kept5_4 (V5 W)).trans (s5_arg4 W)

theorem s6_arg5 : V6 W (Proc.devRef .tc main_arg5) = W (Proc.devRef .tc main_arg5) :=
  (kept5_5 (V5 W)).trans (s5_arg5 W)

theorem s6_arg6 : V6 W (Proc.devRef .tc main_arg6) = W (Proc.devRef .tc main_arg6) :=
  (kept5_6 (V5 W)).trans (s5_arg6 W)

theorem s6_arg7 : V6 W (Proc.devRef .tc main_arg7) = W (Proc.devRef .tc main_arg7) :=
  (kept5_7 (V5 W)).trans (s5_arg7 W)

theorem s6_arg8 : V6 W (Proc.devRef .tc main_arg8) = W (Proc.devRef .tc main_arg8) :=
  (kept5_8 (V5 W)).trans (s5_arg8 W)

theorem s6_arg9 : V6 W (Proc.devRef .tc main_arg9) = W (Proc.devRef .tc main_arg9) :=
  (kept5_9 (V5 W)).trans (s5_arg9 W)

theorem s6_arg10 : V6 W (Proc.devRef .tc main_arg10) = W (Proc.devRef .tc main_arg10) :=
  (kept5_10 (V5 W)).trans (s5_arg10 W)

theorem s6_arg11 : V6 W (Proc.devRef .tc main_arg11) = W (Proc.devRef .tc main_arg11) :=
  (kept5_11 (V5 W)).trans (s5_arg11 W)

theorem s6_arg12 : V6 W (Proc.devRef .tc main_arg12) = W (Proc.devRef .tc main_arg12) :=
  (kept5_12 (V5 W)).trans (s5_arg12 W)

theorem s6_arg13 : V6 W (Proc.devRef .tc main_arg13) = W (Proc.devRef .tc main_arg13) :=
  (kept5_13 (V5 W)).trans (s5_arg13 W)

theorem s6_v308 : V6 W (Proc.devRef .tc main_v308) = val_main_v308 (F := Ideal) := by
  show after (ops5 (F := Ideal)) (V5 W) (Proc.devRef .tc main_v308) = _
  generalize hV : V5 W = V
  after_results_simp
  subst hV
  rfl

theorem s6_v42 : V6 W (Proc.devRef .tc main_v42) = val_main_v42 (F := Ideal) (W (Proc.devRef .tc main_arg0)) (W (Proc.devRef .tc main_arg1)) (W (Proc.devRef .tc main_arg3)) (W (Proc.devRef .tc main_arg4)) (W (Proc.devRef .tc main_arg5)) (W (Proc.devRef .tc main_arg6)) := by
  show after (ops5 (F := Ideal)) (V5 W) (Proc.devRef .tc main_v42) = _
  generalize hV : V5 W = V
  after_results_simp
  subst hV
  exact s5_v42 W

theorem s6_v190 : V6 W (Proc.devRef .tc main_v190) = val_main_v190 (F := Ideal) (W (Proc.devRef .tc main_arg1)) (W (Proc.devRef .tc main_arg2)) (W (Proc.devRef .tc main_arg3)) (W (Proc.devRef .tc main_arg4)) (W (Proc.devRef .tc main_arg5)) (W (Proc.devRef .tc main_arg10)) := by
  show after (ops5 (F := Ideal)) (V5 W) (Proc.devRef .tc main_v190) = _
  generalize hV : V5 W = V
  after_results_simp
  subst hV
  exact s5_v190 W

theorem s6_v79 : V6 W (Proc.devRef .tc main_v79) = val_main_v79 (F := Ideal) (W (Proc.devRef .tc main_arg1)) (W (Proc.devRef .tc main_arg2)) (W (Proc.devRef .tc main_arg3)) (W (Proc.devRef .tc main_arg4)) (W (Proc.devRef .tc main_arg5)) (W (Proc.devRef .tc main_arg7)) := by
  show after (ops5 (F := Ideal)) (V5 W) (Proc.devRef .tc main_v79) = _
  generalize hV : V5 W = V
  after_results_simp
  subst hV
  exact s5_v79 W

theorem s6_v116 : V6 W (Proc.devRef .tc main_v116) = val_main_v116 (F := Ideal) (W (Proc.devRef .tc main_arg0)) (W (Proc.devRef .tc main_arg2)) (W (Proc.devRef .tc main_arg3)) (W (Proc.devRef .tc main_arg4)) (W (Proc.devRef .tc main_arg5)) (W (Proc.devRef .tc main_arg8)) := by
  show after (ops5 (F := Ideal)) (V5 W) (Proc.devRef .tc main_v116) = _
  generalize hV : V5 W = V
  after_results_simp
  subst hV
  exact s5_v116 W

theorem s6_v301 : V6 W (Proc.devRef .tc main_v301) = val_main_v301 (F := Ideal) (W (Proc.devRef .tc main_arg2)) (W (Proc.devRef .tc main_arg3)) (W (Proc.devRef .tc main_arg4)) (W (Proc.devRef .tc main_arg5)) (W (Proc.devRef .tc main_arg13)) := by
  show after (ops5 (F := Ideal)) (V5 W) (Proc.devRef .tc main_v301) = _
  generalize hV : V5 W = V
  after_results_simp
  subst hV
  rw [s5_arg13 W, s5_arg2 W, s5_v1 W, s5_v3 W, s5_v5 W]
  rfl

theorem s6_v307 : V6 W (Proc.devRef .tc main_v307) = val_main_v307 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg9)) (W (Proc.devRef .tc main_arg11)) (W (Proc.devRef .tc main_arg12)) := by
  show after (ops5 (F := Ideal)) (V5 W) (Proc.devRef .tc main_v307) = _
  generalize hV : V5 W = V
  after_results_simp
  subst hV
  rw [s5_v153 W, s5_v227 W, s5_v256 W, s5_v257 W, s5_v231 W, s5_arg0 W, s5_v233 W]
  rfl

theorem s7_arg3 : V7 W (Proc.devRef .tc main_arg3) = W (Proc.devRef .tc main_arg3) :=
  (kept6_3 (V6 W)).trans (s6_arg3 W)

theorem s7_arg4 : V7 W (Proc.devRef .tc main_arg4) = W (Proc.devRef .tc main_arg4) :=
  (kept6_4 (V6 W)).trans (s6_arg4 W)

theorem s7_arg5 : V7 W (Proc.devRef .tc main_arg5) = W (Proc.devRef .tc main_arg5) :=
  (kept6_5 (V6 W)).trans (s6_arg5 W)

theorem s7_arg6 : V7 W (Proc.devRef .tc main_arg6) = W (Proc.devRef .tc main_arg6) :=
  (kept6_6 (V6 W)).trans (s6_arg6 W)

theorem s7_arg7 : V7 W (Proc.devRef .tc main_arg7) = W (Proc.devRef .tc main_arg7) :=
  (kept6_7 (V6 W)).trans (s6_arg7 W)

theorem s7_arg8 : V7 W (Proc.devRef .tc main_arg8) = W (Proc.devRef .tc main_arg8) :=
  (kept6_8 (V6 W)).trans (s6_arg8 W)

theorem s7_arg9 : V7 W (Proc.devRef .tc main_arg9) = W (Proc.devRef .tc main_arg9) :=
  (kept6_9 (V6 W)).trans (s6_arg9 W)

theorem s7_arg10 : V7 W (Proc.devRef .tc main_arg10) = W (Proc.devRef .tc main_arg10) :=
  (kept6_10 (V6 W)).trans (s6_arg10 W)

theorem s7_arg11 : V7 W (Proc.devRef .tc main_arg11) = W (Proc.devRef .tc main_arg11) :=
  (kept6_11 (V6 W)).trans (s6_arg11 W)

theorem s7_arg12 : V7 W (Proc.devRef .tc main_arg12) = W (Proc.devRef .tc main_arg12) :=
  (kept6_12 (V6 W)).trans (s6_arg12 W)

theorem s7_arg13 : V7 W (Proc.devRef .tc main_arg13) = W (Proc.devRef .tc main_arg13) :=
  (kept6_13 (V6 W)).trans (s6_arg13 W)

theorem s7_v359 : V7 W (Proc.devRef .tc main_v359) = val_main_v359 (F := Ideal) (W (Proc.devRef .tc main_arg4)) := by
  show after (ops6 (F := Ideal)) (V6 W) (Proc.devRef .tc main_v359) = _
  generalize hV : V6 W = V
  after_results_simp
  subst hV
  rw [s6_arg4 W]
  rfl

theorem s7_v358 : V7 W (Proc.devRef .tc main_v358) = val_main_v358 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg9)) (W (Proc.devRef .tc main_arg11)) (W (Proc.devRef .tc main_arg12)) := by
  show after (ops6 (F := Ideal)) (V6 W) (Proc.devRef .tc main_v358) = _
  generalize hV : V6 W = V
  after_results_simp
  subst hV
  rw [s6_arg6 W, s6_v307 W, s6_arg3 W]
  rfl

theorem s7_v333 : V7 W (Proc.devRef .tc main_v333) = val_main_v333 (F := Ideal) (W (Proc.devRef .tc main_arg5)) := by
  show after (ops6 (F := Ideal)) (V6 W) (Proc.devRef .tc main_v333) = _
  generalize hV : V6 W = V
  after_results_simp
  subst hV
  rw [s6_arg5 W]
  rfl

theorem s7_v320 : V7 W (Proc.devRef .tc main_v320) = val_main_v320 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg10)) := by
  show after (ops6 (F := Ideal)) (V6 W) (Proc.devRef .tc main_v320) = _
  generalize hV : V6 W = V
  after_results_simp
  subst hV
  rw [s6_v308 W, s6_v42 W, s6_v190 W]
  rfl

theorem s7_v323 : V7 W (Proc.devRef .tc main_v323) = val_main_v323 (F := Ideal) (W (Proc.devRef .tc main_arg3)) := by
  show after (ops6 (F := Ideal)) (V6 W) (Proc.devRef .tc main_v323) = _
  generalize hV : V6 W = V
  after_results_simp
  subst hV
  rw [s6_arg3 W]
  rfl

theorem s7_v325 : V7 W (Proc.devRef .tc main_v325) = val_main_v325 (F := Ideal) (W (Proc.devRef .tc main_arg4)) := by
  show after (ops6 (F := Ideal)) (V6 W) (Proc.devRef .tc main_v325) = _
  generalize hV : V6 W = V
  after_results_simp
  subst hV
  rw [s6_arg4 W]
  rfl

theorem s7_v327 : V7 W (Proc.devRef .tc main_v327) = val_main_v327 (F := Ideal) (W (Proc.devRef .tc main_arg5)) := by
  show after (ops6 (F := Ideal)) (V6 W) (Proc.devRef .tc main_v327) = _
  generalize hV : V6 W = V
  after_results_simp
  subst hV
  rw [s6_arg5 W]
  rfl

theorem s7_v321 : V7 W (Proc.devRef .tc main_v321) = val_main_v321 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg7)) (W (Proc.devRef .tc main_arg8)) (W (Proc.devRef .tc main_arg13)) := by
  show after (ops6 (F := Ideal)) (V6 W) (Proc.devRef .tc main_v321) = _
  generalize hV : V6 W = V
  after_results_simp
  subst hV
  rw [s6_v79 W, s6_v116 W, s6_v301 W]
  rfl

theorem s7_v319 : V7 W (Proc.devRef .tc main_v319) = val_main_v319 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg9)) (W (Proc.devRef .tc main_arg11)) (W (Proc.devRef .tc main_arg12)) := by
  show after (ops6 (F := Ideal)) (V6 W) (Proc.devRef .tc main_v319) = _
  generalize hV : V6 W = V
  after_results_simp
  subst hV
  rw [s6_v307 W]
  rfl

theorem s8_arg3 : V8 W (Proc.devRef .tc main_arg3) = W (Proc.devRef .tc main_arg3) :=
  (kept7_3 (V7 W)).trans (s7_arg3 W)

theorem s8_arg4 : V8 W (Proc.devRef .tc main_arg4) = W (Proc.devRef .tc main_arg4) :=
  (kept7_4 (V7 W)).trans (s7_arg4 W)

theorem s8_arg5 : V8 W (Proc.devRef .tc main_arg5) = W (Proc.devRef .tc main_arg5) :=
  (kept7_5 (V7 W)).trans (s7_arg5 W)

theorem s8_arg6 : V8 W (Proc.devRef .tc main_arg6) = W (Proc.devRef .tc main_arg6) :=
  (kept7_6 (V7 W)).trans (s7_arg6 W)

theorem s8_arg7 : V8 W (Proc.devRef .tc main_arg7) = W (Proc.devRef .tc main_arg7) :=
  (kept7_7 (V7 W)).trans (s7_arg7 W)

theorem s8_arg8 : V8 W (Proc.devRef .tc main_arg8) = W (Proc.devRef .tc main_arg8) :=
  (kept7_8 (V7 W)).trans (s7_arg8 W)

theorem s8_arg9 : V8 W (Proc.devRef .tc main_arg9) = W (Proc.devRef .tc main_arg9) :=
  (kept7_9 (V7 W)).trans (s7_arg9 W)

theorem s8_arg10 : V8 W (Proc.devRef .tc main_arg10) = W (Proc.devRef .tc main_arg10) :=
  (kept7_10 (V7 W)).trans (s7_arg10 W)

theorem s8_arg11 : V8 W (Proc.devRef .tc main_arg11) = W (Proc.devRef .tc main_arg11) :=
  (kept7_11 (V7 W)).trans (s7_arg11 W)

theorem s8_arg12 : V8 W (Proc.devRef .tc main_arg12) = W (Proc.devRef .tc main_arg12) :=
  (kept7_12 (V7 W)).trans (s7_arg12 W)

theorem s8_arg13 : V8 W (Proc.devRef .tc main_arg13) = W (Proc.devRef .tc main_arg13) :=
  (kept7_13 (V7 W)).trans (s7_arg13 W)

theorem s8_v320 : V8 W (Proc.devRef .tc main_v320) = val_main_v320 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg10)) := by
  show after (ops7 (F := Ideal)) (V7 W) (Proc.devRef .tc main_v320) = _
  generalize hV : V7 W = V
  after_results_simp
  subst hV
  exact s7_v320 W

theorem s8_v323 : V8 W (Proc.devRef .tc main_v323) = val_main_v323 (F := Ideal) (W (Proc.devRef .tc main_arg3)) := by
  show after (ops7 (F := Ideal)) (V7 W) (Proc.devRef .tc main_v323) = _
  generalize hV : V7 W = V
  after_results_simp
  subst hV
  exact s7_v323 W

theorem s8_v325 : V8 W (Proc.devRef .tc main_v325) = val_main_v325 (F := Ideal) (W (Proc.devRef .tc main_arg4)) := by
  show after (ops7 (F := Ideal)) (V7 W) (Proc.devRef .tc main_v325) = _
  generalize hV : V7 W = V
  after_results_simp
  subst hV
  exact s7_v325 W

theorem s8_v327 : V8 W (Proc.devRef .tc main_v327) = val_main_v327 (F := Ideal) (W (Proc.devRef .tc main_arg5)) := by
  show after (ops7 (F := Ideal)) (V7 W) (Proc.devRef .tc main_v327) = _
  generalize hV : V7 W = V
  after_results_simp
  subst hV
  exact s7_v327 W

theorem s8_v321 : V8 W (Proc.devRef .tc main_v321) = val_main_v321 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg7)) (W (Proc.devRef .tc main_arg8)) (W (Proc.devRef .tc main_arg13)) := by
  show after (ops7 (F := Ideal)) (V7 W) (Proc.devRef .tc main_v321) = _
  generalize hV : V7 W = V
  after_results_simp
  subst hV
  exact s7_v321 W

theorem s8_v409 : V8 W (Proc.devRef .tc main_v409) = val_main_v409 (F := Ideal) (W (Proc.devRef .tc main_arg8)) := by
  show after (ops7 (F := Ideal)) (V7 W) (Proc.devRef .tc main_v409) = _
  generalize hV : V7 W = V
  after_results_simp
  subst hV
  rw [s7_arg8 W]
  rfl

theorem s8_v412 : V8 W (Proc.devRef .tc main_v412) = val_main_v412 (F := Ideal) := by
  show after (ops7 (F := Ideal)) (V7 W) (Proc.devRef .tc main_v412) = _
  generalize hV : V7 W = V
  after_results_simp
  subst hV
  rfl

theorem s8_v319 : V8 W (Proc.devRef .tc main_v319) = val_main_v319 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg9)) (W (Proc.devRef .tc main_arg11)) (W (Proc.devRef .tc main_arg12)) := by
  show after (ops7 (F := Ideal)) (V7 W) (Proc.devRef .tc main_v319) = _
  generalize hV : V7 W = V
  after_results_simp
  subst hV
  exact s7_v319 W

theorem s8_v411 : V8 W (Proc.devRef .tc main_v411) = val_main_v411 (F := Ideal) (W (Proc.devRef .tc main_arg8)) := by
  show after (ops7 (F := Ideal)) (V7 W) (Proc.devRef .tc main_v411) = _
  generalize hV : V7 W = V
  after_results_simp
  subst hV
  rw [s7_arg8 W]
  rfl

theorem s8_v403 : V8 W (Proc.devRef .tc main_v403) = val_main_v403 (F := Ideal) (W (Proc.devRef .tc main_arg3)) := by
  show after (ops7 (F := Ideal)) (V7 W) (Proc.devRef .tc main_v403) = _
  generalize hV : V7 W = V
  after_results_simp
  subst hV
  rw [s7_v323 W]
  rfl

theorem s8_v405 : V8 W (Proc.devRef .tc main_v405) = val_main_v405 (F := Ideal) (W (Proc.devRef .tc main_arg4)) := by
  show after (ops7 (F := Ideal)) (V7 W) (Proc.devRef .tc main_v405) = _
  generalize hV : V7 W = V
  after_results_simp
  subst hV
  rw [s7_v325 W]
  rfl

theorem s8_v407 : V8 W (Proc.devRef .tc main_v407) = val_main_v407 (F := Ideal) (W (Proc.devRef .tc main_arg5)) := by
  show after (ops7 (F := Ideal)) (V7 W) (Proc.devRef .tc main_v407) = _
  generalize hV : V7 W = V
  after_results_simp
  subst hV
  rw [s7_v327 W]
  rfl

theorem s8_v364 : V8 W (Proc.devRef .tc main_v364) = val_main_v364 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg9)) (W (Proc.devRef .tc main_arg10)) (W (Proc.devRef .tc main_arg11)) (W (Proc.devRef .tc main_arg12)) := by
  show after (ops7 (F := Ideal)) (V7 W) (Proc.devRef .tc main_v364) = _
  generalize hV : V7 W = V
  after_results_simp
  subst hV
  rw [s7_v358 W, s7_v359 W, s7_v320 W, s7_v333 W]
  rfl

theorem s8_v401 : V8 W (Proc.devRef .tc main_v401) = val_main_v401 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg10)) (W (Proc.devRef .tc main_arg13)) := by
  show after (ops7 (F := Ideal)) (V7 W) (Proc.devRef .tc main_v401) = _
  generalize hV : V7 W = V
  after_results_simp
  subst hV
  rw [s7_arg7 W, s7_v320 W, s7_v323 W, s7_v325 W, s7_v321 W, s7_v327 W]
  rfl

theorem s9_arg3 : V9 W (Proc.devRef .tc main_arg3) = W (Proc.devRef .tc main_arg3) :=
  (kept8_3 (V8 W)).trans (s8_arg3 W)

theorem s9_arg4 : V9 W (Proc.devRef .tc main_arg4) = W (Proc.devRef .tc main_arg4) :=
  (kept8_4 (V8 W)).trans (s8_arg4 W)

theorem s9_arg5 : V9 W (Proc.devRef .tc main_arg5) = W (Proc.devRef .tc main_arg5) :=
  (kept8_5 (V8 W)).trans (s8_arg5 W)

theorem s9_arg6 : V9 W (Proc.devRef .tc main_arg6) = W (Proc.devRef .tc main_arg6) :=
  (kept8_6 (V8 W)).trans (s8_arg6 W)

theorem s9_arg7 : V9 W (Proc.devRef .tc main_arg7) = W (Proc.devRef .tc main_arg7) :=
  (kept8_7 (V8 W)).trans (s8_arg7 W)

theorem s9_arg8 : V9 W (Proc.devRef .tc main_arg8) = W (Proc.devRef .tc main_arg8) :=
  (kept8_8 (V8 W)).trans (s8_arg8 W)

theorem s9_arg9 : V9 W (Proc.devRef .tc main_arg9) = W (Proc.devRef .tc main_arg9) :=
  (kept8_9 (V8 W)).trans (s8_arg9 W)

theorem s9_arg10 : V9 W (Proc.devRef .tc main_arg10) = W (Proc.devRef .tc main_arg10) :=
  (kept8_10 (V8 W)).trans (s8_arg10 W)

theorem s9_arg11 : V9 W (Proc.devRef .tc main_arg11) = W (Proc.devRef .tc main_arg11) :=
  (kept8_11 (V8 W)).trans (s8_arg11 W)

theorem s9_arg12 : V9 W (Proc.devRef .tc main_arg12) = W (Proc.devRef .tc main_arg12) :=
  (kept8_12 (V8 W)).trans (s8_arg12 W)

theorem s9_arg13 : V9 W (Proc.devRef .tc main_arg13) = W (Proc.devRef .tc main_arg13) :=
  (kept8_13 (V8 W)).trans (s8_arg13 W)

theorem s9_v320 : V9 W (Proc.devRef .tc main_v320) = val_main_v320 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg10)) := by
  show after (ops8 (F := Ideal)) (V8 W) (Proc.devRef .tc main_v320) = _
  generalize hV : V8 W = V
  after_results_simp
  subst hV
  exact s8_v320 W

theorem s9_v323 : V9 W (Proc.devRef .tc main_v323) = val_main_v323 (F := Ideal) (W (Proc.devRef .tc main_arg3)) := by
  show after (ops8 (F := Ideal)) (V8 W) (Proc.devRef .tc main_v323) = _
  generalize hV : V8 W = V
  after_results_simp
  subst hV
  exact s8_v323 W

theorem s9_v325 : V9 W (Proc.devRef .tc main_v325) = val_main_v325 (F := Ideal) (W (Proc.devRef .tc main_arg4)) := by
  show after (ops8 (F := Ideal)) (V8 W) (Proc.devRef .tc main_v325) = _
  generalize hV : V8 W = V
  after_results_simp
  subst hV
  exact s8_v325 W

theorem s9_v327 : V9 W (Proc.devRef .tc main_v327) = val_main_v327 (F := Ideal) (W (Proc.devRef .tc main_arg5)) := by
  show after (ops8 (F := Ideal)) (V8 W) (Proc.devRef .tc main_v327) = _
  generalize hV : V8 W = V
  after_results_simp
  subst hV
  exact s8_v327 W

theorem s9_v321 : V9 W (Proc.devRef .tc main_v321) = val_main_v321 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg7)) (W (Proc.devRef .tc main_arg8)) (W (Proc.devRef .tc main_arg13)) := by
  show after (ops8 (F := Ideal)) (V8 W) (Proc.devRef .tc main_v321) = _
  generalize hV : V8 W = V
  after_results_simp
  subst hV
  exact s8_v321 W

theorem s9_v319 : V9 W (Proc.devRef .tc main_v319) = val_main_v319 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg9)) (W (Proc.devRef .tc main_arg11)) (W (Proc.devRef .tc main_arg12)) := by
  show after (ops8 (F := Ideal)) (V8 W) (Proc.devRef .tc main_v319) = _
  generalize hV : V8 W = V
  after_results_simp
  subst hV
  exact s8_v319 W

theorem s9_v462 : V9 W (Proc.devRef .tc main_v462) = val_main_v462 (F := Ideal) (W (Proc.devRef .tc main_arg9)) := by
  show after (ops8 (F := Ideal)) (V8 W) (Proc.devRef .tc main_v462) = _
  generalize hV : V8 W = V
  after_results_simp
  subst hV
  rw [s8_arg9 W]
  rfl

theorem s9_v458 : V9 W (Proc.devRef .tc main_v458) = val_main_v458 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg9)) (W (Proc.devRef .tc main_arg10)) := by
  show after (ops8 (F := Ideal)) (V8 W) (Proc.devRef .tc main_v458) = _
  generalize hV : V8 W = V
  after_results_simp
  subst hV
  rw [s8_arg9 W, s8_v320 W]
  rfl

theorem s9_v440 : V9 W (Proc.devRef .tc main_v440) = val_main_v440 (F := Ideal) (W (Proc.devRef .tc main_arg3)) := by
  show after (ops8 (F := Ideal)) (V8 W) (Proc.devRef .tc main_v440) = _
  generalize hV : V8 W = V
  after_results_simp
  subst hV
  rw [s8_v323 W]
  rfl

theorem s9_v442 : V9 W (Proc.devRef .tc main_v442) = val_main_v442 (F := Ideal) (W (Proc.devRef .tc main_arg4)) := by
  show after (ops8 (F := Ideal)) (V8 W) (Proc.devRef .tc main_v442) = _
  generalize hV : V8 W = V
  after_results_simp
  subst hV
  rw [s8_v325 W]
  rfl

theorem s9_v444 : V9 W (Proc.devRef .tc main_v444) = val_main_v444 (F := Ideal) (W (Proc.devRef .tc main_arg5)) := by
  show after (ops8 (F := Ideal)) (V8 W) (Proc.devRef .tc main_v444) = _
  generalize hV : V8 W = V
  after_results_simp
  subst hV
  rw [s8_v327 W]
  rfl

theorem s9_v364 : V9 W (Proc.devRef .tc main_v364) = val_main_v364 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg9)) (W (Proc.devRef .tc main_arg10)) (W (Proc.devRef .tc main_arg11)) (W (Proc.devRef .tc main_arg12)) := by
  show after (ops8 (F := Ideal)) (V8 W) (Proc.devRef .tc main_v364) = _
  generalize hV : V8 W = V
  after_results_simp
  subst hV
  exact s8_v364 W

theorem s9_v401 : V9 W (Proc.devRef .tc main_v401) = val_main_v401 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg10)) (W (Proc.devRef .tc main_arg13)) := by
  show after (ops8 (F := Ideal)) (V8 W) (Proc.devRef .tc main_v401) = _
  generalize hV : V8 W = V
  after_results_simp
  subst hV
  exact s8_v401 W

theorem s9_v438 : V9 W (Proc.devRef .tc main_v438) = val_main_v438 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg7)) (W (Proc.devRef .tc main_arg8)) (W (Proc.devRef .tc main_arg9)) (W (Proc.devRef .tc main_arg11)) (W (Proc.devRef .tc main_arg12)) (W (Proc.devRef .tc main_arg13)) := by
  show after (ops8 (F := Ideal)) (V8 W) (Proc.devRef .tc main_v438) = _
  generalize hV : V8 W = V
  after_results_simp
  subst hV
  rw [s8_v411 W, s8_v319 W, s8_v409 W, s8_v412 W, s8_v403 W, s8_v405 W, s8_v321 W, s8_v407 W]
  rfl

theorem s10_arg3 : V10 W (Proc.devRef .tc main_arg3) = W (Proc.devRef .tc main_arg3) :=
  (kept9_3 (V9 W)).trans (s9_arg3 W)

theorem s10_arg4 : V10 W (Proc.devRef .tc main_arg4) = W (Proc.devRef .tc main_arg4) :=
  (kept9_4 (V9 W)).trans (s9_arg4 W)

theorem s10_arg5 : V10 W (Proc.devRef .tc main_arg5) = W (Proc.devRef .tc main_arg5) :=
  (kept9_5 (V9 W)).trans (s9_arg5 W)

theorem s10_arg6 : V10 W (Proc.devRef .tc main_arg6) = W (Proc.devRef .tc main_arg6) :=
  (kept9_6 (V9 W)).trans (s9_arg6 W)

theorem s10_arg7 : V10 W (Proc.devRef .tc main_arg7) = W (Proc.devRef .tc main_arg7) :=
  (kept9_7 (V9 W)).trans (s9_arg7 W)

theorem s10_arg8 : V10 W (Proc.devRef .tc main_arg8) = W (Proc.devRef .tc main_arg8) :=
  (kept9_8 (V9 W)).trans (s9_arg8 W)

theorem s10_arg9 : V10 W (Proc.devRef .tc main_arg9) = W (Proc.devRef .tc main_arg9) :=
  (kept9_9 (V9 W)).trans (s9_arg9 W)

theorem s10_arg10 : V10 W (Proc.devRef .tc main_arg10) = W (Proc.devRef .tc main_arg10) :=
  (kept9_10 (V9 W)).trans (s9_arg10 W)

theorem s10_arg11 : V10 W (Proc.devRef .tc main_arg11) = W (Proc.devRef .tc main_arg11) :=
  (kept9_11 (V9 W)).trans (s9_arg11 W)

theorem s10_arg12 : V10 W (Proc.devRef .tc main_arg12) = W (Proc.devRef .tc main_arg12) :=
  (kept9_12 (V9 W)).trans (s9_arg12 W)

theorem s10_arg13 : V10 W (Proc.devRef .tc main_arg13) = W (Proc.devRef .tc main_arg13) :=
  (kept9_13 (V9 W)).trans (s9_arg13 W)

theorem s10_v323 : V10 W (Proc.devRef .tc main_v323) = val_main_v323 (F := Ideal) (W (Proc.devRef .tc main_arg3)) := by
  show after (ops9 (F := Ideal)) (V9 W) (Proc.devRef .tc main_v323) = _
  generalize hV : V9 W = V
  after_results_simp
  subst hV
  exact s9_v323 W

theorem s10_v325 : V10 W (Proc.devRef .tc main_v325) = val_main_v325 (F := Ideal) (W (Proc.devRef .tc main_arg4)) := by
  show after (ops9 (F := Ideal)) (V9 W) (Proc.devRef .tc main_v325) = _
  generalize hV : V9 W = V
  after_results_simp
  subst hV
  exact s9_v325 W

theorem s10_v327 : V10 W (Proc.devRef .tc main_v327) = val_main_v327 (F := Ideal) (W (Proc.devRef .tc main_arg5)) := by
  show after (ops9 (F := Ideal)) (V9 W) (Proc.devRef .tc main_v327) = _
  generalize hV : V9 W = V
  after_results_simp
  subst hV
  exact s9_v327 W

theorem s10_v321 : V10 W (Proc.devRef .tc main_v321) = val_main_v321 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg7)) (W (Proc.devRef .tc main_arg8)) (W (Proc.devRef .tc main_arg13)) := by
  show after (ops9 (F := Ideal)) (V9 W) (Proc.devRef .tc main_v321) = _
  generalize hV : V9 W = V
  after_results_simp
  subst hV
  exact s9_v321 W

theorem s10_v319 : V10 W (Proc.devRef .tc main_v319) = val_main_v319 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg9)) (W (Proc.devRef .tc main_arg11)) (W (Proc.devRef .tc main_arg12)) := by
  show after (ops9 (F := Ideal)) (V9 W) (Proc.devRef .tc main_v319) = _
  generalize hV : V9 W = V
  after_results_simp
  subst hV
  exact s9_v319 W

theorem s10_v515 : V10 W (Proc.devRef .tc main_v515) = val_main_v515 (F := Ideal) (W (Proc.devRef .tc main_arg4)) := by
  show after (ops9 (F := Ideal)) (V9 W) (Proc.devRef .tc main_v515) = _
  generalize hV : V9 W = V
  after_results_simp
  subst hV
  rw [s9_v325 W]
  rfl

theorem s10_v514 : V10 W (Proc.devRef .tc main_v514) = val_main_v514 (F := Ideal) (W (Proc.devRef .tc main_arg3)) := by
  show after (ops9 (F := Ideal)) (V9 W) (Proc.devRef .tc main_v514) = _
  generalize hV : V9 W = V
  after_results_simp
  subst hV
  rw [s9_v323 W]
  rfl

theorem s10_v475 : V10 W (Proc.devRef .tc main_v475) = val_main_v475 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg9)) (W (Proc.devRef .tc main_arg10)) (W (Proc.devRef .tc main_arg11)) (W (Proc.devRef .tc main_arg12)) := by
  show after (ops9 (F := Ideal)) (V9 W) (Proc.devRef .tc main_v475) = _
  generalize hV : V9 W = V
  after_results_simp
  subst hV
  rw [s9_v458 W, s9_v462 W, s9_v440 W, s9_v442 W, s9_v319 W, s9_v444 W]
  rfl

theorem s10_v364 : V10 W (Proc.devRef .tc main_v364) = val_main_v364 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg9)) (W (Proc.devRef .tc main_arg10)) (W (Proc.devRef .tc main_arg11)) (W (Proc.devRef .tc main_arg12)) := by
  show after (ops9 (F := Ideal)) (V9 W) (Proc.devRef .tc main_v364) = _
  generalize hV : V9 W = V
  after_results_simp
  subst hV
  exact s9_v364 W

theorem s10_v512 : V10 W (Proc.devRef .tc main_v512) = val_main_v512 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg10)) (W (Proc.devRef .tc main_arg13)) := by
  show after (ops9 (F := Ideal)) (V9 W) (Proc.devRef .tc main_v512) = _
  generalize hV : V9 W = V
  after_results_simp
  subst hV
  rw [s9_arg10 W, s9_v321 W, s9_v323 W, s9_v325 W, s9_v320 W, s9_v327 W]
  rfl

theorem s10_v401 : V10 W (Proc.devRef .tc main_v401) = val_main_v401 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg10)) (W (Proc.devRef .tc main_arg13)) := by
  show after (ops9 (F := Ideal)) (V9 W) (Proc.devRef .tc main_v401) = _
  generalize hV : V9 W = V
  after_results_simp
  subst hV
  exact s9_v401 W

theorem s10_v438 : V10 W (Proc.devRef .tc main_v438) = val_main_v438 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg7)) (W (Proc.devRef .tc main_arg8)) (W (Proc.devRef .tc main_arg9)) (W (Proc.devRef .tc main_arg11)) (W (Proc.devRef .tc main_arg12)) (W (Proc.devRef .tc main_arg13)) := by
  show after (ops9 (F := Ideal)) (V9 W) (Proc.devRef .tc main_v438) = _
  generalize hV : V9 W = V
  after_results_simp
  subst hV
  exact s9_v438 W

end Cert.ReferenceIdeal.Stage

end
-- ==== Proof.RefStageC.lean ====
/-
  The reference's @main read part by part, boundaries 11 to 15: `V<K>` is what the buffers hold after parts 0 to K-1, run from any
  contents `W`.  Each buffer that a later part reads holds, at the boundary where that part starts, the stage of the Read
  module that names it, applied to `W`'s argument arrays: where the buffer is written, the part's operations give it as
  its operation's function of buffers already named; across a part that does not write it, it keeps its contents.  The
  argument arrays keep theirs throughout.
-/
import proofs.«116292_j712964571450_1_alg».proof.Proof.RefStageB

set_option maxRecDepth 16384
set_option maxHeartbeats 4000000

noncomputable section

namespace Cert.ReferenceIdeal.Stage

open Cert.ReferenceIdeal Cert.ReferenceIdeal.Gen Cert.ReferenceIdeal.Parts Cert.ReferenceIdeal.ReadP
open Idealize.ShloMosaic Idealize.ShloMosaic.TcCoe Idealize.SL.Sem Idealize.ShloMosaic.StableHlo

variable (W : Valuation τ sig (Elt Ideal))

/-- The buffer contents after parts 0 to 10. -/
def V11 : Valuation τ sig (Elt Ideal) := after (ops10 (F := Ideal)) (V10 W)

/-- The buffer contents after parts 0 to 11. -/
def V12 : Valuation τ sig (Elt Ideal) := after (ops11 (F := Ideal)) (V11 W)

/-- The buffer contents after parts 0 to 12. -/
def V13 : Valuation τ sig (Elt Ideal) := after (ops12 (F := Ideal)) (V12 W)

/-- The buffer contents after parts 0 to 13. -/
def V14 : Valuation τ sig (Elt Ideal) := after (ops13 (F := Ideal)) (V13 W)

/-- The buffer contents after parts 0 to 14. -/
def V15 : Valuation τ sig (Elt Ideal) := after (ops14 (F := Ideal)) (V14 W)

theorem s11_arg3 : V11 W (Proc.devRef .tc main_arg3) = W (Proc.devRef .tc main_arg3) :=
  (kept10_3 (V10 W)).trans (s10_arg3 W)

theorem s11_arg4 : V11 W (Proc.devRef .tc main_arg4) = W (Proc.devRef .tc main_arg4) :=
  (kept10_4 (V10 W)).trans (s10_arg4 W)

theorem s11_arg5 : V11 W (Proc.devRef .tc main_arg5) = W (Proc.devRef .tc main_arg5) :=
  (kept10_5 (V10 W)).trans (s10_arg5 W)

theorem s11_arg6 : V11 W (Proc.devRef .tc main_arg6) = W (Proc.devRef .tc main_arg6) :=
  (kept10_6 (V10 W)).trans (s10_arg6 W)

theorem s11_arg7 : V11 W (Proc.devRef .tc main_arg7) = W (Proc.devRef .tc main_arg7) :=
  (kept10_7 (V10 W)).trans (s10_arg7 W)

theorem s11_arg8 : V11 W (Proc.devRef .tc main_arg8) = W (Proc.devRef .tc main_arg8) :=
  (kept10_8 (V10 W)).trans (s10_arg8 W)

theorem s11_arg9 : V11 W (Proc.devRef .tc main_arg9) = W (Proc.devRef .tc main_arg9) :=
  (kept10_9 (V10 W)).trans (s10_arg9 W)

theorem s11_arg10 : V11 W (Proc.devRef .tc main_arg10) = W (Proc.devRef .tc main_arg10) :=
  (kept10_10 (V10 W)).trans (s10_arg10 W)

theorem s11_arg11 : V11 W (Proc.devRef .tc main_arg11) = W (Proc.devRef .tc main_arg11) :=
  (kept10_11 (V10 W)).trans (s10_arg11 W)

theorem s11_arg12 : V11 W (Proc.devRef .tc main_arg12) = W (Proc.devRef .tc main_arg12) :=
  (kept10_12 (V10 W)).trans (s10_arg12 W)

theorem s11_arg13 : V11 W (Proc.devRef .tc main_arg13) = W (Proc.devRef .tc main_arg13) :=
  (kept10_13 (V10 W)).trans (s10_arg13 W)

theorem s11_v323 : V11 W (Proc.devRef .tc main_v323) = val_main_v323 (F := Ideal) (W (Proc.devRef .tc main_arg3)) := by
  show after (ops10 (F := Ideal)) (V10 W) (Proc.devRef .tc main_v323) = _
  generalize hV : V10 W = V
  after_results_simp
  subst hV
  exact s10_v323 W

theorem s11_v325 : V11 W (Proc.devRef .tc main_v325) = val_main_v325 (F := Ideal) (W (Proc.devRef .tc main_arg4)) := by
  show after (ops10 (F := Ideal)) (V10 W) (Proc.devRef .tc main_v325) = _
  generalize hV : V10 W = V
  after_results_simp
  subst hV
  exact s10_v325 W

theorem s11_v327 : V11 W (Proc.devRef .tc main_v327) = val_main_v327 (F := Ideal) (W (Proc.devRef .tc main_arg5)) := by
  show after (ops10 (F := Ideal)) (V10 W) (Proc.devRef .tc main_v327) = _
  generalize hV : V10 W = V
  after_results_simp
  subst hV
  exact s10_v327 W

theorem s11_v321 : V11 W (Proc.devRef .tc main_v321) = val_main_v321 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg7)) (W (Proc.devRef .tc main_arg8)) (W (Proc.devRef .tc main_arg13)) := by
  show after (ops10 (F := Ideal)) (V10 W) (Proc.devRef .tc main_v321) = _
  generalize hV : V10 W = V
  after_results_simp
  subst hV
  exact s10_v321 W

theorem s11_v319 : V11 W (Proc.devRef .tc main_v319) = val_main_v319 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg9)) (W (Proc.devRef .tc main_arg11)) (W (Proc.devRef .tc main_arg12)) := by
  show after (ops10 (F := Ideal)) (V10 W) (Proc.devRef .tc main_v319) = _
  generalize hV : V10 W = V
  after_results_simp
  subst hV
  exact s10_v319 W

theorem s11_cst_90 : V11 W (Proc.devRef .tc main_cst_90) = val_main_cst_90 (F := Ideal) := by
  show after (ops10 (F := Ideal)) (V10 W) (Proc.devRef .tc main_cst_90) = _
  generalize hV : V10 W = V
  after_results_simp
  subst hV
  rfl

theorem s11_v559 : V11 W (Proc.devRef .tc main_v559) = val_main_v559 (F := Ideal) (W (Proc.devRef .tc main_arg12)) := by
  show after (ops10 (F := Ideal)) (V10 W) (Proc.devRef .tc main_v559) = _
  generalize hV : V10 W = V
  after_results_simp
  subst hV
  rw [s10_arg12 W]
  rfl

theorem s11_v566 : V11 W (Proc.devRef .tc main_v566) = val_main_v566 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg9)) (W (Proc.devRef .tc main_arg11)) (W (Proc.devRef .tc main_arg12)) := by
  show after (ops10 (F := Ideal)) (V10 W) (Proc.devRef .tc main_v566) = _
  generalize hV : V10 W = V
  after_results_simp
  subst hV
  rw [s10_v319 W, s10_arg12 W]
  rfl

theorem s11_v551 : V11 W (Proc.devRef .tc main_v551) = val_main_v551 (F := Ideal) (W (Proc.devRef .tc main_arg3)) := by
  show after (ops10 (F := Ideal)) (V10 W) (Proc.devRef .tc main_v551) = _
  generalize hV : V10 W = V
  after_results_simp
  subst hV
  rw [s10_v323 W]
  rfl

theorem s11_v553 : V11 W (Proc.devRef .tc main_v553) = val_main_v553 (F := Ideal) (W (Proc.devRef .tc main_arg4)) := by
  show after (ops10 (F := Ideal)) (V10 W) (Proc.devRef .tc main_v553) = _
  generalize hV : V10 W = V
  after_results_simp
  subst hV
  rw [s10_v325 W]
  rfl

theorem s11_v555 : V11 W (Proc.devRef .tc main_v555) = val_main_v555 (F := Ideal) (W (Proc.devRef .tc main_arg5)) := by
  show after (ops10 (F := Ideal)) (V10 W) (Proc.devRef .tc main_v555) = _
  generalize hV : V10 W = V
  after_results_simp
  subst hV
  rw [s10_v327 W]
  rfl

theorem s11_v475 : V11 W (Proc.devRef .tc main_v475) = val_main_v475 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg9)) (W (Proc.devRef .tc main_arg10)) (W (Proc.devRef .tc main_arg11)) (W (Proc.devRef .tc main_arg12)) := by
  show after (ops10 (F := Ideal)) (V10 W) (Proc.devRef .tc main_v475) = _
  generalize hV : V10 W = V
  after_results_simp
  subst hV
  exact s10_v475 W

theorem s11_v549 : V11 W (Proc.devRef .tc main_v549) = val_main_v549 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg7)) (W (Proc.devRef .tc main_arg8)) (W (Proc.devRef .tc main_arg9)) (W (Proc.devRef .tc main_arg11)) (W (Proc.devRef .tc main_arg12)) (W (Proc.devRef .tc main_arg13)) := by
  show after (ops10 (F := Ideal)) (V10 W) (Proc.devRef .tc main_v549) = _
  generalize hV : V10 W = V
  after_results_simp
  subst hV
  rw [s10_arg11 W, s10_v321 W, s10_v514 W, s10_v515 W, s10_v319 W, s10_v327 W]
  rfl

theorem s11_v364 : V11 W (Proc.devRef .tc main_v364) = val_main_v364 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg9)) (W (Proc.devRef .tc main_arg10)) (W (Proc.devRef .tc main_arg11)) (W (Proc.devRef .tc main_arg12)) := by
  show after (ops10 (F := Ideal)) (V10 W) (Proc.devRef .tc main_v364) = _
  generalize hV : V10 W = V
  after_results_simp
  subst hV
  exact s10_v364 W

theorem s11_v512 : V11 W (Proc.devRef .tc main_v512) = val_main_v512 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg10)) (W (Proc.devRef .tc main_arg13)) := by
  show after (ops10 (F := Ideal)) (V10 W) (Proc.devRef .tc main_v512) = _
  generalize hV : V10 W = V
  after_results_simp
  subst hV
  exact s10_v512 W

theorem s11_v401 : V11 W (Proc.devRef .tc main_v401) = val_main_v401 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg10)) (W (Proc.devRef .tc main_arg13)) := by
  show after (ops10 (F := Ideal)) (V10 W) (Proc.devRef .tc main_v401) = _
  generalize hV : V10 W = V
  after_results_simp
  subst hV
  exact s10_v401 W

theorem s11_v438 : V11 W (Proc.devRef .tc main_v438) = val_main_v438 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg7)) (W (Proc.devRef .tc main_arg8)) (W (Proc.devRef .tc main_arg9)) (W (Proc.devRef .tc main_arg11)) (W (Proc.devRef .tc main_arg12)) (W (Proc.devRef .tc main_arg13)) := by
  show after (ops10 (F := Ideal)) (V10 W) (Proc.devRef .tc main_v438) = _
  generalize hV : V10 W = V
  after_results_simp
  subst hV
  exact s10_v438 W

theorem s12_arg3 : V12 W (Proc.devRef .tc main_arg3) = W (Proc.devRef .tc main_arg3) :=
  (kept11_3 (V11 W)).trans (s11_arg3 W)

theorem s12_arg4 : V12 W (Proc.devRef .tc main_arg4) = W (Proc.devRef .tc main_arg4) :=
  (kept11_4 (V11 W)).trans (s11_arg4 W)

theorem s12_arg5 : V12 W (Proc.devRef .tc main_arg5) = W (Proc.devRef .tc main_arg5) :=
  (kept11_5 (V11 W)).trans (s11_arg5 W)

theorem s12_arg6 : V12 W (Proc.devRef .tc main_arg6) = W (Proc.devRef .tc main_arg6) :=
  (kept11_6 (V11 W)).trans (s11_arg6 W)

theorem s12_arg7 : V12 W (Proc.devRef .tc main_arg7) = W (Proc.devRef .tc main_arg7) :=
  (kept11_7 (V11 W)).trans (s11_arg7 W)

theorem s12_arg8 : V12 W (Proc.devRef .tc main_arg8) = W (Proc.devRef .tc main_arg8) :=
  (kept11_8 (V11 W)).trans (s11_arg8 W)

theorem s12_arg9 : V12 W (Proc.devRef .tc main_arg9) = W (Proc.devRef .tc main_arg9) :=
  (kept11_9 (V11 W)).trans (s11_arg9 W)

theorem s12_arg10 : V12 W (Proc.devRef .tc main_arg10) = W (Proc.devRef .tc main_arg10) :=
  (kept11_10 (V11 W)).trans (s11_arg10 W)

theorem s12_arg11 : V12 W (Proc.devRef .tc main_arg11) = W (Proc.devRef .tc main_arg11) :=
  (kept11_11 (V11 W)).trans (s11_arg11 W)

theorem s12_arg12 : V12 W (Proc.devRef .tc main_arg12) = W (Proc.devRef .tc main_arg12) :=
  (kept11_12 (V11 W)).trans (s11_arg12 W)

theorem s12_arg13 : V12 W (Proc.devRef .tc main_arg13) = W (Proc.devRef .tc main_arg13) :=
  (kept11_13 (V11 W)).trans (s11_arg13 W)

theorem s12_v321 : V12 W (Proc.devRef .tc main_v321) = val_main_v321 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg7)) (W (Proc.devRef .tc main_arg8)) (W (Proc.devRef .tc main_arg13)) := by
  show after (ops11 (F := Ideal)) (V11 W) (Proc.devRef .tc main_v321) = _
  generalize hV : V11 W = V
  after_results_simp
  subst hV
  exact s11_v321 W

theorem s12_v590 : V12 W (Proc.devRef .tc main_v590) = val_main_v590 (F := Ideal) (W (Proc.devRef .tc main_arg4)) := by
  show after (ops11 (F := Ideal)) (V11 W) (Proc.devRef .tc main_v590) = _
  generalize hV : V11 W = V
  after_results_simp
  subst hV
  rw [s11_v325 W]
  rfl

theorem s12_v617 : V12 W (Proc.devRef .tc main_v617) = val_main_v617 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg7)) (W (Proc.devRef .tc main_arg8)) (W (Proc.devRef .tc main_arg13)) := by
  show after (ops11 (F := Ideal)) (V11 W) (Proc.devRef .tc main_v617) = _
  generalize hV : V11 W = V
  after_results_simp
  subst hV
  rw [s11_arg13 W, s11_v321 W, s11_v323 W]
  rfl

theorem s12_v592 : V12 W (Proc.devRef .tc main_v592) = val_main_v592 (F := Ideal) (W (Proc.devRef .tc main_arg5)) := by
  show after (ops11 (F := Ideal)) (V11 W) (Proc.devRef .tc main_v592) = _
  generalize hV : V11 W = V
  after_results_simp
  subst hV
  rw [s11_v327 W]
  rfl

theorem s12_v475 : V12 W (Proc.devRef .tc main_v475) = val_main_v475 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg9)) (W (Proc.devRef .tc main_arg10)) (W (Proc.devRef .tc main_arg11)) (W (Proc.devRef .tc main_arg12)) := by
  show after (ops11 (F := Ideal)) (V11 W) (Proc.devRef .tc main_v475) = _
  generalize hV : V11 W = V
  after_results_simp
  subst hV
  exact s11_v475 W

theorem s12_v549 : V12 W (Proc.devRef .tc main_v549) = val_main_v549 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg7)) (W (Proc.devRef .tc main_arg8)) (W (Proc.devRef .tc main_arg9)) (W (Proc.devRef .tc main_arg11)) (W (Proc.devRef .tc main_arg12)) (W (Proc.devRef .tc main_arg13)) := by
  show after (ops11 (F := Ideal)) (V11 W) (Proc.devRef .tc main_v549) = _
  generalize hV : V11 W = V
  after_results_simp
  subst hV
  exact s11_v549 W

theorem s12_v586 : V12 W (Proc.devRef .tc main_v586) = val_main_v586 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg9)) (W (Proc.devRef .tc main_arg11)) (W (Proc.devRef .tc main_arg12)) := by
  show after (ops11 (F := Ideal)) (V11 W) (Proc.devRef .tc main_v586) = _
  generalize hV : V11 W = V
  after_results_simp
  subst hV
  rw [s11_cst_90 W, s11_v559 W, s11_v566 W, s11_v551 W, s11_v553 W, s11_v319 W, s11_v555 W]
  rfl

theorem s12_v364 : V12 W (Proc.devRef .tc main_v364) = val_main_v364 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg9)) (W (Proc.devRef .tc main_arg10)) (W (Proc.devRef .tc main_arg11)) (W (Proc.devRef .tc main_arg12)) := by
  show after (ops11 (F := Ideal)) (V11 W) (Proc.devRef .tc main_v364) = _
  generalize hV : V11 W = V
  after_results_simp
  subst hV
  exact s11_v364 W

theorem s12_v512 : V12 W (Proc.devRef .tc main_v512) = val_main_v512 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg10)) (W (Proc.devRef .tc main_arg13)) := by
  show after (ops11 (F := Ideal)) (V11 W) (Proc.devRef .tc main_v512) = _
  generalize hV : V11 W = V
  after_results_simp
  subst hV
  exact s11_v512 W

theorem s12_v401 : V12 W (Proc.devRef .tc main_v401) = val_main_v401 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg10)) (W (Proc.devRef .tc main_arg13)) := by
  show after (ops11 (F := Ideal)) (V11 W) (Proc.devRef .tc main_v401) = _
  generalize hV : V11 W = V
  after_results_simp
  subst hV
  exact s11_v401 W

theorem s12_v438 : V12 W (Proc.devRef .tc main_v438) = val_main_v438 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg7)) (W (Proc.devRef .tc main_arg8)) (W (Proc.devRef .tc main_arg9)) (W (Proc.devRef .tc main_arg11)) (W (Proc.devRef .tc main_arg12)) (W (Proc.devRef .tc main_arg13)) := by
  show after (ops11 (F := Ideal)) (V11 W) (Proc.devRef .tc main_v438) = _
  generalize hV : V11 W = V
  after_results_simp
  subst hV
  exact s11_v438 W

theorem s13_arg7 : V13 W (Proc.devRef .tc main_arg7) = W (Proc.devRef .tc main_arg7) :=
  (kept12_7 (V12 W)).trans (s12_arg7 W)

theorem s13_arg8 : V13 W (Proc.devRef .tc main_arg8) = W (Proc.devRef .tc main_arg8) :=
  (kept12_8 (V12 W)).trans (s12_arg8 W)

theorem s13_arg9 : V13 W (Proc.devRef .tc main_arg9) = W (Proc.devRef .tc main_arg9) :=
  (kept12_9 (V12 W)).trans (s12_arg9 W)

theorem s13_arg10 : V13 W (Proc.devRef .tc main_arg10) = W (Proc.devRef .tc main_arg10) :=
  (kept12_10 (V12 W)).trans (s12_arg10 W)

theorem s13_arg11 : V13 W (Proc.devRef .tc main_arg11) = W (Proc.devRef .tc main_arg11) :=
  (kept12_11 (V12 W)).trans (s12_arg11 W)

theorem s13_arg12 : V13 W (Proc.devRef .tc main_arg12) = W (Proc.devRef .tc main_arg12) :=
  (kept12_12 (V12 W)).trans (s12_arg12 W)

theorem s13_arg13 : V13 W (Proc.devRef .tc main_arg13) = W (Proc.devRef .tc main_arg13) :=
  (kept12_13 (V12 W)).trans (s12_arg13 W)

theorem s13_v667 : V13 W (Proc.devRef .tc main_v667) = val_main_v667 (F := Ideal) := by
  show after (ops12 (F := Ideal)) (V12 W) (Proc.devRef .tc main_v667) = _
  generalize hV : V12 W = V
  after_results_simp
  subst hV
  rfl

theorem s13_v668 : V13 W (Proc.devRef .tc main_v668) = val_main_v668 (F := Ideal) (W (Proc.devRef .tc main_arg6)) := by
  show after (ops12 (F := Ideal)) (V12 W) (Proc.devRef .tc main_v668) = _
  generalize hV : V12 W = V
  after_results_simp
  subst hV
  rw [s12_arg6 W]
  rfl

theorem s13_v666 : V13 W (Proc.devRef .tc main_v666) = val_main_v666 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops12 (F := Ideal)) (V12 W) (Proc.devRef .tc main_v666) = _
  generalize hV : V12 W = V
  after_results_simp
  subst hV
  rw [s12_v475 W, s12_v549 W, s12_v586 W, s12_arg6 W]
  rfl

theorem s13_v659 : V13 W (Proc.devRef .tc main_v659) = val_main_v659 (F := Ideal) (W (Proc.devRef .tc main_arg6)) := by
  show after (ops12 (F := Ideal)) (V12 W) (Proc.devRef .tc main_v659) = _
  generalize hV : V12 W = V
  after_results_simp
  subst hV
  rw [s12_arg6 W]
  rfl

theorem s13_v651 : V13 W (Proc.devRef .tc main_v651) = val_main_v651 (F := Ideal) (W (Proc.devRef .tc main_arg3)) := by
  show after (ops12 (F := Ideal)) (V12 W) (Proc.devRef .tc main_v651) = _
  generalize hV : V12 W = V
  after_results_simp
  subst hV
  rw [s12_arg3 W]
  rfl

theorem s13_v653 : V13 W (Proc.devRef .tc main_v653) = val_main_v653 (F := Ideal) (W (Proc.devRef .tc main_arg4)) := by
  show after (ops12 (F := Ideal)) (V12 W) (Proc.devRef .tc main_v653) = _
  generalize hV : V12 W = V
  after_results_simp
  subst hV
  rw [s12_arg4 W]
  rfl

theorem s13_v655 : V13 W (Proc.devRef .tc main_v655) = val_main_v655 (F := Ideal) (W (Proc.devRef .tc main_arg5)) := by
  show after (ops12 (F := Ideal)) (V12 W) (Proc.devRef .tc main_v655) = _
  generalize hV : V12 W = V
  after_results_simp
  subst hV
  rw [s12_arg5 W]
  rfl

theorem s13_v642 : V13 W (Proc.devRef .tc main_v642) = val_main_v642 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops12 (F := Ideal)) (V12 W) (Proc.devRef .tc main_v642) = _
  generalize hV : V12 W = V
  after_results_simp
  subst hV
  rw [s12_v364 W, s12_v512 W]
  rfl

theorem s13_v645 : V13 W (Proc.devRef .tc main_v645) = val_main_v645 (F := Ideal) (W (Proc.devRef .tc main_arg3)) := by
  show after (ops12 (F := Ideal)) (V12 W) (Proc.devRef .tc main_v645) = _
  generalize hV : V12 W = V
  after_results_simp
  subst hV
  rw [s12_arg3 W]
  rfl

theorem s13_v647 : V13 W (Proc.devRef .tc main_v647) = val_main_v647 (F := Ideal) (W (Proc.devRef .tc main_arg4)) := by
  show after (ops12 (F := Ideal)) (V12 W) (Proc.devRef .tc main_v647) = _
  generalize hV : V12 W = V
  after_results_simp
  subst hV
  rw [s12_arg4 W]
  rfl

theorem s13_v649 : V13 W (Proc.devRef .tc main_v649) = val_main_v649 (F := Ideal) (W (Proc.devRef .tc main_arg5)) := by
  show after (ops12 (F := Ideal)) (V12 W) (Proc.devRef .tc main_v649) = _
  generalize hV : V12 W = V
  after_results_simp
  subst hV
  rw [s12_arg5 W]
  rfl

theorem s13_v643 : V13 W (Proc.devRef .tc main_v643) = val_main_v643 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops12 (F := Ideal)) (V12 W) (Proc.devRef .tc main_v643) = _
  generalize hV : V12 W = V
  after_results_simp
  subst hV
  rw [s12_v401 W, s12_v438 W, s12_v617 W, s12_v590 W, s12_v321 W, s12_v592 W]
  rfl

theorem s13_v641 : V13 W (Proc.devRef .tc main_v641) = val_main_v641 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops12 (F := Ideal)) (V12 W) (Proc.devRef .tc main_v641) = _
  generalize hV : V12 W = V
  after_results_simp
  subst hV
  rw [s12_v475 W, s12_v549 W, s12_v586 W]
  rfl

theorem s14_arg8 : V14 W (Proc.devRef .tc main_arg8) = W (Proc.devRef .tc main_arg8) :=
  (kept13_8 (V13 W)).trans (s13_arg8 W)

theorem s14_arg9 : V14 W (Proc.devRef .tc main_arg9) = W (Proc.devRef .tc main_arg9) :=
  (kept13_9 (V13 W)).trans (s13_arg9 W)

theorem s14_arg10 : V14 W (Proc.devRef .tc main_arg10) = W (Proc.devRef .tc main_arg10) :=
  (kept13_10 (V13 W)).trans (s13_arg10 W)

theorem s14_arg11 : V14 W (Proc.devRef .tc main_arg11) = W (Proc.devRef .tc main_arg11) :=
  (kept13_11 (V13 W)).trans (s13_arg11 W)

theorem s14_arg12 : V14 W (Proc.devRef .tc main_arg12) = W (Proc.devRef .tc main_arg12) :=
  (kept13_12 (V13 W)).trans (s13_arg12 W)

theorem s14_arg13 : V14 W (Proc.devRef .tc main_arg13) = W (Proc.devRef .tc main_arg13) :=
  (kept13_13 (V13 W)).trans (s13_arg13 W)

theorem s14_v642 : V14 W (Proc.devRef .tc main_v642) = val_main_v642 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops13 (F := Ideal)) (V13 W) (Proc.devRef .tc main_v642) = _
  generalize hV : V13 W = V
  after_results_simp
  subst hV
  exact s13_v642 W

theorem s14_v645 : V14 W (Proc.devRef .tc main_v645) = val_main_v645 (F := Ideal) (W (Proc.devRef .tc main_arg3)) := by
  show after (ops13 (F := Ideal)) (V13 W) (Proc.devRef .tc main_v645) = _
  generalize hV : V13 W = V
  after_results_simp
  subst hV
  exact s13_v645 W

theorem s14_v647 : V14 W (Proc.devRef .tc main_v647) = val_main_v647 (F := Ideal) (W (Proc.devRef .tc main_arg4)) := by
  show after (ops13 (F := Ideal)) (V13 W) (Proc.devRef .tc main_v647) = _
  generalize hV : V13 W = V
  after_results_simp
  subst hV
  exact s13_v647 W

theorem s14_v649 : V14 W (Proc.devRef .tc main_v649) = val_main_v649 (F := Ideal) (W (Proc.devRef .tc main_arg5)) := by
  show after (ops13 (F := Ideal)) (V13 W) (Proc.devRef .tc main_v649) = _
  generalize hV : V13 W = V
  after_results_simp
  subst hV
  exact s13_v649 W

theorem s14_v717 : V14 W (Proc.devRef .tc main_v717) = val_main_v717 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops13 (F := Ideal)) (V13 W) (Proc.devRef .tc main_v717) = _
  generalize hV : V13 W = V
  after_results_simp
  subst hV
  rw [s13_arg7 W, s13_v642 W, s13_v645 W]
  rfl

theorem s14_v719 : V14 W (Proc.devRef .tc main_v719) = val_main_v719 (F := Ideal) (W (Proc.devRef .tc main_arg4)) := by
  show after (ops13 (F := Ideal)) (V13 W) (Proc.devRef .tc main_v719) = _
  generalize hV : V13 W = V
  after_results_simp
  subst hV
  rw [s13_v647 W]
  rfl

theorem s14_v692 : V14 W (Proc.devRef .tc main_v692) = val_main_v692 (F := Ideal) (W (Proc.devRef .tc main_arg5)) := by
  show after (ops13 (F := Ideal)) (V13 W) (Proc.devRef .tc main_v692) = _
  generalize hV : V13 W = V
  after_results_simp
  subst hV
  rw [s13_v649 W]
  rfl

theorem s14_v643 : V14 W (Proc.devRef .tc main_v643) = val_main_v643 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops13 (F := Ideal)) (V13 W) (Proc.devRef .tc main_v643) = _
  generalize hV : V13 W = V
  after_results_simp
  subst hV
  exact s13_v643 W

theorem s14_v641 : V14 W (Proc.devRef .tc main_v641) = val_main_v641 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops13 (F := Ideal)) (V13 W) (Proc.devRef .tc main_v641) = _
  generalize hV : V13 W = V
  after_results_simp
  subst hV
  exact s13_v641 W

theorem s14_v686 : V14 W (Proc.devRef .tc main_v686) = val_main_v686 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops13 (F := Ideal)) (V13 W) (Proc.devRef .tc main_v686) = _
  generalize hV : V13 W = V
  after_results_simp
  subst hV
  rw [s13_v667 W, s13_v668 W, s13_v666 W, s13_v659 W, s13_v651 W, s13_v653 W, s13_v642 W, s13_v655 W]
  rfl

theorem s15_arg10 : V15 W (Proc.devRef .tc main_arg10) = W (Proc.devRef .tc main_arg10) :=
  (kept14_10 (V14 W)).trans (s14_arg10 W)

theorem s15_arg11 : V15 W (Proc.devRef .tc main_arg11) = W (Proc.devRef .tc main_arg11) :=
  (kept14_11 (V14 W)).trans (s14_arg11 W)

theorem s15_arg12 : V15 W (Proc.devRef .tc main_arg12) = W (Proc.devRef .tc main_arg12) :=
  (kept14_12 (V14 W)).trans (s14_arg12 W)

theorem s15_arg13 : V15 W (Proc.devRef .tc main_arg13) = W (Proc.devRef .tc main_arg13) :=
  (kept14_13 (V14 W)).trans (s14_arg13 W)

theorem s15_v642 : V15 W (Proc.devRef .tc main_v642) = val_main_v642 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops14 (F := Ideal)) (V14 W) (Proc.devRef .tc main_v642) = _
  generalize hV : V14 W = V
  after_results_simp
  subst hV
  exact s14_v642 W

theorem s15_v645 : V15 W (Proc.devRef .tc main_v645) = val_main_v645 (F := Ideal) (W (Proc.devRef .tc main_arg3)) := by
  show after (ops14 (F := Ideal)) (V14 W) (Proc.devRef .tc main_v645) = _
  generalize hV : V14 W = V
  after_results_simp
  subst hV
  exact s14_v645 W

theorem s15_v647 : V15 W (Proc.devRef .tc main_v647) = val_main_v647 (F := Ideal) (W (Proc.devRef .tc main_arg4)) := by
  show after (ops14 (F := Ideal)) (V14 W) (Proc.devRef .tc main_v647) = _
  generalize hV : V14 W = V
  after_results_simp
  subst hV
  exact s14_v647 W

theorem s15_v649 : V15 W (Proc.devRef .tc main_v649) = val_main_v649 (F := Ideal) (W (Proc.devRef .tc main_arg5)) := by
  show after (ops14 (F := Ideal)) (V14 W) (Proc.devRef .tc main_v649) = _
  generalize hV : V14 W = V
  after_results_simp
  subst hV
  exact s14_v649 W

theorem s15_v643 : V15 W (Proc.devRef .tc main_v643) = val_main_v643 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops14 (F := Ideal)) (V14 W) (Proc.devRef .tc main_v643) = _
  generalize hV : V14 W = V
  after_results_simp
  subst hV
  exact s14_v643 W

theorem s15_v641 : V15 W (Proc.devRef .tc main_v641) = val_main_v641 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops14 (F := Ideal)) (V14 W) (Proc.devRef .tc main_v641) = _
  generalize hV : V14 W = V
  after_results_simp
  subst hV
  exact s14_v641 W

theorem s15_v768 : V15 W (Proc.devRef .tc main_v768) = val_main_v768 (F := Ideal) (W (Proc.devRef .tc main_arg9)) := by
  show after (ops14 (F := Ideal)) (V14 W) (Proc.devRef .tc main_v768) = _
  generalize hV : V14 W = V
  after_results_simp
  subst hV
  rw [s14_arg9 W]
  rfl

theorem s15_v772 : V15 W (Proc.devRef .tc main_v772) = val_main_v772 (F := Ideal) (W (Proc.devRef .tc main_arg9)) := by
  show after (ops14 (F := Ideal)) (V14 W) (Proc.devRef .tc main_v772) = _
  generalize hV : V14 W = V
  after_results_simp
  subst hV
  rw [s14_arg9 W]
  rfl

theorem s15_v770 : V15 W (Proc.devRef .tc main_v770) = val_main_v770 (F := Ideal) (W (Proc.devRef .tc main_arg9)) := by
  show after (ops14 (F := Ideal)) (V14 W) (Proc.devRef .tc main_v770) = _
  generalize hV : V14 W = V
  after_results_simp
  subst hV
  rw [s14_arg9 W]
  rfl

theorem s15_v762 : V15 W (Proc.devRef .tc main_v762) = val_main_v762 (F := Ideal) (W (Proc.devRef .tc main_arg3)) := by
  show after (ops14 (F := Ideal)) (V14 W) (Proc.devRef .tc main_v762) = _
  generalize hV : V14 W = V
  after_results_simp
  subst hV
  rw [s14_v645 W]
  rfl

theorem s15_v764 : V15 W (Proc.devRef .tc main_v764) = val_main_v764 (F := Ideal) (W (Proc.devRef .tc main_arg4)) := by
  show after (ops14 (F := Ideal)) (V14 W) (Proc.devRef .tc main_v764) = _
  generalize hV : V14 W = V
  after_results_simp
  subst hV
  rw [s14_v647 W]
  rfl

theorem s15_v766 : V15 W (Proc.devRef .tc main_v766) = val_main_v766 (F := Ideal) (W (Proc.devRef .tc main_arg5)) := by
  show after (ops14 (F := Ideal)) (V14 W) (Proc.devRef .tc main_v766) = _
  generalize hV : V14 W = V
  after_results_simp
  subst hV
  rw [s14_v649 W]
  rfl

theorem s15_v686 : V15 W (Proc.devRef .tc main_v686) = val_main_v686 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops14 (F := Ideal)) (V14 W) (Proc.devRef .tc main_v686) = _
  generalize hV : V14 W = V
  after_results_simp
  subst hV
  exact s14_v686 W

theorem s15_v723 : V15 W (Proc.devRef .tc main_v723) = val_main_v723 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops14 (F := Ideal)) (V14 W) (Proc.devRef .tc main_v723) = _
  generalize hV : V14 W = V
  after_results_simp
  subst hV
  rw [s14_v717 W, s14_v719 W, s14_v643 W, s14_v692 W]
  rfl

theorem s15_v760 : V15 W (Proc.devRef .tc main_v760) = val_main_v760 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops14 (F := Ideal)) (V14 W) (Proc.devRef .tc main_v760) = _
  generalize hV : V14 W = V
  after_results_simp
  subst hV
  rw [s14_arg8 W, s14_v641 W, s14_v645 W, s14_v647 W, s14_v643 W, s14_v649 W]
  rfl

end Cert.ReferenceIdeal.Stage

end
-- ==== Proof.RefStageD.lean ====
/-
  The reference's @main read part by part, boundaries 16 to 20: `V<K>` is what the buffers hold after parts 0 to K-1, run from any
  contents `W`.  Each buffer that a later part reads holds, at the boundary where that part starts, the stage of the Read
  module that names it, applied to `W`'s argument arrays: where the buffer is written, the part's operations give it as
  its operation's function of buffers already named; across a part that does not write it, it keeps its contents.  The
  argument arrays keep theirs throughout.
-/
import proofs.«116292_j712964571450_1_alg».proof.Proof.RefStageC

set_option maxRecDepth 16384
set_option maxHeartbeats 4000000

noncomputable section

namespace Cert.ReferenceIdeal.Stage

open Cert.ReferenceIdeal Cert.ReferenceIdeal.Gen Cert.ReferenceIdeal.Parts Cert.ReferenceIdeal.ReadP
open Idealize.ShloMosaic Idealize.ShloMosaic.TcCoe Idealize.SL.Sem Idealize.ShloMosaic.StableHlo

variable (W : Valuation τ sig (Elt Ideal))

/-- The buffer contents after parts 0 to 15. -/
def V16 : Valuation τ sig (Elt Ideal) := after (ops15 (F := Ideal)) (V15 W)

/-- The buffer contents after parts 0 to 16. -/
def V17 : Valuation τ sig (Elt Ideal) := after (ops16 (F := Ideal)) (V16 W)

/-- The buffer contents after parts 0 to 17. -/
def V18 : Valuation τ sig (Elt Ideal) := after (ops17 (F := Ideal)) (V17 W)

/-- The buffer contents after parts 0 to 18. -/
def V19 : Valuation τ sig (Elt Ideal) := after (ops18 (F := Ideal)) (V18 W)

/-- The buffer contents after parts 0 to 19. -/
def V20 : Valuation τ sig (Elt Ideal) := after (ops19 (F := Ideal)) (V19 W)

theorem s16_arg11 : V16 W (Proc.devRef .tc main_arg11) = W (Proc.devRef .tc main_arg11) :=
  (kept15_11 (V15 W)).trans (s15_arg11 W)

theorem s16_arg12 : V16 W (Proc.devRef .tc main_arg12) = W (Proc.devRef .tc main_arg12) :=
  (kept15_12 (V15 W)).trans (s15_arg12 W)

theorem s16_arg13 : V16 W (Proc.devRef .tc main_arg13) = W (Proc.devRef .tc main_arg13) :=
  (kept15_13 (V15 W)).trans (s15_arg13 W)

theorem s16_v642 : V16 W (Proc.devRef .tc main_v642) = val_main_v642 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops15 (F := Ideal)) (V15 W) (Proc.devRef .tc main_v642) = _
  generalize hV : V15 W = V
  after_results_simp
  subst hV
  exact s15_v642 W

theorem s16_v645 : V16 W (Proc.devRef .tc main_v645) = val_main_v645 (F := Ideal) (W (Proc.devRef .tc main_arg3)) := by
  show after (ops15 (F := Ideal)) (V15 W) (Proc.devRef .tc main_v645) = _
  generalize hV : V15 W = V
  after_results_simp
  subst hV
  exact s15_v645 W

theorem s16_v647 : V16 W (Proc.devRef .tc main_v647) = val_main_v647 (F := Ideal) (W (Proc.devRef .tc main_arg4)) := by
  show after (ops15 (F := Ideal)) (V15 W) (Proc.devRef .tc main_v647) = _
  generalize hV : V15 W = V
  after_results_simp
  subst hV
  exact s15_v647 W

theorem s16_v649 : V16 W (Proc.devRef .tc main_v649) = val_main_v649 (F := Ideal) (W (Proc.devRef .tc main_arg5)) := by
  show after (ops15 (F := Ideal)) (V15 W) (Proc.devRef .tc main_v649) = _
  generalize hV : V15 W = V
  after_results_simp
  subst hV
  exact s15_v649 W

theorem s16_v643 : V16 W (Proc.devRef .tc main_v643) = val_main_v643 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops15 (F := Ideal)) (V15 W) (Proc.devRef .tc main_v643) = _
  generalize hV : V15 W = V
  after_results_simp
  subst hV
  exact s15_v643 W

theorem s16_v641 : V16 W (Proc.devRef .tc main_v641) = val_main_v641 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops15 (F := Ideal)) (V15 W) (Proc.devRef .tc main_v641) = _
  generalize hV : V15 W = V
  after_results_simp
  subst hV
  exact s15_v641 W

theorem s16_cst_135 : V16 W (Proc.devRef .tc main_cst_135) = val_main_cst_135 (F := Ideal) := by
  show after (ops15 (F := Ideal)) (V15 W) (Proc.devRef .tc main_cst_135) = _
  generalize hV : V15 W = V
  after_results_simp
  subst hV
  rfl

theorem s16_v821 : V16 W (Proc.devRef .tc main_v821) = val_main_v821 (F := Ideal) (W (Proc.devRef .tc main_arg10)) := by
  show after (ops15 (F := Ideal)) (V15 W) (Proc.devRef .tc main_v821) = _
  generalize hV : V15 W = V
  after_results_simp
  subst hV
  rw [s15_arg10 W]
  rfl

theorem s16_v817 : V16 W (Proc.devRef .tc main_v817) = val_main_v817 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops15 (F := Ideal)) (V15 W) (Proc.devRef .tc main_v817) = _
  generalize hV : V15 W = V
  after_results_simp
  subst hV
  rw [s15_arg10 W, s15_v643 W]
  rfl

theorem s16_v799 : V16 W (Proc.devRef .tc main_v799) = val_main_v799 (F := Ideal) (W (Proc.devRef .tc main_arg3)) := by
  show after (ops15 (F := Ideal)) (V15 W) (Proc.devRef .tc main_v799) = _
  generalize hV : V15 W = V
  after_results_simp
  subst hV
  rw [s15_v645 W]
  rfl

theorem s16_v801 : V16 W (Proc.devRef .tc main_v801) = val_main_v801 (F := Ideal) (W (Proc.devRef .tc main_arg4)) := by
  show after (ops15 (F := Ideal)) (V15 W) (Proc.devRef .tc main_v801) = _
  generalize hV : V15 W = V
  after_results_simp
  subst hV
  rw [s15_v647 W]
  rfl

theorem s16_v803 : V16 W (Proc.devRef .tc main_v803) = val_main_v803 (F := Ideal) (W (Proc.devRef .tc main_arg5)) := by
  show after (ops15 (F := Ideal)) (V15 W) (Proc.devRef .tc main_v803) = _
  generalize hV : V15 W = V
  after_results_simp
  subst hV
  rw [s15_v649 W]
  rfl

theorem s16_v797 : V16 W (Proc.devRef .tc main_v797) = val_main_v797 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops15 (F := Ideal)) (V15 W) (Proc.devRef .tc main_v797) = _
  generalize hV : V15 W = V
  after_results_simp
  subst hV
  rw [s15_v770 W, s15_v642 W, s15_v772 W, s15_v768 W, s15_v762 W, s15_v764 W, s15_v641 W, s15_v766 W]
  rfl

theorem s16_v686 : V16 W (Proc.devRef .tc main_v686) = val_main_v686 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops15 (F := Ideal)) (V15 W) (Proc.devRef .tc main_v686) = _
  generalize hV : V15 W = V
  after_results_simp
  subst hV
  exact s15_v686 W

theorem s16_v723 : V16 W (Proc.devRef .tc main_v723) = val_main_v723 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops15 (F := Ideal)) (V15 W) (Proc.devRef .tc main_v723) = _
  generalize hV : V15 W = V
  after_results_simp
  subst hV
  exact s15_v723 W

theorem s16_v760 : V16 W (Proc.devRef .tc main_v760) = val_main_v760 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops15 (F := Ideal)) (V15 W) (Proc.devRef .tc main_v760) = _
  generalize hV : V15 W = V
  after_results_simp
  subst hV
  exact s15_v760 W

theorem s17_arg12 : V17 W (Proc.devRef .tc main_arg12) = W (Proc.devRef .tc main_arg12) :=
  (kept16_12 (V16 W)).trans (s16_arg12 W)

theorem s17_arg13 : V17 W (Proc.devRef .tc main_arg13) = W (Proc.devRef .tc main_arg13) :=
  (kept16_13 (V16 W)).trans (s16_arg13 W)

theorem s17_v645 : V17 W (Proc.devRef .tc main_v645) = val_main_v645 (F := Ideal) (W (Proc.devRef .tc main_arg3)) := by
  show after (ops16 (F := Ideal)) (V16 W) (Proc.devRef .tc main_v645) = _
  generalize hV : V16 W = V
  after_results_simp
  subst hV
  exact s16_v645 W

theorem s17_v647 : V17 W (Proc.devRef .tc main_v647) = val_main_v647 (F := Ideal) (W (Proc.devRef .tc main_arg4)) := by
  show after (ops16 (F := Ideal)) (V16 W) (Proc.devRef .tc main_v647) = _
  generalize hV : V16 W = V
  after_results_simp
  subst hV
  exact s16_v647 W

theorem s17_v649 : V17 W (Proc.devRef .tc main_v649) = val_main_v649 (F := Ideal) (W (Proc.devRef .tc main_arg5)) := by
  show after (ops16 (F := Ideal)) (V16 W) (Proc.devRef .tc main_v649) = _
  generalize hV : V16 W = V
  after_results_simp
  subst hV
  exact s16_v649 W

theorem s17_v643 : V17 W (Proc.devRef .tc main_v643) = val_main_v643 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops16 (F := Ideal)) (V16 W) (Proc.devRef .tc main_v643) = _
  generalize hV : V16 W = V
  after_results_simp
  subst hV
  exact s16_v643 W

theorem s17_v641 : V17 W (Proc.devRef .tc main_v641) = val_main_v641 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops16 (F := Ideal)) (V16 W) (Proc.devRef .tc main_v641) = _
  generalize hV : V16 W = V
  after_results_simp
  subst hV
  exact s16_v641 W

theorem s17_v873 : V17 W (Proc.devRef .tc main_v873) = val_main_v873 (F := Ideal) (W (Proc.devRef .tc main_arg3)) := by
  show after (ops16 (F := Ideal)) (V16 W) (Proc.devRef .tc main_v873) = _
  generalize hV : V16 W = V
  after_results_simp
  subst hV
  rw [s16_v645 W]
  rfl

theorem s17_v875 : V17 W (Proc.devRef .tc main_v875) = val_main_v875 (F := Ideal) (W (Proc.devRef .tc main_arg4)) := by
  show after (ops16 (F := Ideal)) (V16 W) (Proc.devRef .tc main_v875) = _
  generalize hV : V16 W = V
  after_results_simp
  subst hV
  rw [s16_v647 W]
  rfl

theorem s17_v797 : V17 W (Proc.devRef .tc main_v797) = val_main_v797 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops16 (F := Ideal)) (V16 W) (Proc.devRef .tc main_v797) = _
  generalize hV : V16 W = V
  after_results_simp
  subst hV
  exact s16_v797 W

theorem s17_v871 : V17 W (Proc.devRef .tc main_v871) = val_main_v871 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops16 (F := Ideal)) (V16 W) (Proc.devRef .tc main_v871) = _
  generalize hV : V16 W = V
  after_results_simp
  subst hV
  rw [s16_arg11 W, s16_v643 W, s16_v645 W, s16_v647 W, s16_v641 W, s16_v649 W]
  rfl

theorem s17_v686 : V17 W (Proc.devRef .tc main_v686) = val_main_v686 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops16 (F := Ideal)) (V16 W) (Proc.devRef .tc main_v686) = _
  generalize hV : V16 W = V
  after_results_simp
  subst hV
  exact s16_v686 W

theorem s17_v834 : V17 W (Proc.devRef .tc main_v834) = val_main_v834 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops16 (F := Ideal)) (V16 W) (Proc.devRef .tc main_v834) = _
  generalize hV : V16 W = V
  after_results_simp
  subst hV
  rw [s16_v817 W, s16_v821 W, s16_cst_135 W, s16_v799 W, s16_v801 W, s16_v642 W, s16_v803 W]
  rfl

theorem s17_v723 : V17 W (Proc.devRef .tc main_v723) = val_main_v723 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops16 (F := Ideal)) (V16 W) (Proc.devRef .tc main_v723) = _
  generalize hV : V16 W = V
  after_results_simp
  subst hV
  exact s16_v723 W

theorem s17_v760 : V17 W (Proc.devRef .tc main_v760) = val_main_v760 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops16 (F := Ideal)) (V16 W) (Proc.devRef .tc main_v760) = _
  generalize hV : V16 W = V
  after_results_simp
  subst hV
  exact s16_v760 W

theorem s18_v643 : V18 W (Proc.devRef .tc main_v643) = val_main_v643 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops17 (F := Ideal)) (V17 W) (Proc.devRef .tc main_v643) = _
  generalize hV : V17 W = V
  after_results_simp
  subst hV
  exact s17_v643 W

theorem s18_v918 : V18 W (Proc.devRef .tc main_v918) = val_main_v918 (F := Ideal) (W (Proc.devRef .tc main_arg13)) := by
  show after (ops17 (F := Ideal)) (V17 W) (Proc.devRef .tc main_v918) = _
  generalize hV : V17 W = V
  after_results_simp
  subst hV
  rw [s17_arg13 W]
  rfl

theorem s18_v926 : V18 W (Proc.devRef .tc main_v926) = val_main_v926 (F := Ideal) := by
  show after (ops17 (F := Ideal)) (V17 W) (Proc.devRef .tc main_v926) = _
  generalize hV : V17 W = V
  after_results_simp
  subst hV
  rfl

theorem s18_v925 : V18 W (Proc.devRef .tc main_v925) = val_main_v925 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops17 (F := Ideal)) (V17 W) (Proc.devRef .tc main_v925) = _
  generalize hV : V17 W = V
  after_results_simp
  subst hV
  rw [s17_v643 W, s17_arg13 W]
  rfl

theorem s18_v910 : V18 W (Proc.devRef .tc main_v910) = val_main_v910 (F := Ideal) (W (Proc.devRef .tc main_arg3)) := by
  show after (ops17 (F := Ideal)) (V17 W) (Proc.devRef .tc main_v910) = _
  generalize hV : V17 W = V
  after_results_simp
  subst hV
  rw [s17_v645 W]
  rfl

theorem s18_v912 : V18 W (Proc.devRef .tc main_v912) = val_main_v912 (F := Ideal) (W (Proc.devRef .tc main_arg4)) := by
  show after (ops17 (F := Ideal)) (V17 W) (Proc.devRef .tc main_v912) = _
  generalize hV : V17 W = V
  after_results_simp
  subst hV
  rw [s17_v647 W]
  rfl

theorem s18_v914 : V18 W (Proc.devRef .tc main_v914) = val_main_v914 (F := Ideal) (W (Proc.devRef .tc main_arg5)) := by
  show after (ops17 (F := Ideal)) (V17 W) (Proc.devRef .tc main_v914) = _
  generalize hV : V17 W = V
  after_results_simp
  subst hV
  rw [s17_v649 W]
  rfl

theorem s18_v797 : V18 W (Proc.devRef .tc main_v797) = val_main_v797 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops17 (F := Ideal)) (V17 W) (Proc.devRef .tc main_v797) = _
  generalize hV : V17 W = V
  after_results_simp
  subst hV
  exact s17_v797 W

theorem s18_v871 : V18 W (Proc.devRef .tc main_v871) = val_main_v871 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops17 (F := Ideal)) (V17 W) (Proc.devRef .tc main_v871) = _
  generalize hV : V17 W = V
  after_results_simp
  subst hV
  exact s17_v871 W

theorem s18_v908 : V18 W (Proc.devRef .tc main_v908) = val_main_v908 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops17 (F := Ideal)) (V17 W) (Proc.devRef .tc main_v908) = _
  generalize hV : V17 W = V
  after_results_simp
  subst hV
  rw [s17_arg12 W, s17_v641 W, s17_v873 W, s17_v875 W, s17_v649 W]
  rfl

theorem s18_v686 : V18 W (Proc.devRef .tc main_v686) = val_main_v686 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops17 (F := Ideal)) (V17 W) (Proc.devRef .tc main_v686) = _
  generalize hV : V17 W = V
  after_results_simp
  subst hV
  exact s17_v686 W

theorem s18_v834 : V18 W (Proc.devRef .tc main_v834) = val_main_v834 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops17 (F := Ideal)) (V17 W) (Proc.devRef .tc main_v834) = _
  generalize hV : V17 W = V
  after_results_simp
  subst hV
  exact s17_v834 W

theorem s18_v723 : V18 W (Proc.devRef .tc main_v723) = val_main_v723 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops17 (F := Ideal)) (V17 W) (Proc.devRef .tc main_v723) = _
  generalize hV : V17 W = V
  after_results_simp
  subst hV
  exact s17_v723 W

theorem s18_v760 : V18 W (Proc.devRef .tc main_v760) = val_main_v760 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops17 (F := Ideal)) (V17 W) (Proc.devRef .tc main_v760) = _
  generalize hV : V17 W = V
  after_results_simp
  subst hV
  exact s17_v760 W

theorem s19_v974 : V19 W (Proc.devRef .tc main_v974) = val_main_v974 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops18 (F := Ideal)) (V18 W) (Proc.devRef .tc main_v974) = _
  generalize hV : V18 W = V
  after_results_simp
  subst hV
  rw [s18_v686 W, s18_v834 W]
  rfl

theorem s19_v956 : V19 W (Proc.devRef .tc main_v956) = val_main_v956 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops18 (F := Ideal)) (V18 W) (Proc.devRef .tc main_v956) = _
  generalize hV : V18 W = V
  after_results_simp
  subst hV
  rw [s18_v686 W, s18_v834 W]
  rfl

theorem s19_v962 : V19 W (Proc.devRef .tc main_v962) = val_main_v962 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops18 (F := Ideal)) (V18 W) (Proc.devRef .tc main_v962) = _
  generalize hV : V18 W = V
  after_results_simp
  subst hV
  rw [s18_v723 W, s18_v760 W, s18_v926 W, s18_v918 W, s18_v925 W, s18_v910 W, s18_v912 W, s18_v643 W, s18_v914 W]
  rfl

theorem s19_v970 : V19 W (Proc.devRef .tc main_v970) = val_main_v970 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops18 (F := Ideal)) (V18 W) (Proc.devRef .tc main_v970) = _
  generalize hV : V18 W = V
  after_results_simp
  subst hV
  rw [s18_v797 W, s18_v871 W, s18_v908 W]
  rfl

theorem s20_v970 : V20 W (Proc.devRef .tc main_v970) = val_main_v970 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops19 (F := Ideal)) (V19 W) (Proc.devRef .tc main_v970) = _
  generalize hV : V19 W = V
  after_results_simp
  subst hV
  exact s19_v970 W

theorem s20_v978 : V20 W (Proc.devRef .tc main_v978) = val_main_v978 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops19 (F := Ideal)) (V19 W) (Proc.devRef .tc main_v978) = _
  generalize hV : V19 W = V
  after_results_simp
  subst hV
  rw [s19_v956 W, s19_v974 W]
  rfl

theorem s20_v986 : V20 W (Proc.devRef .tc main_v986) = val_main_v986 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  show after (ops19 (F := Ideal)) (V19 W) (Proc.devRef .tc main_v986) = _
  generalize hV : V19 W = V
  after_results_simp
  subst hV
  rw [s19_v962 W]
  rfl

/-- Running @main's whole list is running the twenty parts one after the other. -/
theorem after_ops : after (ops (F := Ideal)) W = V20 W := by
  simp only [ops, after_append]
  rfl

end Cert.ReferenceIdeal.Stage

end
-- ==== Proof.RefRun.lean ====
/-
  The reference's run: every weakly fair execution of its @main terminates, nothing faulting, with each of the three
  results at the last stage of its chain of host operations applied to the launch contents of the arguments, and the
  arguments unchanged.  The library's theorem for a straight-line host program gives every buffer at the fold of the
  operations over the launch contents; the fold is the twenty parts run in order, after which the three result buffers hold
  their stages and the fourteen arguments what they held.
-/
import proofs.«116292_j712964571450_1_alg».proof.Proof.RefOps
import proofs.«116292_j712964571450_1_alg».proof.Proof.ReadP
import proofs.«116292_j712964571450_1_alg».proof.Proof.RefStageD

set_option maxRecDepth 16384

noncomputable section

namespace Cert.ReferenceIdeal.RefRun

open Cert.ReferenceIdeal Cert.ReferenceIdeal.Gen Cert.ReferenceIdeal.Parts Cert.ReferenceIdeal.ReadP
open Idealize.ShloMosaic Idealize.ShloMosaic.TcCoe Idealize.SL.Sem Idealize.ShloMosaic.StableHlo

open Cert.ReferenceIdeal.Stage

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v970) = val_main_v970 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v978) = val_main_v978 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v986) = val_main_v986 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v970).trans ((congrFun (after_ops _) _).trans (s20_v970 _)),
      (h c main_v978).trans ((congrFun (after_ops _) _).trans (s20_v978 _)),
      (h c main_v986).trans ((congrFun (after_ops _) _).trans (s20_v986 _)),
      (h c main_arg0).trans (kept0 _),
      (h c main_arg1).trans (kept1 _),
      (h c main_arg2).trans (kept2 _),
      (h c main_arg3).trans (kept3 _),
      (h c main_arg4).trans (kept4 _),
      (h c main_arg5).trans (kept5 _),
      (h c main_arg6).trans (kept6 _),
      (h c main_arg7).trans (kept7 _),
      (h c main_arg8).trans (kept8 _),
      (h c main_arg9).trans (kept9 _),
      (h c main_arg10).trans (kept10 _),
      (h c main_arg11).trans (kept11 _),
      (h c main_arg12).trans (kept12 _),
      (h c main_arg13).trans (kept13 _)⟩)
    (run_seq scopedRefs_eq scopedSems_eq defs main (fun _ => ops) main_eq (fun _ => ops_sub) m ρ
      (fun _ op hop => List.forall_iff_forall_mem.mp ops_fresh op hop))

end Cert.ReferenceIdeal.RefRun

end
-- ==== Proof.lean ====
/-
  A three-layer heterogeneous mean-aggregating network on three node types and eight relations: the kernel computes each
  layer's aggregates on the host (rows gathered at the source entries, summed per destination, divided by the clamped
  edge count, the counts taken once) and each node type's update in one kernel region — every relation's message
  (aggregate times transposed weight, bias row, the node's own rows times a second transposed weight), the messages added
  from zero, the sum times 1/3 (a named constant) or 1/2, then the rectifier, or in the last layer each row divided by the
  larger of its norm and 1e-12.  The reference computes the same on the host, dividing the sum by 3 or 2.

  On the extended reals the two are one function of the arguments: the quotient by a nonzero real is the product with its
  reciprocal at every extended real, a region's row blocks tile its rows and an entry of an update depends on one row of
  the row-blocked operands, the aggregates are the same chain of operations on both sides, and the kernel's one-step slices
  of the stacked parameters are the reference's two-step ones.  No step uses that the inputs are finite.

  The three frames are the programs' runs with the results dropped; the six entries of the ideal pass's ledger are one
  statement, that the named constant denotes 1/3.
-/
import proofs.«116292_j712964571450_1_alg».proof.Defs
import proofs.«116292_j712964571450_1_alg».proof.Proof.Gen.Kernel
import proofs.«116292_j712964571450_1_alg».proof.Proof.Gen.Kernel.Skeleton
import proofs.«116292_j712964571450_1_alg».proof.Proof.Gen.Kernel.Launch
import proofs.«116292_j712964571450_1_alg».proof.Proof.Gen.Kernel.Points
import proofs.«116292_j712964571450_1_alg».proof.Proof.FrameKernelP
import proofs.«116292_j712964571450_1_alg».proof.Proof.Gen.KernelIdeal
import proofs.«116292_j712964571450_1_alg».proof.Proof.Gen.KernelIdeal.Skeleton
import proofs.«116292_j712964571450_1_alg».proof.Proof.Gen.KernelIdeal.Launch
import proofs.«116292_j712964571450_1_alg».proof.Proof.Gen.KernelIdeal.Points
import proofs.«116292_j712964571450_1_alg».proof.Proof.FrameKernelIdealP
import proofs.«116292_j712964571450_1_alg».proof.Proof.Gen.ReferenceIdeal
import proofs.«116292_j712964571450_1_alg».proof.Proof.Gen.Pre_finite_inputs
import proofs.«116292_j712964571450_1_alg».proof.Proof.ReadP
import proofs.«116292_j712964571450_1_alg».proof.Proof.KernelRun
import proofs.«116292_j712964571450_1_alg».proof.Proof.Chain2
import proofs.«116292_j712964571450_1_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

/-- The reference's run with the three results dropped. -/
theorem frame_ri : Cert.frame_ReferenceIdeal := fun m ρ _ =>
  (θ_run Cert.ReferenceIdeal.defs _ _).mono (fun _ h c => (h c).2.2.2) (Cert.ReferenceIdeal.RefRun.run m ρ)

/-- The certificate's table gives the name the value 1/3, and the printed constant is that value at the ideal instance. -/
theorem named_third : IdealRules.named_const.Statement Cert.KernelIdeal.κ "inv_3" .f32 0x3EAAAAAB#32 ((1 / 3 : ℝ) : EReal) :=
  IdealRules.named_const.statement Cert.KernelIdeal.κ "inv_3" .f32 0x3EAAAAAB#32 ((1 / 3 : ℝ) : EReal) rfl

theorem preserves : Cert.preserves_Kernel_KernelIdeal :=
  ⟨named_third, named_third, named_third, named_third, named_third, named_third⟩

/-- Both programs run; the kernel's three result arrays hold the last boundary's contents, which are the reference's last
    stages of the same arguments. -/
theorem algebraic : Cert.algebraic_KernelIdeal_ReferenceIdeal := by
  intro m ρ m' ρ' _ hagree
  refine ⟨fun c => Cert.KernelIdeal.GenP.W18 m ρ c (Proc.devRef .tc Cert.KernelIdeal.main_v595),
    fun c => Cert.KernelIdeal.GenP.W18 m ρ c (Proc.devRef .tc Cert.KernelIdeal.main_v610),
    fun c => Cert.KernelIdeal.GenP.W18 m ρ c (Proc.devRef .tc Cert.KernelIdeal.main_v632), ?_, ?_⟩
  · exact (θ_run Cert.KernelIdeal.defs _ _).mono (fun r h c => ⟨h c Cert.KernelIdeal.main_v595 (by decide), h c Cert.KernelIdeal.main_v610 (by decide), h c Cert.KernelIdeal.main_v632 (by decide),
      (h c Cert.KernelIdeal.main_arg0 (by decide)).trans (Cert.KernelIdeal.GenP.W18_main_arg0 m ρ c),
      (h c Cert.KernelIdeal.main_arg1 (by decide)).trans (Cert.KernelIdeal.GenP.W18_main_arg1 m ρ c),
      (h c Cert.KernelIdeal.main_arg2 (by decide)).trans (Cert.KernelIdeal.GenP.W18_main_arg2 m ρ c),
      (h c Cert.KernelIdeal.main_arg3 (by decide)).trans (Cert.KernelIdeal.GenP.W18_main_arg3 m ρ c),
      (h c Cert.KernelIdeal.main_arg4 (by decide)).trans (Cert.KernelIdeal.GenP.W18_main_arg4 m ρ c),
      (h c Cert.KernelIdeal.main_arg5 (by decide)).trans (Cert.KernelIdeal.GenP.W18_main_arg5 m ρ c),
      (h c Cert.KernelIdeal.main_arg6 (by decide)).trans (Cert.KernelIdeal.GenP.W18_main_arg6 m ρ c),
      (h c Cert.KernelIdeal.main_arg7 (by decide)).trans (Cert.KernelIdeal.GenP.W18_main_arg7 m ρ c),
      (h c Cert.KernelIdeal.main_arg8 (by decide)).trans (Cert.KernelIdeal.GenP.W18_main_arg8 m ρ c),
      (h c Cert.KernelIdeal.main_arg9 (by decide)).trans (Cert.KernelIdeal.GenP.W18_main_arg9 m ρ c),
      (h c Cert.KernelIdeal.main_arg10 (by decide)).trans (Cert.KernelIdeal.GenP.W18_main_arg10 m ρ c),
      (h c Cert.KernelIdeal.main_arg11 (by decide)).trans (Cert.KernelIdeal.GenP.W18_main_arg11 m ρ c),
      (h c Cert.KernelIdeal.main_arg12 (by decide)).trans (Cert.KernelIdeal.GenP.W18_main_arg12 m ρ c),
      (h c Cert.KernelIdeal.main_arg13 (by decide)).trans (Cert.KernelIdeal.GenP.W18_main_arg13 m ρ c)⟩)
      (Cert.KernelIdeal.Whole.run_all m ρ)
  · refine (θ_run Cert.ReferenceIdeal.defs _ _).mono (fun r h c => ⟨(h c).1.trans ?_, (h c).2.1.trans ?_, (h c).2.2.1.trans ?_, (h c).2.2.2⟩)
      (Cert.ReferenceIdeal.RefRun.run m' ρ')
    all_goals
      obtain ⟨a0, a1, a2, a3, a4, a5, a6, a7, a8, a9, a10, a11, a12, a13⟩ := hagree c
      simp only [a0, a1, a2, a3, a4, a5, a6, a7, a8, a9, a10, a11, a12, a13]
    · exact (Cert.KernelIdeal.Chain.at18_v595 m ρ c).symm
    · exact (Cert.KernelIdeal.Chain.at18_v610 m ρ c).symm
    · exact (Cert.KernelIdeal.Chain.out8 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
